-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v220) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S524288x6 : Shape := ⟨2, ![524288, 6]⟩
abbrev S524288x1 : Shape := ⟨2, ![524288, 1]⟩
abbrev S128x64 : Shape := ⟨2, ![128, 64]⟩
abbrev S64 : Shape := ⟨1, ![64]⟩
abbrev S64x32 : Shape := ⟨2, ![64, 32]⟩
abbrev S32 : Shape := ⟨1, ![32]⟩
abbrev S6x16 : Shape := ⟨2, ![6, 16]⟩
abbrev S16 : Shape := ⟨1, ![16]⟩
abbrev S16x32 : Shape := ⟨2, ![16, 32]⟩
abbrev S1x16 : Shape := ⟨2, ![1, 16]⟩
abbrev S32x32 : Shape := ⟨2, ![32, 32]⟩
abbrev S32x16 : Shape := ⟨2, ![32, 16]⟩
abbrev S135x64 : Shape := ⟨2, ![135, 64]⟩
abbrev S16x1 : Shape := ⟨2, ![16, 1]⟩
abbrev S1 : Shape := ⟨1, ![1]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S524288x6 : S_.BroadcastsInDim S524288x6 (![] : Fin 0 → Fin S524288x6.rank)
  reducesTo_S524288x6_S_d0_1 : S524288x6.ReducesTo [0, 1] S_
  bcast_S_S524288x1 : S_.BroadcastsInDim S524288x1 (![] : Fin 0 → Fin S524288x1.rank)
  reducesTo_S524288x1_S_d0_1 : S524288x1.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S6x16 : S_.BroadcastsInDim S6x16 (![] : Fin 0 → Fin S6x16.rank)
  reducesTo_S6x16_S_d0_1 : S6x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S1x16 : S_.BroadcastsInDim S1x16 (![] : Fin 0 → Fin S1x16.rank)
  reducesTo_S1x16_S_d0_1 : S1x16.ReducesTo [0, 1] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_
  bcast_S_S135x64 : S_.BroadcastsInDim S135x64 (![] : Fin 0 → Fin S135x64.rank)
  reducesTo_S135x64_S_d0_1 : S135x64.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part10 {F : FTy → Type} [FloatOps F] (main_arg35 : FVec F S1 .f32) (main_v168 : IVec S_ 1) (main_v169 : FVec F S16x1 .f32) (main_v170 : FVec F S16x1 .f32) : IVec S_ 1 :=
  let main_v171 : IVec S16x1 1 := cmpf .olt main_v169 main_v170
  let main_c_67 : IVec S_ 1 := constantI S_ 1 1#1
  let main_v172 : IVec S_ 1 := (fun x v => Host.reduce IntOp.andi x v reducesTo_S16x1_S_d0_1 h_S_) main_v171 main_c_67
  let main_v173 : IVec S_ 1 := andi main_v168 main_v172
  let main_v174 : FVec F S1 .f32 := Host.absf main_arg35
  let main_cst_68 : FVec F S_ .f32 := constant S_ .f32 0x7F800000#32
  let main_v175 : FVec F S1 .f32 := broadcastInDim S1 ![] bcast_S_S1 main_cst_68
  let main_v176 : IVec S1 1 := cmpf .olt main_v174 main_v175
  let main_c_69 : IVec S_ 1 := constantI S_ 1 1#1
  let main_v177 : IVec S_ 1 := (fun x v => Host.reduce IntOp.andi x v reducesTo_S1_S_d0 h_S_) main_v176 main_c_69
  let main_v178 : IVec S_ 1 := andi main_v173 main_v177
  main_v178

def fn_part9 {F : FTy → Type} [FloatOps F] (main_arg31 : FVec F S32x16 .f32) (main_arg32 : FVec F S16 .f32) (main_arg33 : FVec F S16 .f32) (main_arg34 : FVec F S16x1 .f32) (main_arg35 : FVec F S1 .f32) (main_v153 : IVec S_ 1) : IVec S_ 1 :=
  let main_v154 : FVec F S32x16 .f32 := Host.absf main_arg31
  let main_cst_60 : FVec F S_ .f32 := constant S_ .f32 0x7F800000#32
  let main_v155 : FVec F S32x16 .f32 := broadcastInDim S32x16 ![] bcast_S_S32x16 main_cst_60
  let main_v156 : IVec S32x16 1 := cmpf .olt main_v154 main_v155
  let main_c_61 : IVec S_ 1 := constantI S_ 1 1#1
  let main_v157 : IVec S_ 1 := (fun x v => Host.reduce IntOp.andi x v reducesTo_S32x16_S_d0_1 h_S_) main_v156 main_c_61
  let main_v158 : IVec S_ 1 := andi main_v153 main_v157
  let main_v159 : FVec F S16 .f32 := Host.absf main_arg32
  let main_cst_62 : FVec F S_ .f32 := constant S_ .f32 0x7F800000#32
  let main_v160 : FVec F S16 .f32 := broadcastInDim S16 ![] bcast_S_S16 main_cst_62
  let main_v161 : IVec S16 1 := cmpf .olt main_v159 main_v160
  let main_c_63 : IVec S_ 1 := constantI S_ 1 1#1
  let main_v162 : IVec S_ 1 := (fun x v => Host.reduce IntOp.andi x v reducesTo_S16_S_d0 h_S_) main_v161 main_c_63
  let main_v163 : IVec S_ 1 := andi main_v158 main_v162
  let main_v164 : FVec F S16 .f32 := Host.absf main_arg33
  let main_cst_64 : FVec F S_ .f32 := constant S_ .f32 0x7F800000#32
  let main_v165 : FVec F S16 .f32 := broadcastInDim S16 ![] bcast_S_S16 main_cst_64
  let main_v166 : IVec S16 1 := cmpf .olt main_v164 main_v165
  let main_c_65 : IVec S_ 1 := constantI S_ 1 1#1
  let main_v167 : IVec S_ 1 := (fun x v => Host.reduce IntOp.andi x v reducesTo_S16_S_d0 h_S_) main_v166 main_c_65
  let main_v168 : IVec S_ 1 := andi main_v163 main_v167
  let main_v169 : FVec F S16x1 .f32 := Host.absf main_arg34
  let main_cst_66 : FVec F S_ .f32 := constant S_ .f32 0x7F800000#32
  let main_v170 : FVec F S16x1 .f32 := broadcastInDim S16x1 ![] bcast_S_S16x1 main_cst_66
  fn_part10 (F := F) main_arg35 main_v168 main_v169 main_v170

def fn_part8 {F : FTy → Type} [FloatOps F] (main_arg28 : FVec F S32 .f32) (main_arg29 : FVec F S32x16 .f32) (main_arg30 : FVec F S16 .f32) (main_arg31 : FVec F S32x16 .f32) (main_arg32 : FVec F S16 .f32) (main_arg33 : FVec F S16 .f32) (main_arg34 : FVec F S16x1 .f32) (main_arg35 : FVec F S1 .f32) (main_v133 : IVec S_ 1) (main_v136 : IVec S32 1) : IVec S_ 1 :=
  let main_c_53 : IVec S_ 1 := constantI S_ 1 1#1
  let main_v137 : IVec S_ 1 := (fun x v => Host.reduce IntOp.andi x v reducesTo_S32_S_d0 h_S_) main_v136 main_c_53
  let main_v138 : IVec S_ 1 := andi main_v133 main_v137
  let main_v139 : FVec F S32 .f32 := Host.absf main_arg28
  let main_cst_54 : FVec F S_ .f32 := constant S_ .f32 0x7F800000#32
  let main_v140 : FVec F S32 .f32 := broadcastInDim S32 ![] bcast_S_S32 main_cst_54
  let main_v141 : IVec S32 1 := cmpf .olt main_v139 main_v140
  let main_c_55 : IVec S_ 1 := constantI S_ 1 1#1
  let main_v142 : IVec S_ 1 := (fun x v => Host.reduce IntOp.andi x v reducesTo_S32_S_d0 h_S_) main_v141 main_c_55
  let main_v143 : IVec S_ 1 := andi main_v138 main_v142
  let main_v144 : FVec F S32x16 .f32 := Host.absf main_arg29
  let main_cst_56 : FVec F S_ .f32 := constant S_ .f32 0x7F800000#32
  let main_v145 : FVec F S32x16 .f32 := broadcastInDim S32x16 ![] bcast_S_S32x16 main_cst_56
  let main_v146 : IVec S32x16 1 := cmpf .olt main_v144 main_v145
  let main_c_57 : IVec S_ 1 := constantI S_ 1 1#1
  let main_v147 : IVec S_ 1 := (fun x v => Host.reduce IntOp.andi x v reducesTo_S32x16_S_d0_1 h_S_) main_v146 main_c_57
  let main_v148 : IVec S_ 1 := andi main_v143 main_v147
  let main_v149 : FVec F S16 .f32 := Host.absf main_arg30
  let main_cst_58 : FVec F S_ .f32 := constant S_ .f32 0x7F800000#32
  let main_v150 : FVec F S16 .f32 := broadcastInDim S16 ![] bcast_S_S16 main_cst_58
  let main_v151 : IVec S16 1 := cmpf .olt main_v149 main_v150
  let main_c_59 : IVec S_ 1 := constantI S_ 1 1#1
  let main_v152 : IVec S_ 1 := (fun x v => Host.reduce IntOp.andi x v reducesTo_S16_S_d0 h_S_) main_v151 main_c_59
  let main_v153 : IVec S_ 1 := andi main_v148 main_v152
  fn_part9 (F := F) main_arg31 main_arg32 main_arg33 main_arg34 main_arg35 main_v153

def fn_part7 {F : FTy → Type} [FloatOps F] (main_arg25 : FVec F S64 .f32) (main_arg26 : FVec F S64x32 .f32) (main_arg27 : FVec F S32 .f32) (main_arg28 : FVec F S32 .f32) (main_arg29 : FVec F S32x16 .f32) (main_arg30 : FVec F S16 .f32) (main_arg31 : FVec F S32x16 .f32) (main_arg32 : FVec F S16 .f32) (main_arg33 : FVec F S16 .f32) (main_arg34 : FVec F S16x1 .f32) (main_arg35 : FVec F S1 .f32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_v124 : FVec F S64 .f32 := Host.absf main_arg25
  let main_cst_48 : FVec F S_ .f32 := constant S_ .f32 0x7F800000#32
  let main_v125 : FVec F S64 .f32 := broadcastInDim S64 ![] bcast_S_S64 main_cst_48
  let main_v126 : IVec S64 1 := cmpf .olt main_v124 main_v125
  let main_c_49 : IVec S_ 1 := constantI S_ 1 1#1
  let main_v127 : IVec S_ 1 := (fun x v => Host.reduce IntOp.andi x v reducesTo_S64_S_d0 h_S_) main_v126 main_c_49
  let main_v128 : IVec S_ 1 := andi main_v123 main_v127
  let main_v129 : FVec F S64x32 .f32 := Host.absf main_arg26
  let main_cst_50 : FVec F S_ .f32 := constant S_ .f32 0x7F800000#32
  let main_v130 : FVec F S64x32 .f32 := broadcastInDim S64x32 ![] bcast_S_S64x32 main_cst_50
  let main_v131 : IVec S64x32 1 := cmpf .olt main_v129 main_v130
  let main_c_51 : IVec S_ 1 := constantI S_ 1 1#1
  let main_v132 : IVec S_ 1 := (fun x v => Host.reduce IntOp.andi x v reducesTo_S64x32_S_d0_1 h_S_) main_v131 main_c_51
  let main_v133 : IVec S_ 1 := andi main_v128 main_v132
  let main_v134 : FVec F S32 .f32 := Host.absf main_arg27
  let main_cst_52 : FVec F S_ .f32 := constant S_ .f32 0x7F800000#32
  let main_v135 : FVec F S32 .f32 := broadcastInDim S32 ![] bcast_S_S32 main_cst_52
  let main_v136 : IVec S32 1 := cmpf .olt main_v134 main_v135
  fn_part8 (F := F) main_arg28 main_arg29 main_arg30 main_arg31 main_arg32 main_arg33 main_arg34 main_arg35 main_v133 main_v136

def fn_part6 {F : FTy → Type} [FloatOps F] (main_arg21 : FVec F S32x16 .f32) (main_arg22 : FVec F S16 .f32) (main_arg23 : FVec F S135x64 .f32) (main_arg24 : FVec F S64 .f32) (main_arg25 : FVec F S64 .f32) (main_arg26 : FVec F S64x32 .f32) (main_arg27 : FVec F S32 .f32) (main_arg28 : FVec F S32 .f32) (main_arg29 : FVec F S32x16 .f32) (main_arg30 : FVec F S16 .f32) (main_arg31 : FVec F S32x16 .f32) (main_arg32 : FVec F S16 .f32) (main_arg33 : FVec F S16 .f32) (main_arg34 : FVec F S16x1 .f32) (main_arg35 : FVec F S1 .f32) (main_v98 : IVec S_ 1) (main_v101 : IVec S32 1) (main_c_39 : IVec S_ 1) : IVec S_ 1 :=
  let main_v102 : IVec S_ 1 := (fun x v => Host.reduce IntOp.andi x v reducesTo_S32_S_d0 h_S_) main_v101 main_c_39
  let main_v103 : IVec S_ 1 := andi main_v98 main_v102
  let main_v104 : FVec F S32x16 .f32 := Host.absf main_arg21
  let main_cst_40 : FVec F S_ .f32 := constant S_ .f32 0x7F800000#32
  let main_v105 : FVec F S32x16 .f32 := broadcastInDim S32x16 ![] bcast_S_S32x16 main_cst_40
  let main_v106 : IVec S32x16 1 := cmpf .olt main_v104 main_v105
  let main_c_41 : IVec S_ 1 := constantI S_ 1 1#1
  let main_v107 : IVec S_ 1 := (fun x v => Host.reduce IntOp.andi x v reducesTo_S32x16_S_d0_1 h_S_) main_v106 main_c_41
  let main_v108 : IVec S_ 1 := andi main_v103 main_v107
  let main_v109 : FVec F S16 .f32 := Host.absf main_arg22
  let main_cst_42 : FVec F S_ .f32 := constant S_ .f32 0x7F800000#32
  let main_v110 : FVec F S16 .f32 := broadcastInDim S16 ![] bcast_S_S16 main_cst_42
  let main_v111 : IVec S16 1 := cmpf .olt main_v109 main_v110
  let main_c_43 : IVec S_ 1 := constantI S_ 1 1#1
  let main_v112 : IVec S_ 1 := (fun x v => Host.reduce IntOp.andi x v reducesTo_S16_S_d0 h_S_) main_v111 main_c_43
  let main_v113 : IVec S_ 1 := andi main_v108 main_v112
  let main_v114 : FVec F S135x64 .f32 := Host.absf main_arg23
  let main_cst_44 : FVec F S_ .f32 := constant S_ .f32 0x7F800000#32
  let main_v115 : FVec F S135x64 .f32 := broadcastInDim S135x64 ![] bcast_S_S135x64 main_cst_44
  let main_v116 : IVec S135x64 1 := cmpf .olt main_v114 main_v115
  let main_c_45 : IVec S_ 1 := constantI S_ 1 1#1
  let main_v117 : IVec S_ 1 := (fun x v => Host.reduce IntOp.andi x v reducesTo_S135x64_S_d0_1 h_S_) main_v116 main_c_45
  let main_v118 : IVec S_ 1 := andi main_v113 main_v117
  let main_v119 : FVec F S64 .f32 := Host.absf main_arg24
  fn_part7 (F := F) main_arg25 main_arg26 main_arg27 main_arg28 main_arg29 main_arg30 main_arg31 main_arg32 main_arg33 main_arg34 main_arg35 main_v118 main_v119

def fn_part5 {F : FTy → Type} [FloatOps F] (main_arg18 : FVec F S32x32 .f32) (main_arg19 : FVec F S32 .f32) (main_arg20 : FVec F S32 .f32) (main_arg21 : FVec F S32x16 .f32) (main_arg22 : FVec F S16 .f32) (main_arg23 : FVec F S135x64 .f32) (main_arg24 : FVec F S64 .f32) (main_arg25 : FVec F S64 .f32) (main_arg26 : FVec F S64x32 .f32) (main_arg27 : FVec F S32 .f32) (main_arg28 : FVec F S32 .f32) (main_arg29 : FVec F S32x16 .f32) (main_arg30 : FVec F S16 .f32) (main_arg31 : FVec F S32x16 .f32) (main_arg32 : FVec F S16 .f32) (main_arg33 : FVec F S16 .f32) (main_arg34 : FVec F S16x1 .f32) (main_arg35 : FVec F S1 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32x32 .f32 := Host.absf main_arg18
  let main_cst_34 : FVec F S_ .f32 := constant S_ .f32 0x7F800000#32
  let main_v90 : FVec F S32x32 .f32 := broadcastInDim S32x32 ![] bcast_S_S32x32 main_cst_34
  let main_v91 : IVec S32x32 1 := cmpf .olt main_v89 main_v90
  let main_c_35 : IVec S_ 1 := constantI S_ 1 1#1
  let main_v92 : IVec S_ 1 := (fun x v => Host.reduce IntOp.andi x v reducesTo_S32x32_S_d0_1 h_S_) main_v91 main_c_35
  let main_v93 : IVec S_ 1 := andi main_v88 main_v92
  let main_v94 : FVec F S32 .f32 := Host.absf main_arg19
  let main_cst_36 : FVec F S_ .f32 := constant S_ .f32 0x7F800000#32
  let main_v95 : FVec F S32 .f32 := broadcastInDim S32 ![] bcast_S_S32 main_cst_36
  let main_v96 : IVec S32 1 := cmpf .olt main_v94 main_v95
  let main_c_37 : IVec S_ 1 := constantI S_ 1 1#1
  let main_v97 : IVec S_ 1 := (fun x v => Host.reduce IntOp.andi x v reducesTo_S32_S_d0 h_S_) main_v96 main_c_37
  let main_v98 : IVec S_ 1 := andi main_v93 main_v97
  let main_v99 : FVec F S32 .f32 := Host.absf main_arg20
  let main_cst_38 : FVec F S_ .f32 := constant S_ .f32 0x7F800000#32
  let main_v100 : FVec F S32 .f32 := broadcastInDim S32 ![] bcast_S_S32 main_cst_38
  let main_v101 : IVec S32 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_arg32 main_arg33 main_arg34 main_arg35 main_v98 main_v101 main_c_39

def fn_part4 {F : FTy → Type} [FloatOps F] (main_arg14 : FVec F S16 .f32) (main_arg15 : FVec F S16 .f32) (main_arg16 : FVec F S16x32 .f32) (main_arg17 : FVec F S32 .f32) (main_arg18 : FVec F S32x32 .f32) (main_arg19 : FVec F S32 .f32) (main_arg20 : FVec F S32 .f32) (main_arg21 : FVec F S32x16 .f32) (main_arg22 : FVec F S16 .f32) (main_arg23 : FVec F S135x64 .f32) (main_arg24 : FVec F S64 .f32) (main_arg25 : FVec F S64 .f32) (main_arg26 : FVec F S64x32 .f32) (main_arg27 : FVec F S32 .f32) (main_arg28 : FVec F S32 .f32) (main_arg29 : FVec F S32x16 .f32) (main_arg30 : FVec F S16 .f32) (main_arg31 : FVec F S32x16 .f32) (main_arg32 : FVec F S16 .f32) (main_arg33 : FVec F S16 .f32) (main_arg34 : FVec F S16x1 .f32) (main_arg35 : FVec F S1 .f32) (main_v63 : IVec S_ 1) (main_v67 : IVec S_ 1) : IVec S_ 1 :=
  let main_v68 : IVec S_ 1 := andi main_v63 main_v67
  let main_v69 : FVec F S16 .f32 := Host.absf main_arg14
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  let main_v74 : FVec F S16 .f32 := Host.absf main_arg15
  let main_cst_28 : FVec F S_ .f32 := constant S_ .f32 0x7F800000#32
  let main_v75 : FVec F S16 .f32 := broadcastInDim S16 ![] bcast_S_S16 main_cst_28
  let main_v76 : IVec S16 1 := cmpf .olt main_v74 main_v75
  let main_c_29 : IVec S_ 1 := constantI S_ 1 1#1
  let main_v77 : IVec S_ 1 := (fun x v => Host.reduce IntOp.andi x v reducesTo_S16_S_d0 h_S_) main_v76 main_c_29
  let main_v78 : IVec S_ 1 := andi main_v73 main_v77
  let main_v79 : FVec F S16x32 .f32 := Host.absf main_arg16
  let main_cst_30 : FVec F S_ .f32 := constant S_ .f32 0x7F800000#32
  let main_v80 : FVec F S16x32 .f32 := broadcastInDim S16x32 ![] bcast_S_S16x32 main_cst_30
  let main_v81 : IVec S16x32 1 := cmpf .olt main_v79 main_v80
  let main_c_31 : IVec S_ 1 := constantI S_ 1 1#1
  let main_v82 : IVec S_ 1 := (fun x v => Host.reduce IntOp.andi x v reducesTo_S16x32_S_d0_1 h_S_) main_v81 main_c_31
  let main_v83 : IVec S_ 1 := andi main_v78 main_v82
  let main_v84 : FVec F S32 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_arg32 main_arg33 main_arg34 main_arg35 main_v83 main_v84 main_cst_32

def fn_part3 {F : FTy → Type} [FloatOps F] (main_arg11 : FVec F S16x32 .f32) (main_arg12 : FVec F S32 .f32) (main_arg13 : FVec F S1x16 .f32) (main_arg14 : FVec F S16 .f32) (main_arg15 : FVec F S16 .f32) (main_arg16 : FVec F S16x32 .f32) (main_arg17 : FVec F S32 .f32) (main_arg18 : FVec F S32x32 .f32) (main_arg19 : FVec F S32 .f32) (main_arg20 : FVec F S32 .f32) (main_arg21 : FVec F S32x16 .f32) (main_arg22 : FVec F S16 .f32) (main_arg23 : FVec F S135x64 .f32) (main_arg24 : FVec F S64 .f32) (main_arg25 : FVec F S64 .f32) (main_arg26 : FVec F S64x32 .f32) (main_arg27 : FVec F S32 .f32) (main_arg28 : FVec F S32 .f32) (main_arg29 : FVec F S32x16 .f32) (main_arg30 : FVec F S16 .f32) (main_arg31 : FVec F S32x16 .f32) (main_arg32 : FVec F S16 .f32) (main_arg33 : FVec F S16 .f32) (main_arg34 : FVec F S16x1 .f32) (main_arg35 : FVec F S1 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x32 .f32 := Host.absf main_arg11
  let main_cst_20 : FVec F S_ .f32 := constant S_ .f32 0x7F800000#32
  let main_v55 : FVec F S16x32 .f32 := broadcastInDim S16x32 ![] bcast_S_S16x32 main_cst_20
  let main_v56 : IVec S16x32 1 := cmpf .olt main_v54 main_v55
  let main_c_21 : IVec S_ 1 := constantI S_ 1 1#1
  let main_v57 : IVec S_ 1 := (fun x v => Host.reduce IntOp.andi x v reducesTo_S16x32_S_d0_1 h_S_) main_v56 main_c_21
  let main_v58 : IVec S_ 1 := andi main_v53 main_v57
  let main_v59 : FVec F S32 .f32 := Host.absf main_arg12
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S1x16 .f32 := Host.absf main_arg13
  let main_cst_24 : FVec F S_ .f32 := constant S_ .f32 0x7F800000#32
  let main_v65 : FVec F S1x16 .f32 := broadcastInDim S1x16 ![] bcast_S_S1x16 main_cst_24
  let main_v66 : IVec S1x16 1 := cmpf .olt main_v64 main_v65
  let main_c_25 : IVec S_ 1 := constantI S_ 1 1#1
  let main_v67 : IVec S_ 1 := (fun x v => Host.reduce IntOp.andi x v reducesTo_S1x16_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v63 main_v67

def fn_part2 {F : FTy → Type} [FloatOps F] (main_arg7 : FVec F S32 .f32) (main_arg8 : FVec F S6x16 .f32) (main_arg9 : FVec F S16 .f32) (main_arg10 : FVec F S16 .f32) (main_arg11 : FVec F S16x32 .f32) (main_arg12 : FVec F S32 .f32) (main_arg13 : FVec F S1x16 .f32) (main_arg14 : FVec F S16 .f32) (main_arg15 : FVec F S16 .f32) (main_arg16 : FVec F S16x32 .f32) (main_arg17 : FVec F S32 .f32) (main_arg18 : FVec F S32x32 .f32) (main_arg19 : FVec F S32 .f32) (main_arg20 : FVec F S32 .f32) (main_arg21 : FVec F S32x16 .f32) (main_arg22 : FVec F S16 .f32) (main_arg23 : FVec F S135x64 .f32) (main_arg24 : FVec F S64 .f32) (main_arg25 : FVec F S64 .f32) (main_arg26 : FVec F S64x32 .f32) (main_arg27 : FVec F S32 .f32) (main_arg28 : FVec F S32 .f32) (main_arg29 : FVec F S32x16 .f32) (main_arg30 : FVec F S16 .f32) (main_arg31 : FVec F S32x16 .f32) (main_arg32 : FVec F S16 .f32) (main_arg33 : FVec F S16 .f32) (main_arg34 : FVec F S16x1 .f32) (main_arg35 : FVec F S1 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S6x16 .f32 := Host.absf main_arg8
  let main_cst_14 : FVec F S_ .f32 := constant S_ .f32 0x7F800000#32
  let main_v40 : FVec F S6x16 .f32 := broadcastInDim S6x16 ![] bcast_S_S6x16 main_cst_14
  let main_v41 : IVec S6x16 1 := cmpf .olt main_v39 main_v40
  let main_c_15 : IVec S_ 1 := constantI S_ 1 1#1
  let main_v42 : IVec S_ 1 := (fun x v => Host.reduce IntOp.andi x v reducesTo_S6x16_S_d0_1 h_S_) main_v41 main_c_15
  let main_v43 : IVec S_ 1 := andi main_v38 main_v42
  let main_v44 : FVec F S16 .f32 := Host.absf main_arg9
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v48 main_v49 main_v50

def fn_part1 {F : FTy → Type} [FloatOps F] (main_arg4 : FVec F S64 .f32) (main_arg5 : FVec F S64 .f32) (main_arg6 : FVec F S64x32 .f32) (main_arg7 : FVec F S32 .f32) (main_arg8 : FVec F S6x16 .f32) (main_arg9 : FVec F S16 .f32) (main_arg10 : FVec F S16 .f32) (main_arg11 : FVec F S16x32 .f32) (main_arg12 : FVec F S32 .f32) (main_arg13 : FVec F S1x16 .f32) (main_arg14 : FVec F S16 .f32) (main_arg15 : FVec F S16 .f32) (main_arg16 : FVec F S16x32 .f32) (main_arg17 : FVec F S32 .f32) (main_arg18 : FVec F S32x32 .f32) (main_arg19 : FVec F S32 .f32) (main_arg20 : FVec F S32 .f32) (main_arg21 : FVec F S32x16 .f32) (main_arg22 : FVec F S16 .f32) (main_arg23 : FVec F S135x64 .f32) (main_arg24 : FVec F S64 .f32) (main_arg25 : FVec F S64 .f32) (main_arg26 : FVec F S64x32 .f32) (main_arg27 : FVec F S32 .f32) (main_arg28 : FVec F S32 .f32) (main_arg29 : FVec F S32x16 .f32) (main_arg30 : FVec F S16 .f32) (main_arg31 : FVec F S32x16 .f32) (main_arg32 : FVec F S16 .f32) (main_arg33 : FVec F S16 .f32) (main_arg34 : FVec F S16x1 .f32) (main_arg35 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg6
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v33

def fn {F : FTy → Type} [FloatOps F] (main_arg0 : FVec F S524288x128 .f32) (main_arg1 : FVec F S524288x6 .f32) (main_arg2 : FVec F S524288x1 .f32) (main_arg3 : FVec F S128x64 .f32) (main_arg4 : FVec F S64 .f32) (main_arg5 : FVec F S64 .f32) (main_arg6 : FVec F S64x32 .f32) (main_arg7 : FVec F S32 .f32) (main_arg8 : FVec F S6x16 .f32) (main_arg9 : FVec F S16 .f32) (main_arg10 : FVec F S16 .f32) (main_arg11 : FVec F S16x32 .f32) (main_arg12 : FVec F S32 .f32) (main_arg13 : FVec F S1x16 .f32) (main_arg14 : FVec F S16 .f32) (main_arg15 : FVec F S16 .f32) (main_arg16 : FVec F S16x32 .f32) (main_arg17 : FVec F S32 .f32) (main_arg18 : FVec F S32x32 .f32) (main_arg19 : FVec F S32 .f32) (main_arg20 : FVec F S32 .f32) (main_arg21 : FVec F S32x16 .f32) (main_arg22 : FVec F S16 .f32) (main_arg23 : FVec F S135x64 .f32) (main_arg24 : FVec F S64 .f32) (main_arg25 : FVec F S64 .f32) (main_arg26 : FVec F S64x32 .f32) (main_arg27 : FVec F S32 .f32) (main_arg28 : FVec F S32 .f32) (main_arg29 : FVec F S32x16 .f32) (main_arg30 : FVec F S16 .f32) (main_arg31 : FVec F S32x16 .f32) (main_arg32 : FVec F S16 .f32) (main_arg33 : FVec F S16 .f32) (main_arg34 : FVec F S16x1 .f32) (main_arg35 : FVec F S1 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S524288x6 .f32 := Host.absf main_arg1
  let main_cst_0 : FVec F S_ .f32 := constant S_ .f32 0x7F800000#32
  let main_v5 : FVec F S524288x6 .f32 := broadcastInDim S524288x6 ![] bcast_S_S524288x6 main_cst_0
  let main_v6 : IVec S524288x6 1 := cmpf .olt main_v4 main_v5
  let main_c_1 : IVec S_ 1 := constantI S_ 1 1#1
  let main_v7 : IVec S_ 1 := (fun x v => Host.reduce IntOp.andi x v reducesTo_S524288x6_S_d0_1 h_S_) main_v6 main_c_1
  let main_v8 : IVec S_ 1 := andi main_v3 main_v7
  let main_v9 : FVec F S524288x1 .f32 := Host.absf main_arg2
  let main_cst_2 : FVec F S_ .f32 := constant S_ .f32 0x7F800000#32
  let main_v10 : FVec F S524288x1 .f32 := broadcastInDim S524288x1 ![] bcast_S_S524288x1 main_cst_2
  let main_v11 : IVec S524288x1 1 := cmpf .olt main_v9 main_v10
  let main_c_3 : IVec S_ 1 := constantI S_ 1 1#1
  let main_v12 : IVec S_ 1 := (fun x v => Host.reduce IntOp.andi x v reducesTo_S524288x1_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v13 main_v16
-- ==== Kernel.lean ====
abbrev S524288x128 : Shape := ⟨2, ![524288, 128]⟩
abbrev S524288x6 : Shape := ⟨2, ![524288, 6]⟩
abbrev S524288x1 : Shape := ⟨2, ![524288, 1]⟩
abbrev S128x64 : Shape := ⟨2, ![128, 64]⟩
abbrev S64 : Shape := ⟨1, ![64]⟩
abbrev S64x32 : Shape := ⟨2, ![64, 32]⟩
abbrev S32 : Shape := ⟨1, ![32]⟩
abbrev S6x16 : Shape := ⟨2, ![6, 16]⟩
abbrev S16 : Shape := ⟨1, ![16]⟩
abbrev S16x32 : Shape := ⟨2, ![16, 32]⟩
abbrev S1x16 : Shape := ⟨2, ![1, 16]⟩
abbrev S32x32 : Shape := ⟨2, ![32, 32]⟩
abbrev S32x16 : Shape := ⟨2, ![32, 16]⟩
abbrev S135x64 : Shape := ⟨2, ![135, 64]⟩
abbrev S16x1 : Shape := ⟨2, ![16, 1]⟩
abbrev S1 : Shape := ⟨1, ![1]⟩
abbrev S6x64 : Shape := ⟨2, ![6, 64]⟩
abbrev S1x64 : Shape := ⟨2, ![1, 64]⟩
abbrev S128x128 : Shape := ⟨2, ![128, 128]⟩
abbrev S6x80 : Shape := ⟨2, ![6, 80]⟩
abbrev S1x80 : Shape := ⟨2, ![1, 80]⟩
abbrev S_ : Shape := ⟨0, ![]⟩
abbrev S6x160 : Shape := ⟨2, ![6, 160]⟩
abbrev S1x160 : Shape := ⟨2, ![1, 160]⟩
abbrev S8x160 : Shape := ⟨2, ![8, 160]⟩
abbrev S524288x8 : Shape := ⟨2, ![524288, 8]⟩
abbrev S64x64 : Shape := ⟨2, ![64, 64]⟩
abbrev S16x64 : Shape := ⟨2, ![16, 64]⟩
abbrev S32x64 : Shape := ⟨2, ![32, 64]⟩
abbrev S16x16 : Shape := ⟨2, ![16, 16]⟩
abbrev S4096x128 : Shape := ⟨2, ![4096, 128]⟩
abbrev S4096x8 : Shape := ⟨2, ![4096, 8]⟩
abbrev S32x128 : Shape := ⟨2, ![32, 128]⟩
abbrev S4096x64 : Shape := ⟨2, ![4096, 64]⟩
abbrev S4096x160 : Shape := ⟨2, ![4096, 160]⟩
abbrev S4096x16 : Shape := ⟨2, ![4096, 16]⟩
abbrev S4096 : Shape := ⟨1, ![4096]⟩
abbrev S4096x1 : Shape := ⟨2, ![4096, 1]⟩
abbrev S4096x32 : Shape := ⟨2, ![4096, 32]⟩
abbrev S1x32 : Shape := ⟨2, ![1, 32]⟩
abbrev S1x1 : Shape := ⟨2, ![1, 1]⟩

abbrev nBuf : Space → Nat
  | .hbm => 82
  | .vmem => 36
  | .smem => 0
  | _ => 0

abbrev bufTy : (tb : Table) → Fin (tcTables nBuf tb) → BufTy
  | .hbm, ⟨0, _⟩ => ⟨S524288x128, .f32⟩
  | .hbm, ⟨1, _⟩ => ⟨S524288x6, .f32⟩
  | .hbm, ⟨2, _⟩ => ⟨S524288x1, .f32⟩
  | .hbm, ⟨3, _⟩ => ⟨S128x64, .f32⟩
  | .hbm, ⟨4, _⟩ => ⟨S64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S6x16, .f32⟩
  | .hbm, ⟨9, _⟩ => ⟨S16, .f32⟩
  | .hbm, ⟨10, _⟩ => ⟨S16, .f32⟩
  | .hbm, ⟨11, _⟩ => ⟨S16x32, .f32⟩
  | .hbm, ⟨12, _⟩ => ⟨S32, .f32⟩
  | .hbm, ⟨13, _⟩ => ⟨S1x16, .f32⟩
  | .hbm, ⟨14, _⟩ => ⟨S16, .f32⟩
  | .hbm, ⟨15, _⟩ => ⟨S16, .f32⟩
  | .hbm, ⟨16, _⟩ => ⟨S16x32, .f32⟩
  | .hbm, ⟨17, _⟩ => ⟨S32, .f32⟩
  | .hbm, ⟨18, _⟩ => ⟨S32x32, .f32⟩
  | .hbm, ⟨19, _⟩ => ⟨S32, .f32⟩
  | .hbm, ⟨20, _⟩ => ⟨S32, .f32⟩
  | .hbm, ⟨21, _⟩ => ⟨S32x16, .f32⟩
  | .hbm, ⟨22, _⟩ => ⟨S16, .f32⟩
  | .hbm, ⟨23, _⟩ => ⟨S135x64, .f32⟩
  | .hbm, ⟨24, _⟩ => ⟨S64, .f32⟩
  | .hbm, ⟨25, _⟩ => ⟨S64, .f32⟩
  | .hbm, ⟨26, _⟩ => ⟨S64x32, .f32⟩
  | .hbm, ⟨27, _⟩ => ⟨S32, .f32⟩
  | .hbm, ⟨28, _⟩ => ⟨S32, .f32⟩
  | .hbm, ⟨29, _⟩ => ⟨S32x16, .f32⟩
  | .hbm, ⟨30, _⟩ => ⟨S16, .f32⟩
  | .hbm, ⟨31, _⟩ => ⟨S32x16, .f32⟩
  | .hbm, ⟨32, _⟩ => ⟨S16, .f32⟩
  | .hbm, ⟨33, _⟩ => ⟨S16, .f32⟩
  | .hbm, ⟨34, _⟩ => ⟨S16x1, .f32⟩
  | .hbm, ⟨35, _⟩ => ⟨S1, .f32⟩
  | .hbm, ⟨36, _⟩ => ⟨S128x64, .f32⟩
  | .hbm, ⟨37, _⟩ => ⟨S6x64, .f32⟩
  | .hbm, ⟨38, _⟩ => ⟨S1x64, .f32⟩
  | .hbm, ⟨39, _⟩ => ⟨S128x128, .f32⟩
  | .hbm, ⟨40, _⟩ => ⟨S128x128, .bf16⟩
  | .hbm, ⟨41, _⟩ => ⟨S6x80, .f32⟩
  | .hbm, ⟨42, _⟩ => ⟨S1x80, .f32⟩
  | .hbm, ⟨43, _⟩ => ⟨S_, .f32⟩
  | .hbm, ⟨44, _⟩ => ⟨S6x80, .f32⟩
  | .hbm, ⟨45, _⟩ => ⟨S6x160, .f32⟩
  | .hbm, ⟨46, _⟩ => ⟨S_, .f32⟩
  | .hbm, ⟨47, _⟩ => ⟨S1x80, .f32⟩
  | .hbm, ⟨48, _⟩ => ⟨S1x160, .f32⟩
  | .hbm, ⟨49, _⟩ => ⟨S_, .f32⟩
  | .hbm, ⟨50, _⟩ => ⟨S1x160, .f32⟩
  | .hbm, ⟨51, _⟩ => ⟨S8x160, .f32⟩
  | .hbm, ⟨52, _⟩ => ⟨S8x160, .bf16⟩
  | .hbm, ⟨53, _⟩ => ⟨S_, .f32⟩
  | .hbm, ⟨54, _⟩ => ⟨S524288x1, .f32⟩
  | .hbm, ⟨55, _⟩ => ⟨S524288x8, .f32⟩
  | .hbm, ⟨56, _⟩ => ⟨S_, .f32⟩
  | .hbm, ⟨57, _⟩ => ⟨S64x32, .f32⟩
  | .hbm, ⟨58, _⟩ => ⟨S64x64, .f32⟩
  | .hbm, ⟨59, _⟩ => ⟨S_, .f32⟩
  | .hbm, ⟨60, _⟩ => ⟨S64x32, .f32⟩
  | .hbm, ⟨61, _⟩ => ⟨S64x64, .f32⟩
  | .hbm, ⟨62, _⟩ => ⟨S128x64, .f32⟩
  | .hbm, ⟨63, _⟩ => ⟨S128x64, .bf16⟩
  | .hbm, ⟨64, _⟩ => ⟨S_, .f32⟩
  | .hbm, ⟨65, _⟩ => ⟨S16x32, .f32⟩
  | .hbm, ⟨66, _⟩ => ⟨S16x64, .f32⟩
  | .hbm, ⟨67, _⟩ => ⟨S_, .f32⟩
  | .hbm, ⟨68, _⟩ => ⟨S16x32, .f32⟩
  | .hbm, ⟨69, _⟩ => ⟨S16x64, .f32⟩
  | .hbm, ⟨70, _⟩ => ⟨S32x64, .f32⟩
  | .hbm, ⟨71, _⟩ => ⟨S32x64, .bf16⟩
  | .hbm, ⟨72, _⟩ => ⟨S32x16, .bf16⟩
  | .hbm, ⟨73, _⟩ => ⟨S32x32, .bf16⟩
  | .hbm, ⟨74, _⟩ => ⟨S32x16, .bf16⟩
  | .hbm, ⟨75, _⟩ => ⟨S16x16, .f32⟩
  | .hbm, ⟨76, _⟩ => ⟨S16x16, .bf16⟩
  | .hbm, ⟨77, _⟩ => ⟨S16x16, .f32⟩
  | .hbm, ⟨78, _⟩ => ⟨S16x16, .bf16⟩
  | .hbm, ⟨79, _⟩ => ⟨S16x1, .bf16⟩
  | .hbm, ⟨80, _⟩ => ⟨S4096x128, .f32⟩
  | .hbm, ⟨81, _⟩ => ⟨S524288x1, .f32⟩
  | .local _ .vmem, ⟨0, _⟩ => ⟨S4096x128, .f32⟩
  | .local _ .vmem, ⟨1, _⟩ => ⟨S4096x128, .f32⟩
  | .local _ .vmem, ⟨2, _⟩ => ⟨S4096x8, .f32⟩
  | .local _ .vmem, ⟨3, _⟩ => ⟨S4096x8, .f32⟩
  | .local _ .vmem, ⟨4, _⟩ => ⟨S128x128, .bf16⟩
  | .local _ .vmem, ⟨5, _⟩ => ⟨S8x160, .bf16⟩
  | .local _ .vmem, ⟨6, _⟩ => ⟨S64, .f32⟩
  | .local _ .vmem, ⟨7, _⟩ => ⟨S64, .f32⟩
  | .local _ .vmem, ⟨8, _⟩ => ⟨S32, .f32⟩
  | .local _ .vmem, ⟨9, _⟩ => ⟨S32, .f32⟩
  | .local _ .vmem, ⟨10, _⟩ => ⟨S64, .f32⟩
  | .local _ .vmem, ⟨11, _⟩ => ⟨S64, .f32⟩
  | .local _ .vmem, ⟨12, _⟩ => ⟨S16, .f32⟩
  | .local _ .vmem, ⟨13, _⟩ => ⟨S16, .f32⟩
  | .local _ .vmem, ⟨14, _⟩ => ⟨S16, .f32⟩
  | .local _ .vmem, ⟨15, _⟩ => ⟨S16, .f32⟩
  | .local _ .vmem, ⟨16, _⟩ => ⟨S32, .f32⟩
  | .local _ .vmem, ⟨17, _⟩ => ⟨S32, .f32⟩
  | .local _ .vmem, ⟨18, _⟩ => ⟨S16, .f32⟩
  | .local _ .vmem, ⟨19, _⟩ => ⟨S16, .f32⟩
  | .local _ .vmem, ⟨20, _⟩ => ⟨S128x64, .bf16⟩
  | .local _ .vmem, ⟨21, _⟩ => ⟨S32x64, .bf16⟩
  | .local _ .vmem, ⟨22, _⟩ => ⟨S32x16, .bf16⟩
  | .local _ .vmem, ⟨23, _⟩ => ⟨S16, .f32⟩
  | .local _ .vmem, ⟨24, _⟩ => ⟨S32, .f32⟩
  | .local _ .vmem, ⟨25, _⟩ => ⟨S32, .f32⟩
  | .local _ .vmem, ⟨26, _⟩ => ⟨S32, .f32⟩
  | .local _ .vmem, ⟨27, _⟩ => ⟨S32x32, .bf16⟩
  | .local _ .vmem, ⟨28, _⟩ => ⟨S32x16, .bf16⟩
  | .local _ .vmem, ⟨29, _⟩ => ⟨S16, .f32⟩
  | .local _ .vmem, ⟨30, _⟩ => ⟨S16x16, .bf16⟩
  | .local _ .vmem, ⟨31, _⟩ => ⟨S16x16, .bf16⟩
  | .local _ .vmem, ⟨32, _⟩ => ⟨S16x1, .bf16⟩
  | .local _ .vmem, ⟨33, _⟩ => ⟨S1, .f32⟩
  | .local _ .vmem, ⟨34, _⟩ => ⟨S32x128, .f32⟩
  | .local _ .vmem, ⟨35, _⟩ => ⟨S32x128, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_cst : Ref sig .tc := ⟨.hbm, 43, rfl⟩
abbrev main_v7 : Ref sig .tc := ⟨.hbm, 44, rfl⟩
abbrev main_v8 : Ref sig .tc := ⟨.hbm, 45, rfl⟩
abbrev main_cst_0 : Ref sig .tc := ⟨.hbm, 46, rfl⟩
abbrev main_v9 : Ref sig .tc := ⟨.hbm, 47, rfl⟩
abbrev main_v10 : Ref sig .tc := ⟨.hbm, 48, rfl⟩
abbrev main_cst_1 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_cst_2 : Ref sig .tc := ⟨.hbm, 53, rfl⟩
abbrev main_v14 : Ref sig .tc := ⟨.hbm, 54, rfl⟩
abbrev main_v15 : Ref sig .tc := ⟨.hbm, 55, rfl⟩
abbrev main_cst_3 : Ref sig .tc := ⟨.hbm, 56, rfl⟩
abbrev main_v16 : Ref sig .tc := ⟨.hbm, 57, rfl⟩
abbrev main_v17 : Ref sig .tc := ⟨.hbm, 58, rfl⟩
abbrev main_cst_4 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_cst_5 : Ref sig .tc := ⟨.hbm, 64, rfl⟩
abbrev main_v22 : Ref sig .tc := ⟨.hbm, 65, rfl⟩
abbrev main_v23 : Ref sig .tc := ⟨.hbm, 66, rfl⟩
abbrev main_cst_6 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg27_0 : Ref sig .tc := ⟨.vmem, 29, rfl⟩
abbrev cc0_stg28_0 : Ref sig .tc := ⟨.vmem, 30, rfl⟩
abbrev cc0_stg29_0 : Ref sig .tc := ⟨.vmem, 31, rfl⟩
abbrev cc0_stg30_0 : Ref sig .tc := ⟨.vmem, 32, rfl⟩
abbrev cc0_stg31_0 : Ref sig .tc := ⟨.vmem, 33, rfl⟩
abbrev cc0_stg32_0 : Ref sig .tc := ⟨.vmem, 34, rfl⟩
abbrev cc0_stg32_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem27_0 : DmaSem sig := 29
abbrev cc0_sem28_0 : DmaSem sig := 30
abbrev cc0_sem29_0 : DmaSem sig := 31
abbrev cc0_sem30_0 : DmaSem sig := 32
abbrev cc0_sem31_0 : DmaSem sig := 33
abbrev cc0_sem32_0 : DmaSem sig := 34
abbrev cc0_sem32_1 : DmaSem sig := 35

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_24 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_32 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x160 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S16 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x64 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S32x64 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S32x16 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S16 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S32 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S32 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S32 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S32x32 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S32x16 .bf16 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S16 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S16x16 .bf16 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S16x16 .bf16 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S16x1 .bf16 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S1 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 2 → Memref sig .tc .vmem S32x128 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

class Facts₀ : Prop where
  slices_S135x64_S128x64_0_0 : S135x64.Slices ![0, 0] S128x64
  slices_S135x64_S6x64_128_0 : S135x64.Slices ![128, 0] S6x64
  slices_S135x64_S1x64_134_0 : S135x64.Slices ![134, 0] S1x64
  concatenates_S128x64_S128x64_S128x128_d1 : Shape.Concatenates [S128x64, S128x64] S128x128 1
  bitsLt_bf16_f32 : FTy.bits .bf16 < FTy.bits .f32
  concatenates_S6x64_S6x16_S6x80_d1 : Shape.Concatenates [S6x64, S6x16] S6x80 1
  concatenates_S1x64_S1x16_S1x80_d1 : Shape.Concatenates [S1x64, S1x16] S1x80 1
  bcast_S_S6x80 : S_.BroadcastsInDim S6x80 (![] : Fin 0 → Fin S6x80.rank)
  concatenates_S6x80_S6x80_S6x160_d1 : Shape.Concatenates [S6x80, S6x80] S6x160 1
  bcast_S_S1x80 : S_.BroadcastsInDim S1x80 (![] : Fin 0 → Fin S1x80.rank)
  concatenates_S1x80_S1x80_S1x160_d1 : Shape.Concatenates [S1x80, S1x80] S1x160 1
  bcast_S_S1x160 : S_.BroadcastsInDim S1x160 (![] : Fin 0 → Fin S1x160.rank)
  concatenates_S6x160_S1x160_S1x160_S8x160_d0 : Shape.Concatenates [S6x160, S1x160, S1x160] S8x160 0
  bcast_S_S524288x1 : S_.BroadcastsInDim S524288x1 (![] : Fin 0 → Fin S524288x1.rank)
  concatenates_S524288x6_S524288x1_S524288x1_S524288x8_d1 : Shape.Concatenates [S524288x6, S524288x1, S524288x1] S524288x8 1
  bcast_S_S64x32 : S_.BroadcastsInDim S64x32 (![] : Fin 0 → Fin S64x32.rank)
  concatenates_S64x32_S64x32_S64x64_d1 : Shape.Concatenates [S64x32, S64x32] S64x64 1
  concatenates_S64x64_S64x64_S128x64_d0 : Shape.Concatenates [S64x64, S64x64] S128x64 0
  bcast_S_S16x32 : S_.BroadcastsInDim S16x32 (![] : Fin 0 → Fin S16x32.rank)
  concatenates_S16x32_S16x32_S16x64_d1 : Shape.Concatenates [S16x32, S16x32] S16x64 1
  concatenates_S16x64_S16x64_S32x64_d0 : Shape.Concatenates [S16x64, S16x64] S32x64 0
  slices_S32x16_S16x16_0_0 : S32x16.Slices ![0, 0] S16x16
  slices_S32x16_S16x16_16_0 : S32x16.Slices ![16, 0] S16x16
  inb_S4096x128_S4096x128_0_0 : ∀ a, (![0, 0] : Fin 2 → Nat) a + S4096x128.size a ≤ S4096x128.size a
  h_S4096x128 : 0 < S4096x128.numel
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S4096x128_o0_0_S4096x64 : S4096x128.Slices ![0, 0] S4096x64
  slices_S4096x128_o0_64_S4096x64 : S4096x128.Slices ![0, 64] S4096x64
  inb_S8x160_S8x160_0_0 : ∀ a, (![0, 0] : Fin 2 → Nat) a + S8x160.size a ≤ S8x160.size a
  h_S8x160 : 0 < S8x160.numel
  shapeCasts_S8x160_S8x160 : S8x160.ShapeCasts S8x160
  slices_S4096x160_o0_0_S4096x64 : S4096x160.Slices ![0, 0] S4096x64
  slices_S4096x160_o0_64_S4096x16 : S4096x160.Slices ![0, 64] S4096x16
  slices_S4096x160_o0_80_S4096x64 : S4096x160.Slices ![0, 80] S4096x64
  slices_S4096x160_o0_144_S4096x16 : S4096x160.Slices ![0, 144] S4096x16
  inb_S64_S64_0 : ∀ a, (![0] : Fin 1 → Nat) a + S64.size a ≤ S64.size a
  h_S64 : 0 < S64.numel
  reduces_S4096x64_S4096 : S4096x64.Reduces [1] S4096
  shapeCasts_S4096_S4096x1 : S4096.ShapeCasts S4096x1
  broadcasts_S4096x1_S4096x64 : S4096x1.Broadcasts S4096x64
  shapeCasts_S64_S1x64 : S64.ShapeCasts S1x64
  broadcasts_S1x64_S4096x64 : S1x64.Broadcasts S4096x64
  concatenates_S4096x64_S4096x64_S4096x128_d1 : Shape.Concatenates [S4096x64, S4096x64] S4096x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  slices_S4096x64_o0_0_S4096x32 : S4096x64.Slices ![0, 0] S4096x32
  slices_S4096x64_o0_32_S4096x32 : S4096x64.Slices ![0, 32] S4096x32
  inb_S32_S32_0 : ∀ a, (![0] : Fin 1 → Nat) a + S32.size a ≤ S32.size a
  h_S32 : 0 < S32.numel
  shapeCasts_S32_S1x32 : S32.ShapeCasts S1x32
  broadcasts_S1x32_S4096x32 : S1x32.Broadcasts S4096x32
  inb_S16_S16_0 : ∀ a, (![0] : Fin 1 → Nat) a + S16.size a ≤ S16.size a
  h_S16 : 0 < S16.numel
  reduces_S4096x16_S4096 : S4096x16.Reduces [1] S4096
  broadcasts_S4096x1_S4096x16 : S4096x1.Broadcasts S4096x16
  shapeCasts_S16_S1x16 : S16.ShapeCasts S1x16
  broadcasts_S1x16_S4096x16 : S1x16.Broadcasts S4096x16
  concatenates_S4096x16_S4096x16_S4096x32_d1 : Shape.Concatenates [S4096x16, S4096x16] S4096x32 1
  inb_S32x64_S32x64_0_0 : ∀ a, (![0, 0] : Fin 2 → Nat) a + S32x64.size a ≤ S32x64.size a
  h_S32x64 : 0 < S32x64.numel
  shapeCasts_S32x64_S32x64 : S32x64.ShapeCasts S32x64
  reduces_S4096x32_S4096 : S4096x32.Reduces [1] S4096
  broadcasts_S4096x1_S4096x32 : S4096x1.Broadcasts S4096x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S16x16_S16x16_0_0 : ∀ a, (![0, 0] : Fin 2 → Nat) a + S16x16.size a ≤ S16x16.size a
  h_S16x16 : 0 < S16x16.numel
  shapeCasts_S16x16_S16x16 : S16x16.ShapeCasts S16x16
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1_S1_0 : ∀ a, (![0] : Fin 1 → Nat) a + S1.size a ≤ S1.size a
  h_S1 : 0 < S1.numel
  shapeCasts_S1_S1x1 : S1.ShapeCasts S1x1
  broadcasts_S1x1_S4096x1 : S1x1.Broadcasts S4096x1
  shapeCasts_S4096x1_S32x128 : S4096x1.ShapeCasts S32x128
  inb_S32x128_S32x128_0_0 : ∀ a, (![0, 0] : Fin 2 → Nat) a + S32x128.size a ≤ S32x128.size a
  h_S32x128 : 0 < S32x128.numel
  shapeCasts_S4096x128_S524288x1 : S4096x128.ShapeCasts S524288x1
  dot_S4096x128_S128x128_S4096x128_1_0_0_1_n_n_wf : DotDims.WF S4096x128 S128x128 S4096x128 [1] [0] [0] [1] [] []
  dot_S4096x8_S8x160_S4096x160_1_0_0_1_n_n_wf : DotDims.WF S4096x8 S8x160 S4096x160 [1] [0] [0] [1] [] []
  dot_S4096x128_S128x64_S4096x64_1_0_0_1_n_n_wf : DotDims.WF S4096x128 S128x64 S4096x64 [1] [0] [0] [1] [] []
  dot_S4096x32_S32x64_S4096x64_1_0_0_1_n_n_wf : DotDims.WF S4096x32 S32x64 S4096x64 [1] [0] [0] [1] [] []
  dot_S4096x32_S32x16_S4096x16_1_0_0_1_n_n_wf : DotDims.WF S4096x32 S32x16 S4096x16 [1] [0] [0] [1] [] []
  dot_S4096x32_S32x32_S4096x32_1_0_0_1_n_n_wf : DotDims.WF S4096x32 S32x32 S4096x32 [1] [0] [0] [1] [] []
  dot_S4096x16_S16x16_S4096x16_1_0_0_1_n_n_wf : DotDims.WF S4096x16 S16x16 S4096x16 [1] [0] [0] [1] [] []
  dot_S4096x16_S16x1_S4096x1_1_0_0_1_n_n_wf : DotDims.WF S4096x16 S16x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S524288x128.size a
  hwx0_0 : ∀ i : grid0.Coords, EltTy.bits .f32 = 32 ∨ (Rect.block (s := S524288x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x8.size a ≤ S524288x8.size a
  hwx0_1 : ∀ i : grid0.Coords, EltTy.bits .f32 = 32 ∨ (Rect.block (s := S524288x8) S4096x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x160.size a ≤ S8x160.size a
  hwx0_3 : ∀ i : grid0.Coords, EltTy.bits .bf16 = 32 ∨ (Rect.block (s := S8x160) S8x160.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32.size a ≤ S32.size a
  hwx0_7 : ∀ i : grid0.Coords, EltTy.bits .f32 = 32 ∨ (Rect.block (s := S32) S32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16.size a ≤ S16.size a
  hwx0_10 : ∀ i : grid0.Coords, EltTy.bits .f32 = 32 ∨ (Rect.block (s := S16) S16.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S16.size a ≤ S16.size a
  hwx0_11 : ∀ i : grid0.Coords, EltTy.bits .f32 = 32 ∨ (Rect.block (s := S16) S16.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S16.size a ≤ S16.size a
  hwx0_12 : ∀ i : grid0.Coords, EltTy.bits .f32 = 32 ∨ (Rect.block (s := S16) S16.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S16.size a ≤ S16.size a
  hwx0_13 : ∀ i : grid0.Coords, EltTy.bits .f32 = 32 ∨ (Rect.block (s := S16) S16.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S32.size a ≤ S32.size a
  hwx0_14 : ∀ i : grid0.Coords, EltTy.bits .f32 = 32 ∨ (Rect.block (s := S32) S32.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S32.size a ≤ S32.size a
  hwx0_15 : ∀ i : grid0.Coords, EltTy.bits .f32 = 32 ∨ (Rect.block (s := S32) S32.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S16.size a ≤ S16.size a
  hwx0_16 : ∀ i : grid0.Coords, EltTy.bits .f32 = 32 ∨ (Rect.block (s := S16) S16.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S16.size a ≤ S16.size a
  hwx0_17 : ∀ i : grid0.Coords, EltTy.bits .f32 = 32 ∨ (Rect.block (s := S16) S16.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S128x64.size a ≤ S128x64.size a
  hwx0_18 : ∀ i : grid0.Coords, EltTy.bits .bf16 = 32 ∨ (Rect.block (s := S128x64) S128x64.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S32x64.size a ≤ S32x64.size a
  hwx0_19 : ∀ i : grid0.Coords, EltTy.bits .bf16 = 32 ∨ (Rect.block (s := S32x64) S32x64.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S32x16.size a ≤ S32x16.size a
  hwx0_20 : ∀ i : grid0.Coords, EltTy.bits .bf16 = 32 ∨ (Rect.block (s := S32x16) S32x16.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S16.size a ≤ S16.size a
  hwx0_21 : ∀ i : grid0.Coords, EltTy.bits .f32 = 32 ∨ (Rect.block (s := S16) S16.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S32.size a ≤ S32.size a
  hwx0_22 : ∀ i : grid0.Coords, EltTy.bits .f32 = 32 ∨ (Rect.block (s := S32) S32.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S32.size a ≤ S32.size a
  hwx0_23 : ∀ i : grid0.Coords, EltTy.bits .f32 = 32 ∨ (Rect.block (s := S32) S32.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S32.size a ≤ S32.size a
  hwx0_24 : ∀ i : grid0.Coords, EltTy.bits .f32 = 32 ∨ (Rect.block (s := S32) S32.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S32x32.size a ≤ S32x32.size a
  hwx0_25 : ∀ i : grid0.Coords, EltTy.bits .bf16 = 32 ∨ (Rect.block (s := S32x32) S32x32.size (cc0_transform_25 i) (hinb0_25 i)).WholeWords (EltTy.packing .bf16)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S32x16.size a ≤ S32x16.size a
  hwx0_26 : ∀ i : grid0.Coords, EltTy.bits .bf16 = 32 ∨ (Rect.block (s := S32x16) S32x16.size (cc0_transform_26 i) (hinb0_26 i)).WholeWords (EltTy.packing .bf16)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S16.size a ≤ S16.size a
  hwx0_27 : ∀ i : grid0.Coords, EltTy.bits .f32 = 32 ∨ (Rect.block (s := S16) S16.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S16x16.size a ≤ S16x16.size a
  hwx0_28 : ∀ i : grid0.Coords, EltTy.bits .bf16 = 32 ∨ (Rect.block (s := S16x16) S16x16.size (cc0_transform_28 i) (hinb0_28 i)).WholeWords (EltTy.packing .bf16)
  hstage0_29 : ∀ j, (stage0_29 j).IsWhole
  nbuf0_29 : grid0.bufCount reads0_29 true = 1
  hreads0_29 : ∀ i i' : grid0.Coords, (∀ a, reads0_29 a = true → i a = i' a) → cc0_transform_29 i = cc0_transform_29 i'
  hinb0_29 : ∀ (i : grid0.Coords) a, (cc0_transform_29 i a + 1) * S16x16.size a ≤ S16x16.size a
  hwx0_29 : ∀ i : grid0.Coords, EltTy.bits .bf16 = 32 ∨ (Rect.block (s := S16x16) S16x16.size (cc0_transform_29 i) (hinb0_29 i)).WholeWords (EltTy.packing .bf16)
  hstage0_30 : ∀ j, (stage0_30 j).IsWhole
  nbuf0_30 : grid0.bufCount reads0_30 true = 1
  hreads0_30 : ∀ i i' : grid0.Coords, (∀ a, reads0_30 a = true → i a = i' a) → cc0_transform_30 i = cc0_transform_30 i'
  hinb0_30 : ∀ (i : grid0.Coords) a, (cc0_transform_30 i a + 1) * S16x1.size a ≤ S16x1.size a
  hwx0_30 : ∀ i : grid0.Coords, EltTy.bits .bf16 = 32 ∨ (Rect.block (s := S16x1) S16x1.size (cc0_transform_30 i) (hinb0_30 i)).WholeWords (EltTy.packing .bf16)
  hstage0_31 : ∀ j, (stage0_31 j).IsWhole
  nbuf0_31 : grid0.bufCount reads0_31 true = 1
  hreads0_31 : ∀ i i' : grid0.Coords, (∀ a, reads0_31 a = true → i a = i' a) → cc0_transform_31 i = cc0_transform_31 i'
  hinb0_31 : ∀ (i : grid0.Coords) a, (cc0_transform_31 i a + 1) * S1.size a ≤ S1.size a
  hwx0_31 : ∀ i : grid0.Coords, EltTy.bits .f32 = 32 ∨ (Rect.block (s := S1) S1.size (cc0_transform_31 i) (hinb0_31 i)).WholeWords (EltTy.packing .f32)
  hstage0_32 : ∀ j, (stage0_32 j).IsWhole
  nbuf0_32 : grid0.bufCount reads0_32 false = 2
  hreads0_32 : ∀ i i' : grid0.Coords, (∀ a, reads0_32 a = true → i a = i' a) → cc0_transform_32 i = cc0_transform_32 i'
  hinb0_32 : ∀ (i : grid0.Coords) a, (cc0_transform_32 i a + 1) * S32x128.size a ≤ S4096x128.size a
  hwx0_32 : ∀ i : grid0.Coords, EltTy.bits .f32 = 32 ∨ (Rect.block (s := S4096x128) S32x128.size (cc0_transform_32 i) (hinb0_32 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x8_S8x160_S4096x160_1_0_0_1_n_n : DotDims S4096x8 S8x160 S4096x160 where
  lhsContracting := [1]
  rhsContracting := [0]
  lhsNonContracting := [0]
  rhsNonContracting := [1]
  lhsBatch := []
  rhsBatch := []
  wf := dot_S4096x8_S8x160_S4096x160_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x32_S32x64_S4096x64_1_0_0_1_n_n : DotDims S4096x32 S32x64 S4096x64 where
  lhsContracting := [1]
  rhsContracting := [0]
  lhsNonContracting := [0]
  rhsNonContracting := [1]
  lhsBatch := []
  rhsBatch := []
  wf := dot_S4096x32_S32x64_S4096x64_1_0_0_1_n_n_wf
def dot_S4096x32_S32x16_S4096x16_1_0_0_1_n_n : DotDims S4096x32 S32x16 S4096x16 where
  lhsContracting := [1]
  rhsContracting := [0]
  lhsNonContracting := [0]
  rhsNonContracting := [1]
  lhsBatch := []
  rhsBatch := []
  wf := dot_S4096x32_S32x16_S4096x16_1_0_0_1_n_n_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S4096x16_S16x16_S4096x16_1_0_0_1_n_n : DotDims S4096x16 S16x16 S4096x16 where
  lhsContracting := [1]
  rhsContracting := [0]
  lhsNonContracting := [0]
  rhsNonContracting := [1]
  lhsBatch := []
  rhsBatch := []
  wf := dot_S4096x16_S16x16_S4096x16_1_0_0_1_n_n_wf
def dot_S4096x16_S16x1_S4096x1_1_0_0_1_n_n : DotDims S4096x16 S16x1 S4096x1 where
  lhsContracting := [1]
  rhsContracting := [0]
  lhsNonContracting := [0]
  rhsNonContracting := [1]
  lhsBatch := []
  rhsBatch := []
  wf := dot_S4096x16_S16x1_S4096x1_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S4096x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S8x160.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg24) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg25) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg27) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg28) S32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg4) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg5) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg14) S16.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg15) S16.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg19) S32.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg20) S32.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg32) S16.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg33) S16.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v21) S128x64.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v27) S32x64.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v28) S32x16.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg30) S16.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg7) S32.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg12) S32.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg17) S32.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v29) S32x32.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v30) S32x16.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_arg22) S16.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_v32) S16x16.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_v34) S16x16.size cc0_transform_29 reads0_29 false true 1 stage0_29 sem0_29
    hrank0 hreads0_29 hinb0_29 nbuf0_29 (Memref.isWhole_whole _) hwx0_29 hstage0_29

abbrev win0_30 : Pipeline.Window sig grid0 :=
  Pipeline.Window.ofSpec (Memref.whole main_v35) S16x1.size cc0_transform_30 reads0_30 false true 1 stage0_30 sem0_30
    hrank0 hreads0_30 hinb0_30 nbuf0_30 (Memref.isWhole_whole _) hwx0_30 hstage0_30

abbrev win0_31 : Pipeline.Window sig grid0 :=
  Pipeline.Window.ofSpec (Memref.whole main_arg35) S1.size cc0_transform_31 reads0_31 false true 1 stage0_31 sem0_31
    hrank0 hreads0_31 hinb0_31 nbuf0_31 (Memref.isWhole_whole _) hwx0_31 hstage0_31

abbrev win0_32 : Pipeline.Window sig grid0 :=
  Pipeline.Window.ofSpec (Memref.whole main_v36) S32x128.size cc0_transform_32 reads0_32 true false 2 stage0_32 sem0_32
    hrank0 hreads0_32 hinb0_32 nbuf0_32 (Memref.isWhole_whole _) hwx0_32 hstage0_32

abbrev win0 : Fin 33 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | 32 => win0_32 | ⟨_ + 33, h⟩ => absurd h (Nat.not_lt.2 (Nat.le_add_left _ _))
abbrev spec0 : Fin 33 → Pipeline.WinSpec sig grid0.rank := fun w => (win0 w).toWinSpec

class Facts : Prop extends Facts₀ where

variable [Facts]
-- ==== ReferenceIdeal.lean ====
abbrev S524288x128 : Shape := ⟨2, ![524288, 128]⟩
abbrev S524288x6 : Shape := ⟨2, ![524288, 6]⟩
abbrev S524288x1 : Shape := ⟨2, ![524288, 1]⟩
abbrev S128x64 : Shape := ⟨2, ![128, 64]⟩
abbrev S64 : Shape := ⟨1, ![64]⟩
abbrev S64x32 : Shape := ⟨2, ![64, 32]⟩
abbrev S32 : Shape := ⟨1, ![32]⟩
abbrev S6x16 : Shape := ⟨2, ![6, 16]⟩
abbrev S16 : Shape := ⟨1, ![16]⟩
abbrev S16x32 : Shape := ⟨2, ![16, 32]⟩
abbrev S1x16 : Shape := ⟨2, ![1, 16]⟩
abbrev S32x32 : Shape := ⟨2, ![32, 32]⟩
abbrev S32x16 : Shape := ⟨2, ![32, 16]⟩
abbrev S135x64 : Shape := ⟨2, ![135, 64]⟩
abbrev S16x1 : Shape := ⟨2, ![16, 1]⟩
abbrev S1 : Shape := ⟨1, ![1]⟩
abbrev S524288x135 : Shape := ⟨2, ![524288, 135]⟩
abbrev S524288x64 : Shape := ⟨2, ![524288, 64]⟩
abbrev S_ : Shape := ⟨0, ![]⟩
abbrev S524288 : Shape := ⟨1, ![524288]⟩
abbrev S1x64 : Shape := ⟨2, ![1, 64]⟩
abbrev S524288x32 : Shape := ⟨2, ![524288, 32]⟩
abbrev S1x32 : Shape := ⟨2, ![1, 32]⟩
abbrev S524288x16 : Shape := ⟨2, ![524288, 16]⟩
abbrev S1x1 : Shape := ⟨2, ![1, 1]⟩

abbrev nBuf : Space → Nat
  | .hbm => 309
  | .vmem => 0
  | .smem => 0
  | _ => 0

abbrev hbmTy0_0 (i : Nat) : BufTy := match i % 128 with
  | 0 => ⟨S524288x128, .f32⟩
  | 1 => ⟨S524288x6, .f32⟩
  | 2 => ⟨S524288x1, .f32⟩
  | 3 => ⟨S128x64, .f32⟩
  | 4 => ⟨S64, .f32⟩
  | 5 => ⟨S64, .f32⟩
  | 6 => ⟨S64x32, .f32⟩
  | 7 => ⟨S32, .f32⟩
  | 8 => ⟨S6x16, .f32⟩
  | 9 => ⟨S16, .f32⟩
  | 10 => ⟨S16, .f32⟩
  | 11 => ⟨S16x32, .f32⟩
  | 12 => ⟨S32, .f32⟩
  | 13 => ⟨S1x16, .f32⟩
  | 14 => ⟨S16, .f32⟩
  | 15 => ⟨S16, .f32⟩
  | 16 => ⟨S16x32, .f32⟩
  | 17 => ⟨S32, .f32⟩
  | 18 => ⟨S32x32, .f32⟩
  | 19 => ⟨S32, .f32⟩
  | 20 => ⟨S32, .f32⟩
  | 21 => ⟨S32x16, .f32⟩
  | 22 => ⟨S16, .f32⟩
  | 23 => ⟨S135x64, .f32⟩
  | 24 => ⟨S64, .f32⟩
  | 25 => ⟨S64, .f32⟩
  | 26 => ⟨S64x32, .f32⟩
  | 27 => ⟨S32, .f32⟩
  | 28 => ⟨S32, .f32⟩
  | 29 => ⟨S32x16, .f32⟩
  | 30 => ⟨S16, .f32⟩
  | 31 => ⟨S32x16, .f32⟩
  | 32 => ⟨S16, .f32⟩
  | 33 => ⟨S16, .f32⟩
  | 34 => ⟨S16x1, .f32⟩
  | 35 => ⟨S1, .f32⟩
  | 36 => ⟨S524288x135, .f32⟩
  | 37 => ⟨S524288x64, .f32⟩
  | 38 => ⟨S_, .f32⟩
  | 39 => ⟨S524288, .f32⟩
  | 40 => ⟨S524288x1, .f32⟩
  | 41 => ⟨S_, .f32⟩
  | 42 => ⟨S524288x1, .f32⟩
  | 43 => ⟨S524288x1, .f32⟩
  | 44 => ⟨S524288x64, .f32⟩
  | 45 => ⟨S524288x64, .f32⟩
  | 46 => ⟨S524288x64, .f32⟩
  | 47 => ⟨S_, .f32⟩
  | 48 => ⟨S524288, .f32⟩
  | 49 => ⟨S524288x1, .f32⟩
  | 50 => ⟨S_, .f32⟩
  | 51 => ⟨S524288x1, .f32⟩
  | 52 => ⟨S524288x1, .f32⟩
  | 53 => ⟨S524288x64, .f32⟩
  | 54 => ⟨S524288x64, .f32⟩
  | 55 => ⟨S_, .f32⟩
  | 56 => ⟨S524288x1, .f32⟩
  | 57 => ⟨S524288x1, .f32⟩
  | 58 => ⟨S524288x1, .f32⟩
  | 59 => ⟨S524288x64, .f32⟩
  | 60 => ⟨S524288x64, .f32⟩
  | 61 => ⟨S1x64, .f32⟩
  | 62 => ⟨S524288x64, .f32⟩
  | 63 => ⟨S524288x64, .f32⟩
  | 64 => ⟨S1x64, .f32⟩
  | 65 => ⟨S524288x64, .f32⟩
  | 66 => ⟨S524288x64, .f32⟩
  | 67 => ⟨S_, .f32⟩
  | 68 => ⟨S524288x64, .f32⟩
  | 69 => ⟨S524288x64, .f32⟩
  | 70 => ⟨S524288x32, .f32⟩
  | 71 => ⟨S_, .f32⟩
  | 72 => ⟨S524288, .f32⟩
  | 73 => ⟨S524288x1, .f32⟩
  | 74 => ⟨S_, .f32⟩
  | 75 => ⟨S524288x1, .f32⟩
  | 76 => ⟨S524288x1, .f32⟩
  | 77 => ⟨S524288x32, .f32⟩
  | 78 => ⟨S524288x32, .f32⟩
  | 79 => ⟨S524288x32, .f32⟩
  | 80 => ⟨S_, .f32⟩
  | 81 => ⟨S524288, .f32⟩
  | 82 => ⟨S524288x1, .f32⟩
  | 83 => ⟨S_, .f32⟩
  | 84 => ⟨S524288x1, .f32⟩
  | 85 => ⟨S524288x1, .f32⟩
  | 86 => ⟨S524288x32, .f32⟩
  | 87 => ⟨S524288x32, .f32⟩
  | 88 => ⟨S_, .f32⟩
  | 89 => ⟨S524288x1, .f32⟩
  | 90 => ⟨S524288x1, .f32⟩
  | 91 => ⟨S524288x1, .f32⟩
  | 92 => ⟨S524288x32, .f32⟩
  | 93 => ⟨S524288x32, .f32⟩
  | 94 => ⟨S1x32, .f32⟩
  | 95 => ⟨S524288x32, .f32⟩
  | 96 => ⟨S524288x32, .f32⟩
  | 97 => ⟨S1x32, .f32⟩
  | 98 => ⟨S524288x32, .f32⟩
  | 99 => ⟨S524288x32, .f32⟩
  | 100 => ⟨S_, .f32⟩
  | 101 => ⟨S524288x32, .f32⟩
  | 102 => ⟨S524288x32, .f32⟩
  | 103 => ⟨S524288x16, .f32⟩
  | 104 => ⟨S1x16, .f32⟩
  | 105 => ⟨S524288x16, .f32⟩
  | 106 => ⟨S524288x16, .f32⟩
  | 107 => ⟨S524288x64, .f32⟩
  | 108 => ⟨S_, .f32⟩
  | 109 => ⟨S524288, .f32⟩
  | 110 => ⟨S524288x1, .f32⟩
  | 111 => ⟨S_, .f32⟩
  | 112 => ⟨S524288x1, .f32⟩
  | 113 => ⟨S524288x1, .f32⟩
  | 114 => ⟨S524288x64, .f32⟩
  | 115 => ⟨S524288x64, .f32⟩
  | 116 => ⟨S524288x64, .f32⟩
  | 117 => ⟨S_, .f32⟩
  | 118 => ⟨S524288, .f32⟩
  | 119 => ⟨S524288x1, .f32⟩
  | 120 => ⟨S_, .f32⟩
  | 121 => ⟨S524288x1, .f32⟩
  | 122 => ⟨S524288x1, .f32⟩
  | 123 => ⟨S524288x64, .f32⟩
  | 124 => ⟨S524288x64, .f32⟩
  | 125 => ⟨S_, .f32⟩
  | 126 => ⟨S524288x1, .f32⟩
  | 127 => ⟨S524288x1, .f32⟩
  | _ => ⟨S524288x128, .f32⟩

abbrev hbmTy0_1 (i : Nat) : BufTy := match i % 128 with
  | 0 => ⟨S524288x1, .f32⟩
  | 1 => ⟨S524288x64, .f32⟩
  | 2 => ⟨S524288x64, .f32⟩
  | 3 => ⟨S1x64, .f32⟩
  | 4 => ⟨S524288x64, .f32⟩
  | 5 => ⟨S524288x64, .f32⟩
  | 6 => ⟨S1x64, .f32⟩
  | 7 => ⟨S524288x64, .f32⟩
  | 8 => ⟨S524288x64, .f32⟩
  | 9 => ⟨S_, .f32⟩
  | 10 => ⟨S524288x64, .f32⟩
  | 11 => ⟨S524288x64, .f32⟩
  | 12 => ⟨S524288x32, .f32⟩
  | 13 => ⟨S1x32, .f32⟩
  | 14 => ⟨S524288x32, .f32⟩
  | 15 => ⟨S524288x32, .f32⟩
  | 16 => ⟨S524288x16, .f32⟩
  | 17 => ⟨S_, .f32⟩
  | 18 => ⟨S524288, .f32⟩
  | 19 => ⟨S524288x1, .f32⟩
  | 20 => ⟨S_, .f32⟩
  | 21 => ⟨S524288x1, .f32⟩
  | 22 => ⟨S524288x1, .f32⟩
  | 23 => ⟨S524288x16, .f32⟩
  | 24 => ⟨S524288x16, .f32⟩
  | 25 => ⟨S524288x16, .f32⟩
  | 26 => ⟨S_, .f32⟩
  | 27 => ⟨S524288, .f32⟩
  | 28 => ⟨S524288x1, .f32⟩
  | 29 => ⟨S_, .f32⟩
  | 30 => ⟨S524288x1, .f32⟩
  | 31 => ⟨S524288x1, .f32⟩
  | 32 => ⟨S524288x16, .f32⟩
  | 33 => ⟨S524288x16, .f32⟩
  | 34 => ⟨S_, .f32⟩
  | 35 => ⟨S524288x1, .f32⟩
  | 36 => ⟨S524288x1, .f32⟩
  | 37 => ⟨S524288x1, .f32⟩
  | 38 => ⟨S524288x16, .f32⟩
  | 39 => ⟨S524288x16, .f32⟩
  | 40 => ⟨S1x16, .f32⟩
  | 41 => ⟨S524288x16, .f32⟩
  | 42 => ⟨S524288x16, .f32⟩
  | 43 => ⟨S1x16, .f32⟩
  | 44 => ⟨S524288x16, .f32⟩
  | 45 => ⟨S524288x16, .f32⟩
  | 46 => ⟨S_, .f32⟩
  | 47 => ⟨S524288x16, .f32⟩
  | 48 => ⟨S524288x16, .f32⟩
  | 49 => ⟨S524288x32, .f32⟩
  | 50 => ⟨S1x32, .f32⟩
  | 51 => ⟨S524288x32, .f32⟩
  | 52 => ⟨S524288x32, .f32⟩
  | 53 => ⟨S524288x16, .f32⟩
  | 54 => ⟨S_, .f32⟩
  | 55 => ⟨S524288, .f32⟩
  | 56 => ⟨S524288x1, .f32⟩
  | 57 => ⟨S_, .f32⟩
  | 58 => ⟨S524288x1, .f32⟩
  | 59 => ⟨S524288x1, .f32⟩
  | 60 => ⟨S524288x16, .f32⟩
  | 61 => ⟨S524288x16, .f32⟩
  | 62 => ⟨S524288x16, .f32⟩
  | 63 => ⟨S_, .f32⟩
  | 64 => ⟨S524288, .f32⟩
  | 65 => ⟨S524288x1, .f32⟩
  | 66 => ⟨S_, .f32⟩
  | 67 => ⟨S524288x1, .f32⟩
  | 68 => ⟨S524288x1, .f32⟩
  | 69 => ⟨S524288x16, .f32⟩
  | 70 => ⟨S524288x16, .f32⟩
  | 71 => ⟨S_, .f32⟩
  | 72 => ⟨S524288x1, .f32⟩
  | 73 => ⟨S524288x1, .f32⟩
  | 74 => ⟨S524288x1, .f32⟩
  | 75 => ⟨S524288x16, .f32⟩
  | 76 => ⟨S524288x16, .f32⟩
  | 77 => ⟨S1x16, .f32⟩
  | 78 => ⟨S524288x16, .f32⟩
  | 79 => ⟨S524288x16, .f32⟩
  | 80 => ⟨S1x16, .f32⟩
  | 81 => ⟨S524288x16, .f32⟩
  | 82 => ⟨S524288x16, .f32⟩
  | 83 => ⟨S_, .f32⟩
  | 84 => ⟨S524288x16, .f32⟩
  | 85 => ⟨S524288x16, .f32⟩
  | 86 => ⟨S524288x32, .f32⟩
  | 87 => ⟨S1x32, .f32⟩
  | 88 => ⟨S524288x32, .f32⟩
  | 89 => ⟨S524288x32, .f32⟩
  | 90 => ⟨S524288x32, .f32⟩
  | 91 => ⟨S_, .f32⟩
  | 92 => ⟨S524288, .f32⟩
  | 93 => ⟨S_, .f32⟩
  | 94 => ⟨S524288, .f32⟩
  | 95 => ⟨S524288, .f32⟩
  | 96 => ⟨S524288x1, .f32⟩
  | 97 => ⟨S524288x32, .f32⟩
  | 98 => ⟨S524288x32, .f32⟩
  | 99 => ⟨S524288x32, .f32⟩
  | 100 => ⟨S_, .f32⟩
  | 101 => ⟨S524288, .f32⟩
  | 102 => ⟨S524288x1, .f32⟩
  | 103 => ⟨S524288x32, .f32⟩
  | 104 => ⟨S524288x32, .f32⟩
  | 105 => ⟨S524288x32, .f32⟩
  | 106 => ⟨S524288x32, .f32⟩
  | 107 => ⟨S_, .f32⟩
  | 108 => ⟨S524288, .f32⟩
  | 109 => ⟨S524288x1, .f32⟩
  | 110 => ⟨S_, .f32⟩
  | 111 => ⟨S524288x1, .f32⟩
  | 112 => ⟨S524288x1, .f32⟩
  | 113 => ⟨S524288x32, .f32⟩
  | 114 => ⟨S524288x32, .f32⟩
  | 115 => ⟨S524288x32, .f32⟩
  | 116 => ⟨S_, .f32⟩
  | 117 => ⟨S524288, .f32⟩
  | 118 => ⟨S524288x1, .f32⟩
  | 119 => ⟨S_, .f32⟩
  | 120 => ⟨S524288x1, .f32⟩
  | 121 => ⟨S524288x1, .f32⟩
  | 122 => ⟨S524288x32, .f32⟩
  | 123 => ⟨S524288x32, .f32⟩
  | 124 => ⟨S_, .f32⟩
  | 125 => ⟨S524288x1, .f32⟩
  | 126 => ⟨S524288x1, .f32⟩
  | 127 => ⟨S524288x1, .f32⟩
  | _ => ⟨S524288x128, .f32⟩

abbrev hbmTy0_2 (i : Nat) : BufTy := match i % 128 with
  | 0 => ⟨S524288x32, .f32⟩
  | 1 => ⟨S524288x32, .f32⟩
  | 2 => ⟨S1x32, .f32⟩
  | 3 => ⟨S524288x32, .f32⟩
  | 4 => ⟨S524288x32, .f32⟩
  | 5 => ⟨S1x32, .f32⟩
  | 6 => ⟨S524288x32, .f32⟩
  | 7 => ⟨S524288x32, .f32⟩
  | 8 => ⟨S_, .f32⟩
  | 9 => ⟨S524288x32, .f32⟩
  | 10 => ⟨S524288x32, .f32⟩
  | 11 => ⟨S524288x16, .f32⟩
  | 12 => ⟨S1x16, .f32⟩
  | 13 => ⟨S524288x16, .f32⟩
  | 14 => ⟨S524288x16, .f32⟩
  | 15 => ⟨S524288x32, .f32⟩
  | 16 => ⟨S524288x16, .f32⟩
  | 17 => ⟨S_, .f32⟩
  | 18 => ⟨S524288, .f32⟩
  | 19 => ⟨S524288x1, .f32⟩
  | 20 => ⟨S_, .f32⟩
  | 21 => ⟨S524288x1, .f32⟩
  | 22 => ⟨S524288x1, .f32⟩
  | 23 => ⟨S524288x16, .f32⟩
  | 24 => ⟨S524288x16, .f32⟩
  | 25 => ⟨S524288x16, .f32⟩
  | 26 => ⟨S_, .f32⟩
  | 27 => ⟨S524288, .f32⟩
  | 28 => ⟨S524288x1, .f32⟩
  | 29 => ⟨S_, .f32⟩
  | 30 => ⟨S524288x1, .f32⟩
  | 31 => ⟨S524288x1, .f32⟩
  | 32 => ⟨S524288x16, .f32⟩
  | 33 => ⟨S524288x16, .f32⟩
  | 34 => ⟨S_, .f32⟩
  | 35 => ⟨S524288x1, .f32⟩
  | 36 => ⟨S524288x1, .f32⟩
  | 37 => ⟨S524288x1, .f32⟩
  | 38 => ⟨S524288x16, .f32⟩
  | 39 => ⟨S524288x16, .f32⟩
  | 40 => ⟨S1x16, .f32⟩
  | 41 => ⟨S524288x16, .f32⟩
  | 42 => ⟨S524288x16, .f32⟩
  | 43 => ⟨S1x16, .f32⟩
  | 44 => ⟨S524288x16, .f32⟩
  | 45 => ⟨S524288x16, .f32⟩
  | 46 => ⟨S_, .f32⟩
  | 47 => ⟨S524288x16, .f32⟩
  | 48 => ⟨S524288x16, .f32⟩
  | 49 => ⟨S524288x1, .f32⟩
  | 50 => ⟨S1x1, .f32⟩
  | 51 => ⟨S524288x1, .f32⟩
  | 52 => ⟨S524288x1, .f32⟩
  | _ => ⟨S524288x128, .f32⟩

abbrev hbmTy (i : Nat) : BufTy := match i / 128 with
  | 0 => hbmTy0_0 i
  | 1 => hbmTy0_1 i
  | 2 => hbmTy0_2 i
  | _ => ⟨S524288x128, .f32⟩

abbrev bufTy : (tb : Table) → Fin (tcTables nBuf tb) → BufTy
  | .hbm, ⟨i, _⟩ => hbmTy i
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_cst : Ref sig .tc := ⟨.hbm, 38, rfl⟩
abbrev main_v2 : Ref sig .tc := ⟨.hbm, 39, rfl⟩
abbrev main_v3 : Ref sig .tc := ⟨.hbm, 40, rfl⟩
abbrev main_cst_0 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_cst_1 : Ref sig .tc := ⟨.hbm, 47, rfl⟩
abbrev main_v9 : Ref sig .tc := ⟨.hbm, 48, rfl⟩
abbrev main_v10 : Ref sig .tc := ⟨.hbm, 49, rfl⟩
abbrev main_cst_2 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_3 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_call0_cst : Ref sig .tc := ⟨.hbm, 67, rfl⟩
abbrev main_call0_v0 : Ref sig .tc := ⟨.hbm, 68, rfl⟩
abbrev main_v26 : Ref sig .tc := ⟨.hbm, 69, rfl⟩
abbrev main_v27 : Ref sig .tc := ⟨.hbm, 70, rfl⟩
abbrev main_cst_4 : Ref sig .tc := ⟨.hbm, 71, rfl⟩
abbrev main_v28 : Ref sig .tc := ⟨.hbm, 72, rfl⟩
abbrev main_v29 : Ref sig .tc := ⟨.hbm, 73, rfl⟩
abbrev main_cst_5 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_6 : Ref sig .tc := ⟨.hbm, 80, rfl⟩
abbrev main_v35 : Ref sig .tc := ⟨.hbm, 81, rfl⟩
abbrev main_v36 : Ref sig .tc := ⟨.hbm, 82, rfl⟩
abbrev main_cst_7 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_cst_8 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_call1_cst : Ref sig .tc := ⟨.hbm, 100, rfl⟩
abbrev main_call1_v0 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_cst_9 : Ref sig .tc := ⟨.hbm, 108, rfl⟩
abbrev main_v58 : Ref sig .tc := ⟨.hbm, 109, rfl⟩
abbrev main_v59 : Ref sig .tc := ⟨.hbm, 110, rfl⟩
abbrev main_cst_10 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_cst_11 : Ref sig .tc := ⟨.hbm, 117, rfl⟩
abbrev main_v65 : Ref sig .tc := ⟨.hbm, 118, rfl⟩
abbrev main_v66 : Ref sig .tc := ⟨.hbm, 119, rfl⟩
abbrev main_cst_12 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_cst_13 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_call2_cst : Ref sig .tc := ⟨.hbm, 137, rfl⟩
abbrev main_call2_v0 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_14 : Ref sig .tc := ⟨.hbm, 145, rfl⟩
abbrev main_v88 : Ref sig .tc := ⟨.hbm, 146, rfl⟩
abbrev main_v89 : Ref sig .tc := ⟨.hbm, 147, rfl⟩
abbrev main_cst_15 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_cst_16 : Ref sig .tc := ⟨.hbm, 154, rfl⟩
abbrev main_v95 : Ref sig .tc := ⟨.hbm, 155, rfl⟩
abbrev main_v96 : Ref sig .tc := ⟨.hbm, 156, rfl⟩
abbrev main_cst_17 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_cst_18 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_call3_cst : Ref sig .tc := ⟨.hbm, 174, rfl⟩
abbrev main_call3_v0 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_cst_19 : Ref sig .tc := ⟨.hbm, 182, rfl⟩
abbrev main_v118 : Ref sig .tc := ⟨.hbm, 183, rfl⟩
abbrev main_v119 : Ref sig .tc := ⟨.hbm, 184, rfl⟩
abbrev main_cst_20 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_cst_21 : Ref sig .tc := ⟨.hbm, 191, rfl⟩
abbrev main_v125 : Ref sig .tc := ⟨.hbm, 192, rfl⟩
abbrev main_v126 : Ref sig .tc := ⟨.hbm, 193, rfl⟩
abbrev main_cst_22 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_cst_23 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_call4_cst : Ref sig .tc := ⟨.hbm, 211, rfl⟩
abbrev main_call4_v0 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_cst_24 : Ref sig .tc := ⟨.hbm, 219, rfl⟩
abbrev main_v148 : Ref sig .tc := ⟨.hbm, 220, rfl⟩
abbrev main_cst_25 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_cst_26 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_cst_27 : Ref sig .tc := ⟨.hbm, 235, rfl⟩
abbrev main_v161 : Ref sig .tc := ⟨.hbm, 236, rfl⟩
abbrev main_v162 : Ref sig .tc := ⟨.hbm, 237, rfl⟩
abbrev main_cst_28 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_cst_29 : Ref sig .tc := ⟨.hbm, 244, rfl⟩
abbrev main_v168 : Ref sig .tc := ⟨.hbm, 245, rfl⟩
abbrev main_v169 : Ref sig .tc := ⟨.hbm, 246, rfl⟩
abbrev main_cst_30 : Ref sig .tc := ⟨.hbm, 247, rfl⟩
abbrev main_v170 : Ref sig .tc := ⟨.hbm, 248, rfl⟩
abbrev main_v171 : Ref sig .tc := ⟨.hbm, 249, rfl⟩
abbrev main_v172 : Ref sig .tc := ⟨.hbm, 250, rfl⟩
abbrev main_v173 : Ref sig .tc := ⟨.hbm, 251, rfl⟩
abbrev main_cst_31 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_v184 : Ref sig .tc := ⟨.hbm, 263, rfl⟩
abbrev main_call5_cst : Ref sig .tc := ⟨.hbm, 264, rfl⟩
abbrev main_call5_v0 : Ref sig .tc := ⟨.hbm, 265, rfl⟩
abbrev main_v185 : Ref sig .tc := ⟨.hbm, 266, rfl⟩
abbrev main_v186 : Ref sig .tc := ⟨.hbm, 267, rfl⟩
abbrev main_v187 : Ref sig .tc := ⟨.hbm, 268, rfl⟩
abbrev main_v188 : Ref sig .tc := ⟨.hbm, 269, rfl⟩
abbrev main_v189 : Ref sig .tc := ⟨.hbm, 270, rfl⟩
abbrev main_v190 : Ref sig .tc := ⟨.hbm, 271, rfl⟩
abbrev main_v191 : Ref sig .tc := ⟨.hbm, 272, rfl⟩
abbrev main_cst_32 : Ref sig .tc := ⟨.hbm, 273, rfl⟩
abbrev main_v192 : Ref sig .tc := ⟨.hbm, 274, rfl⟩
abbrev main_v193 : Ref sig .tc := ⟨.hbm, 275, rfl⟩
abbrev main_cst_33 : Ref sig .tc := ⟨.hbm, 276, rfl⟩
abbrev main_v194 : Ref sig .tc := ⟨.hbm, 277, rfl⟩
abbrev main_v195 : Ref sig .tc := ⟨.hbm, 278, rfl⟩
abbrev main_v196 : Ref sig .tc := ⟨.hbm, 279, rfl⟩
abbrev main_v197 : Ref sig .tc := ⟨.hbm, 280, rfl⟩
abbrev main_v198 : Ref sig .tc := ⟨.hbm, 281, rfl⟩
abbrev main_cst_34 : Ref sig .tc := ⟨.hbm, 282, rfl⟩
abbrev main_v199 : Ref sig .tc := ⟨.hbm, 283, rfl⟩
abbrev main_v200 : Ref sig .tc := ⟨.hbm, 284, rfl⟩
abbrev main_cst_35 : Ref sig .tc := ⟨.hbm, 285, rfl⟩
abbrev main_v201 : Ref sig .tc := ⟨.hbm, 286, rfl⟩
abbrev main_v202 : Ref sig .tc := ⟨.hbm, 287, rfl⟩
abbrev main_v203 : Ref sig .tc := ⟨.hbm, 288, rfl⟩
abbrev main_v204 : Ref sig .tc := ⟨.hbm, 289, rfl⟩
abbrev main_cst_36 : Ref sig .tc := ⟨.hbm, 290, rfl⟩
abbrev main_v205 : Ref sig .tc := ⟨.hbm, 291, rfl⟩
abbrev main_v206 : Ref sig .tc := ⟨.hbm, 292, rfl⟩
abbrev main_v207 : Ref sig .tc := ⟨.hbm, 293, rfl⟩
abbrev main_v208 : Ref sig .tc := ⟨.hbm, 294, rfl⟩
abbrev main_v209 : Ref sig .tc := ⟨.hbm, 295, rfl⟩
abbrev main_v210 : Ref sig .tc := ⟨.hbm, 296, rfl⟩
abbrev main_v211 : Ref sig .tc := ⟨.hbm, 297, rfl⟩
abbrev main_v212 : Ref sig .tc := ⟨.hbm, 298, rfl⟩
abbrev main_v213 : Ref sig .tc := ⟨.hbm, 299, rfl⟩
abbrev main_v214 : Ref sig .tc := ⟨.hbm, 300, rfl⟩
abbrev main_v215 : Ref sig .tc := ⟨.hbm, 301, rfl⟩
abbrev main_call6_cst : Ref sig .tc := ⟨.hbm, 302, rfl⟩
abbrev main_call6_v0 : Ref sig .tc := ⟨.hbm, 303, rfl⟩
abbrev main_v216 : Ref sig .tc := ⟨.hbm, 304, rfl⟩
abbrev main_v217 : Ref sig .tc := ⟨.hbm, 305, rfl⟩
abbrev main_v218 : Ref sig .tc := ⟨.hbm, 306, rfl⟩
abbrev main_v219 : Ref sig .tc := ⟨.hbm, 307, rfl⟩
abbrev main_v220 : Ref sig .tc := ⟨.hbm, 308, rfl⟩

abbrev nD : Nat := 1
abbrev τ : Topo := Topo.v7x

variable {F : FTy → Type} [FloatOps F]

class Facts₀ : Prop where
  concatenates_S524288x128_S524288x6_S524288x1_S524288x135_d1 : Shape.Concatenates [S524288x128, S524288x6, S524288x1] S524288x135 1
  reducesTo_S524288x64_S524288_d1 : S524288x64.ReducesTo [1] S524288
  h_S_ : 0 < S_.numel
  bcast_S524288_S524288x1_0 : S524288.BroadcastsInDim S524288x1 (![0] : Fin 1 → Fin S524288x1.rank)
  bcast_S_S524288x1 : S_.BroadcastsInDim S524288x1 (![] : Fin 0 → Fin S524288x1.rank)
  bcast_S524288x1_S524288x64_0_1 : S524288x1.BroadcastsInDim S524288x64 (![0, 1] : Fin 2 → Fin S524288x64.rank)
  bcast_S64_S1x64_1 : S64.BroadcastsInDim S1x64 (![1] : Fin 1 → Fin S1x64.rank)
  bcast_S1x64_S524288x64_0_1 : S1x64.BroadcastsInDim S524288x64 (![0, 1] : Fin 2 → Fin S524288x64.rank)
  bcast_S_S524288x64 : S_.BroadcastsInDim S524288x64 (![] : Fin 0 → Fin S524288x64.rank)
  reducesTo_S524288x32_S524288_d1 : S524288x32.ReducesTo [1] S524288
  bcast_S524288x1_S524288x32_0_1 : S524288x1.BroadcastsInDim S524288x32 (![0, 1] : Fin 2 → Fin S524288x32.rank)
  bcast_S32_S1x32_1 : S32.BroadcastsInDim S1x32 (![1] : Fin 1 → Fin S1x32.rank)
  bcast_S1x32_S524288x32_0_1 : S1x32.BroadcastsInDim S524288x32 (![0, 1] : Fin 2 → Fin S524288x32.rank)
  bcast_S_S524288x32 : S_.BroadcastsInDim S524288x32 (![] : Fin 0 → Fin S524288x32.rank)
  bcast_S16_S1x16_1 : S16.BroadcastsInDim S1x16 (![1] : Fin 1 → Fin S1x16.rank)
  bcast_S1x16_S524288x16_0_1 : S1x16.BroadcastsInDim S524288x16 (![0, 1] : Fin 2 → Fin S524288x16.rank)
  reducesTo_S524288x16_S524288_d1 : S524288x16.ReducesTo [1] S524288
  bcast_S524288x1_S524288x16_0_1 : S524288x1.BroadcastsInDim S524288x16 (![0, 1] : Fin 2 → Fin S524288x16.rank)
  bcast_S_S524288x16 : S_.BroadcastsInDim S524288x16 (![] : Fin 0 → Fin S524288x16.rank)
  bcast_S_S524288 : S_.BroadcastsInDim S524288 (![] : Fin 0 → Fin S524288.rank)
  concatenates_S524288x16_S524288x16_S524288x32_d1 : Shape.Concatenates [S524288x16, S524288x16] S524288x32 1
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  dot_S524288x135_S135x64_S524288x64_1_0_0_1_n_n_wf : DotDims.WF S524288x135 S135x64 S524288x64 [1] [0] [0] [1] [] []
  dot_S524288x64_S64x32_S524288x32_1_0_0_1_n_n_wf : DotDims.WF S524288x64 S64x32 S524288x32 [1] [0] [0] [1] [] []
  dot_S524288x32_S32x16_S524288x16_1_0_0_1_n_n_wf : DotDims.WF S524288x32 S32x16 S524288x16 [1] [0] [0] [1] [] []
  dot_S524288x128_S128x64_S524288x64_1_0_0_1_n_n_wf : DotDims.WF S524288x128 S128x64 S524288x64 [1] [0] [0] [1] [] []
  dot_S524288x6_S6x16_S524288x16_1_0_0_1_n_n_wf : DotDims.WF S524288x6 S6x16 S524288x16 [1] [0] [0] [1] [] []
  dot_S524288x16_S16x32_S524288x32_1_0_0_1_n_n_wf : DotDims.WF S524288x16 S16x32 S524288x32 [1] [0] [0] [1] [] []
  dot_S524288x1_S1x16_S524288x16_1_0_0_1_n_n_wf : DotDims.WF S524288x1 S1x16 S524288x16 [1] [0] [0] [1] [] []
  dot_S524288x32_S32x32_S524288x32_1_0_0_1_n_n_wf : DotDims.WF S524288x32 S32x32 S524288x32 [1] [0] [0] [1] [] []
  dot_S524288x16_S16x1_S524288x1_1_0_0_1_n_n_wf : DotDims.WF S524288x16 S16x1 S524288x1 [1] [0] [0] [1] [] []

variable [Facts₀]

def dot_S524288x135_S135x64_S524288x64_1_0_0_1_n_n : DotDims S524288x135 S135x64 S524288x64 where
  lhsContracting := [1]
  rhsContracting := [0]
  lhsNonContracting := [0]
  rhsNonContracting := [1]
  lhsBatch := []
  rhsBatch := []
  wf := dot_S524288x135_S135x64_S524288x64_1_0_0_1_n_n_wf
def dot_S524288x64_S64x32_S524288x32_1_0_0_1_n_n : DotDims S524288x64 S64x32 S524288x32 where
  lhsContracting := [1]
  rhsContracting := [0]
  lhsNonContracting := [0]
  rhsNonContracting := [1]
  lhsBatch := []
  rhsBatch := []
  wf := dot_S524288x64_S64x32_S524288x32_1_0_0_1_n_n_wf
def dot_S524288x32_S32x16_S524288x16_1_0_0_1_n_n : DotDims S524288x32 S32x16 S524288x16 where
  lhsContracting := [1]
  rhsContracting := [0]
  lhsNonContracting := [0]
  rhsNonContracting := [1]
  lhsBatch := []
  rhsBatch := []
  wf := dot_S524288x32_S32x16_S524288x16_1_0_0_1_n_n_wf
def dot_S524288x128_S128x64_S524288x64_1_0_0_1_n_n : DotDims S524288x128 S128x64 S524288x64 where
  lhsContracting := [1]
  rhsContracting := [0]
  lhsNonContracting := [0]
  rhsNonContracting := [1]
  lhsBatch := []
  rhsBatch := []
  wf := dot_S524288x128_S128x64_S524288x64_1_0_0_1_n_n_wf
def dot_S524288x6_S6x16_S524288x16_1_0_0_1_n_n : DotDims S524288x6 S6x16 S524288x16 where
  lhsContracting := [1]
  rhsContracting := [0]
  lhsNonContracting := [0]
  rhsNonContracting := [1]
  lhsBatch := []
  rhsBatch := []
  wf := dot_S524288x6_S6x16_S524288x16_1_0_0_1_n_n_wf
def dot_S524288x16_S16x32_S524288x32_1_0_0_1_n_n : DotDims S524288x16 S16x32 S524288x32 where
  lhsContracting := [1]
  rhsContracting := [0]
  lhsNonContracting := [0]
  rhsNonContracting := [1]
  lhsBatch := []
  rhsBatch := []
  wf := dot_S524288x16_S16x32_S524288x32_1_0_0_1_n_n_wf
def dot_S524288x1_S1x16_S524288x16_1_0_0_1_n_n : DotDims S524288x1 S1x16 S524288x16 where
  lhsContracting := [1]
  rhsContracting := [0]
  lhsNonContracting := [0]
  rhsNonContracting := [1]
  lhsBatch := []
  rhsBatch := []
  wf := dot_S524288x1_S1x16_S524288x16_1_0_0_1_n_n_wf
def dot_S524288x32_S32x32_S524288x32_1_0_0_1_n_n : DotDims S524288x32 S32x32 S524288x32 where
  lhsContracting := [1]
  rhsContracting := [0]
  lhsNonContracting := [0]
  rhsNonContracting := [1]
  lhsBatch := []
  rhsBatch := []
  wf := dot_S524288x32_S32x32_S524288x32_1_0_0_1_n_n_wf
def dot_S524288x16_S16x1_S524288x1_1_0_0_1_n_n : DotDims S524288x16 S16x1 S524288x1 where
  lhsContracting := [1]
  rhsContracting := [0]
  lhsNonContracting := [0]
  rhsNonContracting := [1]
  lhsBatch := []
  rhsBatch := []
  wf := dot_S524288x16_S16x1_S524288x1_1_0_0_1_n_n_wf

class Facts : Prop extends Facts₀ where

variable [Facts]
-- ==== Proof.KbHost.lean ====
/-
  The host side of the program's run, and the frame read off a run of the whole program.

  @main is forty-four array operations (slices of the first-layer weight matrix, joins with blocks of zeros that
  build the fused block-diagonal weights, format changes, the padding of the pose and opening columns to eight),
  then one launch of the kernel over 128 grid points, then one reshape of the kernel's 4096 x 128 result into a
  column. None of the forty-four operations writes an argument array, so the launch finds every argument as it
  was at the start; the reshape writes only its own result. Hence, from any run of the whole program that ends
  with every array the launch stages at the contents the launch's bookkeeping computes and every other buffer as
  the closing reshape leaves it, all thirty-six arguments end unchanged: a staged argument because an input
  window's array is never written back, any other because no operation writes it.
-/
import proofs.«104010_j23570780520494_2_alg».proof.Proof.Gen.Kernel.Launch
import proofs.«104010_j23570780520494_2_alg».proof.Proof.Gen.Kernel.Skeleton
import proofs.«104010_j23570780520494_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- Core `c`'s buffer contents when the kernel is launched: the memory at the start after the forty-four array
    operations that precede the launch. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- The operations before the launch allocate nothing. -/
theorem hostOps0_fresh : (hostOps0 : List (HloOp τ sig (Elt F))).Forall fun op => op.fresh = ∅ := by
  simp only [List.Forall]; repeat' constructor
/-- Nor does the reshape after it. -/
theorem hostOps1_fresh : (hostOps1 : List (HloOp τ sig (Elt F))).Forall fun op => op.fresh = ∅ := by
  simp only [List.Forall]; repeat' constructor

/-- @main is the operations before the launch, the launch, and the reshape after it: run up to the launch it
    reaches the launch continued by the reshape, with the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape touches only the launch's arrays and buffers that bypass the launch. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result only, which is no array of the launch. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## No operation before the launch writes an argument -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg26 (c : Dev nD) : V m c main_arg26 = m ((c : Thread nD τ).loc main_arg26) :=
  StableHlo.after_of_forall_not_mem (b := Proc.devRef .tc main_arg26) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg27 (c : Dev nD) : V m c main_arg27 = m ((c : Thread nD τ).loc main_arg27) :=
  StableHlo.after_of_forall_not_mem (b := Proc.devRef .tc main_arg27) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg28 (c : Dev nD) : V m c main_arg28 = m ((c : Thread nD τ).loc main_arg28) :=
  StableHlo.after_of_forall_not_mem (b := Proc.devRef .tc main_arg28) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg29 (c : Dev nD) : V m c main_arg29 = m ((c : Thread nD τ).loc main_arg29) :=
  StableHlo.after_of_forall_not_mem (b := Proc.devRef .tc main_arg29) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg30 (c : Dev nD) : V m c main_arg30 = m ((c : Thread nD τ).loc main_arg30) :=
  StableHlo.after_of_forall_not_mem (b := Proc.devRef .tc main_arg30) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg31 (c : Dev nD) : V m c main_arg31 = m ((c : Thread nD τ).loc main_arg31) :=
  StableHlo.after_of_forall_not_mem (b := Proc.devRef .tc main_arg31) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg32 (c : Dev nD) : V m c main_arg32 = m ((c : Thread nD τ).loc main_arg32) :=
  StableHlo.after_of_forall_not_mem (b := Proc.devRef .tc main_arg32) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg33 (c : Dev nD) : V m c main_arg33 = m ((c : Thread nD τ).loc main_arg33) :=
  StableHlo.after_of_forall_not_mem (b := Proc.devRef .tc main_arg33) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg34 (c : Dev nD) : V m c main_arg34 = m ((c : Thread nD τ).loc main_arg34) :=
  StableHlo.after_of_forall_not_mem (b := Proc.devRef .tc main_arg34) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg35 (c : Dev nD) : V m c main_arg35 = m ((c : Thread nD τ).loc main_arg35) :=
  StableHlo.after_of_forall_not_mem (b := Proc.devRef .tc main_arg35) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## Nor does the reshape after it: an argument no window stages ends as launched -/

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c
theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c
theorem W_main_arg18 (dats : (p : Fin _) → (c : Dev nD) → Dat τ (Elt F) Unit ℕ (UR sig nD τ) ℕ (cfgs p) c) (c : Dev nD) :
    Pipeline.afterTail₀ cfgs dats 0 (V0 m) [hostOps1] c main_arg18 = m ((c : Thread nD τ).loc main_arg18) := by
  unfold Pipeline.afterTail₀
  rw [StableHlo.after_of_forall_not_mem (b := Proc.devRef .tc main_arg18) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg18 (by exact (by decide : ∀ w, Pipeline.arrRef spec0 w ≠ main_arg18))]
  exact V_main_arg18 m c
theorem W_main_arg21 (dats : (p : Fin _) → (c : Dev nD) → Dat τ (Elt F) Unit ℕ (UR sig nD τ) ℕ (cfgs p) c) (c : Dev nD) :
    Pipeline.afterTail₀ cfgs dats 0 (V0 m) [hostOps1] c main_arg21 = m ((c : Thread nD τ).loc main_arg21) := by
  unfold Pipeline.afterTail₀
  rw [StableHlo.after_of_forall_not_mem (b := Proc.devRef .tc main_arg21) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg21 (by exact (by decide : ∀ w, Pipeline.arrRef spec0 w ≠ main_arg21))]
  exact V_main_arg21 m c
theorem W_main_arg23 (dats : (p : Fin _) → (c : Dev nD) → Dat τ (Elt F) Unit ℕ (UR sig nD τ) ℕ (cfgs p) c) (c : Dev nD) :
    Pipeline.afterTail₀ cfgs dats 0 (V0 m) [hostOps1] c main_arg23 = m ((c : Thread nD τ).loc main_arg23) := by
  unfold Pipeline.afterTail₀
  rw [StableHlo.after_of_forall_not_mem (b := Proc.devRef .tc main_arg23) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg23 (by exact (by decide : ∀ w, Pipeline.arrRef spec0 w ≠ main_arg23))]
  exact V_main_arg23 m c
theorem W_main_arg26 (dats : (p : Fin _) → (c : Dev nD) → Dat τ (Elt F) Unit ℕ (UR sig nD τ) ℕ (cfgs p) c) (c : Dev nD) :
    Pipeline.afterTail₀ cfgs dats 0 (V0 m) [hostOps1] c main_arg26 = m ((c : Thread nD τ).loc main_arg26) := by
  unfold Pipeline.afterTail₀
  rw [StableHlo.after_of_forall_not_mem (b := Proc.devRef .tc main_arg26) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg26 (by exact (by decide : ∀ w, Pipeline.arrRef spec0 w ≠ main_arg26))]
  exact V_main_arg26 m c
theorem W_main_arg29 (dats : (p : Fin _) → (c : Dev nD) → Dat τ (Elt F) Unit ℕ (UR sig nD τ) ℕ (cfgs p) c) (c : Dev nD) :
    Pipeline.afterTail₀ cfgs dats 0 (V0 m) [hostOps1] c main_arg29 = m ((c : Thread nD τ).loc main_arg29) := by
  unfold Pipeline.afterTail₀
  rw [StableHlo.after_of_forall_not_mem (b := Proc.devRef .tc main_arg29) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg29 (by exact (by decide : ∀ w, Pipeline.arrRef spec0 w ≠ main_arg29))]
  exact V_main_arg29 m c
theorem W_main_arg31 (dats : (p : Fin _) → (c : Dev nD) → Dat τ (Elt F) Unit ℕ (UR sig nD τ) ℕ (cfgs p) c) (c : Dev nD) :
    Pipeline.afterTail₀ cfgs dats 0 (V0 m) [hostOps1] c main_arg31 = m ((c : Thread nD τ).loc main_arg31) := by
  unfold Pipeline.afterTail₀
  rw [StableHlo.after_of_forall_not_mem (b := Proc.devRef .tc main_arg31) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg31 (by exact (by decide : ∀ w, Pipeline.arrRef spec0 w ≠ main_arg31))]
  exact V_main_arg31 m c
theorem W_main_arg34 (dats : (p : Fin _) → (c : Dev nD) → Dat τ (Elt F) Unit ℕ (UR sig nD τ) ℕ (cfgs p) c) (c : Dev nD) :
    Pipeline.afterTail₀ cfgs dats 0 (V0 m) [hostOps1] c main_arg34 = m ((c : Thread nD τ).loc main_arg34) := by
  unfold Pipeline.afterTail₀
  rw [StableHlo.after_of_forall_not_mem (b := Proc.devRef .tc main_arg34) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg34 (by exact (by decide : ∀ w, Pipeline.arrRef spec0 w ≠ main_arg34))]
  exact V_main_arg34 m c

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether that point fetches it or
    not (an unfetched window's block index has not moved), for any bookkeeping whose array is the launch's and
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether that point fetches it or
    not (an unfetched window's block index has not moved), for any bookkeeping whose array is the launch's and
    whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether that point fetches it or
    not (an unfetched window's block index has not moved), for any bookkeeping whose array is the launch's and
    whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether that point fetches it or
    not (an unfetched window's block index has not moved), for any bookkeeping whose array is the launch's and
    whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether that point fetches it or
    not (an unfetched window's block index has not moved), for any bookkeeping whose array is the launch's and
    whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether that point fetches it or
    not (an unfetched window's block index has not moved), for any bookkeeping whose array is the launch's and
    whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether that point fetches it or
    not (an unfetched window's block index has not moved), for any bookkeeping whose array is the launch's and
    whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, whether that point fetches it or
    not (an unfetched window's block index has not moved), for any bookkeeping whose array is the launch's and
    whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, whether that point fetches it or
    not (an unfetched window's block index has not moved), for any bookkeeping whose array is the launch's and
    whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, whether that point fetches it or
    not (an unfetched window's block index has not moved), for any bookkeeping whose array is the launch's and
    whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, whether that point fetches it or
    not (an unfetched window's block index has not moved), for any bookkeeping whose array is the launch's and
    whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, whether that point fetches it or
    not (an unfetched window's block index has not moved), for any bookkeeping whose array is the launch's and
    whose body leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, whether that point fetches it or
    not (an unfetched window's block index has not moved), for any bookkeeping whose array is the launch's and
    whose body leaves the block in place. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, whether that point fetches it or
    not (an unfetched window's block index has not moved), for any bookkeeping whose array is the launch's and
    whose body leaves the block in place. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, whether that point fetches it or
    not (an unfetched window's block index has not moved), for any bookkeeping whose array is the launch's and
    whose body leaves the block in place. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, whether that point fetches it or
    not (an unfetched window's block index has not moved), for any bookkeeping whose array is the launch's and
    whose body leaves the block in place. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, whether that point fetches it or
    not (an unfetched window's block index has not moved), for any bookkeeping whose array is the launch's and
    whose body leaves the block in place. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, whether that point fetches it or
    not (an unfetched window's block index has not moved), for any bookkeeping whose array is the launch's and
    whose body leaves the block in place. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, whether that point fetches it or
    not (an unfetched window's block index has not moved), for any bookkeeping whose array is the launch's and
    whose body leaves the block in place. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, whether that point fetches it or
    not (an unfetched window's block index has not moved), for any bookkeeping whose array is the launch's and
    whose body leaves the block in place. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, whether that point fetches it or
    not (an unfetched window's block index has not moved), for any bookkeeping whose array is the launch's and
    whose body leaves the block in place. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, whether that point fetches it or
    not (an unfetched window's block index has not moved), for any bookkeeping whose array is the launch's and
    whose body leaves the block in place. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's current staging buffer holds its block at every point, whether that point fetches it or
    not (an unfetched window's block index has not moved), for any bookkeeping whose array is the launch's and
    whose body leaves the block in place. -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
/-- Input window 23's current staging buffer holds its block at every point, whether that point fetches it or
    not (an unfetched window's block index has not moved), for any bookkeeping whose array is the launch's and
    whose body leaves the block in place. -/
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
/-- Input window 24's current staging buffer holds its block at every point, whether that point fetches it or
    not (an unfetched window's block index has not moved), for any bookkeeping whose array is the launch's and
    whose body leaves the block in place. -/
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
/-- Input window 25's current staging buffer holds its block at every point, whether that point fetches it or
    not (an unfetched window's block index has not moved), for any bookkeeping whose array is the launch's and
    whose body leaves the block in place. -/
theorem before0_25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)
/-- Input window 26's current staging buffer holds its block at every point, whether that point fetches it or
    not (an unfetched window's block index has not moved), for any bookkeeping whose array is the launch's and
    whose body leaves the block in place. -/
theorem before0_26_of {c : Dev nD} (dat : Dat τ (Elt F) Unit ℕ (UR sig nD τ) ℕ cfg0 c) (hA : dat.A 26 = V m c (Pipeline.arrRef spec0 26))
    (hafter : ∀ t, dat.after 26 t = iblk m c 26 t) (t : Fin cfg0.N) (d) : dat.before 26 t d = iblk m c 26 t :=
  (dat.before_in_eq_fetched 26 rfl (fun _ => rfl) (fun _ _ _ => rfl) (fun t => by rw [hafter]; unfold Dat.blockOf iblk; rw [hA]; try rfl) t d).trans
    (by unfold Dat.fetched Dat.blockOf iblk; rw [hA]; try rfl)
/-- Input window 27's current staging buffer holds its block at every point, whether that point fetches it or
    not (an unfetched window's block index has not moved), for any bookkeeping whose array is the launch's and
    whose body leaves the block in place. -/
theorem before0_27_of {c : Dev nD} (dat : Dat τ (Elt F) Unit ℕ (UR sig nD τ) ℕ cfg0 c) (hA : dat.A 27 = V m c (Pipeline.arrRef spec0 27))
    (hafter : ∀ t, dat.after 27 t = iblk m c 27 t) (t : Fin cfg0.N) (d) : dat.before 27 t d = iblk m c 27 t :=
  (dat.before_in_eq_fetched 27 rfl (fun _ => rfl) (fun _ _ _ => rfl) (fun t => by rw [hafter]; unfold Dat.blockOf iblk; rw [hA]; try rfl) t d).trans
    (by unfold Dat.fetched Dat.blockOf iblk; rw [hA]; try rfl)
/-- Input window 28's current staging buffer holds its block at every point, whether that point fetches it or
    not (an unfetched window's block index has not moved), for any bookkeeping whose array is the launch's and
    whose body leaves the block in place. -/
theorem before0_28_of {c : Dev nD} (dat : Dat τ (Elt F) Unit ℕ (UR sig nD τ) ℕ cfg0 c) (hA : dat.A 28 = V m c (Pipeline.arrRef spec0 28))
    (hafter : ∀ t, dat.after 28 t = iblk m c 28 t) (t : Fin cfg0.N) (d) : dat.before 28 t d = iblk m c 28 t :=
  (dat.before_in_eq_fetched 28 rfl (fun _ => rfl) (fun _ _ _ => rfl) (fun t => by rw [hafter]; unfold Dat.blockOf iblk; rw [hA]; try rfl) t d).trans
    (by unfold Dat.fetched Dat.blockOf iblk; rw [hA]; try rfl)
/-- Input window 29's current staging buffer holds its block at every point, whether that point fetches it or
    not (an unfetched window's block index has not moved), for any bookkeeping whose array is the launch's and
    whose body leaves the block in place. -/
theorem before0_29_of {c : Dev nD} (dat : Dat τ (Elt F) Unit ℕ (UR sig nD τ) ℕ cfg0 c) (hA : dat.A 29 = V m c (Pipeline.arrRef spec0 29))
    (hafter : ∀ t, dat.after 29 t = iblk m c 29 t) (t : Fin cfg0.N) (d) : dat.before 29 t d = iblk m c 29 t :=
  (dat.before_in_eq_fetched 29 rfl (fun _ => rfl) (fun _ _ _ => rfl) (fun t => by rw [hafter]; unfold Dat.blockOf iblk; rw [hA]; try rfl) t d).trans
    (by unfold Dat.fetched Dat.blockOf iblk; rw [hA]; try rfl)
/-- Input window 30's current staging buffer holds its block at every point, whether that point fetches it or
    not (an unfetched window's block index has not moved), for any bookkeeping whose array is the launch's and
    whose body leaves the block in place. -/
theorem before0_30_of {c : Dev nD} (dat : Dat τ (Elt F) Unit ℕ (UR sig nD τ) ℕ cfg0 c) (hA : dat.A 30 = V m c (Pipeline.arrRef spec0 30))
    (hafter : ∀ t, dat.after 30 t = iblk m c 30 t) (t : Fin cfg0.N) (d) : dat.before 30 t d = iblk m c 30 t :=
  (dat.before_in_eq_fetched 30 rfl (fun _ => rfl) (fun _ _ _ => rfl) (fun t => by rw [hafter]; unfold Dat.blockOf iblk; rw [hA]; try rfl) t d).trans
    (by unfold Dat.fetched Dat.blockOf iblk; rw [hA]; try rfl)
/-- Input window 31's current staging buffer holds its block at every point, whether that point fetches it or
    not (an unfetched window's block index has not moved), for any bookkeeping whose array is the launch's and
    whose body leaves the block in place. -/
theorem before0_31_of {c : Dev nD} (dat : Dat τ (Elt F) Unit ℕ (UR sig nD τ) ℕ cfg0 c) (hA : dat.A 31 = V m c (Pipeline.arrRef spec0 31))
    (hafter : ∀ t, dat.after 31 t = iblk m c 31 t) (t : Fin cfg0.N) (d) : dat.before 31 t d = iblk m c 31 t :=
  (dat.before_in_eq_fetched 31 rfl (fun _ => rfl) (fun _ _ _ => rfl) (fun t => by rw [hafter]; unfold Dat.blockOf iblk; rw [hA]; try rfl) t d).trans
    (by unfold Dat.fetched Dat.blockOf iblk; rw [hA]; try rfl)

/-! ## The frame from a run of the whole program -/

section Kept

variable (dats : (p : Fin 1) → (c : Dev nD) → Dat τ (Elt F) Unit ℕ (UR sig nD τ) ℕ (cfgs p) c)
  (hA : ∀ c w, (dats 0 c).A w = V m c (Pipeline.arrRef spec0 w))
  {r : PUnit × MemSt nD τ sig (Elt F)}
  (h : Pipeline.FramePost cfgs dats 0 (Pipeline.afterTail₀ cfgs dats 0 (V0 m) [hostOps1]) r) (c : Dev nD)

/-! One argument at a time: an argument some window stages ends at what the bookkeeping computes for an input
    window's array, which is its contents at the launch; any other is left alone by the launch and the reshape. -/

include hA h in
theorem kept_arg0 : r.2.mem ((c.tc : Thread nD τ).loc main_arg0) = m ((c.tc : Thread nD τ).loc main_arg0) :=
  ((h c).1 0).trans (((dats 0 c).arrAt_in 0 rfl _).trans ((hA c 0).trans (V_main_arg0 m c)))
include h in
theorem kept_arg1 : r.2.mem ((c.tc : Thread nD τ).loc main_arg1) = m ((c.tc : Thread nD τ).loc main_arg1) :=
  ((h c).2 main_arg1 (Pipeline.mem_restRefs_of main_arg1 (by decide) (by decide))).trans (W_main_arg1 m dats c)
include h in
theorem kept_arg2 : r.2.mem ((c.tc : Thread nD τ).loc main_arg2) = m ((c.tc : Thread nD τ).loc main_arg2) :=
  ((h c).2 main_arg2 (Pipeline.mem_restRefs_of main_arg2 (by decide) (by decide))).trans (W_main_arg2 m dats c)
include h in
theorem kept_arg3 : r.2.mem ((c.tc : Thread nD τ).loc main_arg3) = m ((c.tc : Thread nD τ).loc main_arg3) :=
  ((h c).2 main_arg3 (Pipeline.mem_restRefs_of main_arg3 (by decide) (by decide))).trans (W_main_arg3 m dats c)
include hA h in
theorem kept_arg4 : r.2.mem ((c.tc : Thread nD τ).loc main_arg4) = m ((c.tc : Thread nD τ).loc main_arg4) :=
  ((h c).1 8).trans (((dats 0 c).arrAt_in 8 rfl _).trans ((hA c 8).trans (V_main_arg4 m c)))
include hA h in
theorem kept_arg5 : r.2.mem ((c.tc : Thread nD τ).loc main_arg5) = m ((c.tc : Thread nD τ).loc main_arg5) :=
  ((h c).1 9).trans (((dats 0 c).arrAt_in 9 rfl _).trans ((hA c 9).trans (V_main_arg5 m c)))
include h in
theorem kept_arg6 : r.2.mem ((c.tc : Thread nD τ).loc main_arg6) = m ((c.tc : Thread nD τ).loc main_arg6) :=
  ((h c).2 main_arg6 (Pipeline.mem_restRefs_of main_arg6 (by decide) (by decide))).trans (W_main_arg6 m dats c)
include hA h in
theorem kept_arg7 : r.2.mem ((c.tc : Thread nD τ).loc main_arg7) = m ((c.tc : Thread nD τ).loc main_arg7) :=
  ((h c).1 22).trans (((dats 0 c).arrAt_in 22 rfl _).trans ((hA c 22).trans (V_main_arg7 m c)))
include h in
theorem kept_arg8 : r.2.mem ((c.tc : Thread nD τ).loc main_arg8) = m ((c.tc : Thread nD τ).loc main_arg8) :=
  ((h c).2 main_arg8 (Pipeline.mem_restRefs_of main_arg8 (by decide) (by decide))).trans (W_main_arg8 m dats c)
include hA h in
theorem kept_arg9 : r.2.mem ((c.tc : Thread nD τ).loc main_arg9) = m ((c.tc : Thread nD τ).loc main_arg9) :=
  ((h c).1 10).trans (((dats 0 c).arrAt_in 10 rfl _).trans ((hA c 10).trans (V_main_arg9 m c)))
include hA h in
theorem kept_arg10 : r.2.mem ((c.tc : Thread nD τ).loc main_arg10) = m ((c.tc : Thread nD τ).loc main_arg10) :=
  ((h c).1 11).trans (((dats 0 c).arrAt_in 11 rfl _).trans ((hA c 11).trans (V_main_arg10 m c)))
include h in
theorem kept_arg11 : r.2.mem ((c.tc : Thread nD τ).loc main_arg11) = m ((c.tc : Thread nD τ).loc main_arg11) :=
  ((h c).2 main_arg11 (Pipeline.mem_restRefs_of main_arg11 (by decide) (by decide))).trans (W_main_arg11 m dats c)
include hA h in
theorem kept_arg12 : r.2.mem ((c.tc : Thread nD τ).loc main_arg12) = m ((c.tc : Thread nD τ).loc main_arg12) :=
  ((h c).1 23).trans (((dats 0 c).arrAt_in 23 rfl _).trans ((hA c 23).trans (V_main_arg12 m c)))
include h in
theorem kept_arg13 : r.2.mem ((c.tc : Thread nD τ).loc main_arg13) = m ((c.tc : Thread nD τ).loc main_arg13) :=
  ((h c).2 main_arg13 (Pipeline.mem_restRefs_of main_arg13 (by decide) (by decide))).trans (W_main_arg13 m dats c)
include hA h in
theorem kept_arg14 : r.2.mem ((c.tc : Thread nD τ).loc main_arg14) = m ((c.tc : Thread nD τ).loc main_arg14) :=
  ((h c).1 12).trans (((dats 0 c).arrAt_in 12 rfl _).trans ((hA c 12).trans (V_main_arg14 m c)))
include hA h in
theorem kept_arg15 : r.2.mem ((c.tc : Thread nD τ).loc main_arg15) = m ((c.tc : Thread nD τ).loc main_arg15) :=
  ((h c).1 13).trans (((dats 0 c).arrAt_in 13 rfl _).trans ((hA c 13).trans (V_main_arg15 m c)))
include h in
theorem kept_arg16 : r.2.mem ((c.tc : Thread nD τ).loc main_arg16) = m ((c.tc : Thread nD τ).loc main_arg16) :=
  ((h c).2 main_arg16 (Pipeline.mem_restRefs_of main_arg16 (by decide) (by decide))).trans (W_main_arg16 m dats c)
include hA h in
theorem kept_arg17 : r.2.mem ((c.tc : Thread nD τ).loc main_arg17) = m ((c.tc : Thread nD τ).loc main_arg17) :=
  ((h c).1 24).trans (((dats 0 c).arrAt_in 24 rfl _).trans ((hA c 24).trans (V_main_arg17 m c)))
include h in
theorem kept_arg18 : r.2.mem ((c.tc : Thread nD τ).loc main_arg18) = m ((c.tc : Thread nD τ).loc main_arg18) :=
  ((h c).2 main_arg18 (Pipeline.mem_restRefs_of main_arg18 (by decide) (by decide))).trans (W_main_arg18 m dats c)
include hA h in
theorem kept_arg19 : r.2.mem ((c.tc : Thread nD τ).loc main_arg19) = m ((c.tc : Thread nD τ).loc main_arg19) :=
  ((h c).1 14).trans (((dats 0 c).arrAt_in 14 rfl _).trans ((hA c 14).trans (V_main_arg19 m c)))
include hA h in
theorem kept_arg20 : r.2.mem ((c.tc : Thread nD τ).loc main_arg20) = m ((c.tc : Thread nD τ).loc main_arg20) :=
  ((h c).1 15).trans (((dats 0 c).arrAt_in 15 rfl _).trans ((hA c 15).trans (V_main_arg20 m c)))
include h in
theorem kept_arg21 : r.2.mem ((c.tc : Thread nD τ).loc main_arg21) = m ((c.tc : Thread nD τ).loc main_arg21) :=
  ((h c).2 main_arg21 (Pipeline.mem_restRefs_of main_arg21 (by decide) (by decide))).trans (W_main_arg21 m dats c)
include hA h in
theorem kept_arg22 : r.2.mem ((c.tc : Thread nD τ).loc main_arg22) = m ((c.tc : Thread nD τ).loc main_arg22) :=
  ((h c).1 27).trans (((dats 0 c).arrAt_in 27 rfl _).trans ((hA c 27).trans (V_main_arg22 m c)))
include h in
theorem kept_arg23 : r.2.mem ((c.tc : Thread nD τ).loc main_arg23) = m ((c.tc : Thread nD τ).loc main_arg23) :=
  ((h c).2 main_arg23 (Pipeline.mem_restRefs_of main_arg23 (by decide) (by decide))).trans (W_main_arg23 m dats c)
include hA h in
theorem kept_arg24 : r.2.mem ((c.tc : Thread nD τ).loc main_arg24) = m ((c.tc : Thread nD τ).loc main_arg24) :=
  ((h c).1 4).trans (((dats 0 c).arrAt_in 4 rfl _).trans ((hA c 4).trans (V_main_arg24 m c)))
include hA h in
theorem kept_arg25 : r.2.mem ((c.tc : Thread nD τ).loc main_arg25) = m ((c.tc : Thread nD τ).loc main_arg25) :=
  ((h c).1 5).trans (((dats 0 c).arrAt_in 5 rfl _).trans ((hA c 5).trans (V_main_arg25 m c)))
include h in
theorem kept_arg26 : r.2.mem ((c.tc : Thread nD τ).loc main_arg26) = m ((c.tc : Thread nD τ).loc main_arg26) :=
  ((h c).2 main_arg26 (Pipeline.mem_restRefs_of main_arg26 (by decide) (by decide))).trans (W_main_arg26 m dats c)
include hA h in
theorem kept_arg27 : r.2.mem ((c.tc : Thread nD τ).loc main_arg27) = m ((c.tc : Thread nD τ).loc main_arg27) :=
  ((h c).1 6).trans (((dats 0 c).arrAt_in 6 rfl _).trans ((hA c 6).trans (V_main_arg27 m c)))
include hA h in
theorem kept_arg28 : r.2.mem ((c.tc : Thread nD τ).loc main_arg28) = m ((c.tc : Thread nD τ).loc main_arg28) :=
  ((h c).1 7).trans (((dats 0 c).arrAt_in 7 rfl _).trans ((hA c 7).trans (V_main_arg28 m c)))
include h in
theorem kept_arg29 : r.2.mem ((c.tc : Thread nD τ).loc main_arg29) = m ((c.tc : Thread nD τ).loc main_arg29) :=
  ((h c).2 main_arg29 (Pipeline.mem_restRefs_of main_arg29 (by decide) (by decide))).trans (W_main_arg29 m dats c)
include hA h in
theorem kept_arg30 : r.2.mem ((c.tc : Thread nD τ).loc main_arg30) = m ((c.tc : Thread nD τ).loc main_arg30) :=
  ((h c).1 21).trans (((dats 0 c).arrAt_in 21 rfl _).trans ((hA c 21).trans (V_main_arg30 m c)))
include h in
theorem kept_arg31 : r.2.mem ((c.tc : Thread nD τ).loc main_arg31) = m ((c.tc : Thread nD τ).loc main_arg31) :=
  ((h c).2 main_arg31 (Pipeline.mem_restRefs_of main_arg31 (by decide) (by decide))).trans (W_main_arg31 m dats c)
include hA h in
theorem kept_arg32 : r.2.mem ((c.tc : Thread nD τ).loc main_arg32) = m ((c.tc : Thread nD τ).loc main_arg32) :=
  ((h c).1 16).trans (((dats 0 c).arrAt_in 16 rfl _).trans ((hA c 16).trans (V_main_arg32 m c)))
include hA h in
theorem kept_arg33 : r.2.mem ((c.tc : Thread nD τ).loc main_arg33) = m ((c.tc : Thread nD τ).loc main_arg33) :=
  ((h c).1 17).trans (((dats 0 c).arrAt_in 17 rfl _).trans ((hA c 17).trans (V_main_arg33 m c)))
include h in
theorem kept_arg34 : r.2.mem ((c.tc : Thread nD τ).loc main_arg34) = m ((c.tc : Thread nD τ).loc main_arg34) :=
  ((h c).2 main_arg34 (Pipeline.mem_restRefs_of main_arg34 (by decide) (by decide))).trans (W_main_arg34 m dats c)
include hA h in
theorem kept_arg35 : r.2.mem ((c.tc : Thread nD τ).loc main_arg35) = m ((c.tc : Thread nD τ).loc main_arg35) :=
  ((h c).1 31).trans (((dats 0 c).arrAt_in 31 rfl _).trans ((hA c 31).trans (V_main_arg35 m c)))

end Kept

/-- For any bookkeeping whose arrays are the launch's, a run of the whole program that ends with every staged
    array at what the bookkeeping computes and every other buffer as the reshape leaves it ends with all
    thirty-six arguments unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)) :=
  (θ_run defs _ _).mono (fun _ h c => ⟨kept_arg0 m dats hA h c,
      kept_arg1 m dats h c,
      kept_arg2 m dats h c,
      kept_arg3 m dats h c,
      kept_arg4 m dats hA h c,
      kept_arg5 m dats hA h c,
      kept_arg6 m dats h c,
      kept_arg7 m dats hA h c,
      kept_arg8 m dats h c,
      kept_arg9 m dats hA h c,
      kept_arg10 m dats hA h c,
      kept_arg11 m dats h c,
      kept_arg12 m dats hA h c,
      kept_arg13 m dats h c,
      kept_arg14 m dats hA h c,
      kept_arg15 m dats hA h c,
      kept_arg16 m dats h c,
      kept_arg17 m dats hA h c,
      kept_arg18 m dats h c,
      kept_arg19 m dats hA h c,
      kept_arg20 m dats hA h c,
      kept_arg21 m dats h c,
      kept_arg22 m dats hA h c,
      kept_arg23 m dats h c,
      kept_arg24 m dats hA h c,
      kept_arg25 m dats hA h c,
      kept_arg26 m dats h c,
      kept_arg27 m dats hA h c,
      kept_arg28 m dats hA h c,
      kept_arg29 m dats h c,
      kept_arg30 m dats hA h c,
      kept_arg31 m dats h c,
      kept_arg32 m dats hA h c,
      kept_arg33 m dats hA h c,
      kept_arg34 m dats h c,
      kept_arg35 m dats hA h c⟩) h

end Cert.Kernel.Frame

end
-- ==== Proof.KbBody.lean ====
/-
  One grid point of the kernel: 4096 rows of the network at once.

  The body loads each of its thirty-two input buffers whole, computes, and stores one 32 x 128 block (the 4096
  scores of the point's rows, laid out lane-dense). What that block holds is a pure function of the loaded
  buffers: the body's arithmetic is cut into six stretches, each handing a few intermediate arrays to the
  next (the first-layer products and the normalised residual branch; the second residual layer and the key;
  the normalised query and value hidden layers; query, value and the normalised second residual layer; the
  residual output, the attention head's first layer and its statistics; the score's first layer and its
  statistics), and the stored block is the last stretch's result. `out` below composes the six stretches in that
  order. The triple says: run on buffers holding anything in the output and `x0 … x31` in the inputs, the body
  ends with the inputs as they were and the output at `out x0 … x31`.
-/
import proofs.«104010_j23570780520494_2_alg».proof.Proof.Gen.Kernel.Launch
import proofs.«104010_j23570780520494_2_alg».proof.Proof.Gen.Kernel.Skeleton
import proofs.«104010_j23570780520494_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole -/

abbrev rS4096x128 : Rect S4096x128 := Rect.unit (s := S4096x128) ![0, 0] S4096x128.size inb_S4096x128_S4096x128_0_0
abbrev rS4096x8 : Rect S4096x8 := Rect.unit (s := S4096x8) ![0, 0] S4096x8.size inb_S4096x8_S4096x8_0_0
abbrev rS128x128 : Rect S128x128 := Rect.unit (s := S128x128) ![0, 0] S128x128.size inb_S128x128_S128x128_0_0
abbrev rS8x160 : Rect S8x160 := Rect.unit (s := S8x160) ![0, 0] S8x160.size inb_S8x160_S8x160_0_0
abbrev rS64 : Rect S64 := Rect.unit (s := S64) ![0] S64.size inb_S64_S64_0
abbrev rS32 : Rect S32 := Rect.unit (s := S32) ![0] S32.size inb_S32_S32_0
abbrev rS16 : Rect S16 := Rect.unit (s := S16) ![0] S16.size inb_S16_S16_0
abbrev rS128x64 : Rect S128x64 := Rect.unit (s := S128x64) ![0, 0] S128x64.size inb_S128x64_S128x64_0_0
abbrev rS32x64 : Rect S32x64 := Rect.unit (s := S32x64) ![0, 0] S32x64.size inb_S32x64_S32x64_0_0
abbrev rS32x16 : Rect S32x16 := Rect.unit (s := S32x16) ![0, 0] S32x16.size inb_S32x16_S32x16_0_0
abbrev rS32x32 : Rect S32x32 := Rect.unit (s := S32x32) ![0, 0] S32x32.size inb_S32x32_S32x32_0_0
abbrev rS16x16 : Rect S16x16 := Rect.unit (s := S16x16) ![0, 0] S16x16.size inb_S16x16_S16x16_0_0
abbrev rS16x1 : Rect S16x1 := Rect.unit (s := S16x1) ![0, 0] S16x1.size inb_S16x1_S16x1_0_0
abbrev rS1 : Rect S1 := Rect.unit (s := S1) ![0] S1.size inb_S1_S1_0
abbrev rS32x128 : Rect S32x128 := Rect.unit (s := S32x128) ![0, 0] S32x128.size inb_S32x128_S32x128_0_0

/-! ## What the six stretches hand on, as functions of the loaded buffers -/

section Stages
variable (x0 : Vec F S4096x128 .f32) (x1 : Vec F S4096x8 .f32) (x2 : Vec F S128x128 .bf16) (x3 : Vec F S8x160 .bf16) (x4 : Vec F S64 .f32) (x5 : Vec F S64 .f32) (x6 : Vec F S32 .f32) (x7 : Vec F S32 .f32) (x8 : Vec F S64 .f32) (x9 : Vec F S64 .f32) (x10 : Vec F S16 .f32) (x11 : Vec F S16 .f32) (x12 : Vec F S16 .f32) (x13 : Vec F S16 .f32) (x14 : Vec F S32 .f32) (x15 : Vec F S32 .f32) (x16 : Vec F S16 .f32) (x17 : Vec F S16 .f32) (x18 : Vec F S128x64 .bf16) (x19 : Vec F S32x64 .bf16) (x20 : Vec F S32x16 .bf16) (x21 : Vec F S16 .f32) (x22 : Vec F S32 .f32) (x23 : Vec F S32 .f32) (x24 : Vec F S32 .f32) (x25 : Vec F S32x32 .bf16) (x26 : Vec F S32x16 .bf16) (x27 : Vec F S16 .f32) (x28 : Vec F S16x16 .bf16) (x29 : Vec F S16x16 .bf16) (x30 : Vec F S16x1 .bf16) (x31 : Vec F S1 .f32)

/-- The key branch's first-layer product: the right half of the representation's product with the fused weights. -/
def s_v9 : FVec F S4096x64 .f32 := k0_pay3 (View.ld x0 rS4096x128) (View.ld x2 rS128x128)
/-- The query branch's first-layer product: columns 64..79 of the pose-and-opening product. -/
def s_v14 : FVec F S4096x16 .f32 := k0_pay5 (View.ld x1 rS4096x8) (View.ld x3 rS8x160)
/-- The value branch's first-layer product: columns 144..159 of the same product. -/
def s_v16 : FVec F S4096x16 .f32 := k0_pay6 (View.ld x1 rS4096x8) (View.ld x3 rS8x160)
/-- The residual branch's first layer, normalised and scaled by its gain. -/
def s_v41 : FVec F S4096x64 .f32 := k0_pay7 (View.ld x0 rS4096x128) (View.ld x1 rS4096x8) (View.ld x2 rS128x128) (View.ld x3 rS8x160) (View.ld x4 rS64)
/-- The residual branch's second-layer product. -/
def s_v80 : FVec F S4096x32 .f32 := k0_pay9 (s_v9 x0 x2) (View.ld x5 rS64) (s_v41 x0 x1 x2 x3 x4) (View.ld x8 rS64) (View.ld x9 rS64) (View.ld x18 rS128x64)
/-- The key. -/
def s_v85 : FVec F S4096x32 .f32 := k0_pay10 (s_v9 x0 x2) (View.ld x5 rS64) (s_v41 x0 x1 x2 x3 x4) (View.ld x8 rS64) (View.ld x9 rS64) (View.ld x18 rS128x64) (View.ld x22 rS32)
/-- The query's hidden layer. -/
def s_v113 : FVec F S4096x16 .f32 := k0_pay11 (s_v14 x1 x3) (View.ld x10 rS16) (View.ld x11 rS16)
/-- The value's hidden layer before its gain and bias. -/
def s_v133 : FVec F S4096x16 .f32 := k0_pay12 (s_v16 x1 x3)
/-- The query. -/
def s_v151 : FVec F S4096x32 .f32 := k0_pay14 (s_v113 x1 x3 x10 x11) (View.ld x12 rS16) (View.ld x13 rS16) (s_v133 x1 x3) (View.ld x19 rS32x64) (View.ld x23 rS32)
/-- The value. -/
def s_v156 : FVec F S4096x32 .f32 := k0_pay15 (s_v113 x1 x3 x10 x11) (View.ld x12 rS16) (View.ld x13 rS16) (s_v133 x1 x3) (View.ld x19 rS32x64) (View.ld x24 rS32)
/-- The residual branch's second layer, normalised and scaled by its gain. -/
def s_v179 : FVec F S4096x32 .f32 := k0_pay16 (s_v80 x0 x1 x2 x3 x4 x5 x8 x9 x18) (View.ld x6 rS32)
/-- Its bias as a row. -/
def s_v180 : FVec F S1x32 .f32 := k0_pay17 (View.ld x7 rS32)
/-- The residual branch's output. -/
def s_v192 : FVec F S4096x16 .f32 := k0_pay18 (s_v179 x0 x1 x2 x3 x4 x5 x6 x8 x9 x18) (s_v180 x7) (View.ld x20 rS32x16) (View.ld x21 rS16)
/-- The attention head's first-layer product, and the two statistics of its normalisation. -/
def s_v209 : FVec F S4096x32 .f32 := k0_pay19 (s_v85 x0 x1 x2 x3 x4 x5 x8 x9 x18 x22) (s_v151 x1 x3 x10 x11 x12 x13 x19 x23) (s_v156 x1 x3 x10 x11 x12 x13 x19 x24) (View.ld x25 rS32x32)
def s_v222 : FVec F S4096x1 .f32 := k0_pay21 (s_v85 x0 x1 x2 x3 x4 x5 x8 x9 x18 x22) (s_v151 x1 x3 x10 x11 x12 x13 x19 x23) (s_v156 x1 x3 x10 x11 x12 x13 x19 x24) (View.ld x25 rS32x32)
def s_v223 : FVec F S4096x32 .f32 := k0_pay22 (s_v85 x0 x1 x2 x3 x4 x5 x8 x9 x18 x22) (s_v151 x1 x3 x10 x11 x12 x13 x19 x23) (s_v156 x1 x3 x10 x11 x12 x13 x19 x24) (View.ld x25 rS32x32)
end Stages

/-- The score's first-layer product and the two statistics of its normalisation, from what the fifth stretch
    handed on. -/
def s_v254 (v192 : FVec F S4096x16 .f32) (v209 : FVec F S4096x32 .f32) (v222 : FVec F S4096x1 .f32) (v223 : FVec F S4096x32 .f32)
    (x14 x15 : Vec F S32 .f32) (x26 : Vec F S32x16 .bf16) (x27 : Vec F S16 .f32) (x28 x29 : Vec F S16x16 .bf16) : FVec F S4096x16 .f32 :=
  k0_pay23 v192 v209 (View.ld x14 rS32) (View.ld x15 rS32) v222 v223 (View.ld x26 rS32x16) (View.ld x27 rS16) (View.ld x28 rS16x16) (View.ld x29 rS16x16)
def s_v260 (v192 : FVec F S4096x16 .f32) (v209 : FVec F S4096x32 .f32) (v222 : FVec F S4096x1 .f32) (v223 : FVec F S4096x32 .f32)
    (x14 x15 : Vec F S32 .f32) (x26 : Vec F S32x16 .bf16) (x27 : Vec F S16 .f32) (x28 x29 : Vec F S16x16 .bf16) : FVec F S4096x1 .f32 :=
  k0_pay24 v192 v209 (View.ld x14 rS32) (View.ld x15 rS32) v222 v223 (View.ld x26 rS32x16) (View.ld x27 rS16) (View.ld x28 rS16x16) (View.ld x29 rS16x16)
def s_v265 (v192 : FVec F S4096x16 .f32) (v209 : FVec F S4096x32 .f32) (v222 : FVec F S4096x1 .f32) (v223 : FVec F S4096x32 .f32)
    (x14 x15 : Vec F S32 .f32) (x26 : Vec F S32x16 .bf16) (x27 : Vec F S16 .f32) (x28 x29 : Vec F S16x16 .bf16) : FVec F S4096x1 .f32 :=
  k0_pay25 v192 v209 (View.ld x14 rS32) (View.ld x15 rS32) v222 v223 (View.ld x26 rS32x16) (View.ld x27 rS16) (View.ld x28 rS16x16) (View.ld x29 rS16x16)

/-- The 4096 scores of the point as a 32 x 128 block: the stored value. -/
def payload (x0 : Vec F S4096x128 .f32) (x1 : Vec F S4096x8 .f32) (x2 : Vec F S128x128 .bf16) (x3 : Vec F S8x160 .bf16) (x4 : Vec F S64 .f32) (x5 : Vec F S64 .f32) (x6 : Vec F S32 .f32) (x7 : Vec F S32 .f32) (x8 : Vec F S64 .f32) (x9 : Vec F S64 .f32) (x10 : Vec F S16 .f32) (x11 : Vec F S16 .f32) (x12 : Vec F S16 .f32) (x13 : Vec F S16 .f32) (x14 : Vec F S32 .f32) (x15 : Vec F S32 .f32) (x16 : Vec F S16 .f32) (x17 : Vec F S16 .f32) (x18 : Vec F S128x64 .bf16) (x19 : Vec F S32x64 .bf16) (x20 : Vec F S32x16 .bf16) (x21 : Vec F S16 .f32) (x22 : Vec F S32 .f32) (x23 : Vec F S32 .f32) (x24 : Vec F S32 .f32) (x25 : Vec F S32x32 .bf16) (x26 : Vec F S32x16 .bf16) (x27 : Vec F S16 .f32) (x28 : Vec F S16x16 .bf16) (x29 : Vec F S16x16 .bf16) (x30 : Vec F S16x1 .bf16) (x31 : Vec F S1 .f32) : FVec F S32x128 .f32 :=
  let v192 := s_v192 x0 x1 x2 x3 x4 x5 x6 x7 x8 x9 x18 x20 x21
  let v209 := s_v209 x0 x1 x2 x3 x4 x5 x8 x9 x10 x11 x12 x13 x18 x19 x22 x23 x24 x25
  let v222 := s_v222 x0 x1 x2 x3 x4 x5 x8 x9 x10 x11 x12 x13 x18 x19 x22 x23 x24 x25
  let v223 := s_v223 x0 x1 x2 x3 x4 x5 x8 x9 x10 x11 x12 x13 x18 x19 x22 x23 x24 x25
  k0_pay1 (s_v254 v192 v209 v222 v223 x14 x15 x26 x27 x28 x29) (View.ld x16 rS16) (View.ld x17 rS16)
    (s_v260 v192 v209 v222 v223 x14 x15 x26 x27 x28 x29) (s_v265 v192 v209 v222 v223 x14 x15 x26 x27 x28 x29)
    (Scalar.ofBits .f32 0x41800000#32) (View.ld x30 rS16x1) (View.ld x31 rS1)

/-- The output buffer after the body: its one store, of the whole block. -/
def out (x0 : Vec F S4096x128 .f32) (x1 : Vec F S4096x8 .f32) (x2 : Vec F S128x128 .bf16) (x3 : Vec F S8x160 .bf16) (x4 : Vec F S64 .f32) (x5 : Vec F S64 .f32) (x6 : Vec F S32 .f32) (x7 : Vec F S32 .f32) (x8 : Vec F S64 .f32) (x9 : Vec F S64 .f32) (x10 : Vec F S16 .f32) (x11 : Vec F S16 .f32) (x12 : Vec F S16 .f32) (x13 : Vec F S16 .f32) (x14 : Vec F S32 .f32) (x15 : Vec F S32 .f32) (x16 : Vec F S16 .f32) (x17 : Vec F S16 .f32) (x18 : Vec F S128x64 .bf16) (x19 : Vec F S32x64 .bf16) (x20 : Vec F S32x16 .bf16) (x21 : Vec F S16 .f32) (x22 : Vec F S32 .f32) (x23 : Vec F S32 .f32) (x24 : Vec F S32 .f32) (x25 : Vec F S32x32 .bf16) (x26 : Vec F S32x16 .bf16) (x27 : Vec F S16 .f32) (x28 : Vec F S16x16 .bf16) (x29 : Vec F S16x16 .bf16) (x30 : Vec F S16x1 .bf16) (x31 : Vec F S1 .f32) : Vec F S32x128 .f32 :=
  View.canon [⟨rS32x128, payload x0 x1 x2 x3 x4 x5 x6 x7 x8 x9 x10 x11 x12 x13 x14 x15 x16 x17 x18 x19 x20 x21 x22 x23 x24 x25 x26 x27 x28 x29 x30 x31⟩]

/-- The one store covers the buffer. -/
theorem cover (p0 : Vec F S32x128 .f32) (y : S32x128.Idx) :
    ∃ pc ∈ ([⟨rS32x128, p0⟩] : List (View.Piece (Elt F) S32x128 .f32)), y ∈ pc.1.set :=
  View.cover_of_tiled [⟨rS32x128, p0⟩] S32x128.size (by rfl) y

/-! ## The body's triple -/

set_option maxHeartbeats 4000000 in
/-- The body on whole buffers, the inputs' at contents `x0 … x31` and the output's at anything, runs to the
    continuation holding the inputs' as they were and the output's at `out x0 … x31`. -/
theorem sound_kernel (c : Dev nD) (E : Set ℕ) (i : grid0.Coords) (arg1 : Memref sig .tc .vmem S4096x128 .f32) (harg1 : arg1.IsWhole) (arg2 : Memref sig .tc .vmem S4096x8 .f32) (harg2 : arg2.IsWhole) (arg3 : Memref sig .tc .vmem S128x128 .bf16) (harg3 : arg3.IsWhole) (arg4 : Memref sig .tc .vmem S8x160 .bf16) (harg4 : arg4.IsWhole) (arg5 : Memref sig .tc .vmem S64 .f32) (harg5 : arg5.IsWhole) (arg6 : Memref sig .tc .vmem S64 .f32) (harg6 : arg6.IsWhole) (arg7 : Memref sig .tc .vmem S32 .f32) (harg7 : arg7.IsWhole) (arg8 : Memref sig .tc .vmem S32 .f32) (harg8 : arg8.IsWhole) (arg9 : Memref sig .tc .vmem S64 .f32) (harg9 : arg9.IsWhole) (arg10 : Memref sig .tc .vmem S64 .f32) (harg10 : arg10.IsWhole) (arg11 : Memref sig .tc .vmem S16 .f32) (harg11 : arg11.IsWhole) (arg12 : Memref sig .tc .vmem S16 .f32) (harg12 : arg12.IsWhole) (arg13 : Memref sig .tc .vmem S16 .f32) (harg13 : arg13.IsWhole) (arg14 : Memref sig .tc .vmem S16 .f32) (harg14 : arg14.IsWhole) (arg15 : Memref sig .tc .vmem S32 .f32) (harg15 : arg15.IsWhole) (arg16 : Memref sig .tc .vmem S32 .f32) (harg16 : arg16.IsWhole) (arg17 : Memref sig .tc .vmem S16 .f32) (harg17 : arg17.IsWhole) (arg18 : Memref sig .tc .vmem S16 .f32) (harg18 : arg18.IsWhole) (arg19 : Memref sig .tc .vmem S128x64 .bf16) (harg19 : arg19.IsWhole) (arg20 : Memref sig .tc .vmem S32x64 .bf16) (harg20 : arg20.IsWhole) (arg21 : Memref sig .tc .vmem S32x16 .bf16) (harg21 : arg21.IsWhole) (arg22 : Memref sig .tc .vmem S16 .f32) (harg22 : arg22.IsWhole) (arg23 : Memref sig .tc .vmem S32 .f32) (harg23 : arg23.IsWhole) (arg24 : Memref sig .tc .vmem S32 .f32) (harg24 : arg24.IsWhole) (arg25 : Memref sig .tc .vmem S32 .f32) (harg25 : arg25.IsWhole) (arg26 : Memref sig .tc .vmem S32x32 .bf16) (harg26 : arg26.IsWhole) (arg27 : Memref sig .tc .vmem S32x16 .bf16) (harg27 : arg27.IsWhole) (arg28 : Memref sig .tc .vmem S16 .f32) (harg28 : arg28.IsWhole) (arg29 : Memref sig .tc .vmem S16x16 .bf16) (harg29 : arg29.IsWhole) (arg30 : Memref sig .tc .vmem S16x16 .bf16) (harg30 : arg30.IsWhole) (arg31 : Memref sig .tc .vmem S16x1 .bf16) (harg31 : arg31.IsWhole) (arg32 : Memref sig .tc .vmem S1 .f32) (harg32 : arg32.IsWhole) (arg33 : Memref sig .tc .vmem S32x128 .f32) (harg33 : arg33.IsWhole)
    (x0 : Vec F S4096x128 .f32) (x1 : Vec F S4096x8 .f32) (x2 : Vec F S128x128 .bf16) (x3 : Vec F S8x160 .bf16) (x4 : Vec F S64 .f32) (x5 : Vec F S64 .f32) (x6 : Vec F S32 .f32) (x7 : Vec F S32 .f32) (x8 : Vec F S64 .f32) (x9 : Vec F S64 .f32) (x10 : Vec F S16 .f32) (x11 : Vec F S16 .f32) (x12 : Vec F S16 .f32) (x13 : Vec F S16 .f32) (x14 : Vec F S32 .f32) (x15 : Vec F S32 .f32) (x16 : Vec F S16 .f32) (x17 : Vec F S16 .f32) (x18 : Vec F S128x64 .bf16) (x19 : Vec F S32x64 .bf16) (x20 : Vec F S32x16 .bf16) (x21 : Vec F S16 .f32) (x22 : Vec F S32 .f32) (x23 : Vec F S32 .f32) (x24 : Vec F S32 .f32) (x25 : Vec F S32x32 .bf16) (x26 : Vec F S32x16 .bf16) (x27 : Vec F S16 .f32) (x28 : Vec F S16x16 .bf16) (x29 : Vec F S16x16 .bf16) (x30 : Vec F S16x1 .bf16) (x31 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ (∃ d, owns (c : Thread nD τ) arg33 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ owns (c : Thread nD τ) arg33 fullShare (out x0 x1 x2 x3 x4 x5 x6 x7 x8 x9 x10 x11 x12 x13 x14 x15 x16 x17 x18 x19 x20 x21 x22 x23 x24 x25 x26 x27 x28 x29 x30 x31)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  simp only [cc0__kernel_eq_skeleton]; unfold cc0__kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%d32, %f32, -, H32⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  iexists _; isplitr
  swap; · iexact H32
  ipureintro
  try dsimp only
  exact View.read_writes_eq_canon _ _ _ (cover _)

end Cert.Kernel.Frame

end
-- ==== Proof.KbRun.lean ====
/-
  The launch's bookkeeping and the run of the whole program.

  At every one of the 128 grid points each input window's buffer holds that window's block of its array (the two
  row-tiled inputs a fresh block of 4096 rows, the thirty resident weights their whole array, fetched once), and
  the body leaves the output window's buffer at `out` of those blocks, which the launch writes back as block
  `t` of the 4096 x 128 result. With that the body's triple is the launch's obligation at every point, the
  launch theorem gives a run of the whole program, and the frame follows.
-/
import proofs.«104010_j23570780520494_2_alg».proof.Proof.KbHost
import proofs.«104010_j23570780520494_2_alg».proof.Proof.KbBody

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The bookkeeping -/

/-- On core `c`: the arrays as the launch finds them; after the body at point `t` each input's buffer at its
    block and the output's at `out` of the input blocks; nothing else owned, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => out (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t)
    | ⟨n + 33, h⟩ => absurd h (Nat.not_lt.2 (Nat.le_add_left 33 n))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = out (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d
theorem before0_31 (c : Dev nD) (t : Fin cfg0.N) (d) : (dats m 0 c).before 31 t d = iblk m c 31 t :=
  before0_31_of m (dats m 0 c) (A_eq m c 31) (after0_31 m c) t d

/-! ## The launch's obligation at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t))

set_option maxHeartbeats 2000000 in
/-- The body at any point: the inputs' buffers hold their blocks, so the body's triple applies; everything else
    passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexists _; iexact H32
  iintro ⟨H0, H1, H2, H3, H4, H5, H6, H7, H8, H9, H10, H11, H12, H13, H14, H15, H16, H17, H18, H19, H20, H21, H22, H23, H24, H25, H26, H27, H28, H29, H30, H31, H32⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  iexact H32

set_option maxHeartbeats 4000000 in
/-- The launch's obligation, at every point. -/
theorem body_obligation (c : Dev nD) : BodyObligation (dats (F := F) m 0 c) (defs₀ (F := F)) Variants.none () Set.univ := fun t => by
  rw [bigSep_W0, bigSep_W0]
  show bodyPre m c t ⊢ wp frame (wpE (defs₀ (F := F)) Variants.none c none) Set.univ (bodyAt0 t) (fun _ => bodyPost m c t)
  exact sound_body m c t

/-! ## The run and the frame -/

set_option backward.isDefEq.respectTransparency.types false in
/-- From any memory with zero counters every weakly fair execution of @main terminates, every array the launch
    stages ends at what the bookkeeping computes, and every other buffer as the closing reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end and its thirty-six arguments end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)) :=
  frame_of m ρ (dats m) (A_eq m) (run_main m ρ)

end Cert.Kernel.Frame

end
-- ==== Proof.KiHost.lean ====
/-
  The host side of the program's run, and the frame read off a run of the whole program.

  @main is forty-four array operations (slices of the first-layer weight matrix, joins with blocks of zeros that
  build the fused block-diagonal weights, format changes, the padding of the pose and opening columns to eight),
  then one launch of the kernel over 128 grid points, then one reshape of the kernel's 4096 x 128 result into a
  column. None of the forty-four operations writes an argument array, so the launch finds every argument as it
  was at the start; the reshape writes only its own result. Hence, from any run of the whole program that ends
  with every array the launch stages at the contents the launch's bookkeeping computes and every other buffer as
  the closing reshape leaves it, all thirty-six arguments end unchanged: a staged argument because an input
  window's array is never written back, any other because no operation writes it.
-/
import proofs.«104010_j23570780520494_2_alg».proof.Proof.Gen.KernelIdeal.Launch
import proofs.«104010_j23570780520494_2_alg».proof.Proof.Gen.KernelIdeal.Skeleton
import proofs.«104010_j23570780520494_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- Core `c`'s buffer contents when the kernel is launched: the memory at the start after the forty-four array
    operations that precede the launch. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- The operations before the launch allocate nothing. -/
theorem hostOps0_fresh : (hostOps0 : List (HloOp τ sig (Elt F))).Forall fun op => op.fresh = ∅ := by
  simp only [List.Forall]; repeat' constructor
/-- Nor does the reshape after it. -/
theorem hostOps1_fresh : (hostOps1 : List (HloOp τ sig (Elt F))).Forall fun op => op.fresh = ∅ := by
  simp only [List.Forall]; repeat' constructor

/-- @main is the operations before the launch, the launch, and the reshape after it: run up to the launch it
    reaches the launch continued by the reshape, with the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape touches only the launch's arrays and buffers that bypass the launch. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result only, which is no array of the launch. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## No operation before the launch writes an argument -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg26 (c : Dev nD) : V m c main_arg26 = m ((c : Thread nD τ).loc main_arg26) :=
  StableHlo.after_of_forall_not_mem (b := Proc.devRef .tc main_arg26) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg27 (c : Dev nD) : V m c main_arg27 = m ((c : Thread nD τ).loc main_arg27) :=
  StableHlo.after_of_forall_not_mem (b := Proc.devRef .tc main_arg27) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg28 (c : Dev nD) : V m c main_arg28 = m ((c : Thread nD τ).loc main_arg28) :=
  StableHlo.after_of_forall_not_mem (b := Proc.devRef .tc main_arg28) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg29 (c : Dev nD) : V m c main_arg29 = m ((c : Thread nD τ).loc main_arg29) :=
  StableHlo.after_of_forall_not_mem (b := Proc.devRef .tc main_arg29) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg30 (c : Dev nD) : V m c main_arg30 = m ((c : Thread nD τ).loc main_arg30) :=
  StableHlo.after_of_forall_not_mem (b := Proc.devRef .tc main_arg30) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg31 (c : Dev nD) : V m c main_arg31 = m ((c : Thread nD τ).loc main_arg31) :=
  StableHlo.after_of_forall_not_mem (b := Proc.devRef .tc main_arg31) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg32 (c : Dev nD) : V m c main_arg32 = m ((c : Thread nD τ).loc main_arg32) :=
  StableHlo.after_of_forall_not_mem (b := Proc.devRef .tc main_arg32) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg33 (c : Dev nD) : V m c main_arg33 = m ((c : Thread nD τ).loc main_arg33) :=
  StableHlo.after_of_forall_not_mem (b := Proc.devRef .tc main_arg33) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg34 (c : Dev nD) : V m c main_arg34 = m ((c : Thread nD τ).loc main_arg34) :=
  StableHlo.after_of_forall_not_mem (b := Proc.devRef .tc main_arg34) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg35 (c : Dev nD) : V m c main_arg35 = m ((c : Thread nD τ).loc main_arg35) :=
  StableHlo.after_of_forall_not_mem (b := Proc.devRef .tc main_arg35) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## Nor does the reshape after it: an argument no window stages ends as launched -/

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c
theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c
theorem W_main_arg18 (dats : (p : Fin _) → (c : Dev nD) → Dat τ (Elt F) Unit ℕ (UR sig nD τ) ℕ (cfgs p) c) (c : Dev nD) :
    Pipeline.afterTail₀ cfgs dats 0 (V0 m) [hostOps1] c main_arg18 = m ((c : Thread nD τ).loc main_arg18) := by
  unfold Pipeline.afterTail₀
  rw [StableHlo.after_of_forall_not_mem (b := Proc.devRef .tc main_arg18) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg18 (by exact (by decide : ∀ w, Pipeline.arrRef spec0 w ≠ main_arg18))]
  exact V_main_arg18 m c
theorem W_main_arg21 (dats : (p : Fin _) → (c : Dev nD) → Dat τ (Elt F) Unit ℕ (UR sig nD τ) ℕ (cfgs p) c) (c : Dev nD) :
    Pipeline.afterTail₀ cfgs dats 0 (V0 m) [hostOps1] c main_arg21 = m ((c : Thread nD τ).loc main_arg21) := by
  unfold Pipeline.afterTail₀
  rw [StableHlo.after_of_forall_not_mem (b := Proc.devRef .tc main_arg21) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg21 (by exact (by decide : ∀ w, Pipeline.arrRef spec0 w ≠ main_arg21))]
  exact V_main_arg21 m c
theorem W_main_arg23 (dats : (p : Fin _) → (c : Dev nD) → Dat τ (Elt F) Unit ℕ (UR sig nD τ) ℕ (cfgs p) c) (c : Dev nD) :
    Pipeline.afterTail₀ cfgs dats 0 (V0 m) [hostOps1] c main_arg23 = m ((c : Thread nD τ).loc main_arg23) := by
  unfold Pipeline.afterTail₀
  rw [StableHlo.after_of_forall_not_mem (b := Proc.devRef .tc main_arg23) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg23 (by exact (by decide : ∀ w, Pipeline.arrRef spec0 w ≠ main_arg23))]
  exact V_main_arg23 m c
theorem W_main_arg26 (dats : (p : Fin _) → (c : Dev nD) → Dat τ (Elt F) Unit ℕ (UR sig nD τ) ℕ (cfgs p) c) (c : Dev nD) :
    Pipeline.afterTail₀ cfgs dats 0 (V0 m) [hostOps1] c main_arg26 = m ((c : Thread nD τ).loc main_arg26) := by
  unfold Pipeline.afterTail₀
  rw [StableHlo.after_of_forall_not_mem (b := Proc.devRef .tc main_arg26) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg26 (by exact (by decide : ∀ w, Pipeline.arrRef spec0 w ≠ main_arg26))]
  exact V_main_arg26 m c
theorem W_main_arg29 (dats : (p : Fin _) → (c : Dev nD) → Dat τ (Elt F) Unit ℕ (UR sig nD τ) ℕ (cfgs p) c) (c : Dev nD) :
    Pipeline.afterTail₀ cfgs dats 0 (V0 m) [hostOps1] c main_arg29 = m ((c : Thread nD τ).loc main_arg29) := by
  unfold Pipeline.afterTail₀
  rw [StableHlo.after_of_forall_not_mem (b := Proc.devRef .tc main_arg29) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg29 (by exact (by decide : ∀ w, Pipeline.arrRef spec0 w ≠ main_arg29))]
  exact V_main_arg29 m c
theorem W_main_arg31 (dats : (p : Fin _) → (c : Dev nD) → Dat τ (Elt F) Unit ℕ (UR sig nD τ) ℕ (cfgs p) c) (c : Dev nD) :
    Pipeline.afterTail₀ cfgs dats 0 (V0 m) [hostOps1] c main_arg31 = m ((c : Thread nD τ).loc main_arg31) := by
  unfold Pipeline.afterTail₀
  rw [StableHlo.after_of_forall_not_mem (b := Proc.devRef .tc main_arg31) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg31 (by exact (by decide : ∀ w, Pipeline.arrRef spec0 w ≠ main_arg31))]
  exact V_main_arg31 m c
theorem W_main_arg34 (dats : (p : Fin _) → (c : Dev nD) → Dat τ (Elt F) Unit ℕ (UR sig nD τ) ℕ (cfgs p) c) (c : Dev nD) :
    Pipeline.afterTail₀ cfgs dats 0 (V0 m) [hostOps1] c main_arg34 = m ((c : Thread nD τ).loc main_arg34) := by
  unfold Pipeline.afterTail₀
  rw [StableHlo.after_of_forall_not_mem (b := Proc.devRef .tc main_arg34) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg34 (by exact (by decide : ∀ w, Pipeline.arrRef spec0 w ≠ main_arg34))]
  exact V_main_arg34 m c

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether that point fetches it or
    not (an unfetched window's block index has not moved), for any bookkeeping whose array is the launch's and
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether that point fetches it or
    not (an unfetched window's block index has not moved), for any bookkeeping whose array is the launch's and
    whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether that point fetches it or
    not (an unfetched window's block index has not moved), for any bookkeeping whose array is the launch's and
    whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether that point fetches it or
    not (an unfetched window's block index has not moved), for any bookkeeping whose array is the launch's and
    whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether that point fetches it or
    not (an unfetched window's block index has not moved), for any bookkeeping whose array is the launch's and
    whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether that point fetches it or
    not (an unfetched window's block index has not moved), for any bookkeeping whose array is the launch's and
    whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether that point fetches it or
    not (an unfetched window's block index has not moved), for any bookkeeping whose array is the launch's and
    whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, whether that point fetches it or
    not (an unfetched window's block index has not moved), for any bookkeeping whose array is the launch's and
    whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, whether that point fetches it or
    not (an unfetched window's block index has not moved), for any bookkeeping whose array is the launch's and
    whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, whether that point fetches it or
    not (an unfetched window's block index has not moved), for any bookkeeping whose array is the launch's and
    whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, whether that point fetches it or
    not (an unfetched window's block index has not moved), for any bookkeeping whose array is the launch's and
    whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, whether that point fetches it or
    not (an unfetched window's block index has not moved), for any bookkeeping whose array is the launch's and
    whose body leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, whether that point fetches it or
    not (an unfetched window's block index has not moved), for any bookkeeping whose array is the launch's and
    whose body leaves the block in place. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, whether that point fetches it or
    not (an unfetched window's block index has not moved), for any bookkeeping whose array is the launch's and
    whose body leaves the block in place. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, whether that point fetches it or
    not (an unfetched window's block index has not moved), for any bookkeeping whose array is the launch's and
    whose body leaves the block in place. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, whether that point fetches it or
    not (an unfetched window's block index has not moved), for any bookkeeping whose array is the launch's and
    whose body leaves the block in place. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, whether that point fetches it or
    not (an unfetched window's block index has not moved), for any bookkeeping whose array is the launch's and
    whose body leaves the block in place. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, whether that point fetches it or
    not (an unfetched window's block index has not moved), for any bookkeeping whose array is the launch's and
    whose body leaves the block in place. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, whether that point fetches it or
    not (an unfetched window's block index has not moved), for any bookkeeping whose array is the launch's and
    whose body leaves the block in place. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, whether that point fetches it or
    not (an unfetched window's block index has not moved), for any bookkeeping whose array is the launch's and
    whose body leaves the block in place. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, whether that point fetches it or
    not (an unfetched window's block index has not moved), for any bookkeeping whose array is the launch's and
    whose body leaves the block in place. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, whether that point fetches it or
    not (an unfetched window's block index has not moved), for any bookkeeping whose array is the launch's and
    whose body leaves the block in place. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's current staging buffer holds its block at every point, whether that point fetches it or
    not (an unfetched window's block index has not moved), for any bookkeeping whose array is the launch's and
    whose body leaves the block in place. -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
/-- Input window 23's current staging buffer holds its block at every point, whether that point fetches it or
    not (an unfetched window's block index has not moved), for any bookkeeping whose array is the launch's and
    whose body leaves the block in place. -/
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
/-- Input window 24's current staging buffer holds its block at every point, whether that point fetches it or
    not (an unfetched window's block index has not moved), for any bookkeeping whose array is the launch's and
    whose body leaves the block in place. -/
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
/-- Input window 25's current staging buffer holds its block at every point, whether that point fetches it or
    not (an unfetched window's block index has not moved), for any bookkeeping whose array is the launch's and
    whose body leaves the block in place. -/
theorem before0_25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)
/-- Input window 26's current staging buffer holds its block at every point, whether that point fetches it or
    not (an unfetched window's block index has not moved), for any bookkeeping whose array is the launch's and
    whose body leaves the block in place. -/
theorem before0_26_of {c : Dev nD} (dat : Dat τ (Elt F) Unit ℕ (UR sig nD τ) ℕ cfg0 c) (hA : dat.A 26 = V m c (Pipeline.arrRef spec0 26))
    (hafter : ∀ t, dat.after 26 t = iblk m c 26 t) (t : Fin cfg0.N) (d) : dat.before 26 t d = iblk m c 26 t :=
  (dat.before_in_eq_fetched 26 rfl (fun _ => rfl) (fun _ _ _ => rfl) (fun t => by rw [hafter]; unfold Dat.blockOf iblk; rw [hA]; try rfl) t d).trans
    (by unfold Dat.fetched Dat.blockOf iblk; rw [hA]; try rfl)
/-- Input window 27's current staging buffer holds its block at every point, whether that point fetches it or
    not (an unfetched window's block index has not moved), for any bookkeeping whose array is the launch's and
    whose body leaves the block in place. -/
theorem before0_27_of {c : Dev nD} (dat : Dat τ (Elt F) Unit ℕ (UR sig nD τ) ℕ cfg0 c) (hA : dat.A 27 = V m c (Pipeline.arrRef spec0 27))
    (hafter : ∀ t, dat.after 27 t = iblk m c 27 t) (t : Fin cfg0.N) (d) : dat.before 27 t d = iblk m c 27 t :=
  (dat.before_in_eq_fetched 27 rfl (fun _ => rfl) (fun _ _ _ => rfl) (fun t => by rw [hafter]; unfold Dat.blockOf iblk; rw [hA]; try rfl) t d).trans
    (by unfold Dat.fetched Dat.blockOf iblk; rw [hA]; try rfl)
/-- Input window 28's current staging buffer holds its block at every point, whether that point fetches it or
    not (an unfetched window's block index has not moved), for any bookkeeping whose array is the launch's and
    whose body leaves the block in place. -/
theorem before0_28_of {c : Dev nD} (dat : Dat τ (Elt F) Unit ℕ (UR sig nD τ) ℕ cfg0 c) (hA : dat.A 28 = V m c (Pipeline.arrRef spec0 28))
    (hafter : ∀ t, dat.after 28 t = iblk m c 28 t) (t : Fin cfg0.N) (d) : dat.before 28 t d = iblk m c 28 t :=
  (dat.before_in_eq_fetched 28 rfl (fun _ => rfl) (fun _ _ _ => rfl) (fun t => by rw [hafter]; unfold Dat.blockOf iblk; rw [hA]; try rfl) t d).trans
    (by unfold Dat.fetched Dat.blockOf iblk; rw [hA]; try rfl)
/-- Input window 29's current staging buffer holds its block at every point, whether that point fetches it or
    not (an unfetched window's block index has not moved), for any bookkeeping whose array is the launch's and
    whose body leaves the block in place. -/
theorem before0_29_of {c : Dev nD} (dat : Dat τ (Elt F) Unit ℕ (UR sig nD τ) ℕ cfg0 c) (hA : dat.A 29 = V m c (Pipeline.arrRef spec0 29))
    (hafter : ∀ t, dat.after 29 t = iblk m c 29 t) (t : Fin cfg0.N) (d) : dat.before 29 t d = iblk m c 29 t :=
  (dat.before_in_eq_fetched 29 rfl (fun _ => rfl) (fun _ _ _ => rfl) (fun t => by rw [hafter]; unfold Dat.blockOf iblk; rw [hA]; try rfl) t d).trans
    (by unfold Dat.fetched Dat.blockOf iblk; rw [hA]; try rfl)
/-- Input window 30's current staging buffer holds its block at every point, whether that point fetches it or
    not (an unfetched window's block index has not moved), for any bookkeeping whose array is the launch's and
    whose body leaves the block in place. -/
theorem before0_30_of {c : Dev nD} (dat : Dat τ (Elt F) Unit ℕ (UR sig nD τ) ℕ cfg0 c) (hA : dat.A 30 = V m c (Pipeline.arrRef spec0 30))
    (hafter : ∀ t, dat.after 30 t = iblk m c 30 t) (t : Fin cfg0.N) (d) : dat.before 30 t d = iblk m c 30 t :=
  (dat.before_in_eq_fetched 30 rfl (fun _ => rfl) (fun _ _ _ => rfl) (fun t => by rw [hafter]; unfold Dat.blockOf iblk; rw [hA]; try rfl) t d).trans
    (by unfold Dat.fetched Dat.blockOf iblk; rw [hA]; try rfl)
/-- Input window 31's current staging buffer holds its block at every point, whether that point fetches it or
    not (an unfetched window's block index has not moved), for any bookkeeping whose array is the launch's and
    whose body leaves the block in place. -/
theorem before0_31_of {c : Dev nD} (dat : Dat τ (Elt F) Unit ℕ (UR sig nD τ) ℕ cfg0 c) (hA : dat.A 31 = V m c (Pipeline.arrRef spec0 31))
    (hafter : ∀ t, dat.after 31 t = iblk m c 31 t) (t : Fin cfg0.N) (d) : dat.before 31 t d = iblk m c 31 t :=
  (dat.before_in_eq_fetched 31 rfl (fun _ => rfl) (fun _ _ _ => rfl) (fun t => by rw [hafter]; unfold Dat.blockOf iblk; rw [hA]; try rfl) t d).trans
    (by unfold Dat.fetched Dat.blockOf iblk; rw [hA]; try rfl)

/-! ## The frame from a run of the whole program -/

section Kept

variable (dats : (p : Fin 1) → (c : Dev nD) → Dat τ (Elt F) Unit ℕ (UR sig nD τ) ℕ (cfgs p) c)
  (hA : ∀ c w, (dats 0 c).A w = V m c (Pipeline.arrRef spec0 w))
  {r : PUnit × MemSt nD τ sig (Elt F)}
  (h : Pipeline.FramePost cfgs dats 0 (Pipeline.afterTail₀ cfgs dats 0 (V0 m) [hostOps1]) r) (c : Dev nD)

/-! One argument at a time: an argument some window stages ends at what the bookkeeping computes for an input
    window's array, which is its contents at the launch; any other is left alone by the launch and the reshape. -/

include hA h in
theorem kept_arg0 : r.2.mem ((c.tc : Thread nD τ).loc main_arg0) = m ((c.tc : Thread nD τ).loc main_arg0) :=
  ((h c).1 0).trans (((dats 0 c).arrAt_in 0 rfl _).trans ((hA c 0).trans (V_main_arg0 m c)))
include h in
theorem kept_arg1 : r.2.mem ((c.tc : Thread nD τ).loc main_arg1) = m ((c.tc : Thread nD τ).loc main_arg1) :=
  ((h c).2 main_arg1 (Pipeline.mem_restRefs_of main_arg1 (by decide) (by decide))).trans (W_main_arg1 m dats c)
include h in
theorem kept_arg2 : r.2.mem ((c.tc : Thread nD τ).loc main_arg2) = m ((c.tc : Thread nD τ).loc main_arg2) :=
  ((h c).2 main_arg2 (Pipeline.mem_restRefs_of main_arg2 (by decide) (by decide))).trans (W_main_arg2 m dats c)
include h in
theorem kept_arg3 : r.2.mem ((c.tc : Thread nD τ).loc main_arg3) = m ((c.tc : Thread nD τ).loc main_arg3) :=
  ((h c).2 main_arg3 (Pipeline.mem_restRefs_of main_arg3 (by decide) (by decide))).trans (W_main_arg3 m dats c)
include hA h in
theorem kept_arg4 : r.2.mem ((c.tc : Thread nD τ).loc main_arg4) = m ((c.tc : Thread nD τ).loc main_arg4) :=
  ((h c).1 8).trans (((dats 0 c).arrAt_in 8 rfl _).trans ((hA c 8).trans (V_main_arg4 m c)))
include hA h in
theorem kept_arg5 : r.2.mem ((c.tc : Thread nD τ).loc main_arg5) = m ((c.tc : Thread nD τ).loc main_arg5) :=
  ((h c).1 9).trans (((dats 0 c).arrAt_in 9 rfl _).trans ((hA c 9).trans (V_main_arg5 m c)))
include h in
theorem kept_arg6 : r.2.mem ((c.tc : Thread nD τ).loc main_arg6) = m ((c.tc : Thread nD τ).loc main_arg6) :=
  ((h c).2 main_arg6 (Pipeline.mem_restRefs_of main_arg6 (by decide) (by decide))).trans (W_main_arg6 m dats c)
include hA h in
theorem kept_arg7 : r.2.mem ((c.tc : Thread nD τ).loc main_arg7) = m ((c.tc : Thread nD τ).loc main_arg7) :=
  ((h c).1 22).trans (((dats 0 c).arrAt_in 22 rfl _).trans ((hA c 22).trans (V_main_arg7 m c)))
include h in
theorem kept_arg8 : r.2.mem ((c.tc : Thread nD τ).loc main_arg8) = m ((c.tc : Thread nD τ).loc main_arg8) :=
  ((h c).2 main_arg8 (Pipeline.mem_restRefs_of main_arg8 (by decide) (by decide))).trans (W_main_arg8 m dats c)
include hA h in
theorem kept_arg9 : r.2.mem ((c.tc : Thread nD τ).loc main_arg9) = m ((c.tc : Thread nD τ).loc main_arg9) :=
  ((h c).1 10).trans (((dats 0 c).arrAt_in 10 rfl _).trans ((hA c 10).trans (V_main_arg9 m c)))
include hA h in
theorem kept_arg10 : r.2.mem ((c.tc : Thread nD τ).loc main_arg10) = m ((c.tc : Thread nD τ).loc main_arg10) :=
  ((h c).1 11).trans (((dats 0 c).arrAt_in 11 rfl _).trans ((hA c 11).trans (V_main_arg10 m c)))
include h in
theorem kept_arg11 : r.2.mem ((c.tc : Thread nD τ).loc main_arg11) = m ((c.tc : Thread nD τ).loc main_arg11) :=
  ((h c).2 main_arg11 (Pipeline.mem_restRefs_of main_arg11 (by decide) (by decide))).trans (W_main_arg11 m dats c)
include hA h in
theorem kept_arg12 : r.2.mem ((c.tc : Thread nD τ).loc main_arg12) = m ((c.tc : Thread nD τ).loc main_arg12) :=
  ((h c).1 23).trans (((dats 0 c).arrAt_in 23 rfl _).trans ((hA c 23).trans (V_main_arg12 m c)))
include h in
theorem kept_arg13 : r.2.mem ((c.tc : Thread nD τ).loc main_arg13) = m ((c.tc : Thread nD τ).loc main_arg13) :=
  ((h c).2 main_arg13 (Pipeline.mem_restRefs_of main_arg13 (by decide) (by decide))).trans (W_main_arg13 m dats c)
include hA h in
theorem kept_arg14 : r.2.mem ((c.tc : Thread nD τ).loc main_arg14) = m ((c.tc : Thread nD τ).loc main_arg14) :=
  ((h c).1 12).trans (((dats 0 c).arrAt_in 12 rfl _).trans ((hA c 12).trans (V_main_arg14 m c)))
include hA h in
theorem kept_arg15 : r.2.mem ((c.tc : Thread nD τ).loc main_arg15) = m ((c.tc : Thread nD τ).loc main_arg15) :=
  ((h c).1 13).trans (((dats 0 c).arrAt_in 13 rfl _).trans ((hA c 13).trans (V_main_arg15 m c)))
include h in
theorem kept_arg16 : r.2.mem ((c.tc : Thread nD τ).loc main_arg16) = m ((c.tc : Thread nD τ).loc main_arg16) :=
  ((h c).2 main_arg16 (Pipeline.mem_restRefs_of main_arg16 (by decide) (by decide))).trans (W_main_arg16 m dats c)
include hA h in
theorem kept_arg17 : r.2.mem ((c.tc : Thread nD τ).loc main_arg17) = m ((c.tc : Thread nD τ).loc main_arg17) :=
  ((h c).1 24).trans (((dats 0 c).arrAt_in 24 rfl _).trans ((hA c 24).trans (V_main_arg17 m c)))
include h in
theorem kept_arg18 : r.2.mem ((c.tc : Thread nD τ).loc main_arg18) = m ((c.tc : Thread nD τ).loc main_arg18) :=
  ((h c).2 main_arg18 (Pipeline.mem_restRefs_of main_arg18 (by decide) (by decide))).trans (W_main_arg18 m dats c)
include hA h in
theorem kept_arg19 : r.2.mem ((c.tc : Thread nD τ).loc main_arg19) = m ((c.tc : Thread nD τ).loc main_arg19) :=
  ((h c).1 14).trans (((dats 0 c).arrAt_in 14 rfl _).trans ((hA c 14).trans (V_main_arg19 m c)))
include hA h in
theorem kept_arg20 : r.2.mem ((c.tc : Thread nD τ).loc main_arg20) = m ((c.tc : Thread nD τ).loc main_arg20) :=
  ((h c).1 15).trans (((dats 0 c).arrAt_in 15 rfl _).trans ((hA c 15).trans (V_main_arg20 m c)))
include h in
theorem kept_arg21 : r.2.mem ((c.tc : Thread nD τ).loc main_arg21) = m ((c.tc : Thread nD τ).loc main_arg21) :=
  ((h c).2 main_arg21 (Pipeline.mem_restRefs_of main_arg21 (by decide) (by decide))).trans (W_main_arg21 m dats c)
include hA h in
theorem kept_arg22 : r.2.mem ((c.tc : Thread nD τ).loc main_arg22) = m ((c.tc : Thread nD τ).loc main_arg22) :=
  ((h c).1 27).trans (((dats 0 c).arrAt_in 27 rfl _).trans ((hA c 27).trans (V_main_arg22 m c)))
include h in
theorem kept_arg23 : r.2.mem ((c.tc : Thread nD τ).loc main_arg23) = m ((c.tc : Thread nD τ).loc main_arg23) :=
  ((h c).2 main_arg23 (Pipeline.mem_restRefs_of main_arg23 (by decide) (by decide))).trans (W_main_arg23 m dats c)
include hA h in
theorem kept_arg24 : r.2.mem ((c.tc : Thread nD τ).loc main_arg24) = m ((c.tc : Thread nD τ).loc main_arg24) :=
  ((h c).1 4).trans (((dats 0 c).arrAt_in 4 rfl _).trans ((hA c 4).trans (V_main_arg24 m c)))
include hA h in
theorem kept_arg25 : r.2.mem ((c.tc : Thread nD τ).loc main_arg25) = m ((c.tc : Thread nD τ).loc main_arg25) :=
  ((h c).1 5).trans (((dats 0 c).arrAt_in 5 rfl _).trans ((hA c 5).trans (V_main_arg25 m c)))
include h in
theorem kept_arg26 : r.2.mem ((c.tc : Thread nD τ).loc main_arg26) = m ((c.tc : Thread nD τ).loc main_arg26) :=
  ((h c).2 main_arg26 (Pipeline.mem_restRefs_of main_arg26 (by decide) (by decide))).trans (W_main_arg26 m dats c)
include hA h in
theorem kept_arg27 : r.2.mem ((c.tc : Thread nD τ).loc main_arg27) = m ((c.tc : Thread nD τ).loc main_arg27) :=
  ((h c).1 6).trans (((dats 0 c).arrAt_in 6 rfl _).trans ((hA c 6).trans (V_main_arg27 m c)))
include hA h in
theorem kept_arg28 : r.2.mem ((c.tc : Thread nD τ).loc main_arg28) = m ((c.tc : Thread nD τ).loc main_arg28) :=
  ((h c).1 7).trans (((dats 0 c).arrAt_in 7 rfl _).trans ((hA c 7).trans (V_main_arg28 m c)))
include h in
theorem kept_arg29 : r.2.mem ((c.tc : Thread nD τ).loc main_arg29) = m ((c.tc : Thread nD τ).loc main_arg29) :=
  ((h c).2 main_arg29 (Pipeline.mem_restRefs_of main_arg29 (by decide) (by decide))).trans (W_main_arg29 m dats c)
include hA h in
theorem kept_arg30 : r.2.mem ((c.tc : Thread nD τ).loc main_arg30) = m ((c.tc : Thread nD τ).loc main_arg30) :=
  ((h c).1 21).trans (((dats 0 c).arrAt_in 21 rfl _).trans ((hA c 21).trans (V_main_arg30 m c)))
include h in
theorem kept_arg31 : r.2.mem ((c.tc : Thread nD τ).loc main_arg31) = m ((c.tc : Thread nD τ).loc main_arg31) :=
  ((h c).2 main_arg31 (Pipeline.mem_restRefs_of main_arg31 (by decide) (by decide))).trans (W_main_arg31 m dats c)
include hA h in
theorem kept_arg32 : r.2.mem ((c.tc : Thread nD τ).loc main_arg32) = m ((c.tc : Thread nD τ).loc main_arg32) :=
  ((h c).1 16).trans (((dats 0 c).arrAt_in 16 rfl _).trans ((hA c 16).trans (V_main_arg32 m c)))
include hA h in
theorem kept_arg33 : r.2.mem ((c.tc : Thread nD τ).loc main_arg33) = m ((c.tc : Thread nD τ).loc main_arg33) :=
  ((h c).1 17).trans (((dats 0 c).arrAt_in 17 rfl _).trans ((hA c 17).trans (V_main_arg33 m c)))
include h in
theorem kept_arg34 : r.2.mem ((c.tc : Thread nD τ).loc main_arg34) = m ((c.tc : Thread nD τ).loc main_arg34) :=
  ((h c).2 main_arg34 (Pipeline.mem_restRefs_of main_arg34 (by decide) (by decide))).trans (W_main_arg34 m dats c)
include hA h in
theorem kept_arg35 : r.2.mem ((c.tc : Thread nD τ).loc main_arg35) = m ((c.tc : Thread nD τ).loc main_arg35) :=
  ((h c).1 31).trans (((dats 0 c).arrAt_in 31 rfl _).trans ((hA c 31).trans (V_main_arg35 m c)))

end Kept

/-- For any bookkeeping whose arrays are the launch's, a run of the whole program that ends with every staged
    array at what the bookkeeping computes and every other buffer as the reshape leaves it ends with all
    thirty-six arguments unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)) :=
  (θ_run defs _ _).mono (fun _ h c => ⟨kept_arg0 m dats hA h c,
      kept_arg1 m dats h c,
      kept_arg2 m dats h c,
      kept_arg3 m dats h c,
      kept_arg4 m dats hA h c,
      kept_arg5 m dats hA h c,
      kept_arg6 m dats h c,
      kept_arg7 m dats hA h c,
      kept_arg8 m dats h c,
      kept_arg9 m dats hA h c,
      kept_arg10 m dats hA h c,
      kept_arg11 m dats h c,
      kept_arg12 m dats hA h c,
      kept_arg13 m dats h c,
      kept_arg14 m dats hA h c,
      kept_arg15 m dats hA h c,
      kept_arg16 m dats h c,
      kept_arg17 m dats hA h c,
      kept_arg18 m dats h c,
      kept_arg19 m dats hA h c,
      kept_arg20 m dats hA h c,
      kept_arg21 m dats h c,
      kept_arg22 m dats hA h c,
      kept_arg23 m dats h c,
      kept_arg24 m dats hA h c,
      kept_arg25 m dats hA h c,
      kept_arg26 m dats h c,
      kept_arg27 m dats hA h c,
      kept_arg28 m dats hA h c,
      kept_arg29 m dats h c,
      kept_arg30 m dats hA h c,
      kept_arg31 m dats h c,
      kept_arg32 m dats hA h c,
      kept_arg33 m dats hA h c,
      kept_arg34 m dats h c,
      kept_arg35 m dats hA h c⟩) h

end Cert.KernelIdeal.Frame

end
-- ==== Proof.KiBody.lean ====
/-
  One grid point of the kernel: 4096 rows of the network at once.

  The body loads each of its thirty-two input buffers whole, computes, and stores one 32 x 128 block (the 4096
  scores of the point's rows, laid out lane-dense). What that block holds is a pure function of the loaded
  buffers: the body's arithmetic is cut into six stretches, each handing a few intermediate arrays to the
  next (the first-layer products and the normalised residual branch; the second residual layer and the key;
  the normalised query and value hidden layers; query, value and the normalised second residual layer; the
  residual output, the attention head's first layer and its statistics; the score's first layer and its
  statistics), and the stored block is the last stretch's result. `out` below composes the six stretches in that
  order. The triple says: run on buffers holding anything in the output and `x0 … x31` in the inputs, the body
  ends with the inputs as they were and the output at `out x0 … x31`.
-/
import proofs.«104010_j23570780520494_2_alg».proof.Proof.Gen.KernelIdeal.Launch
import proofs.«104010_j23570780520494_2_alg».proof.Proof.Gen.KernelIdeal.Skeleton
import proofs.«104010_j23570780520494_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole -/

abbrev rS4096x128 : Rect S4096x128 := Rect.unit (s := S4096x128) ![0, 0] S4096x128.size inb_S4096x128_S4096x128_0_0
abbrev rS4096x8 : Rect S4096x8 := Rect.unit (s := S4096x8) ![0, 0] S4096x8.size inb_S4096x8_S4096x8_0_0
abbrev rS128x128 : Rect S128x128 := Rect.unit (s := S128x128) ![0, 0] S128x128.size inb_S128x128_S128x128_0_0
abbrev rS8x160 : Rect S8x160 := Rect.unit (s := S8x160) ![0, 0] S8x160.size inb_S8x160_S8x160_0_0
abbrev rS64 : Rect S64 := Rect.unit (s := S64) ![0] S64.size inb_S64_S64_0
abbrev rS32 : Rect S32 := Rect.unit (s := S32) ![0] S32.size inb_S32_S32_0
abbrev rS16 : Rect S16 := Rect.unit (s := S16) ![0] S16.size inb_S16_S16_0
abbrev rS128x64 : Rect S128x64 := Rect.unit (s := S128x64) ![0, 0] S128x64.size inb_S128x64_S128x64_0_0
abbrev rS32x64 : Rect S32x64 := Rect.unit (s := S32x64) ![0, 0] S32x64.size inb_S32x64_S32x64_0_0
abbrev rS32x16 : Rect S32x16 := Rect.unit (s := S32x16) ![0, 0] S32x16.size inb_S32x16_S32x16_0_0
abbrev rS32x32 : Rect S32x32 := Rect.unit (s := S32x32) ![0, 0] S32x32.size inb_S32x32_S32x32_0_0
abbrev rS16x16 : Rect S16x16 := Rect.unit (s := S16x16) ![0, 0] S16x16.size inb_S16x16_S16x16_0_0
abbrev rS16x1 : Rect S16x1 := Rect.unit (s := S16x1) ![0, 0] S16x1.size inb_S16x1_S16x1_0_0
abbrev rS1 : Rect S1 := Rect.unit (s := S1) ![0] S1.size inb_S1_S1_0
abbrev rS32x128 : Rect S32x128 := Rect.unit (s := S32x128) ![0, 0] S32x128.size inb_S32x128_S32x128_0_0

/-! ## What the six stretches hand on, as functions of the loaded buffers -/

section Stages
variable (x0 : Vec F S4096x128 .f32) (x1 : Vec F S4096x8 .f32) (x2 : Vec F S128x128 .bf16) (x3 : Vec F S8x160 .bf16) (x4 : Vec F S64 .f32) (x5 : Vec F S64 .f32) (x6 : Vec F S32 .f32) (x7 : Vec F S32 .f32) (x8 : Vec F S64 .f32) (x9 : Vec F S64 .f32) (x10 : Vec F S16 .f32) (x11 : Vec F S16 .f32) (x12 : Vec F S16 .f32) (x13 : Vec F S16 .f32) (x14 : Vec F S32 .f32) (x15 : Vec F S32 .f32) (x16 : Vec F S16 .f32) (x17 : Vec F S16 .f32) (x18 : Vec F S128x64 .bf16) (x19 : Vec F S32x64 .bf16) (x20 : Vec F S32x16 .bf16) (x21 : Vec F S16 .f32) (x22 : Vec F S32 .f32) (x23 : Vec F S32 .f32) (x24 : Vec F S32 .f32) (x25 : Vec F S32x32 .bf16) (x26 : Vec F S32x16 .bf16) (x27 : Vec F S16 .f32) (x28 : Vec F S16x16 .bf16) (x29 : Vec F S16x16 .bf16) (x30 : Vec F S16x1 .bf16) (x31 : Vec F S1 .f32)

/-- The key branch's first-layer product: the right half of the representation's product with the fused weights. -/
def s_v9 : FVec F S4096x64 .f32 := k0_pay3 (View.ld x0 rS4096x128) (View.ld x2 rS128x128)
/-- The query branch's first-layer product: columns 64..79 of the pose-and-opening product. -/
def s_v14 : FVec F S4096x16 .f32 := k0_pay5 (View.ld x1 rS4096x8) (View.ld x3 rS8x160)
/-- The value branch's first-layer product: columns 144..159 of the same product. -/
def s_v16 : FVec F S4096x16 .f32 := k0_pay6 (View.ld x1 rS4096x8) (View.ld x3 rS8x160)
/-- The residual branch's first layer, normalised and scaled by its gain. -/
def s_v41 : FVec F S4096x64 .f32 := k0_pay7 (View.ld x0 rS4096x128) (View.ld x1 rS4096x8) (View.ld x2 rS128x128) (View.ld x3 rS8x160) (View.ld x4 rS64)
/-- The residual branch's second-layer product. -/
def s_v80 : FVec F S4096x32 .f32 := k0_pay9 (s_v9 x0 x2) (View.ld x5 rS64) (s_v41 x0 x1 x2 x3 x4) (View.ld x8 rS64) (View.ld x9 rS64) (View.ld x18 rS128x64)
/-- The key. -/
def s_v85 : FVec F S4096x32 .f32 := k0_pay10 (s_v9 x0 x2) (View.ld x5 rS64) (s_v41 x0 x1 x2 x3 x4) (View.ld x8 rS64) (View.ld x9 rS64) (View.ld x18 rS128x64) (View.ld x22 rS32)
/-- The query's hidden layer. -/
def s_v113 : FVec F S4096x16 .f32 := k0_pay11 (s_v14 x1 x3) (View.ld x10 rS16) (View.ld x11 rS16)
/-- The value's hidden layer before its gain and bias. -/
def s_v133 : FVec F S4096x16 .f32 := k0_pay12 (s_v16 x1 x3)
/-- The query. -/
def s_v151 : FVec F S4096x32 .f32 := k0_pay14 (s_v113 x1 x3 x10 x11) (View.ld x12 rS16) (View.ld x13 rS16) (s_v133 x1 x3) (View.ld x19 rS32x64) (View.ld x23 rS32)
/-- The value. -/
def s_v156 : FVec F S4096x32 .f32 := k0_pay15 (s_v113 x1 x3 x10 x11) (View.ld x12 rS16) (View.ld x13 rS16) (s_v133 x1 x3) (View.ld x19 rS32x64) (View.ld x24 rS32)
/-- The residual branch's second layer, normalised and scaled by its gain. -/
def s_v179 : FVec F S4096x32 .f32 := k0_pay16 (s_v80 x0 x1 x2 x3 x4 x5 x8 x9 x18) (View.ld x6 rS32)
/-- Its bias as a row. -/
def s_v180 : FVec F S1x32 .f32 := k0_pay17 (View.ld x7 rS32)
/-- The residual branch's output. -/
def s_v192 : FVec F S4096x16 .f32 := k0_pay18 (s_v179 x0 x1 x2 x3 x4 x5 x6 x8 x9 x18) (s_v180 x7) (View.ld x20 rS32x16) (View.ld x21 rS16)
/-- The attention head's first-layer product, and the two statistics of its normalisation. -/
def s_v209 : FVec F S4096x32 .f32 := k0_pay19 (s_v85 x0 x1 x2 x3 x4 x5 x8 x9 x18 x22) (s_v151 x1 x3 x10 x11 x12 x13 x19 x23) (s_v156 x1 x3 x10 x11 x12 x13 x19 x24) (View.ld x25 rS32x32)
def s_v222 : FVec F S4096x1 .f32 := k0_pay21 (s_v85 x0 x1 x2 x3 x4 x5 x8 x9 x18 x22) (s_v151 x1 x3 x10 x11 x12 x13 x19 x23) (s_v156 x1 x3 x10 x11 x12 x13 x19 x24) (View.ld x25 rS32x32)
def s_v223 : FVec F S4096x32 .f32 := k0_pay22 (s_v85 x0 x1 x2 x3 x4 x5 x8 x9 x18 x22) (s_v151 x1 x3 x10 x11 x12 x13 x19 x23) (s_v156 x1 x3 x10 x11 x12 x13 x19 x24) (View.ld x25 rS32x32)
end Stages

/-- The score's first-layer product and the two statistics of its normalisation, from what the fifth stretch
    handed on. -/
def s_v254 (v192 : FVec F S4096x16 .f32) (v209 : FVec F S4096x32 .f32) (v222 : FVec F S4096x1 .f32) (v223 : FVec F S4096x32 .f32)
    (x14 x15 : Vec F S32 .f32) (x26 : Vec F S32x16 .bf16) (x27 : Vec F S16 .f32) (x28 x29 : Vec F S16x16 .bf16) : FVec F S4096x16 .f32 :=
  k0_pay23 v192 v209 (View.ld x14 rS32) (View.ld x15 rS32) v222 v223 (View.ld x26 rS32x16) (View.ld x27 rS16) (View.ld x28 rS16x16) (View.ld x29 rS16x16)
def s_v260 (v192 : FVec F S4096x16 .f32) (v209 : FVec F S4096x32 .f32) (v222 : FVec F S4096x1 .f32) (v223 : FVec F S4096x32 .f32)
    (x14 x15 : Vec F S32 .f32) (x26 : Vec F S32x16 .bf16) (x27 : Vec F S16 .f32) (x28 x29 : Vec F S16x16 .bf16) : FVec F S4096x1 .f32 :=
  k0_pay24 v192 v209 (View.ld x14 rS32) (View.ld x15 rS32) v222 v223 (View.ld x26 rS32x16) (View.ld x27 rS16) (View.ld x28 rS16x16) (View.ld x29 rS16x16)
def s_v265 (v192 : FVec F S4096x16 .f32) (v209 : FVec F S4096x32 .f32) (v222 : FVec F S4096x1 .f32) (v223 : FVec F S4096x32 .f32)
    (x14 x15 : Vec F S32 .f32) (x26 : Vec F S32x16 .bf16) (x27 : Vec F S16 .f32) (x28 x29 : Vec F S16x16 .bf16) : FVec F S4096x1 .f32 :=
  k0_pay25 v192 v209 (View.ld x14 rS32) (View.ld x15 rS32) v222 v223 (View.ld x26 rS32x16) (View.ld x27 rS16) (View.ld x28 rS16x16) (View.ld x29 rS16x16)

/-- The 4096 scores of the point as a 32 x 128 block: the stored value. -/
def payload (x0 : Vec F S4096x128 .f32) (x1 : Vec F S4096x8 .f32) (x2 : Vec F S128x128 .bf16) (x3 : Vec F S8x160 .bf16) (x4 : Vec F S64 .f32) (x5 : Vec F S64 .f32) (x6 : Vec F S32 .f32) (x7 : Vec F S32 .f32) (x8 : Vec F S64 .f32) (x9 : Vec F S64 .f32) (x10 : Vec F S16 .f32) (x11 : Vec F S16 .f32) (x12 : Vec F S16 .f32) (x13 : Vec F S16 .f32) (x14 : Vec F S32 .f32) (x15 : Vec F S32 .f32) (x16 : Vec F S16 .f32) (x17 : Vec F S16 .f32) (x18 : Vec F S128x64 .bf16) (x19 : Vec F S32x64 .bf16) (x20 : Vec F S32x16 .bf16) (x21 : Vec F S16 .f32) (x22 : Vec F S32 .f32) (x23 : Vec F S32 .f32) (x24 : Vec F S32 .f32) (x25 : Vec F S32x32 .bf16) (x26 : Vec F S32x16 .bf16) (x27 : Vec F S16 .f32) (x28 : Vec F S16x16 .bf16) (x29 : Vec F S16x16 .bf16) (x30 : Vec F S16x1 .bf16) (x31 : Vec F S1 .f32) : FVec F S32x128 .f32 :=
  let v192 := s_v192 x0 x1 x2 x3 x4 x5 x6 x7 x8 x9 x18 x20 x21
  let v209 := s_v209 x0 x1 x2 x3 x4 x5 x8 x9 x10 x11 x12 x13 x18 x19 x22 x23 x24 x25
  let v222 := s_v222 x0 x1 x2 x3 x4 x5 x8 x9 x10 x11 x12 x13 x18 x19 x22 x23 x24 x25
  let v223 := s_v223 x0 x1 x2 x3 x4 x5 x8 x9 x10 x11 x12 x13 x18 x19 x22 x23 x24 x25
  k0_pay1 (s_v254 v192 v209 v222 v223 x14 x15 x26 x27 x28 x29) (View.ld x16 rS16) (View.ld x17 rS16)
    (s_v260 v192 v209 v222 v223 x14 x15 x26 x27 x28 x29) (s_v265 v192 v209 v222 v223 x14 x15 x26 x27 x28 x29)
    (Scalar.ofBits .f32 0x41800000#32) (View.ld x30 rS16x1) (View.ld x31 rS1)

/-- The output buffer after the body: its one store, of the whole block. -/
def out (x0 : Vec F S4096x128 .f32) (x1 : Vec F S4096x8 .f32) (x2 : Vec F S128x128 .bf16) (x3 : Vec F S8x160 .bf16) (x4 : Vec F S64 .f32) (x5 : Vec F S64 .f32) (x6 : Vec F S32 .f32) (x7 : Vec F S32 .f32) (x8 : Vec F S64 .f32) (x9 : Vec F S64 .f32) (x10 : Vec F S16 .f32) (x11 : Vec F S16 .f32) (x12 : Vec F S16 .f32) (x13 : Vec F S16 .f32) (x14 : Vec F S32 .f32) (x15 : Vec F S32 .f32) (x16 : Vec F S16 .f32) (x17 : Vec F S16 .f32) (x18 : Vec F S128x64 .bf16) (x19 : Vec F S32x64 .bf16) (x20 : Vec F S32x16 .bf16) (x21 : Vec F S16 .f32) (x22 : Vec F S32 .f32) (x23 : Vec F S32 .f32) (x24 : Vec F S32 .f32) (x25 : Vec F S32x32 .bf16) (x26 : Vec F S32x16 .bf16) (x27 : Vec F S16 .f32) (x28 : Vec F S16x16 .bf16) (x29 : Vec F S16x16 .bf16) (x30 : Vec F S16x1 .bf16) (x31 : Vec F S1 .f32) : Vec F S32x128 .f32 :=
  View.canon [⟨rS32x128, payload x0 x1 x2 x3 x4 x5 x6 x7 x8 x9 x10 x11 x12 x13 x14 x15 x16 x17 x18 x19 x20 x21 x22 x23 x24 x25 x26 x27 x28 x29 x30 x31⟩]

/-- The one store covers the buffer. -/
theorem cover (p0 : Vec F S32x128 .f32) (y : S32x128.Idx) :
    ∃ pc ∈ ([⟨rS32x128, p0⟩] : List (View.Piece (Elt F) S32x128 .f32)), y ∈ pc.1.set :=
  View.cover_of_tiled [⟨rS32x128, p0⟩] S32x128.size (by rfl) y

/-! ## The body's triple -/

set_option maxHeartbeats 4000000 in
/-- The body on whole buffers, the inputs' at contents `x0 … x31` and the output's at anything, runs to the
    continuation holding the inputs' as they were and the output's at `out x0 … x31`. -/
theorem sound_kernel (c : Dev nD) (E : Set ℕ) (i : grid0.Coords) (arg1 : Memref sig .tc .vmem S4096x128 .f32) (harg1 : arg1.IsWhole) (arg2 : Memref sig .tc .vmem S4096x8 .f32) (harg2 : arg2.IsWhole) (arg3 : Memref sig .tc .vmem S128x128 .bf16) (harg3 : arg3.IsWhole) (arg4 : Memref sig .tc .vmem S8x160 .bf16) (harg4 : arg4.IsWhole) (arg5 : Memref sig .tc .vmem S64 .f32) (harg5 : arg5.IsWhole) (arg6 : Memref sig .tc .vmem S64 .f32) (harg6 : arg6.IsWhole) (arg7 : Memref sig .tc .vmem S32 .f32) (harg7 : arg7.IsWhole) (arg8 : Memref sig .tc .vmem S32 .f32) (harg8 : arg8.IsWhole) (arg9 : Memref sig .tc .vmem S64 .f32) (harg9 : arg9.IsWhole) (arg10 : Memref sig .tc .vmem S64 .f32) (harg10 : arg10.IsWhole) (arg11 : Memref sig .tc .vmem S16 .f32) (harg11 : arg11.IsWhole) (arg12 : Memref sig .tc .vmem S16 .f32) (harg12 : arg12.IsWhole) (arg13 : Memref sig .tc .vmem S16 .f32) (harg13 : arg13.IsWhole) (arg14 : Memref sig .tc .vmem S16 .f32) (harg14 : arg14.IsWhole) (arg15 : Memref sig .tc .vmem S32 .f32) (harg15 : arg15.IsWhole) (arg16 : Memref sig .tc .vmem S32 .f32) (harg16 : arg16.IsWhole) (arg17 : Memref sig .tc .vmem S16 .f32) (harg17 : arg17.IsWhole) (arg18 : Memref sig .tc .vmem S16 .f32) (harg18 : arg18.IsWhole) (arg19 : Memref sig .tc .vmem S128x64 .bf16) (harg19 : arg19.IsWhole) (arg20 : Memref sig .tc .vmem S32x64 .bf16) (harg20 : arg20.IsWhole) (arg21 : Memref sig .tc .vmem S32x16 .bf16) (harg21 : arg21.IsWhole) (arg22 : Memref sig .tc .vmem S16 .f32) (harg22 : arg22.IsWhole) (arg23 : Memref sig .tc .vmem S32 .f32) (harg23 : arg23.IsWhole) (arg24 : Memref sig .tc .vmem S32 .f32) (harg24 : arg24.IsWhole) (arg25 : Memref sig .tc .vmem S32 .f32) (harg25 : arg25.IsWhole) (arg26 : Memref sig .tc .vmem S32x32 .bf16) (harg26 : arg26.IsWhole) (arg27 : Memref sig .tc .vmem S32x16 .bf16) (harg27 : arg27.IsWhole) (arg28 : Memref sig .tc .vmem S16 .f32) (harg28 : arg28.IsWhole) (arg29 : Memref sig .tc .vmem S16x16 .bf16) (harg29 : arg29.IsWhole) (arg30 : Memref sig .tc .vmem S16x16 .bf16) (harg30 : arg30.IsWhole) (arg31 : Memref sig .tc .vmem S16x1 .bf16) (harg31 : arg31.IsWhole) (arg32 : Memref sig .tc .vmem S1 .f32) (harg32 : arg32.IsWhole) (arg33 : Memref sig .tc .vmem S32x128 .f32) (harg33 : arg33.IsWhole)
    (x0 : Vec F S4096x128 .f32) (x1 : Vec F S4096x8 .f32) (x2 : Vec F S128x128 .bf16) (x3 : Vec F S8x160 .bf16) (x4 : Vec F S64 .f32) (x5 : Vec F S64 .f32) (x6 : Vec F S32 .f32) (x7 : Vec F S32 .f32) (x8 : Vec F S64 .f32) (x9 : Vec F S64 .f32) (x10 : Vec F S16 .f32) (x11 : Vec F S16 .f32) (x12 : Vec F S16 .f32) (x13 : Vec F S16 .f32) (x14 : Vec F S32 .f32) (x15 : Vec F S32 .f32) (x16 : Vec F S16 .f32) (x17 : Vec F S16 .f32) (x18 : Vec F S128x64 .bf16) (x19 : Vec F S32x64 .bf16) (x20 : Vec F S32x16 .bf16) (x21 : Vec F S16 .f32) (x22 : Vec F S32 .f32) (x23 : Vec F S32 .f32) (x24 : Vec F S32 .f32) (x25 : Vec F S32x32 .bf16) (x26 : Vec F S32x16 .bf16) (x27 : Vec F S16 .f32) (x28 : Vec F S16x16 .bf16) (x29 : Vec F S16x16 .bf16) (x30 : Vec F S16x1 .bf16) (x31 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ (∃ d, owns (c : Thread nD τ) arg33 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ owns (c : Thread nD τ) arg33 fullShare (out x0 x1 x2 x3 x4 x5 x6 x7 x8 x9 x10 x11 x12 x13 x14 x15 x16 x17 x18 x19 x20 x21 x22 x23 x24 x25 x26 x27 x28 x29 x30 x31)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  simp only [cc0__kernel_eq_skeleton]; unfold cc0__kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%d32, %f32, -, H32⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  iexists _; isplitr
  swap; · iexact H32
  ipureintro
  try dsimp only
  exact View.read_writes_eq_canon _ _ _ (cover _)

end Cert.KernelIdeal.Frame

end
-- ==== Proof.KiRun.lean ====
/-
  The launch's bookkeeping and the run of the whole program.

  At every one of the 128 grid points each input window's buffer holds that window's block of its array (the two
  row-tiled inputs a fresh block of 4096 rows, the thirty resident weights their whole array, fetched once), and
  the body leaves the output window's buffer at `out` of those blocks, which the launch writes back as block
  `t` of the 4096 x 128 result. With that the body's triple is the launch's obligation at every point, the
  launch theorem gives a run of the whole program, and the frame follows.
-/
import proofs.«104010_j23570780520494_2_alg».proof.Proof.KiHost
import proofs.«104010_j23570780520494_2_alg».proof.Proof.KiBody

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The bookkeeping -/

/-- On core `c`: the arrays as the launch finds them; after the body at point `t` each input's buffer at its
    block and the output's at `out` of the input blocks; nothing else owned, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => out (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t)
    | ⟨n + 33, h⟩ => absurd h (Nat.not_lt.2 (Nat.le_add_left 33 n))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = out (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d
theorem before0_31 (c : Dev nD) (t : Fin cfg0.N) (d) : (dats m 0 c).before 31 t d = iblk m c 31 t :=
  before0_31_of m (dats m 0 c) (A_eq m c 31) (after0_31 m c) t d

/-! ## The launch's obligation at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t))

set_option maxHeartbeats 2000000 in
/-- The body at any point: the inputs' buffers hold their blocks, so the body's triple applies; everything else
    passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexists _; iexact H32
  iintro ⟨H0, H1, H2, H3, H4, H5, H6, H7, H8, H9, H10, H11, H12, H13, H14, H15, H16, H17, H18, H19, H20, H21, H22, H23, H24, H25, H26, H27, H28, H29, H30, H31, H32⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  iexact H32

set_option maxHeartbeats 4000000 in
/-- The launch's obligation, at every point. -/
theorem body_obligation (c : Dev nD) : BodyObligation (dats (F := F) m 0 c) (defs₀ (F := F)) Variants.none () Set.univ := fun t => by
  rw [bigSep_W0, bigSep_W0]
  show bodyPre m c t ⊢ wp frame (wpE (defs₀ (F := F)) Variants.none c none) Set.univ (bodyAt0 t) (fun _ => bodyPost m c t)
  exact sound_body m c t

/-! ## The run and the frame -/

set_option backward.isDefEq.respectTransparency.types false in
/-- From any memory with zero counters every weakly fair execution of @main terminates, every array the launch
    stages ends at what the bookkeeping computes, and every other buffer as the closing reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end and its thirty-six arguments end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)) :=
  frame_of m ρ (dats m) (A_eq m) (run_main m ρ)

end Cert.KernelIdeal.Frame

end
-- ==== Proof.LibNary3.lean ====
/-
  An operation with three operands, read at the buffer it writes. From a valuation `V` of the buffers, the operation
  `nary ![x, a, b] y f` leaves in `y` the value of its function `f` at the family of its operands' contents; for the
  literal family `![x, a, b]` that family is the three contents `V x`, `V a`, `V b`, in this order
  (`Fin.cons (V x) (Fin.cons (V a) (Fin.cons (V b) _))`). The three-operand companion of the four-operand statement
  `nary4_result`.
-/
import Idealize.ShloMosaic.Lib.StableHlo.Run

noncomputable section

namespace Idealize.ShloMosaic.StableHlo

variable {τ : Topo} {sig : RefSig} {Val : EltTy → Type}
variable {x a b y : Ref sig .tc}

/-- What `nary ![x, a, b] y f` writes to `y` from `V`: `f` at the three operands' contents `V x`, `V a`, `V b`, in order. -/
theorem nary3_result
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-- The same equation, the buffer that is read carrying an indexing annotation only: the statement is unchanged. -/
theorem nary3_result'
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

/-- The fold of a list of operations read at one buffer: at the buffer an operation writes, its function of its operands'
    contents (three- and four-operand families operand by operand); at any other buffer, what was there before it. -/
macro "after_results_simp3" : tactic =>
  `(tactic| (simp (disch := decide) only [after_cons, after_nil,
      nullary_result', unary_result', binary_result', ternary_result', quaternary_result', reshape_result', nary3_result', nary4_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.LibAfterAppend.lean ====
/-
  A general lemma on straight lines of host operations: the buffer contents after two stretches run one after the
  other are the contents after their concatenation — so a long line can be read stretch by stretch.
-/
import Idealize.ShloMosaic.Lib.StableHlo.Run

namespace Cert.LibAfterAppend

open Idealize.ShloMosaic Idealize.ShloMosaic.StableHlo

/-- The contents after `l₁ ++ l₂` from `V` are the contents after `l₂` from the contents after `l₁` from `V`, for any
    topology, buffer signature and value types. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfterAppend
-- ==== Proof.KWinLib.lean ====
/-
  Reading a side-by-side or stacked join of two or three matrices at an entry, and reading a list of array
  operations at the array one of them writes.

  A join along the columns of an n x a and an n x b matrix has, at row r and column k, the first matrix's entry
  (r, k) when k < a and the second's entry (r, k - a) otherwise; a join along the rows likewise, with the roles of
  the two coordinates exchanged; with three pieces the third begins where the first two end.
-/
import Idealize.ShloMosaic.Lib.StableHlo.Run
import Idealize.ShloMosaic.Lib.ValueIdx
import Idealize.ShloMosaic.Lib.Pipeline.Value

noncomputable section

namespace Cert.KernelIdeal.KWin

open Idealize.ShloMosaic Idealize.ShloMosaic.ValueIdx

/-! ## A join depends on its pieces only -/

section CatCongr
variable {α : Type}
/-- A two-piece join depends on its pieces only. -/
theorem cat2_congr {t s₁ s₂ : Shape} {a : Fin t.rank} {x x' : s₁.Idx → α} {y y' : s₂.Idx → α}
    {h : Shape.Concatenates [s₁, s₂] t a} (hx : x = x') (hy : y = y') :
    concatenate t a [⟨s₁, x⟩, ⟨s₂, y⟩] h = concatenate t a [⟨s₁, x'⟩, ⟨s₂, y'⟩] h := by subst hx; subst hy; rfl
/-- A three-piece join depends on its pieces only. -/
theorem cat3_congr {t s₁ s₂ s₃ : Shape} {a : Fin t.rank} {x x' : s₁.Idx → α} {y y' : s₂.Idx → α} {z z' : s₃.Idx → α}
    {h : Shape.Concatenates [s₁, s₂, s₃] t a} (hx : x = x') (hy : y = y') (hz : z = z') :
    concatenate t a [⟨s₁, x⟩, ⟨s₂, y⟩, ⟨s₃, z⟩] h = concatenate t a [⟨s₁, x'⟩, ⟨s₂, y'⟩, ⟨s₃, z'⟩] h := by
  subst hx; subst hy; subst hz; rfl
end CatCongr

/-- The fold of a list of operations read at one buffer: at the buffer an operation writes, its function of its
    operands' contents; at any other buffer, what was there before it. -/
macro "host_read" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.nary_result',
      Idealize.ShloMosaic.StableHlo.nullary_result_ne', Idealize.ShloMosaic.StableHlo.unary_result_ne',
      Idealize.ShloMosaic.StableHlo.binary_result_ne', Idealize.ShloMosaic.StableHlo.nary_result_ne', Matrix.cons_val]))

/-! ## Joins of matrices read at an entry -/

section Cat
variable {α : Type} {n a b e w : Nat}

/-- Two matrices side by side, read left of the seam. -/
theorem cat2_cols_left (x : (⟨2, ![n, a]⟩ : Shape).Idx → α) (y : (⟨2, ![n, b]⟩ : Shape).Idx → α)
    (h : Shape.Concatenates [⟨2, ![n, a]⟩, ⟨2, ![n, b]⟩] ⟨2, ![n, w]⟩ 1) (r : Fin n) (k : Fin w) (hk : k.val < a) :
    concatenate (⟨2, ![n, w]⟩ : Shape) 1 [⟨⟨2, ![n, a]⟩, x⟩, ⟨⟨2, ![n, b]⟩, y⟩] h (ix2 r k) = x (ix2 r ⟨k.val, hk⟩) :=
  concatenate_pair_apply_left 1 x y h (ix2 r k) rfl (ix2 r ⟨k.val, hk⟩)
    (fun d => match d with | ⟨0, _⟩ => rfl | ⟨1, _⟩ => rfl)

/-- Two matrices side by side, read right of the seam. -/
theorem cat2_cols_right (x : (⟨2, ![n, a]⟩ : Shape).Idx → α) (y : (⟨2, ![n, b]⟩ : Shape).Idx → α)
    (h : Shape.Concatenates [⟨2, ![n, a]⟩, ⟨2, ![n, b]⟩] ⟨2, ![n, w]⟩ 1) (r : Fin n) (k : Fin w) (hk : a ≤ k.val)
    (hk' : k.val - a < b) :
    concatenate (⟨2, ![n, w]⟩ : Shape) 1 [⟨⟨2, ![n, a]⟩, x⟩, ⟨⟨2, ![n, b]⟩, y⟩] h (ix2 r k) = y (ix2 r ⟨k.val - a, hk'⟩) :=
  concatenate_pair_apply_right 1 x y h (ix2 r k) rfl rfl (ix2 r ⟨k.val - a, hk'⟩)
    (fun d => match d with | ⟨0, _⟩ => fun _ => rfl | ⟨1, _⟩ => fun hd => absurd rfl hd)
    (show k.val - a + a = k.val by omega)

/-- Two matrices one above the other, read above the seam. -/
theorem cat2_rows_top (x : (⟨2, ![a, n]⟩ : Shape).Idx → α) (y : (⟨2, ![b, n]⟩ : Shape).Idx → α)
    (h : Shape.Concatenates [⟨2, ![a, n]⟩, ⟨2, ![b, n]⟩] ⟨2, ![w, n]⟩ 0) (k : Fin w) (r : Fin n) (hk : k.val < a) :
    concatenate (⟨2, ![w, n]⟩ : Shape) 0 [⟨⟨2, ![a, n]⟩, x⟩, ⟨⟨2, ![b, n]⟩, y⟩] h (ix2 k r) = x (ix2 ⟨k.val, hk⟩ r) :=
  concatenate_pair_apply_left 0 x y h (ix2 k r) rfl (ix2 ⟨k.val, hk⟩ r)
    (fun d => match d with | ⟨0, _⟩ => rfl | ⟨1, _⟩ => rfl)

/-- Two matrices one above the other, read below the seam. -/
theorem cat2_rows_bottom (x : (⟨2, ![a, n]⟩ : Shape).Idx → α) (y : (⟨2, ![b, n]⟩ : Shape).Idx → α)
    (h : Shape.Concatenates [⟨2, ![a, n]⟩, ⟨2, ![b, n]⟩] ⟨2, ![w, n]⟩ 0) (k : Fin w) (r : Fin n) (hk : a ≤ k.val)
    (hk' : k.val - a < b) :
    concatenate (⟨2, ![w, n]⟩ : Shape) 0 [⟨⟨2, ![a, n]⟩, x⟩, ⟨⟨2, ![b, n]⟩, y⟩] h (ix2 k r) = y (ix2 ⟨k.val - a, hk'⟩ r) :=
  concatenate_pair_apply_right 0 x y h (ix2 k r) rfl rfl (ix2 ⟨k.val - a, hk'⟩ r)
    (fun d => match d with | ⟨0, _⟩ => fun hd => absurd rfl hd | ⟨1, _⟩ => fun _ => rfl)
    (show k.val - a + a = k.val by omega)

/-- Three matrices side by side: the first. -/
theorem cat3_cols_fst (x : (⟨2, ![n, a]⟩ : Shape).Idx → α) (y : (⟨2, ![n, b]⟩ : Shape).Idx → α)
    (z : (⟨2, ![n, e]⟩ : Shape).Idx → α)
    (h : Shape.Concatenates [⟨2, ![n, a]⟩, ⟨2, ![n, b]⟩, ⟨2, ![n, e]⟩] ⟨2, ![n, w]⟩ 1) (r : Fin n) (k : Fin w)
    (hk : k.val < a) :
    concatenate (⟨2, ![n, w]⟩ : Shape) 1 [⟨⟨2, ![n, a]⟩, x⟩, ⟨⟨2, ![n, b]⟩, y⟩, ⟨⟨2, ![n, e]⟩, z⟩] h (ix2 r k)
      = x (ix2 r ⟨k.val, hk⟩) :=
  concatenate_apply_piece (t := ⟨2, ![n, w]⟩) 1 [⟨⟨2, ![n, a]⟩, x⟩, ⟨⟨2, ![n, b]⟩, y⟩, ⟨⟨2, ![n, e]⟩, z⟩] h (ix2 r k) 0 (by simp) _ x rfl rfl 0 rfl (ix2 r ⟨k.val, hk⟩)
    (fun d => match d with | ⟨0, _⟩ => fun _ => rfl | ⟨1, _⟩ => fun hd => absurd rfl hd)
    (show 0 + k.val = k.val by omega)

/-- Three matrices side by side: the second. -/
theorem cat3_cols_snd (x : (⟨2, ![n, a]⟩ : Shape).Idx → α) (y : (⟨2, ![n, b]⟩ : Shape).Idx → α)
    (z : (⟨2, ![n, e]⟩ : Shape).Idx → α)
    (h : Shape.Concatenates [⟨2, ![n, a]⟩, ⟨2, ![n, b]⟩, ⟨2, ![n, e]⟩] ⟨2, ![n, w]⟩ 1) (r : Fin n) (k : Fin w)
    (hk : a ≤ k.val) (hk' : k.val - a < b) :
    concatenate (⟨2, ![n, w]⟩ : Shape) 1 [⟨⟨2, ![n, a]⟩, x⟩, ⟨⟨2, ![n, b]⟩, y⟩, ⟨⟨2, ![n, e]⟩, z⟩] h (ix2 r k)
      = y (ix2 r ⟨k.val - a, hk'⟩) :=
  concatenate_apply_piece (t := ⟨2, ![n, w]⟩) 1 [⟨⟨2, ![n, a]⟩, x⟩, ⟨⟨2, ![n, b]⟩, y⟩, ⟨⟨2, ![n, e]⟩, z⟩] h (ix2 r k) 1 (by simp) _ y rfl rfl a (by simp) (ix2 r ⟨k.val - a, hk'⟩)
    (fun d => match d with | ⟨0, _⟩ => fun _ => rfl | ⟨1, _⟩ => fun hd => absurd rfl hd)
    (show a + (k.val - a) = k.val by omega)

/-- Three matrices side by side: the third. -/
theorem cat3_cols_trd (x : (⟨2, ![n, a]⟩ : Shape).Idx → α) (y : (⟨2, ![n, b]⟩ : Shape).Idx → α)
    (z : (⟨2, ![n, e]⟩ : Shape).Idx → α)
    (h : Shape.Concatenates [⟨2, ![n, a]⟩, ⟨2, ![n, b]⟩, ⟨2, ![n, e]⟩] ⟨2, ![n, w]⟩ 1) (r : Fin n) (k : Fin w)
    (hk : a + b ≤ k.val) (hk' : k.val - (a + b) < e) :
    concatenate (⟨2, ![n, w]⟩ : Shape) 1 [⟨⟨2, ![n, a]⟩, x⟩, ⟨⟨2, ![n, b]⟩, y⟩, ⟨⟨2, ![n, e]⟩, z⟩] h (ix2 r k)
      = z (ix2 r ⟨k.val - (a + b), hk'⟩) :=
  concatenate_apply_piece (t := ⟨2, ![n, w]⟩) 1 [⟨⟨2, ![n, a]⟩, x⟩, ⟨⟨2, ![n, b]⟩, y⟩, ⟨⟨2, ![n, e]⟩, z⟩] h (ix2 r k) 2 (by simp) _ z rfl rfl (a + b) (by simp) (ix2 r ⟨k.val - (a + b), hk'⟩)
    (fun d => match d with | ⟨0, _⟩ => fun _ => rfl | ⟨1, _⟩ => fun hd => absurd rfl hd)
    (show a + b + (k.val - (a + b)) = k.val by omega)

/-- Three matrices one above the other: the first. -/
theorem cat3_rows_fst (x : (⟨2, ![a, n]⟩ : Shape).Idx → α) (y : (⟨2, ![b, n]⟩ : Shape).Idx → α)
    (z : (⟨2, ![e, n]⟩ : Shape).Idx → α)
    (h : Shape.Concatenates [⟨2, ![a, n]⟩, ⟨2, ![b, n]⟩, ⟨2, ![e, n]⟩] ⟨2, ![w, n]⟩ 0) (k : Fin w) (r : Fin n)
    (hk : k.val < a) :
    concatenate (⟨2, ![w, n]⟩ : Shape) 0 [⟨⟨2, ![a, n]⟩, x⟩, ⟨⟨2, ![b, n]⟩, y⟩, ⟨⟨2, ![e, n]⟩, z⟩] h (ix2 k r)
      = x (ix2 ⟨k.val, hk⟩ r) :=
  concatenate_apply_piece (t := ⟨2, ![w, n]⟩) 0 [⟨⟨2, ![a, n]⟩, x⟩, ⟨⟨2, ![b, n]⟩, y⟩, ⟨⟨2, ![e, n]⟩, z⟩] h (ix2 k r) 0 (by simp) _ x rfl rfl 0 rfl (ix2 ⟨k.val, hk⟩ r)
    (fun d => match d with | ⟨0, _⟩ => fun hd => absurd rfl hd | ⟨1, _⟩ => fun _ => rfl)
    (show 0 + k.val = k.val by omega)

/-- Three matrices one above the other: the second. -/
theorem cat3_rows_snd (x : (⟨2, ![a, n]⟩ : Shape).Idx → α) (y : (⟨2, ![b, n]⟩ : Shape).Idx → α)
    (z : (⟨2, ![e, n]⟩ : Shape).Idx → α)
    (h : Shape.Concatenates [⟨2, ![a, n]⟩, ⟨2, ![b, n]⟩, ⟨2, ![e, n]⟩] ⟨2, ![w, n]⟩ 0) (k : Fin w) (r : Fin n)
    (hk : a ≤ k.val) (hk' : k.val - a < b) :
    concatenate (⟨2, ![w, n]⟩ : Shape) 0 [⟨⟨2, ![a, n]⟩, x⟩, ⟨⟨2, ![b, n]⟩, y⟩, ⟨⟨2, ![e, n]⟩, z⟩] h (ix2 k r)
      = y (ix2 ⟨k.val - a, hk'⟩ r) :=
  concatenate_apply_piece (t := ⟨2, ![w, n]⟩) 0 [⟨⟨2, ![a, n]⟩, x⟩, ⟨⟨2, ![b, n]⟩, y⟩, ⟨⟨2, ![e, n]⟩, z⟩] h (ix2 k r) 1 (by simp) _ y rfl rfl a (by simp) (ix2 ⟨k.val - a, hk'⟩ r)
    (fun d => match d with | ⟨0, _⟩ => fun hd => absurd rfl hd | ⟨1, _⟩ => fun _ => rfl)
    (show a + (k.val - a) = k.val by omega)

/-- Three matrices one above the other: the third. -/
theorem cat3_rows_trd (x : (⟨2, ![a, n]⟩ : Shape).Idx → α) (y : (⟨2, ![b, n]⟩ : Shape).Idx → α)
    (z : (⟨2, ![e, n]⟩ : Shape).Idx → α)
    (h : Shape.Concatenates [⟨2, ![a, n]⟩, ⟨2, ![b, n]⟩, ⟨2, ![e, n]⟩] ⟨2, ![w, n]⟩ 0) (k : Fin w) (r : Fin n)
    (hk : a + b ≤ k.val) (hk' : k.val - (a + b) < e) :
    concatenate (⟨2, ![w, n]⟩ : Shape) 0 [⟨⟨2, ![a, n]⟩, x⟩, ⟨⟨2, ![b, n]⟩, y⟩, ⟨⟨2, ![e, n]⟩, z⟩] h (ix2 k r)
      = z (ix2 ⟨k.val - (a + b), hk'⟩ r) :=
  concatenate_apply_piece (t := ⟨2, ![w, n]⟩) 0 [⟨⟨2, ![a, n]⟩, x⟩, ⟨⟨2, ![b, n]⟩, y⟩, ⟨⟨2, ![e, n]⟩, z⟩] h (ix2 k r) 2 (by simp) _ z rfl rfl (a + b) (by simp) (ix2 ⟨k.val - (a + b), hk'⟩ r)
    (fun d => match d with | ⟨0, _⟩ => fun hd => absurd rfl hd | ⟨1, _⟩ => fun _ => rfl)
    (show a + b + (k.val - (a + b)) = k.val by omega)
end Cat

end Cert.KernelIdeal.KWin

end
-- ==== Proof.RefStretchLib.lean ====
/-
  Reading a stretch of a straight line of host operations at one buffer, and telling which buffers a stretch writes.

  A stretch is a literal list of operations. From any contents W of the buffers, the contents after the stretch at a
  buffer the stretch writes are the writing operation's function of its operands' contents, each operand read the same
  way, down to the buffers the stretch reads and does not write; there the given equations (the hypotheses in scope) say
  what W holds. What is left is an equation between two spellings of one composition of the operations' functions: the
  one unfolded from the list, the other a tower of definitions, one per operation.
-/
import Idealize.ShloMosaic.Lib.StableHlo.Run
import proofs.«104010_j23570780520494_2_alg».proof.Proof.LibNary3
import proofs.«104010_j23570780520494_2_alg».proof.Proof.LibAfterAppend
import proofs.«104010_j23570780520494_2_alg».proof.Proof.KWinLib

namespace Idealize.ShloMosaic.StableHlo

/-- Closes after s W (the buffer) = (its term) for a literal list s (a definition, named) of operations: unfolds the list,
    reads the operations at the buffer, rewrites the buffers read from outside by the hypotheses in scope, and compares
    the two compositions by unfolding definitions. A module that reads a join of arrays this way first marks the two
    statements that a join depends on its pieces only as local congruence rules: the rewriting does not otherwise enter a
    join's list of pieces, whose side condition depends on the list. -/
macro "stretch_read " s:ident : tactic =>
  `(tactic| (simp only [$s:ident]; host_read <;> (try simp only [*]) <;> rfl))

/-- Closes (s).Forall fun op => op.writes ⊆ (the list of references s writes, as device buffers) for a literal list s
    (a definition, named): operation by operation, what it writes is one buffer, a member of the list by comparison of
    references. -/
macro "stretch_writes " s:ident : tactic =>
  `(tactic| (simp only [$s:ident, List.Forall]; repeat' apply And.intro
             all_goals (simp only [nullary_writes, unary_writes, binary_writes, ternary_writes, quaternary_writes, reshape_writes,
               binaryIndexed_writes, unaryIndexed_writes, nary_writes, Finset.singleton_subset_iff, List.mem_toFinset]
                        exact List.mem_map_of_mem (by decide))))

end Idealize.ShloMosaic.StableHlo
-- ==== Proof.RefStretch01.lean ====
/-
  Operations 0 to 24 of the reference program's @main (of its 273, counting from 0), as a list of their own, and what the
  list leaves in each buffer that a later operation reads: its val_ term of @main's arguments, given that the buffers the list
  reads hold theirs. One statement per buffer; each is proved by the one tactic that reads a list of operations at a buffer.
-/
import proofs.«104010_j23570780520494_2_alg».proof.Proof.RefReadP
import proofs.«104010_j23570780520494_2_alg».proof.Proof.RefStretchLib

noncomputable section

namespace Cert.ReferenceIdeal.RunS

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

attribute [local congr] Cert.KernelIdeal.KWin.cat2_congr Cert.KernelIdeal.KWin.cat3_congr

/-- Operations 0 to 24 of @main, in order (copied from the list of all of them). -/
def s01 : List (HloOp τ sig (Elt F)) :=
  [ nary ![main_arg0, main_arg1, main_arg2] main_v0 (fun u => concatenate S524288x135 1 [⟨S524288x128, u 0⟩, ⟨S524288x6, u 1⟩, ⟨S524288x1, u 2⟩] concatenates_S524288x128_S524288x6_S524288x1_S524288x135_d1),
    binary main_v0 main_arg23 main_v1 ((fun l r => Host.dotGeneral dot_S524288x135_S135x64_S524288x64_1_0_0_1_n_n none l r) : (⟨S524288x135, .f32⟩ : BufTy).Contents (Elt F) → (⟨S135x64, .f32⟩ : BufTy).Contents (Elt F) → (⟨S524288x64, .f32⟩ : BufTy).Contents (Elt F)),
    nullary main_cst (constant S_ .f32 0x00000000#32),
    binary main_v1 main_cst main_v2 ((fun x v => Host.reduceAdd x v reducesTo_S524288x64_S524288_d1 h_S_) : (⟨S524288x64, .f32⟩ : BufTy).Contents (Elt F) → (⟨S_, .f32⟩ : BufTy).Contents (Elt F) → (⟨S524288, .f32⟩ : BufTy).Contents (Elt F)),
    unary main_v2 main_v3 (broadcastInDim S524288x1 ![0] bcast_S524288_S524288x1_0 : (⟨S524288, .f32⟩ : BufTy).Contents (Elt F) → (⟨S524288x1, .f32⟩ : BufTy).Contents (Elt F)),
    nullary main_cst_0 (constant S_ .f32 0x42800000#32),
    unary main_cst_0 main_v4 (broadcastInDim S524288x1 ![] bcast_S_S524288x1 : (⟨S_, .f32⟩ : BufTy).Contents (Elt F) → (⟨S524288x1, .f32⟩ : BufTy).Contents (Elt F)),
    binary main_v3 main_v4 main_v5 (Host.divf : (⟨S524288x1, .f32⟩ : BufTy).Contents (Elt F) → (⟨S524288x1, .f32⟩ : BufTy).Contents (Elt F) → (⟨S524288x1, .f32⟩ : BufTy).Contents (Elt F)),
    unary main_v5 main_v6 (broadcastInDim S524288x64 ![0, 1] bcast_S524288x1_S524288x64_0_1 : (⟨S524288x1, .f32⟩ : BufTy).Contents (Elt F) → (⟨S524288x64, .f32⟩ : BufTy).Contents (Elt F)),
    binary main_v1 main_v6 main_v7 (subf : (⟨S524288x64, .f32⟩ : BufTy).Contents (Elt F) → (⟨S524288x64, .f32⟩ : BufTy).Contents (Elt F) → (⟨S524288x64, .f32⟩ : BufTy).Contents (Elt F)),
    binary main_v7 main_v7 main_v8 (mulf : (⟨S524288x64, .f32⟩ : BufTy).Contents (Elt F) → (⟨S524288x64, .f32⟩ : BufTy).Contents (Elt F) → (⟨S524288x64, .f32⟩ : BufTy).Contents (Elt F)),
    nullary main_cst_1 (constant S_ .f32 0x00000000#32),
    binary main_v8 main_cst_1 main_v9 ((fun x v => Host.reduceAdd x v reducesTo_S524288x64_S524288_d1 h_S_) : (⟨S524288x64, .f32⟩ : BufTy).Contents (Elt F) → (⟨S_, .f32⟩ : BufTy).Contents (Elt F) → (⟨S524288, .f32⟩ : BufTy).Contents (Elt F)),
    unary main_v9 main_v10 (broadcastInDim S524288x1 ![0] bcast_S524288_S524288x1_0 : (⟨S524288, .f32⟩ : BufTy).Contents (Elt F) → (⟨S524288x1, .f32⟩ : BufTy).Contents (Elt F)),
    nullary main_cst_2 (constant S_ .f32 0x42800000#32),
    unary main_cst_2 main_v11 (broadcastInDim S524288x1 ![] bcast_S_S524288x1 : (⟨S_, .f32⟩ : BufTy).Contents (Elt F) → (⟨S524288x1, .f32⟩ : BufTy).Contents (Elt F)),
    binary main_v10 main_v11 main_v12 (Host.divf : (⟨S524288x1, .f32⟩ : BufTy).Contents (Elt F) → (⟨S524288x1, .f32⟩ : BufTy).Contents (Elt F) → (⟨S524288x1, .f32⟩ : BufTy).Contents (Elt F)),
    unary main_v5 main_v13 (broadcastInDim S524288x64 ![0, 1] bcast_S524288x1_S524288x64_0_1 : (⟨S524288x1, .f32⟩ : BufTy).Contents (Elt F) → (⟨S524288x64, .f32⟩ : BufTy).Contents (Elt F)),
    binary main_v1 main_v13 main_v14 (subf : (⟨S524288x64, .f32⟩ : BufTy).Contents (Elt F) → (⟨S524288x64, .f32⟩ : BufTy).Contents (Elt F) → (⟨S524288x64, .f32⟩ : BufTy).Contents (Elt F)),
    nullary main_cst_3 (constant S_ .f32 0x3727C5AC#32),
    unary main_cst_3 main_v15 (broadcastInDim S524288x1 ![] bcast_S_S524288x1 : (⟨S_, .f32⟩ : BufTy).Contents (Elt F) → (⟨S524288x1, .f32⟩ : BufTy).Contents (Elt F)),
    binary main_v12 main_v15 main_v16 (addf : (⟨S524288x1, .f32⟩ : BufTy).Contents (Elt F) → (⟨S524288x1, .f32⟩ : BufTy).Contents (Elt F) → (⟨S524288x1, .f32⟩ : BufTy).Contents (Elt F)),
    unary main_v16 main_v17 (Host.rsqrt : (⟨S524288x1, .f32⟩ : BufTy).Contents (Elt F) → (⟨S524288x1, .f32⟩ : BufTy).Contents (Elt F)),
    unary main_v17 main_v18 (broadcastInDim S524288x64 ![0, 1] bcast_S524288x1_S524288x64_0_1 : (⟨S524288x1, .f32⟩ : BufTy).Contents (Elt F) → (⟨S524288x64, .f32⟩ : BufTy).Contents (Elt F)),
    binary main_v14 main_v18 main_v19 (mulf : (⟨S524288x64, .f32⟩ : BufTy).Contents (Elt F) → (⟨S524288x64, .f32⟩ : BufTy).Contents (Elt F) → (⟨S524288x64, .f32⟩ : BufTy).Contents (Elt F)) ]

/-- The buffers these operations write. -/
abbrev s01_W : List (Ref sig .tc) := [main_v0, main_v1, main_cst, main_v2, main_v3, main_cst_0, main_v4, main_v5, main_v6, main_v7, main_v8, main_cst_1, main_v9, main_v10, main_cst_2, main_v11, main_v12, main_v13, main_v14, main_cst_3, main_v15, main_v16, main_v17, main_v18, main_v19]
theorem s01_writes : (s01 : List (HloOp τ sig (Elt F))).Forall fun op => op.writes ⊆ (s01_W.map (Proc.devRef (τ := τ) .tc)).toFinset := by
  stretch_writes s01
/-- A buffer these operations do not write keeps its contents through them. -/
theorem s01_keep (W : Valuation τ sig (Elt F)) (r : Ref sig .tc) (h : r ∉ s01_W) :
    after (s01 (F := F)) W (Proc.devRef .tc r) = W (Proc.devRef .tc r) :=
  after_of_writes_sub s01 W s01_writes h

theorem s01_main_v19 (W : Valuation τ sig (Elt F)) (x0 : (⟨S524288x128, .f32⟩ : BufTy).Contents (Elt F)) (x1 : (⟨S524288x6, .f32⟩ : BufTy).Contents (Elt F)) (x2 : (⟨S524288x1, .f32⟩ : BufTy).Contents (Elt F)) (x23 : (⟨S135x64, .f32⟩ : BufTy).Contents (Elt F))
    (h_main_arg0 : W (no_index (Proc.devRef .tc main_arg0)) = x0)
    (h_main_arg1 : W (no_index (Proc.devRef .tc main_arg1)) = x1)
    (h_main_arg2 : W (no_index (Proc.devRef .tc main_arg2)) = x2)
    (h_main_arg23 : W (no_index (Proc.devRef .tc main_arg23)) = x23)
    : after (s01 (F := F)) W (Proc.devRef .tc main_v19) = val_main_v19 (F := F) x0 x1 x2 x23 := by
  stretch_read s01

end Cert.ReferenceIdeal.RunS

end
-- ==== Proof.RefStretch02.lean ====
/-
  Operations 25 to 34 of the reference program's @main (of its 273, counting from 0), as a list of their own, and what the
  list leaves in each buffer that a later operation reads: its val_ term of @main's arguments, given that the buffers the list
  reads hold theirs. One statement per buffer; each is proved by the one tactic that reads a list of operations at a buffer.
-/
import proofs.«104010_j23570780520494_2_alg».proof.Proof.RefReadP
import proofs.«104010_j23570780520494_2_alg».proof.Proof.RefStretchLib

noncomputable section

namespace Cert.ReferenceIdeal.RunS

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

attribute [local congr] Cert.KernelIdeal.KWin.cat2_congr Cert.KernelIdeal.KWin.cat3_congr

/-- Operations 25 to 34 of @main, in order (copied from the list of all of them). -/
def s02 : List (HloOp τ sig (Elt F)) :=
  [ unary main_arg24 main_v20 (broadcastInDim S1x64 ![1] bcast_S64_S1x64_1 : (⟨S64, .f32⟩ : BufTy).Contents (Elt F) → (⟨S1x64, .f32⟩ : BufTy).Contents (Elt F)),
    unary main_v20 main_v21 (broadcastInDim S524288x64 ![0, 1] bcast_S1x64_S524288x64_0_1 : (⟨S1x64, .f32⟩ : BufTy).Contents (Elt F) → (⟨S524288x64, .f32⟩ : BufTy).Contents (Elt F)),
    binary main_v19 main_v21 main_v22 (mulf : (⟨S524288x64, .f32⟩ : BufTy).Contents (Elt F) → (⟨S524288x64, .f32⟩ : BufTy).Contents (Elt F) → (⟨S524288x64, .f32⟩ : BufTy).Contents (Elt F)),
    unary main_arg25 main_v23 (broadcastInDim S1x64 ![1] bcast_S64_S1x64_1 : (⟨S64, .f32⟩ : BufTy).Contents (Elt F) → (⟨S1x64, .f32⟩ : BufTy).Contents (Elt F)),
    unary main_v23 main_v24 (broadcastInDim S524288x64 ![0, 1] bcast_S1x64_S524288x64_0_1 : (⟨S1x64, .f32⟩ : BufTy).Contents (Elt F) → (⟨S524288x64, .f32⟩ : BufTy).Contents (Elt F)),
    binary main_v22 main_v24 main_v25 (addf : (⟨S524288x64, .f32⟩ : BufTy).Contents (Elt F) → (⟨S524288x64, .f32⟩ : BufTy).Contents (Elt F) → (⟨S524288x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S524288x64, .f32⟩) main_call0_v0) (broadcastInDim S524288x64 ![] bcast_S_S524288x64),
    TRef.binary (TRef.of (T := ⟨S524288x64, .f32⟩) main_v25) (TRef.of (T := ⟨S524288x64, .f32⟩) main_call0_v0) (TRef.of (T := ⟨S524288x64, .f32⟩) main_v26) maximumf,
    binary main_v26 main_arg26 main_v27 ((fun l r => Host.dotGeneral dot_S524288x64_S64x32_S524288x32_1_0_0_1_n_n none l r) : (⟨S524288x64, .f32⟩ : BufTy).Contents (Elt F) → (⟨S64x32, .f32⟩ : BufTy).Contents (Elt F) → (⟨S524288x32, .f32⟩ : BufTy).Contents (Elt F)) ]

/-- The buffers these operations write. -/
abbrev s02_W : List (Ref sig .tc) := [main_v20, main_v21, main_v22, main_v23, main_v24, main_v25, main_call0_cst, main_call0_v0, main_v26, main_v27]
theorem s02_writes : (s02 : List (HloOp τ sig (Elt F))).Forall fun op => op.writes ⊆ (s02_W.map (Proc.devRef (τ := τ) .tc)).toFinset := by
  stretch_writes s02
/-- A buffer these operations do not write keeps its contents through them. -/
theorem s02_keep (W : Valuation τ sig (Elt F)) (r : Ref sig .tc) (h : r ∉ s02_W) :
    after (s02 (F := F)) W (Proc.devRef .tc r) = W (Proc.devRef .tc r) :=
  after_of_writes_sub s02 W s02_writes h

theorem s02_main_v27 (W : Valuation τ sig (Elt F)) (x0 : (⟨S524288x128, .f32⟩ : BufTy).Contents (Elt F)) (x1 : (⟨S524288x6, .f32⟩ : BufTy).Contents (Elt F)) (x2 : (⟨S524288x1, .f32⟩ : BufTy).Contents (Elt F)) (x23 : (⟨S135x64, .f32⟩ : BufTy).Contents (Elt F)) (x24 : (⟨S64, .f32⟩ : BufTy).Contents (Elt F)) (x25 : (⟨S64, .f32⟩ : BufTy).Contents (Elt F)) (x26 : (⟨S64x32, .f32⟩ : BufTy).Contents (Elt F))
    (h_main_arg24 : W (no_index (Proc.devRef .tc main_arg24)) = x24)
    (h_main_arg25 : W (no_index (Proc.devRef .tc main_arg25)) = x25)
    (h_main_arg26 : W (no_index (Proc.devRef .tc main_arg26)) = x26)
    (h_main_v19 : W (no_index (Proc.devRef .tc main_v19)) = val_main_v19 (F := F) x0 x1 x2 x23)
    : after (s02 (F := F)) W (Proc.devRef .tc main_v27) = val_main_v27 (F := F) x0 x1 x2 x23 x24 x25 x26 := by
  stretch_read s02

end Cert.ReferenceIdeal.RunS

end
-- ==== Proof.RefStretch03.lean ====
/-
  Operations 35 to 57 of the reference program's @main (of its 273, counting from 0), as a list of their own, and what the
  list leaves in each buffer that a later operation reads: its val_ term of @main's arguments, given that the buffers the list
  reads hold theirs. One statement per buffer; each is proved by the one tactic that reads a list of operations at a buffer.
-/
import proofs.«104010_j23570780520494_2_alg».proof.Proof.RefReadP
import proofs.«104010_j23570780520494_2_alg».proof.Proof.RefStretchLib

noncomputable section

namespace Cert.ReferenceIdeal.RunS

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

attribute [local congr] Cert.KernelIdeal.KWin.cat2_congr Cert.KernelIdeal.KWin.cat3_congr

/-- Operations 35 to 57 of @main, in order (copied from the list of all of them). -/
def s03 : List (HloOp τ sig (Elt F)) :=
  [ nullary main_cst_4 (constant S_ .f32 0x00000000#32),
    binary main_v27 main_cst_4 main_v28 ((fun x v => Host.reduceAdd x v reducesTo_S524288x32_S524288_d1 h_S_) : (⟨S524288x32, .f32⟩ : BufTy).Contents (Elt F) → (⟨S_, .f32⟩ : BufTy).Contents (Elt F) → (⟨S524288, .f32⟩ : BufTy).Contents (Elt F)),
    unary main_v28 main_v29 (broadcastInDim S524288x1 ![0] bcast_S524288_S524288x1_0 : (⟨S524288, .f32⟩ : BufTy).Contents (Elt F) → (⟨S524288x1, .f32⟩ : BufTy).Contents (Elt F)),
    nullary main_cst_5 (constant S_ .f32 0x42000000#32),
    unary main_cst_5 main_v30 (broadcastInDim S524288x1 ![] bcast_S_S524288x1 : (⟨S_, .f32⟩ : BufTy).Contents (Elt F) → (⟨S524288x1, .f32⟩ : BufTy).Contents (Elt F)),
    binary main_v29 main_v30 main_v31 (Host.divf : (⟨S524288x1, .f32⟩ : BufTy).Contents (Elt F) → (⟨S524288x1, .f32⟩ : BufTy).Contents (Elt F) → (⟨S524288x1, .f32⟩ : BufTy).Contents (Elt F)),
    unary main_v31 main_v32 (broadcastInDim S524288x32 ![0, 1] bcast_S524288x1_S524288x32_0_1 : (⟨S524288x1, .f32⟩ : BufTy).Contents (Elt F) → (⟨S524288x32, .f32⟩ : BufTy).Contents (Elt F)),
    binary main_v27 main_v32 main_v33 (subf : (⟨S524288x32, .f32⟩ : BufTy).Contents (Elt F) → (⟨S524288x32, .f32⟩ : BufTy).Contents (Elt F) → (⟨S524288x32, .f32⟩ : BufTy).Contents (Elt F)),
    binary main_v33 main_v33 main_v34 (mulf : (⟨S524288x32, .f32⟩ : BufTy).Contents (Elt F) → (⟨S524288x32, .f32⟩ : BufTy).Contents (Elt F) → (⟨S524288x32, .f32⟩ : BufTy).Contents (Elt F)),
    nullary main_cst_6 (constant S_ .f32 0x00000000#32),
    binary main_v34 main_cst_6 main_v35 ((fun x v => Host.reduceAdd x v reducesTo_S524288x32_S524288_d1 h_S_) : (⟨S524288x32, .f32⟩ : BufTy).Contents (Elt F) → (⟨S_, .f32⟩ : BufTy).Contents (Elt F) → (⟨S524288, .f32⟩ : BufTy).Contents (Elt F)),
    unary main_v35 main_v36 (broadcastInDim S524288x1 ![0] bcast_S524288_S524288x1_0 : (⟨S524288, .f32⟩ : BufTy).Contents (Elt F) → (⟨S524288x1, .f32⟩ : BufTy).Contents (Elt F)),
    nullary main_cst_7 (constant S_ .f32 0x42000000#32),
    unary main_cst_7 main_v37 (broadcastInDim S524288x1 ![] bcast_S_S524288x1 : (⟨S_, .f32⟩ : BufTy).Contents (Elt F) → (⟨S524288x1, .f32⟩ : BufTy).Contents (Elt F)),
    binary main_v36 main_v37 main_v38 (Host.divf : (⟨S524288x1, .f32⟩ : BufTy).Contents (Elt F) → (⟨S524288x1, .f32⟩ : BufTy).Contents (Elt F) → (⟨S524288x1, .f32⟩ : BufTy).Contents (Elt F)),
    unary main_v31 main_v39 (broadcastInDim S524288x32 ![0, 1] bcast_S524288x1_S524288x32_0_1 : (⟨S524288x1, .f32⟩ : BufTy).Contents (Elt F) → (⟨S524288x32, .f32⟩ : BufTy).Contents (Elt F)),
    binary main_v27 main_v39 main_v40 (subf : (⟨S524288x32, .f32⟩ : BufTy).Contents (Elt F) → (⟨S524288x32, .f32⟩ : BufTy).Contents (Elt F) → (⟨S524288x32, .f32⟩ : BufTy).Contents (Elt F)),
    nullary main_cst_8 (constant S_ .f32 0x3727C5AC#32),
    unary main_cst_8 main_v41 (broadcastInDim S524288x1 ![] bcast_S_S524288x1 : (⟨S_, .f32⟩ : BufTy).Contents (Elt F) → (⟨S524288x1, .f32⟩ : BufTy).Contents (Elt F)),
    binary main_v38 main_v41 main_v42 (addf : (⟨S524288x1, .f32⟩ : BufTy).Contents (Elt F) → (⟨S524288x1, .f32⟩ : BufTy).Contents (Elt F) → (⟨S524288x1, .f32⟩ : BufTy).Contents (Elt F)),
    unary main_v42 main_v43 (Host.rsqrt : (⟨S524288x1, .f32⟩ : BufTy).Contents (Elt F) → (⟨S524288x1, .f32⟩ : BufTy).Contents (Elt F)),
    unary main_v43 main_v44 (broadcastInDim S524288x32 ![0, 1] bcast_S524288x1_S524288x32_0_1 : (⟨S524288x1, .f32⟩ : BufTy).Contents (Elt F) → (⟨S524288x32, .f32⟩ : BufTy).Contents (Elt F)),
    binary main_v40 main_v44 main_v45 (mulf : (⟨S524288x32, .f32⟩ : BufTy).Contents (Elt F) → (⟨S524288x32, .f32⟩ : BufTy).Contents (Elt F) → (⟨S524288x32, .f32⟩ : BufTy).Contents (Elt F)) ]

/-- The buffers these operations write. -/
abbrev s03_W : List (Ref sig .tc) := [main_cst_4, main_v28, main_v29, main_cst_5, main_v30, main_v31, main_v32, main_v33, main_v34, main_cst_6, main_v35, main_v36, main_cst_7, main_v37, main_v38, main_v39, main_v40, main_cst_8, main_v41, main_v42, main_v43, main_v44, main_v45]
theorem s03_writes : (s03 : List (HloOp τ sig (Elt F))).Forall fun op => op.writes ⊆ (s03_W.map (Proc.devRef (τ := τ) .tc)).toFinset := by
  stretch_writes s03
/-- A buffer these operations do not write keeps its contents through them. -/
theorem s03_keep (W : Valuation τ sig (Elt F)) (r : Ref sig .tc) (h : r ∉ s03_W) :
    after (s03 (F := F)) W (Proc.devRef .tc r) = W (Proc.devRef .tc r) :=
  after_of_writes_sub s03 W s03_writes h

theorem s03_main_v45 (W : Valuation τ sig (Elt F)) (x0 : (⟨S524288x128, .f32⟩ : BufTy).Contents (Elt F)) (x1 : (⟨S524288x6, .f32⟩ : BufTy).Contents (Elt F)) (x2 : (⟨S524288x1, .f32⟩ : BufTy).Contents (Elt F)) (x23 : (⟨S135x64, .f32⟩ : BufTy).Contents (Elt F)) (x24 : (⟨S64, .f32⟩ : BufTy).Contents (Elt F)) (x25 : (⟨S64, .f32⟩ : BufTy).Contents (Elt F)) (x26 : (⟨S64x32, .f32⟩ : BufTy).Contents (Elt F))
    (h_main_v27 : W (no_index (Proc.devRef .tc main_v27)) = val_main_v27 (F := F) x0 x1 x2 x23 x24 x25 x26)
    : after (s03 (F := F)) W (Proc.devRef .tc main_v45) = val_main_v45 (F := F) x0 x1 x2 x23 x24 x25 x26 := by
  stretch_read s03

end Cert.ReferenceIdeal.RunS

end
-- ==== Proof.RefStretch04.lean ====
/-
  Operations 58 to 71 of the reference program's @main (of its 273, counting from 0), as a list of their own, and what the
  list leaves in each buffer that a later operation reads: its val_ term of @main's arguments, given that the buffers the list
  reads hold theirs. One statement per buffer; each is proved by the one tactic that reads a list of operations at a buffer.
-/
import proofs.«104010_j23570780520494_2_alg».proof.Proof.RefReadP
import proofs.«104010_j23570780520494_2_alg».proof.Proof.RefStretchLib

noncomputable section

namespace Cert.ReferenceIdeal.RunS

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

attribute [local congr] Cert.KernelIdeal.KWin.cat2_congr Cert.KernelIdeal.KWin.cat3_congr

/-- Operations 58 to 71 of @main, in order (copied from the list of all of them). -/
def s04 : List (HloOp τ sig (Elt F)) :=
  [ unary main_arg27 main_v46 (broadcastInDim S1x32 ![1] bcast_S32_S1x32_1 : (⟨S32, .f32⟩ : BufTy).Contents (Elt F) → (⟨S1x32, .f32⟩ : BufTy).Contents (Elt F)),
    unary main_v46 main_v47 (broadcastInDim S524288x32 ![0, 1] bcast_S1x32_S524288x32_0_1 : (⟨S1x32, .f32⟩ : BufTy).Contents (Elt F) → (⟨S524288x32, .f32⟩ : BufTy).Contents (Elt F)),
    binary main_v45 main_v47 main_v48 (mulf : (⟨S524288x32, .f32⟩ : BufTy).Contents (Elt F) → (⟨S524288x32, .f32⟩ : BufTy).Contents (Elt F) → (⟨S524288x32, .f32⟩ : BufTy).Contents (Elt F)),
    unary main_arg28 main_v49 (broadcastInDim S1x32 ![1] bcast_S32_S1x32_1 : (⟨S32, .f32⟩ : BufTy).Contents (Elt F) → (⟨S1x32, .f32⟩ : BufTy).Contents (Elt F)),
    unary main_v49 main_v50 (broadcastInDim S524288x32 ![0, 1] bcast_S1x32_S524288x32_0_1 : (⟨S1x32, .f32⟩ : BufTy).Contents (Elt F) → (⟨S524288x32, .f32⟩ : BufTy).Contents (Elt F)),
    binary main_v48 main_v50 main_v51 (addf : (⟨S524288x32, .f32⟩ : BufTy).Contents (Elt F) → (⟨S524288x32, .f32⟩ : BufTy).Contents (Elt F) → (⟨S524288x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S524288x32, .f32⟩) main_call1_v0) (broadcastInDim S524288x32 ![] bcast_S_S524288x32),
    TRef.binary (TRef.of (T := ⟨S524288x32, .f32⟩) main_v51) (TRef.of (T := ⟨S524288x32, .f32⟩) main_call1_v0) (TRef.of (T := ⟨S524288x32, .f32⟩) main_v52) maximumf,
    binary main_v52 main_arg29 main_v53 ((fun l r => Host.dotGeneral dot_S524288x32_S32x16_S524288x16_1_0_0_1_n_n none l r) : (⟨S524288x32, .f32⟩ : BufTy).Contents (Elt F) → (⟨S32x16, .f32⟩ : BufTy).Contents (Elt F) → (⟨S524288x16, .f32⟩ : BufTy).Contents (Elt F)),
    unary main_arg30 main_v54 (broadcastInDim S1x16 ![1] bcast_S16_S1x16_1 : (⟨S16, .f32⟩ : BufTy).Contents (Elt F) → (⟨S1x16, .f32⟩ : BufTy).Contents (Elt F)),
    unary main_v54 main_v55 (broadcastInDim S524288x16 ![0, 1] bcast_S1x16_S524288x16_0_1 : (⟨S1x16, .f32⟩ : BufTy).Contents (Elt F) → (⟨S524288x16, .f32⟩ : BufTy).Contents (Elt F)),
    binary main_v53 main_v55 main_v56 (addf : (⟨S524288x16, .f32⟩ : BufTy).Contents (Elt F) → (⟨S524288x16, .f32⟩ : BufTy).Contents (Elt F) → (⟨S524288x16, .f32⟩ : BufTy).Contents (Elt F)),
    binary main_arg0 main_arg3 main_v57 ((fun l r => Host.dotGeneral dot_S524288x128_S128x64_S524288x64_1_0_0_1_n_n none l r) : (⟨S524288x128, .f32⟩ : BufTy).Contents (Elt F) → (⟨S128x64, .f32⟩ : BufTy).Contents (Elt F) → (⟨S524288x64, .f32⟩ : BufTy).Contents (Elt F)) ]

/-- The buffers these operations write. -/
abbrev s04_W : List (Ref sig .tc) := [main_v46, main_v47, main_v48, main_v49, main_v50, main_v51, main_call1_cst, main_call1_v0, main_v52, main_v53, main_v54, main_v55, main_v56, main_v57]
theorem s04_writes : (s04 : List (HloOp τ sig (Elt F))).Forall fun op => op.writes ⊆ (s04_W.map (Proc.devRef (τ := τ) .tc)).toFinset := by
  stretch_writes s04
/-- A buffer these operations do not write keeps its contents through them. -/
theorem s04_keep (W : Valuation τ sig (Elt F)) (r : Ref sig .tc) (h : r ∉ s04_W) :
    after (s04 (F := F)) W (Proc.devRef .tc r) = W (Proc.devRef .tc r) :=
  after_of_writes_sub s04 W s04_writes h

theorem s04_main_v56 (W : Valuation τ sig (Elt F)) (x0 : (⟨S524288x128, .f32⟩ : BufTy).Contents (Elt F)) (x1 : (⟨S524288x6, .f32⟩ : BufTy).Contents (Elt F)) (x2 : (⟨S524288x1, .f32⟩ : BufTy).Contents (Elt F)) (x23 : (⟨S135x64, .f32⟩ : BufTy).Contents (Elt F)) (x24 : (⟨S64, .f32⟩ : BufTy).Contents (Elt F)) (x25 : (⟨S64, .f32⟩ : BufTy).Contents (Elt F)) (x26 : (⟨S64x32, .f32⟩ : BufTy).Contents (Elt F)) (x27 : (⟨S32, .f32⟩ : BufTy).Contents (Elt F)) (x28 : (⟨S32, .f32⟩ : BufTy).Contents (Elt F)) (x29 : (⟨S32x16, .f32⟩ : BufTy).Contents (Elt F)) (x30 : (⟨S16, .f32⟩ : BufTy).Contents (Elt F))
    (h_main_arg27 : W (no_index (Proc.devRef .tc main_arg27)) = x27)
    (h_main_arg28 : W (no_index (Proc.devRef .tc main_arg28)) = x28)
    (h_main_arg29 : W (no_index (Proc.devRef .tc main_arg29)) = x29)
    (h_main_arg30 : W (no_index (Proc.devRef .tc main_arg30)) = x30)
    (h_main_v45 : W (no_index (Proc.devRef .tc main_v45)) = val_main_v45 (F := F) x0 x1 x2 x23 x24 x25 x26)
    : after (s04 (F := F)) W (Proc.devRef .tc main_v56) = val_main_v56 (F := F) x0 x1 x2 x23 x24 x25 x26 x27 x28 x29 x30 := by
  stretch_read s04

theorem s04_main_v57 (W : Valuation τ sig (Elt F)) (x0 : (⟨S524288x128, .f32⟩ : BufTy).Contents (Elt F)) (x3 : (⟨S128x64, .f32⟩ : BufTy).Contents (Elt F))
    (h_main_arg0 : W (no_index (Proc.devRef .tc main_arg0)) = x0)
    (h_main_arg3 : W (no_index (Proc.devRef .tc main_arg3)) = x3)
    : after (s04 (F := F)) W (Proc.devRef .tc main_v57) = val_main_v57 (F := F) x0 x3 := by
  stretch_read s04

end Cert.ReferenceIdeal.RunS

end
-- ==== Proof.RefStretch05.lean ====
/-
  Operations 72 to 94 of the reference program's @main (of its 273, counting from 0), as a list of their own, and what the
  list leaves in each buffer that a later operation reads: its val_ term of @main's arguments, given that the buffers the list
  reads hold theirs. One statement per buffer; each is proved by the one tactic that reads a list of operations at a buffer.
-/
import proofs.«104010_j23570780520494_2_alg».proof.Proof.RefReadP
import proofs.«104010_j23570780520494_2_alg».proof.Proof.RefStretchLib

noncomputable section

namespace Cert.ReferenceIdeal.RunS

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

attribute [local congr] Cert.KernelIdeal.KWin.cat2_congr Cert.KernelIdeal.KWin.cat3_congr

/-- Operations 72 to 94 of @main, in order (copied from the list of all of them). -/
def s05 : List (HloOp τ sig (Elt F)) :=
  [ nullary main_cst_9 (constant S_ .f32 0x00000000#32),
    binary main_v57 main_cst_9 main_v58 ((fun x v => Host.reduceAdd x v reducesTo_S524288x64_S524288_d1 h_S_) : (⟨S524288x64, .f32⟩ : BufTy).Contents (Elt F) → (⟨S_, .f32⟩ : BufTy).Contents (Elt F) → (⟨S524288, .f32⟩ : BufTy).Contents (Elt F)),
    unary main_v58 main_v59 (broadcastInDim S524288x1 ![0] bcast_S524288_S524288x1_0 : (⟨S524288, .f32⟩ : BufTy).Contents (Elt F) → (⟨S524288x1, .f32⟩ : BufTy).Contents (Elt F)),
    nullary main_cst_10 (constant S_ .f32 0x42800000#32),
    unary main_cst_10 main_v60 (broadcastInDim S524288x1 ![] bcast_S_S524288x1 : (⟨S_, .f32⟩ : BufTy).Contents (Elt F) → (⟨S524288x1, .f32⟩ : BufTy).Contents (Elt F)),
    binary main_v59 main_v60 main_v61 (Host.divf : (⟨S524288x1, .f32⟩ : BufTy).Contents (Elt F) → (⟨S524288x1, .f32⟩ : BufTy).Contents (Elt F) → (⟨S524288x1, .f32⟩ : BufTy).Contents (Elt F)),
    unary main_v61 main_v62 (broadcastInDim S524288x64 ![0, 1] bcast_S524288x1_S524288x64_0_1 : (⟨S524288x1, .f32⟩ : BufTy).Contents (Elt F) → (⟨S524288x64, .f32⟩ : BufTy).Contents (Elt F)),
    binary main_v57 main_v62 main_v63 (subf : (⟨S524288x64, .f32⟩ : BufTy).Contents (Elt F) → (⟨S524288x64, .f32⟩ : BufTy).Contents (Elt F) → (⟨S524288x64, .f32⟩ : BufTy).Contents (Elt F)),
    binary main_v63 main_v63 main_v64 (mulf : (⟨S524288x64, .f32⟩ : BufTy).Contents (Elt F) → (⟨S524288x64, .f32⟩ : BufTy).Contents (Elt F) → (⟨S524288x64, .f32⟩ : BufTy).Contents (Elt F)),
    nullary main_cst_11 (constant S_ .f32 0x00000000#32),
    binary main_v64 main_cst_11 main_v65 ((fun x v => Host.reduceAdd x v reducesTo_S524288x64_S524288_d1 h_S_) : (⟨S524288x64, .f32⟩ : BufTy).Contents (Elt F) → (⟨S_, .f32⟩ : BufTy).Contents (Elt F) → (⟨S524288, .f32⟩ : BufTy).Contents (Elt F)),
    unary main_v65 main_v66 (broadcastInDim S524288x1 ![0] bcast_S524288_S524288x1_0 : (⟨S524288, .f32⟩ : BufTy).Contents (Elt F) → (⟨S524288x1, .f32⟩ : BufTy).Contents (Elt F)),
    nullary main_cst_12 (constant S_ .f32 0x42800000#32),
    unary main_cst_12 main_v67 (broadcastInDim S524288x1 ![] bcast_S_S524288x1 : (⟨S_, .f32⟩ : BufTy).Contents (Elt F) → (⟨S524288x1, .f32⟩ : BufTy).Contents (Elt F)),
    binary main_v66 main_v67 main_v68 (Host.divf : (⟨S524288x1, .f32⟩ : BufTy).Contents (Elt F) → (⟨S524288x1, .f32⟩ : BufTy).Contents (Elt F) → (⟨S524288x1, .f32⟩ : BufTy).Contents (Elt F)),
    unary main_v61 main_v69 (broadcastInDim S524288x64 ![0, 1] bcast_S524288x1_S524288x64_0_1 : (⟨S524288x1, .f32⟩ : BufTy).Contents (Elt F) → (⟨S524288x64, .f32⟩ : BufTy).Contents (Elt F)),
    binary main_v57 main_v69 main_v70 (subf : (⟨S524288x64, .f32⟩ : BufTy).Contents (Elt F) → (⟨S524288x64, .f32⟩ : BufTy).Contents (Elt F) → (⟨S524288x64, .f32⟩ : BufTy).Contents (Elt F)),
    nullary main_cst_13 (constant S_ .f32 0x3727C5AC#32),
    unary main_cst_13 main_v71 (broadcastInDim S524288x1 ![] bcast_S_S524288x1 : (⟨S_, .f32⟩ : BufTy).Contents (Elt F) → (⟨S524288x1, .f32⟩ : BufTy).Contents (Elt F)),
    binary main_v68 main_v71 main_v72 (addf : (⟨S524288x1, .f32⟩ : BufTy).Contents (Elt F) → (⟨S524288x1, .f32⟩ : BufTy).Contents (Elt F) → (⟨S524288x1, .f32⟩ : BufTy).Contents (Elt F)),
    unary main_v72 main_v73 (Host.rsqrt : (⟨S524288x1, .f32⟩ : BufTy).Contents (Elt F) → (⟨S524288x1, .f32⟩ : BufTy).Contents (Elt F)),
    unary main_v73 main_v74 (broadcastInDim S524288x64 ![0, 1] bcast_S524288x1_S524288x64_0_1 : (⟨S524288x1, .f32⟩ : BufTy).Contents (Elt F) → (⟨S524288x64, .f32⟩ : BufTy).Contents (Elt F)),
    binary main_v70 main_v74 main_v75 (mulf : (⟨S524288x64, .f32⟩ : BufTy).Contents (Elt F) → (⟨S524288x64, .f32⟩ : BufTy).Contents (Elt F) → (⟨S524288x64, .f32⟩ : BufTy).Contents (Elt F)) ]

/-- The buffers these operations write. -/
abbrev s05_W : List (Ref sig .tc) := [main_cst_9, main_v58, main_v59, main_cst_10, main_v60, main_v61, main_v62, main_v63, main_v64, main_cst_11, main_v65, main_v66, main_cst_12, main_v67, main_v68, main_v69, main_v70, main_cst_13, main_v71, main_v72, main_v73, main_v74, main_v75]
theorem s05_writes : (s05 : List (HloOp τ sig (Elt F))).Forall fun op => op.writes ⊆ (s05_W.map (Proc.devRef (τ := τ) .tc)).toFinset := by
  stretch_writes s05
/-- A buffer these operations do not write keeps its contents through them. -/
theorem s05_keep (W : Valuation τ sig (Elt F)) (r : Ref sig .tc) (h : r ∉ s05_W) :
    after (s05 (F := F)) W (Proc.devRef .tc r) = W (Proc.devRef .tc r) :=
  after_of_writes_sub s05 W s05_writes h

theorem s05_main_v75 (W : Valuation τ sig (Elt F)) (x0 : (⟨S524288x128, .f32⟩ : BufTy).Contents (Elt F)) (x3 : (⟨S128x64, .f32⟩ : BufTy).Contents (Elt F))
    (h_main_v57 : W (no_index (Proc.devRef .tc main_v57)) = val_main_v57 (F := F) x0 x3)
    : after (s05 (F := F)) W (Proc.devRef .tc main_v75) = val_main_v75 (F := F) x0 x3 := by
  stretch_read s05

end Cert.ReferenceIdeal.RunS

end
-- ==== Proof.RefStretch06.lean ====
/-
  Operations 95 to 108 of the reference program's @main (of its 273, counting from 0), as a list of their own, and what the
  list leaves in each buffer that a later operation reads: its val_ term of @main's arguments, given that the buffers the list
  reads hold theirs. One statement per buffer; each is proved by the one tactic that reads a list of operations at a buffer.
-/
import proofs.«104010_j23570780520494_2_alg».proof.Proof.RefReadP
import proofs.«104010_j23570780520494_2_alg».proof.Proof.RefStretchLib

noncomputable section

namespace Cert.ReferenceIdeal.RunS

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

attribute [local congr] Cert.KernelIdeal.KWin.cat2_congr Cert.KernelIdeal.KWin.cat3_congr

/-- Operations 95 to 108 of @main, in order (copied from the list of all of them). -/
def s06 : List (HloOp τ sig (Elt F)) :=
  [ unary main_arg4 main_v76 (broadcastInDim S1x64 ![1] bcast_S64_S1x64_1 : (⟨S64, .f32⟩ : BufTy).Contents (Elt F) → (⟨S1x64, .f32⟩ : BufTy).Contents (Elt F)),
    unary main_v76 main_v77 (broadcastInDim S524288x64 ![0, 1] bcast_S1x64_S524288x64_0_1 : (⟨S1x64, .f32⟩ : BufTy).Contents (Elt F) → (⟨S524288x64, .f32⟩ : BufTy).Contents (Elt F)),
    binary main_v75 main_v77 main_v78 (mulf : (⟨S524288x64, .f32⟩ : BufTy).Contents (Elt F) → (⟨S524288x64, .f32⟩ : BufTy).Contents (Elt F) → (⟨S524288x64, .f32⟩ : BufTy).Contents (Elt F)),
    unary main_arg5 main_v79 (broadcastInDim S1x64 ![1] bcast_S64_S1x64_1 : (⟨S64, .f32⟩ : BufTy).Contents (Elt F) → (⟨S1x64, .f32⟩ : BufTy).Contents (Elt F)),
    unary main_v79 main_v80 (broadcastInDim S524288x64 ![0, 1] bcast_S1x64_S524288x64_0_1 : (⟨S1x64, .f32⟩ : BufTy).Contents (Elt F) → (⟨S524288x64, .f32⟩ : BufTy).Contents (Elt F)),
    binary main_v78 main_v80 main_v81 (addf : (⟨S524288x64, .f32⟩ : BufTy).Contents (Elt F) → (⟨S524288x64, .f32⟩ : BufTy).Contents (Elt F) → (⟨S524288x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S524288x64, .f32⟩) main_call2_v0) (broadcastInDim S524288x64 ![] bcast_S_S524288x64),
    TRef.binary (TRef.of (T := ⟨S524288x64, .f32⟩) main_v81) (TRef.of (T := ⟨S524288x64, .f32⟩) main_call2_v0) (TRef.of (T := ⟨S524288x64, .f32⟩) main_v82) maximumf,
    binary main_v82 main_arg6 main_v83 ((fun l r => Host.dotGeneral dot_S524288x64_S64x32_S524288x32_1_0_0_1_n_n none l r) : (⟨S524288x64, .f32⟩ : BufTy).Contents (Elt F) → (⟨S64x32, .f32⟩ : BufTy).Contents (Elt F) → (⟨S524288x32, .f32⟩ : BufTy).Contents (Elt F)),
    unary main_arg7 main_v84 (broadcastInDim S1x32 ![1] bcast_S32_S1x32_1 : (⟨S32, .f32⟩ : BufTy).Contents (Elt F) → (⟨S1x32, .f32⟩ : BufTy).Contents (Elt F)),
    unary main_v84 main_v85 (broadcastInDim S524288x32 ![0, 1] bcast_S1x32_S524288x32_0_1 : (⟨S1x32, .f32⟩ : BufTy).Contents (Elt F) → (⟨S524288x32, .f32⟩ : BufTy).Contents (Elt F)),
    binary main_v83 main_v85 main_v86 (addf : (⟨S524288x32, .f32⟩ : BufTy).Contents (Elt F) → (⟨S524288x32, .f32⟩ : BufTy).Contents (Elt F) → (⟨S524288x32, .f32⟩ : BufTy).Contents (Elt F)),
    binary main_arg1 main_arg8 main_v87 ((fun l r => Host.dotGeneral dot_S524288x6_S6x16_S524288x16_1_0_0_1_n_n none l r) : (⟨S524288x6, .f32⟩ : BufTy).Contents (Elt F) → (⟨S6x16, .f32⟩ : BufTy).Contents (Elt F) → (⟨S524288x16, .f32⟩ : BufTy).Contents (Elt F)) ]

/-- The buffers these operations write. -/
abbrev s06_W : List (Ref sig .tc) := [main_v76, main_v77, main_v78, main_v79, main_v80, main_v81, main_call2_cst, main_call2_v0, main_v82, main_v83, main_v84, main_v85, main_v86, main_v87]
theorem s06_writes : (s06 : List (HloOp τ sig (Elt F))).Forall fun op => op.writes ⊆ (s06_W.map (Proc.devRef (τ := τ) .tc)).toFinset := by
  stretch_writes s06
/-- A buffer these operations do not write keeps its contents through them. -/
theorem s06_keep (W : Valuation τ sig (Elt F)) (r : Ref sig .tc) (h : r ∉ s06_W) :
    after (s06 (F := F)) W (Proc.devRef .tc r) = W (Proc.devRef .tc r) :=
  after_of_writes_sub s06 W s06_writes h

theorem s06_main_v86 (W : Valuation τ sig (Elt F)) (x0 : (⟨S524288x128, .f32⟩ : BufTy).Contents (Elt F)) (x3 : (⟨S128x64, .f32⟩ : BufTy).Contents (Elt F)) (x4 : (⟨S64, .f32⟩ : BufTy).Contents (Elt F)) (x5 : (⟨S64, .f32⟩ : BufTy).Contents (Elt F)) (x6 : (⟨S64x32, .f32⟩ : BufTy).Contents (Elt F)) (x7 : (⟨S32, .f32⟩ : BufTy).Contents (Elt F))
    (h_main_arg4 : W (no_index (Proc.devRef .tc main_arg4)) = x4)
    (h_main_arg5 : W (no_index (Proc.devRef .tc main_arg5)) = x5)
    (h_main_arg6 : W (no_index (Proc.devRef .tc main_arg6)) = x6)
    (h_main_arg7 : W (no_index (Proc.devRef .tc main_arg7)) = x7)
    (h_main_v75 : W (no_index (Proc.devRef .tc main_v75)) = val_main_v75 (F := F) x0 x3)
    : after (s06 (F := F)) W (Proc.devRef .tc main_v86) = val_main_v86 (F := F) x0 x3 x4 x5 x6 x7 := by
  stretch_read s06

theorem s06_main_v87 (W : Valuation τ sig (Elt F)) (x1 : (⟨S524288x6, .f32⟩ : BufTy).Contents (Elt F)) (x8 : (⟨S6x16, .f32⟩ : BufTy).Contents (Elt F))
    (h_main_arg1 : W (no_index (Proc.devRef .tc main_arg1)) = x1)
    (h_main_arg8 : W (no_index (Proc.devRef .tc main_arg8)) = x8)
    : after (s06 (F := F)) W (Proc.devRef .tc main_v87) = val_main_v87 (F := F) x1 x8 := by
  stretch_read s06

end Cert.ReferenceIdeal.RunS

end
-- ==== Proof.RefStretch07.lean ====
/-
  Operations 109 to 131 of the reference program's @main (of its 273, counting from 0), as a list of their own, and what the
  list leaves in each buffer that a later operation reads: its val_ term of @main's arguments, given that the buffers the list
  reads hold theirs. One statement per buffer; each is proved by the one tactic that reads a list of operations at a buffer.
-/
import proofs.«104010_j23570780520494_2_alg».proof.Proof.RefReadP
import proofs.«104010_j23570780520494_2_alg».proof.Proof.RefStretchLib

noncomputable section

namespace Cert.ReferenceIdeal.RunS

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

attribute [local congr] Cert.KernelIdeal.KWin.cat2_congr Cert.KernelIdeal.KWin.cat3_congr

/-- Operations 109 to 131 of @main, in order (copied from the list of all of them). -/
def s07 : List (HloOp τ sig (Elt F)) :=
  [ nullary main_cst_14 (constant S_ .f32 0x00000000#32),
    binary main_v87 main_cst_14 main_v88 ((fun x v => Host.reduceAdd x v reducesTo_S524288x16_S524288_d1 h_S_) : (⟨S524288x16, .f32⟩ : BufTy).Contents (Elt F) → (⟨S_, .f32⟩ : BufTy).Contents (Elt F) → (⟨S524288, .f32⟩ : BufTy).Contents (Elt F)),
    unary main_v88 main_v89 (broadcastInDim S524288x1 ![0] bcast_S524288_S524288x1_0 : (⟨S524288, .f32⟩ : BufTy).Contents (Elt F) → (⟨S524288x1, .f32⟩ : BufTy).Contents (Elt F)),
    nullary main_cst_15 (constant S_ .f32 0x41800000#32),
    unary main_cst_15 main_v90 (broadcastInDim S524288x1 ![] bcast_S_S524288x1 : (⟨S_, .f32⟩ : BufTy).Contents (Elt F) → (⟨S524288x1, .f32⟩ : BufTy).Contents (Elt F)),
    binary main_v89 main_v90 main_v91 (Host.divf : (⟨S524288x1, .f32⟩ : BufTy).Contents (Elt F) → (⟨S524288x1, .f32⟩ : BufTy).Contents (Elt F) → (⟨S524288x1, .f32⟩ : BufTy).Contents (Elt F)),
    unary main_v91 main_v92 (broadcastInDim S524288x16 ![0, 1] bcast_S524288x1_S524288x16_0_1 : (⟨S524288x1, .f32⟩ : BufTy).Contents (Elt F) → (⟨S524288x16, .f32⟩ : BufTy).Contents (Elt F)),
    binary main_v87 main_v92 main_v93 (subf : (⟨S524288x16, .f32⟩ : BufTy).Contents (Elt F) → (⟨S524288x16, .f32⟩ : BufTy).Contents (Elt F) → (⟨S524288x16, .f32⟩ : BufTy).Contents (Elt F)),
    binary main_v93 main_v93 main_v94 (mulf : (⟨S524288x16, .f32⟩ : BufTy).Contents (Elt F) → (⟨S524288x16, .f32⟩ : BufTy).Contents (Elt F) → (⟨S524288x16, .f32⟩ : BufTy).Contents (Elt F)),
    nullary main_cst_16 (constant S_ .f32 0x00000000#32),
    binary main_v94 main_cst_16 main_v95 ((fun x v => Host.reduceAdd x v reducesTo_S524288x16_S524288_d1 h_S_) : (⟨S524288x16, .f32⟩ : BufTy).Contents (Elt F) → (⟨S_, .f32⟩ : BufTy).Contents (Elt F) → (⟨S524288, .f32⟩ : BufTy).Contents (Elt F)),
    unary main_v95 main_v96 (broadcastInDim S524288x1 ![0] bcast_S524288_S524288x1_0 : (⟨S524288, .f32⟩ : BufTy).Contents (Elt F) → (⟨S524288x1, .f32⟩ : BufTy).Contents (Elt F)),
    nullary main_cst_17 (constant S_ .f32 0x41800000#32),
    unary main_cst_17 main_v97 (broadcastInDim S524288x1 ![] bcast_S_S524288x1 : (⟨S_, .f32⟩ : BufTy).Contents (Elt F) → (⟨S524288x1, .f32⟩ : BufTy).Contents (Elt F)),
    binary main_v96 main_v97 main_v98 (Host.divf : (⟨S524288x1, .f32⟩ : BufTy).Contents (Elt F) → (⟨S524288x1, .f32⟩ : BufTy).Contents (Elt F) → (⟨S524288x1, .f32⟩ : BufTy).Contents (Elt F)),
    unary main_v91 main_v99 (broadcastInDim S524288x16 ![0, 1] bcast_S524288x1_S524288x16_0_1 : (⟨S524288x1, .f32⟩ : BufTy).Contents (Elt F) → (⟨S524288x16, .f32⟩ : BufTy).Contents (Elt F)),
    binary main_v87 main_v99 main_v100 (subf : (⟨S524288x16, .f32⟩ : BufTy).Contents (Elt F) → (⟨S524288x16, .f32⟩ : BufTy).Contents (Elt F) → (⟨S524288x16, .f32⟩ : BufTy).Contents (Elt F)),
    nullary main_cst_18 (constant S_ .f32 0x3727C5AC#32),
    unary main_cst_18 main_v101 (broadcastInDim S524288x1 ![] bcast_S_S524288x1 : (⟨S_, .f32⟩ : BufTy).Contents (Elt F) → (⟨S524288x1, .f32⟩ : BufTy).Contents (Elt F)),
    binary main_v98 main_v101 main_v102 (addf : (⟨S524288x1, .f32⟩ : BufTy).Contents (Elt F) → (⟨S524288x1, .f32⟩ : BufTy).Contents (Elt F) → (⟨S524288x1, .f32⟩ : BufTy).Contents (Elt F)),
    unary main_v102 main_v103 (Host.rsqrt : (⟨S524288x1, .f32⟩ : BufTy).Contents (Elt F) → (⟨S524288x1, .f32⟩ : BufTy).Contents (Elt F)),
    unary main_v103 main_v104 (broadcastInDim S524288x16 ![0, 1] bcast_S524288x1_S524288x16_0_1 : (⟨S524288x1, .f32⟩ : BufTy).Contents (Elt F) → (⟨S524288x16, .f32⟩ : BufTy).Contents (Elt F)),
    binary main_v100 main_v104 main_v105 (mulf : (⟨S524288x16, .f32⟩ : BufTy).Contents (Elt F) → (⟨S524288x16, .f32⟩ : BufTy).Contents (Elt F) → (⟨S524288x16, .f32⟩ : BufTy).Contents (Elt F)) ]

/-- The buffers these operations write. -/
abbrev s07_W : List (Ref sig .tc) := [main_cst_14, main_v88, main_v89, main_cst_15, main_v90, main_v91, main_v92, main_v93, main_v94, main_cst_16, main_v95, main_v96, main_cst_17, main_v97, main_v98, main_v99, main_v100, main_cst_18, main_v101, main_v102, main_v103, main_v104, main_v105]
theorem s07_writes : (s07 : List (HloOp τ sig (Elt F))).Forall fun op => op.writes ⊆ (s07_W.map (Proc.devRef (τ := τ) .tc)).toFinset := by
  stretch_writes s07
/-- A buffer these operations do not write keeps its contents through them. -/
theorem s07_keep (W : Valuation τ sig (Elt F)) (r : Ref sig .tc) (h : r ∉ s07_W) :
    after (s07 (F := F)) W (Proc.devRef .tc r) = W (Proc.devRef .tc r) :=
  after_of_writes_sub s07 W s07_writes h

theorem s07_main_v105 (W : Valuation τ sig (Elt F)) (x1 : (⟨S524288x6, .f32⟩ : BufTy).Contents (Elt F)) (x8 : (⟨S6x16, .f32⟩ : BufTy).Contents (Elt F))
    (h_main_v87 : W (no_index (Proc.devRef .tc main_v87)) = val_main_v87 (F := F) x1 x8)
    : after (s07 (F := F)) W (Proc.devRef .tc main_v105) = val_main_v105 (F := F) x1 x8 := by
  stretch_read s07

end Cert.ReferenceIdeal.RunS

end
-- ==== Proof.RefStretch08.lean ====
/-
  Operations 132 to 145 of the reference program's @main (of its 273, counting from 0), as a list of their own, and what the
  list leaves in each buffer that a later operation reads: its val_ term of @main's arguments, given that the buffers the list
  reads hold theirs. One statement per buffer; each is proved by the one tactic that reads a list of operations at a buffer.
-/
import proofs.«104010_j23570780520494_2_alg».proof.Proof.RefReadP
import proofs.«104010_j23570780520494_2_alg».proof.Proof.RefStretchLib

noncomputable section

namespace Cert.ReferenceIdeal.RunS

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

attribute [local congr] Cert.KernelIdeal.KWin.cat2_congr Cert.KernelIdeal.KWin.cat3_congr

/-- Operations 132 to 145 of @main, in order (copied from the list of all of them). -/
def s08 : List (HloOp τ sig (Elt F)) :=
  [ unary main_arg9 main_v106 (broadcastInDim S1x16 ![1] bcast_S16_S1x16_1 : (⟨S16, .f32⟩ : BufTy).Contents (Elt F) → (⟨S1x16, .f32⟩ : BufTy).Contents (Elt F)),
    unary main_v106 main_v107 (broadcastInDim S524288x16 ![0, 1] bcast_S1x16_S524288x16_0_1 : (⟨S1x16, .f32⟩ : BufTy).Contents (Elt F) → (⟨S524288x16, .f32⟩ : BufTy).Contents (Elt F)),
    binary main_v105 main_v107 main_v108 (mulf : (⟨S524288x16, .f32⟩ : BufTy).Contents (Elt F) → (⟨S524288x16, .f32⟩ : BufTy).Contents (Elt F) → (⟨S524288x16, .f32⟩ : BufTy).Contents (Elt F)),
    unary main_arg10 main_v109 (broadcastInDim S1x16 ![1] bcast_S16_S1x16_1 : (⟨S16, .f32⟩ : BufTy).Contents (Elt F) → (⟨S1x16, .f32⟩ : BufTy).Contents (Elt F)),
    unary main_v109 main_v110 (broadcastInDim S524288x16 ![0, 1] bcast_S1x16_S524288x16_0_1 : (⟨S1x16, .f32⟩ : BufTy).Contents (Elt F) → (⟨S524288x16, .f32⟩ : BufTy).Contents (Elt F)),
    binary main_v108 main_v110 main_v111 (addf : (⟨S524288x16, .f32⟩ : BufTy).Contents (Elt F) → (⟨S524288x16, .f32⟩ : BufTy).Contents (Elt F) → (⟨S524288x16, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S524288x16, .f32⟩) main_call3_v0) (broadcastInDim S524288x16 ![] bcast_S_S524288x16),
    TRef.binary (TRef.of (T := ⟨S524288x16, .f32⟩) main_v111) (TRef.of (T := ⟨S524288x16, .f32⟩) main_call3_v0) (TRef.of (T := ⟨S524288x16, .f32⟩) main_v112) maximumf,
    binary main_v112 main_arg11 main_v113 ((fun l r => Host.dotGeneral dot_S524288x16_S16x32_S524288x32_1_0_0_1_n_n none l r) : (⟨S524288x16, .f32⟩ : BufTy).Contents (Elt F) → (⟨S16x32, .f32⟩ : BufTy).Contents (Elt F) → (⟨S524288x32, .f32⟩ : BufTy).Contents (Elt F)),
    unary main_arg12 main_v114 (broadcastInDim S1x32 ![1] bcast_S32_S1x32_1 : (⟨S32, .f32⟩ : BufTy).Contents (Elt F) → (⟨S1x32, .f32⟩ : BufTy).Contents (Elt F)),
    unary main_v114 main_v115 (broadcastInDim S524288x32 ![0, 1] bcast_S1x32_S524288x32_0_1 : (⟨S1x32, .f32⟩ : BufTy).Contents (Elt F) → (⟨S524288x32, .f32⟩ : BufTy).Contents (Elt F)),
    binary main_v113 main_v115 main_v116 (addf : (⟨S524288x32, .f32⟩ : BufTy).Contents (Elt F) → (⟨S524288x32, .f32⟩ : BufTy).Contents (Elt F) → (⟨S524288x32, .f32⟩ : BufTy).Contents (Elt F)),
    binary main_arg2 main_arg13 main_v117 ((fun l r => Host.dotGeneral dot_S524288x1_S1x16_S524288x16_1_0_0_1_n_n none l r) : (⟨S524288x1, .f32⟩ : BufTy).Contents (Elt F) → (⟨S1x16, .f32⟩ : BufTy).Contents (Elt F) → (⟨S524288x16, .f32⟩ : BufTy).Contents (Elt F)) ]

/-- The buffers these operations write. -/
abbrev s08_W : List (Ref sig .tc) := [main_v106, main_v107, main_v108, main_v109, main_v110, main_v111, main_call3_cst, main_call3_v0, main_v112, main_v113, main_v114, main_v115, main_v116, main_v117]
theorem s08_writes : (s08 : List (HloOp τ sig (Elt F))).Forall fun op => op.writes ⊆ (s08_W.map (Proc.devRef (τ := τ) .tc)).toFinset := by
  stretch_writes s08
/-- A buffer these operations do not write keeps its contents through them. -/
theorem s08_keep (W : Valuation τ sig (Elt F)) (r : Ref sig .tc) (h : r ∉ s08_W) :
    after (s08 (F := F)) W (Proc.devRef .tc r) = W (Proc.devRef .tc r) :=
  after_of_writes_sub s08 W s08_writes h

theorem s08_main_v116 (W : Valuation τ sig (Elt F)) (x1 : (⟨S524288x6, .f32⟩ : BufTy).Contents (Elt F)) (x8 : (⟨S6x16, .f32⟩ : BufTy).Contents (Elt F)) (x9 : (⟨S16, .f32⟩ : BufTy).Contents (Elt F)) (x10 : (⟨S16, .f32⟩ : BufTy).Contents (Elt F)) (x11 : (⟨S16x32, .f32⟩ : BufTy).Contents (Elt F)) (x12 : (⟨S32, .f32⟩ : BufTy).Contents (Elt F))
    (h_main_arg9 : W (no_index (Proc.devRef .tc main_arg9)) = x9)
    (h_main_arg10 : W (no_index (Proc.devRef .tc main_arg10)) = x10)
    (h_main_arg11 : W (no_index (Proc.devRef .tc main_arg11)) = x11)
    (h_main_arg12 : W (no_index (Proc.devRef .tc main_arg12)) = x12)
    (h_main_v105 : W (no_index (Proc.devRef .tc main_v105)) = val_main_v105 (F := F) x1 x8)
    : after (s08 (F := F)) W (Proc.devRef .tc main_v116) = val_main_v116 (F := F) x1 x8 x9 x10 x11 x12 := by
  stretch_read s08

theorem s08_main_v117 (W : Valuation τ sig (Elt F)) (x2 : (⟨S524288x1, .f32⟩ : BufTy).Contents (Elt F)) (x13 : (⟨S1x16, .f32⟩ : BufTy).Contents (Elt F))
    (h_main_arg2 : W (no_index (Proc.devRef .tc main_arg2)) = x2)
    (h_main_arg13 : W (no_index (Proc.devRef .tc main_arg13)) = x13)
    : after (s08 (F := F)) W (Proc.devRef .tc main_v117) = val_main_v117 (F := F) x2 x13 := by
  stretch_read s08

end Cert.ReferenceIdeal.RunS

end
-- ==== Proof.RefStretch09.lean ====
/-
  Operations 146 to 168 of the reference program's @main (of its 273, counting from 0), as a list of their own, and what the
  list leaves in each buffer that a later operation reads: its val_ term of @main's arguments, given that the buffers the list
  reads hold theirs. One statement per buffer; each is proved by the one tactic that reads a list of operations at a buffer.
-/
import proofs.«104010_j23570780520494_2_alg».proof.Proof.RefReadP
import proofs.«104010_j23570780520494_2_alg».proof.Proof.RefStretchLib

noncomputable section

namespace Cert.ReferenceIdeal.RunS

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

attribute [local congr] Cert.KernelIdeal.KWin.cat2_congr Cert.KernelIdeal.KWin.cat3_congr

/-- Operations 146 to 168 of @main, in order (copied from the list of all of them). -/
def s09 : List (HloOp τ sig (Elt F)) :=
  [ nullary main_cst_19 (constant S_ .f32 0x00000000#32),
    binary main_v117 main_cst_19 main_v118 ((fun x v => Host.reduceAdd x v reducesTo_S524288x16_S524288_d1 h_S_) : (⟨S524288x16, .f32⟩ : BufTy).Contents (Elt F) → (⟨S_, .f32⟩ : BufTy).Contents (Elt F) → (⟨S524288, .f32⟩ : BufTy).Contents (Elt F)),
    unary main_v118 main_v119 (broadcastInDim S524288x1 ![0] bcast_S524288_S524288x1_0 : (⟨S524288, .f32⟩ : BufTy).Contents (Elt F) → (⟨S524288x1, .f32⟩ : BufTy).Contents (Elt F)),
    nullary main_cst_20 (constant S_ .f32 0x41800000#32),
    unary main_cst_20 main_v120 (broadcastInDim S524288x1 ![] bcast_S_S524288x1 : (⟨S_, .f32⟩ : BufTy).Contents (Elt F) → (⟨S524288x1, .f32⟩ : BufTy).Contents (Elt F)),
    binary main_v119 main_v120 main_v121 (Host.divf : (⟨S524288x1, .f32⟩ : BufTy).Contents (Elt F) → (⟨S524288x1, .f32⟩ : BufTy).Contents (Elt F) → (⟨S524288x1, .f32⟩ : BufTy).Contents (Elt F)),
    unary main_v121 main_v122 (broadcastInDim S524288x16 ![0, 1] bcast_S524288x1_S524288x16_0_1 : (⟨S524288x1, .f32⟩ : BufTy).Contents (Elt F) → (⟨S524288x16, .f32⟩ : BufTy).Contents (Elt F)),
    binary main_v117 main_v122 main_v123 (subf : (⟨S524288x16, .f32⟩ : BufTy).Contents (Elt F) → (⟨S524288x16, .f32⟩ : BufTy).Contents (Elt F) → (⟨S524288x16, .f32⟩ : BufTy).Contents (Elt F)),
    binary main_v123 main_v123 main_v124 (mulf : (⟨S524288x16, .f32⟩ : BufTy).Contents (Elt F) → (⟨S524288x16, .f32⟩ : BufTy).Contents (Elt F) → (⟨S524288x16, .f32⟩ : BufTy).Contents (Elt F)),
    nullary main_cst_21 (constant S_ .f32 0x00000000#32),
    binary main_v124 main_cst_21 main_v125 ((fun x v => Host.reduceAdd x v reducesTo_S524288x16_S524288_d1 h_S_) : (⟨S524288x16, .f32⟩ : BufTy).Contents (Elt F) → (⟨S_, .f32⟩ : BufTy).Contents (Elt F) → (⟨S524288, .f32⟩ : BufTy).Contents (Elt F)),
    unary main_v125 main_v126 (broadcastInDim S524288x1 ![0] bcast_S524288_S524288x1_0 : (⟨S524288, .f32⟩ : BufTy).Contents (Elt F) → (⟨S524288x1, .f32⟩ : BufTy).Contents (Elt F)),
    nullary main_cst_22 (constant S_ .f32 0x41800000#32),
    unary main_cst_22 main_v127 (broadcastInDim S524288x1 ![] bcast_S_S524288x1 : (⟨S_, .f32⟩ : BufTy).Contents (Elt F) → (⟨S524288x1, .f32⟩ : BufTy).Contents (Elt F)),
    binary main_v126 main_v127 main_v128 (Host.divf : (⟨S524288x1, .f32⟩ : BufTy).Contents (Elt F) → (⟨S524288x1, .f32⟩ : BufTy).Contents (Elt F) → (⟨S524288x1, .f32⟩ : BufTy).Contents (Elt F)),
    unary main_v121 main_v129 (broadcastInDim S524288x16 ![0, 1] bcast_S524288x1_S524288x16_0_1 : (⟨S524288x1, .f32⟩ : BufTy).Contents (Elt F) → (⟨S524288x16, .f32⟩ : BufTy).Contents (Elt F)),
    binary main_v117 main_v129 main_v130 (subf : (⟨S524288x16, .f32⟩ : BufTy).Contents (Elt F) → (⟨S524288x16, .f32⟩ : BufTy).Contents (Elt F) → (⟨S524288x16, .f32⟩ : BufTy).Contents (Elt F)),
    nullary main_cst_23 (constant S_ .f32 0x3727C5AC#32),
    unary main_cst_23 main_v131 (broadcastInDim S524288x1 ![] bcast_S_S524288x1 : (⟨S_, .f32⟩ : BufTy).Contents (Elt F) → (⟨S524288x1, .f32⟩ : BufTy).Contents (Elt F)),
    binary main_v128 main_v131 main_v132 (addf : (⟨S524288x1, .f32⟩ : BufTy).Contents (Elt F) → (⟨S524288x1, .f32⟩ : BufTy).Contents (Elt F) → (⟨S524288x1, .f32⟩ : BufTy).Contents (Elt F)),
    unary main_v132 main_v133 (Host.rsqrt : (⟨S524288x1, .f32⟩ : BufTy).Contents (Elt F) → (⟨S524288x1, .f32⟩ : BufTy).Contents (Elt F)),
    unary main_v133 main_v134 (broadcastInDim S524288x16 ![0, 1] bcast_S524288x1_S524288x16_0_1 : (⟨S524288x1, .f32⟩ : BufTy).Contents (Elt F) → (⟨S524288x16, .f32⟩ : BufTy).Contents (Elt F)),
    binary main_v130 main_v134 main_v135 (mulf : (⟨S524288x16, .f32⟩ : BufTy).Contents (Elt F) → (⟨S524288x16, .f32⟩ : BufTy).Contents (Elt F) → (⟨S524288x16, .f32⟩ : BufTy).Contents (Elt F)) ]

/-- The buffers these operations write. -/
abbrev s09_W : List (Ref sig .tc) := [main_cst_19, main_v118, main_v119, main_cst_20, main_v120, main_v121, main_v122, main_v123, main_v124, main_cst_21, main_v125, main_v126, main_cst_22, main_v127, main_v128, main_v129, main_v130, main_cst_23, main_v131, main_v132, main_v133, main_v134, main_v135]
theorem s09_writes : (s09 : List (HloOp τ sig (Elt F))).Forall fun op => op.writes ⊆ (s09_W.map (Proc.devRef (τ := τ) .tc)).toFinset := by
  stretch_writes s09
/-- A buffer these operations do not write keeps its contents through them. -/
theorem s09_keep (W : Valuation τ sig (Elt F)) (r : Ref sig .tc) (h : r ∉ s09_W) :
    after (s09 (F := F)) W (Proc.devRef .tc r) = W (Proc.devRef .tc r) :=
  after_of_writes_sub s09 W s09_writes h

theorem s09_main_v135 (W : Valuation τ sig (Elt F)) (x2 : (⟨S524288x1, .f32⟩ : BufTy).Contents (Elt F)) (x13 : (⟨S1x16, .f32⟩ : BufTy).Contents (Elt F))
    (h_main_v117 : W (no_index (Proc.devRef .tc main_v117)) = val_main_v117 (F := F) x2 x13)
    : after (s09 (F := F)) W (Proc.devRef .tc main_v135) = val_main_v135 (F := F) x2 x13 := by
  stretch_read s09

end Cert.ReferenceIdeal.RunS

end
-- ==== Proof.RefStretch10.lean ====
/-
  Operations 169 to 182 of the reference program's @main (of its 273, counting from 0), as a list of their own, and what the
  list leaves in each buffer that a later operation reads: its val_ term of @main's arguments, given that the buffers the list
  reads hold theirs. One statement per buffer; each is proved by the one tactic that reads a list of operations at a buffer.
-/
import proofs.«104010_j23570780520494_2_alg».proof.Proof.RefReadP
import proofs.«104010_j23570780520494_2_alg».proof.Proof.RefStretchLib

noncomputable section

namespace Cert.ReferenceIdeal.RunS

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

attribute [local congr] Cert.KernelIdeal.KWin.cat2_congr Cert.KernelIdeal.KWin.cat3_congr

/-- Operations 169 to 182 of @main, in order (copied from the list of all of them). -/
def s10 : List (HloOp τ sig (Elt F)) :=
  [ unary main_arg14 main_v136 (broadcastInDim S1x16 ![1] bcast_S16_S1x16_1 : (⟨S16, .f32⟩ : BufTy).Contents (Elt F) → (⟨S1x16, .f32⟩ : BufTy).Contents (Elt F)),
    unary main_v136 main_v137 (broadcastInDim S524288x16 ![0, 1] bcast_S1x16_S524288x16_0_1 : (⟨S1x16, .f32⟩ : BufTy).Contents (Elt F) → (⟨S524288x16, .f32⟩ : BufTy).Contents (Elt F)),
    binary main_v135 main_v137 main_v138 (mulf : (⟨S524288x16, .f32⟩ : BufTy).Contents (Elt F) → (⟨S524288x16, .f32⟩ : BufTy).Contents (Elt F) → (⟨S524288x16, .f32⟩ : BufTy).Contents (Elt F)),
    unary main_arg15 main_v139 (broadcastInDim S1x16 ![1] bcast_S16_S1x16_1 : (⟨S16, .f32⟩ : BufTy).Contents (Elt F) → (⟨S1x16, .f32⟩ : BufTy).Contents (Elt F)),
    unary main_v139 main_v140 (broadcastInDim S524288x16 ![0, 1] bcast_S1x16_S524288x16_0_1 : (⟨S1x16, .f32⟩ : BufTy).Contents (Elt F) → (⟨S524288x16, .f32⟩ : BufTy).Contents (Elt F)),
    binary main_v138 main_v140 main_v141 (addf : (⟨S524288x16, .f32⟩ : BufTy).Contents (Elt F) → (⟨S524288x16, .f32⟩ : BufTy).Contents (Elt F) → (⟨S524288x16, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S524288x16, .f32⟩) main_call4_v0) (broadcastInDim S524288x16 ![] bcast_S_S524288x16),
    TRef.binary (TRef.of (T := ⟨S524288x16, .f32⟩) main_v141) (TRef.of (T := ⟨S524288x16, .f32⟩) main_call4_v0) (TRef.of (T := ⟨S524288x16, .f32⟩) main_v142) maximumf,
    binary main_v142 main_arg16 main_v143 ((fun l r => Host.dotGeneral dot_S524288x16_S16x32_S524288x32_1_0_0_1_n_n none l r) : (⟨S524288x16, .f32⟩ : BufTy).Contents (Elt F) → (⟨S16x32, .f32⟩ : BufTy).Contents (Elt F) → (⟨S524288x32, .f32⟩ : BufTy).Contents (Elt F)),
    unary main_arg17 main_v144 (broadcastInDim S1x32 ![1] bcast_S32_S1x32_1 : (⟨S32, .f32⟩ : BufTy).Contents (Elt F) → (⟨S1x32, .f32⟩ : BufTy).Contents (Elt F)),
    unary main_v144 main_v145 (broadcastInDim S524288x32 ![0, 1] bcast_S1x32_S524288x32_0_1 : (⟨S1x32, .f32⟩ : BufTy).Contents (Elt F) → (⟨S524288x32, .f32⟩ : BufTy).Contents (Elt F)),
    binary main_v143 main_v145 main_v146 (addf : (⟨S524288x32, .f32⟩ : BufTy).Contents (Elt F) → (⟨S524288x32, .f32⟩ : BufTy).Contents (Elt F) → (⟨S524288x32, .f32⟩ : BufTy).Contents (Elt F)),
    binary main_v116 main_v86 main_v147 (mulf : (⟨S524288x32, .f32⟩ : BufTy).Contents (Elt F) → (⟨S524288x32, .f32⟩ : BufTy).Contents (Elt F) → (⟨S524288x32, .f32⟩ : BufTy).Contents (Elt F)) ]

/-- The buffers these operations write. -/
abbrev s10_W : List (Ref sig .tc) := [main_v136, main_v137, main_v138, main_v139, main_v140, main_v141, main_call4_cst, main_call4_v0, main_v142, main_v143, main_v144, main_v145, main_v146, main_v147]
theorem s10_writes : (s10 : List (HloOp τ sig (Elt F))).Forall fun op => op.writes ⊆ (s10_W.map (Proc.devRef (τ := τ) .tc)).toFinset := by
  stretch_writes s10
/-- A buffer these operations do not write keeps its contents through them. -/
theorem s10_keep (W : Valuation τ sig (Elt F)) (r : Ref sig .tc) (h : r ∉ s10_W) :
    after (s10 (F := F)) W (Proc.devRef .tc r) = W (Proc.devRef .tc r) :=
  after_of_writes_sub s10 W s10_writes h

theorem s10_main_v146 (W : Valuation τ sig (Elt F)) (x2 : (⟨S524288x1, .f32⟩ : BufTy).Contents (Elt F)) (x13 : (⟨S1x16, .f32⟩ : BufTy).Contents (Elt F)) (x14 : (⟨S16, .f32⟩ : BufTy).Contents (Elt F)) (x15 : (⟨S16, .f32⟩ : BufTy).Contents (Elt F)) (x16 : (⟨S16x32, .f32⟩ : BufTy).Contents (Elt F)) (x17 : (⟨S32, .f32⟩ : BufTy).Contents (Elt F))
    (h_main_arg14 : W (no_index (Proc.devRef .tc main_arg14)) = x14)
    (h_main_arg15 : W (no_index (Proc.devRef .tc main_arg15)) = x15)
    (h_main_arg16 : W (no_index (Proc.devRef .tc main_arg16)) = x16)
    (h_main_arg17 : W (no_index (Proc.devRef .tc main_arg17)) = x17)
    (h_main_v135 : W (no_index (Proc.devRef .tc main_v135)) = val_main_v135 (F := F) x2 x13)
    : after (s10 (F := F)) W (Proc.devRef .tc main_v146) = val_main_v146 (F := F) x2 x13 x14 x15 x16 x17 := by
  stretch_read s10

theorem s10_main_v147 (W : Valuation τ sig (Elt F)) (x0 : (⟨S524288x128, .f32⟩ : BufTy).Contents (Elt F)) (x1 : (⟨S524288x6, .f32⟩ : BufTy).Contents (Elt F)) (x3 : (⟨S128x64, .f32⟩ : BufTy).Contents (Elt F)) (x4 : (⟨S64, .f32⟩ : BufTy).Contents (Elt F)) (x5 : (⟨S64, .f32⟩ : BufTy).Contents (Elt F)) (x6 : (⟨S64x32, .f32⟩ : BufTy).Contents (Elt F)) (x7 : (⟨S32, .f32⟩ : BufTy).Contents (Elt F)) (x8 : (⟨S6x16, .f32⟩ : BufTy).Contents (Elt F)) (x9 : (⟨S16, .f32⟩ : BufTy).Contents (Elt F)) (x10 : (⟨S16, .f32⟩ : BufTy).Contents (Elt F)) (x11 : (⟨S16x32, .f32⟩ : BufTy).Contents (Elt F)) (x12 : (⟨S32, .f32⟩ : BufTy).Contents (Elt F))
    (h_main_v86 : W (no_index (Proc.devRef .tc main_v86)) = val_main_v86 (F := F) x0 x3 x4 x5 x6 x7)
    (h_main_v116 : W (no_index (Proc.devRef .tc main_v116)) = val_main_v116 (F := F) x1 x8 x9 x10 x11 x12)
    : after (s10 (F := F)) W (Proc.devRef .tc main_v147) = val_main_v147 (F := F) x0 x1 x3 x4 x5 x6 x7 x8 x9 x10 x11 x12 := by
  stretch_read s10

end Cert.ReferenceIdeal.RunS

end
-- ==== Proof.RefStretch11.lean ====
/-
  Operations 183 to 198 of the reference program's @main (of its 273, counting from 0), as a list of their own, and what the
  list leaves in each buffer that a later operation reads: its val_ term of @main's arguments, given that the buffers the list
  reads hold theirs. One statement per buffer; each is proved by the one tactic that reads a list of operations at a buffer.
-/
import proofs.«104010_j23570780520494_2_alg».proof.Proof.RefReadP
import proofs.«104010_j23570780520494_2_alg».proof.Proof.RefStretchLib

noncomputable section

namespace Cert.ReferenceIdeal.RunS

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

attribute [local congr] Cert.KernelIdeal.KWin.cat2_congr Cert.KernelIdeal.KWin.cat3_congr

/-- Operations 183 to 198 of @main, in order (copied from the list of all of them). -/
def s11 : List (HloOp τ sig (Elt F)) :=
  [ nullary main_cst_24 (constant S_ .f32 0xFF800000#32),
    binary main_v147 main_cst_24 main_v148 ((fun x v => Host.reduce FloatOps.maximumf x v reducesTo_S524288x32_S524288_d1 h_S_) : (⟨S524288x32, .f32⟩ : BufTy).Contents (Elt F) → (⟨S_, .f32⟩ : BufTy).Contents (Elt F) → (⟨S524288, .f32⟩ : BufTy).Contents (Elt F)),
    nullary main_cst_25 (constant S_ .f32 0xFF800000#32),
    unary main_cst_25 main_v149 (broadcastInDim S524288 ![] bcast_S_S524288 : (⟨S_, .f32⟩ : BufTy).Contents (Elt F) → (⟨S524288, .f32⟩ : BufTy).Contents (Elt F)),
    binary main_v149 main_v148 main_v150 (maximumf : (⟨S524288, .f32⟩ : BufTy).Contents (Elt F) → (⟨S524288, .f32⟩ : BufTy).Contents (Elt F) → (⟨S524288, .f32⟩ : BufTy).Contents (Elt F)),
    unary main_v150 main_v151 (broadcastInDim S524288x1 ![0] bcast_S524288_S524288x1_0 : (⟨S524288, .f32⟩ : BufTy).Contents (Elt F) → (⟨S524288x1, .f32⟩ : BufTy).Contents (Elt F)),
    unary main_v151 main_v152 (broadcastInDim S524288x32 ![0, 1] bcast_S524288x1_S524288x32_0_1 : (⟨S524288x1, .f32⟩ : BufTy).Contents (Elt F) → (⟨S524288x32, .f32⟩ : BufTy).Contents (Elt F)),
    binary main_v147 main_v152 main_v153 (subf : (⟨S524288x32, .f32⟩ : BufTy).Contents (Elt F) → (⟨S524288x32, .f32⟩ : BufTy).Contents (Elt F) → (⟨S524288x32, .f32⟩ : BufTy).Contents (Elt F)),
    unary main_v153 main_v154 (Host.exp : (⟨S524288x32, .f32⟩ : BufTy).Contents (Elt F) → (⟨S524288x32, .f32⟩ : BufTy).Contents (Elt F)),
    nullary main_cst_26 (constant S_ .f32 0x00000000#32),
    binary main_v154 main_cst_26 main_v155 ((fun x v => Host.reduceAdd x v reducesTo_S524288x32_S524288_d1 h_S_) : (⟨S524288x32, .f32⟩ : BufTy).Contents (Elt F) → (⟨S_, .f32⟩ : BufTy).Contents (Elt F) → (⟨S524288, .f32⟩ : BufTy).Contents (Elt F)),
    unary main_v155 main_v156 (broadcastInDim S524288x1 ![0] bcast_S524288_S524288x1_0 : (⟨S524288, .f32⟩ : BufTy).Contents (Elt F) → (⟨S524288x1, .f32⟩ : BufTy).Contents (Elt F)),
    unary main_v156 main_v157 (broadcastInDim S524288x32 ![0, 1] bcast_S524288x1_S524288x32_0_1 : (⟨S524288x1, .f32⟩ : BufTy).Contents (Elt F) → (⟨S524288x32, .f32⟩ : BufTy).Contents (Elt F)),
    binary main_v154 main_v157 main_v158 (Host.divf : (⟨S524288x32, .f32⟩ : BufTy).Contents (Elt F) → (⟨S524288x32, .f32⟩ : BufTy).Contents (Elt F) → (⟨S524288x32, .f32⟩ : BufTy).Contents (Elt F)),
    binary main_v158 main_v146 main_v159 (mulf : (⟨S524288x32, .f32⟩ : BufTy).Contents (Elt F) → (⟨S524288x32, .f32⟩ : BufTy).Contents (Elt F) → (⟨S524288x32, .f32⟩ : BufTy).Contents (Elt F)),
    binary main_v159 main_arg18 main_v160 ((fun l r => Host.dotGeneral dot_S524288x32_S32x32_S524288x32_1_0_0_1_n_n none l r) : (⟨S524288x32, .f32⟩ : BufTy).Contents (Elt F) → (⟨S32x32, .f32⟩ : BufTy).Contents (Elt F) → (⟨S524288x32, .f32⟩ : BufTy).Contents (Elt F)) ]

/-- The buffers these operations write. -/
abbrev s11_W : List (Ref sig .tc) := [main_cst_24, main_v148, main_cst_25, main_v149, main_v150, main_v151, main_v152, main_v153, main_v154, main_cst_26, main_v155, main_v156, main_v157, main_v158, main_v159, main_v160]
theorem s11_writes : (s11 : List (HloOp τ sig (Elt F))).Forall fun op => op.writes ⊆ (s11_W.map (Proc.devRef (τ := τ) .tc)).toFinset := by
  stretch_writes s11
/-- A buffer these operations do not write keeps its contents through them. -/
theorem s11_keep (W : Valuation τ sig (Elt F)) (r : Ref sig .tc) (h : r ∉ s11_W) :
    after (s11 (F := F)) W (Proc.devRef .tc r) = W (Proc.devRef .tc r) :=
  after_of_writes_sub s11 W s11_writes h

theorem s11_main_v160 (W : Valuation τ sig (Elt F)) (x0 : (⟨S524288x128, .f32⟩ : BufTy).Contents (Elt F)) (x1 : (⟨S524288x6, .f32⟩ : BufTy).Contents (Elt F)) (x2 : (⟨S524288x1, .f32⟩ : BufTy).Contents (Elt F)) (x3 : (⟨S128x64, .f32⟩ : BufTy).Contents (Elt F)) (x4 : (⟨S64, .f32⟩ : BufTy).Contents (Elt F)) (x5 : (⟨S64, .f32⟩ : BufTy).Contents (Elt F)) (x6 : (⟨S64x32, .f32⟩ : BufTy).Contents (Elt F)) (x7 : (⟨S32, .f32⟩ : BufTy).Contents (Elt F)) (x8 : (⟨S6x16, .f32⟩ : BufTy).Contents (Elt F)) (x9 : (⟨S16, .f32⟩ : BufTy).Contents (Elt F)) (x10 : (⟨S16, .f32⟩ : BufTy).Contents (Elt F)) (x11 : (⟨S16x32, .f32⟩ : BufTy).Contents (Elt F)) (x12 : (⟨S32, .f32⟩ : BufTy).Contents (Elt F)) (x13 : (⟨S1x16, .f32⟩ : BufTy).Contents (Elt F)) (x14 : (⟨S16, .f32⟩ : BufTy).Contents (Elt F)) (x15 : (⟨S16, .f32⟩ : BufTy).Contents (Elt F)) (x16 : (⟨S16x32, .f32⟩ : BufTy).Contents (Elt F)) (x17 : (⟨S32, .f32⟩ : BufTy).Contents (Elt F)) (x18 : (⟨S32x32, .f32⟩ : BufTy).Contents (Elt F))
    (h_main_arg18 : W (no_index (Proc.devRef .tc main_arg18)) = x18)
    (h_main_v146 : W (no_index (Proc.devRef .tc main_v146)) = val_main_v146 (F := F) x2 x13 x14 x15 x16 x17)
    (h_main_v147 : W (no_index (Proc.devRef .tc main_v147)) = val_main_v147 (F := F) x0 x1 x3 x4 x5 x6 x7 x8 x9 x10 x11 x12)
    : after (s11 (F := F)) W (Proc.devRef .tc main_v160) = val_main_v160 (F := F) x0 x1 x2 x3 x4 x5 x6 x7 x8 x9 x10 x11 x12 x13 x14 x15 x16 x17 x18 := by
  stretch_read s11

end Cert.ReferenceIdeal.RunS

end
-- ==== Proof.RefStretch12.lean ====
/-
  Operations 199 to 221 of the reference program's @main (of its 273, counting from 0), as a list of their own, and what the
  list leaves in each buffer that a later operation reads: its val_ term of @main's arguments, given that the buffers the list
  reads hold theirs. One statement per buffer; each is proved by the one tactic that reads a list of operations at a buffer.
-/
import proofs.«104010_j23570780520494_2_alg».proof.Proof.RefReadP
import proofs.«104010_j23570780520494_2_alg».proof.Proof.RefStretchLib

noncomputable section

namespace Cert.ReferenceIdeal.RunS

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

attribute [local congr] Cert.KernelIdeal.KWin.cat2_congr Cert.KernelIdeal.KWin.cat3_congr

/-- Operations 199 to 221 of @main, in order (copied from the list of all of them). -/
def s12 : List (HloOp τ sig (Elt F)) :=
  [ nullary main_cst_27 (constant S_ .f32 0x00000000#32),
    binary main_v160 main_cst_27 main_v161 ((fun x v => Host.reduceAdd x v reducesTo_S524288x32_S524288_d1 h_S_) : (⟨S524288x32, .f32⟩ : BufTy).Contents (Elt F) → (⟨S_, .f32⟩ : BufTy).Contents (Elt F) → (⟨S524288, .f32⟩ : BufTy).Contents (Elt F)),
    unary main_v161 main_v162 (broadcastInDim S524288x1 ![0] bcast_S524288_S524288x1_0 : (⟨S524288, .f32⟩ : BufTy).Contents (Elt F) → (⟨S524288x1, .f32⟩ : BufTy).Contents (Elt F)),
    nullary main_cst_28 (constant S_ .f32 0x42000000#32),
    unary main_cst_28 main_v163 (broadcastInDim S524288x1 ![] bcast_S_S524288x1 : (⟨S_, .f32⟩ : BufTy).Contents (Elt F) → (⟨S524288x1, .f32⟩ : BufTy).Contents (Elt F)),
    binary main_v162 main_v163 main_v164 (Host.divf : (⟨S524288x1, .f32⟩ : BufTy).Contents (Elt F) → (⟨S524288x1, .f32⟩ : BufTy).Contents (Elt F) → (⟨S524288x1, .f32⟩ : BufTy).Contents (Elt F)),
    unary main_v164 main_v165 (broadcastInDim S524288x32 ![0, 1] bcast_S524288x1_S524288x32_0_1 : (⟨S524288x1, .f32⟩ : BufTy).Contents (Elt F) → (⟨S524288x32, .f32⟩ : BufTy).Contents (Elt F)),
    binary main_v160 main_v165 main_v166 (subf : (⟨S524288x32, .f32⟩ : BufTy).Contents (Elt F) → (⟨S524288x32, .f32⟩ : BufTy).Contents (Elt F) → (⟨S524288x32, .f32⟩ : BufTy).Contents (Elt F)),
    binary main_v166 main_v166 main_v167 (mulf : (⟨S524288x32, .f32⟩ : BufTy).Contents (Elt F) → (⟨S524288x32, .f32⟩ : BufTy).Contents (Elt F) → (⟨S524288x32, .f32⟩ : BufTy).Contents (Elt F)),
    nullary main_cst_29 (constant S_ .f32 0x00000000#32),
    binary main_v167 main_cst_29 main_v168 ((fun x v => Host.reduceAdd x v reducesTo_S524288x32_S524288_d1 h_S_) : (⟨S524288x32, .f32⟩ : BufTy).Contents (Elt F) → (⟨S_, .f32⟩ : BufTy).Contents (Elt F) → (⟨S524288, .f32⟩ : BufTy).Contents (Elt F)),
    unary main_v168 main_v169 (broadcastInDim S524288x1 ![0] bcast_S524288_S524288x1_0 : (⟨S524288, .f32⟩ : BufTy).Contents (Elt F) → (⟨S524288x1, .f32⟩ : BufTy).Contents (Elt F)),
    nullary main_cst_30 (constant S_ .f32 0x42000000#32),
    unary main_cst_30 main_v170 (broadcastInDim S524288x1 ![] bcast_S_S524288x1 : (⟨S_, .f32⟩ : BufTy).Contents (Elt F) → (⟨S524288x1, .f32⟩ : BufTy).Contents (Elt F)),
    binary main_v169 main_v170 main_v171 (Host.divf : (⟨S524288x1, .f32⟩ : BufTy).Contents (Elt F) → (⟨S524288x1, .f32⟩ : BufTy).Contents (Elt F) → (⟨S524288x1, .f32⟩ : BufTy).Contents (Elt F)),
    unary main_v164 main_v172 (broadcastInDim S524288x32 ![0, 1] bcast_S524288x1_S524288x32_0_1 : (⟨S524288x1, .f32⟩ : BufTy).Contents (Elt F) → (⟨S524288x32, .f32⟩ : BufTy).Contents (Elt F)),
    binary main_v160 main_v172 main_v173 (subf : (⟨S524288x32, .f32⟩ : BufTy).Contents (Elt F) → (⟨S524288x32, .f32⟩ : BufTy).Contents (Elt F) → (⟨S524288x32, .f32⟩ : BufTy).Contents (Elt F)),
    nullary main_cst_31 (constant S_ .f32 0x3727C5AC#32),
    unary main_cst_31 main_v174 (broadcastInDim S524288x1 ![] bcast_S_S524288x1 : (⟨S_, .f32⟩ : BufTy).Contents (Elt F) → (⟨S524288x1, .f32⟩ : BufTy).Contents (Elt F)),
    binary main_v171 main_v174 main_v175 (addf : (⟨S524288x1, .f32⟩ : BufTy).Contents (Elt F) → (⟨S524288x1, .f32⟩ : BufTy).Contents (Elt F) → (⟨S524288x1, .f32⟩ : BufTy).Contents (Elt F)),
    unary main_v175 main_v176 (Host.rsqrt : (⟨S524288x1, .f32⟩ : BufTy).Contents (Elt F) → (⟨S524288x1, .f32⟩ : BufTy).Contents (Elt F)),
    unary main_v176 main_v177 (broadcastInDim S524288x32 ![0, 1] bcast_S524288x1_S524288x32_0_1 : (⟨S524288x1, .f32⟩ : BufTy).Contents (Elt F) → (⟨S524288x32, .f32⟩ : BufTy).Contents (Elt F)),
    binary main_v173 main_v177 main_v178 (mulf : (⟨S524288x32, .f32⟩ : BufTy).Contents (Elt F) → (⟨S524288x32, .f32⟩ : BufTy).Contents (Elt F) → (⟨S524288x32, .f32⟩ : BufTy).Contents (Elt F)) ]

/-- The buffers these operations write. -/
abbrev s12_W : List (Ref sig .tc) := [main_cst_27, main_v161, main_v162, main_cst_28, main_v163, main_v164, main_v165, main_v166, main_v167, main_cst_29, main_v168, main_v169, main_cst_30, main_v170, main_v171, main_v172, main_v173, main_cst_31, main_v174, main_v175, main_v176, main_v177, main_v178]
theorem s12_writes : (s12 : List (HloOp τ sig (Elt F))).Forall fun op => op.writes ⊆ (s12_W.map (Proc.devRef (τ := τ) .tc)).toFinset := by
  stretch_writes s12
/-- A buffer these operations do not write keeps its contents through them. -/
theorem s12_keep (W : Valuation τ sig (Elt F)) (r : Ref sig .tc) (h : r ∉ s12_W) :
    after (s12 (F := F)) W (Proc.devRef .tc r) = W (Proc.devRef .tc r) :=
  after_of_writes_sub s12 W s12_writes h

theorem s12_main_v178 (W : Valuation τ sig (Elt F)) (x0 : (⟨S524288x128, .f32⟩ : BufTy).Contents (Elt F)) (x1 : (⟨S524288x6, .f32⟩ : BufTy).Contents (Elt F)) (x2 : (⟨S524288x1, .f32⟩ : BufTy).Contents (Elt F)) (x3 : (⟨S128x64, .f32⟩ : BufTy).Contents (Elt F)) (x4 : (⟨S64, .f32⟩ : BufTy).Contents (Elt F)) (x5 : (⟨S64, .f32⟩ : BufTy).Contents (Elt F)) (x6 : (⟨S64x32, .f32⟩ : BufTy).Contents (Elt F)) (x7 : (⟨S32, .f32⟩ : BufTy).Contents (Elt F)) (x8 : (⟨S6x16, .f32⟩ : BufTy).Contents (Elt F)) (x9 : (⟨S16, .f32⟩ : BufTy).Contents (Elt F)) (x10 : (⟨S16, .f32⟩ : BufTy).Contents (Elt F)) (x11 : (⟨S16x32, .f32⟩ : BufTy).Contents (Elt F)) (x12 : (⟨S32, .f32⟩ : BufTy).Contents (Elt F)) (x13 : (⟨S1x16, .f32⟩ : BufTy).Contents (Elt F)) (x14 : (⟨S16, .f32⟩ : BufTy).Contents (Elt F)) (x15 : (⟨S16, .f32⟩ : BufTy).Contents (Elt F)) (x16 : (⟨S16x32, .f32⟩ : BufTy).Contents (Elt F)) (x17 : (⟨S32, .f32⟩ : BufTy).Contents (Elt F)) (x18 : (⟨S32x32, .f32⟩ : BufTy).Contents (Elt F))
    (h_main_v160 : W (no_index (Proc.devRef .tc main_v160)) = val_main_v160 (F := F) x0 x1 x2 x3 x4 x5 x6 x7 x8 x9 x10 x11 x12 x13 x14 x15 x16 x17 x18)
    : after (s12 (F := F)) W (Proc.devRef .tc main_v178) = val_main_v178 (F := F) x0 x1 x2 x3 x4 x5 x6 x7 x8 x9 x10 x11 x12 x13 x14 x15 x16 x17 x18 := by
  stretch_read s12

end Cert.ReferenceIdeal.RunS

end
-- ==== Proof.RefStretch13.lean ====
/-
  Operations 222 to 236 of the reference program's @main (of its 273, counting from 0), as a list of their own, and what the
  list leaves in each buffer that a later operation reads: its val_ term of @main's arguments, given that the buffers the list
  reads hold theirs. One statement per buffer; each is proved by the one tactic that reads a list of operations at a buffer.
-/
import proofs.«104010_j23570780520494_2_alg».proof.Proof.RefReadP
import proofs.«104010_j23570780520494_2_alg».proof.Proof.RefStretchLib

noncomputable section

namespace Cert.ReferenceIdeal.RunS

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

attribute [local congr] Cert.KernelIdeal.KWin.cat2_congr Cert.KernelIdeal.KWin.cat3_congr

/-- Operations 222 to 236 of @main, in order (copied from the list of all of them). -/
def s13 : List (HloOp τ sig (Elt F)) :=
  [ unary main_arg19 main_v179 (broadcastInDim S1x32 ![1] bcast_S32_S1x32_1 : (⟨S32, .f32⟩ : BufTy).Contents (Elt F) → (⟨S1x32, .f32⟩ : BufTy).Contents (Elt F)),
    unary main_v179 main_v180 (broadcastInDim S524288x32 ![0, 1] bcast_S1x32_S524288x32_0_1 : (⟨S1x32, .f32⟩ : BufTy).Contents (Elt F) → (⟨S524288x32, .f32⟩ : BufTy).Contents (Elt F)),
    binary main_v178 main_v180 main_v181 (mulf : (⟨S524288x32, .f32⟩ : BufTy).Contents (Elt F) → (⟨S524288x32, .f32⟩ : BufTy).Contents (Elt F) → (⟨S524288x32, .f32⟩ : BufTy).Contents (Elt F)),
    unary main_arg20 main_v182 (broadcastInDim S1x32 ![1] bcast_S32_S1x32_1 : (⟨S32, .f32⟩ : BufTy).Contents (Elt F) → (⟨S1x32, .f32⟩ : BufTy).Contents (Elt F)),
    unary main_v182 main_v183 (broadcastInDim S524288x32 ![0, 1] bcast_S1x32_S524288x32_0_1 : (⟨S1x32, .f32⟩ : BufTy).Contents (Elt F) → (⟨S524288x32, .f32⟩ : BufTy).Contents (Elt F)),
    binary main_v181 main_v183 main_v184 (addf : (⟨S524288x32, .f32⟩ : BufTy).Contents (Elt F) → (⟨S524288x32, .f32⟩ : BufTy).Contents (Elt F) → (⟨S524288x32, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S524288x32, .f32⟩) main_call5_v0) (broadcastInDim S524288x32 ![] bcast_S_S524288x32),
    TRef.binary (TRef.of (T := ⟨S524288x32, .f32⟩) main_v184) (TRef.of (T := ⟨S524288x32, .f32⟩) main_call5_v0) (TRef.of (T := ⟨S524288x32, .f32⟩) main_v185) maximumf,
    binary main_v185 main_arg21 main_v186 ((fun l r => Host.dotGeneral dot_S524288x32_S32x16_S524288x16_1_0_0_1_n_n none l r) : (⟨S524288x32, .f32⟩ : BufTy).Contents (Elt F) → (⟨S32x16, .f32⟩ : BufTy).Contents (Elt F) → (⟨S524288x16, .f32⟩ : BufTy).Contents (Elt F)),
    unary main_arg22 main_v187 (broadcastInDim S1x16 ![1] bcast_S16_S1x16_1 : (⟨S16, .f32⟩ : BufTy).Contents (Elt F) → (⟨S1x16, .f32⟩ : BufTy).Contents (Elt F)),
    unary main_v187 main_v188 (broadcastInDim S524288x16 ![0, 1] bcast_S1x16_S524288x16_0_1 : (⟨S1x16, .f32⟩ : BufTy).Contents (Elt F) → (⟨S524288x16, .f32⟩ : BufTy).Contents (Elt F)),
    binary main_v186 main_v188 main_v189 (addf : (⟨S524288x16, .f32⟩ : BufTy).Contents (Elt F) → (⟨S524288x16, .f32⟩ : BufTy).Contents (Elt F) → (⟨S524288x16, .f32⟩ : BufTy).Contents (Elt F)),
    binary main_v189 main_v56 main_v190 ((fun a b => concatenate S524288x32 1 [⟨S524288x16, a⟩, ⟨S524288x16, b⟩] concatenates_S524288x16_S524288x16_S524288x32_d1) : (⟨S524288x16, .f32⟩ : BufTy).Contents (Elt F) → (⟨S524288x16, .f32⟩ : BufTy).Contents (Elt F) → (⟨S524288x32, .f32⟩ : BufTy).Contents (Elt F)),
    binary main_v190 main_arg31 main_v191 ((fun l r => Host.dotGeneral dot_S524288x32_S32x16_S524288x16_1_0_0_1_n_n none l r) : (⟨S524288x32, .f32⟩ : BufTy).Contents (Elt F) → (⟨S32x16, .f32⟩ : BufTy).Contents (Elt F) → (⟨S524288x16, .f32⟩ : BufTy).Contents (Elt F)) ]

/-- The buffers these operations write. -/
abbrev s13_W : List (Ref sig .tc) := [main_v179, main_v180, main_v181, main_v182, main_v183, main_v184, main_call5_cst, main_call5_v0, main_v185, main_v186, main_v187, main_v188, main_v189, main_v190, main_v191]
theorem s13_writes : (s13 : List (HloOp τ sig (Elt F))).Forall fun op => op.writes ⊆ (s13_W.map (Proc.devRef (τ := τ) .tc)).toFinset := by
  stretch_writes s13
/-- A buffer these operations do not write keeps its contents through them. -/
theorem s13_keep (W : Valuation τ sig (Elt F)) (r : Ref sig .tc) (h : r ∉ s13_W) :
    after (s13 (F := F)) W (Proc.devRef .tc r) = W (Proc.devRef .tc r) :=
  after_of_writes_sub s13 W s13_writes h

theorem s13_main_v191 (W : Valuation τ sig (Elt F)) (x0 : (⟨S524288x128, .f32⟩ : BufTy).Contents (Elt F)) (x1 : (⟨S524288x6, .f32⟩ : BufTy).Contents (Elt F)) (x2 : (⟨S524288x1, .f32⟩ : BufTy).Contents (Elt F)) (x3 : (⟨S128x64, .f32⟩ : BufTy).Contents (Elt F)) (x4 : (⟨S64, .f32⟩ : BufTy).Contents (Elt F)) (x5 : (⟨S64, .f32⟩ : BufTy).Contents (Elt F)) (x6 : (⟨S64x32, .f32⟩ : BufTy).Contents (Elt F)) (x7 : (⟨S32, .f32⟩ : BufTy).Contents (Elt F)) (x8 : (⟨S6x16, .f32⟩ : BufTy).Contents (Elt F)) (x9 : (⟨S16, .f32⟩ : BufTy).Contents (Elt F)) (x10 : (⟨S16, .f32⟩ : BufTy).Contents (Elt F)) (x11 : (⟨S16x32, .f32⟩ : BufTy).Contents (Elt F)) (x12 : (⟨S32, .f32⟩ : BufTy).Contents (Elt F)) (x13 : (⟨S1x16, .f32⟩ : BufTy).Contents (Elt F)) (x14 : (⟨S16, .f32⟩ : BufTy).Contents (Elt F)) (x15 : (⟨S16, .f32⟩ : BufTy).Contents (Elt F)) (x16 : (⟨S16x32, .f32⟩ : BufTy).Contents (Elt F)) (x17 : (⟨S32, .f32⟩ : BufTy).Contents (Elt F)) (x18 : (⟨S32x32, .f32⟩ : BufTy).Contents (Elt F)) (x19 : (⟨S32, .f32⟩ : BufTy).Contents (Elt F)) (x20 : (⟨S32, .f32⟩ : BufTy).Contents (Elt F)) (x21 : (⟨S32x16, .f32⟩ : BufTy).Contents (Elt F)) (x22 : (⟨S16, .f32⟩ : BufTy).Contents (Elt F)) (x23 : (⟨S135x64, .f32⟩ : BufTy).Contents (Elt F)) (x24 : (⟨S64, .f32⟩ : BufTy).Contents (Elt F)) (x25 : (⟨S64, .f32⟩ : BufTy).Contents (Elt F)) (x26 : (⟨S64x32, .f32⟩ : BufTy).Contents (Elt F)) (x27 : (⟨S32, .f32⟩ : BufTy).Contents (Elt F)) (x28 : (⟨S32, .f32⟩ : BufTy).Contents (Elt F)) (x29 : (⟨S32x16, .f32⟩ : BufTy).Contents (Elt F)) (x30 : (⟨S16, .f32⟩ : BufTy).Contents (Elt F)) (x31 : (⟨S32x16, .f32⟩ : BufTy).Contents (Elt F))
    (h_main_arg19 : W (no_index (Proc.devRef .tc main_arg19)) = x19)
    (h_main_arg20 : W (no_index (Proc.devRef .tc main_arg20)) = x20)
    (h_main_arg21 : W (no_index (Proc.devRef .tc main_arg21)) = x21)
    (h_main_arg22 : W (no_index (Proc.devRef .tc main_arg22)) = x22)
    (h_main_arg31 : W (no_index (Proc.devRef .tc main_arg31)) = x31)
    (h_main_v56 : W (no_index (Proc.devRef .tc main_v56)) = val_main_v56 (F := F) x0 x1 x2 x23 x24 x25 x26 x27 x28 x29 x30)
    (h_main_v178 : W (no_index (Proc.devRef .tc main_v178)) = val_main_v178 (F := F) x0 x1 x2 x3 x4 x5 x6 x7 x8 x9 x10 x11 x12 x13 x14 x15 x16 x17 x18)
    : after (s13 (F := F)) W (Proc.devRef .tc main_v191) = val_main_v191 (F := F) x0 x1 x2 x3 x4 x5 x6 x7 x8 x9 x10 x11 x12 x13 x14 x15 x16 x17 x18 x19 x20 x21 x22 x23 x24 x25 x26 x27 x28 x29 x30 x31 := by
  stretch_read s13

end Cert.ReferenceIdeal.RunS

end
-- ==== Proof.RefStretch14.lean ====
/-
  Operations 237 to 259 of the reference program's @main (of its 273, counting from 0), as a list of their own, and what the
  list leaves in each buffer that a later operation reads: its val_ term of @main's arguments, given that the buffers the list
  reads hold theirs. One statement per buffer; each is proved by the one tactic that reads a list of operations at a buffer.
-/
import proofs.«104010_j23570780520494_2_alg».proof.Proof.RefReadP
import proofs.«104010_j23570780520494_2_alg».proof.Proof.RefStretchLib

noncomputable section

namespace Cert.ReferenceIdeal.RunS

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

attribute [local congr] Cert.KernelIdeal.KWin.cat2_congr Cert.KernelIdeal.KWin.cat3_congr

/-- Operations 237 to 259 of @main, in order (copied from the list of all of them). -/
def s14 : List (HloOp τ sig (Elt F)) :=
  [ nullary main_cst_32 (constant S_ .f32 0x00000000#32),
    binary main_v191 main_cst_32 main_v192 ((fun x v => Host.reduceAdd x v reducesTo_S524288x16_S524288_d1 h_S_) : (⟨S524288x16, .f32⟩ : BufTy).Contents (Elt F) → (⟨S_, .f32⟩ : BufTy).Contents (Elt F) → (⟨S524288, .f32⟩ : BufTy).Contents (Elt F)),
    unary main_v192 main_v193 (broadcastInDim S524288x1 ![0] bcast_S524288_S524288x1_0 : (⟨S524288, .f32⟩ : BufTy).Contents (Elt F) → (⟨S524288x1, .f32⟩ : BufTy).Contents (Elt F)),
    nullary main_cst_33 (constant S_ .f32 0x41800000#32),
    unary main_cst_33 main_v194 (broadcastInDim S524288x1 ![] bcast_S_S524288x1 : (⟨S_, .f32⟩ : BufTy).Contents (Elt F) → (⟨S524288x1, .f32⟩ : BufTy).Contents (Elt F)),
    binary main_v193 main_v194 main_v195 (Host.divf : (⟨S524288x1, .f32⟩ : BufTy).Contents (Elt F) → (⟨S524288x1, .f32⟩ : BufTy).Contents (Elt F) → (⟨S524288x1, .f32⟩ : BufTy).Contents (Elt F)),
    unary main_v195 main_v196 (broadcastInDim S524288x16 ![0, 1] bcast_S524288x1_S524288x16_0_1 : (⟨S524288x1, .f32⟩ : BufTy).Contents (Elt F) → (⟨S524288x16, .f32⟩ : BufTy).Contents (Elt F)),
    binary main_v191 main_v196 main_v197 (subf : (⟨S524288x16, .f32⟩ : BufTy).Contents (Elt F) → (⟨S524288x16, .f32⟩ : BufTy).Contents (Elt F) → (⟨S524288x16, .f32⟩ : BufTy).Contents (Elt F)),
    binary main_v197 main_v197 main_v198 (mulf : (⟨S524288x16, .f32⟩ : BufTy).Contents (Elt F) → (⟨S524288x16, .f32⟩ : BufTy).Contents (Elt F) → (⟨S524288x16, .f32⟩ : BufTy).Contents (Elt F)),
    nullary main_cst_34 (constant S_ .f32 0x00000000#32),
    binary main_v198 main_cst_34 main_v199 ((fun x v => Host.reduceAdd x v reducesTo_S524288x16_S524288_d1 h_S_) : (⟨S524288x16, .f32⟩ : BufTy).Contents (Elt F) → (⟨S_, .f32⟩ : BufTy).Contents (Elt F) → (⟨S524288, .f32⟩ : BufTy).Contents (Elt F)),
    unary main_v199 main_v200 (broadcastInDim S524288x1 ![0] bcast_S524288_S524288x1_0 : (⟨S524288, .f32⟩ : BufTy).Contents (Elt F) → (⟨S524288x1, .f32⟩ : BufTy).Contents (Elt F)),
    nullary main_cst_35 (constant S_ .f32 0x41800000#32),
    unary main_cst_35 main_v201 (broadcastInDim S524288x1 ![] bcast_S_S524288x1 : (⟨S_, .f32⟩ : BufTy).Contents (Elt F) → (⟨S524288x1, .f32⟩ : BufTy).Contents (Elt F)),
    binary main_v200 main_v201 main_v202 (Host.divf : (⟨S524288x1, .f32⟩ : BufTy).Contents (Elt F) → (⟨S524288x1, .f32⟩ : BufTy).Contents (Elt F) → (⟨S524288x1, .f32⟩ : BufTy).Contents (Elt F)),
    unary main_v195 main_v203 (broadcastInDim S524288x16 ![0, 1] bcast_S524288x1_S524288x16_0_1 : (⟨S524288x1, .f32⟩ : BufTy).Contents (Elt F) → (⟨S524288x16, .f32⟩ : BufTy).Contents (Elt F)),
    binary main_v191 main_v203 main_v204 (subf : (⟨S524288x16, .f32⟩ : BufTy).Contents (Elt F) → (⟨S524288x16, .f32⟩ : BufTy).Contents (Elt F) → (⟨S524288x16, .f32⟩ : BufTy).Contents (Elt F)),
    nullary main_cst_36 (constant S_ .f32 0x3727C5AC#32),
    unary main_cst_36 main_v205 (broadcastInDim S524288x1 ![] bcast_S_S524288x1 : (⟨S_, .f32⟩ : BufTy).Contents (Elt F) → (⟨S524288x1, .f32⟩ : BufTy).Contents (Elt F)),
    binary main_v202 main_v205 main_v206 (addf : (⟨S524288x1, .f32⟩ : BufTy).Contents (Elt F) → (⟨S524288x1, .f32⟩ : BufTy).Contents (Elt F) → (⟨S524288x1, .f32⟩ : BufTy).Contents (Elt F)),
    unary main_v206 main_v207 (Host.rsqrt : (⟨S524288x1, .f32⟩ : BufTy).Contents (Elt F) → (⟨S524288x1, .f32⟩ : BufTy).Contents (Elt F)),
    unary main_v207 main_v208 (broadcastInDim S524288x16 ![0, 1] bcast_S524288x1_S524288x16_0_1 : (⟨S524288x1, .f32⟩ : BufTy).Contents (Elt F) → (⟨S524288x16, .f32⟩ : BufTy).Contents (Elt F)),
    binary main_v204 main_v208 main_v209 (mulf : (⟨S524288x16, .f32⟩ : BufTy).Contents (Elt F) → (⟨S524288x16, .f32⟩ : BufTy).Contents (Elt F) → (⟨S524288x16, .f32⟩ : BufTy).Contents (Elt F)) ]

/-- The buffers these operations write. -/
abbrev s14_W : List (Ref sig .tc) := [main_cst_32, main_v192, main_v193, main_cst_33, main_v194, main_v195, main_v196, main_v197, main_v198, main_cst_34, main_v199, main_v200, main_cst_35, main_v201, main_v202, main_v203, main_v204, main_cst_36, main_v205, main_v206, main_v207, main_v208, main_v209]
theorem s14_writes : (s14 : List (HloOp τ sig (Elt F))).Forall fun op => op.writes ⊆ (s14_W.map (Proc.devRef (τ := τ) .tc)).toFinset := by
  stretch_writes s14
/-- A buffer these operations do not write keeps its contents through them. -/
theorem s14_keep (W : Valuation τ sig (Elt F)) (r : Ref sig .tc) (h : r ∉ s14_W) :
    after (s14 (F := F)) W (Proc.devRef .tc r) = W (Proc.devRef .tc r) :=
  after_of_writes_sub s14 W s14_writes h

theorem s14_main_v209 (W : Valuation τ sig (Elt F)) (x0 : (⟨S524288x128, .f32⟩ : BufTy).Contents (Elt F)) (x1 : (⟨S524288x6, .f32⟩ : BufTy).Contents (Elt F)) (x2 : (⟨S524288x1, .f32⟩ : BufTy).Contents (Elt F)) (x3 : (⟨S128x64, .f32⟩ : BufTy).Contents (Elt F)) (x4 : (⟨S64, .f32⟩ : BufTy).Contents (Elt F)) (x5 : (⟨S64, .f32⟩ : BufTy).Contents (Elt F)) (x6 : (⟨S64x32, .f32⟩ : BufTy).Contents (Elt F)) (x7 : (⟨S32, .f32⟩ : BufTy).Contents (Elt F)) (x8 : (⟨S6x16, .f32⟩ : BufTy).Contents (Elt F)) (x9 : (⟨S16, .f32⟩ : BufTy).Contents (Elt F)) (x10 : (⟨S16, .f32⟩ : BufTy).Contents (Elt F)) (x11 : (⟨S16x32, .f32⟩ : BufTy).Contents (Elt F)) (x12 : (⟨S32, .f32⟩ : BufTy).Contents (Elt F)) (x13 : (⟨S1x16, .f32⟩ : BufTy).Contents (Elt F)) (x14 : (⟨S16, .f32⟩ : BufTy).Contents (Elt F)) (x15 : (⟨S16, .f32⟩ : BufTy).Contents (Elt F)) (x16 : (⟨S16x32, .f32⟩ : BufTy).Contents (Elt F)) (x17 : (⟨S32, .f32⟩ : BufTy).Contents (Elt F)) (x18 : (⟨S32x32, .f32⟩ : BufTy).Contents (Elt F)) (x19 : (⟨S32, .f32⟩ : BufTy).Contents (Elt F)) (x20 : (⟨S32, .f32⟩ : BufTy).Contents (Elt F)) (x21 : (⟨S32x16, .f32⟩ : BufTy).Contents (Elt F)) (x22 : (⟨S16, .f32⟩ : BufTy).Contents (Elt F)) (x23 : (⟨S135x64, .f32⟩ : BufTy).Contents (Elt F)) (x24 : (⟨S64, .f32⟩ : BufTy).Contents (Elt F)) (x25 : (⟨S64, .f32⟩ : BufTy).Contents (Elt F)) (x26 : (⟨S64x32, .f32⟩ : BufTy).Contents (Elt F)) (x27 : (⟨S32, .f32⟩ : BufTy).Contents (Elt F)) (x28 : (⟨S32, .f32⟩ : BufTy).Contents (Elt F)) (x29 : (⟨S32x16, .f32⟩ : BufTy).Contents (Elt F)) (x30 : (⟨S16, .f32⟩ : BufTy).Contents (Elt F)) (x31 : (⟨S32x16, .f32⟩ : BufTy).Contents (Elt F))
    (h_main_v191 : W (no_index (Proc.devRef .tc main_v191)) = val_main_v191 (F := F) x0 x1 x2 x3 x4 x5 x6 x7 x8 x9 x10 x11 x12 x13 x14 x15 x16 x17 x18 x19 x20 x21 x22 x23 x24 x25 x26 x27 x28 x29 x30 x31)
    : after (s14 (F := F)) W (Proc.devRef .tc main_v209) = val_main_v209 (F := F) x0 x1 x2 x3 x4 x5 x6 x7 x8 x9 x10 x11 x12 x13 x14 x15 x16 x17 x18 x19 x20 x21 x22 x23 x24 x25 x26 x27 x28 x29 x30 x31 := by
  stretch_read s14

end Cert.ReferenceIdeal.RunS

end
-- ==== Proof.RefStretch15.lean ====
/-
  Operations 260 to 272 of the reference program's @main (of its 273, counting from 0), as a list of their own, and what the
  list leaves in each buffer that a later operation reads: its val_ term of @main's arguments, given that the buffers the list
  reads hold theirs. One statement per buffer; each is proved by the one tactic that reads a list of operations at a buffer.
-/
import proofs.«104010_j23570780520494_2_alg».proof.Proof.RefReadP
import proofs.«104010_j23570780520494_2_alg».proof.Proof.RefStretchLib

noncomputable section

namespace Cert.ReferenceIdeal.RunS

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

attribute [local congr] Cert.KernelIdeal.KWin.cat2_congr Cert.KernelIdeal.KWin.cat3_congr

/-- Operations 260 to 272 of @main, in order (copied from the list of all of them). -/
def s15 : List (HloOp τ sig (Elt F)) :=
  [ unary main_arg32 main_v210 (broadcastInDim S1x16 ![1] bcast_S16_S1x16_1 : (⟨S16, .f32⟩ : BufTy).Contents (Elt F) → (⟨S1x16, .f32⟩ : BufTy).Contents (Elt F)),
    unary main_v210 main_v211 (broadcastInDim S524288x16 ![0, 1] bcast_S1x16_S524288x16_0_1 : (⟨S1x16, .f32⟩ : BufTy).Contents (Elt F) → (⟨S524288x16, .f32⟩ : BufTy).Contents (Elt F)),
    binary main_v209 main_v211 main_v212 (mulf : (⟨S524288x16, .f32⟩ : BufTy).Contents (Elt F) → (⟨S524288x16, .f32⟩ : BufTy).Contents (Elt F) → (⟨S524288x16, .f32⟩ : BufTy).Contents (Elt F)),
    unary main_arg33 main_v213 (broadcastInDim S1x16 ![1] bcast_S16_S1x16_1 : (⟨S16, .f32⟩ : BufTy).Contents (Elt F) → (⟨S1x16, .f32⟩ : BufTy).Contents (Elt F)),
    unary main_v213 main_v214 (broadcastInDim S524288x16 ![0, 1] bcast_S1x16_S524288x16_0_1 : (⟨S1x16, .f32⟩ : BufTy).Contents (Elt F) → (⟨S524288x16, .f32⟩ : BufTy).Contents (Elt F)),
    binary main_v212 main_v214 main_v215 (addf : (⟨S524288x16, .f32⟩ : BufTy).Contents (Elt F) → (⟨S524288x16, .f32⟩ : BufTy).Contents (Elt F) → (⟨S524288x16, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S524288x16, .f32⟩) main_call6_v0) (broadcastInDim S524288x16 ![] bcast_S_S524288x16),
    TRef.binary (TRef.of (T := ⟨S524288x16, .f32⟩) main_v215) (TRef.of (T := ⟨S524288x16, .f32⟩) main_call6_v0) (TRef.of (T := ⟨S524288x16, .f32⟩) main_v216) maximumf,
    binary main_v216 main_arg34 main_v217 ((fun l r => Host.dotGeneral dot_S524288x16_S16x1_S524288x1_1_0_0_1_n_n none l r) : (⟨S524288x16, .f32⟩ : BufTy).Contents (Elt F) → (⟨S16x1, .f32⟩ : BufTy).Contents (Elt F) → (⟨S524288x1, .f32⟩ : BufTy).Contents (Elt F)),
    unary main_arg35 main_v218 (broadcastInDim S1x1 ![1] bcast_S1_S1x1_1 : (⟨S1, .f32⟩ : BufTy).Contents (Elt F) → (⟨S1x1, .f32⟩ : BufTy).Contents (Elt F)),
    unary main_v218 main_v219 (broadcastInDim S524288x1 ![0, 1] bcast_S1x1_S524288x1_0_1 : (⟨S1x1, .f32⟩ : BufTy).Contents (Elt F) → (⟨S524288x1, .f32⟩ : BufTy).Contents (Elt F)),
    binary main_v217 main_v219 main_v220 (addf : (⟨S524288x1, .f32⟩ : BufTy).Contents (Elt F) → (⟨S524288x1, .f32⟩ : BufTy).Contents (Elt F) → (⟨S524288x1, .f32⟩ : BufTy).Contents (Elt F)) ]

/-- The buffers these operations write. -/
abbrev s15_W : List (Ref sig .tc) := [main_v210, main_v211, main_v212, main_v213, main_v214, main_v215, main_call6_cst, main_call6_v0, main_v216, main_v217, main_v218, main_v219, main_v220]
theorem s15_writes : (s15 : List (HloOp τ sig (Elt F))).Forall fun op => op.writes ⊆ (s15_W.map (Proc.devRef (τ := τ) .tc)).toFinset := by
  stretch_writes s15
/-- A buffer these operations do not write keeps its contents through them. -/
theorem s15_keep (W : Valuation τ sig (Elt F)) (r : Ref sig .tc) (h : r ∉ s15_W) :
    after (s15 (F := F)) W (Proc.devRef .tc r) = W (Proc.devRef .tc r) :=
  after_of_writes_sub s15 W s15_writes h

theorem s15_main_v220 (W : Valuation τ sig (Elt F)) (x0 : (⟨S524288x128, .f32⟩ : BufTy).Contents (Elt F)) (x1 : (⟨S524288x6, .f32⟩ : BufTy).Contents (Elt F)) (x2 : (⟨S524288x1, .f32⟩ : BufTy).Contents (Elt F)) (x3 : (⟨S128x64, .f32⟩ : BufTy).Contents (Elt F)) (x4 : (⟨S64, .f32⟩ : BufTy).Contents (Elt F)) (x5 : (⟨S64, .f32⟩ : BufTy).Contents (Elt F)) (x6 : (⟨S64x32, .f32⟩ : BufTy).Contents (Elt F)) (x7 : (⟨S32, .f32⟩ : BufTy).Contents (Elt F)) (x8 : (⟨S6x16, .f32⟩ : BufTy).Contents (Elt F)) (x9 : (⟨S16, .f32⟩ : BufTy).Contents (Elt F)) (x10 : (⟨S16, .f32⟩ : BufTy).Contents (Elt F)) (x11 : (⟨S16x32, .f32⟩ : BufTy).Contents (Elt F)) (x12 : (⟨S32, .f32⟩ : BufTy).Contents (Elt F)) (x13 : (⟨S1x16, .f32⟩ : BufTy).Contents (Elt F)) (x14 : (⟨S16, .f32⟩ : BufTy).Contents (Elt F)) (x15 : (⟨S16, .f32⟩ : BufTy).Contents (Elt F)) (x16 : (⟨S16x32, .f32⟩ : BufTy).Contents (Elt F)) (x17 : (⟨S32, .f32⟩ : BufTy).Contents (Elt F)) (x18 : (⟨S32x32, .f32⟩ : BufTy).Contents (Elt F)) (x19 : (⟨S32, .f32⟩ : BufTy).Contents (Elt F)) (x20 : (⟨S32, .f32⟩ : BufTy).Contents (Elt F)) (x21 : (⟨S32x16, .f32⟩ : BufTy).Contents (Elt F)) (x22 : (⟨S16, .f32⟩ : BufTy).Contents (Elt F)) (x23 : (⟨S135x64, .f32⟩ : BufTy).Contents (Elt F)) (x24 : (⟨S64, .f32⟩ : BufTy).Contents (Elt F)) (x25 : (⟨S64, .f32⟩ : BufTy).Contents (Elt F)) (x26 : (⟨S64x32, .f32⟩ : BufTy).Contents (Elt F)) (x27 : (⟨S32, .f32⟩ : BufTy).Contents (Elt F)) (x28 : (⟨S32, .f32⟩ : BufTy).Contents (Elt F)) (x29 : (⟨S32x16, .f32⟩ : BufTy).Contents (Elt F)) (x30 : (⟨S16, .f32⟩ : BufTy).Contents (Elt F)) (x31 : (⟨S32x16, .f32⟩ : BufTy).Contents (Elt F)) (x32 : (⟨S16, .f32⟩ : BufTy).Contents (Elt F)) (x33 : (⟨S16, .f32⟩ : BufTy).Contents (Elt F)) (x34 : (⟨S16x1, .f32⟩ : BufTy).Contents (Elt F)) (x35 : (⟨S1, .f32⟩ : BufTy).Contents (Elt F))
    (h_main_arg32 : W (no_index (Proc.devRef .tc main_arg32)) = x32)
    (h_main_arg33 : W (no_index (Proc.devRef .tc main_arg33)) = x33)
    (h_main_arg34 : W (no_index (Proc.devRef .tc main_arg34)) = x34)
    (h_main_arg35 : W (no_index (Proc.devRef .tc main_arg35)) = x35)
    (h_main_v209 : W (no_index (Proc.devRef .tc main_v209)) = val_main_v209 (F := F) x0 x1 x2 x3 x4 x5 x6 x7 x8 x9 x10 x11 x12 x13 x14 x15 x16 x17 x18 x19 x20 x21 x22 x23 x24 x25 x26 x27 x28 x29 x30 x31)
    : after (s15 (F := F)) W (Proc.devRef .tc main_v220) = val_main_v220 (F := F) x0 x1 x2 x3 x4 x5 x6 x7 x8 x9 x10 x11 x12 x13 x14 x15 x16 x17 x18 x19 x20 x21 x22 x23 x24 x25 x26 x27 x28 x29 x30 x31 x32 x33 x34 x35 := by
  stretch_read s15

end Cert.ReferenceIdeal.RunS

end
-- ==== Proof.RefRunSTab.lean ====
/-
  The reference program's @main read stretch by stretch. Its list of 273 operations is the concatenation of 15 stretches;
  W k is the contents of a device's buffers after the first k of them, from the launch contents. For every k and every buffer
  that is an argument of @main or is written by then and read later, the fact that W k holds the buffer's val_ term of the
  arguments' launch contents: by the stretch's own statement for a buffer the stretch writes, and because the stretch does not
  write it for any other.
-/
import proofs.«104010_j23570780520494_2_alg».proof.Proof.RefOps
import proofs.«104010_j23570780520494_2_alg».proof.Proof.RefStretch01
import proofs.«104010_j23570780520494_2_alg».proof.Proof.RefStretch02
import proofs.«104010_j23570780520494_2_alg».proof.Proof.RefStretch03
import proofs.«104010_j23570780520494_2_alg».proof.Proof.RefStretch04
import proofs.«104010_j23570780520494_2_alg».proof.Proof.RefStretch05
import proofs.«104010_j23570780520494_2_alg».proof.Proof.RefStretch06
import proofs.«104010_j23570780520494_2_alg».proof.Proof.RefStretch07
import proofs.«104010_j23570780520494_2_alg».proof.Proof.RefStretch08
import proofs.«104010_j23570780520494_2_alg».proof.Proof.RefStretch09
import proofs.«104010_j23570780520494_2_alg».proof.Proof.RefStretch10
import proofs.«104010_j23570780520494_2_alg».proof.Proof.RefStretch11
import proofs.«104010_j23570780520494_2_alg».proof.Proof.RefStretch12
import proofs.«104010_j23570780520494_2_alg».proof.Proof.RefStretch13
import proofs.«104010_j23570780520494_2_alg».proof.Proof.RefStretch14
import proofs.«104010_j23570780520494_2_alg».proof.Proof.RefStretch15

noncomputable section

namespace Cert.ReferenceIdeal.RunS

open Cert.ReferenceIdeal Cert.ReferenceIdeal.Gen Cert.ReferenceIdeal.Read Cert.ReferenceIdeal.Ops Idealize.ShloMosaic Idealize.ShloMosaic.TcCoe Idealize.SL.Sem Idealize.ShloMosaic.StableHlo

variable {F : FTy → Type} [FloatOps F]

set_option maxRecDepth 8192 in
/-- @main's operations are the stretches', one after the other. -/
theorem ops_eq : (ops : List (HloOp τ sig (Elt F))) = s01 ++ (s02 ++ (s03 ++ (s04 ++ (s05 ++ (s06 ++ (s07 ++ (s08 ++ (s09 ++ (s10 ++ (s11 ++ (s12 ++ (s13 ++ (s14 ++ (s15)))))))))))))) := rfl

variable (m : (ℓ : Loc nD τ sig) → Buf (Elt F) ℓ) (c : Dev nD)

/-- Argument 0's contents at the launch. -/
abbrev a0 : (⟨S524288x128, .f32⟩ : BufTy).Contents (Elt F) := m ((c.tc : Thread nD τ).loc main_arg0)
/-- Argument 1's contents at the launch. -/
abbrev a1 : (⟨S524288x6, .f32⟩ : BufTy).Contents (Elt F) := m ((c.tc : Thread nD τ).loc main_arg1)
/-- Argument 2's contents at the launch. -/
abbrev a2 : (⟨S524288x1, .f32⟩ : BufTy).Contents (Elt F) := m ((c.tc : Thread nD τ).loc main_arg2)
/-- Argument 3's contents at the launch. -/
abbrev a3 : (⟨S128x64, .f32⟩ : BufTy).Contents (Elt F) := m ((c.tc : Thread nD τ).loc main_arg3)
/-- Argument 4's contents at the launch. -/
abbrev a4 : (⟨S64, .f32⟩ : BufTy).Contents (Elt F) := m ((c.tc : Thread nD τ).loc main_arg4)
/-- Argument 5's contents at the launch. -/
abbrev a5 : (⟨S64, .f32⟩ : BufTy).Contents (Elt F) := m ((c.tc : Thread nD τ).loc main_arg5)
/-- Argument 6's contents at the launch. -/
abbrev a6 : (⟨S64x32, .f32⟩ : BufTy).Contents (Elt F) := m ((c.tc : Thread nD τ).loc main_arg6)
/-- Argument 7's contents at the launch. -/
abbrev a7 : (⟨S32, .f32⟩ : BufTy).Contents (Elt F) := m ((c.tc : Thread nD τ).loc main_arg7)
/-- Argument 8's contents at the launch. -/
abbrev a8 : (⟨S6x16, .f32⟩ : BufTy).Contents (Elt F) := m ((c.tc : Thread nD τ).loc main_arg8)
/-- Argument 9's contents at the launch. -/
abbrev a9 : (⟨S16, .f32⟩ : BufTy).Contents (Elt F) := m ((c.tc : Thread nD τ).loc main_arg9)
/-- Argument 10's contents at the launch. -/
abbrev a10 : (⟨S16, .f32⟩ : BufTy).Contents (Elt F) := m ((c.tc : Thread nD τ).loc main_arg10)
/-- Argument 11's contents at the launch. -/
abbrev a11 : (⟨S16x32, .f32⟩ : BufTy).Contents (Elt F) := m ((c.tc : Thread nD τ).loc main_arg11)
/-- Argument 12's contents at the launch. -/
abbrev a12 : (⟨S32, .f32⟩ : BufTy).Contents (Elt F) := m ((c.tc : Thread nD τ).loc main_arg12)
/-- Argument 13's contents at the launch. -/
abbrev a13 : (⟨S1x16, .f32⟩ : BufTy).Contents (Elt F) := m ((c.tc : Thread nD τ).loc main_arg13)
/-- Argument 14's contents at the launch. -/
abbrev a14 : (⟨S16, .f32⟩ : BufTy).Contents (Elt F) := m ((c.tc : Thread nD τ).loc main_arg14)
/-- Argument 15's contents at the launch. -/
abbrev a15 : (⟨S16, .f32⟩ : BufTy).Contents (Elt F) := m ((c.tc : Thread nD τ).loc main_arg15)
/-- Argument 16's contents at the launch. -/
abbrev a16 : (⟨S16x32, .f32⟩ : BufTy).Contents (Elt F) := m ((c.tc : Thread nD τ).loc main_arg16)
/-- Argument 17's contents at the launch. -/
abbrev a17 : (⟨S32, .f32⟩ : BufTy).Contents (Elt F) := m ((c.tc : Thread nD τ).loc main_arg17)
/-- Argument 18's contents at the launch. -/
abbrev a18 : (⟨S32x32, .f32⟩ : BufTy).Contents (Elt F) := m ((c.tc : Thread nD τ).loc main_arg18)
/-- Argument 19's contents at the launch. -/
abbrev a19 : (⟨S32, .f32⟩ : BufTy).Contents (Elt F) := m ((c.tc : Thread nD τ).loc main_arg19)
/-- Argument 20's contents at the launch. -/
abbrev a20 : (⟨S32, .f32⟩ : BufTy).Contents (Elt F) := m ((c.tc : Thread nD τ).loc main_arg20)
/-- Argument 21's contents at the launch. -/
abbrev a21 : (⟨S32x16, .f32⟩ : BufTy).Contents (Elt F) := m ((c.tc : Thread nD τ).loc main_arg21)
/-- Argument 22's contents at the launch. -/
abbrev a22 : (⟨S16, .f32⟩ : BufTy).Contents (Elt F) := m ((c.tc : Thread nD τ).loc main_arg22)
/-- Argument 23's contents at the launch. -/
abbrev a23 : (⟨S135x64, .f32⟩ : BufTy).Contents (Elt F) := m ((c.tc : Thread nD τ).loc main_arg23)
/-- Argument 24's contents at the launch. -/
abbrev a24 : (⟨S64, .f32⟩ : BufTy).Contents (Elt F) := m ((c.tc : Thread nD τ).loc main_arg24)
/-- Argument 25's contents at the launch. -/
abbrev a25 : (⟨S64, .f32⟩ : BufTy).Contents (Elt F) := m ((c.tc : Thread nD τ).loc main_arg25)
/-- Argument 26's contents at the launch. -/
abbrev a26 : (⟨S64x32, .f32⟩ : BufTy).Contents (Elt F) := m ((c.tc : Thread nD τ).loc main_arg26)
/-- Argument 27's contents at the launch. -/
abbrev a27 : (⟨S32, .f32⟩ : BufTy).Contents (Elt F) := m ((c.tc : Thread nD τ).loc main_arg27)
/-- Argument 28's contents at the launch. -/
abbrev a28 : (⟨S32, .f32⟩ : BufTy).Contents (Elt F) := m ((c.tc : Thread nD τ).loc main_arg28)
/-- Argument 29's contents at the launch. -/
abbrev a29 : (⟨S32x16, .f32⟩ : BufTy).Contents (Elt F) := m ((c.tc : Thread nD τ).loc main_arg29)
/-- Argument 30's contents at the launch. -/
abbrev a30 : (⟨S16, .f32⟩ : BufTy).Contents (Elt F) := m ((c.tc : Thread nD τ).loc main_arg30)
/-- Argument 31's contents at the launch. -/
abbrev a31 : (⟨S32x16, .f32⟩ : BufTy).Contents (Elt F) := m ((c.tc : Thread nD τ).loc main_arg31)
/-- Argument 32's contents at the launch. -/
abbrev a32 : (⟨S16, .f32⟩ : BufTy).Contents (Elt F) := m ((c.tc : Thread nD τ).loc main_arg32)
/-- Argument 33's contents at the launch. -/
abbrev a33 : (⟨S16, .f32⟩ : BufTy).Contents (Elt F) := m ((c.tc : Thread nD τ).loc main_arg33)
/-- Argument 34's contents at the launch. -/
abbrev a34 : (⟨S16x1, .f32⟩ : BufTy).Contents (Elt F) := m ((c.tc : Thread nD τ).loc main_arg34)
/-- Argument 35's contents at the launch. -/
abbrev a35 : (⟨S1, .f32⟩ : BufTy).Contents (Elt F) := m ((c.tc : Thread nD τ).loc main_arg35)

/-- The device's buffer contents at the launch. -/
def W0 : Valuation τ sig (Elt F) := launchContents m c
theorem W0_main_arg0 : W0 m c (no_index (Proc.devRef .tc main_arg0)) = (a0 m c) := rfl
theorem W0_main_arg1 : W0 m c (no_index (Proc.devRef .tc main_arg1)) = (a1 m c) := rfl
theorem W0_main_arg2 : W0 m c (no_index (Proc.devRef .tc main_arg2)) = (a2 m c) := rfl
theorem W0_main_arg3 : W0 m c (no_index (Proc.devRef .tc main_arg3)) = (a3 m c) := rfl
theorem W0_main_arg4 : W0 m c (no_index (Proc.devRef .tc main_arg4)) = (a4 m c) := rfl
theorem W0_main_arg5 : W0 m c (no_index (Proc.devRef .tc main_arg5)) = (a5 m c) := rfl
theorem W0_main_arg6 : W0 m c (no_index (Proc.devRef .tc main_arg6)) = (a6 m c) := rfl
theorem W0_main_arg7 : W0 m c (no_index (Proc.devRef .tc main_arg7)) = (a7 m c) := rfl
theorem W0_main_arg8 : W0 m c (no_index (Proc.devRef .tc main_arg8)) = (a8 m c) := rfl
theorem W0_main_arg9 : W0 m c (no_index (Proc.devRef .tc main_arg9)) = (a9 m c) := rfl
theorem W0_main_arg10 : W0 m c (no_index (Proc.devRef .tc main_arg10)) = (a10 m c) := rfl
theorem W0_main_arg11 : W0 m c (no_index (Proc.devRef .tc main_arg11)) = (a11 m c) := rfl
theorem W0_main_arg12 : W0 m c (no_index (Proc.devRef .tc main_arg12)) = (a12 m c) := rfl
theorem W0_main_arg13 : W0 m c (no_index (Proc.devRef .tc main_arg13)) = (a13 m c) := rfl
theorem W0_main_arg14 : W0 m c (no_index (Proc.devRef .tc main_arg14)) = (a14 m c) := rfl
theorem W0_main_arg15 : W0 m c (no_index (Proc.devRef .tc main_arg15)) = (a15 m c) := rfl
theorem W0_main_arg16 : W0 m c (no_index (Proc.devRef .tc main_arg16)) = (a16 m c) := rfl
theorem W0_main_arg17 : W0 m c (no_index (Proc.devRef .tc main_arg17)) = (a17 m c) := rfl
theorem W0_main_arg18 : W0 m c (no_index (Proc.devRef .tc main_arg18)) = (a18 m c) := rfl
theorem W0_main_arg19 : W0 m c (no_index (Proc.devRef .tc main_arg19)) = (a19 m c) := rfl
theorem W0_main_arg20 : W0 m c (no_index (Proc.devRef .tc main_arg20)) = (a20 m c) := rfl
theorem W0_main_arg21 : W0 m c (no_index (Proc.devRef .tc main_arg21)) = (a21 m c) := rfl
theorem W0_main_arg22 : W0 m c (no_index (Proc.devRef .tc main_arg22)) = (a22 m c) := rfl
theorem W0_main_arg23 : W0 m c (no_index (Proc.devRef .tc main_arg23)) = (a23 m c) := rfl
theorem W0_main_arg24 : W0 m c (no_index (Proc.devRef .tc main_arg24)) = (a24 m c) := rfl
theorem W0_main_arg25 : W0 m c (no_index (Proc.devRef .tc main_arg25)) = (a25 m c) := rfl
theorem W0_main_arg26 : W0 m c (no_index (Proc.devRef .tc main_arg26)) = (a26 m c) := rfl
theorem W0_main_arg27 : W0 m c (no_index (Proc.devRef .tc main_arg27)) = (a27 m c) := rfl
theorem W0_main_arg28 : W0 m c (no_index (Proc.devRef .tc main_arg28)) = (a28 m c) := rfl
theorem W0_main_arg29 : W0 m c (no_index (Proc.devRef .tc main_arg29)) = (a29 m c) := rfl
theorem W0_main_arg30 : W0 m c (no_index (Proc.devRef .tc main_arg30)) = (a30 m c) := rfl
theorem W0_main_arg31 : W0 m c (no_index (Proc.devRef .tc main_arg31)) = (a31 m c) := rfl
theorem W0_main_arg32 : W0 m c (no_index (Proc.devRef .tc main_arg32)) = (a32 m c) := rfl
theorem W0_main_arg33 : W0 m c (no_index (Proc.devRef .tc main_arg33)) = (a33 m c) := rfl
theorem W0_main_arg34 : W0 m c (no_index (Proc.devRef .tc main_arg34)) = (a34 m c) := rfl
theorem W0_main_arg35 : W0 m c (no_index (Proc.devRef .tc main_arg35)) = (a35 m c) := rfl

/-- The device's buffer contents after the first 1 stretch. -/
def W1 : Valuation τ sig (Elt F) := after s01 (W0 m c)
theorem W1_main_arg0 : W1 m c (no_index (Proc.devRef .tc main_arg0)) = (a0 m c) :=
  (s01_keep (W0 m c) main_arg0 (by decide)).trans (W0_main_arg0 m c)
theorem W1_main_arg1 : W1 m c (no_index (Proc.devRef .tc main_arg1)) = (a1 m c) :=
  (s01_keep (W0 m c) main_arg1 (by decide)).trans (W0_main_arg1 m c)
theorem W1_main_arg2 : W1 m c (no_index (Proc.devRef .tc main_arg2)) = (a2 m c) :=
  (s01_keep (W0 m c) main_arg2 (by decide)).trans (W0_main_arg2 m c)
theorem W1_main_arg3 : W1 m c (no_index (Proc.devRef .tc main_arg3)) = (a3 m c) :=
  (s01_keep (W0 m c) main_arg3 (by decide)).trans (W0_main_arg3 m c)
theorem W1_main_arg4 : W1 m c (no_index (Proc.devRef .tc main_arg4)) = (a4 m c) :=
  (s01_keep (W0 m c) main_arg4 (by decide)).trans (W0_main_arg4 m c)
theorem W1_main_arg5 : W1 m c (no_index (Proc.devRef .tc main_arg5)) = (a5 m c) :=
  (s01_keep (W0 m c) main_arg5 (by decide)).trans (W0_main_arg5 m c)
theorem W1_main_arg6 : W1 m c (no_index (Proc.devRef .tc main_arg6)) = (a6 m c) :=
  (s01_keep (W0 m c) main_arg6 (by decide)).trans (W0_main_arg6 m c)
theorem W1_main_arg7 : W1 m c (no_index (Proc.devRef .tc main_arg7)) = (a7 m c) :=
  (s01_keep (W0 m c) main_arg7 (by decide)).trans (W0_main_arg7 m c)
theorem W1_main_arg8 : W1 m c (no_index (Proc.devRef .tc main_arg8)) = (a8 m c) :=
  (s01_keep (W0 m c) main_arg8 (by decide)).trans (W0_main_arg8 m c)
theorem W1_main_arg9 : W1 m c (no_index (Proc.devRef .tc main_arg9)) = (a9 m c) :=
  (s01_keep (W0 m c) main_arg9 (by decide)).trans (W0_main_arg9 m c)
theorem W1_main_arg10 : W1 m c (no_index (Proc.devRef .tc main_arg10)) = (a10 m c) :=
  (s01_keep (W0 m c) main_arg10 (by decide)).trans (W0_main_arg10 m c)
theorem W1_main_arg11 : W1 m c (no_index (Proc.devRef .tc main_arg11)) = (a11 m c) :=
  (s01_keep (W0 m c) main_arg11 (by decide)).trans (W0_main_arg11 m c)
theorem W1_main_arg12 : W1 m c (no_index (Proc.devRef .tc main_arg12)) = (a12 m c) :=
  (s01_keep (W0 m c) main_arg12 (by decide)).trans (W0_main_arg12 m c)
theorem W1_main_arg13 : W1 m c (no_index (Proc.devRef .tc main_arg13)) = (a13 m c) :=
  (s01_keep (W0 m c) main_arg13 (by decide)).trans (W0_main_arg13 m c)
theorem W1_main_arg14 : W1 m c (no_index (Proc.devRef .tc main_arg14)) = (a14 m c) :=
  (s01_keep (W0 m c) main_arg14 (by decide)).trans (W0_main_arg14 m c)
theorem W1_main_arg15 : W1 m c (no_index (Proc.devRef .tc main_arg15)) = (a15 m c) :=
  (s01_keep (W0 m c) main_arg15 (by decide)).trans (W0_main_arg15 m c)
theorem W1_main_arg16 : W1 m c (no_index (Proc.devRef .tc main_arg16)) = (a16 m c) :=
  (s01_keep (W0 m c) main_arg16 (by decide)).trans (W0_main_arg16 m c)
theorem W1_main_arg17 : W1 m c (no_index (Proc.devRef .tc main_arg17)) = (a17 m c) :=
  (s01_keep (W0 m c) main_arg17 (by decide)).trans (W0_main_arg17 m c)
theorem W1_main_arg18 : W1 m c (no_index (Proc.devRef .tc main_arg18)) = (a18 m c) :=
  (s01_keep (W0 m c) main_arg18 (by decide)).trans (W0_main_arg18 m c)
theorem W1_main_arg19 : W1 m c (no_index (Proc.devRef .tc main_arg19)) = (a19 m c) :=
  (s01_keep (W0 m c) main_arg19 (by decide)).trans (W0_main_arg19 m c)
theorem W1_main_arg20 : W1 m c (no_index (Proc.devRef .tc main_arg20)) = (a20 m c) :=
  (s01_keep (W0 m c) main_arg20 (by decide)).trans (W0_main_arg20 m c)
theorem W1_main_arg21 : W1 m c (no_index (Proc.devRef .tc main_arg21)) = (a21 m c) :=
  (s01_keep (W0 m c) main_arg21 (by decide)).trans (W0_main_arg21 m c)
theorem W1_main_arg22 : W1 m c (no_index (Proc.devRef .tc main_arg22)) = (a22 m c) :=
  (s01_keep (W0 m c) main_arg22 (by decide)).trans (W0_main_arg22 m c)
theorem W1_main_arg23 : W1 m c (no_index (Proc.devRef .tc main_arg23)) = (a23 m c) :=
  (s01_keep (W0 m c) main_arg23 (by decide)).trans (W0_main_arg23 m c)
theorem W1_main_arg24 : W1 m c (no_index (Proc.devRef .tc main_arg24)) = (a24 m c) :=
  (s01_keep (W0 m c) main_arg24 (by decide)).trans (W0_main_arg24 m c)
theorem W1_main_arg25 : W1 m c (no_index (Proc.devRef .tc main_arg25)) = (a25 m c) :=
  (s01_keep (W0 m c) main_arg25 (by decide)).trans (W0_main_arg25 m c)
theorem W1_main_arg26 : W1 m c (no_index (Proc.devRef .tc main_arg26)) = (a26 m c) :=
  (s01_keep (W0 m c) main_arg26 (by decide)).trans (W0_main_arg26 m c)
theorem W1_main_arg27 : W1 m c (no_index (Proc.devRef .tc main_arg27)) = (a27 m c) :=
  (s01_keep (W0 m c) main_arg27 (by decide)).trans (W0_main_arg27 m c)
theorem W1_main_arg28 : W1 m c (no_index (Proc.devRef .tc main_arg28)) = (a28 m c) :=
  (s01_keep (W0 m c) main_arg28 (by decide)).trans (W0_main_arg28 m c)
theorem W1_main_arg29 : W1 m c (no_index (Proc.devRef .tc main_arg29)) = (a29 m c) :=
  (s01_keep (W0 m c) main_arg29 (by decide)).trans (W0_main_arg29 m c)
theorem W1_main_arg30 : W1 m c (no_index (Proc.devRef .tc main_arg30)) = (a30 m c) :=
  (s01_keep (W0 m c) main_arg30 (by decide)).trans (W0_main_arg30 m c)
theorem W1_main_arg31 : W1 m c (no_index (Proc.devRef .tc main_arg31)) = (a31 m c) :=
  (s01_keep (W0 m c) main_arg31 (by decide)).trans (W0_main_arg31 m c)
theorem W1_main_arg32 : W1 m c (no_index (Proc.devRef .tc main_arg32)) = (a32 m c) :=
  (s01_keep (W0 m c) main_arg32 (by decide)).trans (W0_main_arg32 m c)
theorem W1_main_arg33 : W1 m c (no_index (Proc.devRef .tc main_arg33)) = (a33 m c) :=
  (s01_keep (W0 m c) main_arg33 (by decide)).trans (W0_main_arg33 m c)
theorem W1_main_arg34 : W1 m c (no_index (Proc.devRef .tc main_arg34)) = (a34 m c) :=
  (s01_keep (W0 m c) main_arg34 (by decide)).trans (W0_main_arg34 m c)
theorem W1_main_arg35 : W1 m c (no_index (Proc.devRef .tc main_arg35)) = (a35 m c) :=
  (s01_keep (W0 m c) main_arg35 (by decide)).trans (W0_main_arg35 m c)
theorem W1_main_v19 : W1 m c (no_index (Proc.devRef .tc main_v19)) = val_main_v19 (F := F) (a0 m c) (a1 m c) (a2 m c) (a23 m c) :=
  s01_main_v19 (W0 m c) (a0 m c) (a1 m c) (a2 m c) (a23 m c) (W0_main_arg0 m c) (W0_main_arg1 m c) (W0_main_arg2 m c) (W0_main_arg23 m c)

/-- The device's buffer contents after the first 2 stretches. -/
def W2 : Valuation τ sig (Elt F) := after s02 (W1 m c)
theorem W2_main_arg0 : W2 m c (no_index (Proc.devRef .tc main_arg0)) = (a0 m c) :=
  (s02_keep (W1 m c) main_arg0 (by decide)).trans (W1_main_arg0 m c)
theorem W2_main_arg1 : W2 m c (no_index (Proc.devRef .tc main_arg1)) = (a1 m c) :=
  (s02_keep (W1 m c) main_arg1 (by decide)).trans (W1_main_arg1 m c)
theorem W2_main_arg2 : W2 m c (no_index (Proc.devRef .tc main_arg2)) = (a2 m c) :=
  (s02_keep (W1 m c) main_arg2 (by decide)).trans (W1_main_arg2 m c)
theorem W2_main_arg3 : W2 m c (no_index (Proc.devRef .tc main_arg3)) = (a3 m c) :=
  (s02_keep (W1 m c) main_arg3 (by decide)).trans (W1_main_arg3 m c)
theorem W2_main_arg4 : W2 m c (no_index (Proc.devRef .tc main_arg4)) = (a4 m c) :=
  (s02_keep (W1 m c) main_arg4 (by decide)).trans (W1_main_arg4 m c)
theorem W2_main_arg5 : W2 m c (no_index (Proc.devRef .tc main_arg5)) = (a5 m c) :=
  (s02_keep (W1 m c) main_arg5 (by decide)).trans (W1_main_arg5 m c)
theorem W2_main_arg6 : W2 m c (no_index (Proc.devRef .tc main_arg6)) = (a6 m c) :=
  (s02_keep (W1 m c) main_arg6 (by decide)).trans (W1_main_arg6 m c)
theorem W2_main_arg7 : W2 m c (no_index (Proc.devRef .tc main_arg7)) = (a7 m c) :=
  (s02_keep (W1 m c) main_arg7 (by decide)).trans (W1_main_arg7 m c)
theorem W2_main_arg8 : W2 m c (no_index (Proc.devRef .tc main_arg8)) = (a8 m c) :=
  (s02_keep (W1 m c) main_arg8 (by decide)).trans (W1_main_arg8 m c)
theorem W2_main_arg9 : W2 m c (no_index (Proc.devRef .tc main_arg9)) = (a9 m c) :=
  (s02_keep (W1 m c) main_arg9 (by decide)).trans (W1_main_arg9 m c)
theorem W2_main_arg10 : W2 m c (no_index (Proc.devRef .tc main_arg10)) = (a10 m c) :=
  (s02_keep (W1 m c) main_arg10 (by decide)).trans (W1_main_arg10 m c)
theorem W2_main_arg11 : W2 m c (no_index (Proc.devRef .tc main_arg11)) = (a11 m c) :=
  (s02_keep (W1 m c) main_arg11 (by decide)).trans (W1_main_arg11 m c)
theorem W2_main_arg12 : W2 m c (no_index (Proc.devRef .tc main_arg12)) = (a12 m c) :=
  (s02_keep (W1 m c) main_arg12 (by decide)).trans (W1_main_arg12 m c)
theorem W2_main_arg13 : W2 m c (no_index (Proc.devRef .tc main_arg13)) = (a13 m c) :=
  (s02_keep (W1 m c) main_arg13 (by decide)).trans (W1_main_arg13 m c)
theorem W2_main_arg14 : W2 m c (no_index (Proc.devRef .tc main_arg14)) = (a14 m c) :=
  (s02_keep (W1 m c) main_arg14 (by decide)).trans (W1_main_arg14 m c)
theorem W2_main_arg15 : W2 m c (no_index (Proc.devRef .tc main_arg15)) = (a15 m c) :=
  (s02_keep (W1 m c) main_arg15 (by decide)).trans (W1_main_arg15 m c)
theorem W2_main_arg16 : W2 m c (no_index (Proc.devRef .tc main_arg16)) = (a16 m c) :=
  (s02_keep (W1 m c) main_arg16 (by decide)).trans (W1_main_arg16 m c)
theorem W2_main_arg17 : W2 m c (no_index (Proc.devRef .tc main_arg17)) = (a17 m c) :=
  (s02_keep (W1 m c) main_arg17 (by decide)).trans (W1_main_arg17 m c)
theorem W2_main_arg18 : W2 m c (no_index (Proc.devRef .tc main_arg18)) = (a18 m c) :=
  (s02_keep (W1 m c) main_arg18 (by decide)).trans (W1_main_arg18 m c)
theorem W2_main_arg19 : W2 m c (no_index (Proc.devRef .tc main_arg19)) = (a19 m c) :=
  (s02_keep (W1 m c) main_arg19 (by decide)).trans (W1_main_arg19 m c)
theorem W2_main_arg20 : W2 m c (no_index (Proc.devRef .tc main_arg20)) = (a20 m c) :=
  (s02_keep (W1 m c) main_arg20 (by decide)).trans (W1_main_arg20 m c)
theorem W2_main_arg21 : W2 m c (no_index (Proc.devRef .tc main_arg21)) = (a21 m c) :=
  (s02_keep (W1 m c) main_arg21 (by decide)).trans (W1_main_arg21 m c)
theorem W2_main_arg22 : W2 m c (no_index (Proc.devRef .tc main_arg22)) = (a22 m c) :=
  (s02_keep (W1 m c) main_arg22 (by decide)).trans (W1_main_arg22 m c)
theorem W2_main_arg23 : W2 m c (no_index (Proc.devRef .tc main_arg23)) = (a23 m c) :=
  (s02_keep (W1 m c) main_arg23 (by decide)).trans (W1_main_arg23 m c)
theorem W2_main_arg24 : W2 m c (no_index (Proc.devRef .tc main_arg24)) = (a24 m c) :=
  (s02_keep (W1 m c) main_arg24 (by decide)).trans (W1_main_arg24 m c)
theorem W2_main_arg25 : W2 m c (no_index (Proc.devRef .tc main_arg25)) = (a25 m c) :=
  (s02_keep (W1 m c) main_arg25 (by decide)).trans (W1_main_arg25 m c)
theorem W2_main_arg26 : W2 m c (no_index (Proc.devRef .tc main_arg26)) = (a26 m c) :=
  (s02_keep (W1 m c) main_arg26 (by decide)).trans (W1_main_arg26 m c)
theorem W2_main_arg27 : W2 m c (no_index (Proc.devRef .tc main_arg27)) = (a27 m c) :=
  (s02_keep (W1 m c) main_arg27 (by decide)).trans (W1_main_arg27 m c)
theorem W2_main_arg28 : W2 m c (no_index (Proc.devRef .tc main_arg28)) = (a28 m c) :=
  (s02_keep (W1 m c) main_arg28 (by decide)).trans (W1_main_arg28 m c)
theorem W2_main_arg29 : W2 m c (no_index (Proc.devRef .tc main_arg29)) = (a29 m c) :=
  (s02_keep (W1 m c) main_arg29 (by decide)).trans (W1_main_arg29 m c)
theorem W2_main_arg30 : W2 m c (no_index (Proc.devRef .tc main_arg30)) = (a30 m c) :=
  (s02_keep (W1 m c) main_arg30 (by decide)).trans (W1_main_arg30 m c)
theorem W2_main_arg31 : W2 m c (no_index (Proc.devRef .tc main_arg31)) = (a31 m c) :=
  (s02_keep (W1 m c) main_arg31 (by decide)).trans (W1_main_arg31 m c)
theorem W2_main_arg32 : W2 m c (no_index (Proc.devRef .tc main_arg32)) = (a32 m c) :=
  (s02_keep (W1 m c) main_arg32 (by decide)).trans (W1_main_arg32 m c)
theorem W2_main_arg33 : W2 m c (no_index (Proc.devRef .tc main_arg33)) = (a33 m c) :=
  (s02_keep (W1 m c) main_arg33 (by decide)).trans (W1_main_arg33 m c)
theorem W2_main_arg34 : W2 m c (no_index (Proc.devRef .tc main_arg34)) = (a34 m c) :=
  (s02_keep (W1 m c) main_arg34 (by decide)).trans (W1_main_arg34 m c)
theorem W2_main_arg35 : W2 m c (no_index (Proc.devRef .tc main_arg35)) = (a35 m c) :=
  (s02_keep (W1 m c) main_arg35 (by decide)).trans (W1_main_arg35 m c)
theorem W2_main_v27 : W2 m c (no_index (Proc.devRef .tc main_v27)) = val_main_v27 (F := F) (a0 m c) (a1 m c) (a2 m c) (a23 m c) (a24 m c) (a25 m c) (a26 m c) :=
  s02_main_v27 (W1 m c) (a0 m c) (a1 m c) (a2 m c) (a23 m c) (a24 m c) (a25 m c) (a26 m c) (W1_main_arg24 m c) (W1_main_arg25 m c) (W1_main_arg26 m c) (W1_main_v19 m c)

/-- The device's buffer contents after the first 3 stretches. -/
def W3 : Valuation τ sig (Elt F) := after s03 (W2 m c)
theorem W3_main_arg0 : W3 m c (no_index (Proc.devRef .tc main_arg0)) = (a0 m c) :=
  (s03_keep (W2 m c) main_arg0 (by decide)).trans (W2_main_arg0 m c)
theorem W3_main_arg1 : W3 m c (no_index (Proc.devRef .tc main_arg1)) = (a1 m c) :=
  (s03_keep (W2 m c) main_arg1 (by decide)).trans (W2_main_arg1 m c)
theorem W3_main_arg2 : W3 m c (no_index (Proc.devRef .tc main_arg2)) = (a2 m c) :=
  (s03_keep (W2 m c) main_arg2 (by decide)).trans (W2_main_arg2 m c)
theorem W3_main_arg3 : W3 m c (no_index (Proc.devRef .tc main_arg3)) = (a3 m c) :=
  (s03_keep (W2 m c) main_arg3 (by decide)).trans (W2_main_arg3 m c)
theorem W3_main_arg4 : W3 m c (no_index (Proc.devRef .tc main_arg4)) = (a4 m c) :=
  (s03_keep (W2 m c) main_arg4 (by decide)).trans (W2_main_arg4 m c)
theorem W3_main_arg5 : W3 m c (no_index (Proc.devRef .tc main_arg5)) = (a5 m c) :=
  (s03_keep (W2 m c) main_arg5 (by decide)).trans (W2_main_arg5 m c)
theorem W3_main_arg6 : W3 m c (no_index (Proc.devRef .tc main_arg6)) = (a6 m c) :=
  (s03_keep (W2 m c) main_arg6 (by decide)).trans (W2_main_arg6 m c)
theorem W3_main_arg7 : W3 m c (no_index (Proc.devRef .tc main_arg7)) = (a7 m c) :=
  (s03_keep (W2 m c) main_arg7 (by decide)).trans (W2_main_arg7 m c)
theorem W3_main_arg8 : W3 m c (no_index (Proc.devRef .tc main_arg8)) = (a8 m c) :=
  (s03_keep (W2 m c) main_arg8 (by decide)).trans (W2_main_arg8 m c)
theorem W3_main_arg9 : W3 m c (no_index (Proc.devRef .tc main_arg9)) = (a9 m c) :=
  (s03_keep (W2 m c) main_arg9 (by decide)).trans (W2_main_arg9 m c)
theorem W3_main_arg10 : W3 m c (no_index (Proc.devRef .tc main_arg10)) = (a10 m c) :=
  (s03_keep (W2 m c) main_arg10 (by decide)).trans (W2_main_arg10 m c)
theorem W3_main_arg11 : W3 m c (no_index (Proc.devRef .tc main_arg11)) = (a11 m c) :=
  (s03_keep (W2 m c) main_arg11 (by decide)).trans (W2_main_arg11 m c)
theorem W3_main_arg12 : W3 m c (no_index (Proc.devRef .tc main_arg12)) = (a12 m c) :=
  (s03_keep (W2 m c) main_arg12 (by decide)).trans (W2_main_arg12 m c)
theorem W3_main_arg13 : W3 m c (no_index (Proc.devRef .tc main_arg13)) = (a13 m c) :=
  (s03_keep (W2 m c) main_arg13 (by decide)).trans (W2_main_arg13 m c)
theorem W3_main_arg14 : W3 m c (no_index (Proc.devRef .tc main_arg14)) = (a14 m c) :=
  (s03_keep (W2 m c) main_arg14 (by decide)).trans (W2_main_arg14 m c)
theorem W3_main_arg15 : W3 m c (no_index (Proc.devRef .tc main_arg15)) = (a15 m c) :=
  (s03_keep (W2 m c) main_arg15 (by decide)).trans (W2_main_arg15 m c)
theorem W3_main_arg16 : W3 m c (no_index (Proc.devRef .tc main_arg16)) = (a16 m c) :=
  (s03_keep (W2 m c) main_arg16 (by decide)).trans (W2_main_arg16 m c)
theorem W3_main_arg17 : W3 m c (no_index (Proc.devRef .tc main_arg17)) = (a17 m c) :=
  (s03_keep (W2 m c) main_arg17 (by decide)).trans (W2_main_arg17 m c)
theorem W3_main_arg18 : W3 m c (no_index (Proc.devRef .tc main_arg18)) = (a18 m c) :=
  (s03_keep (W2 m c) main_arg18 (by decide)).trans (W2_main_arg18 m c)
theorem W3_main_arg19 : W3 m c (no_index (Proc.devRef .tc main_arg19)) = (a19 m c) :=
  (s03_keep (W2 m c) main_arg19 (by decide)).trans (W2_main_arg19 m c)
theorem W3_main_arg20 : W3 m c (no_index (Proc.devRef .tc main_arg20)) = (a20 m c) :=
  (s03_keep (W2 m c) main_arg20 (by decide)).trans (W2_main_arg20 m c)
theorem W3_main_arg21 : W3 m c (no_index (Proc.devRef .tc main_arg21)) = (a21 m c) :=
  (s03_keep (W2 m c) main_arg21 (by decide)).trans (W2_main_arg21 m c)
theorem W3_main_arg22 : W3 m c (no_index (Proc.devRef .tc main_arg22)) = (a22 m c) :=
  (s03_keep (W2 m c) main_arg22 (by decide)).trans (W2_main_arg22 m c)
theorem W3_main_arg23 : W3 m c (no_index (Proc.devRef .tc main_arg23)) = (a23 m c) :=
  (s03_keep (W2 m c) main_arg23 (by decide)).trans (W2_main_arg23 m c)
theorem W3_main_arg24 : W3 m c (no_index (Proc.devRef .tc main_arg24)) = (a24 m c) :=
  (s03_keep (W2 m c) main_arg24 (by decide)).trans (W2_main_arg24 m c)
theorem W3_main_arg25 : W3 m c (no_index (Proc.devRef .tc main_arg25)) = (a25 m c) :=
  (s03_keep (W2 m c) main_arg25 (by decide)).trans (W2_main_arg25 m c)
theorem W3_main_arg26 : W3 m c (no_index (Proc.devRef .tc main_arg26)) = (a26 m c) :=
  (s03_keep (W2 m c) main_arg26 (by decide)).trans (W2_main_arg26 m c)
theorem W3_main_arg27 : W3 m c (no_index (Proc.devRef .tc main_arg27)) = (a27 m c) :=
  (s03_keep (W2 m c) main_arg27 (by decide)).trans (W2_main_arg27 m c)
theorem W3_main_arg28 : W3 m c (no_index (Proc.devRef .tc main_arg28)) = (a28 m c) :=
  (s03_keep (W2 m c) main_arg28 (by decide)).trans (W2_main_arg28 m c)
theorem W3_main_arg29 : W3 m c (no_index (Proc.devRef .tc main_arg29)) = (a29 m c) :=
  (s03_keep (W2 m c) main_arg29 (by decide)).trans (W2_main_arg29 m c)
theorem W3_main_arg30 : W3 m c (no_index (Proc.devRef .tc main_arg30)) = (a30 m c) :=
  (s03_keep (W2 m c) main_arg30 (by decide)).trans (W2_main_arg30 m c)
theorem W3_main_arg31 : W3 m c (no_index (Proc.devRef .tc main_arg31)) = (a31 m c) :=
  (s03_keep (W2 m c) main_arg31 (by decide)).trans (W2_main_arg31 m c)
theorem W3_main_arg32 : W3 m c (no_index (Proc.devRef .tc main_arg32)) = (a32 m c) :=
  (s03_keep (W2 m c) main_arg32 (by decide)).trans (W2_main_arg32 m c)
theorem W3_main_arg33 : W3 m c (no_index (Proc.devRef .tc main_arg33)) = (a33 m c) :=
  (s03_keep (W2 m c) main_arg33 (by decide)).trans (W2_main_arg33 m c)
theorem W3_main_arg34 : W3 m c (no_index (Proc.devRef .tc main_arg34)) = (a34 m c) :=
  (s03_keep (W2 m c) main_arg34 (by decide)).trans (W2_main_arg34 m c)
theorem W3_main_arg35 : W3 m c (no_index (Proc.devRef .tc main_arg35)) = (a35 m c) :=
  (s03_keep (W2 m c) main_arg35 (by decide)).trans (W2_main_arg35 m c)
theorem W3_main_v45 : W3 m c (no_index (Proc.devRef .tc main_v45)) = val_main_v45 (F := F) (a0 m c) (a1 m c) (a2 m c) (a23 m c) (a24 m c) (a25 m c) (a26 m c) :=
  s03_main_v45 (W2 m c) (a0 m c) (a1 m c) (a2 m c) (a23 m c) (a24 m c) (a25 m c) (a26 m c) (W2_main_v27 m c)

/-- The device's buffer contents after the first 4 stretches. -/
def W4 : Valuation τ sig (Elt F) := after s04 (W3 m c)
theorem W4_main_arg0 : W4 m c (no_index (Proc.devRef .tc main_arg0)) = (a0 m c) :=
  (s04_keep (W3 m c) main_arg0 (by decide)).trans (W3_main_arg0 m c)
theorem W4_main_arg1 : W4 m c (no_index (Proc.devRef .tc main_arg1)) = (a1 m c) :=
  (s04_keep (W3 m c) main_arg1 (by decide)).trans (W3_main_arg1 m c)
theorem W4_main_arg2 : W4 m c (no_index (Proc.devRef .tc main_arg2)) = (a2 m c) :=
  (s04_keep (W3 m c) main_arg2 (by decide)).trans (W3_main_arg2 m c)
theorem W4_main_arg3 : W4 m c (no_index (Proc.devRef .tc main_arg3)) = (a3 m c) :=
  (s04_keep (W3 m c) main_arg3 (by decide)).trans (W3_main_arg3 m c)
theorem W4_main_arg4 : W4 m c (no_index (Proc.devRef .tc main_arg4)) = (a4 m c) :=
  (s04_keep (W3 m c) main_arg4 (by decide)).trans (W3_main_arg4 m c)
theorem W4_main_arg5 : W4 m c (no_index (Proc.devRef .tc main_arg5)) = (a5 m c) :=
  (s04_keep (W3 m c) main_arg5 (by decide)).trans (W3_main_arg5 m c)
theorem W4_main_arg6 : W4 m c (no_index (Proc.devRef .tc main_arg6)) = (a6 m c) :=
  (s04_keep (W3 m c) main_arg6 (by decide)).trans (W3_main_arg6 m c)
theorem W4_main_arg7 : W4 m c (no_index (Proc.devRef .tc main_arg7)) = (a7 m c) :=
  (s04_keep (W3 m c) main_arg7 (by decide)).trans (W3_main_arg7 m c)
theorem W4_main_arg8 : W4 m c (no_index (Proc.devRef .tc main_arg8)) = (a8 m c) :=
  (s04_keep (W3 m c) main_arg8 (by decide)).trans (W3_main_arg8 m c)
theorem W4_main_arg9 : W4 m c (no_index (Proc.devRef .tc main_arg9)) = (a9 m c) :=
  (s04_keep (W3 m c) main_arg9 (by decide)).trans (W3_main_arg9 m c)
theorem W4_main_arg10 : W4 m c (no_index (Proc.devRef .tc main_arg10)) = (a10 m c) :=
  (s04_keep (W3 m c) main_arg10 (by decide)).trans (W3_main_arg10 m c)
theorem W4_main_arg11 : W4 m c (no_index (Proc.devRef .tc main_arg11)) = (a11 m c) :=
  (s04_keep (W3 m c) main_arg11 (by decide)).trans (W3_main_arg11 m c)
theorem W4_main_arg12 : W4 m c (no_index (Proc.devRef .tc main_arg12)) = (a12 m c) :=
  (s04_keep (W3 m c) main_arg12 (by decide)).trans (W3_main_arg12 m c)
theorem W4_main_arg13 : W4 m c (no_index (Proc.devRef .tc main_arg13)) = (a13 m c) :=
  (s04_keep (W3 m c) main_arg13 (by decide)).trans (W3_main_arg13 m c)
theorem W4_main_arg14 : W4 m c (no_index (Proc.devRef .tc main_arg14)) = (a14 m c) :=
  (s04_keep (W3 m c) main_arg14 (by decide)).trans (W3_main_arg14 m c)
theorem W4_main_arg15 : W4 m c (no_index (Proc.devRef .tc main_arg15)) = (a15 m c) :=
  (s04_keep (W3 m c) main_arg15 (by decide)).trans (W3_main_arg15 m c)
theorem W4_main_arg16 : W4 m c (no_index (Proc.devRef .tc main_arg16)) = (a16 m c) :=
  (s04_keep (W3 m c) main_arg16 (by decide)).trans (W3_main_arg16 m c)
theorem W4_main_arg17 : W4 m c (no_index (Proc.devRef .tc main_arg17)) = (a17 m c) :=
  (s04_keep (W3 m c) main_arg17 (by decide)).trans (W3_main_arg17 m c)
theorem W4_main_arg18 : W4 m c (no_index (Proc.devRef .tc main_arg18)) = (a18 m c) :=
  (s04_keep (W3 m c) main_arg18 (by decide)).trans (W3_main_arg18 m c)
theorem W4_main_arg19 : W4 m c (no_index (Proc.devRef .tc main_arg19)) = (a19 m c) :=
  (s04_keep (W3 m c) main_arg19 (by decide)).trans (W3_main_arg19 m c)
theorem W4_main_arg20 : W4 m c (no_index (Proc.devRef .tc main_arg20)) = (a20 m c) :=
  (s04_keep (W3 m c) main_arg20 (by decide)).trans (W3_main_arg20 m c)
theorem W4_main_arg21 : W4 m c (no_index (Proc.devRef .tc main_arg21)) = (a21 m c) :=
  (s04_keep (W3 m c) main_arg21 (by decide)).trans (W3_main_arg21 m c)
theorem W4_main_arg22 : W4 m c (no_index (Proc.devRef .tc main_arg22)) = (a22 m c) :=
  (s04_keep (W3 m c) main_arg22 (by decide)).trans (W3_main_arg22 m c)
theorem W4_main_arg23 : W4 m c (no_index (Proc.devRef .tc main_arg23)) = (a23 m c) :=
  (s04_keep (W3 m c) main_arg23 (by decide)).trans (W3_main_arg23 m c)
theorem W4_main_arg24 : W4 m c (no_index (Proc.devRef .tc main_arg24)) = (a24 m c) :=
  (s04_keep (W3 m c) main_arg24 (by decide)).trans (W3_main_arg24 m c)
theorem W4_main_arg25 : W4 m c (no_index (Proc.devRef .tc main_arg25)) = (a25 m c) :=
  (s04_keep (W3 m c) main_arg25 (by decide)).trans (W3_main_arg25 m c)
theorem W4_main_arg26 : W4 m c (no_index (Proc.devRef .tc main_arg26)) = (a26 m c) :=
  (s04_keep (W3 m c) main_arg26 (by decide)).trans (W3_main_arg26 m c)
theorem W4_main_arg27 : W4 m c (no_index (Proc.devRef .tc main_arg27)) = (a27 m c) :=
  (s04_keep (W3 m c) main_arg27 (by decide)).trans (W3_main_arg27 m c)
theorem W4_main_arg28 : W4 m c (no_index (Proc.devRef .tc main_arg28)) = (a28 m c) :=
  (s04_keep (W3 m c) main_arg28 (by decide)).trans (W3_main_arg28 m c)
theorem W4_main_arg29 : W4 m c (no_index (Proc.devRef .tc main_arg29)) = (a29 m c) :=
  (s04_keep (W3 m c) main_arg29 (by decide)).trans (W3_main_arg29 m c)
theorem W4_main_arg30 : W4 m c (no_index (Proc.devRef .tc main_arg30)) = (a30 m c) :=
  (s04_keep (W3 m c) main_arg30 (by decide)).trans (W3_main_arg30 m c)
theorem W4_main_arg31 : W4 m c (no_index (Proc.devRef .tc main_arg31)) = (a31 m c) :=
  (s04_keep (W3 m c) main_arg31 (by decide)).trans (W3_main_arg31 m c)
theorem W4_main_arg32 : W4 m c (no_index (Proc.devRef .tc main_arg32)) = (a32 m c) :=
  (s04_keep (W3 m c) main_arg32 (by decide)).trans (W3_main_arg32 m c)
theorem W4_main_arg33 : W4 m c (no_index (Proc.devRef .tc main_arg33)) = (a33 m c) :=
  (s04_keep (W3 m c) main_arg33 (by decide)).trans (W3_main_arg33 m c)
theorem W4_main_arg34 : W4 m c (no_index (Proc.devRef .tc main_arg34)) = (a34 m c) :=
  (s04_keep (W3 m c) main_arg34 (by decide)).trans (W3_main_arg34 m c)
theorem W4_main_arg35 : W4 m c (no_index (Proc.devRef .tc main_arg35)) = (a35 m c) :=
  (s04_keep (W3 m c) main_arg35 (by decide)).trans (W3_main_arg35 m c)
theorem W4_main_v56 : W4 m c (no_index (Proc.devRef .tc main_v56)) = val_main_v56 (F := F) (a0 m c) (a1 m c) (a2 m c) (a23 m c) (a24 m c) (a25 m c) (a26 m c) (a27 m c) (a28 m c) (a29 m c) (a30 m c) :=
  s04_main_v56 (W3 m c) (a0 m c) (a1 m c) (a2 m c) (a23 m c) (a24 m c) (a25 m c) (a26 m c) (a27 m c) (a28 m c) (a29 m c) (a30 m c) (W3_main_arg27 m c) (W3_main_arg28 m c) (W3_main_arg29 m c) (W3_main_arg30 m c) (W3_main_v45 m c)
theorem W4_main_v57 : W4 m c (no_index (Proc.devRef .tc main_v57)) = val_main_v57 (F := F) (a0 m c) (a3 m c) :=
  s04_main_v57 (W3 m c) (a0 m c) (a3 m c) (W3_main_arg0 m c) (W3_main_arg3 m c)

/-- The device's buffer contents after the first 5 stretches. -/
def W5 : Valuation τ sig (Elt F) := after s05 (W4 m c)
theorem W5_main_arg0 : W5 m c (no_index (Proc.devRef .tc main_arg0)) = (a0 m c) :=
  (s05_keep (W4 m c) main_arg0 (by decide)).trans (W4_main_arg0 m c)
theorem W5_main_arg1 : W5 m c (no_index (Proc.devRef .tc main_arg1)) = (a1 m c) :=
  (s05_keep (W4 m c) main_arg1 (by decide)).trans (W4_main_arg1 m c)
theorem W5_main_arg2 : W5 m c (no_index (Proc.devRef .tc main_arg2)) = (a2 m c) :=
  (s05_keep (W4 m c) main_arg2 (by decide)).trans (W4_main_arg2 m c)
theorem W5_main_arg3 : W5 m c (no_index (Proc.devRef .tc main_arg3)) = (a3 m c) :=
  (s05_keep (W4 m c) main_arg3 (by decide)).trans (W4_main_arg3 m c)
theorem W5_main_arg4 : W5 m c (no_index (Proc.devRef .tc main_arg4)) = (a4 m c) :=
  (s05_keep (W4 m c) main_arg4 (by decide)).trans (W4_main_arg4 m c)
theorem W5_main_arg5 : W5 m c (no_index (Proc.devRef .tc main_arg5)) = (a5 m c) :=
  (s05_keep (W4 m c) main_arg5 (by decide)).trans (W4_main_arg5 m c)
theorem W5_main_arg6 : W5 m c (no_index (Proc.devRef .tc main_arg6)) = (a6 m c) :=
  (s05_keep (W4 m c) main_arg6 (by decide)).trans (W4_main_arg6 m c)
theorem W5_main_arg7 : W5 m c (no_index (Proc.devRef .tc main_arg7)) = (a7 m c) :=
  (s05_keep (W4 m c) main_arg7 (by decide)).trans (W4_main_arg7 m c)
theorem W5_main_arg8 : W5 m c (no_index (Proc.devRef .tc main_arg8)) = (a8 m c) :=
  (s05_keep (W4 m c) main_arg8 (by decide)).trans (W4_main_arg8 m c)
theorem W5_main_arg9 : W5 m c (no_index (Proc.devRef .tc main_arg9)) = (a9 m c) :=
  (s05_keep (W4 m c) main_arg9 (by decide)).trans (W4_main_arg9 m c)
theorem W5_main_arg10 : W5 m c (no_index (Proc.devRef .tc main_arg10)) = (a10 m c) :=
  (s05_keep (W4 m c) main_arg10 (by decide)).trans (W4_main_arg10 m c)
theorem W5_main_arg11 : W5 m c (no_index (Proc.devRef .tc main_arg11)) = (a11 m c) :=
  (s05_keep (W4 m c) main_arg11 (by decide)).trans (W4_main_arg11 m c)
theorem W5_main_arg12 : W5 m c (no_index (Proc.devRef .tc main_arg12)) = (a12 m c) :=
  (s05_keep (W4 m c) main_arg12 (by decide)).trans (W4_main_arg12 m c)
theorem W5_main_arg13 : W5 m c (no_index (Proc.devRef .tc main_arg13)) = (a13 m c) :=
  (s05_keep (W4 m c) main_arg13 (by decide)).trans (W4_main_arg13 m c)
theorem W5_main_arg14 : W5 m c (no_index (Proc.devRef .tc main_arg14)) = (a14 m c) :=
  (s05_keep (W4 m c) main_arg14 (by decide)).trans (W4_main_arg14 m c)
theorem W5_main_arg15 : W5 m c (no_index (Proc.devRef .tc main_arg15)) = (a15 m c) :=
  (s05_keep (W4 m c) main_arg15 (by decide)).trans (W4_main_arg15 m c)
theorem W5_main_arg16 : W5 m c (no_index (Proc.devRef .tc main_arg16)) = (a16 m c) :=
  (s05_keep (W4 m c) main_arg16 (by decide)).trans (W4_main_arg16 m c)
theorem W5_main_arg17 : W5 m c (no_index (Proc.devRef .tc main_arg17)) = (a17 m c) :=
  (s05_keep (W4 m c) main_arg17 (by decide)).trans (W4_main_arg17 m c)
theorem W5_main_arg18 : W5 m c (no_index (Proc.devRef .tc main_arg18)) = (a18 m c) :=
  (s05_keep (W4 m c) main_arg18 (by decide)).trans (W4_main_arg18 m c)
theorem W5_main_arg19 : W5 m c (no_index (Proc.devRef .tc main_arg19)) = (a19 m c) :=
  (s05_keep (W4 m c) main_arg19 (by decide)).trans (W4_main_arg19 m c)
theorem W5_main_arg20 : W5 m c (no_index (Proc.devRef .tc main_arg20)) = (a20 m c) :=
  (s05_keep (W4 m c) main_arg20 (by decide)).trans (W4_main_arg20 m c)
theorem W5_main_arg21 : W5 m c (no_index (Proc.devRef .tc main_arg21)) = (a21 m c) :=
  (s05_keep (W4 m c) main_arg21 (by decide)).trans (W4_main_arg21 m c)
theorem W5_main_arg22 : W5 m c (no_index (Proc.devRef .tc main_arg22)) = (a22 m c) :=
  (s05_keep (W4 m c) main_arg22 (by decide)).trans (W4_main_arg22 m c)
theorem W5_main_arg23 : W5 m c (no_index (Proc.devRef .tc main_arg23)) = (a23 m c) :=
  (s05_keep (W4 m c) main_arg23 (by decide)).trans (W4_main_arg23 m c)
theorem W5_main_arg24 : W5 m c (no_index (Proc.devRef .tc main_arg24)) = (a24 m c) :=
  (s05_keep (W4 m c) main_arg24 (by decide)).trans (W4_main_arg24 m c)
theorem W5_main_arg25 : W5 m c (no_index (Proc.devRef .tc main_arg25)) = (a25 m c) :=
  (s05_keep (W4 m c) main_arg25 (by decide)).trans (W4_main_arg25 m c)
theorem W5_main_arg26 : W5 m c (no_index (Proc.devRef .tc main_arg26)) = (a26 m c) :=
  (s05_keep (W4 m c) main_arg26 (by decide)).trans (W4_main_arg26 m c)
theorem W5_main_arg27 : W5 m c (no_index (Proc.devRef .tc main_arg27)) = (a27 m c) :=
  (s05_keep (W4 m c) main_arg27 (by decide)).trans (W4_main_arg27 m c)
theorem W5_main_arg28 : W5 m c (no_index (Proc.devRef .tc main_arg28)) = (a28 m c) :=
  (s05_keep (W4 m c) main_arg28 (by decide)).trans (W4_main_arg28 m c)
theorem W5_main_arg29 : W5 m c (no_index (Proc.devRef .tc main_arg29)) = (a29 m c) :=
  (s05_keep (W4 m c) main_arg29 (by decide)).trans (W4_main_arg29 m c)
theorem W5_main_arg30 : W5 m c (no_index (Proc.devRef .tc main_arg30)) = (a30 m c) :=
  (s05_keep (W4 m c) main_arg30 (by decide)).trans (W4_main_arg30 m c)
theorem W5_main_arg31 : W5 m c (no_index (Proc.devRef .tc main_arg31)) = (a31 m c) :=
  (s05_keep (W4 m c) main_arg31 (by decide)).trans (W4_main_arg31 m c)
theorem W5_main_arg32 : W5 m c (no_index (Proc.devRef .tc main_arg32)) = (a32 m c) :=
  (s05_keep (W4 m c) main_arg32 (by decide)).trans (W4_main_arg32 m c)
theorem W5_main_arg33 : W5 m c (no_index (Proc.devRef .tc main_arg33)) = (a33 m c) :=
  (s05_keep (W4 m c) main_arg33 (by decide)).trans (W4_main_arg33 m c)
theorem W5_main_arg34 : W5 m c (no_index (Proc.devRef .tc main_arg34)) = (a34 m c) :=
  (s05_keep (W4 m c) main_arg34 (by decide)).trans (W4_main_arg34 m c)
theorem W5_main_arg35 : W5 m c (no_index (Proc.devRef .tc main_arg35)) = (a35 m c) :=
  (s05_keep (W4 m c) main_arg35 (by decide)).trans (W4_main_arg35 m c)
theorem W5_main_v56 : W5 m c (no_index (Proc.devRef .tc main_v56)) = val_main_v56 (F := F) (a0 m c) (a1 m c) (a2 m c) (a23 m c) (a24 m c) (a25 m c) (a26 m c) (a27 m c) (a28 m c) (a29 m c) (a30 m c) :=
  (s05_keep (W4 m c) main_v56 (by decide)).trans (W4_main_v56 m c)
theorem W5_main_v75 : W5 m c (no_index (Proc.devRef .tc main_v75)) = val_main_v75 (F := F) (a0 m c) (a3 m c) :=
  s05_main_v75 (W4 m c) (a0 m c) (a3 m c) (W4_main_v57 m c)

/-- The device's buffer contents after the first 6 stretches. -/
def W6 : Valuation τ sig (Elt F) := after s06 (W5 m c)
theorem W6_main_arg0 : W6 m c (no_index (Proc.devRef .tc main_arg0)) = (a0 m c) :=
  (s06_keep (W5 m c) main_arg0 (by decide)).trans (W5_main_arg0 m c)
theorem W6_main_arg1 : W6 m c (no_index (Proc.devRef .tc main_arg1)) = (a1 m c) :=
  (s06_keep (W5 m c) main_arg1 (by decide)).trans (W5_main_arg1 m c)
theorem W6_main_arg2 : W6 m c (no_index (Proc.devRef .tc main_arg2)) = (a2 m c) :=
  (s06_keep (W5 m c) main_arg2 (by decide)).trans (W5_main_arg2 m c)
theorem W6_main_arg3 : W6 m c (no_index (Proc.devRef .tc main_arg3)) = (a3 m c) :=
  (s06_keep (W5 m c) main_arg3 (by decide)).trans (W5_main_arg3 m c)
theorem W6_main_arg4 : W6 m c (no_index (Proc.devRef .tc main_arg4)) = (a4 m c) :=
  (s06_keep (W5 m c) main_arg4 (by decide)).trans (W5_main_arg4 m c)
theorem W6_main_arg5 : W6 m c (no_index (Proc.devRef .tc main_arg5)) = (a5 m c) :=
  (s06_keep (W5 m c) main_arg5 (by decide)).trans (W5_main_arg5 m c)
theorem W6_main_arg6 : W6 m c (no_index (Proc.devRef .tc main_arg6)) = (a6 m c) :=
  (s06_keep (W5 m c) main_arg6 (by decide)).trans (W5_main_arg6 m c)
theorem W6_main_arg7 : W6 m c (no_index (Proc.devRef .tc main_arg7)) = (a7 m c) :=
  (s06_keep (W5 m c) main_arg7 (by decide)).trans (W5_main_arg7 m c)
theorem W6_main_arg8 : W6 m c (no_index (Proc.devRef .tc main_arg8)) = (a8 m c) :=
  (s06_keep (W5 m c) main_arg8 (by decide)).trans (W5_main_arg8 m c)
theorem W6_main_arg9 : W6 m c (no_index (Proc.devRef .tc main_arg9)) = (a9 m c) :=
  (s06_keep (W5 m c) main_arg9 (by decide)).trans (W5_main_arg9 m c)
theorem W6_main_arg10 : W6 m c (no_index (Proc.devRef .tc main_arg10)) = (a10 m c) :=
  (s06_keep (W5 m c) main_arg10 (by decide)).trans (W5_main_arg10 m c)
theorem W6_main_arg11 : W6 m c (no_index (Proc.devRef .tc main_arg11)) = (a11 m c) :=
  (s06_keep (W5 m c) main_arg11 (by decide)).trans (W5_main_arg11 m c)
theorem W6_main_arg12 : W6 m c (no_index (Proc.devRef .tc main_arg12)) = (a12 m c) :=
  (s06_keep (W5 m c) main_arg12 (by decide)).trans (W5_main_arg12 m c)
theorem W6_main_arg13 : W6 m c (no_index (Proc.devRef .tc main_arg13)) = (a13 m c) :=
  (s06_keep (W5 m c) main_arg13 (by decide)).trans (W5_main_arg13 m c)
theorem W6_main_arg14 : W6 m c (no_index (Proc.devRef .tc main_arg14)) = (a14 m c) :=
  (s06_keep (W5 m c) main_arg14 (by decide)).trans (W5_main_arg14 m c)
theorem W6_main_arg15 : W6 m c (no_index (Proc.devRef .tc main_arg15)) = (a15 m c) :=
  (s06_keep (W5 m c) main_arg15 (by decide)).trans (W5_main_arg15 m c)
theorem W6_main_arg16 : W6 m c (no_index (Proc.devRef .tc main_arg16)) = (a16 m c) :=
  (s06_keep (W5 m c) main_arg16 (by decide)).trans (W5_main_arg16 m c)
theorem W6_main_arg17 : W6 m c (no_index (Proc.devRef .tc main_arg17)) = (a17 m c) :=
  (s06_keep (W5 m c) main_arg17 (by decide)).trans (W5_main_arg17 m c)
theorem W6_main_arg18 : W6 m c (no_index (Proc.devRef .tc main_arg18)) = (a18 m c) :=
  (s06_keep (W5 m c) main_arg18 (by decide)).trans (W5_main_arg18 m c)
theorem W6_main_arg19 : W6 m c (no_index (Proc.devRef .tc main_arg19)) = (a19 m c) :=
  (s06_keep (W5 m c) main_arg19 (by decide)).trans (W5_main_arg19 m c)
theorem W6_main_arg20 : W6 m c (no_index (Proc.devRef .tc main_arg20)) = (a20 m c) :=
  (s06_keep (W5 m c) main_arg20 (by decide)).trans (W5_main_arg20 m c)
theorem W6_main_arg21 : W6 m c (no_index (Proc.devRef .tc main_arg21)) = (a21 m c) :=
  (s06_keep (W5 m c) main_arg21 (by decide)).trans (W5_main_arg21 m c)
theorem W6_main_arg22 : W6 m c (no_index (Proc.devRef .tc main_arg22)) = (a22 m c) :=
  (s06_keep (W5 m c) main_arg22 (by decide)).trans (W5_main_arg22 m c)
theorem W6_main_arg23 : W6 m c (no_index (Proc.devRef .tc main_arg23)) = (a23 m c) :=
  (s06_keep (W5 m c) main_arg23 (by decide)).trans (W5_main_arg23 m c)
theorem W6_main_arg24 : W6 m c (no_index (Proc.devRef .tc main_arg24)) = (a24 m c) :=
  (s06_keep (W5 m c) main_arg24 (by decide)).trans (W5_main_arg24 m c)
theorem W6_main_arg25 : W6 m c (no_index (Proc.devRef .tc main_arg25)) = (a25 m c) :=
  (s06_keep (W5 m c) main_arg25 (by decide)).trans (W5_main_arg25 m c)
theorem W6_main_arg26 : W6 m c (no_index (Proc.devRef .tc main_arg26)) = (a26 m c) :=
  (s06_keep (W5 m c) main_arg26 (by decide)).trans (W5_main_arg26 m c)
theorem W6_main_arg27 : W6 m c (no_index (Proc.devRef .tc main_arg27)) = (a27 m c) :=
  (s06_keep (W5 m c) main_arg27 (by decide)).trans (W5_main_arg27 m c)
theorem W6_main_arg28 : W6 m c (no_index (Proc.devRef .tc main_arg28)) = (a28 m c) :=
  (s06_keep (W5 m c) main_arg28 (by decide)).trans (W5_main_arg28 m c)
theorem W6_main_arg29 : W6 m c (no_index (Proc.devRef .tc main_arg29)) = (a29 m c) :=
  (s06_keep (W5 m c) main_arg29 (by decide)).trans (W5_main_arg29 m c)
theorem W6_main_arg30 : W6 m c (no_index (Proc.devRef .tc main_arg30)) = (a30 m c) :=
  (s06_keep (W5 m c) main_arg30 (by decide)).trans (W5_main_arg30 m c)
theorem W6_main_arg31 : W6 m c (no_index (Proc.devRef .tc main_arg31)) = (a31 m c) :=
  (s06_keep (W5 m c) main_arg31 (by decide)).trans (W5_main_arg31 m c)
theorem W6_main_arg32 : W6 m c (no_index (Proc.devRef .tc main_arg32)) = (a32 m c) :=
  (s06_keep (W5 m c) main_arg32 (by decide)).trans (W5_main_arg32 m c)
theorem W6_main_arg33 : W6 m c (no_index (Proc.devRef .tc main_arg33)) = (a33 m c) :=
  (s06_keep (W5 m c) main_arg33 (by decide)).trans (W5_main_arg33 m c)
theorem W6_main_arg34 : W6 m c (no_index (Proc.devRef .tc main_arg34)) = (a34 m c) :=
  (s06_keep (W5 m c) main_arg34 (by decide)).trans (W5_main_arg34 m c)
theorem W6_main_arg35 : W6 m c (no_index (Proc.devRef .tc main_arg35)) = (a35 m c) :=
  (s06_keep (W5 m c) main_arg35 (by decide)).trans (W5_main_arg35 m c)
theorem W6_main_v56 : W6 m c (no_index (Proc.devRef .tc main_v56)) = val_main_v56 (F := F) (a0 m c) (a1 m c) (a2 m c) (a23 m c) (a24 m c) (a25 m c) (a26 m c) (a27 m c) (a28 m c) (a29 m c) (a30 m c) :=
  (s06_keep (W5 m c) main_v56 (by decide)).trans (W5_main_v56 m c)
theorem W6_main_v86 : W6 m c (no_index (Proc.devRef .tc main_v86)) = val_main_v86 (F := F) (a0 m c) (a3 m c) (a4 m c) (a5 m c) (a6 m c) (a7 m c) :=
  s06_main_v86 (W5 m c) (a0 m c) (a3 m c) (a4 m c) (a5 m c) (a6 m c) (a7 m c) (W5_main_arg4 m c) (W5_main_arg5 m c) (W5_main_arg6 m c) (W5_main_arg7 m c) (W5_main_v75 m c)
theorem W6_main_v87 : W6 m c (no_index (Proc.devRef .tc main_v87)) = val_main_v87 (F := F) (a1 m c) (a8 m c) :=
  s06_main_v87 (W5 m c) (a1 m c) (a8 m c) (W5_main_arg1 m c) (W5_main_arg8 m c)

/-- The device's buffer contents after the first 7 stretches. -/
def W7 : Valuation τ sig (Elt F) := after s07 (W6 m c)
theorem W7_main_arg0 : W7 m c (no_index (Proc.devRef .tc main_arg0)) = (a0 m c) :=
  (s07_keep (W6 m c) main_arg0 (by decide)).trans (W6_main_arg0 m c)
theorem W7_main_arg1 : W7 m c (no_index (Proc.devRef .tc main_arg1)) = (a1 m c) :=
  (s07_keep (W6 m c) main_arg1 (by decide)).trans (W6_main_arg1 m c)
theorem W7_main_arg2 : W7 m c (no_index (Proc.devRef .tc main_arg2)) = (a2 m c) :=
  (s07_keep (W6 m c) main_arg2 (by decide)).trans (W6_main_arg2 m c)
theorem W7_main_arg3 : W7 m c (no_index (Proc.devRef .tc main_arg3)) = (a3 m c) :=
  (s07_keep (W6 m c) main_arg3 (by decide)).trans (W6_main_arg3 m c)
theorem W7_main_arg4 : W7 m c (no_index (Proc.devRef .tc main_arg4)) = (a4 m c) :=
  (s07_keep (W6 m c) main_arg4 (by decide)).trans (W6_main_arg4 m c)
theorem W7_main_arg5 : W7 m c (no_index (Proc.devRef .tc main_arg5)) = (a5 m c) :=
  (s07_keep (W6 m c) main_arg5 (by decide)).trans (W6_main_arg5 m c)
theorem W7_main_arg6 : W7 m c (no_index (Proc.devRef .tc main_arg6)) = (a6 m c) :=
  (s07_keep (W6 m c) main_arg6 (by decide)).trans (W6_main_arg6 m c)
theorem W7_main_arg7 : W7 m c (no_index (Proc.devRef .tc main_arg7)) = (a7 m c) :=
  (s07_keep (W6 m c) main_arg7 (by decide)).trans (W6_main_arg7 m c)
theorem W7_main_arg8 : W7 m c (no_index (Proc.devRef .tc main_arg8)) = (a8 m c) :=
  (s07_keep (W6 m c) main_arg8 (by decide)).trans (W6_main_arg8 m c)
theorem W7_main_arg9 : W7 m c (no_index (Proc.devRef .tc main_arg9)) = (a9 m c) :=
  (s07_keep (W6 m c) main_arg9 (by decide)).trans (W6_main_arg9 m c)
theorem W7_main_arg10 : W7 m c (no_index (Proc.devRef .tc main_arg10)) = (a10 m c) :=
  (s07_keep (W6 m c) main_arg10 (by decide)).trans (W6_main_arg10 m c)
theorem W7_main_arg11 : W7 m c (no_index (Proc.devRef .tc main_arg11)) = (a11 m c) :=
  (s07_keep (W6 m c) main_arg11 (by decide)).trans (W6_main_arg11 m c)
theorem W7_main_arg12 : W7 m c (no_index (Proc.devRef .tc main_arg12)) = (a12 m c) :=
  (s07_keep (W6 m c) main_arg12 (by decide)).trans (W6_main_arg12 m c)
theorem W7_main_arg13 : W7 m c (no_index (Proc.devRef .tc main_arg13)) = (a13 m c) :=
  (s07_keep (W6 m c) main_arg13 (by decide)).trans (W6_main_arg13 m c)
theorem W7_main_arg14 : W7 m c (no_index (Proc.devRef .tc main_arg14)) = (a14 m c) :=
  (s07_keep (W6 m c) main_arg14 (by decide)).trans (W6_main_arg14 m c)
theorem W7_main_arg15 : W7 m c (no_index (Proc.devRef .tc main_arg15)) = (a15 m c) :=
  (s07_keep (W6 m c) main_arg15 (by decide)).trans (W6_main_arg15 m c)
theorem W7_main_arg16 : W7 m c (no_index (Proc.devRef .tc main_arg16)) = (a16 m c) :=
  (s07_keep (W6 m c) main_arg16 (by decide)).trans (W6_main_arg16 m c)
theorem W7_main_arg17 : W7 m c (no_index (Proc.devRef .tc main_arg17)) = (a17 m c) :=
  (s07_keep (W6 m c) main_arg17 (by decide)).trans (W6_main_arg17 m c)
theorem W7_main_arg18 : W7 m c (no_index (Proc.devRef .tc main_arg18)) = (a18 m c) :=
  (s07_keep (W6 m c) main_arg18 (by decide)).trans (W6_main_arg18 m c)
theorem W7_main_arg19 : W7 m c (no_index (Proc.devRef .tc main_arg19)) = (a19 m c) :=
  (s07_keep (W6 m c) main_arg19 (by decide)).trans (W6_main_arg19 m c)
theorem W7_main_arg20 : W7 m c (no_index (Proc.devRef .tc main_arg20)) = (a20 m c) :=
  (s07_keep (W6 m c) main_arg20 (by decide)).trans (W6_main_arg20 m c)
theorem W7_main_arg21 : W7 m c (no_index (Proc.devRef .tc main_arg21)) = (a21 m c) :=
  (s07_keep (W6 m c) main_arg21 (by decide)).trans (W6_main_arg21 m c)
theorem W7_main_arg22 : W7 m c (no_index (Proc.devRef .tc main_arg22)) = (a22 m c) :=
  (s07_keep (W6 m c) main_arg22 (by decide)).trans (W6_main_arg22 m c)
theorem W7_main_arg23 : W7 m c (no_index (Proc.devRef .tc main_arg23)) = (a23 m c) :=
  (s07_keep (W6 m c) main_arg23 (by decide)).trans (W6_main_arg23 m c)
theorem W7_main_arg24 : W7 m c (no_index (Proc.devRef .tc main_arg24)) = (a24 m c) :=
  (s07_keep (W6 m c) main_arg24 (by decide)).trans (W6_main_arg24 m c)
theorem W7_main_arg25 : W7 m c (no_index (Proc.devRef .tc main_arg25)) = (a25 m c) :=
  (s07_keep (W6 m c) main_arg25 (by decide)).trans (W6_main_arg25 m c)
theorem W7_main_arg26 : W7 m c (no_index (Proc.devRef .tc main_arg26)) = (a26 m c) :=
  (s07_keep (W6 m c) main_arg26 (by decide)).trans (W6_main_arg26 m c)
theorem W7_main_arg27 : W7 m c (no_index (Proc.devRef .tc main_arg27)) = (a27 m c) :=
  (s07_keep (W6 m c) main_arg27 (by decide)).trans (W6_main_arg27 m c)
theorem W7_main_arg28 : W7 m c (no_index (Proc.devRef .tc main_arg28)) = (a28 m c) :=
  (s07_keep (W6 m c) main_arg28 (by decide)).trans (W6_main_arg28 m c)
theorem W7_main_arg29 : W7 m c (no_index (Proc.devRef .tc main_arg29)) = (a29 m c) :=
  (s07_keep (W6 m c) main_arg29 (by decide)).trans (W6_main_arg29 m c)
theorem W7_main_arg30 : W7 m c (no_index (Proc.devRef .tc main_arg30)) = (a30 m c) :=
  (s07_keep (W6 m c) main_arg30 (by decide)).trans (W6_main_arg30 m c)
theorem W7_main_arg31 : W7 m c (no_index (Proc.devRef .tc main_arg31)) = (a31 m c) :=
  (s07_keep (W6 m c) main_arg31 (by decide)).trans (W6_main_arg31 m c)
theorem W7_main_arg32 : W7 m c (no_index (Proc.devRef .tc main_arg32)) = (a32 m c) :=
  (s07_keep (W6 m c) main_arg32 (by decide)).trans (W6_main_arg32 m c)
theorem W7_main_arg33 : W7 m c (no_index (Proc.devRef .tc main_arg33)) = (a33 m c) :=
  (s07_keep (W6 m c) main_arg33 (by decide)).trans (W6_main_arg33 m c)
theorem W7_main_arg34 : W7 m c (no_index (Proc.devRef .tc main_arg34)) = (a34 m c) :=
  (s07_keep (W6 m c) main_arg34 (by decide)).trans (W6_main_arg34 m c)
theorem W7_main_arg35 : W7 m c (no_index (Proc.devRef .tc main_arg35)) = (a35 m c) :=
  (s07_keep (W6 m c) main_arg35 (by decide)).trans (W6_main_arg35 m c)
theorem W7_main_v56 : W7 m c (no_index (Proc.devRef .tc main_v56)) = val_main_v56 (F := F) (a0 m c) (a1 m c) (a2 m c) (a23 m c) (a24 m c) (a25 m c) (a26 m c) (a27 m c) (a28 m c) (a29 m c) (a30 m c) :=
  (s07_keep (W6 m c) main_v56 (by decide)).trans (W6_main_v56 m c)
theorem W7_main_v86 : W7 m c (no_index (Proc.devRef .tc main_v86)) = val_main_v86 (F := F) (a0 m c) (a3 m c) (a4 m c) (a5 m c) (a6 m c) (a7 m c) :=
  (s07_keep (W6 m c) main_v86 (by decide)).trans (W6_main_v86 m c)
theorem W7_main_v105 : W7 m c (no_index (Proc.devRef .tc main_v105)) = val_main_v105 (F := F) (a1 m c) (a8 m c) :=
  s07_main_v105 (W6 m c) (a1 m c) (a8 m c) (W6_main_v87 m c)

/-- The device's buffer contents after the first 8 stretches. -/
def W8 : Valuation τ sig (Elt F) := after s08 (W7 m c)
theorem W8_main_arg0 : W8 m c (no_index (Proc.devRef .tc main_arg0)) = (a0 m c) :=
  (s08_keep (W7 m c) main_arg0 (by decide)).trans (W7_main_arg0 m c)
theorem W8_main_arg1 : W8 m c (no_index (Proc.devRef .tc main_arg1)) = (a1 m c) :=
  (s08_keep (W7 m c) main_arg1 (by decide)).trans (W7_main_arg1 m c)
theorem W8_main_arg2 : W8 m c (no_index (Proc.devRef .tc main_arg2)) = (a2 m c) :=
  (s08_keep (W7 m c) main_arg2 (by decide)).trans (W7_main_arg2 m c)
theorem W8_main_arg3 : W8 m c (no_index (Proc.devRef .tc main_arg3)) = (a3 m c) :=
  (s08_keep (W7 m c) main_arg3 (by decide)).trans (W7_main_arg3 m c)
theorem W8_main_arg4 : W8 m c (no_index (Proc.devRef .tc main_arg4)) = (a4 m c) :=
  (s08_keep (W7 m c) main_arg4 (by decide)).trans (W7_main_arg4 m c)
theorem W8_main_arg5 : W8 m c (no_index (Proc.devRef .tc main_arg5)) = (a5 m c) :=
  (s08_keep (W7 m c) main_arg5 (by decide)).trans (W7_main_arg5 m c)
theorem W8_main_arg6 : W8 m c (no_index (Proc.devRef .tc main_arg6)) = (a6 m c) :=
  (s08_keep (W7 m c) main_arg6 (by decide)).trans (W7_main_arg6 m c)
theorem W8_main_arg7 : W8 m c (no_index (Proc.devRef .tc main_arg7)) = (a7 m c) :=
  (s08_keep (W7 m c) main_arg7 (by decide)).trans (W7_main_arg7 m c)
theorem W8_main_arg8 : W8 m c (no_index (Proc.devRef .tc main_arg8)) = (a8 m c) :=
  (s08_keep (W7 m c) main_arg8 (by decide)).trans (W7_main_arg8 m c)
theorem W8_main_arg9 : W8 m c (no_index (Proc.devRef .tc main_arg9)) = (a9 m c) :=
  (s08_keep (W7 m c) main_arg9 (by decide)).trans (W7_main_arg9 m c)
theorem W8_main_arg10 : W8 m c (no_index (Proc.devRef .tc main_arg10)) = (a10 m c) :=
  (s08_keep (W7 m c) main_arg10 (by decide)).trans (W7_main_arg10 m c)
theorem W8_main_arg11 : W8 m c (no_index (Proc.devRef .tc main_arg11)) = (a11 m c) :=
  (s08_keep (W7 m c) main_arg11 (by decide)).trans (W7_main_arg11 m c)
theorem W8_main_arg12 : W8 m c (no_index (Proc.devRef .tc main_arg12)) = (a12 m c) :=
  (s08_keep (W7 m c) main_arg12 (by decide)).trans (W7_main_arg12 m c)
theorem W8_main_arg13 : W8 m c (no_index (Proc.devRef .tc main_arg13)) = (a13 m c) :=
  (s08_keep (W7 m c) main_arg13 (by decide)).trans (W7_main_arg13 m c)
theorem W8_main_arg14 : W8 m c (no_index (Proc.devRef .tc main_arg14)) = (a14 m c) :=
  (s08_keep (W7 m c) main_arg14 (by decide)).trans (W7_main_arg14 m c)
theorem W8_main_arg15 : W8 m c (no_index (Proc.devRef .tc main_arg15)) = (a15 m c) :=
  (s08_keep (W7 m c) main_arg15 (by decide)).trans (W7_main_arg15 m c)
theorem W8_main_arg16 : W8 m c (no_index (Proc.devRef .tc main_arg16)) = (a16 m c) :=
  (s08_keep (W7 m c) main_arg16 (by decide)).trans (W7_main_arg16 m c)
theorem W8_main_arg17 : W8 m c (no_index (Proc.devRef .tc main_arg17)) = (a17 m c) :=
  (s08_keep (W7 m c) main_arg17 (by decide)).trans (W7_main_arg17 m c)
theorem W8_main_arg18 : W8 m c (no_index (Proc.devRef .tc main_arg18)) = (a18 m c) :=
  (s08_keep (W7 m c) main_arg18 (by decide)).trans (W7_main_arg18 m c)
theorem W8_main_arg19 : W8 m c (no_index (Proc.devRef .tc main_arg19)) = (a19 m c) :=
  (s08_keep (W7 m c) main_arg19 (by decide)).trans (W7_main_arg19 m c)
theorem W8_main_arg20 : W8 m c (no_index (Proc.devRef .tc main_arg20)) = (a20 m c) :=
  (s08_keep (W7 m c) main_arg20 (by decide)).trans (W7_main_arg20 m c)
theorem W8_main_arg21 : W8 m c (no_index (Proc.devRef .tc main_arg21)) = (a21 m c) :=
  (s08_keep (W7 m c) main_arg21 (by decide)).trans (W7_main_arg21 m c)
theorem W8_main_arg22 : W8 m c (no_index (Proc.devRef .tc main_arg22)) = (a22 m c) :=
  (s08_keep (W7 m c) main_arg22 (by decide)).trans (W7_main_arg22 m c)
theorem W8_main_arg23 : W8 m c (no_index (Proc.devRef .tc main_arg23)) = (a23 m c) :=
  (s08_keep (W7 m c) main_arg23 (by decide)).trans (W7_main_arg23 m c)
theorem W8_main_arg24 : W8 m c (no_index (Proc.devRef .tc main_arg24)) = (a24 m c) :=
  (s08_keep (W7 m c) main_arg24 (by decide)).trans (W7_main_arg24 m c)
theorem W8_main_arg25 : W8 m c (no_index (Proc.devRef .tc main_arg25)) = (a25 m c) :=
  (s08_keep (W7 m c) main_arg25 (by decide)).trans (W7_main_arg25 m c)
theorem W8_main_arg26 : W8 m c (no_index (Proc.devRef .tc main_arg26)) = (a26 m c) :=
  (s08_keep (W7 m c) main_arg26 (by decide)).trans (W7_main_arg26 m c)
theorem W8_main_arg27 : W8 m c (no_index (Proc.devRef .tc main_arg27)) = (a27 m c) :=
  (s08_keep (W7 m c) main_arg27 (by decide)).trans (W7_main_arg27 m c)
theorem W8_main_arg28 : W8 m c (no_index (Proc.devRef .tc main_arg28)) = (a28 m c) :=
  (s08_keep (W7 m c) main_arg28 (by decide)).trans (W7_main_arg28 m c)
theorem W8_main_arg29 : W8 m c (no_index (Proc.devRef .tc main_arg29)) = (a29 m c) :=
  (s08_keep (W7 m c) main_arg29 (by decide)).trans (W7_main_arg29 m c)
theorem W8_main_arg30 : W8 m c (no_index (Proc.devRef .tc main_arg30)) = (a30 m c) :=
  (s08_keep (W7 m c) main_arg30 (by decide)).trans (W7_main_arg30 m c)
theorem W8_main_arg31 : W8 m c (no_index (Proc.devRef .tc main_arg31)) = (a31 m c) :=
  (s08_keep (W7 m c) main_arg31 (by decide)).trans (W7_main_arg31 m c)
theorem W8_main_arg32 : W8 m c (no_index (Proc.devRef .tc main_arg32)) = (a32 m c) :=
  (s08_keep (W7 m c) main_arg32 (by decide)).trans (W7_main_arg32 m c)
theorem W8_main_arg33 : W8 m c (no_index (Proc.devRef .tc main_arg33)) = (a33 m c) :=
  (s08_keep (W7 m c) main_arg33 (by decide)).trans (W7_main_arg33 m c)
theorem W8_main_arg34 : W8 m c (no_index (Proc.devRef .tc main_arg34)) = (a34 m c) :=
  (s08_keep (W7 m c) main_arg34 (by decide)).trans (W7_main_arg34 m c)
theorem W8_main_arg35 : W8 m c (no_index (Proc.devRef .tc main_arg35)) = (a35 m c) :=
  (s08_keep (W7 m c) main_arg35 (by decide)).trans (W7_main_arg35 m c)
theorem W8_main_v56 : W8 m c (no_index (Proc.devRef .tc main_v56)) = val_main_v56 (F := F) (a0 m c) (a1 m c) (a2 m c) (a23 m c) (a24 m c) (a25 m c) (a26 m c) (a27 m c) (a28 m c) (a29 m c) (a30 m c) :=
  (s08_keep (W7 m c) main_v56 (by decide)).trans (W7_main_v56 m c)
theorem W8_main_v86 : W8 m c (no_index (Proc.devRef .tc main_v86)) = val_main_v86 (F := F) (a0 m c) (a3 m c) (a4 m c) (a5 m c) (a6 m c) (a7 m c) :=
  (s08_keep (W7 m c) main_v86 (by decide)).trans (W7_main_v86 m c)
theorem W8_main_v116 : W8 m c (no_index (Proc.devRef .tc main_v116)) = val_main_v116 (F := F) (a1 m c) (a8 m c) (a9 m c) (a10 m c) (a11 m c) (a12 m c) :=
  s08_main_v116 (W7 m c) (a1 m c) (a8 m c) (a9 m c) (a10 m c) (a11 m c) (a12 m c) (W7_main_arg9 m c) (W7_main_arg10 m c) (W7_main_arg11 m c) (W7_main_arg12 m c) (W7_main_v105 m c)
theorem W8_main_v117 : W8 m c (no_index (Proc.devRef .tc main_v117)) = val_main_v117 (F := F) (a2 m c) (a13 m c) :=
  s08_main_v117 (W7 m c) (a2 m c) (a13 m c) (W7_main_arg2 m c) (W7_main_arg13 m c)

/-- The device's buffer contents after the first 9 stretches. -/
def W9 : Valuation τ sig (Elt F) := after s09 (W8 m c)
theorem W9_main_arg0 : W9 m c (no_index (Proc.devRef .tc main_arg0)) = (a0 m c) :=
  (s09_keep (W8 m c) main_arg0 (by decide)).trans (W8_main_arg0 m c)
theorem W9_main_arg1 : W9 m c (no_index (Proc.devRef .tc main_arg1)) = (a1 m c) :=
  (s09_keep (W8 m c) main_arg1 (by decide)).trans (W8_main_arg1 m c)
theorem W9_main_arg2 : W9 m c (no_index (Proc.devRef .tc main_arg2)) = (a2 m c) :=
  (s09_keep (W8 m c) main_arg2 (by decide)).trans (W8_main_arg2 m c)
theorem W9_main_arg3 : W9 m c (no_index (Proc.devRef .tc main_arg3)) = (a3 m c) :=
  (s09_keep (W8 m c) main_arg3 (by decide)).trans (W8_main_arg3 m c)
theorem W9_main_arg4 : W9 m c (no_index (Proc.devRef .tc main_arg4)) = (a4 m c) :=
  (s09_keep (W8 m c) main_arg4 (by decide)).trans (W8_main_arg4 m c)
theorem W9_main_arg5 : W9 m c (no_index (Proc.devRef .tc main_arg5)) = (a5 m c) :=
  (s09_keep (W8 m c) main_arg5 (by decide)).trans (W8_main_arg5 m c)
theorem W9_main_arg6 : W9 m c (no_index (Proc.devRef .tc main_arg6)) = (a6 m c) :=
  (s09_keep (W8 m c) main_arg6 (by decide)).trans (W8_main_arg6 m c)
theorem W9_main_arg7 : W9 m c (no_index (Proc.devRef .tc main_arg7)) = (a7 m c) :=
  (s09_keep (W8 m c) main_arg7 (by decide)).trans (W8_main_arg7 m c)
theorem W9_main_arg8 : W9 m c (no_index (Proc.devRef .tc main_arg8)) = (a8 m c) :=
  (s09_keep (W8 m c) main_arg8 (by decide)).trans (W8_main_arg8 m c)
theorem W9_main_arg9 : W9 m c (no_index (Proc.devRef .tc main_arg9)) = (a9 m c) :=
  (s09_keep (W8 m c) main_arg9 (by decide)).trans (W8_main_arg9 m c)
theorem W9_main_arg10 : W9 m c (no_index (Proc.devRef .tc main_arg10)) = (a10 m c) :=
  (s09_keep (W8 m c) main_arg10 (by decide)).trans (W8_main_arg10 m c)
theorem W9_main_arg11 : W9 m c (no_index (Proc.devRef .tc main_arg11)) = (a11 m c) :=
  (s09_keep (W8 m c) main_arg11 (by decide)).trans (W8_main_arg11 m c)
theorem W9_main_arg12 : W9 m c (no_index (Proc.devRef .tc main_arg12)) = (a12 m c) :=
  (s09_keep (W8 m c) main_arg12 (by decide)).trans (W8_main_arg12 m c)
theorem W9_main_arg13 : W9 m c (no_index (Proc.devRef .tc main_arg13)) = (a13 m c) :=
  (s09_keep (W8 m c) main_arg13 (by decide)).trans (W8_main_arg13 m c)
theorem W9_main_arg14 : W9 m c (no_index (Proc.devRef .tc main_arg14)) = (a14 m c) :=
  (s09_keep (W8 m c) main_arg14 (by decide)).trans (W8_main_arg14 m c)
theorem W9_main_arg15 : W9 m c (no_index (Proc.devRef .tc main_arg15)) = (a15 m c) :=
  (s09_keep (W8 m c) main_arg15 (by decide)).trans (W8_main_arg15 m c)
theorem W9_main_arg16 : W9 m c (no_index (Proc.devRef .tc main_arg16)) = (a16 m c) :=
  (s09_keep (W8 m c) main_arg16 (by decide)).trans (W8_main_arg16 m c)
theorem W9_main_arg17 : W9 m c (no_index (Proc.devRef .tc main_arg17)) = (a17 m c) :=
  (s09_keep (W8 m c) main_arg17 (by decide)).trans (W8_main_arg17 m c)
theorem W9_main_arg18 : W9 m c (no_index (Proc.devRef .tc main_arg18)) = (a18 m c) :=
  (s09_keep (W8 m c) main_arg18 (by decide)).trans (W8_main_arg18 m c)
theorem W9_main_arg19 : W9 m c (no_index (Proc.devRef .tc main_arg19)) = (a19 m c) :=
  (s09_keep (W8 m c) main_arg19 (by decide)).trans (W8_main_arg19 m c)
theorem W9_main_arg20 : W9 m c (no_index (Proc.devRef .tc main_arg20)) = (a20 m c) :=
  (s09_keep (W8 m c) main_arg20 (by decide)).trans (W8_main_arg20 m c)
theorem W9_main_arg21 : W9 m c (no_index (Proc.devRef .tc main_arg21)) = (a21 m c) :=
  (s09_keep (W8 m c) main_arg21 (by decide)).trans (W8_main_arg21 m c)
theorem W9_main_arg22 : W9 m c (no_index (Proc.devRef .tc main_arg22)) = (a22 m c) :=
  (s09_keep (W8 m c) main_arg22 (by decide)).trans (W8_main_arg22 m c)
theorem W9_main_arg23 : W9 m c (no_index (Proc.devRef .tc main_arg23)) = (a23 m c) :=
  (s09_keep (W8 m c) main_arg23 (by decide)).trans (W8_main_arg23 m c)
theorem W9_main_arg24 : W9 m c (no_index (Proc.devRef .tc main_arg24)) = (a24 m c) :=
  (s09_keep (W8 m c) main_arg24 (by decide)).trans (W8_main_arg24 m c)
theorem W9_main_arg25 : W9 m c (no_index (Proc.devRef .tc main_arg25)) = (a25 m c) :=
  (s09_keep (W8 m c) main_arg25 (by decide)).trans (W8_main_arg25 m c)
theorem W9_main_arg26 : W9 m c (no_index (Proc.devRef .tc main_arg26)) = (a26 m c) :=
  (s09_keep (W8 m c) main_arg26 (by decide)).trans (W8_main_arg26 m c)
theorem W9_main_arg27 : W9 m c (no_index (Proc.devRef .tc main_arg27)) = (a27 m c) :=
  (s09_keep (W8 m c) main_arg27 (by decide)).trans (W8_main_arg27 m c)
theorem W9_main_arg28 : W9 m c (no_index (Proc.devRef .tc main_arg28)) = (a28 m c) :=
  (s09_keep (W8 m c) main_arg28 (by decide)).trans (W8_main_arg28 m c)
theorem W9_main_arg29 : W9 m c (no_index (Proc.devRef .tc main_arg29)) = (a29 m c) :=
  (s09_keep (W8 m c) main_arg29 (by decide)).trans (W8_main_arg29 m c)
theorem W9_main_arg30 : W9 m c (no_index (Proc.devRef .tc main_arg30)) = (a30 m c) :=
  (s09_keep (W8 m c) main_arg30 (by decide)).trans (W8_main_arg30 m c)
theorem W9_main_arg31 : W9 m c (no_index (Proc.devRef .tc main_arg31)) = (a31 m c) :=
  (s09_keep (W8 m c) main_arg31 (by decide)).trans (W8_main_arg31 m c)
theorem W9_main_arg32 : W9 m c (no_index (Proc.devRef .tc main_arg32)) = (a32 m c) :=
  (s09_keep (W8 m c) main_arg32 (by decide)).trans (W8_main_arg32 m c)
theorem W9_main_arg33 : W9 m c (no_index (Proc.devRef .tc main_arg33)) = (a33 m c) :=
  (s09_keep (W8 m c) main_arg33 (by decide)).trans (W8_main_arg33 m c)
theorem W9_main_arg34 : W9 m c (no_index (Proc.devRef .tc main_arg34)) = (a34 m c) :=
  (s09_keep (W8 m c) main_arg34 (by decide)).trans (W8_main_arg34 m c)
theorem W9_main_arg35 : W9 m c (no_index (Proc.devRef .tc main_arg35)) = (a35 m c) :=
  (s09_keep (W8 m c) main_arg35 (by decide)).trans (W8_main_arg35 m c)
theorem W9_main_v56 : W9 m c (no_index (Proc.devRef .tc main_v56)) = val_main_v56 (F := F) (a0 m c) (a1 m c) (a2 m c) (a23 m c) (a24 m c) (a25 m c) (a26 m c) (a27 m c) (a28 m c) (a29 m c) (a30 m c) :=
  (s09_keep (W8 m c) main_v56 (by decide)).trans (W8_main_v56 m c)
theorem W9_main_v86 : W9 m c (no_index (Proc.devRef .tc main_v86)) = val_main_v86 (F := F) (a0 m c) (a3 m c) (a4 m c) (a5 m c) (a6 m c) (a7 m c) :=
  (s09_keep (W8 m c) main_v86 (by decide)).trans (W8_main_v86 m c)
theorem W9_main_v116 : W9 m c (no_index (Proc.devRef .tc main_v116)) = val_main_v116 (F := F) (a1 m c) (a8 m c) (a9 m c) (a10 m c) (a11 m c) (a12 m c) :=
  (s09_keep (W8 m c) main_v116 (by decide)).trans (W8_main_v116 m c)
theorem W9_main_v135 : W9 m c (no_index (Proc.devRef .tc main_v135)) = val_main_v135 (F := F) (a2 m c) (a13 m c) :=
  s09_main_v135 (W8 m c) (a2 m c) (a13 m c) (W8_main_v117 m c)

/-- The device's buffer contents after the first 10 stretches. -/
def W10 : Valuation τ sig (Elt F) := after s10 (W9 m c)
theorem W10_main_arg0 : W10 m c (no_index (Proc.devRef .tc main_arg0)) = (a0 m c) :=
  (s10_keep (W9 m c) main_arg0 (by decide)).trans (W9_main_arg0 m c)
theorem W10_main_arg1 : W10 m c (no_index (Proc.devRef .tc main_arg1)) = (a1 m c) :=
  (s10_keep (W9 m c) main_arg1 (by decide)).trans (W9_main_arg1 m c)
theorem W10_main_arg2 : W10 m c (no_index (Proc.devRef .tc main_arg2)) = (a2 m c) :=
  (s10_keep (W9 m c) main_arg2 (by decide)).trans (W9_main_arg2 m c)
theorem W10_main_arg3 : W10 m c (no_index (Proc.devRef .tc main_arg3)) = (a3 m c) :=
  (s10_keep (W9 m c) main_arg3 (by decide)).trans (W9_main_arg3 m c)
theorem W10_main_arg4 : W10 m c (no_index (Proc.devRef .tc main_arg4)) = (a4 m c) :=
  (s10_keep (W9 m c) main_arg4 (by decide)).trans (W9_main_arg4 m c)
theorem W10_main_arg5 : W10 m c (no_index (Proc.devRef .tc main_arg5)) = (a5 m c) :=
  (s10_keep (W9 m c) main_arg5 (by decide)).trans (W9_main_arg5 m c)
theorem W10_main_arg6 : W10 m c (no_index (Proc.devRef .tc main_arg6)) = (a6 m c) :=
  (s10_keep (W9 m c) main_arg6 (by decide)).trans (W9_main_arg6 m c)
theorem W10_main_arg7 : W10 m c (no_index (Proc.devRef .tc main_arg7)) = (a7 m c) :=
  (s10_keep (W9 m c) main_arg7 (by decide)).trans (W9_main_arg7 m c)
theorem W10_main_arg8 : W10 m c (no_index (Proc.devRef .tc main_arg8)) = (a8 m c) :=
  (s10_keep (W9 m c) main_arg8 (by decide)).trans (W9_main_arg8 m c)
theorem W10_main_arg9 : W10 m c (no_index (Proc.devRef .tc main_arg9)) = (a9 m c) :=
  (s10_keep (W9 m c) main_arg9 (by decide)).trans (W9_main_arg9 m c)
theorem W10_main_arg10 : W10 m c (no_index (Proc.devRef .tc main_arg10)) = (a10 m c) :=
  (s10_keep (W9 m c) main_arg10 (by decide)).trans (W9_main_arg10 m c)
theorem W10_main_arg11 : W10 m c (no_index (Proc.devRef .tc main_arg11)) = (a11 m c) :=
  (s10_keep (W9 m c) main_arg11 (by decide)).trans (W9_main_arg11 m c)
theorem W10_main_arg12 : W10 m c (no_index (Proc.devRef .tc main_arg12)) = (a12 m c) :=
  (s10_keep (W9 m c) main_arg12 (by decide)).trans (W9_main_arg12 m c)
theorem W10_main_arg13 : W10 m c (no_index (Proc.devRef .tc main_arg13)) = (a13 m c) :=
  (s10_keep (W9 m c) main_arg13 (by decide)).trans (W9_main_arg13 m c)
theorem W10_main_arg14 : W10 m c (no_index (Proc.devRef .tc main_arg14)) = (a14 m c) :=
  (s10_keep (W9 m c) main_arg14 (by decide)).trans (W9_main_arg14 m c)
theorem W10_main_arg15 : W10 m c (no_index (Proc.devRef .tc main_arg15)) = (a15 m c) :=
  (s10_keep (W9 m c) main_arg15 (by decide)).trans (W9_main_arg15 m c)
theorem W10_main_arg16 : W10 m c (no_index (Proc.devRef .tc main_arg16)) = (a16 m c) :=
  (s10_keep (W9 m c) main_arg16 (by decide)).trans (W9_main_arg16 m c)
theorem W10_main_arg17 : W10 m c (no_index (Proc.devRef .tc main_arg17)) = (a17 m c) :=
  (s10_keep (W9 m c) main_arg17 (by decide)).trans (W9_main_arg17 m c)
theorem W10_main_arg18 : W10 m c (no_index (Proc.devRef .tc main_arg18)) = (a18 m c) :=
  (s10_keep (W9 m c) main_arg18 (by decide)).trans (W9_main_arg18 m c)
theorem W10_main_arg19 : W10 m c (no_index (Proc.devRef .tc main_arg19)) = (a19 m c) :=
  (s10_keep (W9 m c) main_arg19 (by decide)).trans (W9_main_arg19 m c)
theorem W10_main_arg20 : W10 m c (no_index (Proc.devRef .tc main_arg20)) = (a20 m c) :=
  (s10_keep (W9 m c) main_arg20 (by decide)).trans (W9_main_arg20 m c)
theorem W10_main_arg21 : W10 m c (no_index (Proc.devRef .tc main_arg21)) = (a21 m c) :=
  (s10_keep (W9 m c) main_arg21 (by decide)).trans (W9_main_arg21 m c)
theorem W10_main_arg22 : W10 m c (no_index (Proc.devRef .tc main_arg22)) = (a22 m c) :=
  (s10_keep (W9 m c) main_arg22 (by decide)).trans (W9_main_arg22 m c)
theorem W10_main_arg23 : W10 m c (no_index (Proc.devRef .tc main_arg23)) = (a23 m c) :=
  (s10_keep (W9 m c) main_arg23 (by decide)).trans (W9_main_arg23 m c)
theorem W10_main_arg24 : W10 m c (no_index (Proc.devRef .tc main_arg24)) = (a24 m c) :=
  (s10_keep (W9 m c) main_arg24 (by decide)).trans (W9_main_arg24 m c)
theorem W10_main_arg25 : W10 m c (no_index (Proc.devRef .tc main_arg25)) = (a25 m c) :=
  (s10_keep (W9 m c) main_arg25 (by decide)).trans (W9_main_arg25 m c)
theorem W10_main_arg26 : W10 m c (no_index (Proc.devRef .tc main_arg26)) = (a26 m c) :=
  (s10_keep (W9 m c) main_arg26 (by decide)).trans (W9_main_arg26 m c)
theorem W10_main_arg27 : W10 m c (no_index (Proc.devRef .tc main_arg27)) = (a27 m c) :=
  (s10_keep (W9 m c) main_arg27 (by decide)).trans (W9_main_arg27 m c)
theorem W10_main_arg28 : W10 m c (no_index (Proc.devRef .tc main_arg28)) = (a28 m c) :=
  (s10_keep (W9 m c) main_arg28 (by decide)).trans (W9_main_arg28 m c)
theorem W10_main_arg29 : W10 m c (no_index (Proc.devRef .tc main_arg29)) = (a29 m c) :=
  (s10_keep (W9 m c) main_arg29 (by decide)).trans (W9_main_arg29 m c)
theorem W10_main_arg30 : W10 m c (no_index (Proc.devRef .tc main_arg30)) = (a30 m c) :=
  (s10_keep (W9 m c) main_arg30 (by decide)).trans (W9_main_arg30 m c)
theorem W10_main_arg31 : W10 m c (no_index (Proc.devRef .tc main_arg31)) = (a31 m c) :=
  (s10_keep (W9 m c) main_arg31 (by decide)).trans (W9_main_arg31 m c)
theorem W10_main_arg32 : W10 m c (no_index (Proc.devRef .tc main_arg32)) = (a32 m c) :=
  (s10_keep (W9 m c) main_arg32 (by decide)).trans (W9_main_arg32 m c)
theorem W10_main_arg33 : W10 m c (no_index (Proc.devRef .tc main_arg33)) = (a33 m c) :=
  (s10_keep (W9 m c) main_arg33 (by decide)).trans (W9_main_arg33 m c)
theorem W10_main_arg34 : W10 m c (no_index (Proc.devRef .tc main_arg34)) = (a34 m c) :=
  (s10_keep (W9 m c) main_arg34 (by decide)).trans (W9_main_arg34 m c)
theorem W10_main_arg35 : W10 m c (no_index (Proc.devRef .tc main_arg35)) = (a35 m c) :=
  (s10_keep (W9 m c) main_arg35 (by decide)).trans (W9_main_arg35 m c)
theorem W10_main_v56 : W10 m c (no_index (Proc.devRef .tc main_v56)) = val_main_v56 (F := F) (a0 m c) (a1 m c) (a2 m c) (a23 m c) (a24 m c) (a25 m c) (a26 m c) (a27 m c) (a28 m c) (a29 m c) (a30 m c) :=
  (s10_keep (W9 m c) main_v56 (by decide)).trans (W9_main_v56 m c)
theorem W10_main_v146 : W10 m c (no_index (Proc.devRef .tc main_v146)) = val_main_v146 (F := F) (a2 m c) (a13 m c) (a14 m c) (a15 m c) (a16 m c) (a17 m c) :=
  s10_main_v146 (W9 m c) (a2 m c) (a13 m c) (a14 m c) (a15 m c) (a16 m c) (a17 m c) (W9_main_arg14 m c) (W9_main_arg15 m c) (W9_main_arg16 m c) (W9_main_arg17 m c) (W9_main_v135 m c)
theorem W10_main_v147 : W10 m c (no_index (Proc.devRef .tc main_v147)) = val_main_v147 (F := F) (a0 m c) (a1 m c) (a3 m c) (a4 m c) (a5 m c) (a6 m c) (a7 m c) (a8 m c) (a9 m c) (a10 m c) (a11 m c) (a12 m c) :=
  s10_main_v147 (W9 m c) (a0 m c) (a1 m c) (a3 m c) (a4 m c) (a5 m c) (a6 m c) (a7 m c) (a8 m c) (a9 m c) (a10 m c) (a11 m c) (a12 m c) (W9_main_v86 m c) (W9_main_v116 m c)

/-- The device's buffer contents after the first 11 stretches. -/
def W11 : Valuation τ sig (Elt F) := after s11 (W10 m c)
theorem W11_main_arg0 : W11 m c (no_index (Proc.devRef .tc main_arg0)) = (a0 m c) :=
  (s11_keep (W10 m c) main_arg0 (by decide)).trans (W10_main_arg0 m c)
theorem W11_main_arg1 : W11 m c (no_index (Proc.devRef .tc main_arg1)) = (a1 m c) :=
  (s11_keep (W10 m c) main_arg1 (by decide)).trans (W10_main_arg1 m c)
theorem W11_main_arg2 : W11 m c (no_index (Proc.devRef .tc main_arg2)) = (a2 m c) :=
  (s11_keep (W10 m c) main_arg2 (by decide)).trans (W10_main_arg2 m c)
theorem W11_main_arg3 : W11 m c (no_index (Proc.devRef .tc main_arg3)) = (a3 m c) :=
  (s11_keep (W10 m c) main_arg3 (by decide)).trans (W10_main_arg3 m c)
theorem W11_main_arg4 : W11 m c (no_index (Proc.devRef .tc main_arg4)) = (a4 m c) :=
  (s11_keep (W10 m c) main_arg4 (by decide)).trans (W10_main_arg4 m c)
theorem W11_main_arg5 : W11 m c (no_index (Proc.devRef .tc main_arg5)) = (a5 m c) :=
  (s11_keep (W10 m c) main_arg5 (by decide)).trans (W10_main_arg5 m c)
theorem W11_main_arg6 : W11 m c (no_index (Proc.devRef .tc main_arg6)) = (a6 m c) :=
  (s11_keep (W10 m c) main_arg6 (by decide)).trans (W10_main_arg6 m c)
theorem W11_main_arg7 : W11 m c (no_index (Proc.devRef .tc main_arg7)) = (a7 m c) :=
  (s11_keep (W10 m c) main_arg7 (by decide)).trans (W10_main_arg7 m c)
theorem W11_main_arg8 : W11 m c (no_index (Proc.devRef .tc main_arg8)) = (a8 m c) :=
  (s11_keep (W10 m c) main_arg8 (by decide)).trans (W10_main_arg8 m c)
theorem W11_main_arg9 : W11 m c (no_index (Proc.devRef .tc main_arg9)) = (a9 m c) :=
  (s11_keep (W10 m c) main_arg9 (by decide)).trans (W10_main_arg9 m c)
theorem W11_main_arg10 : W11 m c (no_index (Proc.devRef .tc main_arg10)) = (a10 m c) :=
  (s11_keep (W10 m c) main_arg10 (by decide)).trans (W10_main_arg10 m c)
theorem W11_main_arg11 : W11 m c (no_index (Proc.devRef .tc main_arg11)) = (a11 m c) :=
  (s11_keep (W10 m c) main_arg11 (by decide)).trans (W10_main_arg11 m c)
theorem W11_main_arg12 : W11 m c (no_index (Proc.devRef .tc main_arg12)) = (a12 m c) :=
  (s11_keep (W10 m c) main_arg12 (by decide)).trans (W10_main_arg12 m c)
theorem W11_main_arg13 : W11 m c (no_index (Proc.devRef .tc main_arg13)) = (a13 m c) :=
  (s11_keep (W10 m c) main_arg13 (by decide)).trans (W10_main_arg13 m c)
theorem W11_main_arg14 : W11 m c (no_index (Proc.devRef .tc main_arg14)) = (a14 m c) :=
  (s11_keep (W10 m c) main_arg14 (by decide)).trans (W10_main_arg14 m c)
theorem W11_main_arg15 : W11 m c (no_index (Proc.devRef .tc main_arg15)) = (a15 m c) :=
  (s11_keep (W10 m c) main_arg15 (by decide)).trans (W10_main_arg15 m c)
theorem W11_main_arg16 : W11 m c (no_index (Proc.devRef .tc main_arg16)) = (a16 m c) :=
  (s11_keep (W10 m c) main_arg16 (by decide)).trans (W10_main_arg16 m c)
theorem W11_main_arg17 : W11 m c (no_index (Proc.devRef .tc main_arg17)) = (a17 m c) :=
  (s11_keep (W10 m c) main_arg17 (by decide)).trans (W10_main_arg17 m c)
theorem W11_main_arg18 : W11 m c (no_index (Proc.devRef .tc main_arg18)) = (a18 m c) :=
  (s11_keep (W10 m c) main_arg18 (by decide)).trans (W10_main_arg18 m c)
theorem W11_main_arg19 : W11 m c (no_index (Proc.devRef .tc main_arg19)) = (a19 m c) :=
  (s11_keep (W10 m c) main_arg19 (by decide)).trans (W10_main_arg19 m c)
theorem W11_main_arg20 : W11 m c (no_index (Proc.devRef .tc main_arg20)) = (a20 m c) :=
  (s11_keep (W10 m c) main_arg20 (by decide)).trans (W10_main_arg20 m c)
theorem W11_main_arg21 : W11 m c (no_index (Proc.devRef .tc main_arg21)) = (a21 m c) :=
  (s11_keep (W10 m c) main_arg21 (by decide)).trans (W10_main_arg21 m c)
theorem W11_main_arg22 : W11 m c (no_index (Proc.devRef .tc main_arg22)) = (a22 m c) :=
  (s11_keep (W10 m c) main_arg22 (by decide)).trans (W10_main_arg22 m c)
theorem W11_main_arg23 : W11 m c (no_index (Proc.devRef .tc main_arg23)) = (a23 m c) :=
  (s11_keep (W10 m c) main_arg23 (by decide)).trans (W10_main_arg23 m c)
theorem W11_main_arg24 : W11 m c (no_index (Proc.devRef .tc main_arg24)) = (a24 m c) :=
  (s11_keep (W10 m c) main_arg24 (by decide)).trans (W10_main_arg24 m c)
theorem W11_main_arg25 : W11 m c (no_index (Proc.devRef .tc main_arg25)) = (a25 m c) :=
  (s11_keep (W10 m c) main_arg25 (by decide)).trans (W10_main_arg25 m c)
theorem W11_main_arg26 : W11 m c (no_index (Proc.devRef .tc main_arg26)) = (a26 m c) :=
  (s11_keep (W10 m c) main_arg26 (by decide)).trans (W10_main_arg26 m c)
theorem W11_main_arg27 : W11 m c (no_index (Proc.devRef .tc main_arg27)) = (a27 m c) :=
  (s11_keep (W10 m c) main_arg27 (by decide)).trans (W10_main_arg27 m c)
theorem W11_main_arg28 : W11 m c (no_index (Proc.devRef .tc main_arg28)) = (a28 m c) :=
  (s11_keep (W10 m c) main_arg28 (by decide)).trans (W10_main_arg28 m c)
theorem W11_main_arg29 : W11 m c (no_index (Proc.devRef .tc main_arg29)) = (a29 m c) :=
  (s11_keep (W10 m c) main_arg29 (by decide)).trans (W10_main_arg29 m c)
theorem W11_main_arg30 : W11 m c (no_index (Proc.devRef .tc main_arg30)) = (a30 m c) :=
  (s11_keep (W10 m c) main_arg30 (by decide)).trans (W10_main_arg30 m c)
theorem W11_main_arg31 : W11 m c (no_index (Proc.devRef .tc main_arg31)) = (a31 m c) :=
  (s11_keep (W10 m c) main_arg31 (by decide)).trans (W10_main_arg31 m c)
theorem W11_main_arg32 : W11 m c (no_index (Proc.devRef .tc main_arg32)) = (a32 m c) :=
  (s11_keep (W10 m c) main_arg32 (by decide)).trans (W10_main_arg32 m c)
theorem W11_main_arg33 : W11 m c (no_index (Proc.devRef .tc main_arg33)) = (a33 m c) :=
  (s11_keep (W10 m c) main_arg33 (by decide)).trans (W10_main_arg33 m c)
theorem W11_main_arg34 : W11 m c (no_index (Proc.devRef .tc main_arg34)) = (a34 m c) :=
  (s11_keep (W10 m c) main_arg34 (by decide)).trans (W10_main_arg34 m c)
theorem W11_main_arg35 : W11 m c (no_index (Proc.devRef .tc main_arg35)) = (a35 m c) :=
  (s11_keep (W10 m c) main_arg35 (by decide)).trans (W10_main_arg35 m c)
theorem W11_main_v56 : W11 m c (no_index (Proc.devRef .tc main_v56)) = val_main_v56 (F := F) (a0 m c) (a1 m c) (a2 m c) (a23 m c) (a24 m c) (a25 m c) (a26 m c) (a27 m c) (a28 m c) (a29 m c) (a30 m c) :=
  (s11_keep (W10 m c) main_v56 (by decide)).trans (W10_main_v56 m c)
theorem W11_main_v160 : W11 m c (no_index (Proc.devRef .tc main_v160)) = val_main_v160 (F := F) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) :=
  s11_main_v160 (W10 m c) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (W10_main_arg18 m c) (W10_main_v146 m c) (W10_main_v147 m c)

/-- The device's buffer contents after the first 12 stretches. -/
def W12 : Valuation τ sig (Elt F) := after s12 (W11 m c)
theorem W12_main_arg0 : W12 m c (no_index (Proc.devRef .tc main_arg0)) = (a0 m c) :=
  (s12_keep (W11 m c) main_arg0 (by decide)).trans (W11_main_arg0 m c)
theorem W12_main_arg1 : W12 m c (no_index (Proc.devRef .tc main_arg1)) = (a1 m c) :=
  (s12_keep (W11 m c) main_arg1 (by decide)).trans (W11_main_arg1 m c)
theorem W12_main_arg2 : W12 m c (no_index (Proc.devRef .tc main_arg2)) = (a2 m c) :=
  (s12_keep (W11 m c) main_arg2 (by decide)).trans (W11_main_arg2 m c)
theorem W12_main_arg3 : W12 m c (no_index (Proc.devRef .tc main_arg3)) = (a3 m c) :=
  (s12_keep (W11 m c) main_arg3 (by decide)).trans (W11_main_arg3 m c)
theorem W12_main_arg4 : W12 m c (no_index (Proc.devRef .tc main_arg4)) = (a4 m c) :=
  (s12_keep (W11 m c) main_arg4 (by decide)).trans (W11_main_arg4 m c)
theorem W12_main_arg5 : W12 m c (no_index (Proc.devRef .tc main_arg5)) = (a5 m c) :=
  (s12_keep (W11 m c) main_arg5 (by decide)).trans (W11_main_arg5 m c)
theorem W12_main_arg6 : W12 m c (no_index (Proc.devRef .tc main_arg6)) = (a6 m c) :=
  (s12_keep (W11 m c) main_arg6 (by decide)).trans (W11_main_arg6 m c)
theorem W12_main_arg7 : W12 m c (no_index (Proc.devRef .tc main_arg7)) = (a7 m c) :=
  (s12_keep (W11 m c) main_arg7 (by decide)).trans (W11_main_arg7 m c)
theorem W12_main_arg8 : W12 m c (no_index (Proc.devRef .tc main_arg8)) = (a8 m c) :=
  (s12_keep (W11 m c) main_arg8 (by decide)).trans (W11_main_arg8 m c)
theorem W12_main_arg9 : W12 m c (no_index (Proc.devRef .tc main_arg9)) = (a9 m c) :=
  (s12_keep (W11 m c) main_arg9 (by decide)).trans (W11_main_arg9 m c)
theorem W12_main_arg10 : W12 m c (no_index (Proc.devRef .tc main_arg10)) = (a10 m c) :=
  (s12_keep (W11 m c) main_arg10 (by decide)).trans (W11_main_arg10 m c)
theorem W12_main_arg11 : W12 m c (no_index (Proc.devRef .tc main_arg11)) = (a11 m c) :=
  (s12_keep (W11 m c) main_arg11 (by decide)).trans (W11_main_arg11 m c)
theorem W12_main_arg12 : W12 m c (no_index (Proc.devRef .tc main_arg12)) = (a12 m c) :=
  (s12_keep (W11 m c) main_arg12 (by decide)).trans (W11_main_arg12 m c)
theorem W12_main_arg13 : W12 m c (no_index (Proc.devRef .tc main_arg13)) = (a13 m c) :=
  (s12_keep (W11 m c) main_arg13 (by decide)).trans (W11_main_arg13 m c)
theorem W12_main_arg14 : W12 m c (no_index (Proc.devRef .tc main_arg14)) = (a14 m c) :=
  (s12_keep (W11 m c) main_arg14 (by decide)).trans (W11_main_arg14 m c)
theorem W12_main_arg15 : W12 m c (no_index (Proc.devRef .tc main_arg15)) = (a15 m c) :=
  (s12_keep (W11 m c) main_arg15 (by decide)).trans (W11_main_arg15 m c)
theorem W12_main_arg16 : W12 m c (no_index (Proc.devRef .tc main_arg16)) = (a16 m c) :=
  (s12_keep (W11 m c) main_arg16 (by decide)).trans (W11_main_arg16 m c)
theorem W12_main_arg17 : W12 m c (no_index (Proc.devRef .tc main_arg17)) = (a17 m c) :=
  (s12_keep (W11 m c) main_arg17 (by decide)).trans (W11_main_arg17 m c)
theorem W12_main_arg18 : W12 m c (no_index (Proc.devRef .tc main_arg18)) = (a18 m c) :=
  (s12_keep (W11 m c) main_arg18 (by decide)).trans (W11_main_arg18 m c)
theorem W12_main_arg19 : W12 m c (no_index (Proc.devRef .tc main_arg19)) = (a19 m c) :=
  (s12_keep (W11 m c) main_arg19 (by decide)).trans (W11_main_arg19 m c)
theorem W12_main_arg20 : W12 m c (no_index (Proc.devRef .tc main_arg20)) = (a20 m c) :=
  (s12_keep (W11 m c) main_arg20 (by decide)).trans (W11_main_arg20 m c)
theorem W12_main_arg21 : W12 m c (no_index (Proc.devRef .tc main_arg21)) = (a21 m c) :=
  (s12_keep (W11 m c) main_arg21 (by decide)).trans (W11_main_arg21 m c)
theorem W12_main_arg22 : W12 m c (no_index (Proc.devRef .tc main_arg22)) = (a22 m c) :=
  (s12_keep (W11 m c) main_arg22 (by decide)).trans (W11_main_arg22 m c)
theorem W12_main_arg23 : W12 m c (no_index (Proc.devRef .tc main_arg23)) = (a23 m c) :=
  (s12_keep (W11 m c) main_arg23 (by decide)).trans (W11_main_arg23 m c)
theorem W12_main_arg24 : W12 m c (no_index (Proc.devRef .tc main_arg24)) = (a24 m c) :=
  (s12_keep (W11 m c) main_arg24 (by decide)).trans (W11_main_arg24 m c)
theorem W12_main_arg25 : W12 m c (no_index (Proc.devRef .tc main_arg25)) = (a25 m c) :=
  (s12_keep (W11 m c) main_arg25 (by decide)).trans (W11_main_arg25 m c)
theorem W12_main_arg26 : W12 m c (no_index (Proc.devRef .tc main_arg26)) = (a26 m c) :=
  (s12_keep (W11 m c) main_arg26 (by decide)).trans (W11_main_arg26 m c)
theorem W12_main_arg27 : W12 m c (no_index (Proc.devRef .tc main_arg27)) = (a27 m c) :=
  (s12_keep (W11 m c) main_arg27 (by decide)).trans (W11_main_arg27 m c)
theorem W12_main_arg28 : W12 m c (no_index (Proc.devRef .tc main_arg28)) = (a28 m c) :=
  (s12_keep (W11 m c) main_arg28 (by decide)).trans (W11_main_arg28 m c)
theorem W12_main_arg29 : W12 m c (no_index (Proc.devRef .tc main_arg29)) = (a29 m c) :=
  (s12_keep (W11 m c) main_arg29 (by decide)).trans (W11_main_arg29 m c)
theorem W12_main_arg30 : W12 m c (no_index (Proc.devRef .tc main_arg30)) = (a30 m c) :=
  (s12_keep (W11 m c) main_arg30 (by decide)).trans (W11_main_arg30 m c)
theorem W12_main_arg31 : W12 m c (no_index (Proc.devRef .tc main_arg31)) = (a31 m c) :=
  (s12_keep (W11 m c) main_arg31 (by decide)).trans (W11_main_arg31 m c)
theorem W12_main_arg32 : W12 m c (no_index (Proc.devRef .tc main_arg32)) = (a32 m c) :=
  (s12_keep (W11 m c) main_arg32 (by decide)).trans (W11_main_arg32 m c)
theorem W12_main_arg33 : W12 m c (no_index (Proc.devRef .tc main_arg33)) = (a33 m c) :=
  (s12_keep (W11 m c) main_arg33 (by decide)).trans (W11_main_arg33 m c)
theorem W12_main_arg34 : W12 m c (no_index (Proc.devRef .tc main_arg34)) = (a34 m c) :=
  (s12_keep (W11 m c) main_arg34 (by decide)).trans (W11_main_arg34 m c)
theorem W12_main_arg35 : W12 m c (no_index (Proc.devRef .tc main_arg35)) = (a35 m c) :=
  (s12_keep (W11 m c) main_arg35 (by decide)).trans (W11_main_arg35 m c)
theorem W12_main_v56 : W12 m c (no_index (Proc.devRef .tc main_v56)) = val_main_v56 (F := F) (a0 m c) (a1 m c) (a2 m c) (a23 m c) (a24 m c) (a25 m c) (a26 m c) (a27 m c) (a28 m c) (a29 m c) (a30 m c) :=
  (s12_keep (W11 m c) main_v56 (by decide)).trans (W11_main_v56 m c)
theorem W12_main_v178 : W12 m c (no_index (Proc.devRef .tc main_v178)) = val_main_v178 (F := F) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) :=
  s12_main_v178 (W11 m c) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (W11_main_v160 m c)

/-- The device's buffer contents after the first 13 stretches. -/
def W13 : Valuation τ sig (Elt F) := after s13 (W12 m c)
theorem W13_main_arg0 : W13 m c (no_index (Proc.devRef .tc main_arg0)) = (a0 m c) :=
  (s13_keep (W12 m c) main_arg0 (by decide)).trans (W12_main_arg0 m c)
theorem W13_main_arg1 : W13 m c (no_index (Proc.devRef .tc main_arg1)) = (a1 m c) :=
  (s13_keep (W12 m c) main_arg1 (by decide)).trans (W12_main_arg1 m c)
theorem W13_main_arg2 : W13 m c (no_index (Proc.devRef .tc main_arg2)) = (a2 m c) :=
  (s13_keep (W12 m c) main_arg2 (by decide)).trans (W12_main_arg2 m c)
theorem W13_main_arg3 : W13 m c (no_index (Proc.devRef .tc main_arg3)) = (a3 m c) :=
  (s13_keep (W12 m c) main_arg3 (by decide)).trans (W12_main_arg3 m c)
theorem W13_main_arg4 : W13 m c (no_index (Proc.devRef .tc main_arg4)) = (a4 m c) :=
  (s13_keep (W12 m c) main_arg4 (by decide)).trans (W12_main_arg4 m c)
theorem W13_main_arg5 : W13 m c (no_index (Proc.devRef .tc main_arg5)) = (a5 m c) :=
  (s13_keep (W12 m c) main_arg5 (by decide)).trans (W12_main_arg5 m c)
theorem W13_main_arg6 : W13 m c (no_index (Proc.devRef .tc main_arg6)) = (a6 m c) :=
  (s13_keep (W12 m c) main_arg6 (by decide)).trans (W12_main_arg6 m c)
theorem W13_main_arg7 : W13 m c (no_index (Proc.devRef .tc main_arg7)) = (a7 m c) :=
  (s13_keep (W12 m c) main_arg7 (by decide)).trans (W12_main_arg7 m c)
theorem W13_main_arg8 : W13 m c (no_index (Proc.devRef .tc main_arg8)) = (a8 m c) :=
  (s13_keep (W12 m c) main_arg8 (by decide)).trans (W12_main_arg8 m c)
theorem W13_main_arg9 : W13 m c (no_index (Proc.devRef .tc main_arg9)) = (a9 m c) :=
  (s13_keep (W12 m c) main_arg9 (by decide)).trans (W12_main_arg9 m c)
theorem W13_main_arg10 : W13 m c (no_index (Proc.devRef .tc main_arg10)) = (a10 m c) :=
  (s13_keep (W12 m c) main_arg10 (by decide)).trans (W12_main_arg10 m c)
theorem W13_main_arg11 : W13 m c (no_index (Proc.devRef .tc main_arg11)) = (a11 m c) :=
  (s13_keep (W12 m c) main_arg11 (by decide)).trans (W12_main_arg11 m c)
theorem W13_main_arg12 : W13 m c (no_index (Proc.devRef .tc main_arg12)) = (a12 m c) :=
  (s13_keep (W12 m c) main_arg12 (by decide)).trans (W12_main_arg12 m c)
theorem W13_main_arg13 : W13 m c (no_index (Proc.devRef .tc main_arg13)) = (a13 m c) :=
  (s13_keep (W12 m c) main_arg13 (by decide)).trans (W12_main_arg13 m c)
theorem W13_main_arg14 : W13 m c (no_index (Proc.devRef .tc main_arg14)) = (a14 m c) :=
  (s13_keep (W12 m c) main_arg14 (by decide)).trans (W12_main_arg14 m c)
theorem W13_main_arg15 : W13 m c (no_index (Proc.devRef .tc main_arg15)) = (a15 m c) :=
  (s13_keep (W12 m c) main_arg15 (by decide)).trans (W12_main_arg15 m c)
theorem W13_main_arg16 : W13 m c (no_index (Proc.devRef .tc main_arg16)) = (a16 m c) :=
  (s13_keep (W12 m c) main_arg16 (by decide)).trans (W12_main_arg16 m c)
theorem W13_main_arg17 : W13 m c (no_index (Proc.devRef .tc main_arg17)) = (a17 m c) :=
  (s13_keep (W12 m c) main_arg17 (by decide)).trans (W12_main_arg17 m c)
theorem W13_main_arg18 : W13 m c (no_index (Proc.devRef .tc main_arg18)) = (a18 m c) :=
  (s13_keep (W12 m c) main_arg18 (by decide)).trans (W12_main_arg18 m c)
theorem W13_main_arg19 : W13 m c (no_index (Proc.devRef .tc main_arg19)) = (a19 m c) :=
  (s13_keep (W12 m c) main_arg19 (by decide)).trans (W12_main_arg19 m c)
theorem W13_main_arg20 : W13 m c (no_index (Proc.devRef .tc main_arg20)) = (a20 m c) :=
  (s13_keep (W12 m c) main_arg20 (by decide)).trans (W12_main_arg20 m c)
theorem W13_main_arg21 : W13 m c (no_index (Proc.devRef .tc main_arg21)) = (a21 m c) :=
  (s13_keep (W12 m c) main_arg21 (by decide)).trans (W12_main_arg21 m c)
theorem W13_main_arg22 : W13 m c (no_index (Proc.devRef .tc main_arg22)) = (a22 m c) :=
  (s13_keep (W12 m c) main_arg22 (by decide)).trans (W12_main_arg22 m c)
theorem W13_main_arg23 : W13 m c (no_index (Proc.devRef .tc main_arg23)) = (a23 m c) :=
  (s13_keep (W12 m c) main_arg23 (by decide)).trans (W12_main_arg23 m c)
theorem W13_main_arg24 : W13 m c (no_index (Proc.devRef .tc main_arg24)) = (a24 m c) :=
  (s13_keep (W12 m c) main_arg24 (by decide)).trans (W12_main_arg24 m c)
theorem W13_main_arg25 : W13 m c (no_index (Proc.devRef .tc main_arg25)) = (a25 m c) :=
  (s13_keep (W12 m c) main_arg25 (by decide)).trans (W12_main_arg25 m c)
theorem W13_main_arg26 : W13 m c (no_index (Proc.devRef .tc main_arg26)) = (a26 m c) :=
  (s13_keep (W12 m c) main_arg26 (by decide)).trans (W12_main_arg26 m c)
theorem W13_main_arg27 : W13 m c (no_index (Proc.devRef .tc main_arg27)) = (a27 m c) :=
  (s13_keep (W12 m c) main_arg27 (by decide)).trans (W12_main_arg27 m c)
theorem W13_main_arg28 : W13 m c (no_index (Proc.devRef .tc main_arg28)) = (a28 m c) :=
  (s13_keep (W12 m c) main_arg28 (by decide)).trans (W12_main_arg28 m c)
theorem W13_main_arg29 : W13 m c (no_index (Proc.devRef .tc main_arg29)) = (a29 m c) :=
  (s13_keep (W12 m c) main_arg29 (by decide)).trans (W12_main_arg29 m c)
theorem W13_main_arg30 : W13 m c (no_index (Proc.devRef .tc main_arg30)) = (a30 m c) :=
  (s13_keep (W12 m c) main_arg30 (by decide)).trans (W12_main_arg30 m c)
theorem W13_main_arg31 : W13 m c (no_index (Proc.devRef .tc main_arg31)) = (a31 m c) :=
  (s13_keep (W12 m c) main_arg31 (by decide)).trans (W12_main_arg31 m c)
theorem W13_main_arg32 : W13 m c (no_index (Proc.devRef .tc main_arg32)) = (a32 m c) :=
  (s13_keep (W12 m c) main_arg32 (by decide)).trans (W12_main_arg32 m c)
theorem W13_main_arg33 : W13 m c (no_index (Proc.devRef .tc main_arg33)) = (a33 m c) :=
  (s13_keep (W12 m c) main_arg33 (by decide)).trans (W12_main_arg33 m c)
theorem W13_main_arg34 : W13 m c (no_index (Proc.devRef .tc main_arg34)) = (a34 m c) :=
  (s13_keep (W12 m c) main_arg34 (by decide)).trans (W12_main_arg34 m c)
theorem W13_main_arg35 : W13 m c (no_index (Proc.devRef .tc main_arg35)) = (a35 m c) :=
  (s13_keep (W12 m c) main_arg35 (by decide)).trans (W12_main_arg35 m c)
theorem W13_main_v191 : W13 m c (no_index (Proc.devRef .tc main_v191)) = val_main_v191 (F := F) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a27 m c) (a28 m c) (a29 m c) (a30 m c) (a31 m c) :=
  s13_main_v191 (W12 m c) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a27 m c) (a28 m c) (a29 m c) (a30 m c) (a31 m c) (W12_main_arg19 m c) (W12_main_arg20 m c) (W12_main_arg21 m c) (W12_main_arg22 m c) (W12_main_arg31 m c) (W12_main_v56 m c) (W12_main_v178 m c)

/-- The device's buffer contents after the first 14 stretches. -/
def W14 : Valuation τ sig (Elt F) := after s14 (W13 m c)
theorem W14_main_arg0 : W14 m c (no_index (Proc.devRef .tc main_arg0)) = (a0 m c) :=
  (s14_keep (W13 m c) main_arg0 (by decide)).trans (W13_main_arg0 m c)
theorem W14_main_arg1 : W14 m c (no_index (Proc.devRef .tc main_arg1)) = (a1 m c) :=
  (s14_keep (W13 m c) main_arg1 (by decide)).trans (W13_main_arg1 m c)
theorem W14_main_arg2 : W14 m c (no_index (Proc.devRef .tc main_arg2)) = (a2 m c) :=
  (s14_keep (W13 m c) main_arg2 (by decide)).trans (W13_main_arg2 m c)
theorem W14_main_arg3 : W14 m c (no_index (Proc.devRef .tc main_arg3)) = (a3 m c) :=
  (s14_keep (W13 m c) main_arg3 (by decide)).trans (W13_main_arg3 m c)
theorem W14_main_arg4 : W14 m c (no_index (Proc.devRef .tc main_arg4)) = (a4 m c) :=
  (s14_keep (W13 m c) main_arg4 (by decide)).trans (W13_main_arg4 m c)
theorem W14_main_arg5 : W14 m c (no_index (Proc.devRef .tc main_arg5)) = (a5 m c) :=
  (s14_keep (W13 m c) main_arg5 (by decide)).trans (W13_main_arg5 m c)
theorem W14_main_arg6 : W14 m c (no_index (Proc.devRef .tc main_arg6)) = (a6 m c) :=
  (s14_keep (W13 m c) main_arg6 (by decide)).trans (W13_main_arg6 m c)
theorem W14_main_arg7 : W14 m c (no_index (Proc.devRef .tc main_arg7)) = (a7 m c) :=
  (s14_keep (W13 m c) main_arg7 (by decide)).trans (W13_main_arg7 m c)
theorem W14_main_arg8 : W14 m c (no_index (Proc.devRef .tc main_arg8)) = (a8 m c) :=
  (s14_keep (W13 m c) main_arg8 (by decide)).trans (W13_main_arg8 m c)
theorem W14_main_arg9 : W14 m c (no_index (Proc.devRef .tc main_arg9)) = (a9 m c) :=
  (s14_keep (W13 m c) main_arg9 (by decide)).trans (W13_main_arg9 m c)
theorem W14_main_arg10 : W14 m c (no_index (Proc.devRef .tc main_arg10)) = (a10 m c) :=
  (s14_keep (W13 m c) main_arg10 (by decide)).trans (W13_main_arg10 m c)
theorem W14_main_arg11 : W14 m c (no_index (Proc.devRef .tc main_arg11)) = (a11 m c) :=
  (s14_keep (W13 m c) main_arg11 (by decide)).trans (W13_main_arg11 m c)
theorem W14_main_arg12 : W14 m c (no_index (Proc.devRef .tc main_arg12)) = (a12 m c) :=
  (s14_keep (W13 m c) main_arg12 (by decide)).trans (W13_main_arg12 m c)
theorem W14_main_arg13 : W14 m c (no_index (Proc.devRef .tc main_arg13)) = (a13 m c) :=
  (s14_keep (W13 m c) main_arg13 (by decide)).trans (W13_main_arg13 m c)
theorem W14_main_arg14 : W14 m c (no_index (Proc.devRef .tc main_arg14)) = (a14 m c) :=
  (s14_keep (W13 m c) main_arg14 (by decide)).trans (W13_main_arg14 m c)
theorem W14_main_arg15 : W14 m c (no_index (Proc.devRef .tc main_arg15)) = (a15 m c) :=
  (s14_keep (W13 m c) main_arg15 (by decide)).trans (W13_main_arg15 m c)
theorem W14_main_arg16 : W14 m c (no_index (Proc.devRef .tc main_arg16)) = (a16 m c) :=
  (s14_keep (W13 m c) main_arg16 (by decide)).trans (W13_main_arg16 m c)
theorem W14_main_arg17 : W14 m c (no_index (Proc.devRef .tc main_arg17)) = (a17 m c) :=
  (s14_keep (W13 m c) main_arg17 (by decide)).trans (W13_main_arg17 m c)
theorem W14_main_arg18 : W14 m c (no_index (Proc.devRef .tc main_arg18)) = (a18 m c) :=
  (s14_keep (W13 m c) main_arg18 (by decide)).trans (W13_main_arg18 m c)
theorem W14_main_arg19 : W14 m c (no_index (Proc.devRef .tc main_arg19)) = (a19 m c) :=
  (s14_keep (W13 m c) main_arg19 (by decide)).trans (W13_main_arg19 m c)
theorem W14_main_arg20 : W14 m c (no_index (Proc.devRef .tc main_arg20)) = (a20 m c) :=
  (s14_keep (W13 m c) main_arg20 (by decide)).trans (W13_main_arg20 m c)
theorem W14_main_arg21 : W14 m c (no_index (Proc.devRef .tc main_arg21)) = (a21 m c) :=
  (s14_keep (W13 m c) main_arg21 (by decide)).trans (W13_main_arg21 m c)
theorem W14_main_arg22 : W14 m c (no_index (Proc.devRef .tc main_arg22)) = (a22 m c) :=
  (s14_keep (W13 m c) main_arg22 (by decide)).trans (W13_main_arg22 m c)
theorem W14_main_arg23 : W14 m c (no_index (Proc.devRef .tc main_arg23)) = (a23 m c) :=
  (s14_keep (W13 m c) main_arg23 (by decide)).trans (W13_main_arg23 m c)
theorem W14_main_arg24 : W14 m c (no_index (Proc.devRef .tc main_arg24)) = (a24 m c) :=
  (s14_keep (W13 m c) main_arg24 (by decide)).trans (W13_main_arg24 m c)
theorem W14_main_arg25 : W14 m c (no_index (Proc.devRef .tc main_arg25)) = (a25 m c) :=
  (s14_keep (W13 m c) main_arg25 (by decide)).trans (W13_main_arg25 m c)
theorem W14_main_arg26 : W14 m c (no_index (Proc.devRef .tc main_arg26)) = (a26 m c) :=
  (s14_keep (W13 m c) main_arg26 (by decide)).trans (W13_main_arg26 m c)
theorem W14_main_arg27 : W14 m c (no_index (Proc.devRef .tc main_arg27)) = (a27 m c) :=
  (s14_keep (W13 m c) main_arg27 (by decide)).trans (W13_main_arg27 m c)
theorem W14_main_arg28 : W14 m c (no_index (Proc.devRef .tc main_arg28)) = (a28 m c) :=
  (s14_keep (W13 m c) main_arg28 (by decide)).trans (W13_main_arg28 m c)
theorem W14_main_arg29 : W14 m c (no_index (Proc.devRef .tc main_arg29)) = (a29 m c) :=
  (s14_keep (W13 m c) main_arg29 (by decide)).trans (W13_main_arg29 m c)
theorem W14_main_arg30 : W14 m c (no_index (Proc.devRef .tc main_arg30)) = (a30 m c) :=
  (s14_keep (W13 m c) main_arg30 (by decide)).trans (W13_main_arg30 m c)
theorem W14_main_arg31 : W14 m c (no_index (Proc.devRef .tc main_arg31)) = (a31 m c) :=
  (s14_keep (W13 m c) main_arg31 (by decide)).trans (W13_main_arg31 m c)
theorem W14_main_arg32 : W14 m c (no_index (Proc.devRef .tc main_arg32)) = (a32 m c) :=
  (s14_keep (W13 m c) main_arg32 (by decide)).trans (W13_main_arg32 m c)
theorem W14_main_arg33 : W14 m c (no_index (Proc.devRef .tc main_arg33)) = (a33 m c) :=
  (s14_keep (W13 m c) main_arg33 (by decide)).trans (W13_main_arg33 m c)
theorem W14_main_arg34 : W14 m c (no_index (Proc.devRef .tc main_arg34)) = (a34 m c) :=
  (s14_keep (W13 m c) main_arg34 (by decide)).trans (W13_main_arg34 m c)
theorem W14_main_arg35 : W14 m c (no_index (Proc.devRef .tc main_arg35)) = (a35 m c) :=
  (s14_keep (W13 m c) main_arg35 (by decide)).trans (W13_main_arg35 m c)
theorem W14_main_v209 : W14 m c (no_index (Proc.devRef .tc main_v209)) = val_main_v209 (F := F) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a27 m c) (a28 m c) (a29 m c) (a30 m c) (a31 m c) :=
  s14_main_v209 (W13 m c) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a27 m c) (a28 m c) (a29 m c) (a30 m c) (a31 m c) (W13_main_v191 m c)

/-- The device's buffer contents after the first 15 stretches. -/
def W15 : Valuation τ sig (Elt F) := after s15 (W14 m c)
theorem W15_main_arg0 : W15 m c (no_index (Proc.devRef .tc main_arg0)) = (a0 m c) :=
  (s15_keep (W14 m c) main_arg0 (by decide)).trans (W14_main_arg0 m c)
theorem W15_main_arg1 : W15 m c (no_index (Proc.devRef .tc main_arg1)) = (a1 m c) :=
  (s15_keep (W14 m c) main_arg1 (by decide)).trans (W14_main_arg1 m c)
theorem W15_main_arg2 : W15 m c (no_index (Proc.devRef .tc main_arg2)) = (a2 m c) :=
  (s15_keep (W14 m c) main_arg2 (by decide)).trans (W14_main_arg2 m c)
theorem W15_main_arg3 : W15 m c (no_index (Proc.devRef .tc main_arg3)) = (a3 m c) :=
  (s15_keep (W14 m c) main_arg3 (by decide)).trans (W14_main_arg3 m c)
theorem W15_main_arg4 : W15 m c (no_index (Proc.devRef .tc main_arg4)) = (a4 m c) :=
  (s15_keep (W14 m c) main_arg4 (by decide)).trans (W14_main_arg4 m c)
theorem W15_main_arg5 : W15 m c (no_index (Proc.devRef .tc main_arg5)) = (a5 m c) :=
  (s15_keep (W14 m c) main_arg5 (by decide)).trans (W14_main_arg5 m c)
theorem W15_main_arg6 : W15 m c (no_index (Proc.devRef .tc main_arg6)) = (a6 m c) :=
  (s15_keep (W14 m c) main_arg6 (by decide)).trans (W14_main_arg6 m c)
theorem W15_main_arg7 : W15 m c (no_index (Proc.devRef .tc main_arg7)) = (a7 m c) :=
  (s15_keep (W14 m c) main_arg7 (by decide)).trans (W14_main_arg7 m c)
theorem W15_main_arg8 : W15 m c (no_index (Proc.devRef .tc main_arg8)) = (a8 m c) :=
  (s15_keep (W14 m c) main_arg8 (by decide)).trans (W14_main_arg8 m c)
theorem W15_main_arg9 : W15 m c (no_index (Proc.devRef .tc main_arg9)) = (a9 m c) :=
  (s15_keep (W14 m c) main_arg9 (by decide)).trans (W14_main_arg9 m c)
theorem W15_main_arg10 : W15 m c (no_index (Proc.devRef .tc main_arg10)) = (a10 m c) :=
  (s15_keep (W14 m c) main_arg10 (by decide)).trans (W14_main_arg10 m c)
theorem W15_main_arg11 : W15 m c (no_index (Proc.devRef .tc main_arg11)) = (a11 m c) :=
  (s15_keep (W14 m c) main_arg11 (by decide)).trans (W14_main_arg11 m c)
theorem W15_main_arg12 : W15 m c (no_index (Proc.devRef .tc main_arg12)) = (a12 m c) :=
  (s15_keep (W14 m c) main_arg12 (by decide)).trans (W14_main_arg12 m c)
theorem W15_main_arg13 : W15 m c (no_index (Proc.devRef .tc main_arg13)) = (a13 m c) :=
  (s15_keep (W14 m c) main_arg13 (by decide)).trans (W14_main_arg13 m c)
theorem W15_main_arg14 : W15 m c (no_index (Proc.devRef .tc main_arg14)) = (a14 m c) :=
  (s15_keep (W14 m c) main_arg14 (by decide)).trans (W14_main_arg14 m c)
theorem W15_main_arg15 : W15 m c (no_index (Proc.devRef .tc main_arg15)) = (a15 m c) :=
  (s15_keep (W14 m c) main_arg15 (by decide)).trans (W14_main_arg15 m c)
theorem W15_main_arg16 : W15 m c (no_index (Proc.devRef .tc main_arg16)) = (a16 m c) :=
  (s15_keep (W14 m c) main_arg16 (by decide)).trans (W14_main_arg16 m c)
theorem W15_main_arg17 : W15 m c (no_index (Proc.devRef .tc main_arg17)) = (a17 m c) :=
  (s15_keep (W14 m c) main_arg17 (by decide)).trans (W14_main_arg17 m c)
theorem W15_main_arg18 : W15 m c (no_index (Proc.devRef .tc main_arg18)) = (a18 m c) :=
  (s15_keep (W14 m c) main_arg18 (by decide)).trans (W14_main_arg18 m c)
theorem W15_main_arg19 : W15 m c (no_index (Proc.devRef .tc main_arg19)) = (a19 m c) :=
  (s15_keep (W14 m c) main_arg19 (by decide)).trans (W14_main_arg19 m c)
theorem W15_main_arg20 : W15 m c (no_index (Proc.devRef .tc main_arg20)) = (a20 m c) :=
  (s15_keep (W14 m c) main_arg20 (by decide)).trans (W14_main_arg20 m c)
theorem W15_main_arg21 : W15 m c (no_index (Proc.devRef .tc main_arg21)) = (a21 m c) :=
  (s15_keep (W14 m c) main_arg21 (by decide)).trans (W14_main_arg21 m c)
theorem W15_main_arg22 : W15 m c (no_index (Proc.devRef .tc main_arg22)) = (a22 m c) :=
  (s15_keep (W14 m c) main_arg22 (by decide)).trans (W14_main_arg22 m c)
theorem W15_main_arg23 : W15 m c (no_index (Proc.devRef .tc main_arg23)) = (a23 m c) :=
  (s15_keep (W14 m c) main_arg23 (by decide)).trans (W14_main_arg23 m c)
theorem W15_main_arg24 : W15 m c (no_index (Proc.devRef .tc main_arg24)) = (a24 m c) :=
  (s15_keep (W14 m c) main_arg24 (by decide)).trans (W14_main_arg24 m c)
theorem W15_main_arg25 : W15 m c (no_index (Proc.devRef .tc main_arg25)) = (a25 m c) :=
  (s15_keep (W14 m c) main_arg25 (by decide)).trans (W14_main_arg25 m c)
theorem W15_main_arg26 : W15 m c (no_index (Proc.devRef .tc main_arg26)) = (a26 m c) :=
  (s15_keep (W14 m c) main_arg26 (by decide)).trans (W14_main_arg26 m c)
theorem W15_main_arg27 : W15 m c (no_index (Proc.devRef .tc main_arg27)) = (a27 m c) :=
  (s15_keep (W14 m c) main_arg27 (by decide)).trans (W14_main_arg27 m c)
theorem W15_main_arg28 : W15 m c (no_index (Proc.devRef .tc main_arg28)) = (a28 m c) :=
  (s15_keep (W14 m c) main_arg28 (by decide)).trans (W14_main_arg28 m c)
theorem W15_main_arg29 : W15 m c (no_index (Proc.devRef .tc main_arg29)) = (a29 m c) :=
  (s15_keep (W14 m c) main_arg29 (by decide)).trans (W14_main_arg29 m c)
theorem W15_main_arg30 : W15 m c (no_index (Proc.devRef .tc main_arg30)) = (a30 m c) :=
  (s15_keep (W14 m c) main_arg30 (by decide)).trans (W14_main_arg30 m c)
theorem W15_main_arg31 : W15 m c (no_index (Proc.devRef .tc main_arg31)) = (a31 m c) :=
  (s15_keep (W14 m c) main_arg31 (by decide)).trans (W14_main_arg31 m c)
theorem W15_main_arg32 : W15 m c (no_index (Proc.devRef .tc main_arg32)) = (a32 m c) :=
  (s15_keep (W14 m c) main_arg32 (by decide)).trans (W14_main_arg32 m c)
theorem W15_main_arg33 : W15 m c (no_index (Proc.devRef .tc main_arg33)) = (a33 m c) :=
  (s15_keep (W14 m c) main_arg33 (by decide)).trans (W14_main_arg33 m c)
theorem W15_main_arg34 : W15 m c (no_index (Proc.devRef .tc main_arg34)) = (a34 m c) :=
  (s15_keep (W14 m c) main_arg34 (by decide)).trans (W14_main_arg34 m c)
theorem W15_main_arg35 : W15 m c (no_index (Proc.devRef .tc main_arg35)) = (a35 m c) :=
  (s15_keep (W14 m c) main_arg35 (by decide)).trans (W14_main_arg35 m c)
theorem W15_main_v220 : W15 m c (no_index (Proc.devRef .tc main_v220)) = val_main_v220 (F := F) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a27 m c) (a28 m c) (a29 m c) (a30 m c) (a31 m c) (a32 m c) (a33 m c) (a34 m c) (a35 m c) :=
  s15_main_v220 (W14 m c) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a27 m c) (a28 m c) (a29 m c) (a30 m c) (a31 m c) (a32 m c) (a33 m c) (a34 m c) (a35 m c) (W14_main_arg32 m c) (W14_main_arg33 m c) (W14_main_arg34 m c) (W14_main_arg35 m c) (W14_main_v209 m c)

/-- The contents after all of @main's operations are the contents after the last stretch. -/
theorem after_ops : after (ops : List (HloOp τ sig (Elt F))) (launchContents m c) = W15 m c := by
  rw [ops_eq]; simp only [Cert.LibAfterAppend.after_append]; rfl

end Cert.ReferenceIdeal.RunS

end
-- ==== Proof.RefRunS.lean ====
/-
  The reference program's run, read stretch by stretch. Every weakly fair execution of @main from any memory with zero
  counters terminates; the final contents of each buffer are the fold of @main's 273 operations over the launch contents
  (the library's statement for a straight line of host operations). That fold is the fold of the last stretch over the
  fold of the stretches before it, and the tables give, for the result buffer, its val_ term of the arguments' launch
  contents — a tower of one small definition per operation, never the composed term — and, for each argument, its
  launch contents: no operation writes an argument.
-/
import proofs.«104010_j23570780520494_2_alg».proof.Proof.RefRunSTab

noncomputable section

namespace Cert.ReferenceIdeal.RunS

open Cert.ReferenceIdeal Cert.ReferenceIdeal.Gen Cert.ReferenceIdeal.Read Cert.ReferenceIdeal.Ops Idealize.ShloMosaic Idealize.ShloMosaic.TcCoe Idealize.SL.Sem Idealize.ShloMosaic.StableHlo

variable {F : FTy → Type} [FloatOps F]

/-- On every device, for any float values, from any memory with zero counters: every weakly fair execution of @main
    terminates with the result buffer at its val_ term of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v220) = val_main_v220 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35) :=
  (θ_run defs _ _).mono (fun _ h c => ⟨(h c main_v220).trans ((congrFun (after_ops m c) _).trans (W15_main_v220 m c)),
      (h c main_arg0).trans ((congrFun (after_ops m c) _).trans (W15_main_arg0 m c)),
      (h c main_arg1).trans ((congrFun (after_ops m c) _).trans (W15_main_arg1 m c)),
      (h c main_arg2).trans ((congrFun (after_ops m c) _).trans (W15_main_arg2 m c)),
      (h c main_arg3).trans ((congrFun (after_ops m c) _).trans (W15_main_arg3 m c)),
      (h c main_arg4).trans ((congrFun (after_ops m c) _).trans (W15_main_arg4 m c)),
      (h c main_arg5).trans ((congrFun (after_ops m c) _).trans (W15_main_arg5 m c)),
      (h c main_arg6).trans ((congrFun (after_ops m c) _).trans (W15_main_arg6 m c)),
      (h c main_arg7).trans ((congrFun (after_ops m c) _).trans (W15_main_arg7 m c)),
      (h c main_arg8).trans ((congrFun (after_ops m c) _).trans (W15_main_arg8 m c)),
      (h c main_arg9).trans ((congrFun (after_ops m c) _).trans (W15_main_arg9 m c)),
      (h c main_arg10).trans ((congrFun (after_ops m c) _).trans (W15_main_arg10 m c)),
      (h c main_arg11).trans ((congrFun (after_ops m c) _).trans (W15_main_arg11 m c)),
      (h c main_arg12).trans ((congrFun (after_ops m c) _).trans (W15_main_arg12 m c)),
      (h c main_arg13).trans ((congrFun (after_ops m c) _).trans (W15_main_arg13 m c)),
      (h c main_arg14).trans ((congrFun (after_ops m c) _).trans (W15_main_arg14 m c)),
      (h c main_arg15).trans ((congrFun (after_ops m c) _).trans (W15_main_arg15 m c)),
      (h c main_arg16).trans ((congrFun (after_ops m c) _).trans (W15_main_arg16 m c)),
      (h c main_arg17).trans ((congrFun (after_ops m c) _).trans (W15_main_arg17 m c)),
      (h c main_arg18).trans ((congrFun (after_ops m c) _).trans (W15_main_arg18 m c)),
      (h c main_arg19).trans ((congrFun (after_ops m c) _).trans (W15_main_arg19 m c)),
      (h c main_arg20).trans ((congrFun (after_ops m c) _).trans (W15_main_arg20 m c)),
      (h c main_arg21).trans ((congrFun (after_ops m c) _).trans (W15_main_arg21 m c)),
      (h c main_arg22).trans ((congrFun (after_ops m c) _).trans (W15_main_arg22 m c)),
      (h c main_arg23).trans ((congrFun (after_ops m c) _).trans (W15_main_arg23 m c)),
      (h c main_arg24).trans ((congrFun (after_ops m c) _).trans (W15_main_arg24 m c)),
      (h c main_arg25).trans ((congrFun (after_ops m c) _).trans (W15_main_arg25 m c)),
      (h c main_arg26).trans ((congrFun (after_ops m c) _).trans (W15_main_arg26 m c)),
      (h c main_arg27).trans ((congrFun (after_ops m c) _).trans (W15_main_arg27 m c)),
      (h c main_arg28).trans ((congrFun (after_ops m c) _).trans (W15_main_arg28 m c)),
      (h c main_arg29).trans ((congrFun (after_ops m c) _).trans (W15_main_arg29 m c)),
      (h c main_arg30).trans ((congrFun (after_ops m c) _).trans (W15_main_arg30 m c)),
      (h c main_arg31).trans ((congrFun (after_ops m c) _).trans (W15_main_arg31 m c)),
      (h c main_arg32).trans ((congrFun (after_ops m c) _).trans (W15_main_arg32 m c)),
      (h c main_arg33).trans ((congrFun (after_ops m c) _).trans (W15_main_arg33 m c)),
      (h c main_arg34).trans ((congrFun (after_ops m c) _).trans (W15_main_arg34 m c)),
      (h c main_arg35).trans ((congrFun (after_ops m c) _).trans (W15_main_arg35 m c))⟩)
    (run_seq scopedRefs_eq scopedSems_eq defs main (fun _ => ops) main_eq (fun _ => ops_sub) m ρ)

end Cert.ReferenceIdeal.RunS

end
-- ==== Proof.RefFrame.lean ====
/-
  The reference is a plain host program: a straight line of 273 array operations, no kernel launch.
  Every weakly fair execution of it ends, faults nowhere, leaves each argument array as it found it, and
  leaves in the result buffer the last stage of the operations read one at a time, as a function of the
  arguments (the line is read stretch by stretch, carrying across each cut only the buffers still needed).
  The frame forgets what the result holds.
-/
import proofs.«104010_j23570780520494_2_alg».proof.Defs
import proofs.«104010_j23570780520494_2_alg».proof.Proof.Gen.ReferenceIdeal
import proofs.«104010_j23570780520494_2_alg».proof.Proof.RefReadP
import proofs.«104010_j23570780520494_2_alg».proof.Proof.RefRunS
import proofs.«104010_j23570780520494_2_alg».proof.Proof.Gen.Pre_finite_inputs

noncomputable section

open Idealize.ShloMosaic Idealize.SL.Sem

namespace Cert.Proof.RefClaims

/-- The reference's run with its result named as the last stage of its operations, of the arguments. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v220)
        = Cert.ReferenceIdeal.Read.val_main_v220 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35) :=
  Cert.ReferenceIdeal.RunS.run m ρ

/-- The reference runs to the end and its thirty-six argument arrays end unchanged. -/
theorem frame_ri : Cert.frame_ReferenceIdeal := fun m ρ _ =>
  (θ_run Cert.ReferenceIdeal.defs _ _).mono (fun _ h c => (h c).2) (ref_run m ρ)

end Cert.Proof.RefClaims

end
-- ==== Proof.Spec.lean ====
/-
  The network of one row, as a function on the extended reals.

  Each of the 524288 rows is scored independently. From a row's three inputs — a representation
  (128 numbers), a pose (6 numbers) and an opening (1 number) — the network computes

    residuals = W3 · relu(LN(W2 · relu(LN(W1 · [rep | pose | opening])))) + b3         (135 → 64 → 32 → 16)
    key, query, value = a block  (linear, LN, relu, linear + bias)  of rep, pose, opening       (→ 32 each)
    att    = softmax(query * key) * value                                                  (32)
    attout = block(att)                                                                    (32 → 32 → 16)
    score  = block([attout | residuals])                                                   (32 → 16 → 1)

  where LN(x, g, b) = (x - mean x) * rsqrt(mean((x - mean x)²) + eps) * g + b and a mean is the sum divided by the
  width. Every operation is the exact one on the extended reals; the float words (zero, the widths 64, 32, 16, eps,
  minus infinity) stay as the words they are and are never evaluated. A sum is written as the host computes it,
  from the zero word, and a row's maximum as the host computes it, from the minus-infinity word and joined with that
  word once more; `sum0_eq_sum` and `rowmax_eq_fold` remove the two decorations.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-! ## Generic pieces -/

/-- The rectifier: the larger of the value and the zero word. -/
def relu (x : EReal) : EReal := max x (Ideal.ofBits .f32 0x00000000#32)

/-- A row's sum, from the zero word. -/
def sum0 {n : Nat} (x : Fin n → EReal) : EReal := Ideal.ofBits .f32 0x00000000#32 + ∑ k : Fin n, x k

/-- The zero word is zero: the sum from it is the sum. -/
theorem sum0_eq_sum {n : Nat} (x : Fin n → EReal) : sum0 x = ∑ k : Fin n, x k := by
  unfold sum0; rw [Ideal.ofBits_zero_f32, zero_add]

/-- A row's mean: its sum divided by the width `d` (a float word). -/
def mean {n : Nat} (d : EReal) (x : Fin n → EReal) : EReal := Ideal.div (sum0 x) d

/-- A row less its mean. -/
def centred {n : Nat} (d : EReal) (x : Fin n → EReal) (j : Fin n) : EReal := x j - mean d x

/-- A row's variance: the mean of the squares of the centred row. -/
def var {n : Nat} (d : EReal) (x : Fin n → EReal) : EReal := mean d fun k => centred d x k * centred d x k

/-- Layer normalisation of a row `x` of width `d` with gain `g` and bias `b`:
    (x - mean) * rsqrt(variance + eps) * g + b, in this order. -/
def ln {n : Nat} (d eps : EReal) (x g b : Fin n → EReal) (j : Fin n) : EReal :=
  centred d x j * Ideal.rsqrt (var d x + eps) * g j + b j

/-- A linear layer without bias: entry `j` is the sum over `k` of x k * W k j. -/
def lin {n m : Nat} (W : Fin n → Fin m → EReal) (x : Fin n → EReal) (j : Fin m) : EReal := ∑ k : Fin n, x k * W k j

/-- A linear layer with bias. -/
def dense {n m : Nat} (W : Fin n → Fin m → EReal) (b : Fin m → EReal) (x : Fin n → EReal) (j : Fin m) : EReal :=
  lin W x j + b j

/-- A row's maximum as the host computes it: the fold of max from the minus-infinity word, joined with that word. -/
def rowmax {n : Nat} (x : Fin n → EReal) : EReal :=
  max (Ideal.ofBits .f32 0xFF800000#32) ((Finset.univ : Finset (Fin n)).fold max (Ideal.ofBits .f32 0xFF800000#32) x)

/-- Joining the fold with its own starting value changes nothing. -/
theorem rowmax_eq_fold {n : Nat} (x : Fin n → EReal) :
    rowmax x = (Finset.univ : Finset (Fin n)).fold max (Ideal.ofBits .f32 0xFF800000#32) x := by
  unfold rowmax
  exact max_eq_right ((Finset.le_fold_max _).mpr (Or.inl le_rfl))

/-- The exponentials of a row less its maximum. -/
def expm {n : Nat} (x : Fin n → EReal) (j : Fin n) : EReal := Ideal.exp (x j - rowmax x)

/-- Softmax of a row: exp(x - max) divided by the sum of those exponentials. -/
def softmax {n : Nat} (x : Fin n → EReal) (j : Fin n) : EReal := Ideal.div (expm x j) (sum0 (expm x))

/-- The float words of the network. -/
abbrev w64 : EReal := Ideal.ofBits .f32 0x42800000#32
abbrev w32 : EReal := Ideal.ofBits .f32 0x42000000#32
abbrev w16 : EReal := Ideal.ofBits .f32 0x41800000#32
abbrev weps : EReal := Ideal.ofBits .f32 0x3727C5AC#32

/-! ## The weights -/

/-- The thirty-three weight arrays, as plain functions of their coordinates. -/
structure Params where
  kw1 : Fin 128 → Fin 64 → EReal
  kg : Fin 64 → EReal
  kb : Fin 64 → EReal
  kw2 : Fin 64 → Fin 32 → EReal
  kb2 : Fin 32 → EReal
  qw1 : Fin 6 → Fin 16 → EReal
  qg : Fin 16 → EReal
  qb : Fin 16 → EReal
  qw2 : Fin 16 → Fin 32 → EReal
  qb2 : Fin 32 → EReal
  vw1 : Fin 1 → Fin 16 → EReal
  vg : Fin 16 → EReal
  vb : Fin 16 → EReal
  vw2 : Fin 16 → Fin 32 → EReal
  vb2 : Fin 32 → EReal
  aw1 : Fin 32 → Fin 32 → EReal
  ag : Fin 32 → EReal
  ab : Fin 32 → EReal
  aw2 : Fin 32 → Fin 16 → EReal
  ab2 : Fin 16 → EReal
  rw1 : Fin 135 → Fin 64 → EReal
  rg1 : Fin 64 → EReal
  rb1 : Fin 64 → EReal
  rw2 : Fin 64 → Fin 32 → EReal
  rg2 : Fin 32 → EReal
  rb2 : Fin 32 → EReal
  rw3 : Fin 32 → Fin 16 → EReal
  rb3 : Fin 16 → EReal
  gw1 : Fin 32 → Fin 16 → EReal
  gg : Fin 16 → EReal
  gb : Fin 16 → EReal
  gw2 : Fin 16 → Fin 1 → EReal
  gb2 : Fin 1 → EReal

/-! ## The stages of one row -/

section Row

variable (p : Params) (rep : Fin 128 → EReal) (pose : Fin 6 → EReal) (opening : EReal)

/-- The residual path's input: the representation, the pose and the opening side by side. -/
def resIn (k : Fin 135) : EReal :=
  if h : k.val < 128 then rep ⟨k.val, h⟩
  else if h' : k.val < 134 then pose ⟨k.val - 128, by omega⟩
  else opening

def h1pre : Fin 64 → EReal := lin p.rw1 (resIn rep pose opening)
def h1 (j : Fin 64) : EReal := relu (ln w64 weps (h1pre p rep pose opening) p.rg1 p.rb1 j)
def h2pre : Fin 32 → EReal := lin p.rw2 (h1 p rep pose opening)
def h2 (j : Fin 32) : EReal := relu (ln w32 weps (h2pre p rep pose opening) p.rg2 p.rb2 j)
def residuals : Fin 16 → EReal := dense p.rw3 p.rb3 (h2 p rep pose opening)

def keypre : Fin 64 → EReal := lin p.kw1 rep
def keyh (j : Fin 64) : EReal := relu (ln w64 weps (keypre p rep) p.kg p.kb j)
def key : Fin 32 → EReal := dense p.kw2 p.kb2 (keyh p rep)

def querypre : Fin 16 → EReal := lin p.qw1 pose
def queryh (j : Fin 16) : EReal := relu (ln w16 weps (querypre p pose) p.qg p.qb j)
def query : Fin 32 → EReal := dense p.qw2 p.qb2 (queryh p pose)

def valuepre : Fin 16 → EReal := lin p.vw1 fun _ => opening
def valueh (j : Fin 16) : EReal := relu (ln w16 weps (valuepre p opening) p.vg p.vb j)
def value : Fin 32 → EReal := dense p.vw2 p.vb2 (valueh p opening)

/-- The products query * key, whose softmax weighs the value. -/
def logits (j : Fin 32) : EReal := query p pose j * key p rep j
def att (j : Fin 32) : EReal := softmax (logits p rep pose) j * value p opening j

def a1pre : Fin 32 → EReal := lin p.aw1 (att p rep pose opening)
def a1 (j : Fin 32) : EReal := relu (ln w32 weps (a1pre p rep pose opening) p.ag p.ab j)
def attout : Fin 16 → EReal := dense p.aw2 p.ab2 (a1 p rep pose opening)

/-- The last block's input: the attention head's output and the residuals side by side. -/
def features (k : Fin 32) : EReal :=
  if h : k.val < 16 then attout p rep pose opening ⟨k.val, h⟩
  else residuals p rep pose opening ⟨k.val - 16, by omega⟩

def scorepre : Fin 16 → EReal := lin p.gw1 (features p rep pose opening)
def scoreh (j : Fin 16) : EReal := relu (ln w16 weps (scorepre p rep pose opening) p.gg p.gb j)
def score : Fin 1 → EReal := dense p.gw2 p.gb2 (scoreh p rep pose opening)

end Row

/-! ## The whole array -/

/-- The weight arrays read as plain functions. -/
def params
    (x3 : FVec Ideal ⟨2, ![128, 64]⟩ .f32) (x4 x5 : FVec Ideal ⟨1, ![64]⟩ .f32) (x6 : FVec Ideal ⟨2, ![64, 32]⟩ .f32)
    (x7 : FVec Ideal ⟨1, ![32]⟩ .f32) (x8 : FVec Ideal ⟨2, ![6, 16]⟩ .f32) (x9 x10 : FVec Ideal ⟨1, ![16]⟩ .f32)
    (x11 : FVec Ideal ⟨2, ![16, 32]⟩ .f32) (x12 : FVec Ideal ⟨1, ![32]⟩ .f32) (x13 : FVec Ideal ⟨2, ![1, 16]⟩ .f32)
    (x14 x15 : FVec Ideal ⟨1, ![16]⟩ .f32) (x16 : FVec Ideal ⟨2, ![16, 32]⟩ .f32) (x17 : FVec Ideal ⟨1, ![32]⟩ .f32)
    (x18 : FVec Ideal ⟨2, ![32, 32]⟩ .f32) (x19 x20 : FVec Ideal ⟨1, ![32]⟩ .f32) (x21 : FVec Ideal ⟨2, ![32, 16]⟩ .f32)
    (x22 : FVec Ideal ⟨1, ![16]⟩ .f32) (x23 : FVec Ideal ⟨2, ![135, 64]⟩ .f32) (x24 x25 : FVec Ideal ⟨1, ![64]⟩ .f32)
    (x26 : FVec Ideal ⟨2, ![64, 32]⟩ .f32) (x27 x28 : FVec Ideal ⟨1, ![32]⟩ .f32) (x29 : FVec Ideal ⟨2, ![32, 16]⟩ .f32)
    (x30 : FVec Ideal ⟨1, ![16]⟩ .f32) (x31 : FVec Ideal ⟨2, ![32, 16]⟩ .f32) (x32 x33 : FVec Ideal ⟨1, ![16]⟩ .f32)
    (x34 : FVec Ideal ⟨2, ![16, 1]⟩ .f32) (x35 : FVec Ideal ⟨1, ![1]⟩ .f32) : Params where
  kw1 k j := x3 (ix2 k j)
  kg j := x4 (ix1 j)
  kb j := x5 (ix1 j)
  kw2 k j := x6 (ix2 k j)
  kb2 j := x7 (ix1 j)
  qw1 k j := x8 (ix2 k j)
  qg j := x9 (ix1 j)
  qb j := x10 (ix1 j)
  qw2 k j := x11 (ix2 k j)
  qb2 j := x12 (ix1 j)
  vw1 k j := x13 (ix2 k j)
  vg j := x14 (ix1 j)
  vb j := x15 (ix1 j)
  vw2 k j := x16 (ix2 k j)
  vb2 j := x17 (ix1 j)
  aw1 k j := x18 (ix2 k j)
  ag j := x19 (ix1 j)
  ab j := x20 (ix1 j)
  aw2 k j := x21 (ix2 k j)
  ab2 j := x22 (ix1 j)
  rw1 k j := x23 (ix2 k j)
  rg1 j := x24 (ix1 j)
  rb1 j := x25 (ix1 j)
  rw2 k j := x26 (ix2 k j)
  rg2 j := x27 (ix1 j)
  rb2 j := x28 (ix1 j)
  rw3 k j := x29 (ix2 k j)
  rb3 j := x30 (ix1 j)
  gw1 k j := x31 (ix2 k j)
  gg j := x32 (ix1 j)
  gb j := x33 (ix1 j)
  gw2 k j := x34 (ix2 k j)
  gb2 j := x35 (ix1 j)

/-- Row `n` of the representation, of the pose, and its opening. -/
def repRow (x0 : FVec Ideal ⟨2, ![524288, 128]⟩ .f32) (n : Fin 524288) (k : Fin 128) : EReal := x0 (ix2 n k)
def poseRow (x1 : FVec Ideal ⟨2, ![524288, 6]⟩ .f32) (n : Fin 524288) (k : Fin 6) : EReal := x1 (ix2 n k)
def openingRow (x2 : FVec Ideal ⟨2, ![524288, 1]⟩ .f32) (n : Fin 524288) : EReal := x2 (ix2 n (0 : Fin 1))

/-- The score of row `n`. -/
def Grow (x0 : FVec Ideal ⟨2, ![524288, 128]⟩ .f32) (x1 : FVec Ideal ⟨2, ![524288, 6]⟩ .f32)
    (x2 : FVec Ideal ⟨2, ![524288, 1]⟩ .f32)
    (x3 : FVec Ideal ⟨2, ![128, 64]⟩ .f32) (x4 x5 : FVec Ideal ⟨1, ![64]⟩ .f32) (x6 : FVec Ideal ⟨2, ![64, 32]⟩ .f32)
    (x7 : FVec Ideal ⟨1, ![32]⟩ .f32) (x8 : FVec Ideal ⟨2, ![6, 16]⟩ .f32) (x9 x10 : FVec Ideal ⟨1, ![16]⟩ .f32)
    (x11 : FVec Ideal ⟨2, ![16, 32]⟩ .f32) (x12 : FVec Ideal ⟨1, ![32]⟩ .f32) (x13 : FVec Ideal ⟨2, ![1, 16]⟩ .f32)
    (x14 x15 : FVec Ideal ⟨1, ![16]⟩ .f32) (x16 : FVec Ideal ⟨2, ![16, 32]⟩ .f32) (x17 : FVec Ideal ⟨1, ![32]⟩ .f32)
    (x18 : FVec Ideal ⟨2, ![32, 32]⟩ .f32) (x19 x20 : FVec Ideal ⟨1, ![32]⟩ .f32) (x21 : FVec Ideal ⟨2, ![32, 16]⟩ .f32)
    (x22 : FVec Ideal ⟨1, ![16]⟩ .f32) (x23 : FVec Ideal ⟨2, ![135, 64]⟩ .f32) (x24 x25 : FVec Ideal ⟨1, ![64]⟩ .f32)
    (x26 : FVec Ideal ⟨2, ![64, 32]⟩ .f32) (x27 x28 : FVec Ideal ⟨1, ![32]⟩ .f32) (x29 : FVec Ideal ⟨2, ![32, 16]⟩ .f32)
    (x30 : FVec Ideal ⟨1, ![16]⟩ .f32) (x31 : FVec Ideal ⟨2, ![32, 16]⟩ .f32) (x32 x33 : FVec Ideal ⟨1, ![16]⟩ .f32)
    (x34 : FVec Ideal ⟨2, ![16, 1]⟩ .f32) (x35 : FVec Ideal ⟨1, ![1]⟩ .f32) (n : Fin 524288) : EReal :=
  score (params x3 x4 x5 x6 x7 x8 x9 x10 x11 x12 x13 x14 x15 x16 x17 x18 x19 x20 x21 x22 x23 x24 x25 x26 x27 x28 x29 x30
    x31 x32 x33 x34 x35) (repRow x0 n) (poseRow x1 n) (openingRow x2 n) (0 : Fin 1)

/-- The result array: entry (n, 0) is the score of row `n`. -/
def G (x0 : FVec Ideal ⟨2, ![524288, 128]⟩ .f32) (x1 : FVec Ideal ⟨2, ![524288, 6]⟩ .f32)
    (x2 : FVec Ideal ⟨2, ![524288, 1]⟩ .f32)
    (x3 : FVec Ideal ⟨2, ![128, 64]⟩ .f32) (x4 x5 : FVec Ideal ⟨1, ![64]⟩ .f32) (x6 : FVec Ideal ⟨2, ![64, 32]⟩ .f32)
    (x7 : FVec Ideal ⟨1, ![32]⟩ .f32) (x8 : FVec Ideal ⟨2, ![6, 16]⟩ .f32) (x9 x10 : FVec Ideal ⟨1, ![16]⟩ .f32)
    (x11 : FVec Ideal ⟨2, ![16, 32]⟩ .f32) (x12 : FVec Ideal ⟨1, ![32]⟩ .f32) (x13 : FVec Ideal ⟨2, ![1, 16]⟩ .f32)
    (x14 x15 : FVec Ideal ⟨1, ![16]⟩ .f32) (x16 : FVec Ideal ⟨2, ![16, 32]⟩ .f32) (x17 : FVec Ideal ⟨1, ![32]⟩ .f32)
    (x18 : FVec Ideal ⟨2, ![32, 32]⟩ .f32) (x19 x20 : FVec Ideal ⟨1, ![32]⟩ .f32) (x21 : FVec Ideal ⟨2, ![32, 16]⟩ .f32)
    (x22 : FVec Ideal ⟨1, ![16]⟩ .f32) (x23 : FVec Ideal ⟨2, ![135, 64]⟩ .f32) (x24 x25 : FVec Ideal ⟨1, ![64]⟩ .f32)
    (x26 : FVec Ideal ⟨2, ![64, 32]⟩ .f32) (x27 x28 : FVec Ideal ⟨1, ![32]⟩ .f32) (x29 : FVec Ideal ⟨2, ![32, 16]⟩ .f32)
    (x30 : FVec Ideal ⟨1, ![16]⟩ .f32) (x31 : FVec Ideal ⟨2, ![32, 16]⟩ .f32) (x32 x33 : FVec Ideal ⟨1, ![16]⟩ .f32)
    (x34 : FVec Ideal ⟨2, ![16, 1]⟩ .f32) (x35 : FVec Ideal ⟨1, ![1]⟩ .f32) : FVec Ideal ⟨2, ![524288, 1]⟩ .f32 :=
  fun i => Grow x0 x1 x2 x3 x4 x5 x6 x7 x8 x9 x10 x11 x12 x13 x14 x15 x16 x17 x18 x19 x20 x21 x22 x23 x24 x25 x26 x27 x28
    x29 x30 x31 x32 x33 x34 x35 (i 0)

end Cert.Spec

end
-- ==== Proof.KiFinalA.lean ====
/-
  The kernel's result array as one function of the arguments.

  Grid point `t` stores the scores of rows 4096 t .. 4096 t + 4095 as a 32 x 128 block, row r of the point at
  (r / 128, r % 128); the launch writes that block back as rows 32 t .. 32 t + 31 of a 4096 x 128 array. So entry
  (a, b) of that array is the score of row 128 a + b, whichever point wrote it: 128 (32 t + a') + b = 4096 t + 128 a' + b.
  The 128 blocks tile the array (row a lies in block a / 32), and the closing reshape reads the 4096 x 128 array
  row-major as a column of 524288: entry (n, 0) is entry (n / 128, n % 128), the score of row n.
-/
import proofs.«104010_j23570780520494_2_alg».proof.Proof.KiRun
import proofs.«104010_j23570780520494_2_alg».proof.Proof.Spec
import Idealize.ShloMosaic.Lib.Pipeline.Value
import Idealize.ShloMosaic.Lib.ValueIdx

set_option maxRecDepth 16384

noncomputable section

namespace Cert.KernelIdeal.KFinal

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The score of row `n` from core `c`'s arguments as launched. -/
def rowScore (c : Dev nD) (n : Fin 524288) : EReal :=
  Cert.Spec.Grow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) n

/-- The kernel's 4096 x 128 result: entry (a, b) is the score of row 128 a + b. -/
def G36 (c : Dev nD) : S4096x128.Idx → EReal := fun i =>
  rowScore m c ⟨128 * (i 0).val + (i 1).val, by
    have h0 : (i 0).val < 4096 := (i 0).isLt
    have h1 : (i 1).val < 128 := (i 1).isLt
    omega⟩

/-- Row r of grid point t is one of the 524288 rows. -/
theorem row_lt (t : Fin cfg0.N) (r : Fin 4096) : 4096 * t.val + r.val < 524288 := by
  have hN : cfg0.N = 128 := N_0
  have ht := t.isLt
  omega

theorem hz : (![0, 0] : Fin 2 → Nat) = fun _ => 0 := funext fun a => by fin_cases a <;> rfl

/-- The output window's block index at point `t` is (t, 0). -/
theorem idx_out : ∀ t : Fin cfg0.N, win0_32.index t (0 : Fin 2) = t.val ∧ win0_32.index t (1 : Fin 2) = 0 :=
  (by decide +kernel : ∀ t : Fin grid0.N, win0_32.index t (0 : Fin 2) = t.val ∧ win0_32.index t (1 : Fin 2) = 0)

/-- An index of the array is in point `t`'s block iff each coordinate is in the block's range on its axis. -/
theorem mem_blk (t : Fin cfg0.N) (i : S4096x128.Idx) :
    i ∈ ((cfg0.win 32).blk t).view.set ↔ ∀ a : Fin 2, win0_32.index t a * S32x128.size a ≤ (i a).val ∧ (i a).val < win0_32.index t a * S32x128.size a + S32x128.size a := by
  show i ∈ ((View.whole main_v36).slice (win0_32.rect t)).set ↔ _
  rw [View.set_slice_whole, Rect.mem_set_unit]
  exact Iff.rfl

/-- Every entry of the array lies in the block of some point: row a in block a / 32. -/
theorem cover (i : S4096x128.Idx) :
    ∃ t : Fin cfg0.N, (cfg0.win 32).flush t = true ∧ i ∈ ((cfg0.win 32).blk t).view.set := by
  have hi0 : (i 0).val < 4096 := (i 0).isLt
  have hi1 : (i 1).val < 128 := (i 1).isLt
  have hN : cfg0.N = 128 := N_0
  let t : Fin cfg0.N := ⟨(i 0).val / 32, by omega⟩
  obtain ⟨e0, e1⟩ := idx_out t
  have et : t.val = (i 0).val / 32 := rfl
  refine ⟨t, flush0_32 t, ?_⟩
  rw [mem_blk]
  intro a
  match a with
  | ⟨0, _⟩ => show win0_32.index t (0 : Fin 2) * 32 ≤ (i 0).val ∧ (i 0).val < win0_32.index t (0 : Fin 2) * 32 + 32; omega
  | ⟨1, _⟩ => show win0_32.index t (1 : Fin 2) * 128 ≤ (i 1).val ∧ (i 1).val < win0_32.index t (1 : Fin 2) * 128 + 128; omega

end Cert.KernelIdeal.KFinal

end
-- ==== Proof.KSpec.lean ====
/-
  One row of the kernel's network, as a function on the extended reals.

  The kernel computes the same network as the specification, but from FUSED weights and in its own order. From a
  row's representation (128 numbers) and its pose-and-opening row (8 numbers: six pose entries, the opening, a zero)
  it takes two wide products,

    r1 = rep · Wrep        (128 wide: [0,64) the residual branch's first layer from rep, [64,128) the key's first layer)
    r2 = po  · Wcomb       (160 wide: [0,64) residual from pose, [64,80) the query's first layer,
                                      [80,144) residual from opening, [144,160) the value's first layer)

  adds the three residual parts as (r1 + r2) + r2, normalises, and then twice multiplies two hidden layers side by
  side against one block matrix:

    r3 = [h1 | keyh] · rw2kw2        (64 wide: [0,32) the second residual layer, [32,64) + kb2 the key)
    r4 = [queryh | valueh] · qw2vw2  (64 wide: [0,32) + qb2 the query, [32,64) + vb2 the value)

  The attention head and the last block are as in the specification, except that the last block's first layer is
  the sum of two products, attout · gw1a + residuals · gw1b, instead of one product of the two side by side.
  Every piece (the rectifier, layer normalisation, the linear layers, the softmax) is the specification's own.
-/
import proofs.«104010_j23570780520494_2_alg».proof.Proof.Spec

noncomputable section

namespace Cert.KSpec

open Idealize.ShloMosaic Idealize.ShloMosaic.ValueIdx
open Cert.Spec

/-! ## The kernel's weights -/

/-- The kernel's thirty weight arrays (fused where the kernel fuses them), as plain functions of their coordinates. -/
structure KParams where
  wrep : Fin 128 → Fin 128 → EReal
  wcomb : Fin 8 → Fin 160 → EReal
  rg1 : Fin 64 → EReal
  rb1 : Fin 64 → EReal
  rg2 : Fin 32 → EReal
  rb2 : Fin 32 → EReal
  kg : Fin 64 → EReal
  kb : Fin 64 → EReal
  qg : Fin 16 → EReal
  qb : Fin 16 → EReal
  vg : Fin 16 → EReal
  vb : Fin 16 → EReal
  ag : Fin 32 → EReal
  ab : Fin 32 → EReal
  gg : Fin 16 → EReal
  gb : Fin 16 → EReal
  rw2kw2 : Fin 128 → Fin 64 → EReal
  qw2vw2 : Fin 32 → Fin 64 → EReal
  rw3 : Fin 32 → Fin 16 → EReal
  rb3 : Fin 16 → EReal
  kb2 : Fin 32 → EReal
  qb2 : Fin 32 → EReal
  vb2 : Fin 32 → EReal
  aw1 : Fin 32 → Fin 32 → EReal
  aw2 : Fin 32 → Fin 16 → EReal
  ab2 : Fin 16 → EReal
  gw1a : Fin 16 → Fin 16 → EReal
  gw1b : Fin 16 → Fin 16 → EReal
  gw2 : Fin 16 → Fin 1 → EReal
  gb2 : Fin 1 → EReal

/-! ## The stages of one row, in the kernel's order -/

section Row

variable (q : KParams) (rep : Fin 128 → EReal) (po : Fin 8 → EReal)

/-- The representation's product with the fused first-layer weights. -/
def r1 : Fin 128 → EReal := lin q.wrep rep
/-- The pose-and-opening row's product with the fused first-layer weights. -/
def r2 : Fin 160 → EReal := lin q.wcomb po

/-- The residual branch's first layer: its three parts, added left to right. -/
def h1pre (j : Fin 64) : EReal :=
  (r1 q rep ⟨j.val, by omega⟩ + r2 q po ⟨j.val, by omega⟩) + r2 q po ⟨80 + j.val, by omega⟩
def h1 (j : Fin 64) : EReal := relu (ln w64 weps (h1pre q rep po) q.rg1 q.rb1 j)

/-- The key's first layer: the right half of the representation's product. -/
def keypre (j : Fin 64) : EReal := r1 q rep ⟨64 + j.val, by omega⟩
def keyh (j : Fin 64) : EReal := relu (ln w64 weps (keypre q rep) q.kg q.kb j)

/-- The residual branch's hidden layer and the key's, side by side. -/
def cat1 (k : Fin 128) : EReal :=
  if h : k.val < 64 then h1 q rep po ⟨k.val, h⟩ else keyh q rep ⟨k.val - 64, by omega⟩
/-- Their product with the block matrix of the two second layers. -/
def r3 : Fin 64 → EReal := lin q.rw2kw2 (cat1 q rep po)

def h2pre (j : Fin 32) : EReal := r3 q rep po ⟨j.val, by omega⟩
def key (j : Fin 32) : EReal := r3 q rep po ⟨32 + j.val, by omega⟩ + q.kb2 j

/-- The query's and the value's first layers: two column ranges of the pose-and-opening product. -/
def querypre (j : Fin 16) : EReal := r2 q po ⟨64 + j.val, by omega⟩
def queryh (j : Fin 16) : EReal := relu (ln w16 weps (querypre q po) q.qg q.qb j)
def valuepre (j : Fin 16) : EReal := r2 q po ⟨144 + j.val, by omega⟩
def valueh (j : Fin 16) : EReal := relu (ln w16 weps (valuepre q po) q.vg q.vb j)

/-- The query's hidden layer and the value's, side by side. -/
def cat2 (k : Fin 32) : EReal :=
  if h : k.val < 16 then queryh q po ⟨k.val, h⟩ else valueh q po ⟨k.val - 16, by omega⟩
/-- Their product with the block matrix of the two second layers. -/
def r4 : Fin 64 → EReal := lin q.qw2vw2 (cat2 q po)

def query (j : Fin 32) : EReal := r4 q po ⟨j.val, by omega⟩ + q.qb2 j
def value (j : Fin 32) : EReal := r4 q po ⟨32 + j.val, by omega⟩ + q.vb2 j

def h2 (j : Fin 32) : EReal := relu (ln w32 weps (h2pre q rep po) q.rg2 q.rb2 j)
def residuals : Fin 16 → EReal := dense q.rw3 q.rb3 (h2 q rep po)

/-- The products query * key, whose softmax weighs the value. -/
def logits (j : Fin 32) : EReal := query q po j * key q rep po j
def att (j : Fin 32) : EReal := softmax (logits q rep po) j * value q po j

def a1pre : Fin 32 → EReal := lin q.aw1 (att q rep po)
def a1 (j : Fin 32) : EReal := relu (ln w32 weps (a1pre q rep po) q.ag q.ab j)
def attout : Fin 16 → EReal := dense q.aw2 q.ab2 (a1 q rep po)

/-- The last block's first layer: the attention head's product plus the residuals' product. -/
def scorepre (j : Fin 16) : EReal := lin q.gw1a (attout q rep po) j + lin q.gw1b (residuals q rep po) j
def scoreh (j : Fin 16) : EReal := relu (ln w16 weps (scorepre q rep po) q.gg q.gb j)
def kscore : Fin 1 → EReal := dense q.gw2 q.gb2 (scoreh q rep po)

end Row

/-! ## The kernel's buffers read as weights -/

/-- The kernel's weight buffers read as plain functions. -/
def kparams
    (x2 : Vec Ideal ⟨2, ![128, 128]⟩ .bf16) (x3 : Vec Ideal ⟨2, ![8, 160]⟩ .bf16)
    (x4 x5 : Vec Ideal ⟨1, ![64]⟩ .f32) (x6 x7 : Vec Ideal ⟨1, ![32]⟩ .f32) (x8 x9 : Vec Ideal ⟨1, ![64]⟩ .f32)
    (x10 x11 x12 x13 : Vec Ideal ⟨1, ![16]⟩ .f32) (x14 x15 : Vec Ideal ⟨1, ![32]⟩ .f32)
    (x16 x17 : Vec Ideal ⟨1, ![16]⟩ .f32) (x18 : Vec Ideal ⟨2, ![128, 64]⟩ .bf16)
    (x19 : Vec Ideal ⟨2, ![32, 64]⟩ .bf16) (x20 : Vec Ideal ⟨2, ![32, 16]⟩ .bf16) (x21 : Vec Ideal ⟨1, ![16]⟩ .f32)
    (x22 x23 x24 : Vec Ideal ⟨1, ![32]⟩ .f32) (x25 : Vec Ideal ⟨2, ![32, 32]⟩ .bf16)
    (x26 : Vec Ideal ⟨2, ![32, 16]⟩ .bf16) (x27 : Vec Ideal ⟨1, ![16]⟩ .f32)
    (x28 x29 : Vec Ideal ⟨2, ![16, 16]⟩ .bf16) (x30 : Vec Ideal ⟨2, ![16, 1]⟩ .bf16)
    (x31 : Vec Ideal ⟨1, ![1]⟩ .f32) : KParams where
  wrep k j := x2 (ix2 k j)
  wcomb k j := x3 (ix2 k j)
  rg1 j := x4 (ix1 j)
  rb1 j := x5 (ix1 j)
  rg2 j := x6 (ix1 j)
  rb2 j := x7 (ix1 j)
  kg j := x8 (ix1 j)
  kb j := x9 (ix1 j)
  qg j := x10 (ix1 j)
  qb j := x11 (ix1 j)
  vg j := x12 (ix1 j)
  vb j := x13 (ix1 j)
  ag j := x14 (ix1 j)
  ab j := x15 (ix1 j)
  gg j := x16 (ix1 j)
  gb j := x17 (ix1 j)
  rw2kw2 k j := x18 (ix2 k j)
  qw2vw2 k j := x19 (ix2 k j)
  rw3 k j := x20 (ix2 k j)
  rb3 j := x21 (ix1 j)
  kb2 j := x22 (ix1 j)
  qb2 j := x23 (ix1 j)
  vb2 j := x24 (ix1 j)
  aw1 k j := x25 (ix2 k j)
  aw2 k j := x26 (ix2 k j)
  ab2 j := x27 (ix1 j)
  gw1a k j := x28 (ix2 k j)
  gw1b k j := x29 (ix2 k j)
  gw2 k j := x30 (ix2 k j)
  gb2 j := x31 (ix1 j)

end Cert.KSpec

end
-- ==== Proof.Fused.lean ====
/-
  The kernel's weights from the network's, and the kernel's row from a row's inputs.

  The kernel never multiplies by the network's first-layer matrices one at a time. It joins them side by side, and
  stacks them with blocks of zeros, so that one wide product yields several layers' products at once:

    Wrep   (128 x 128) = [ rows 0..127 of rw1 | kw1 ]
    Wcomb  (8 x 160)   : rows 0..5 (the pose)    = [ rows 128..133 of rw1 | qw1 | 0        | 0   ]
                         row 6     (the opening) = [ 0                    | 0   | row 134  | vw1 ]
                         row 7     (padding)     = 0
    rw2kw2 (128 x 64)  = [ rw2 0 ; 0 kw2 ],     qw2vw2 (32 x 64) = [ qw2 0 ; 0 vw2 ]
    gw1a, gw1b         = rows 0..15 and rows 16..31 of gw1

  and a row's pose and opening travel together as eight numbers: the six pose entries, the opening, a zero.
  `fuse` is that construction on the network's weights; `poRow` the eight numbers.
-/
import proofs.«104010_j23570780520494_2_alg».proof.Proof.Spec
import proofs.«104010_j23570780520494_2_alg».proof.Proof.KSpec

noncomputable section

namespace Cert.Fused

open Cert.Spec Cert.KSpec

/-- A row's pose, its opening and a zero, side by side. -/
def poRow (pose : Fin 6 → EReal) (opening : EReal) (k : Fin 8) : EReal :=
  if h : k.val < 6 then pose ⟨k.val, h⟩ else if k.val < 7 then opening else 0

/-- The pose rows of the fused first-layer matrix: the residual layer's rows 128..133, the query's first layer, zeros. -/
def wcombPose (p : Params) (k : Fin 6) (j : Fin 160) : EReal :=
  if h : j.val < 64 then p.rw1 ⟨128 + k.val, by omega⟩ ⟨j.val, h⟩
  else if h' : j.val < 80 then p.qw1 k ⟨j.val - 64, by omega⟩ else 0

/-- Its opening row: zeros, the residual layer's row 134, the value's first layer. -/
def wcombOpen (p : Params) (j : Fin 160) : EReal :=
  if j.val < 80 then 0
  else if h' : j.val < 144 then p.rw1 ⟨134, by omega⟩ ⟨j.val - 80, by omega⟩
  else p.vw1 0 ⟨j.val - 144, by omega⟩

/-- The kernel's weights built from the network's. -/
def fuse (p : Params) : KParams where
  wrep k j := if h : j.val < 64 then p.rw1 ⟨k.val, by omega⟩ ⟨j.val, h⟩ else p.kw1 k ⟨j.val - 64, by omega⟩
  wcomb k j := if hk : k.val < 6 then wcombPose p ⟨k.val, hk⟩ j else if k.val < 7 then wcombOpen p j else 0
  rg1 := p.rg1
  rb1 := p.rb1
  rg2 := p.rg2
  rb2 := p.rb2
  kg := p.kg
  kb := p.kb
  qg := p.qg
  qb := p.qb
  vg := p.vg
  vb := p.vb
  ag := p.ag
  ab := p.ab
  gg := p.gg
  gb := p.gb
  rw2kw2 k j :=
    if hk : k.val < 64 then (if h : j.val < 32 then p.rw2 ⟨k.val, hk⟩ ⟨j.val, h⟩ else 0)
    else (if h : j.val < 32 then 0 else p.kw2 ⟨k.val - 64, by omega⟩ ⟨j.val - 32, by omega⟩)
  qw2vw2 k j :=
    if hk : k.val < 16 then (if h : j.val < 32 then p.qw2 ⟨k.val, hk⟩ ⟨j.val, h⟩ else 0)
    else (if h : j.val < 32 then 0 else p.vw2 ⟨k.val - 16, by omega⟩ ⟨j.val - 32, by omega⟩)
  rw3 := p.rw3
  rb3 := p.rb3
  kb2 := p.kb2
  qb2 := p.qb2
  vb2 := p.vb2
  aw1 := p.aw1
  aw2 := p.aw2
  ab2 := p.ab2
  gw1a k j := p.gw1 ⟨k.val, by omega⟩ j
  gw1b k j := p.gw1 ⟨16 + k.val, by omega⟩ j
  gw2 := p.gw2
  gb2 := p.gb2

end Cert.Fused

end
-- ==== Proof.SpecSplit.lean ====
/-
  Two sums of the network split where their input was joined.

  The residual path's first layer contracts over the 135 numbers [rep | pose | opening]: its sum is the sum over the
  representation's 128 coordinates, plus the sum over the pose's 6, plus the opening's one term. The last block's first
  layer contracts over [attout | residuals]: the sum over the first 16 coordinates plus the sum over the last 16.
  Both are re-bracketings of a finite sum, true on the extended reals without any finiteness.
-/
import proofs.«104010_j23570780520494_2_alg».proof.Proof.Spec

noncomputable section

namespace Cert.Spec

open Idealize.ShloMosaic

/-- The first residual layer, its contraction split at the joins of its input. -/
theorem h1pre_split (p : Params) (rep : Fin 128 → EReal) (pose : Fin 6 → EReal) (opening : EReal) (j : Fin 64) :
    h1pre p rep pose opening j
      = (∑ k : Fin 128, rep k * p.rw1 ⟨k.val, by omega⟩ j) + (∑ k : Fin 6, pose k * p.rw1 ⟨128 + k.val, by omega⟩ j)
        + opening * p.rw1 ⟨134, by omega⟩ j := by
  unfold h1pre lin
  have e := Fin.sum_univ_castSucc (n := 134) fun k : Fin 135 => resIn rep pose opening k * p.rw1 k j
  have e' := Fin.sum_univ_add (a := 128) (b := 6) fun k : Fin (128 + 6) =>
    resIn rep pose opening (Fin.castSucc k) * p.rw1 (Fin.castSucc k) j
  refine e.trans ?_
  rw [show (∑ k : Fin 134, resIn rep pose opening (Fin.castSucc k) * p.rw1 (Fin.castSucc k) j) = _ from e']
  refine congrArg₂ (· + ·) (congrArg₂ (· + ·) (Finset.sum_congr rfl fun k _ => ?_) (Finset.sum_congr rfl fun k _ => ?_)) ?_
  · have h : ((Fin.castSucc (Fin.castAdd 6 k) : Fin 135)).val < 128 := k.isLt
    unfold resIn; rw [dif_pos h]; rfl
  · have h : ¬((Fin.castSucc (Fin.natAdd 128 k) : Fin 135)).val < 128 := by
      show ¬(128 + k.val < 128); omega
    have h' : ((Fin.castSucc (Fin.natAdd 128 k) : Fin 135)).val < 134 := by
      show 128 + k.val < 134; omega
    unfold resIn; rw [dif_neg h, dif_pos h']
    refine congrArg₂ (· * ·) (congrArg pose (Fin.ext ?_)) rfl
    show 128 + k.val - 128 = k.val; omega
  · have h : ¬((Fin.last 134 : Fin 135)).val < 128 := by show ¬((134 : Nat) < 128); omega
    have h' : ¬((Fin.last 134 : Fin 135)).val < 134 := by show ¬((134 : Nat) < 134); omega
    unfold resIn; rw [dif_neg h, dif_neg h']; rfl

/-- The last block's first layer, its contraction split between the attention head's output and the residuals. -/
theorem scorepre_split (p : Params) (rep : Fin 128 → EReal) (pose : Fin 6 → EReal) (opening : EReal) (j : Fin 16) :
    scorepre p rep pose opening j
      = (∑ k : Fin 16, attout p rep pose opening k * p.gw1 ⟨k.val, by omega⟩ j)
        + ∑ k : Fin 16, residuals p rep pose opening k * p.gw1 ⟨16 + k.val, by omega⟩ j := by
  unfold scorepre lin
  have e := Fin.sum_univ_add (a := 16) (b := 16) fun k : Fin (16 + 16) => features p rep pose opening k * p.gw1 k j
  refine e.trans ?_
  refine congrArg₂ (· + ·) (Finset.sum_congr rfl fun k _ => ?_) (Finset.sum_congr rfl fun k _ => ?_)
  · have h : ((Fin.castAdd 16 k : Fin 32)).val < 16 := k.isLt
    unfold features; rw [dif_pos h]; rfl
  · have h : ¬((Fin.natAdd 16 k : Fin 32)).val < 16 := by show ¬(16 + k.val < 16); omega
    unfold features; rw [dif_neg h]
    refine congrArg₂ (· * ·) (congrArg (residuals p rep pose opening) (Fin.ext ?_)) rfl
    show 16 + k.val - 16 = k.val; omega

end Cert.Spec

end
-- ==== Proof.FusedAlg.lean ====
/-
  The kernel's row is the network's row.

  With the fused weights built from the network's (`fuse`) and a row's pose and opening side by side with a zero
  (`poRow`), every stage of the kernel's row equals the specification's stage. The only facts used are that a
  finite sum splits where its index range is cut, that a term with a zero factor vanishes, and that adding zero
  changes nothing: all true on the extended reals with no finiteness assumed.

    r1, left half   = the residual layer's contraction over the representation's 128 coordinates
    r1, right half  = the key's first layer
    r2, four ranges = the residual layer's contraction over the pose; the query's first layer;
                      the opening's one term of the residual layer; the value's first layer
    r3, r4          = a product of two vectors side by side with a block-diagonal matrix is the two products
    score's first layer = the sum of the two half contractions
-/
import proofs.«104010_j23570780520494_2_alg».proof.Proof.Spec
import proofs.«104010_j23570780520494_2_alg».proof.Proof.SpecSplit
import proofs.«104010_j23570780520494_2_alg».proof.Proof.KSpec
import proofs.«104010_j23570780520494_2_alg».proof.Proof.Fused

noncomputable section

namespace Cert.Fused

open Cert.Spec Cert.KSpec

/-! ## Sums cut in two -/

/-- A sum over a + b indices is the sum over the first a plus the sum over the last b. -/
theorem sum_split (a b : ℕ) (f : Fin (a + b) → EReal) :
    ∑ k, f k = (∑ k : Fin a, f ⟨k.val, by omega⟩) + ∑ k : Fin b, f ⟨a + k.val, by omega⟩ := by
  rw [Fin.sum_univ_add]; rfl

/-- Two vectors side by side against a block-diagonal matrix: the left columns see only the first vector and the
    first block, the right columns only the second. -/
theorem lin_blockdiag {a b c d : ℕ} (x : Fin a → EReal) (y : Fin b → EReal) (A : Fin a → Fin c → EReal)
    (B : Fin b → Fin d → EReal) (cat : Fin (a + b) → EReal) (W : Fin (a + b) → Fin (c + d) → EReal)
    (hx : ∀ k : Fin a, cat ⟨k.val, by omega⟩ = x k) (hy : ∀ k : Fin b, cat ⟨a + k.val, by omega⟩ = y k)
    (hA : ∀ (k : Fin a) (j : Fin c), W ⟨k.val, by omega⟩ ⟨j.val, by omega⟩ = A k j)
    (h0 : ∀ (k : Fin a) (j : Fin d), W ⟨k.val, by omega⟩ ⟨c + j.val, by omega⟩ = 0)
    (h0' : ∀ (k : Fin b) (j : Fin c), W ⟨a + k.val, by omega⟩ ⟨j.val, by omega⟩ = 0)
    (hB : ∀ (k : Fin b) (j : Fin d), W ⟨a + k.val, by omega⟩ ⟨c + j.val, by omega⟩ = B k j) :
    (∀ j : Fin c, lin W cat ⟨j.val, by omega⟩ = lin A x j) ∧ (∀ j : Fin d, lin W cat ⟨c + j.val, by omega⟩ = lin B y j) := by
  constructor
  · intro j
    unfold lin
    rw [sum_split a b]
    simp only [hx, hy, hA, h0', mul_zero, Finset.sum_const_zero, add_zero]
  · intro j
    unfold lin
    rw [sum_split a b]
    simp only [hx, hy, hB, h0, mul_zero, Finset.sum_const_zero, zero_add]

section Row

variable (p : Params) (rep : Fin 128 → EReal) (pose : Fin 6 → EReal) (opening : EReal)

/-! ## The first wide product -/

theorem r1_left (j : Fin 64) :
    r1 (fuse p) rep ⟨j.val, by omega⟩ = ∑ k : Fin 128, rep k * p.rw1 ⟨k.val, by omega⟩ j := by
  unfold r1 lin
  refine Finset.sum_congr rfl fun k _ => ?_
  dsimp only [fuse]
  rw [dif_pos (show j.val < 64 from j.isLt)]

theorem r1_right (j : Fin 64) : r1 (fuse p) rep ⟨64 + j.val, by omega⟩ = lin p.kw1 rep j := by
  unfold r1 lin
  refine Finset.sum_congr rfl fun k _ => ?_
  dsimp only [fuse]
  rw [dif_neg (show ¬(64 + j.val < 64) by omega)]
  refine congrArg (fun i => rep k * p.kw1 k i) (Fin.ext ?_)
  show 64 + j.val - 64 = j.val; omega

/-! ## The second wide product -/

/-- A contraction against the pose-and-opening row: the pose's six terms, the opening's one, and a zero term. -/
theorem sum_po (g : Fin 8 → EReal) :
    ∑ k : Fin 8, poRow pose opening k * g k
      = (∑ k : Fin 6, pose k * g ⟨k.val, by omega⟩) + opening * g ⟨6, by omega⟩ := by
  have e := sum_split 6 2 (fun k : Fin (6 + 2) => poRow pose opening k * g k)
  refine e.trans ?_
  rw [Fin.sum_univ_two]
  have h0 : ∀ k : Fin 6, poRow pose opening ⟨k.val, by omega⟩ = pose k := fun k => by
    unfold poRow; rw [dif_pos (show k.val < 6 from k.isLt)]
  have h6 : poRow pose opening ⟨6 + (0 : Fin 2).val, by omega⟩ = opening := by
    unfold poRow
    rw [dif_neg (show ¬(6 + (0 : Fin 2).val < 6) by decide), if_pos (show 6 + (0 : Fin 2).val < 7 by decide)]
  have h7 : poRow pose opening ⟨6 + (1 : Fin 2).val, by omega⟩ = 0 := by
    unfold poRow
    rw [dif_neg (show ¬(6 + (1 : Fin 2).val < 6) by decide), if_neg (show ¬(6 + (1 : Fin 2).val < 7) by decide)]
  simp only [h0, h6, h7, zero_mul, add_zero]
  rfl

theorem wcomb_pose (k : Fin 6) (j : Fin 160) : (fuse p).wcomb ⟨k.val, by omega⟩ j = wcombPose p k j := by
  dsimp only [fuse]
  rw [dif_pos (show k.val < 6 from k.isLt)]

theorem wcomb_open (j : Fin 160) : (fuse p).wcomb ⟨6, by omega⟩ j = wcombOpen p j := by
  dsimp only [fuse]
  rw [dif_neg (show ¬((6 : ℕ) < 6) by omega), if_pos (show (6 : ℕ) < 7 by omega)]

/-- The pose-and-opening product read at a column. -/
theorem r2_apply (j : Fin 160) :
    r2 (fuse p) (poRow pose opening) j = (∑ k : Fin 6, pose k * wcombPose p k j) + opening * wcombOpen p j := by
  unfold r2 lin
  refine (sum_po pose opening fun k => (fuse p).wcomb k j).trans ?_
  simp only [wcomb_pose, wcomb_open]

theorem r2_resPose (j : Fin 64) :
    r2 (fuse p) (poRow pose opening) ⟨j.val, by omega⟩ = ∑ k : Fin 6, pose k * p.rw1 ⟨128 + k.val, by omega⟩ j := by
  rw [r2_apply]
  have hP : ∀ k : Fin 6, wcombPose p k ⟨j.val, by omega⟩ = p.rw1 ⟨128 + k.val, by omega⟩ j := fun k => by
    unfold wcombPose; rw [dif_pos (show j.val < 64 from j.isLt)]
  have hO : wcombOpen p ⟨j.val, by omega⟩ = 0 := by
    unfold wcombOpen; rw [if_pos (show j.val < 80 by omega)]
  simp only [hP, hO, mul_zero, add_zero]

theorem r2_query (j : Fin 16) : r2 (fuse p) (poRow pose opening) ⟨64 + j.val, by omega⟩ = lin p.qw1 pose j := by
  rw [r2_apply]
  have hP : ∀ k : Fin 6, wcombPose p k ⟨64 + j.val, by omega⟩ = p.qw1 k j := fun k => by
    unfold wcombPose
    rw [dif_neg (show ¬(64 + j.val < 64) by omega), dif_pos (show 64 + j.val < 80 by omega)]
    refine congrArg (p.qw1 k) (Fin.ext ?_)
    show 64 + j.val - 64 = j.val; omega
  have hO : wcombOpen p ⟨64 + j.val, by omega⟩ = 0 := by
    unfold wcombOpen; rw [if_pos (show 64 + j.val < 80 by omega)]
  unfold lin
  simp only [hP, hO, mul_zero, add_zero]

theorem r2_resOpen (j : Fin 64) :
    r2 (fuse p) (poRow pose opening) ⟨80 + j.val, by omega⟩ = opening * p.rw1 ⟨134, by omega⟩ j := by
  rw [r2_apply]
  have hP : ∀ k : Fin 6, wcombPose p k ⟨80 + j.val, by omega⟩ = 0 := fun k => by
    unfold wcombPose
    rw [dif_neg (show ¬(80 + j.val < 64) by omega), dif_neg (show ¬(80 + j.val < 80) by omega)]
  have hO : wcombOpen p ⟨80 + j.val, by omega⟩ = p.rw1 ⟨134, by omega⟩ j := by
    unfold wcombOpen
    rw [if_neg (show ¬(80 + j.val < 80) by omega), dif_pos (show 80 + j.val < 144 by omega)]
    refine congrArg (p.rw1 ⟨134, by omega⟩) (Fin.ext ?_)
    show 80 + j.val - 80 = j.val; omega
  simp only [hP, hO, mul_zero, Finset.sum_const_zero, zero_add]

theorem r2_value (j : Fin 16) :
    r2 (fuse p) (poRow pose opening) ⟨144 + j.val, by omega⟩ = lin p.vw1 (fun _ => opening) j := by
  rw [r2_apply]
  have hP : ∀ k : Fin 6, wcombPose p k ⟨144 + j.val, by omega⟩ = 0 := fun k => by
    unfold wcombPose
    rw [dif_neg (show ¬(144 + j.val < 64) by omega), dif_neg (show ¬(144 + j.val < 80) by omega)]
  have hO : wcombOpen p ⟨144 + j.val, by omega⟩ = p.vw1 0 j := by
    unfold wcombOpen
    rw [if_neg (show ¬(144 + j.val < 80) by omega), dif_neg (show ¬(144 + j.val < 144) by omega)]
    refine congrArg (p.vw1 0) (Fin.ext ?_)
    show 144 + j.val - 144 = j.val; omega
  unfold lin
  simp only [hP, hO, mul_zero, Finset.sum_const_zero, zero_add, Fin.sum_univ_one]

/-! ## The first layers -/

theorem h1pre_eq : KSpec.h1pre (fuse p) rep (poRow pose opening) = Spec.h1pre p rep pose opening := by
  funext j
  unfold KSpec.h1pre
  rw [r1_left, r2_resPose, r2_resOpen, Spec.h1pre_split]

theorem h1_eq : KSpec.h1 (fuse p) rep (poRow pose opening) = Spec.h1 p rep pose opening := by
  funext j
  unfold KSpec.h1 Spec.h1
  rw [h1pre_eq]; rfl

theorem keypre_eq : KSpec.keypre (fuse p) rep = Spec.keypre p rep :=
  funext fun j => r1_right p rep j

theorem keyh_eq : KSpec.keyh (fuse p) rep = Spec.keyh p rep := by
  funext j
  unfold KSpec.keyh Spec.keyh
  rw [keypre_eq]; rfl

theorem querypre_eq : KSpec.querypre (fuse p) (poRow pose opening) = Spec.querypre p pose :=
  funext fun j => r2_query p pose opening j

theorem queryh_eq : KSpec.queryh (fuse p) (poRow pose opening) = Spec.queryh p pose := by
  funext j
  unfold KSpec.queryh Spec.queryh
  rw [querypre_eq]; rfl

theorem valuepre_eq : KSpec.valuepre (fuse p) (poRow pose opening) = Spec.valuepre p opening :=
  funext fun j => r2_value p pose opening j

theorem valueh_eq : KSpec.valueh (fuse p) (poRow pose opening) = Spec.valueh p opening := by
  funext j
  unfold KSpec.valueh Spec.valueh
  rw [valuepre_eq]; rfl

/-! ## The two block-diagonal products -/

theorem r3_split :
    (∀ j : Fin 32, r3 (fuse p) rep (poRow pose opening) ⟨j.val, by omega⟩ = lin p.rw2 (Spec.h1 p rep pose opening) j)
    ∧ (∀ j : Fin 32, r3 (fuse p) rep (poRow pose opening) ⟨32 + j.val, by omega⟩ = lin p.kw2 (Spec.keyh p rep) j) := by
  unfold r3
  refine lin_blockdiag (a := 64) (b := 64) (c := 32) (d := 32) (Spec.h1 p rep pose opening) (Spec.keyh p rep) p.rw2 p.kw2
    (cat1 (fuse p) rep (poRow pose opening)) (fuse p).rw2kw2 ?_ ?_ ?_ ?_ ?_ ?_
  · intro k
    unfold cat1; rw [dif_pos (show k.val < 64 from k.isLt), h1_eq]
  · intro k
    unfold cat1; rw [dif_neg (show ¬(64 + k.val < 64) by omega), keyh_eq]
    refine congrArg (Spec.keyh p rep) (Fin.ext ?_)
    show 64 + k.val - 64 = k.val; omega
  · intro k j
    dsimp only [fuse]
    rw [dif_pos (show k.val < 64 from k.isLt), dif_pos (show j.val < 32 from j.isLt)]
  · intro k j
    dsimp only [fuse]
    rw [dif_pos (show k.val < 64 from k.isLt), dif_neg (show ¬(32 + j.val < 32) by omega)]
  · intro k j
    dsimp only [fuse]
    rw [dif_neg (show ¬(64 + k.val < 64) by omega), dif_pos (show j.val < 32 from j.isLt)]
  · intro k j
    dsimp only [fuse]
    rw [dif_neg (show ¬(64 + k.val < 64) by omega), dif_neg (show ¬(32 + j.val < 32) by omega)]
    refine congrArg₂ p.kw2 (Fin.ext ?_) (Fin.ext ?_)
    · show 64 + k.val - 64 = k.val; omega
    · show 32 + j.val - 32 = j.val; omega

theorem r4_split :
    (∀ j : Fin 32, r4 (fuse p) (poRow pose opening) ⟨j.val, by omega⟩ = lin p.qw2 (Spec.queryh p pose) j)
    ∧ (∀ j : Fin 32, r4 (fuse p) (poRow pose opening) ⟨32 + j.val, by omega⟩ = lin p.vw2 (Spec.valueh p opening) j) := by
  unfold r4
  refine lin_blockdiag (a := 16) (b := 16) (c := 32) (d := 32) (Spec.queryh p pose) (Spec.valueh p opening) p.qw2 p.vw2
    (cat2 (fuse p) (poRow pose opening)) (fuse p).qw2vw2 ?_ ?_ ?_ ?_ ?_ ?_
  · intro k
    unfold cat2; rw [dif_pos (show k.val < 16 from k.isLt), queryh_eq]
  · intro k
    unfold cat2; rw [dif_neg (show ¬(16 + k.val < 16) by omega), valueh_eq]
    refine congrArg (Spec.valueh p opening) (Fin.ext ?_)
    show 16 + k.val - 16 = k.val; omega
  · intro k j
    dsimp only [fuse]
    rw [dif_pos (show k.val < 16 from k.isLt), dif_pos (show j.val < 32 from j.isLt)]
  · intro k j
    dsimp only [fuse]
    rw [dif_pos (show k.val < 16 from k.isLt), dif_neg (show ¬(32 + j.val < 32) by omega)]
  · intro k j
    dsimp only [fuse]
    rw [dif_neg (show ¬(16 + k.val < 16) by omega), dif_pos (show j.val < 32 from j.isLt)]
  · intro k j
    dsimp only [fuse]
    rw [dif_neg (show ¬(16 + k.val < 16) by omega), dif_neg (show ¬(32 + j.val < 32) by omega)]
    refine congrArg₂ p.vw2 (Fin.ext ?_) (Fin.ext ?_)
    · show 16 + k.val - 16 = k.val; omega
    · show 32 + j.val - 32 = j.val; omega

/-! ## The rest of the row -/

theorem h2pre_eq : KSpec.h2pre (fuse p) rep (poRow pose opening) = Spec.h2pre p rep pose opening :=
  funext fun j => (r3_split p rep pose opening).1 j

theorem key_eq : KSpec.key (fuse p) rep (poRow pose opening) = Spec.key p rep := by
  funext j
  unfold KSpec.key
  rw [(r3_split p rep pose opening).2 j]; rfl

theorem query_eq : KSpec.query (fuse p) (poRow pose opening) = Spec.query p pose := by
  funext j
  unfold KSpec.query
  rw [(r4_split p pose opening).1 j]; rfl

theorem value_eq : KSpec.value (fuse p) (poRow pose opening) = Spec.value p opening := by
  funext j
  unfold KSpec.value
  rw [(r4_split p pose opening).2 j]; rfl

theorem h2_eq : KSpec.h2 (fuse p) rep (poRow pose opening) = Spec.h2 p rep pose opening := by
  funext j
  unfold KSpec.h2 Spec.h2
  rw [h2pre_eq]; rfl

theorem residuals_eq : KSpec.residuals (fuse p) rep (poRow pose opening) = Spec.residuals p rep pose opening := by
  unfold KSpec.residuals Spec.residuals
  rw [h2_eq]; rfl

theorem att_eq : KSpec.att (fuse p) rep (poRow pose opening) = Spec.att p rep pose opening := by
  funext j
  unfold KSpec.att Spec.att KSpec.logits Spec.logits
  rw [query_eq, key_eq, value_eq]

theorem a1_eq : KSpec.a1 (fuse p) rep (poRow pose opening) = Spec.a1 p rep pose opening := by
  funext j
  unfold KSpec.a1 Spec.a1 KSpec.a1pre Spec.a1pre
  rw [att_eq]; rfl

theorem attout_eq : KSpec.attout (fuse p) rep (poRow pose opening) = Spec.attout p rep pose opening := by
  unfold KSpec.attout Spec.attout
  rw [a1_eq]; rfl

theorem scorepre_eq : KSpec.scorepre (fuse p) rep (poRow pose opening) = Spec.scorepre p rep pose opening := by
  funext j
  unfold KSpec.scorepre
  rw [attout_eq, residuals_eq, Spec.scorepre_split]
  rfl

theorem scoreh_eq : KSpec.scoreh (fuse p) rep (poRow pose opening) = Spec.scoreh p rep pose opening := by
  funext j
  unfold KSpec.scoreh Spec.scoreh
  rw [scorepre_eq]; rfl

/-- The kernel's score of a row, on the fused weights and the padded pose-and-opening row, is the network's. -/
theorem kscore_eq : KSpec.kscore (fuse p) rep (poRow pose opening) = Spec.score p rep pose opening := by
  unfold KSpec.kscore Spec.score
  rw [scoreh_eq]; rfl

end Row

end Cert.Fused

end
-- ==== Proof.KiFinalB.lean ====
/-
  The kernel's run with its result named: every execution ends with the result column at the specification's
  array of the arguments.

  What grid point `t` writes back is block `t` of the 4096 x 128 array of row scores: the stored block at (a, b) is
  the kernel's row function of row 128 a + b of the point's two row-tiled inputs and of the resident weights; those
  are rows 4096 t + 128 a + b of the arguments and the fused weights built from the arguments; and on them the
  kernel's row function is the network's. The blocks tile the array, the closing reshape reads it row-major, and
  the frame's run gives the rest.
-/
import proofs.«104010_j23570780520494_2_alg».proof.Proof.KiFinalA
import proofs.«104010_j23570780520494_2_alg».proof.Proof.Fused
import proofs.«104010_j23570780520494_2_alg».proof.Proof.FusedAlg
import Idealize.ShloMosaic.Lib.StableHlo.Run

set_option maxRecDepth 16384

noncomputable section

namespace Cert.KernelIdeal.KFinal

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

section Assembly

variable
  (hpay : ∀ (x0 : Vec Ideal S4096x128 .f32) (x1 : Vec Ideal S4096x8 .f32) (x2 : Vec Ideal S128x128 .bf16) (x3 : Vec Ideal S8x160 .bf16) (x4 : Vec Ideal S64 .f32) (x5 : Vec Ideal S64 .f32) (x6 : Vec Ideal S32 .f32) (x7 : Vec Ideal S32 .f32) (x8 : Vec Ideal S64 .f32) (x9 : Vec Ideal S64 .f32) (x10 : Vec Ideal S16 .f32) (x11 : Vec Ideal S16 .f32) (x12 : Vec Ideal S16 .f32) (x13 : Vec Ideal S16 .f32) (x14 : Vec Ideal S32 .f32) (x15 : Vec Ideal S32 .f32) (x16 : Vec Ideal S16 .f32) (x17 : Vec Ideal S16 .f32) (x18 : Vec Ideal S128x64 .bf16) (x19 : Vec Ideal S32x64 .bf16) (x20 : Vec Ideal S32x16 .bf16) (x21 : Vec Ideal S16 .f32) (x22 : Vec Ideal S32 .f32) (x23 : Vec Ideal S32 .f32) (x24 : Vec Ideal S32 .f32) (x25 : Vec Ideal S32x32 .bf16) (x26 : Vec Ideal S32x16 .bf16) (x27 : Vec Ideal S16 .f32) (x28 : Vec Ideal S16x16 .bf16) (x29 : Vec Ideal S16x16 .bf16) (x30 : Vec Ideal S16x1 .bf16) (x31 : Vec Ideal S1 .f32) (a : Fin 32) (b : Fin 128),
      payload (F := Ideal) x0 x1 x2 x3 x4 x5 x6 x7 x8 x9 x10 x11 x12 x13 x14 x15 x16 x17 x18 x19 x20 x21 x22 x23 x24 x25 x26 x27 x28 x29 x30 x31 (ix2 a b)
        = Cert.KSpec.kscore (Cert.KSpec.kparams x2 x3 x4 x5 x6 x7 x8 x9 x10 x11 x12 x13 x14 x15 x16 x17 x18 x19 x20 x21 x22 x23 x24 x25 x26 x27 x28 x29 x30 x31) (fun k => x0 (ix2 (⟨128 * a.val + b.val, by omega⟩ : Fin 4096) k))
            (fun k => x1 (ix2 (⟨128 * a.val + b.val, by omega⟩ : Fin 4096) k)) 0)
  (hkp : ∀ (c : Dev nD) (t : Fin cfg0.N), Cert.KSpec.kparams (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) = Cert.Fused.fuse (Cert.Spec.params (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))))
  (hrep : ∀ (c : Dev nD) (t : Fin cfg0.N) (r : Fin 4096) (k : Fin 128), iblk m c 0 t (ix2 r k) = Cert.Spec.repRow (m ((c : Thread nD τ).loc main_arg0)) ⟨4096 * t.val + r.val, row_lt t r⟩ k)
  (hpo : ∀ (c : Dev nD) (t : Fin cfg0.N) (r : Fin 4096) (k : Fin 8), iblk m c 1 t (ix2 r k) = Cert.Fused.poRow (Cert.Spec.poseRow (m ((c : Thread nD τ).loc main_arg1)) ⟨4096 * t.val + r.val, row_lt t r⟩) (Cert.Spec.openingRow (m ((c : Thread nD τ).loc main_arg2)) ⟨4096 * t.val + r.val, row_lt t r⟩) k)

include hpay hkp hrep hpo in
/-- What point `t` writes back is block `t` of the array of row scores. -/
theorem flushed_eq (c : Dev nD) (t : Fin cfg0.N) :
    (dats m 0 c).flushed 32 t = ((cfg0.win 32).blk t).view.read (Elt Ideal) (G36 m c) := by
  show (cfg0.win 32).cut (grid0.coords t) ((dats m 0 c).after 32 t) = _
  rw [after0_32]
  unfold out
  rw [View.canon_unit_zero hz]
  obtain ⟨e0, e1⟩ := idx_out t
  funext y
  obtain ⟨a, b, rfl⟩ : ∃ (a : Fin 32) (b : Fin 128), y = ix2 a b := ⟨y 0, y 1, eq_ix2 y⟩
  have ha : a.val < 32 := a.isLt
  have hb : b.val < 128 := b.isLt
  have hN : cfg0.N = 128 := N_0
  have ht := t.isLt
  show payload (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (ix2 a b) = G36 m c (((cfg0.win 32).blk t).view.emb (ix2 a b))
  rw [hpay, hkp c t]
  have hr : (fun k => iblk m c 0 t (ix2 (⟨128 * a.val + b.val, by omega⟩ : Fin 4096) k))
      = Cert.Spec.repRow (m ((c : Thread nD τ).loc main_arg0)) ⟨4096 * t.val + (128 * a.val + b.val), by omega⟩ :=
    funext fun k => hrep c t ⟨128 * a.val + b.val, by omega⟩ k
  have hp : (fun k => iblk m c 1 t (ix2 (⟨128 * a.val + b.val, by omega⟩ : Fin 4096) k))
      = Cert.Fused.poRow (Cert.Spec.poseRow (m ((c : Thread nD τ).loc main_arg1)) ⟨4096 * t.val + (128 * a.val + b.val), by omega⟩)
          (Cert.Spec.openingRow (m ((c : Thread nD τ).loc main_arg2)) ⟨4096 * t.val + (128 * a.val + b.val), by omega⟩) :=
    funext fun k => hpo c t ⟨128 * a.val + b.val, by omega⟩ k
  rw [hr, hp, Cert.Fused.kscore_eq]
  have hn : ∀ (h : 128 * ((((cfg0.win 32).blk t).view.emb (ix2 a b)) 0).val + ((((cfg0.win 32).blk t).view.emb (ix2 a b)) 1).val < 524288),
      (⟨128 * ((((cfg0.win 32).blk t).view.emb (ix2 a b)) 0).val + ((((cfg0.win 32).blk t).view.emb (ix2 a b)) 1).val, h⟩ : Fin 524288)
      = ⟨4096 * t.val + (128 * a.val + b.val), by omega⟩ := by
    intro h
    apply Fin.ext
    show 128 * (win0_32.index t (0 : Fin 2) * 32 + 1 * a.val) + (win0_32.index t (1 : Fin 2) * 128 + 1 * b.val) = 4096 * t.val + (128 * a.val + b.val)
    omega
  unfold G36 rowScore Cert.Spec.Grow
  rw [hn]

include hpay hkp hrep hpo in
/-- The 4096 x 128 result array after the run: the array of row scores. -/
theorem final (c : Dev nD) : (dats m 0 c).arrAt 32 cfg0.N = G36 m c :=
  (dats m 0 c).arrAt_eq_of_cover 32 (G36 m c) (fun t _ => flushed_eq m hpay hkp hrep hpo c t) cover

include hpay hkp hrep hpo in
/-- The result column after the closing reshape: the specification's array. -/
theorem tail_eq (c : Dev nD) :
    Pipeline.afterTail₀ cfgs (dats m) 0 (V0 m) [hostOps1] c main_v37 = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) := by
  unfold Pipeline.afterTail₀
  show StableHlo.after hostOps1 _ (Proc.devRef .tc main_v37) = _
  after_results
  funext i
  show shapeCast S524288x1 (Pipeline.withArrays spec0 c (V0 m c) (fun w => (dats m 0 c).arrAt w cfg0.N) (Proc.devRef .tc main_v36)) shapeCasts_S4096x128_S524288x1 i = _
  rw [show Pipeline.withArrays spec0 c (V0 m c) (fun w => (dats m 0 c).arrAt w cfg0.N) (Proc.devRef .tc main_v36) = (dats m 0 c).arrAt 32 cfg0.N from
      Pipeline.withArrays_arr spec0 launch0.win.arr_inj c _ _ 32, final m hpay hkp hrep hpo c]
  have hi0 : (i 0).val < 524288 := (i 0).isLt
  have hi1 : (i 1).val < 1 := (i 1).isLt
  rw [shapeCast_apply (G36 m c) shapeCasts_S4096x128_S524288x1 i (ix2 (⟨(i 0).val / 128, by omega⟩ : Fin 4096) (⟨(i 0).val % 128, by omega⟩ : Fin 128)) (by
    rw [Shape.rowMajor_val_two, Shape.rowMajor_val_two]
    show (i 0).val / 128 * 128 + (i 0).val % 128 = (i 0).val * 1 + (i 1).val
    omega)]
  unfold G36 rowScore Cert.Spec.G
  refine congrArg (Cert.Spec.Grow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))) (Fin.ext ?_)
  show 128 * ((i 0).val / 128) + (i 0).val % 128 = (i 0).val
  omega

include hpay hkp hrep hpo in
/-- Every execution of the idealized kernel's program ends with the result column at the specification's array of the
    arguments, and the arguments unchanged. -/
theorem run : θ_run defs (onTc (τ := τ) (main (F := Ideal))) ⟨m, fun _ => 0, ρ⟩ fun r => ∀ c : Dev nD,
      r.2.mem ((c.tc : Thread nD τ).loc main_v37) = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35) :=
  (θ_run defs _ _).mono (fun r h c => ⟨((h c).2 main_v37 (Pipeline.mem_restRefs_of main_v37 (by decide) (by decide))).trans (tail_eq m hpay hkp hrep hpo c),
      kept_arg0 m (dats m) (A_eq m) h c,
      kept_arg1 m (dats m) h c,
      kept_arg2 m (dats m) h c,
      kept_arg3 m (dats m) h c,
      kept_arg4 m (dats m) (A_eq m) h c,
      kept_arg5 m (dats m) (A_eq m) h c,
      kept_arg6 m (dats m) h c,
      kept_arg7 m (dats m) (A_eq m) h c,
      kept_arg8 m (dats m) h c,
      kept_arg9 m (dats m) (A_eq m) h c,
      kept_arg10 m (dats m) (A_eq m) h c,
      kept_arg11 m (dats m) h c,
      kept_arg12 m (dats m) (A_eq m) h c,
      kept_arg13 m (dats m) h c,
      kept_arg14 m (dats m) (A_eq m) h c,
      kept_arg15 m (dats m) (A_eq m) h c,
      kept_arg16 m (dats m) h c,
      kept_arg17 m (dats m) (A_eq m) h c,
      kept_arg18 m (dats m) h c,
      kept_arg19 m (dats m) (A_eq m) h c,
      kept_arg20 m (dats m) (A_eq m) h c,
      kept_arg21 m (dats m) h c,
      kept_arg22 m (dats m) (A_eq m) h c,
      kept_arg23 m (dats m) h c,
      kept_arg24 m (dats m) (A_eq m) h c,
      kept_arg25 m (dats m) (A_eq m) h c,
      kept_arg26 m (dats m) h c,
      kept_arg27 m (dats m) (A_eq m) h c,
      kept_arg28 m (dats m) (A_eq m) h c,
      kept_arg29 m (dats m) h c,
      kept_arg30 m (dats m) (A_eq m) h c,
      kept_arg31 m (dats m) h c,
      kept_arg32 m (dats m) (A_eq m) h c,
      kept_arg33 m (dats m) (A_eq m) h c,
      kept_arg34 m (dats m) h c,
      kept_arg35 m (dats m) (A_eq m) h c⟩)
    (run_main m ρ)

end Assembly

end Cert.KernelIdeal.KFinal

end
-- ==== Proof.KPayLib.lean ====
/-
  Vector operations read at one row.

  Every block the kernel computes holds 4096 independent rows. The lemmas here read the few operations that are not
  pointwise — a row sum or row maximum kept as a column, a column or a row stretched over a block, a matrix product
  into a zero accumulator, a column slice, two blocks side by side — at ONE row `r` of a block of any height `R`,
  as the plain sum, fold or entry of that row. Each is stated over variables of the literal shapes, with the side
  conditions of the operations as hypotheses, so that it applies to a printed term whatever proofs that term carries.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KValue

open Idealize.ShloMosaic Idealize.ShloMosaic.ValueIdx

variable {R n : Nat}

/-- A column stretched over a block reads, at (r, j), the column at row r. -/
theorem bcastCol_apply {α : Type} (m : (⟨2, ![R, 1]⟩ : Shape).Idx → α) (h : (⟨2, ![R, 1]⟩ : Shape).Broadcasts ⟨2, ![R, n]⟩)
    (r : Fin R) (j : Fin n) (c : Fin 1) : broadcastTo ⟨2, ![R, n]⟩ m h (ix2 r j) = m (ix2 r c) := by
  refine broadcastTo_apply m h (ix2 r j) (ix2 r c) fun a => ?_
  match a with
  | ⟨0, _⟩ =>
    by_cases h1 : R = 1
    · subst h1; show r.val = if (1 : Nat) = 1 then 0 else r.val; rw [if_pos rfl]; omega
    · show r.val = if R = 1 then 0 else r.val; rw [if_neg h1]
  | ⟨1, _⟩ => show c.val = if (1 : Nat) = 1 then 0 else j.val; rw [if_pos rfl]; omega

/-- A vector laid as one row and stretched over a block reads, at (r, j), the vector at j. -/
theorem bcastRow_apply {α : Type} (g : (⟨1, ![n]⟩ : Shape).Idx → α) (hs : (⟨1, ![n]⟩ : Shape).ShapeCasts ⟨2, ![1, n]⟩)
    (h : (⟨2, ![1, n]⟩ : Shape).Broadcasts ⟨2, ![R, n]⟩) (r : Fin R) (j : Fin n) :
    broadcastTo ⟨2, ![R, n]⟩ (shapeCast ⟨2, ![1, n]⟩ g hs) h (ix2 r j) = g (ix1 j) := by
  refine (broadcastTo_apply _ h (ix2 r j) (ix2 (0 : Fin 1) j) fun a => ?_).trans ?_
  · match a with
    | ⟨0, _⟩ => show (0 : Nat) = if (1 : Nat) = 1 then 0 else r.val; rw [if_pos rfl]
    | ⟨1, _⟩ =>
      by_cases h1 : n = 1
      · subst h1; show j.val = if (1 : Nat) = 1 then 0 else j.val; rw [if_pos rfl]; omega
      · show j.val = if n = 1 then 0 else j.val; rw [if_neg h1]
  · refine shapeCast_apply g hs (ix2 (0 : Fin 1) j) (ix1 j) ?_
    rw [Shape.rowMajor_val_one, Shape.rowMajor_val_two]
    show j.val = 0 * n + j.val
    omega

/-- A row sum kept as a column reads, at row r, the sum of the block's row r. -/
theorem rowSum_apply (v : FVec Ideal ⟨2, ![R, n]⟩ .f32) (acc : BitVec FTy.f32.bits)
    (hred : (⟨2, ![R, n]⟩ : Shape).Reduces [1] ⟨1, ![R]⟩) (hφ : FKind.Formats .f32) (hacc : acc = FKind.add.neutral .f32 hφ)
    (hs : (⟨1, ![R]⟩ : Shape).ShapeCasts ⟨2, ![R, 1]⟩) (r : Fin R) (c : Fin 1) :
    shapeCast ⟨2, ![R, 1]⟩ (multiReduction (F := Ideal) .add [1] ⟨1, ![R]⟩ v acc hred hφ hacc) hs (ix2 r c)
      = ∑ k : Fin n, v (ix2 r k) := by
  refine (shapeCast_apply _ hs (ix2 r c) (ix1 r) ?_).trans ?_
  · rw [Shape.rowMajor_val_one, Shape.rowMajor_val_two]
    show r.val = r.val * 1 + c.val
    omega
  · refine (Ideal.multiReduction_add_single v acc hred hφ hacc (ix1 r)).trans ?_
    refine Finset.sum_congr rfl fun k _ => ?_
    exact congrArg v (funext fun a => Fin.ext (by match a with | ⟨0, _⟩ => rfl | ⟨1, _⟩ => rfl))

/-- A row maximum reads, at row r, the fold of max over the block's row r from the accumulator's value. -/
theorem rowMax_apply (v : FVec Ideal ⟨2, ![R, n]⟩ .f32) (acc : BitVec FTy.f32.bits)
    (hred : (⟨2, ![R, n]⟩ : Shape).Reduces [1] ⟨1, ![R]⟩) (hφ : FKind.Formats .f32) (hacc : acc = FKind.maximumf.neutral .f32 hφ)
    (r : Fin R) :
    multiReduction (F := Ideal) .maximumf [1] ⟨1, ![R]⟩ v acc hred hφ hacc (ix1 r)
      = (Finset.univ : Finset (Fin n)).fold max (Ideal.ofBits .f32 acc) fun k => v (ix2 r k) := by
  refine (Ideal.multiReduction_maximumf_single v acc hred hφ hacc (ix1 r)).trans ?_
  refine congrArg (fun f => (Finset.univ : Finset (Fin n)).fold max (Ideal.ofBits .f32 acc) f) (funext fun k => ?_)
  exact congrArg v (funext fun a => Fin.ext (by match a with | ⟨0, _⟩ => rfl | ⟨1, _⟩ => rfl))

/-- A vector kept as a column (no reduction) reads, at row r, the vector at r. -/
theorem col_apply {α : Type} (x : (⟨1, ![R]⟩ : Shape).Idx → α) (hs : (⟨1, ![R]⟩ : Shape).ShapeCasts ⟨2, ![R, 1]⟩) (r : Fin R) (c : Fin 1) :
    shapeCast ⟨2, ![R, 1]⟩ x hs (ix2 r c) = x (ix1 r) := by
  refine shapeCast_apply _ hs (ix2 r c) (ix1 r) ?_
  rw [Shape.rowMajor_val_one, Shape.rowMajor_val_two]
  show r.val = r.val * 1 + c.val
  omega

/-- A matrix product into the zero accumulator reads, at (r, j), the sum over k of row r of the left operand times
    column j of the right. -/
theorem matmul_row {M K N : Nat} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (j : Fin N) :
    matmul (F := Ideal) d prec lhs rhs (constant (F := Ideal) ⟨2, ![M, N]⟩ .f32 0x00000000#32) (ix2 r j)
      = ∑ k : Fin K, lhs (ix2 r k) * rhs (ix2 k j) := by
  subst hd
  refine (Ideal.matmul_constant_zero_apply (DotDims.plain M K N) prec lhs rhs (ix2 r j)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => rfl
      | ⟨1, _⟩ => exact ((DotDims.plain M K N).lhsIdx_val_of_single (cl := 1) rfl _ _).trans hk)
  have er : (DotDims.plain M K N).rhsIdx (ix2 r j) ((contrEquiv1 (DotDims.plain M K N) K rfl rfl).symm k) = ix2 k j :=
    funext fun a => Fin.ext (by
      match a with
      | ⟨0, _⟩ => exact ((DotDims.plain M K N).rhsIdx_val_of_single (cr := 0) rfl _ _).trans hk
      | ⟨1, _⟩ => rfl)
  rw [el, er]

/-- A column slice reads, at (r, j), the block at (r, o + j). -/
theorem sliceCols_apply {α : Type} {m : Nat} (o : Nat) (v : (⟨2, ![R, n]⟩ : Shape).Idx → α)
    (h : (⟨2, ![R, n]⟩ : Shape).Slices ![0, o] ⟨2, ![R, m]⟩) (r : Fin R) (j : Fin m) (hj : o + j.val < n) :
    extractStridedSlice ⟨2, ![R, m]⟩ ![0, o] v h (ix2 r j) = v (ix2 r ⟨o + j.val, hj⟩) := by
  refine extractStridedSlice_apply _ v h (ix2 r j) (ix2 r ⟨o + j.val, hj⟩) fun a => ?_
  match a with
  | ⟨0, _⟩ => show r.val = 0 + r.val; omega
  | ⟨1, _⟩ => rfl

/-- Two blocks side by side read, at (r, k) with k in the left block, the left block there. -/
theorem catCols_left {α : Type} {n₁ n₂ : Nat} (x₁ : (⟨2, ![R, n₁]⟩ : Shape).Idx → α) (x₂ : (⟨2, ![R, n₂]⟩ : Shape).Idx → α)
    (h : Shape.Concatenates [⟨2, ![R, n₁]⟩, ⟨2, ![R, n₂]⟩] ⟨2, ![R, n]⟩ 1) (r : Fin R) (k : Fin n) (hk : k.val < n₁) :
    concatenate ⟨2, ![R, n]⟩ 1 [⟨⟨2, ![R, n₁]⟩, x₁⟩, ⟨⟨2, ![R, n₂]⟩, x₂⟩] h (ix2 r k) = x₁ (ix2 r ⟨k.val, hk⟩) := by
  refine concatenate_pair_apply_left 1 x₁ x₂ h (ix2 r k) rfl (ix2 r ⟨k.val, hk⟩) fun b => ?_
  match b with
  | ⟨0, _⟩ => rfl
  | ⟨1, _⟩ => rfl

/-- … and with k in the right block, the right block at k less the left block's width. -/
theorem catCols_right {α : Type} {n₁ n₂ : Nat} (x₁ : (⟨2, ![R, n₁]⟩ : Shape).Idx → α) (x₂ : (⟨2, ![R, n₂]⟩ : Shape).Idx → α)
    (h : Shape.Concatenates [⟨2, ![R, n₁]⟩, ⟨2, ![R, n₂]⟩] ⟨2, ![R, n]⟩ 1) (r : Fin R) (k : Fin n) (hk : n₁ ≤ k.val)
    (hk2 : k.val - n₁ < n₂) :
    concatenate ⟨2, ![R, n]⟩ 1 [⟨⟨2, ![R, n₁]⟩, x₁⟩, ⟨⟨2, ![R, n₂]⟩, x₂⟩] h (ix2 r k) = x₂ (ix2 r ⟨k.val - n₁, hk2⟩) := by
  refine concatenate_pair_apply_right 1 x₁ x₂ h (ix2 r k) rfl rfl (ix2 r ⟨k.val - n₁, hk2⟩) (fun b hb => ?_) ?_
  · match b with
    | ⟨0, _⟩ => rfl
    | ⟨1, _⟩ => exact absurd rfl hb
  · show (k.val - n₁) + n₁ = k.val
    omega

end Cert.KernelIdeal.KValue

end
-- ==== Proof.KPayLN.lean ====
/-
  Layer normalisation, the rectifier and the softmax's statistics, read at one row.

  The kernel normalises a block row by row: the mean column (row sum over the width word), the centred block, the
  variance column (row sum of squares over the width word), the block times rsqrt(variance + eps), then gain, bias and
  rectifier. Each lemma here reads one of these steps at row r of a block, from what its operands are at row r, as
  the specification's function of the row.
-/
import proofs.«104010_j23570780520494_2_alg».proof.Proof.KPayLib
import proofs.«104010_j23570780520494_2_alg».proof.Proof.Spec

noncomputable section

namespace Cert.KernelIdeal.KValue

open Idealize.ShloMosaic Idealize.ShloMosaic.ValueIdx
open Cert.Spec

variable {R n : Nat}

/-- The mean column at row r: the row's mean. -/
theorem meanCol_row (v : FVec Ideal ⟨2, ![R, n]⟩ .f32) (acc : BitVec FTy.f32.bits)
    (hred : (⟨2, ![R, n]⟩ : Shape).Reduces [1] ⟨1, ![R]⟩) (hφ : FKind.Formats .f32) (hacc : acc = FKind.add.neutral .f32 hφ)
    (hs : (⟨1, ![R]⟩ : Shape).ShapeCasts ⟨2, ![R, 1]⟩) (dW : BitVec FTy.f32.bits) (r : Fin R) (c : Fin 1)
    (x : Fin n → EReal) (hx : ∀ k, v (ix2 r k) = x k) :
    divf (shapeCast ⟨2, ![R, 1]⟩ (multiReduction (F := Ideal) .add [1] ⟨1, ![R]⟩ v acc hred hφ hacc) hs)
        (broadcast ⟨2, ![R, 1]⟩ (FloatOps.ofBits (F := Ideal) .f32 dW)) (ix2 r c)
      = mean (Ideal.ofBits .f32 dW) x := by
  unfold mean
  rw [sum0_eq_sum]
  refine congrArg (fun s => Ideal.div s (Ideal.ofBits .f32 dW)) ?_
  exact (rowSum_apply v acc hred hφ hacc hs r c).trans (Finset.sum_congr rfl fun k _ => hx k)

/-- The raw row-sum column at row r, as the sum from the zero word. -/
theorem sumCol_row (v : FVec Ideal ⟨2, ![R, n]⟩ .f32) (acc : BitVec FTy.f32.bits)
    (hred : (⟨2, ![R, n]⟩ : Shape).Reduces [1] ⟨1, ![R]⟩) (hφ : FKind.Formats .f32) (hacc : acc = FKind.add.neutral .f32 hφ)
    (hs : (⟨1, ![R]⟩ : Shape).ShapeCasts ⟨2, ![R, 1]⟩) (r : Fin R) (c : Fin 1)
    (x : Fin n → EReal) (hx : ∀ k, v (ix2 r k) = x k) :
    shapeCast ⟨2, ![R, 1]⟩ (multiReduction (F := Ideal) .add [1] ⟨1, ![R]⟩ v acc hred hφ hacc) hs (ix2 r c) = sum0 x := by
  rw [sum0_eq_sum]
  exact (rowSum_apply v acc hred hφ hacc hs r c).trans (Finset.sum_congr rfl fun k _ => hx k)

/-- The block less its mean column, at (r, j): the centred row. -/
theorem centred_row (v : FVec Ideal ⟨2, ![R, n]⟩ .f32) (m : FVec Ideal ⟨2, ![R, 1]⟩ .f32)
    (hb : (⟨2, ![R, 1]⟩ : Shape).Broadcasts ⟨2, ![R, n]⟩) (r : Fin R) (j : Fin n) (d : EReal) (x : Fin n → EReal)
    (hx : v (ix2 r j) = x j) (hm : m (ix2 r 0) = mean d x) :
    subf v (broadcastTo ⟨2, ![R, n]⟩ m hb) (ix2 r j) = centred d x j := by
  show v (ix2 r j) - broadcastTo ⟨2, ![R, n]⟩ m hb (ix2 r j) = x j - mean d x
  rw [bcastCol_apply m hb r j 0, hx, hm]

/-- The variance column at row r, from the centred block's row. -/
theorem varCol_row (c : FVec Ideal ⟨2, ![R, n]⟩ .f32) (acc : BitVec FTy.f32.bits)
    (hred : (⟨2, ![R, n]⟩ : Shape).Reduces [1] ⟨1, ![R]⟩) (hφ : FKind.Formats .f32) (hacc : acc = FKind.add.neutral .f32 hφ)
    (hs : (⟨1, ![R]⟩ : Shape).ShapeCasts ⟨2, ![R, 1]⟩) (dW : BitVec FTy.f32.bits) (r : Fin R) (c0 : Fin 1)
    (x : Fin n → EReal) (hc : ∀ k, c (ix2 r k) = centred (Ideal.ofBits .f32 dW) x k) :
    divf (shapeCast ⟨2, ![R, 1]⟩ (multiReduction (F := Ideal) .add [1] ⟨1, ![R]⟩ (mulf c c) acc hred hφ hacc) hs)
        (broadcast ⟨2, ![R, 1]⟩ (FloatOps.ofBits (F := Ideal) .f32 dW)) (ix2 r c0)
      = var (Ideal.ofBits .f32 dW) x :=
  meanCol_row (mulf c c) acc hred hφ hacc hs dW r c0 (fun k => centred (Ideal.ofBits .f32 dW) x k * centred (Ideal.ofBits .f32 dW) x k)
    fun k => by rw [mulf_apply, hc k]

/-- The centred block times the stretched rsqrt(variance + eps) column, at (r, j). -/
theorem norm_row (c : FVec Ideal ⟨2, ![R, n]⟩ .f32) (vr : FVec Ideal ⟨2, ![R, 1]⟩ .f32)
    (hb : (⟨2, ![R, 1]⟩ : Shape).Broadcasts ⟨2, ![R, n]⟩) (eW : BitVec FTy.f32.bits) (r : Fin R) (j : Fin n) (cj vv : EReal)
    (hc : c (ix2 r j) = cj) (hv : vr (ix2 r 0) = vv) :
    mulf c (broadcastTo ⟨2, ![R, n]⟩ (rsqrt (addf vr (broadcast ⟨2, ![R, 1]⟩ (FloatOps.ofBits (F := Ideal) .f32 eW)))) hb) (ix2 r j)
      = cj * Ideal.rsqrt (vv + Ideal.ofBits .f32 eW) := by
  rw [mulf_apply, bcastCol_apply _ hb r j 0, hc]
  show cj * Ideal.rsqrt (vr (ix2 r 0) + Ideal.ofBits .f32 eW) = _
  rw [hv]

/-- A block times a stretched gain row, at (r, j). -/
theorem gain_row (y : FVec Ideal ⟨2, ![R, n]⟩ .f32) (g : FVec Ideal ⟨1, ![n]⟩ .f32)
    (hs : (⟨1, ![n]⟩ : Shape).ShapeCasts ⟨2, ![1, n]⟩) (hb : (⟨2, ![1, n]⟩ : Shape).Broadcasts ⟨2, ![R, n]⟩)
    (r : Fin R) (j : Fin n) (t : EReal) (hy : y (ix2 r j) = t) :
    mulf y (broadcastTo ⟨2, ![R, n]⟩ (shapeCast ⟨2, ![1, n]⟩ g hs) hb) (ix2 r j) = t * g (ix1 j) := by
  rw [mulf_apply, bcastRow_apply g hs hb r j, hy]

/-- A block plus a stretched bias row, at (r, j). -/
theorem bias_row (y : FVec Ideal ⟨2, ![R, n]⟩ .f32) (b : FVec Ideal ⟨1, ![n]⟩ .f32)
    (hs : (⟨1, ![n]⟩ : Shape).ShapeCasts ⟨2, ![1, n]⟩) (hb : (⟨2, ![1, n]⟩ : Shape).Broadcasts ⟨2, ![R, n]⟩)
    (r : Fin R) (j : Fin n) (t : EReal) (hy : y (ix2 r j) = t) :
    addf y (broadcastTo ⟨2, ![R, n]⟩ (shapeCast ⟨2, ![1, n]⟩ b hs) hb) (ix2 r j) = t + b (ix1 j) := by
  rw [addf_apply, bcastRow_apply b hs hb r j, hy]

/-- A block plus an already laid-out bias row (one row, stretched), at (r, j). -/
theorem bias1_row (y : FVec Ideal ⟨2, ![R, n]⟩ .f32) (b1 : FVec Ideal ⟨2, ![1, n]⟩ .f32)
    (hb : (⟨2, ![1, n]⟩ : Shape).Broadcasts ⟨2, ![R, n]⟩)
    (r : Fin R) (j : Fin n) (t u : EReal) (hy : y (ix2 r j) = t) (hu : b1 (ix2 (0 : Fin 1) j) = u) :
    addf y (broadcastTo ⟨2, ![R, n]⟩ b1 hb) (ix2 r j) = t + u := by
  rw [addf_apply, hy]
  refine congrArg (t + ·) ((broadcastTo_apply b1 hb (ix2 r j) (ix2 (0 : Fin 1) j) fun a => ?_).trans hu)
  match a with
  | ⟨0, _⟩ => show (0 : Nat) = if (1 : Nat) = 1 then 0 else r.val; rw [if_pos rfl]
  | ⟨1, _⟩ =>
    by_cases h1 : n = 1
    · subst h1; show j.val = if (1 : Nat) = 1 then 0 else j.val; rw [if_pos rfl]; omega
    · show j.val = if n = 1 then 0 else j.val; rw [if_neg h1]

/-- The rectifier, at (r, j). -/
theorem relu_row {s : Shape} (y : FVec Ideal s .f32) (i : s.Idx) (t : EReal) (hy : y i = t) :
    maximumf y (broadcast s (FloatOps.ofBits (F := Ideal) .f32 0x00000000#32)) i = relu t := by
  show max (y i) (Ideal.ofBits .f32 0x00000000#32) = _
  rw [hy]; rfl

end Cert.KernelIdeal.KValue

end
-- ==== Proof.KPayLib2.lean ====
/-
  More vector operations read at one row: a column slice at offset zero, a matrix product as a linear layer, the
  softmax's row maximum and the softmax itself, whole-buffer loads, and the last re-layout of a column as a block.
-/
import proofs.«104010_j23570780520494_2_alg».proof.Proof.KPayLN

set_option maxRecDepth 16384

noncomputable section

namespace Cert.KernelIdeal.KValue

open Idealize.ShloMosaic Idealize.ShloMosaic.ValueIdx
open Cert.Spec

variable {R n : Nat}

/-- A column slice at offset zero reads, at (r, j), the block at (r, j). -/
theorem sliceCols0_apply {α : Type} {m : Nat} (v : (⟨2, ![R, n]⟩ : Shape).Idx → α)
    (h : (⟨2, ![R, n]⟩ : Shape).Slices ![0, 0] ⟨2, ![R, m]⟩) (r : Fin R) (j : Fin m) (hj : j.val < n) :
    extractStridedSlice ⟨2, ![R, m]⟩ ![0, 0] v h (ix2 r j) = v (ix2 r ⟨j.val, hj⟩) := by
  refine extractStridedSlice_apply _ v h (ix2 r j) (ix2 r ⟨j.val, hj⟩) fun a => ?_
  match a with
  | ⟨0, _⟩ => show r.val = 0 + r.val; omega
  | ⟨1, _⟩ => show j.val = 0 + j.val; omega

/-- A matrix product into the zero accumulator, at (r, j), from what the left operand's row r and the right operand's
    column j are: the linear layer's entry j. -/
theorem mm_row {M K N : Nat} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (j : Fin N)
    (x : Fin K → EReal) (W : Fin K → Fin N → EReal) (hx : ∀ k, lhs (ix2 r k) = x k) (hW : ∀ k, rhs (ix2 k j) = W k j) :
    matmul (F := Ideal) d prec lhs rhs (constant (F := Ideal) ⟨2, ![M, N]⟩ .f32 0x00000000#32) (ix2 r j) = lin W x j :=
  (matmul_row d hd prec lhs rhs r j).trans (Finset.sum_congr rfl fun k _ => by rw [hx k, hW k])

/-- A weight buffer passed through a shape cast to its own shape reads as itself. -/
theorem castSelf_apply {s : Shape} {α : Type} (v : s.Idx → α) (h : s.ShapeCasts s) (i : s.Idx) : shapeCast s v h i = v i :=
  congrFun (shapeCast_self v h) i

/-- The row maximum joined with the minus-infinity word, kept as a column, at row r: the row's maximum. -/
theorem maxCol_row (v : FVec Ideal ⟨2, ![R, n]⟩ .f32)
    (hred : (⟨2, ![R, n]⟩ : Shape).Reduces [1] ⟨1, ![R]⟩) (hφ : FKind.Formats .f32)
    (hacc : (0xFF800000#32 : BitVec FTy.f32.bits) = FKind.maximumf.neutral .f32 hφ)
    (hs : (⟨1, ![R]⟩ : Shape).ShapeCasts ⟨2, ![R, 1]⟩) (r : Fin R) (c : Fin 1)
    (x : Fin n → EReal) (hx : ∀ k, v (ix2 r k) = x k) :
    shapeCast ⟨2, ![R, 1]⟩ (maximumf (broadcast ⟨1, ![R]⟩ (FloatOps.ofBits (F := Ideal) .f32 0xFF800000#32))
        (multiReduction (F := Ideal) .maximumf [1] ⟨1, ![R]⟩ v 0xFF800000#32 hred hφ hacc)) hs (ix2 r c) = rowmax x := by
  refine (col_apply _ hs r c).trans ?_
  show max (Ideal.ofBits .f32 0xFF800000#32) (multiReduction (F := Ideal) .maximumf [1] ⟨1, ![R]⟩ v 0xFF800000#32 hred hφ hacc (ix1 r)) = _
  rw [rowMax_apply v 0xFF800000#32 hred hφ hacc r]
  unfold rowmax
  exact congrArg (fun f => max (Ideal.ofBits .f32 0xFF800000#32) ((Finset.univ : Finset (Fin n)).fold max (Ideal.ofBits .f32 0xFF800000#32) f))
    (funext hx)

/-- The softmax of a block, at (r, j), from what the block's row r is. -/
theorem softmax_row (v : FVec Ideal ⟨2, ![R, n]⟩ .f32)
    (hred : (⟨2, ![R, n]⟩ : Shape).Reduces [1] ⟨1, ![R]⟩) (hφ : FKind.Formats .f32)
    (hmax : (0xFF800000#32 : BitVec FTy.f32.bits) = FKind.maximumf.neutral .f32 hφ)
    (hadd : (0x00000000#32 : BitVec FTy.f32.bits) = FKind.add.neutral .f32 hφ)
    (hs : (⟨1, ![R]⟩ : Shape).ShapeCasts ⟨2, ![R, 1]⟩) (hb : (⟨2, ![R, 1]⟩ : Shape).Broadcasts ⟨2, ![R, n]⟩)
    (r : Fin R) (j : Fin n) (x : Fin n → EReal) (hx : ∀ k, v (ix2 r k) = x k) :
    divf (exp (subf v (broadcastTo ⟨2, ![R, n]⟩ (shapeCast ⟨2, ![R, 1]⟩ (maximumf (broadcast ⟨1, ![R]⟩ (FloatOps.ofBits (F := Ideal) .f32 0xFF800000#32))
        (multiReduction (F := Ideal) .maximumf [1] ⟨1, ![R]⟩ v 0xFF800000#32 hred hφ hmax)) hs) hb)))
      (broadcastTo ⟨2, ![R, n]⟩ (shapeCast ⟨2, ![R, 1]⟩ (multiReduction (F := Ideal) .add [1] ⟨1, ![R]⟩
        (exp (subf v (broadcastTo ⟨2, ![R, n]⟩ (shapeCast ⟨2, ![R, 1]⟩ (maximumf (broadcast ⟨1, ![R]⟩ (FloatOps.ofBits (F := Ideal) .f32 0xFF800000#32))
          (multiReduction (F := Ideal) .maximumf [1] ⟨1, ![R]⟩ v 0xFF800000#32 hred hφ hmax)) hs) hb)))
        0x00000000#32 hred hφ hadd) hs) hb) (ix2 r j) = softmax x j := by
  have he : ∀ k : Fin n, exp (subf v (broadcastTo ⟨2, ![R, n]⟩ (shapeCast ⟨2, ![R, 1]⟩ (maximumf (broadcast ⟨1, ![R]⟩ (FloatOps.ofBits (F := Ideal) .f32 0xFF800000#32))
        (multiReduction (F := Ideal) .maximumf [1] ⟨1, ![R]⟩ v 0xFF800000#32 hred hφ hmax)) hs) hb)) (ix2 r k) = expm x k := fun k => by
    show Ideal.exp (v (ix2 r k) - broadcastTo ⟨2, ![R, n]⟩ _ hb (ix2 r k)) = Ideal.exp (x k - rowmax x)
    rw [bcastCol_apply _ hb r k 0, maxCol_row v hred hφ hmax hs r 0 x hx, hx k]
  show Ideal.div _ (broadcastTo ⟨2, ![R, n]⟩ _ hb (ix2 r j)) = Ideal.div (expm x j) (sum0 (expm x))
  rw [bcastCol_apply _ hb r j 0, sumCol_row _ 0x00000000#32 hred hφ hadd hs r 0 (expm x) he, he j]

/-- A whole-buffer load of a rank-2 buffer is the buffer. -/
theorem ld2_eq {Val : EltTy → Type} {n0 n1 : Nat} {e : EltTy} (x : (⟨2, ![n0, n1]⟩ : Shape).Idx → Val e)
    (inb : ∀ a, (![0, 0] : Fin 2 → Nat) a + (⟨2, ![n0, n1]⟩ : Shape).size a ≤ (⟨2, ![n0, n1]⟩ : Shape).size a) :
    View.ld x (Rect.unit (s := ⟨2, ![n0, n1]⟩) ![0, 0] (⟨2, ![n0, n1]⟩ : Shape).size inb) = x :=
  View.ld_unit_zero (funext fun a => by match a with | ⟨0, _⟩ => rfl | ⟨1, _⟩ => rfl) inb x

/-- A whole-buffer load of a rank-1 buffer is the buffer. -/
theorem ld1_eq {Val : EltTy → Type} {n0 : Nat} {e : EltTy} (x : (⟨1, ![n0]⟩ : Shape).Idx → Val e)
    (inb : ∀ a, (![0] : Fin 1 → Nat) a + (⟨1, ![n0]⟩ : Shape).size a ≤ (⟨1, ![n0]⟩ : Shape).size a) :
    View.ld x (Rect.unit (s := ⟨1, ![n0]⟩) ![0] (⟨1, ![n0]⟩ : Shape).size inb) = x :=
  View.ld_unit_zero (funext fun a => by match a with | ⟨0, _⟩ => rfl) inb x

/-- A column of A * B entries laid out as A rows of B reads, at (a, b), the column at row B * a + b. -/
theorem colToBlock_apply {α : Type} {A B : Nat} (x : (⟨2, ![A * B, 1]⟩ : Shape).Idx → α)
    (h : (⟨2, ![A * B, 1]⟩ : Shape).ShapeCasts ⟨2, ![A, B]⟩) (a : Fin A) (b : Fin B) (hr : B * a.val + b.val < A * B) :
    shapeCast ⟨2, ![A, B]⟩ x h (ix2 a b) = x (ix2 ⟨B * a.val + b.val, hr⟩ (0 : Fin 1)) := by
  refine shapeCast_apply x h (ix2 a b) (ix2 ⟨B * a.val + b.val, hr⟩ (0 : Fin 1)) ?_
  rw [Shape.rowMajor_val_two, Shape.rowMajor_val_two]
  show (B * a.val + b.val) * 1 + 0 = a.val * B + b.val
  rw [Nat.mul_comm B a.val]; omega

end Cert.KernelIdeal.KValue

end
-- ==== Proof.KPayA.lean ====
/-
  The kernel's first stretch read at one row: the two wide first-layer products, their column ranges (the key's, the
  query's and the value's first layers), and the residual branch's first layer — the sum of three column ranges —
  normalised and scaled by its gain.
-/
import proofs.«104010_j23570780520494_2_alg».proof.Proof.Gen.KernelIdeal.Skeleton
import proofs.«104010_j23570780520494_2_alg».proof.Proof.KPayLib2

set_option maxRecDepth 16384

noncomputable section

namespace Cert.KernelIdeal.KValue

open Cert.KernelIdeal Cert.KernelIdeal.Gen
open Idealize.ShloMosaic Idealize.ShloMosaic.ValueIdx
open Cert.Spec

/-! ## The first-layer products and their slices -/

/-- The representation's product with the fused first-layer weights, at (r, j). -/
theorem pay2_row (v0 : Vec Ideal S4096x128 .f32) (v5 : Vec Ideal S128x128 .bf16) (r : Fin 4096) (j : Fin 128) :
    k0_pay2 (F := Ideal) v0 v5 (ix2 r j) = lin (fun k j => v5 (ix2 k j)) (fun k => v0 (ix2 r k)) j := by
  unfold k0_pay2
  exact mm_row dot_S4096x128_S128x128_S4096x128_1_0_0_1_n_n rfl none _ _ r j _ _ (fun k => rfl)
    (fun k => castSelf_apply v5 shapeCasts_S128x128_S128x128 (ix2 k j))

/-- Its right half: the key's first layer. -/
theorem pay3_row (v0 : Vec Ideal S4096x128 .f32) (v5 : Vec Ideal S128x128 .bf16) (r : Fin 4096) (j : Fin 64) :
    k0_pay3 (F := Ideal) v0 v5 (ix2 r j) = lin (fun k j => v5 (ix2 k j)) (fun k => v0 (ix2 r k)) ⟨64 + j.val, by omega⟩ := by
  unfold k0_pay3
  exact (sliceCols_apply 64 _ slices_S4096x128_o0_64_S4096x64 r j (by omega)).trans (pay2_row v0 v5 r _)

/-- The pose-and-opening row's product with the fused first-layer weights, at (r, j). -/
theorem pay4_row (v1 : Vec Ideal S4096x8 .f32) (v10 : Vec Ideal S8x160 .bf16) (r : Fin 4096) (j : Fin 160) :
    k0_pay4 (F := Ideal) v1 v10 (ix2 r j) = lin (fun k j => v10 (ix2 k j)) (fun k => v1 (ix2 r k)) j := by
  unfold k0_pay4
  exact mm_row dot_S4096x8_S8x160_S4096x160_1_0_0_1_n_n rfl none _ _ r j _ _
    (fun k => castSelf_apply v1 shapeCasts_S4096x8_S4096x8 (ix2 r k))
    (fun k => castSelf_apply v10 shapeCasts_S8x160_S8x160 (ix2 k j))

/-- Columns 64..79: the query's first layer. -/
theorem pay5_row (v1 : Vec Ideal S4096x8 .f32) (v10 : Vec Ideal S8x160 .bf16) (r : Fin 4096) (j : Fin 16) :
    k0_pay5 (F := Ideal) v1 v10 (ix2 r j) = lin (fun k j => v10 (ix2 k j)) (fun k => v1 (ix2 r k)) ⟨64 + j.val, by omega⟩ := by
  unfold k0_pay5
  exact (sliceCols_apply 64 _ slices_S4096x160_o0_64_S4096x16 r j (by omega)).trans (pay4_row v1 v10 r _)

/-- Columns 144..159: the value's first layer. -/
theorem pay6_row (v1 : Vec Ideal S4096x8 .f32) (v10 : Vec Ideal S8x160 .bf16) (r : Fin 4096) (j : Fin 16) :
    k0_pay6 (F := Ideal) v1 v10 (ix2 r j) = lin (fun k j => v10 (ix2 k j)) (fun k => v1 (ix2 r k)) ⟨144 + j.val, by omega⟩ := by
  unfold k0_pay6
  exact (sliceCols_apply 144 _ slices_S4096x160_o0_144_S4096x16 r j (by omega)).trans (pay4_row v1 v10 r _)

/-! ## The residual branch's first layer, normalised and scaled -/

/-- Row r of the residual branch's first layer: its three parts, added left to right. -/
def h1row (v0 : Vec Ideal S4096x128 .f32) (v1 : Vec Ideal S4096x8 .f32) (v5 : Vec Ideal S128x128 .bf16)
    (v10 : Vec Ideal S8x160 .bf16) (r : Fin 4096) (j : Fin 64) : EReal :=
  (lin (fun k j => v5 (ix2 k j)) (fun k => v0 (ix2 r k)) ⟨j.val, by omega⟩
    + lin (fun k j => v10 (ix2 k j)) (fun k => v1 (ix2 r k)) ⟨j.val, by omega⟩)
    + lin (fun k j => v10 (ix2 k j)) (fun k => v1 (ix2 r k)) ⟨80 + j.val, by omega⟩

theorem pay7_row (v0 : Vec Ideal S4096x128 .f32) (v1 : Vec Ideal S4096x8 .f32) (v5 : Vec Ideal S128x128 .bf16)
    (v10 : Vec Ideal S8x160 .bf16) (v19 : Vec Ideal S64 .f32) (r : Fin 4096) (j : Fin 64) :
    k0_pay7 (F := Ideal) v0 v1 v5 v10 v19 (ix2 r j)
      = centred w64 (h1row v0 v1 v5 v10 r) j * Ideal.rsqrt (var w64 (h1row v0 v1 v5 v10 r) + weps) * v19 (ix1 j) := by
  unfold k0_pay7
  have hx : ∀ k : Fin 64, addf (addf (extractStridedSlice S4096x64 ![0, 0] (k0_pay2 (F := Ideal) v0 v5) slices_S4096x128_o0_0_S4096x64)
        (extractStridedSlice S4096x64 ![0, 0] (k0_pay4 (F := Ideal) v1 v10) slices_S4096x160_o0_0_S4096x64))
      (extractStridedSlice S4096x64 ![0, 80] (k0_pay4 (F := Ideal) v1 v10) slices_S4096x160_o0_80_S4096x64) (ix2 r k)
      = h1row v0 v1 v5 v10 r k := fun k =>
    congrArg₂ (· + ·)
      (congrArg₂ (· + ·)
        ((sliceCols0_apply _ slices_S4096x128_o0_0_S4096x64 r k (by omega)).trans (pay2_row v0 v5 r _))
        ((sliceCols0_apply _ slices_S4096x160_o0_0_S4096x64 r k (by omega)).trans (pay4_row v1 v10 r _)))
      ((sliceCols_apply 80 _ slices_S4096x160_o0_80_S4096x64 r k (by omega)).trans (pay4_row v1 v10 r _))
  have hm := meanCol_row _ 0x00000000#32 reduces_S4096x64_S4096 (.inl rfl) rfl shapeCasts_S4096_S4096x1 0x42800000#32 r 0 _ hx
  have hc := fun k => centred_row _ _ broadcasts_S4096x1_S4096x64 r k w64 _ (hx k) hm
  have hv := varCol_row _ 0x00000000#32 reduces_S4096x64_S4096 (.inl rfl) rfl shapeCasts_S4096_S4096x1 0x42800000#32 r 0 _ hc
  exact gain_row _ v19 shapeCasts_S64_S1x64 broadcasts_S1x64_S4096x64 r j _
    (norm_row _ _ broadcasts_S4096x1_S4096x64 0x3727C5AC#32 r j _ _ (hc j) hv)

end Cert.KernelIdeal.KValue

end
-- ==== Proof.KPayB.lean ====
/-
  The kernel's second stretch read at one row: the residual branch's and the key's hidden layers side by side, their
  product with the block matrix of the two second layers, and its two halves (the second residual layer; the key).
-/
import proofs.«104010_j23570780520494_2_alg».proof.Proof.Gen.KernelIdeal.Skeleton
import proofs.«104010_j23570780520494_2_alg».proof.Proof.KPayLib2

set_option maxRecDepth 16384

noncomputable section

namespace Cert.KernelIdeal.KValue

open Cert.KernelIdeal Cert.KernelIdeal.Gen
open Idealize.ShloMosaic Idealize.ShloMosaic.ValueIdx
open Cert.Spec

/-! ## The second residual layer and the key: two hidden layers side by side against one block matrix -/

/-- The residual branch's hidden layer (its normalised, scaled block plus bias, rectified) beside the key's hidden
    layer (the normalised key block, rectified), times the block matrix, at (r, j). -/
theorem pay8_row (v9 v41 : FVec Ideal S4096x64 .f32) (v20 v47 v48 : Vec Ideal S64 .f32) (v77 : Vec Ideal S128x64 .bf16)
    (r : Fin 4096) (j : Fin 64) (a kp : Fin 64 → EReal) (h41 : ∀ k, v41 (ix2 r k) = a k) (h9 : ∀ k, v9 (ix2 r k) = kp k) :
    k0_pay8 (F := Ideal) v9 v20 v41 v47 v48 v77 (ix2 r j)
      = lin (fun k j => v77 (ix2 k j))
          (fun k : Fin 128 => if h : k.val < 64 then relu (a ⟨k.val, h⟩ + v20 (ix1 ⟨k.val, h⟩))
            else relu (ln w64 weps kp (fun j => v47 (ix1 j)) (fun j => v48 (ix1 j)) ⟨k.val - 64, by omega⟩)) j := by
  unfold k0_pay8
  have hm := meanCol_row v9 0x00000000#32 reduces_S4096x64_S4096 (.inl rfl) rfl shapeCasts_S4096_S4096x1 0x42800000#32 r 0 kp h9
  have hc := fun k => centred_row v9 _ broadcasts_S4096x1_S4096x64 r k w64 kp (h9 k) hm
  have hv := varCol_row _ 0x00000000#32 reduces_S4096x64_S4096 (.inl rfl) rfl shapeCasts_S4096_S4096x1 0x42800000#32 r 0 kp hc
  exact mm_row dot_S4096x128_S128x64_S4096x64_1_0_0_1_n_n rfl none _ _ r j _ _
    (fun k => by
      by_cases hk : k.val < 64
      · refine ((catCols_left _ _ concatenates_S4096x64_S4096x64_S4096x128_d1 r k hk).trans ?_).trans (dif_pos hk).symm
        exact relu_row _ _ _ (bias_row _ v20 shapeCasts_S64_S1x64 broadcasts_S1x64_S4096x64 r _ _ (h41 _))
      · refine ((catCols_right _ _ concatenates_S4096x64_S4096x64_S4096x128_d1 r k (by omega) (by omega)).trans ?_).trans
          (dif_neg hk).symm
        exact relu_row _ _ _ (bias_row _ v48 shapeCasts_S64_S1x64 broadcasts_S1x64_S4096x64 r _ _
          (gain_row _ v47 shapeCasts_S64_S1x64 broadcasts_S1x64_S4096x64 r _ _
            (norm_row _ _ broadcasts_S4096x1_S4096x64 0x3727C5AC#32 r _ _ _ (hc _) hv))))
    (fun k => castSelf_apply v77 shapeCasts_S128x64_S128x64 (ix2 k j))

/-- Its left half: the residual branch's second layer. -/
theorem pay9_row (v9 v41 : FVec Ideal S4096x64 .f32) (v20 v47 v48 : Vec Ideal S64 .f32) (v77 : Vec Ideal S128x64 .bf16)
    (r : Fin 4096) (j : Fin 32) (a kp : Fin 64 → EReal) (h41 : ∀ k, v41 (ix2 r k) = a k) (h9 : ∀ k, v9 (ix2 r k) = kp k) :
    k0_pay9 (F := Ideal) v9 v20 v41 v47 v48 v77 (ix2 r j)
      = lin (fun k j => v77 (ix2 k j))
          (fun k : Fin 128 => if h : k.val < 64 then relu (a ⟨k.val, h⟩ + v20 (ix1 ⟨k.val, h⟩))
            else relu (ln w64 weps kp (fun j => v47 (ix1 j)) (fun j => v48 (ix1 j)) ⟨k.val - 64, by omega⟩)) ⟨j.val, by omega⟩ := by
  unfold k0_pay9
  exact (sliceCols0_apply _ slices_S4096x64_o0_0_S4096x32 r j (by omega)).trans (pay8_row v9 v41 v20 v47 v48 v77 r _ a kp h41 h9)

/-- Its right half plus the key's bias: the key. -/
theorem pay10_row (v9 v41 : FVec Ideal S4096x64 .f32) (v20 v47 v48 : Vec Ideal S64 .f32) (v77 : Vec Ideal S128x64 .bf16)
    (v82 : Vec Ideal S32 .f32)
    (r : Fin 4096) (j : Fin 32) (a kp : Fin 64 → EReal) (h41 : ∀ k, v41 (ix2 r k) = a k) (h9 : ∀ k, v9 (ix2 r k) = kp k) :
    k0_pay10 (F := Ideal) v9 v20 v41 v47 v48 v77 v82 (ix2 r j)
      = lin (fun k j => v77 (ix2 k j))
          (fun k : Fin 128 => if h : k.val < 64 then relu (a ⟨k.val, h⟩ + v20 (ix1 ⟨k.val, h⟩))
            else relu (ln w64 weps kp (fun j => v47 (ix1 j)) (fun j => v48 (ix1 j)) ⟨k.val - 64, by omega⟩)) ⟨32 + j.val, by omega⟩
        + v82 (ix1 j) := by
  unfold k0_pay10
  exact bias_row _ v82 shapeCasts_S32_S1x32 broadcasts_S1x32_S4096x32 r j _
    ((sliceCols_apply 32 _ slices_S4096x64_o0_32_S4096x32 r j (by omega)).trans (pay8_row v9 v41 v20 v47 v48 v77 r _ a kp h41 h9))

end Cert.KernelIdeal.KValue

end
-- ==== Proof.KPayC.lean ====
/-
  The kernel's third and fourth stretches read at one row: the query's and the value's hidden layers, their product
  with the block matrix of the two second layers, and its two halves (the query; the value).
-/
import proofs.«104010_j23570780520494_2_alg».proof.Proof.Gen.KernelIdeal.Skeleton
import proofs.«104010_j23570780520494_2_alg».proof.Proof.KPayLib2

set_option maxRecDepth 16384

noncomputable section

namespace Cert.KernelIdeal.KValue

open Cert.KernelIdeal Cert.KernelIdeal.Gen
open Idealize.ShloMosaic Idealize.ShloMosaic.ValueIdx
open Cert.Spec

/-! ## The query's and the value's hidden layers, and the query and the value -/

/-- The query's hidden layer: the normalised first layer with gain, bias and rectifier. -/
theorem pay11_row (v14 : FVec Ideal S4096x16 .f32) (v86 v87 : Vec Ideal S16 .f32) (r : Fin 4096) (j : Fin 16)
    (x : Fin 16 → EReal) (hx : ∀ k, v14 (ix2 r k) = x k) :
    k0_pay11 (F := Ideal) v14 v86 v87 (ix2 r j) = relu (ln w16 weps x (fun j => v86 (ix1 j)) (fun j => v87 (ix1 j)) j) := by
  unfold k0_pay11
  have hm := meanCol_row v14 0x00000000#32 reduces_S4096x16_S4096 (.inl rfl) rfl shapeCasts_S4096_S4096x1 0x41800000#32 r 0 x hx
  have hc := fun k => centred_row v14 _ broadcasts_S4096x1_S4096x16 r k w16 x (hx k) hm
  have hv := varCol_row _ 0x00000000#32 reduces_S4096x16_S4096 (.inl rfl) rfl shapeCasts_S4096_S4096x1 0x41800000#32 r 0 x hc
  exact relu_row _ _ _ (bias_row _ v87 shapeCasts_S16_S1x16 broadcasts_S1x16_S4096x16 r j _
    (gain_row _ v86 shapeCasts_S16_S1x16 broadcasts_S1x16_S4096x16 r j _
      (norm_row _ _ broadcasts_S4096x1_S4096x16 0x3727C5AC#32 r j _ _ (hc j) hv)))

/-- The value's first layer, normalised (no gain or bias yet). -/
theorem pay12_row (v16 : FVec Ideal S4096x16 .f32) (r : Fin 4096) (j : Fin 16)
    (x : Fin 16 → EReal) (hx : ∀ k, v16 (ix2 r k) = x k) :
    k0_pay12 (F := Ideal) v16 (ix2 r j) = centred w16 x j * Ideal.rsqrt (var w16 x + weps) := by
  unfold k0_pay12
  have hm := meanCol_row v16 0x00000000#32 reduces_S4096x16_S4096 (.inl rfl) rfl shapeCasts_S4096_S4096x1 0x41800000#32 r 0 x hx
  have hc := fun k => centred_row v16 _ broadcasts_S4096x1_S4096x16 r k w16 x (hx k) hm
  have hv := varCol_row _ 0x00000000#32 reduces_S4096x16_S4096 (.inl rfl) rfl shapeCasts_S4096_S4096x1 0x41800000#32 r 0 x hc
  exact norm_row _ _ broadcasts_S4096x1_S4096x16 0x3727C5AC#32 r j _ _ (hc j) hv

/-- The query's hidden layer beside the value's (gain, bias, rectifier applied here), times the block matrix. -/
theorem pay13_row (v113 v133 : FVec Ideal S4096x16 .f32) (v114 v115 : Vec Ideal S16 .f32) (v144 : Vec Ideal S32x64 .bf16)
    (r : Fin 4096) (j : Fin 64) (qh vn : Fin 16 → EReal) (h113 : ∀ k, v113 (ix2 r k) = qh k) (h133 : ∀ k, v133 (ix2 r k) = vn k) :
    k0_pay13 (F := Ideal) v113 v114 v115 v133 v144 (ix2 r j)
      = lin (fun k j => v144 (ix2 k j))
          (fun k : Fin 32 => if h : k.val < 16 then qh ⟨k.val, h⟩
            else relu (vn ⟨k.val - 16, by omega⟩ * v114 (ix1 ⟨k.val - 16, by omega⟩) + v115 (ix1 ⟨k.val - 16, by omega⟩))) j := by
  unfold k0_pay13
  exact mm_row dot_S4096x32_S32x64_S4096x64_1_0_0_1_n_n rfl none _ _ r j _ _
    (fun k => by
      by_cases hk : k.val < 16
      · refine ((catCols_left _ _ concatenates_S4096x16_S4096x16_S4096x32_d1 r k hk).trans ?_).trans (dif_pos hk).symm
        exact h113 _
      · refine ((catCols_right _ _ concatenates_S4096x16_S4096x16_S4096x32_d1 r k (by omega) (by omega)).trans ?_).trans
          (dif_neg hk).symm
        exact relu_row _ _ _ (bias_row _ v115 shapeCasts_S16_S1x16 broadcasts_S1x16_S4096x16 r _ _
          (gain_row _ v114 shapeCasts_S16_S1x16 broadcasts_S1x16_S4096x16 r _ _ (h133 _))))
    (fun k => castSelf_apply v144 shapeCasts_S32x64_S32x64 (ix2 k j))

/-- Its left half plus the query's bias: the query. -/
theorem pay14_row (v113 v133 : FVec Ideal S4096x16 .f32) (v114 v115 : Vec Ideal S16 .f32) (v144 : Vec Ideal S32x64 .bf16)
    (v148 : Vec Ideal S32 .f32)
    (r : Fin 4096) (j : Fin 32) (qh vn : Fin 16 → EReal) (h113 : ∀ k, v113 (ix2 r k) = qh k) (h133 : ∀ k, v133 (ix2 r k) = vn k) :
    k0_pay14 (F := Ideal) v113 v114 v115 v133 v144 v148 (ix2 r j)
      = lin (fun k j => v144 (ix2 k j))
          (fun k : Fin 32 => if h : k.val < 16 then qh ⟨k.val, h⟩
            else relu (vn ⟨k.val - 16, by omega⟩ * v114 (ix1 ⟨k.val - 16, by omega⟩) + v115 (ix1 ⟨k.val - 16, by omega⟩)))
          ⟨j.val, by omega⟩ + v148 (ix1 j) := by
  unfold k0_pay14
  exact bias_row _ v148 shapeCasts_S32_S1x32 broadcasts_S1x32_S4096x32 r j _
    ((sliceCols0_apply _ slices_S4096x64_o0_0_S4096x32 r j (by omega)).trans (pay13_row v113 v133 v114 v115 v144 r _ qh vn h113 h133))

/-- Its right half plus the value's bias: the value. -/
theorem pay15_row (v113 v133 : FVec Ideal S4096x16 .f32) (v114 v115 : Vec Ideal S16 .f32) (v144 : Vec Ideal S32x64 .bf16)
    (v153 : Vec Ideal S32 .f32)
    (r : Fin 4096) (j : Fin 32) (qh vn : Fin 16 → EReal) (h113 : ∀ k, v113 (ix2 r k) = qh k) (h133 : ∀ k, v133 (ix2 r k) = vn k) :
    k0_pay15 (F := Ideal) v113 v114 v115 v133 v144 v153 (ix2 r j)
      = lin (fun k j => v144 (ix2 k j))
          (fun k : Fin 32 => if h : k.val < 16 then qh ⟨k.val, h⟩
            else relu (vn ⟨k.val - 16, by omega⟩ * v114 (ix1 ⟨k.val - 16, by omega⟩) + v115 (ix1 ⟨k.val - 16, by omega⟩)))
          ⟨32 + j.val, by omega⟩ + v153 (ix1 j) := by
  unfold k0_pay15
  exact bias_row _ v153 shapeCasts_S32_S1x32 broadcasts_S1x32_S4096x32 r j _
    ((sliceCols_apply 32 _ slices_S4096x64_o0_32_S4096x32 r j (by omega)).trans (pay13_row v113 v133 v114 v115 v144 r _ qh vn h113 h133))

end Cert.KernelIdeal.KValue

end
-- ==== Proof.KPayD.lean ====
/-
  The second residual layer normalised and scaled, its bias as a row, and the residual branch's output, read at one row.
-/
import proofs.«104010_j23570780520494_2_alg».proof.Proof.Gen.KernelIdeal.Skeleton
import proofs.«104010_j23570780520494_2_alg».proof.Proof.KPayLib2

set_option maxRecDepth 16384

noncomputable section

namespace Cert.KernelIdeal.KValue

open Cert.KernelIdeal Cert.KernelIdeal.Gen
open Idealize.ShloMosaic Idealize.ShloMosaic.ValueIdx
open Cert.Spec

/-! ## The second residual layer normalised, and the residual output -/

/-- The residual branch's second layer, normalised and scaled by its gain. -/
theorem pay16_row (v80 : FVec Ideal S4096x32 .f32) (v157 : Vec Ideal S32 .f32) (r : Fin 4096) (j : Fin 32)
    (x : Fin 32 → EReal) (hx : ∀ k, v80 (ix2 r k) = x k) :
    k0_pay16 (F := Ideal) v80 v157 (ix2 r j) = centred w32 x j * Ideal.rsqrt (var w32 x + weps) * v157 (ix1 j) := by
  unfold k0_pay16
  have hm := meanCol_row v80 0x00000000#32 reduces_S4096x32_S4096 (.inl rfl) rfl shapeCasts_S4096_S4096x1 0x42000000#32 r 0 x hx
  have hc := fun k => centred_row v80 _ broadcasts_S4096x1_S4096x32 r k w32 x (hx k) hm
  have hv := varCol_row _ 0x00000000#32 reduces_S4096x32_S4096 (.inl rfl) rfl shapeCasts_S4096_S4096x1 0x42000000#32 r 0 x hc
  exact gain_row _ v157 shapeCasts_S32_S1x32 broadcasts_S1x32_S4096x32 r j _
    (norm_row _ _ broadcasts_S4096x1_S4096x32 0x3727C5AC#32 r j _ _ (hc j) hv)

/-- Its bias laid as one row. -/
theorem pay17_row (v158 : Vec Ideal S32 .f32) (j : Fin 32) :
    k0_pay17 (F := Ideal) v158 (ix2 (0 : Fin 1) j) = v158 (ix1 j) := by
  unfold k0_pay17
  refine shapeCast_apply v158 shapeCasts_S32_S1x32 (ix2 (0 : Fin 1) j) (ix1 j) ?_
  rw [Shape.rowMajor_val_one, Shape.rowMajor_val_two]
  show j.val = 0 * 32 + j.val
  omega

/-- The residual output: the rectified hidden layer through the last linear layer, with bias. -/
theorem pay18_row (v179 : FVec Ideal S4096x32 .f32) (v180 : FVec Ideal S1x32 .f32) (v186 : Vec Ideal S32x16 .bf16)
    (v189 : Vec Ideal S16 .f32) (r : Fin 4096) (j : Fin 16) (a b : Fin 32 → EReal)
    (h179 : ∀ k, v179 (ix2 r k) = a k) (h180 : ∀ k, v180 (ix2 (0 : Fin 1) k) = b k) :
    k0_pay18 (F := Ideal) v179 v180 v186 v189 (ix2 r j)
      = dense (fun k j => v186 (ix2 k j)) (fun j => v189 (ix1 j)) (fun k => relu (a k + b k)) j := by
  unfold k0_pay18
  exact bias_row _ v189 shapeCasts_S16_S1x16 broadcasts_S1x16_S4096x16 r j _
    (mm_row dot_S4096x32_S32x16_S4096x16_1_0_0_1_n_n rfl none _ _ r j _ _
      (fun k => relu_row _ _ _ (bias1_row _ v180 broadcasts_S1x32_S4096x32 r k _ _ (h179 k) (h180 k)))
      (fun k => castSelf_apply v186 shapeCasts_S32x16_S32x16 (ix2 k j)))

end Cert.KernelIdeal.KValue

end
-- ==== Proof.KPayStages14.lean ====
/-
  What the kernel's first four stretches hand on, read at one row, as the stages of the kernel's one-row network: the
  key's, the query's and the value's first layers; the residual branch's two layers (each normalised and scaled, its
  bias still to be added); the key, the query and the value; and the residual branch's output. Each stage function
  is one payload applied to the loaded buffers and to earlier stages; a whole-buffer load is the buffer, and the
  payload's row lemma, fed the earlier stages' rows, gives the stage's row.
-/
import proofs.«104010_j23570780520494_2_alg».proof.Proof.KiBody
import proofs.«104010_j23570780520494_2_alg».proof.Proof.KSpec
import proofs.«104010_j23570780520494_2_alg».proof.Proof.KPayA
import proofs.«104010_j23570780520494_2_alg».proof.Proof.KPayB
import proofs.«104010_j23570780520494_2_alg».proof.Proof.KPayC
import proofs.«104010_j23570780520494_2_alg».proof.Proof.KPayD

set_option maxRecDepth 16384

noncomputable section

namespace Cert.KernelIdeal.KValue

open Cert.KernelIdeal Cert.KernelIdeal.Gen
open Idealize.ShloMosaic Idealize.ShloMosaic.ValueIdx
open Cert.Spec

open Cert.KernelIdeal.Frame

/-! Throughout, row r of the point's representation block is `fun k => x0 (ix2 r k)`, row r of its pose-and-opening block
    is `fun k => x1 (ix2 r k)`, and the weights are the buffers read as plain functions. -/

theorem s_v9_row (x0 : Vec Ideal S4096x128 .f32) (x1 : Vec Ideal S4096x8 .f32) (x2 : Vec Ideal S128x128 .bf16) (x3 : Vec Ideal S8x160 .bf16)
    (x4 x5 : Vec Ideal S64 .f32) (x6 x7 : Vec Ideal S32 .f32) (x8 x9 : Vec Ideal S64 .f32) (x10 x11 x12 x13 : Vec Ideal S16 .f32)
    (x14 x15 : Vec Ideal S32 .f32) (x16 x17 : Vec Ideal S16 .f32) (x18 : Vec Ideal S128x64 .bf16) (x19 : Vec Ideal S32x64 .bf16)
    (x20 : Vec Ideal S32x16 .bf16) (x21 : Vec Ideal S16 .f32) (x22 x23 x24 : Vec Ideal S32 .f32) (x25 : Vec Ideal S32x32 .bf16)
    (x26 : Vec Ideal S32x16 .bf16) (x27 : Vec Ideal S16 .f32) (x28 x29 : Vec Ideal S16x16 .bf16) (x30 : Vec Ideal S16x1 .bf16)
    (x31 : Vec Ideal S1 .f32)
    (r : Fin 4096) (j : Fin 64) :
    s_v9 (F := Ideal) x0 x2 (ix2 r j) = KSpec.keypre (KSpec.kparams x2 x3 x4 x5 x6 x7 x8 x9 x10 x11 x12 x13 x14 x15 x16 x17 x18 x19 x20 x21 x22 x23 x24 x25 x26 x27 x28 x29 x30 x31) (fun k => x0 (ix2 r k)) j := by
  unfold s_v9
  rw [ld2_eq x0, ld2_eq x2]
  exact pay3_row x0 x2 r j

theorem s_v14_row (x0 : Vec Ideal S4096x128 .f32) (x1 : Vec Ideal S4096x8 .f32) (x2 : Vec Ideal S128x128 .bf16) (x3 : Vec Ideal S8x160 .bf16)
    (x4 x5 : Vec Ideal S64 .f32) (x6 x7 : Vec Ideal S32 .f32) (x8 x9 : Vec Ideal S64 .f32) (x10 x11 x12 x13 : Vec Ideal S16 .f32)
    (x14 x15 : Vec Ideal S32 .f32) (x16 x17 : Vec Ideal S16 .f32) (x18 : Vec Ideal S128x64 .bf16) (x19 : Vec Ideal S32x64 .bf16)
    (x20 : Vec Ideal S32x16 .bf16) (x21 : Vec Ideal S16 .f32) (x22 x23 x24 : Vec Ideal S32 .f32) (x25 : Vec Ideal S32x32 .bf16)
    (x26 : Vec Ideal S32x16 .bf16) (x27 : Vec Ideal S16 .f32) (x28 x29 : Vec Ideal S16x16 .bf16) (x30 : Vec Ideal S16x1 .bf16)
    (x31 : Vec Ideal S1 .f32)
    (r : Fin 4096) (j : Fin 16) :
    s_v14 (F := Ideal) x1 x3 (ix2 r j) = KSpec.querypre (KSpec.kparams x2 x3 x4 x5 x6 x7 x8 x9 x10 x11 x12 x13 x14 x15 x16 x17 x18 x19 x20 x21 x22 x23 x24 x25 x26 x27 x28 x29 x30 x31) (fun k => x1 (ix2 r k)) j := by
  unfold s_v14
  rw [ld2_eq x1, ld2_eq x3]
  exact pay5_row x1 x3 r j

theorem s_v16_row (x0 : Vec Ideal S4096x128 .f32) (x1 : Vec Ideal S4096x8 .f32) (x2 : Vec Ideal S128x128 .bf16) (x3 : Vec Ideal S8x160 .bf16)
    (x4 x5 : Vec Ideal S64 .f32) (x6 x7 : Vec Ideal S32 .f32) (x8 x9 : Vec Ideal S64 .f32) (x10 x11 x12 x13 : Vec Ideal S16 .f32)
    (x14 x15 : Vec Ideal S32 .f32) (x16 x17 : Vec Ideal S16 .f32) (x18 : Vec Ideal S128x64 .bf16) (x19 : Vec Ideal S32x64 .bf16)
    (x20 : Vec Ideal S32x16 .bf16) (x21 : Vec Ideal S16 .f32) (x22 x23 x24 : Vec Ideal S32 .f32) (x25 : Vec Ideal S32x32 .bf16)
    (x26 : Vec Ideal S32x16 .bf16) (x27 : Vec Ideal S16 .f32) (x28 x29 : Vec Ideal S16x16 .bf16) (x30 : Vec Ideal S16x1 .bf16)
    (x31 : Vec Ideal S1 .f32)
    (r : Fin 4096) (j : Fin 16) :
    s_v16 (F := Ideal) x1 x3 (ix2 r j) = KSpec.valuepre (KSpec.kparams x2 x3 x4 x5 x6 x7 x8 x9 x10 x11 x12 x13 x14 x15 x16 x17 x18 x19 x20 x21 x22 x23 x24 x25 x26 x27 x28 x29 x30 x31) (fun k => x1 (ix2 r k)) j := by
  unfold s_v16
  rw [ld2_eq x1, ld2_eq x3]
  exact pay6_row x1 x3 r j

theorem s_v41_row (x0 : Vec Ideal S4096x128 .f32) (x1 : Vec Ideal S4096x8 .f32) (x2 : Vec Ideal S128x128 .bf16) (x3 : Vec Ideal S8x160 .bf16)
    (x4 x5 : Vec Ideal S64 .f32) (x6 x7 : Vec Ideal S32 .f32) (x8 x9 : Vec Ideal S64 .f32) (x10 x11 x12 x13 : Vec Ideal S16 .f32)
    (x14 x15 : Vec Ideal S32 .f32) (x16 x17 : Vec Ideal S16 .f32) (x18 : Vec Ideal S128x64 .bf16) (x19 : Vec Ideal S32x64 .bf16)
    (x20 : Vec Ideal S32x16 .bf16) (x21 : Vec Ideal S16 .f32) (x22 x23 x24 : Vec Ideal S32 .f32) (x25 : Vec Ideal S32x32 .bf16)
    (x26 : Vec Ideal S32x16 .bf16) (x27 : Vec Ideal S16 .f32) (x28 x29 : Vec Ideal S16x16 .bf16) (x30 : Vec Ideal S16x1 .bf16)
    (x31 : Vec Ideal S1 .f32)
    (r : Fin 4096) (j : Fin 64) :
    s_v41 (F := Ideal) x0 x1 x2 x3 x4 (ix2 r j)
      = centred w64 (KSpec.h1pre (KSpec.kparams x2 x3 x4 x5 x6 x7 x8 x9 x10 x11 x12 x13 x14 x15 x16 x17 x18 x19 x20 x21 x22 x23 x24 x25 x26 x27 x28 x29 x30 x31) (fun k => x0 (ix2 r k)) (fun k => x1 (ix2 r k))) j
          * Ideal.rsqrt (var w64 (KSpec.h1pre (KSpec.kparams x2 x3 x4 x5 x6 x7 x8 x9 x10 x11 x12 x13 x14 x15 x16 x17 x18 x19 x20 x21 x22 x23 x24 x25 x26 x27 x28 x29 x30 x31) (fun k => x0 (ix2 r k)) (fun k => x1 (ix2 r k))) + weps) * x4 (ix1 j) := by
  unfold s_v41
  rw [ld2_eq x0, ld2_eq x1, ld2_eq x2, ld2_eq x3, ld1_eq x4]
  exact pay7_row x0 x1 x2 x3 x4 r j

theorem s_v80_row (x0 : Vec Ideal S4096x128 .f32) (x1 : Vec Ideal S4096x8 .f32) (x2 : Vec Ideal S128x128 .bf16) (x3 : Vec Ideal S8x160 .bf16)
    (x4 x5 : Vec Ideal S64 .f32) (x6 x7 : Vec Ideal S32 .f32) (x8 x9 : Vec Ideal S64 .f32) (x10 x11 x12 x13 : Vec Ideal S16 .f32)
    (x14 x15 : Vec Ideal S32 .f32) (x16 x17 : Vec Ideal S16 .f32) (x18 : Vec Ideal S128x64 .bf16) (x19 : Vec Ideal S32x64 .bf16)
    (x20 : Vec Ideal S32x16 .bf16) (x21 : Vec Ideal S16 .f32) (x22 x23 x24 : Vec Ideal S32 .f32) (x25 : Vec Ideal S32x32 .bf16)
    (x26 : Vec Ideal S32x16 .bf16) (x27 : Vec Ideal S16 .f32) (x28 x29 : Vec Ideal S16x16 .bf16) (x30 : Vec Ideal S16x1 .bf16)
    (x31 : Vec Ideal S1 .f32)
    (r : Fin 4096) (j : Fin 32) :
    s_v80 (F := Ideal) x0 x1 x2 x3 x4 x5 x8 x9 x18 (ix2 r j) = KSpec.h2pre (KSpec.kparams x2 x3 x4 x5 x6 x7 x8 x9 x10 x11 x12 x13 x14 x15 x16 x17 x18 x19 x20 x21 x22 x23 x24 x25 x26 x27 x28 x29 x30 x31) (fun k => x0 (ix2 r k)) (fun k => x1 (ix2 r k)) j := by
  unfold s_v80
  rw [ld1_eq x5, ld1_eq x8, ld1_eq x9, ld2_eq x18]
  exact pay9_row _ _ x5 x8 x9 x18 r j
    (fun k => centred w64 (KSpec.h1pre (KSpec.kparams x2 x3 x4 x5 x6 x7 x8 x9 x10 x11 x12 x13 x14 x15 x16 x17 x18 x19 x20 x21 x22 x23 x24 x25 x26 x27 x28 x29 x30 x31) (fun k => x0 (ix2 r k)) (fun k => x1 (ix2 r k))) k
      * Ideal.rsqrt (var w64 (KSpec.h1pre (KSpec.kparams x2 x3 x4 x5 x6 x7 x8 x9 x10 x11 x12 x13 x14 x15 x16 x17 x18 x19 x20 x21 x22 x23 x24 x25 x26 x27 x28 x29 x30 x31) (fun k => x0 (ix2 r k)) (fun k => x1 (ix2 r k))) + weps) * x4 (ix1 k))
    (KSpec.keypre (KSpec.kparams x2 x3 x4 x5 x6 x7 x8 x9 x10 x11 x12 x13 x14 x15 x16 x17 x18 x19 x20 x21 x22 x23 x24 x25 x26 x27 x28 x29 x30 x31) (fun k => x0 (ix2 r k)))
    (fun k => s_v41_row x0 x1 x2 x3 x4 x5 x6 x7 x8 x9 x10 x11 x12 x13 x14 x15 x16 x17 x18 x19 x20 x21 x22 x23 x24 x25 x26 x27 x28 x29 x30 x31 r k) (fun k => s_v9_row x0 x1 x2 x3 x4 x5 x6 x7 x8 x9 x10 x11 x12 x13 x14 x15 x16 x17 x18 x19 x20 x21 x22 x23 x24 x25 x26 x27 x28 x29 x30 x31 r k)

theorem s_v85_row (x0 : Vec Ideal S4096x128 .f32) (x1 : Vec Ideal S4096x8 .f32) (x2 : Vec Ideal S128x128 .bf16) (x3 : Vec Ideal S8x160 .bf16)
    (x4 x5 : Vec Ideal S64 .f32) (x6 x7 : Vec Ideal S32 .f32) (x8 x9 : Vec Ideal S64 .f32) (x10 x11 x12 x13 : Vec Ideal S16 .f32)
    (x14 x15 : Vec Ideal S32 .f32) (x16 x17 : Vec Ideal S16 .f32) (x18 : Vec Ideal S128x64 .bf16) (x19 : Vec Ideal S32x64 .bf16)
    (x20 : Vec Ideal S32x16 .bf16) (x21 : Vec Ideal S16 .f32) (x22 x23 x24 : Vec Ideal S32 .f32) (x25 : Vec Ideal S32x32 .bf16)
    (x26 : Vec Ideal S32x16 .bf16) (x27 : Vec Ideal S16 .f32) (x28 x29 : Vec Ideal S16x16 .bf16) (x30 : Vec Ideal S16x1 .bf16)
    (x31 : Vec Ideal S1 .f32)
    (r : Fin 4096) (j : Fin 32) :
    s_v85 (F := Ideal) x0 x1 x2 x3 x4 x5 x8 x9 x18 x22 (ix2 r j) = KSpec.key (KSpec.kparams x2 x3 x4 x5 x6 x7 x8 x9 x10 x11 x12 x13 x14 x15 x16 x17 x18 x19 x20 x21 x22 x23 x24 x25 x26 x27 x28 x29 x30 x31) (fun k => x0 (ix2 r k)) (fun k => x1 (ix2 r k)) j := by
  unfold s_v85
  rw [ld1_eq x5, ld1_eq x8, ld1_eq x9, ld2_eq x18, ld1_eq x22]
  exact pay10_row _ _ x5 x8 x9 x18 x22 r j
    (fun k => centred w64 (KSpec.h1pre (KSpec.kparams x2 x3 x4 x5 x6 x7 x8 x9 x10 x11 x12 x13 x14 x15 x16 x17 x18 x19 x20 x21 x22 x23 x24 x25 x26 x27 x28 x29 x30 x31) (fun k => x0 (ix2 r k)) (fun k => x1 (ix2 r k))) k
      * Ideal.rsqrt (var w64 (KSpec.h1pre (KSpec.kparams x2 x3 x4 x5 x6 x7 x8 x9 x10 x11 x12 x13 x14 x15 x16 x17 x18 x19 x20 x21 x22 x23 x24 x25 x26 x27 x28 x29 x30 x31) (fun k => x0 (ix2 r k)) (fun k => x1 (ix2 r k))) + weps) * x4 (ix1 k))
    (KSpec.keypre (KSpec.kparams x2 x3 x4 x5 x6 x7 x8 x9 x10 x11 x12 x13 x14 x15 x16 x17 x18 x19 x20 x21 x22 x23 x24 x25 x26 x27 x28 x29 x30 x31) (fun k => x0 (ix2 r k)))
    (fun k => s_v41_row x0 x1 x2 x3 x4 x5 x6 x7 x8 x9 x10 x11 x12 x13 x14 x15 x16 x17 x18 x19 x20 x21 x22 x23 x24 x25 x26 x27 x28 x29 x30 x31 r k) (fun k => s_v9_row x0 x1 x2 x3 x4 x5 x6 x7 x8 x9 x10 x11 x12 x13 x14 x15 x16 x17 x18 x19 x20 x21 x22 x23 x24 x25 x26 x27 x28 x29 x30 x31 r k)

theorem s_v113_row (x0 : Vec Ideal S4096x128 .f32) (x1 : Vec Ideal S4096x8 .f32) (x2 : Vec Ideal S128x128 .bf16) (x3 : Vec Ideal S8x160 .bf16)
    (x4 x5 : Vec Ideal S64 .f32) (x6 x7 : Vec Ideal S32 .f32) (x8 x9 : Vec Ideal S64 .f32) (x10 x11 x12 x13 : Vec Ideal S16 .f32)
    (x14 x15 : Vec Ideal S32 .f32) (x16 x17 : Vec Ideal S16 .f32) (x18 : Vec Ideal S128x64 .bf16) (x19 : Vec Ideal S32x64 .bf16)
    (x20 : Vec Ideal S32x16 .bf16) (x21 : Vec Ideal S16 .f32) (x22 x23 x24 : Vec Ideal S32 .f32) (x25 : Vec Ideal S32x32 .bf16)
    (x26 : Vec Ideal S32x16 .bf16) (x27 : Vec Ideal S16 .f32) (x28 x29 : Vec Ideal S16x16 .bf16) (x30 : Vec Ideal S16x1 .bf16)
    (x31 : Vec Ideal S1 .f32)
    (r : Fin 4096) (j : Fin 16) :
    s_v113 (F := Ideal) x1 x3 x10 x11 (ix2 r j) = KSpec.queryh (KSpec.kparams x2 x3 x4 x5 x6 x7 x8 x9 x10 x11 x12 x13 x14 x15 x16 x17 x18 x19 x20 x21 x22 x23 x24 x25 x26 x27 x28 x29 x30 x31) (fun k => x1 (ix2 r k)) j := by
  unfold s_v113
  rw [ld1_eq x10, ld1_eq x11]
  exact pay11_row _ x10 x11 r j (KSpec.querypre (KSpec.kparams x2 x3 x4 x5 x6 x7 x8 x9 x10 x11 x12 x13 x14 x15 x16 x17 x18 x19 x20 x21 x22 x23 x24 x25 x26 x27 x28 x29 x30 x31) (fun k => x1 (ix2 r k))) (fun k => s_v14_row x0 x1 x2 x3 x4 x5 x6 x7 x8 x9 x10 x11 x12 x13 x14 x15 x16 x17 x18 x19 x20 x21 x22 x23 x24 x25 x26 x27 x28 x29 x30 x31 r k)

theorem s_v133_row (x0 : Vec Ideal S4096x128 .f32) (x1 : Vec Ideal S4096x8 .f32) (x2 : Vec Ideal S128x128 .bf16) (x3 : Vec Ideal S8x160 .bf16)
    (x4 x5 : Vec Ideal S64 .f32) (x6 x7 : Vec Ideal S32 .f32) (x8 x9 : Vec Ideal S64 .f32) (x10 x11 x12 x13 : Vec Ideal S16 .f32)
    (x14 x15 : Vec Ideal S32 .f32) (x16 x17 : Vec Ideal S16 .f32) (x18 : Vec Ideal S128x64 .bf16) (x19 : Vec Ideal S32x64 .bf16)
    (x20 : Vec Ideal S32x16 .bf16) (x21 : Vec Ideal S16 .f32) (x22 x23 x24 : Vec Ideal S32 .f32) (x25 : Vec Ideal S32x32 .bf16)
    (x26 : Vec Ideal S32x16 .bf16) (x27 : Vec Ideal S16 .f32) (x28 x29 : Vec Ideal S16x16 .bf16) (x30 : Vec Ideal S16x1 .bf16)
    (x31 : Vec Ideal S1 .f32)
    (r : Fin 4096) (j : Fin 16) :
    s_v133 (F := Ideal) x1 x3 (ix2 r j)
      = centred w16 (KSpec.valuepre (KSpec.kparams x2 x3 x4 x5 x6 x7 x8 x9 x10 x11 x12 x13 x14 x15 x16 x17 x18 x19 x20 x21 x22 x23 x24 x25 x26 x27 x28 x29 x30 x31) (fun k => x1 (ix2 r k))) j * Ideal.rsqrt (var w16 (KSpec.valuepre (KSpec.kparams x2 x3 x4 x5 x6 x7 x8 x9 x10 x11 x12 x13 x14 x15 x16 x17 x18 x19 x20 x21 x22 x23 x24 x25 x26 x27 x28 x29 x30 x31) (fun k => x1 (ix2 r k))) + weps) := by
  unfold s_v133
  exact pay12_row _ r j (KSpec.valuepre (KSpec.kparams x2 x3 x4 x5 x6 x7 x8 x9 x10 x11 x12 x13 x14 x15 x16 x17 x18 x19 x20 x21 x22 x23 x24 x25 x26 x27 x28 x29 x30 x31) (fun k => x1 (ix2 r k))) (fun k => s_v16_row x0 x1 x2 x3 x4 x5 x6 x7 x8 x9 x10 x11 x12 x13 x14 x15 x16 x17 x18 x19 x20 x21 x22 x23 x24 x25 x26 x27 x28 x29 x30 x31 r k)

theorem s_v151_row (x0 : Vec Ideal S4096x128 .f32) (x1 : Vec Ideal S4096x8 .f32) (x2 : Vec Ideal S128x128 .bf16) (x3 : Vec Ideal S8x160 .bf16)
    (x4 x5 : Vec Ideal S64 .f32) (x6 x7 : Vec Ideal S32 .f32) (x8 x9 : Vec Ideal S64 .f32) (x10 x11 x12 x13 : Vec Ideal S16 .f32)
    (x14 x15 : Vec Ideal S32 .f32) (x16 x17 : Vec Ideal S16 .f32) (x18 : Vec Ideal S128x64 .bf16) (x19 : Vec Ideal S32x64 .bf16)
    (x20 : Vec Ideal S32x16 .bf16) (x21 : Vec Ideal S16 .f32) (x22 x23 x24 : Vec Ideal S32 .f32) (x25 : Vec Ideal S32x32 .bf16)
    (x26 : Vec Ideal S32x16 .bf16) (x27 : Vec Ideal S16 .f32) (x28 x29 : Vec Ideal S16x16 .bf16) (x30 : Vec Ideal S16x1 .bf16)
    (x31 : Vec Ideal S1 .f32)
    (r : Fin 4096) (j : Fin 32) :
    s_v151 (F := Ideal) x1 x3 x10 x11 x12 x13 x19 x23 (ix2 r j) = KSpec.query (KSpec.kparams x2 x3 x4 x5 x6 x7 x8 x9 x10 x11 x12 x13 x14 x15 x16 x17 x18 x19 x20 x21 x22 x23 x24 x25 x26 x27 x28 x29 x30 x31) (fun k => x1 (ix2 r k)) j := by
  unfold s_v151
  rw [ld1_eq x12, ld1_eq x13, ld2_eq x19, ld1_eq x23]
  exact pay14_row _ _ x12 x13 x19 x23 r j (KSpec.queryh (KSpec.kparams x2 x3 x4 x5 x6 x7 x8 x9 x10 x11 x12 x13 x14 x15 x16 x17 x18 x19 x20 x21 x22 x23 x24 x25 x26 x27 x28 x29 x30 x31) (fun k => x1 (ix2 r k)))
    (fun k => centred w16 (KSpec.valuepre (KSpec.kparams x2 x3 x4 x5 x6 x7 x8 x9 x10 x11 x12 x13 x14 x15 x16 x17 x18 x19 x20 x21 x22 x23 x24 x25 x26 x27 x28 x29 x30 x31) (fun k => x1 (ix2 r k))) k * Ideal.rsqrt (var w16 (KSpec.valuepre (KSpec.kparams x2 x3 x4 x5 x6 x7 x8 x9 x10 x11 x12 x13 x14 x15 x16 x17 x18 x19 x20 x21 x22 x23 x24 x25 x26 x27 x28 x29 x30 x31) (fun k => x1 (ix2 r k))) + weps))
    (fun k => s_v113_row x0 x1 x2 x3 x4 x5 x6 x7 x8 x9 x10 x11 x12 x13 x14 x15 x16 x17 x18 x19 x20 x21 x22 x23 x24 x25 x26 x27 x28 x29 x30 x31 r k) (fun k => s_v133_row x0 x1 x2 x3 x4 x5 x6 x7 x8 x9 x10 x11 x12 x13 x14 x15 x16 x17 x18 x19 x20 x21 x22 x23 x24 x25 x26 x27 x28 x29 x30 x31 r k)

theorem s_v156_row (x0 : Vec Ideal S4096x128 .f32) (x1 : Vec Ideal S4096x8 .f32) (x2 : Vec Ideal S128x128 .bf16) (x3 : Vec Ideal S8x160 .bf16)
    (x4 x5 : Vec Ideal S64 .f32) (x6 x7 : Vec Ideal S32 .f32) (x8 x9 : Vec Ideal S64 .f32) (x10 x11 x12 x13 : Vec Ideal S16 .f32)
    (x14 x15 : Vec Ideal S32 .f32) (x16 x17 : Vec Ideal S16 .f32) (x18 : Vec Ideal S128x64 .bf16) (x19 : Vec Ideal S32x64 .bf16)
    (x20 : Vec Ideal S32x16 .bf16) (x21 : Vec Ideal S16 .f32) (x22 x23 x24 : Vec Ideal S32 .f32) (x25 : Vec Ideal S32x32 .bf16)
    (x26 : Vec Ideal S32x16 .bf16) (x27 : Vec Ideal S16 .f32) (x28 x29 : Vec Ideal S16x16 .bf16) (x30 : Vec Ideal S16x1 .bf16)
    (x31 : Vec Ideal S1 .f32)
    (r : Fin 4096) (j : Fin 32) :
    s_v156 (F := Ideal) x1 x3 x10 x11 x12 x13 x19 x24 (ix2 r j) = KSpec.value (KSpec.kparams x2 x3 x4 x5 x6 x7 x8 x9 x10 x11 x12 x13 x14 x15 x16 x17 x18 x19 x20 x21 x22 x23 x24 x25 x26 x27 x28 x29 x30 x31) (fun k => x1 (ix2 r k)) j := by
  unfold s_v156
  rw [ld1_eq x12, ld1_eq x13, ld2_eq x19, ld1_eq x24]
  exact pay15_row _ _ x12 x13 x19 x24 r j (KSpec.queryh (KSpec.kparams x2 x3 x4 x5 x6 x7 x8 x9 x10 x11 x12 x13 x14 x15 x16 x17 x18 x19 x20 x21 x22 x23 x24 x25 x26 x27 x28 x29 x30 x31) (fun k => x1 (ix2 r k)))
    (fun k => centred w16 (KSpec.valuepre (KSpec.kparams x2 x3 x4 x5 x6 x7 x8 x9 x10 x11 x12 x13 x14 x15 x16 x17 x18 x19 x20 x21 x22 x23 x24 x25 x26 x27 x28 x29 x30 x31) (fun k => x1 (ix2 r k))) k * Ideal.rsqrt (var w16 (KSpec.valuepre (KSpec.kparams x2 x3 x4 x5 x6 x7 x8 x9 x10 x11 x12 x13 x14 x15 x16 x17 x18 x19 x20 x21 x22 x23 x24 x25 x26 x27 x28 x29 x30 x31) (fun k => x1 (ix2 r k))) + weps))
    (fun k => s_v113_row x0 x1 x2 x3 x4 x5 x6 x7 x8 x9 x10 x11 x12 x13 x14 x15 x16 x17 x18 x19 x20 x21 x22 x23 x24 x25 x26 x27 x28 x29 x30 x31 r k) (fun k => s_v133_row x0 x1 x2 x3 x4 x5 x6 x7 x8 x9 x10 x11 x12 x13 x14 x15 x16 x17 x18 x19 x20 x21 x22 x23 x24 x25 x26 x27 x28 x29 x30 x31 r k)

theorem s_v179_row (x0 : Vec Ideal S4096x128 .f32) (x1 : Vec Ideal S4096x8 .f32) (x2 : Vec Ideal S128x128 .bf16) (x3 : Vec Ideal S8x160 .bf16)
    (x4 x5 : Vec Ideal S64 .f32) (x6 x7 : Vec Ideal S32 .f32) (x8 x9 : Vec Ideal S64 .f32) (x10 x11 x12 x13 : Vec Ideal S16 .f32)
    (x14 x15 : Vec Ideal S32 .f32) (x16 x17 : Vec Ideal S16 .f32) (x18 : Vec Ideal S128x64 .bf16) (x19 : Vec Ideal S32x64 .bf16)
    (x20 : Vec Ideal S32x16 .bf16) (x21 : Vec Ideal S16 .f32) (x22 x23 x24 : Vec Ideal S32 .f32) (x25 : Vec Ideal S32x32 .bf16)
    (x26 : Vec Ideal S32x16 .bf16) (x27 : Vec Ideal S16 .f32) (x28 x29 : Vec Ideal S16x16 .bf16) (x30 : Vec Ideal S16x1 .bf16)
    (x31 : Vec Ideal S1 .f32)
    (r : Fin 4096) (j : Fin 32) :
    s_v179 (F := Ideal) x0 x1 x2 x3 x4 x5 x6 x8 x9 x18 (ix2 r j)
      = centred w32 (KSpec.h2pre (KSpec.kparams x2 x3 x4 x5 x6 x7 x8 x9 x10 x11 x12 x13 x14 x15 x16 x17 x18 x19 x20 x21 x22 x23 x24 x25 x26 x27 x28 x29 x30 x31) (fun k => x0 (ix2 r k)) (fun k => x1 (ix2 r k))) j
          * Ideal.rsqrt (var w32 (KSpec.h2pre (KSpec.kparams x2 x3 x4 x5 x6 x7 x8 x9 x10 x11 x12 x13 x14 x15 x16 x17 x18 x19 x20 x21 x22 x23 x24 x25 x26 x27 x28 x29 x30 x31) (fun k => x0 (ix2 r k)) (fun k => x1 (ix2 r k))) + weps) * x6 (ix1 j) := by
  unfold s_v179
  rw [ld1_eq x6]
  exact pay16_row _ x6 r j (KSpec.h2pre (KSpec.kparams x2 x3 x4 x5 x6 x7 x8 x9 x10 x11 x12 x13 x14 x15 x16 x17 x18 x19 x20 x21 x22 x23 x24 x25 x26 x27 x28 x29 x30 x31) (fun k => x0 (ix2 r k)) (fun k => x1 (ix2 r k))) (fun k => s_v80_row x0 x1 x2 x3 x4 x5 x6 x7 x8 x9 x10 x11 x12 x13 x14 x15 x16 x17 x18 x19 x20 x21 x22 x23 x24 x25 x26 x27 x28 x29 x30 x31 r k)

theorem s_v180_row (x0 : Vec Ideal S4096x128 .f32) (x1 : Vec Ideal S4096x8 .f32) (x2 : Vec Ideal S128x128 .bf16) (x3 : Vec Ideal S8x160 .bf16)
    (x4 x5 : Vec Ideal S64 .f32) (x6 x7 : Vec Ideal S32 .f32) (x8 x9 : Vec Ideal S64 .f32) (x10 x11 x12 x13 : Vec Ideal S16 .f32)
    (x14 x15 : Vec Ideal S32 .f32) (x16 x17 : Vec Ideal S16 .f32) (x18 : Vec Ideal S128x64 .bf16) (x19 : Vec Ideal S32x64 .bf16)
    (x20 : Vec Ideal S32x16 .bf16) (x21 : Vec Ideal S16 .f32) (x22 x23 x24 : Vec Ideal S32 .f32) (x25 : Vec Ideal S32x32 .bf16)
    (x26 : Vec Ideal S32x16 .bf16) (x27 : Vec Ideal S16 .f32) (x28 x29 : Vec Ideal S16x16 .bf16) (x30 : Vec Ideal S16x1 .bf16)
    (x31 : Vec Ideal S1 .f32)
    (j : Fin 32) : s_v180 (F := Ideal) x7 (ix2 (0 : Fin 1) j) = x7 (ix1 j) := by
  unfold s_v180
  rw [ld1_eq x7]
  exact pay17_row x7 j

theorem s_v192_row (x0 : Vec Ideal S4096x128 .f32) (x1 : Vec Ideal S4096x8 .f32) (x2 : Vec Ideal S128x128 .bf16) (x3 : Vec Ideal S8x160 .bf16)
    (x4 x5 : Vec Ideal S64 .f32) (x6 x7 : Vec Ideal S32 .f32) (x8 x9 : Vec Ideal S64 .f32) (x10 x11 x12 x13 : Vec Ideal S16 .f32)
    (x14 x15 : Vec Ideal S32 .f32) (x16 x17 : Vec Ideal S16 .f32) (x18 : Vec Ideal S128x64 .bf16) (x19 : Vec Ideal S32x64 .bf16)
    (x20 : Vec Ideal S32x16 .bf16) (x21 : Vec Ideal S16 .f32) (x22 x23 x24 : Vec Ideal S32 .f32) (x25 : Vec Ideal S32x32 .bf16)
    (x26 : Vec Ideal S32x16 .bf16) (x27 : Vec Ideal S16 .f32) (x28 x29 : Vec Ideal S16x16 .bf16) (x30 : Vec Ideal S16x1 .bf16)
    (x31 : Vec Ideal S1 .f32)
    (r : Fin 4096) (j : Fin 16) :
    s_v192 (F := Ideal) x0 x1 x2 x3 x4 x5 x6 x7 x8 x9 x18 x20 x21 (ix2 r j) = KSpec.residuals (KSpec.kparams x2 x3 x4 x5 x6 x7 x8 x9 x10 x11 x12 x13 x14 x15 x16 x17 x18 x19 x20 x21 x22 x23 x24 x25 x26 x27 x28 x29 x30 x31) (fun k => x0 (ix2 r k)) (fun k => x1 (ix2 r k)) j := by
  unfold s_v192
  rw [ld2_eq x20, ld1_eq x21]
  exact pay18_row _ _ x20 x21 r j
    (fun k => centred w32 (KSpec.h2pre (KSpec.kparams x2 x3 x4 x5 x6 x7 x8 x9 x10 x11 x12 x13 x14 x15 x16 x17 x18 x19 x20 x21 x22 x23 x24 x25 x26 x27 x28 x29 x30 x31) (fun k => x0 (ix2 r k)) (fun k => x1 (ix2 r k))) k
      * Ideal.rsqrt (var w32 (KSpec.h2pre (KSpec.kparams x2 x3 x4 x5 x6 x7 x8 x9 x10 x11 x12 x13 x14 x15 x16 x17 x18 x19 x20 x21 x22 x23 x24 x25 x26 x27 x28 x29 x30 x31) (fun k => x0 (ix2 r k)) (fun k => x1 (ix2 r k))) + weps) * x6 (ix1 k))
    (fun k => x7 (ix1 k))
    (fun k => s_v179_row x0 x1 x2 x3 x4 x5 x6 x7 x8 x9 x10 x11 x12 x13 x14 x15 x16 x17 x18 x19 x20 x21 x22 x23 x24 x25 x26 x27 x28 x29 x30 x31 r k) (fun k => s_v180_row x0 x1 x2 x3 x4 x5 x6 x7 x8 x9 x10 x11 x12 x13 x14 x15 x16 x17 x18 x19 x20 x21 x22 x23 x24 x25 x26 x27 x28 x29 x30 x31 k)

end Cert.KernelIdeal.KValue

end
-- ==== Proof.KPayE.lean ====
/-
  The attention head's first layer, read at one row.

  At row r the kernel takes the products query * key, reduces them by the maximum (from the minus-infinity word, joined
  with that word), exponentiates the differences, divides by their sum, weighs the value, and contracts the result
  with the head's first weight; then it takes that layer's row mean (the row sum over the width word 32), the row mean
  of the squares of the centred row, and the mean stretched over the block. Each array of this stretch, at row r, is the
  specification's function of what the key, query and value blocks hold at row r.
-/
import proofs.«104010_j23570780520494_2_alg».proof.Proof.KPayLib2
import proofs.«104010_j23570780520494_2_alg».proof.Proof.Gen.KernelIdeal.Skeleton

set_option maxRecDepth 16384

noncomputable section

namespace Cert.KernelIdeal.KValue

open Cert.KernelIdeal Cert.KernelIdeal.Gen Idealize.ShloMosaic Idealize.ShloMosaic.ValueIdx
open Cert.Spec

/-! ## The attention head's first layer and its statistics -/

/-- The attention head's first layer at (r, j): the products query * key of row r go through the softmax, weigh the
    value, and the result is contracted with column j of the weight. -/
theorem pay19_row (v85 v151 v156 : FVec Ideal S4096x32 .f32) (v207 : Vec Ideal S32x32 .bf16) (r : Fin 4096) (j : Fin 32)
    (ky qy vl : Fin 32 → EReal) (W : Fin 32 → Fin 32 → EReal)
    (hk : ∀ k, v85 (ix2 r k) = ky k) (hq : ∀ k, v151 (ix2 r k) = qy k) (hv : ∀ k, v156 (ix2 r k) = vl k)
    (hW : ∀ k, v207 (ix2 k j) = W k j) :
    k0_pay19 (F := Ideal) v85 v151 v156 v207 (ix2 r j)
      = lin W (fun k => softmax (fun i => qy i * ky i) k * vl k) j := by
  unfold k0_pay19
  refine mm_row dot_S4096x32_S32x32_S4096x32_1_0_0_1_n_n rfl none _ _ r j
    (fun k => softmax (fun i => qy i * ky i) k * vl k) W (fun k => ?_)
    (fun k => (castSelf_apply v207 shapeCasts_S32x32_S32x32 (ix2 k j)).trans (hW k))
  exact congrArg₂ (· * ·)
    (softmax_row (mulf v151 v85) reduces_S4096x32_S4096 (.inl rfl) rfl rfl shapeCasts_S4096_S4096x1
      broadcasts_S4096x1_S4096x32 r k (fun i => qy i * ky i) (fun i => by rw [mulf_apply, hq i, hk i]))
    (hv k)

/-- The mean column of the attention head's first layer at row r. -/
theorem pay20_row (v85 v151 v156 : FVec Ideal S4096x32 .f32) (v207 : Vec Ideal S32x32 .bf16) (r : Fin 4096) (c : Fin 1)
    (a : Fin 32 → EReal) (ha : ∀ k, k0_pay19 (F := Ideal) v85 v151 v156 v207 (ix2 r k) = a k) :
    k0_pay20 (F := Ideal) v85 v151 v156 v207 (ix2 r c) = mean w32 a := by
  unfold k0_pay20
  exact meanCol_row (k0_pay19 (F := Ideal) v85 v151 v156 v207) 0x00000000#32 reduces_S4096x32_S4096 (.inl rfl) rfl
    shapeCasts_S4096_S4096x1 0x42000000#32 r c a ha

/-- The variance column of the attention head's first layer at row r. -/
theorem pay21_row (v85 v151 v156 : FVec Ideal S4096x32 .f32) (v207 : Vec Ideal S32x32 .bf16) (r : Fin 4096) (c : Fin 1)
    (a : Fin 32 → EReal) (ha : ∀ k, k0_pay19 (F := Ideal) v85 v151 v156 v207 (ix2 r k) = a k) :
    k0_pay21 (F := Ideal) v85 v151 v156 v207 (ix2 r c) = var w32 a := by
  have hm := pay20_row v85 v151 v156 v207 r 0 a ha
  have hc := fun k => centred_row (k0_pay19 (F := Ideal) v85 v151 v156 v207) (k0_pay20 (F := Ideal) v85 v151 v156 v207)
    broadcasts_S4096x1_S4096x32 r k w32 a (ha k) hm
  unfold k0_pay21
  exact varCol_row _ 0x00000000#32 reduces_S4096x32_S4096 (.inl rfl) rfl shapeCasts_S4096_S4096x1 0x42000000#32 r c a hc

/-- The mean of the attention head's first layer stretched over the block, at (r, j). -/
theorem pay22_row (v85 v151 v156 : FVec Ideal S4096x32 .f32) (v207 : Vec Ideal S32x32 .bf16) (r : Fin 4096) (j : Fin 32)
    (a : Fin 32 → EReal) (ha : ∀ k, k0_pay19 (F := Ideal) v85 v151 v156 v207 (ix2 r k) = a k) :
    k0_pay22 (F := Ideal) v85 v151 v156 v207 (ix2 r j) = mean w32 a := by
  unfold k0_pay22
  exact (bcastCol_apply (k0_pay20 (F := Ideal) v85 v151 v156 v207) broadcasts_S4096x1_S4096x32 r j 0).trans
    (pay20_row v85 v151 v156 v207 r 0 a ha)

end Cert.KernelIdeal.KValue

end
-- ==== Proof.KPayF.lean ====
/-
  The attention head's output, the last block and the stored block, read at one row.

  From the head's first layer at row r with its mean and variance the kernel normalises, rectifies, applies the head's
  second linear layer with bias, and takes the last block's first layer as the sum of two contractions: of the head's
  output with one weight and of the residuals with the other. It takes that layer's row mean and the row sum of the
  squares of the centred row; normalises, rectifies, contracts with the last weight, adds the last bias; and lays the
  column of 4096 scores out as 32 rows of 128: entry (a, b) of the stored block is the score of row 128 a + b.
-/
import proofs.«104010_j23570780520494_2_alg».proof.Proof.KPayLib2
import proofs.«104010_j23570780520494_2_alg».proof.Proof.Gen.KernelIdeal.Skeleton

set_option maxRecDepth 16384

noncomputable section

namespace Cert.KernelIdeal.KValue

open Cert.KernelIdeal Cert.KernelIdeal.Gen Idealize.ShloMosaic Idealize.ShloMosaic.ValueIdx
open Cert.Spec

/-! ## The attention head's output, the last block's first layer and its statistics -/

/-- The last block's first layer at (r, j). From the attention head's first layer `a` at row r, its mean (already
    stretched over the block) and its variance column, the head's hidden layer is relu(LN(a)); its output is the linear
    layer with bias of that; and the first layer of the last block is that output contracted with one weight plus the
    residuals of row r contracted with the other. -/
theorem pay23_row (v192 : FVec Ideal S4096x16 .f32) (v209 : FVec Ideal S4096x32 .f32) (v210 v211 : Vec Ideal S32 .f32)
    (v222 : FVec Ideal S4096x1 .f32) (v223 : FVec Ideal S4096x32 .f32) (v239 : Vec Ideal S32x16 .bf16)
    (v242 : Vec Ideal S16 .f32) (v247 v251 : Vec Ideal S16x16 .bf16) (r : Fin 4096) (j : Fin 16)
    (a g b : Fin 32 → EReal) (res b2 : Fin 16 → EReal) (W2 : Fin 32 → Fin 16 → EReal) (Wa Wb : Fin 16 → Fin 16 → EReal)
    (h209 : ∀ k, v209 (ix2 r k) = a k) (h223 : ∀ k, v223 (ix2 r k) = mean w32 a) (h222 : v222 (ix2 r 0) = var w32 a)
    (h192 : ∀ k, v192 (ix2 r k) = res k) (hg : ∀ k, v210 (ix1 k) = g k) (hb : ∀ k, v211 (ix1 k) = b k)
    (hW2 : ∀ k i, v239 (ix2 k i) = W2 k i) (hb2 : ∀ k, v242 (ix1 k) = b2 k)
    (hWa : ∀ k, v247 (ix2 k j) = Wa k j) (hWb : ∀ k, v251 (ix2 k j) = Wb k j) :
    k0_pay23 (F := Ideal) v192 v209 v210 v211 v222 v223 v239 v242 v247 v251 (ix2 r j)
      = lin Wa (dense W2 b2 fun k => relu (ln w32 weps a g b k)) j + lin Wb res j := by
  have hc : ∀ i, subf v209 v223 (ix2 r i) = centred w32 a i := fun i => by
    show v209 (ix2 r i) - v223 (ix2 r i) = a i - mean w32 a
    rw [h209 i, h223 i]
  have hh : ∀ i : Fin 32, relu (centred w32 a i * Ideal.rsqrt (var w32 a + Ideal.ofBits .f32 0x3727C5AC#32) * v210 (ix1 i) + v211 (ix1 i))
      = relu (ln w32 weps a g b i) := fun i => by rw [hg i, hb i]; rfl
  unfold k0_pay23
  refine congrArg₂ (· + ·)
    (mm_row dot_S4096x16_S16x16_S4096x16_1_0_0_1_n_n rfl none _ _ r j
      (dense W2 b2 fun k => relu (ln w32 weps a g b k)) Wa (fun k => ?_)
      (fun k => (castSelf_apply v247 shapeCasts_S16x16_S16x16 (ix2 k j)).trans (hWa k)))
    (mm_row dot_S4096x16_S16x16_S4096x16_1_0_0_1_n_n rfl none _ _ r j res Wb (fun k => h192 k)
      (fun k => (castSelf_apply v251 shapeCasts_S16x16_S16x16 (ix2 k j)).trans (hWb k)))
  refine (bias_row _ v242 shapeCasts_S16_S1x16 broadcasts_S1x16_S4096x16 r k _
    (mm_row dot_S4096x32_S32x16_S4096x16_1_0_0_1_n_n rfl none _ _ r k (fun i => relu (ln w32 weps a g b i)) W2
      (fun i => ?_) (fun i => (castSelf_apply v239 shapeCasts_S32x16_S32x16 (ix2 i k)).trans (hW2 i k)))).trans
    (congrArg (lin W2 (fun i => relu (ln w32 weps a g b i)) k + ·) (hb2 k))
  exact (relu_row _ _ _ (bias_row _ v211 shapeCasts_S32_S1x32 broadcasts_S1x32_S4096x32 r i _
    (gain_row _ v210 shapeCasts_S32_S1x32 broadcasts_S1x32_S4096x32 r i _
      (norm_row _ v222 broadcasts_S4096x1_S4096x32 0x3727C5AC#32 r i _ _ (hc i) h222)))).trans (hh i)

/-- The mean column of the last block's first layer at row r. -/
theorem pay24_row (v192 : FVec Ideal S4096x16 .f32) (v209 : FVec Ideal S4096x32 .f32) (v210 v211 : Vec Ideal S32 .f32)
    (v222 : FVec Ideal S4096x1 .f32) (v223 : FVec Ideal S4096x32 .f32) (v239 : Vec Ideal S32x16 .bf16)
    (v242 : Vec Ideal S16 .f32) (v247 v251 : Vec Ideal S16x16 .bf16) (r : Fin 4096) (c : Fin 1) (s : Fin 16 → EReal)
    (hs : ∀ k, k0_pay23 (F := Ideal) v192 v209 v210 v211 v222 v223 v239 v242 v247 v251 (ix2 r k) = s k) :
    k0_pay24 (F := Ideal) v192 v209 v210 v211 v222 v223 v239 v242 v247 v251 (ix2 r c) = mean w16 s := by
  unfold k0_pay24
  exact meanCol_row (k0_pay23 (F := Ideal) v192 v209 v210 v211 v222 v223 v239 v242 v247 v251) 0x00000000#32
    reduces_S4096x16_S4096 (.inl rfl) rfl shapeCasts_S4096_S4096x1 0x41800000#32 r c s hs

/-- The column of sums of squares of the centred first layer of the last block at row r (not yet divided by the
    width). -/
theorem pay25_row (v192 : FVec Ideal S4096x16 .f32) (v209 : FVec Ideal S4096x32 .f32) (v210 v211 : Vec Ideal S32 .f32)
    (v222 : FVec Ideal S4096x1 .f32) (v223 : FVec Ideal S4096x32 .f32) (v239 : Vec Ideal S32x16 .bf16)
    (v242 : Vec Ideal S16 .f32) (v247 v251 : Vec Ideal S16x16 .bf16) (r : Fin 4096) (c : Fin 1) (s : Fin 16 → EReal)
    (hs : ∀ k, k0_pay23 (F := Ideal) v192 v209 v210 v211 v222 v223 v239 v242 v247 v251 (ix2 r k) = s k) :
    k0_pay25 (F := Ideal) v192 v209 v210 v211 v222 v223 v239 v242 v247 v251 (ix2 r c)
      = sum0 fun k => centred w16 s k * centred w16 s k := by
  have hm := pay24_row v192 v209 v210 v211 v222 v223 v239 v242 v247 v251 r 0 s hs
  have hc := fun k => centred_row (k0_pay23 (F := Ideal) v192 v209 v210 v211 v222 v223 v239 v242 v247 v251)
    (k0_pay24 (F := Ideal) v192 v209 v210 v211 v222 v223 v239 v242 v247 v251) broadcasts_S4096x1_S4096x16 r k w16 s (hs k) hm
  unfold k0_pay25
  exact sumCol_row _ 0x00000000#32 reduces_S4096x16_S4096 (.inl rfl) rfl shapeCasts_S4096_S4096x1 r c
    (fun k => centred w16 s k * centred w16 s k) (fun k => by rw [mulf_apply, hc k])

/-! ## The score, and its place in the stored block -/

/-- The stored block at (a, b) is the score of row 128 a + b: from the last block's first layer `s` at that row, its
    mean column and its column of sums of squares, the hidden layer is relu(LN(s)) and the score its contraction with
    the last weight plus the last bias; the column of 4096 scores is laid out as 32 rows of 128. -/
theorem pay1_row (v254 : FVec Ideal S4096x16 .f32) (v255 v256 : Vec Ideal S16 .f32) (v260 v265 : FVec Ideal S4096x1 .f32)
    (v284 : Vec Ideal S16x1 .bf16) (v287 : Vec Ideal S1 .f32) (a : Fin 32) (b : Fin 128) (hr : 128 * a.val + b.val < 4096)
    (s g bb : Fin 16 → EReal) (W : Fin 16 → Fin 1 → EReal) (b2 : Fin 1 → EReal)
    (h254 : ∀ k, v254 (ix2 (⟨128 * a.val + b.val, hr⟩ : Fin 4096) k) = s k)
    (h260 : v260 (ix2 (⟨128 * a.val + b.val, hr⟩ : Fin 4096) 0) = mean w16 s)
    (h265 : v265 (ix2 (⟨128 * a.val + b.val, hr⟩ : Fin 4096) 0) = sum0 fun k => centred w16 s k * centred w16 s k)
    (hg : ∀ k, v255 (ix1 k) = g k) (hb : ∀ k, v256 (ix1 k) = bb k)
    (hW : ∀ k, v284 (ix2 k (0 : Fin 1)) = W k 0) (hb2 : v287 (ix1 (0 : Fin 1)) = b2 0) :
    k0_pay1 (F := Ideal) v254 v255 v256 v260 v265 (Scalar.ofBits .f32 0x41800000#32) v284 v287 (ix2 a b)
      = dense W b2 (fun k => relu (ln w16 weps s g bb k)) 0 := by
  have hv : divf v265 (broadcast S4096x1 (Scalar.ofBits (F := Ideal) .f32 0x41800000#32))
      (ix2 (⟨128 * a.val + b.val, hr⟩ : Fin 4096) 0) = var w16 s := by
    show Ideal.div (v265 (ix2 (⟨128 * a.val + b.val, hr⟩ : Fin 4096) 0)) (Ideal.ofBits .f32 0x41800000#32) = var w16 s
    rw [h265]; rfl
  have hh : ∀ i : Fin 16, relu (centred w16 s i * Ideal.rsqrt (var w16 s + Ideal.ofBits .f32 0x3727C5AC#32) * v255 (ix1 i) + v256 (ix1 i))
      = relu (ln w16 weps s g bb i) := fun i => by rw [hg i, hb i]; rfl
  unfold k0_pay1
  refine (colToBlock_apply (A := 32) (B := 128) _ shapeCasts_S4096x1_S32x128 a b hr).trans ?_
  refine (bias_row _ v287 shapeCasts_S1_S1x1 broadcasts_S1x1_S4096x1 (⟨128 * a.val + b.val, hr⟩ : Fin 4096) (0 : Fin 1) _
    (mm_row dot_S4096x16_S16x1_S4096x1_1_0_0_1_n_n rfl none _ _ (⟨128 * a.val + b.val, hr⟩ : Fin 4096) (0 : Fin 1)
      (fun k => relu (ln w16 weps s g bb k)) W (fun k => ?_)
      (fun k => (castSelf_apply v284 shapeCasts_S16x1_S16x1 (ix2 k (0 : Fin 1))).trans (hW k)))).trans
    (congrArg (lin W (fun k => relu (ln w16 weps s g bb k)) 0 + ·) hb2)
  exact (relu_row _ _ _ (bias_row _ v256 shapeCasts_S16_S1x16 broadcasts_S1x16_S4096x16 _ k _
    (gain_row _ v255 shapeCasts_S16_S1x16 broadcasts_S1x16_S4096x16 _ k _
      (norm_row _ _ broadcasts_S4096x1_S4096x16 0x3727C5AC#32 _ k _ _
        (centred_row v254 v260 broadcasts_S4096x1_S4096x16 _ k w16 s (h254 k) h260) hv)))).trans (hh k)

end Cert.KernelIdeal.KValue

end
-- ==== Proof.KPayG.lean ====
/-
  The stored block of one grid point as the kernel's score, from the four rows the second half of the body starts from.

  The second half of the body (the attention head, the last block, the score and its layout) reads the key, the query,
  the value and the residuals. Given that at row 128 a + b these are the kernel's own row functions of that row of the
  two input blocks, the stored block's entry (a, b) is the kernel's score of that row.
-/
import proofs.«104010_j23570780520494_2_alg».proof.Proof.KiBody
import proofs.«104010_j23570780520494_2_alg».proof.Proof.KSpec
import proofs.«104010_j23570780520494_2_alg».proof.Proof.KPayE
import proofs.«104010_j23570780520494_2_alg».proof.Proof.KPayF

set_option maxRecDepth 16384

noncomputable section

namespace Cert.KernelIdeal.KValue

open Cert.KernelIdeal Cert.KernelIdeal.Gen Idealize.ShloMosaic Idealize.ShloMosaic.ValueIdx
open Cert.Spec

open Cert.KernelIdeal.Frame

/-- The stored block at (a, b), once the key, the query, the value and the residuals of row 128 a + b are known to be
    the kernel's own row functions: the kernel's score of that row. The attention head's first layer, its statistics,
    the last block's first layer, its statistics and the score follow one another, each from the rows before it. -/
theorem payload_of_stages (x0 : Vec Ideal S4096x128 .f32) (x1 : Vec Ideal S4096x8 .f32) (x2 : Vec Ideal S128x128 .bf16) (x3 : Vec Ideal S8x160 .bf16)
    (x4 : Vec Ideal S64 .f32) (x5 : Vec Ideal S64 .f32) (x6 : Vec Ideal S32 .f32) (x7 : Vec Ideal S32 .f32) (x8 : Vec Ideal S64 .f32)
    (x9 : Vec Ideal S64 .f32) (x10 : Vec Ideal S16 .f32) (x11 : Vec Ideal S16 .f32) (x12 : Vec Ideal S16 .f32) (x13 : Vec Ideal S16 .f32)
    (x14 : Vec Ideal S32 .f32) (x15 : Vec Ideal S32 .f32) (x16 : Vec Ideal S16 .f32) (x17 : Vec Ideal S16 .f32)
    (x18 : Vec Ideal S128x64 .bf16) (x19 : Vec Ideal S32x64 .bf16) (x20 : Vec Ideal S32x16 .bf16) (x21 : Vec Ideal S16 .f32)
    (x22 : Vec Ideal S32 .f32) (x23 : Vec Ideal S32 .f32) (x24 : Vec Ideal S32 .f32) (x25 : Vec Ideal S32x32 .bf16)
    (x26 : Vec Ideal S32x16 .bf16) (x27 : Vec Ideal S16 .f32) (x28 : Vec Ideal S16x16 .bf16) (x29 : Vec Ideal S16x16 .bf16)
    (x30 : Vec Ideal S16x1 .bf16) (x31 : Vec Ideal S1 .f32)
    (a : Fin 32) (b : Fin 128) (hr : 128 * a.val + b.val < 4096) (rep : Fin 128 → EReal) (po : Fin 8 → EReal)
    (h85 : ∀ k, s_v85 (F := Ideal) x0 x1 x2 x3 x4 x5 x8 x9 x18 x22 (ix2 (⟨128 * a.val + b.val, hr⟩ : Fin 4096) k)
      = Cert.KSpec.key (Cert.KSpec.kparams x2 x3 x4 x5 x6 x7 x8 x9 x10 x11 x12 x13 x14 x15 x16 x17 x18 x19 x20 x21 x22 x23 x24 x25 x26 x27 x28 x29 x30 x31) rep po k)
    (h151 : ∀ k, s_v151 (F := Ideal) x1 x3 x10 x11 x12 x13 x19 x23 (ix2 (⟨128 * a.val + b.val, hr⟩ : Fin 4096) k)
      = Cert.KSpec.query (Cert.KSpec.kparams x2 x3 x4 x5 x6 x7 x8 x9 x10 x11 x12 x13 x14 x15 x16 x17 x18 x19 x20 x21 x22 x23 x24 x25 x26 x27 x28 x29 x30 x31) po k)
    (h156 : ∀ k, s_v156 (F := Ideal) x1 x3 x10 x11 x12 x13 x19 x24 (ix2 (⟨128 * a.val + b.val, hr⟩ : Fin 4096) k)
      = Cert.KSpec.value (Cert.KSpec.kparams x2 x3 x4 x5 x6 x7 x8 x9 x10 x11 x12 x13 x14 x15 x16 x17 x18 x19 x20 x21 x22 x23 x24 x25 x26 x27 x28 x29 x30 x31) po k)
    (h192 : ∀ k, s_v192 (F := Ideal) x0 x1 x2 x3 x4 x5 x6 x7 x8 x9 x18 x20 x21 (ix2 (⟨128 * a.val + b.val, hr⟩ : Fin 4096) k)
      = Cert.KSpec.residuals (Cert.KSpec.kparams x2 x3 x4 x5 x6 x7 x8 x9 x10 x11 x12 x13 x14 x15 x16 x17 x18 x19 x20 x21 x22 x23 x24 x25 x26 x27 x28 x29 x30 x31) rep po k) :
    payload (F := Ideal) x0 x1 x2 x3 x4 x5 x6 x7 x8 x9 x10 x11 x12 x13 x14 x15 x16 x17 x18 x19 x20 x21 x22 x23 x24 x25 x26 x27 x28 x29 x30 x31 (ix2 a b) = Cert.KSpec.kscore (Cert.KSpec.kparams x2 x3 x4 x5 x6 x7 x8 x9 x10 x11 x12 x13 x14 x15 x16 x17 x18 x19 x20 x21 x22 x23 x24 x25 x26 x27 x28 x29 x30 x31) rep po 0 := by
  have ha : ∀ k, k0_pay19 (F := Ideal) (s_v85 (F := Ideal) x0 x1 x2 x3 x4 x5 x8 x9 x18 x22)
      (s_v151 (F := Ideal) x1 x3 x10 x11 x12 x13 x19 x23) (s_v156 (F := Ideal) x1 x3 x10 x11 x12 x13 x19 x24) (View.ld x25 rS32x32)
      (ix2 (⟨128 * a.val + b.val, hr⟩ : Fin 4096) k) = Cert.KSpec.a1pre (Cert.KSpec.kparams x2 x3 x4 x5 x6 x7 x8 x9 x10 x11 x12 x13 x14 x15 x16 x17 x18 x19 x20 x21 x22 x23 x24 x25 x26 x27 x28 x29 x30 x31) rep po k := fun k =>
    pay19_row _ _ _ _ _ k (Cert.KSpec.key (Cert.KSpec.kparams x2 x3 x4 x5 x6 x7 x8 x9 x10 x11 x12 x13 x14 x15 x16 x17 x18 x19 x20 x21 x22 x23 x24 x25 x26 x27 x28 x29 x30 x31) rep po) (Cert.KSpec.query (Cert.KSpec.kparams x2 x3 x4 x5 x6 x7 x8 x9 x10 x11 x12 x13 x14 x15 x16 x17 x18 x19 x20 x21 x22 x23 x24 x25 x26 x27 x28 x29 x30 x31) po) (Cert.KSpec.value (Cert.KSpec.kparams x2 x3 x4 x5 x6 x7 x8 x9 x10 x11 x12 x13 x14 x15 x16 x17 x18 x19 x20 x21 x22 x23 x24 x25 x26 x27 x28 x29 x30 x31) po)
      (Cert.KSpec.kparams x2 x3 x4 x5 x6 x7 x8 x9 x10 x11 x12 x13 x14 x15 x16 x17 x18 x19 x20 x21 x22 x23 x24 x25 x26 x27 x28 x29 x30 x31).aw1 h85 h151 h156
      (fun i => congrFun (ld2_eq x25 inb_S32x32_S32x32_0_0) (ix2 i k))
  have hs : ∀ k, k0_pay23 (F := Ideal) (s_v192 (F := Ideal) x0 x1 x2 x3 x4 x5 x6 x7 x8 x9 x18 x20 x21)
      (s_v209 (F := Ideal) x0 x1 x2 x3 x4 x5 x8 x9 x10 x11 x12 x13 x18 x19 x22 x23 x24 x25) (View.ld x14 rS32) (View.ld x15 rS32)
      (s_v222 (F := Ideal) x0 x1 x2 x3 x4 x5 x8 x9 x10 x11 x12 x13 x18 x19 x22 x23 x24 x25)
      (s_v223 (F := Ideal) x0 x1 x2 x3 x4 x5 x8 x9 x10 x11 x12 x13 x18 x19 x22 x23 x24 x25)
      (View.ld x26 rS32x16) (View.ld x27 rS16) (View.ld x28 rS16x16) (View.ld x29 rS16x16)
      (ix2 (⟨128 * a.val + b.val, hr⟩ : Fin 4096) k) = Cert.KSpec.scorepre (Cert.KSpec.kparams x2 x3 x4 x5 x6 x7 x8 x9 x10 x11 x12 x13 x14 x15 x16 x17 x18 x19 x20 x21 x22 x23 x24 x25 x26 x27 x28 x29 x30 x31) rep po k := fun k =>
    pay23_row _ _ _ _ _ _ _ _ _ _ _ k (Cert.KSpec.a1pre (Cert.KSpec.kparams x2 x3 x4 x5 x6 x7 x8 x9 x10 x11 x12 x13 x14 x15 x16 x17 x18 x19 x20 x21 x22 x23 x24 x25 x26 x27 x28 x29 x30 x31) rep po) (Cert.KSpec.kparams x2 x3 x4 x5 x6 x7 x8 x9 x10 x11 x12 x13 x14 x15 x16 x17 x18 x19 x20 x21 x22 x23 x24 x25 x26 x27 x28 x29 x30 x31).ag (Cert.KSpec.kparams x2 x3 x4 x5 x6 x7 x8 x9 x10 x11 x12 x13 x14 x15 x16 x17 x18 x19 x20 x21 x22 x23 x24 x25 x26 x27 x28 x29 x30 x31).ab
      (Cert.KSpec.residuals (Cert.KSpec.kparams x2 x3 x4 x5 x6 x7 x8 x9 x10 x11 x12 x13 x14 x15 x16 x17 x18 x19 x20 x21 x22 x23 x24 x25 x26 x27 x28 x29 x30 x31) rep po) (Cert.KSpec.kparams x2 x3 x4 x5 x6 x7 x8 x9 x10 x11 x12 x13 x14 x15 x16 x17 x18 x19 x20 x21 x22 x23 x24 x25 x26 x27 x28 x29 x30 x31).ab2 (Cert.KSpec.kparams x2 x3 x4 x5 x6 x7 x8 x9 x10 x11 x12 x13 x14 x15 x16 x17 x18 x19 x20 x21 x22 x23 x24 x25 x26 x27 x28 x29 x30 x31).aw2 (Cert.KSpec.kparams x2 x3 x4 x5 x6 x7 x8 x9 x10 x11 x12 x13 x14 x15 x16 x17 x18 x19 x20 x21 x22 x23 x24 x25 x26 x27 x28 x29 x30 x31).gw1a (Cert.KSpec.kparams x2 x3 x4 x5 x6 x7 x8 x9 x10 x11 x12 x13 x14 x15 x16 x17 x18 x19 x20 x21 x22 x23 x24 x25 x26 x27 x28 x29 x30 x31).gw1b
      ha (fun i => pay22_row _ _ _ _ _ i _ ha) (pay21_row _ _ _ _ _ 0 _ ha) h192
      (fun i => congrFun (ld1_eq x14 inb_S32_S32_0) (ix1 i)) (fun i => congrFun (ld1_eq x15 inb_S32_S32_0) (ix1 i))
      (fun i m => congrFun (ld2_eq x26 inb_S32x16_S32x16_0_0) (ix2 i m)) (fun i => congrFun (ld1_eq x27 inb_S16_S16_0) (ix1 i))
      (fun i => congrFun (ld2_eq x28 inb_S16x16_S16x16_0_0) (ix2 i k)) (fun i => congrFun (ld2_eq x29 inb_S16x16_S16x16_0_0) (ix2 i k))
  exact pay1_row _ _ _ _ _ _ _ a b hr (Cert.KSpec.scorepre (Cert.KSpec.kparams x2 x3 x4 x5 x6 x7 x8 x9 x10 x11 x12 x13 x14 x15 x16 x17 x18 x19 x20 x21 x22 x23 x24 x25 x26 x27 x28 x29 x30 x31) rep po) (Cert.KSpec.kparams x2 x3 x4 x5 x6 x7 x8 x9 x10 x11 x12 x13 x14 x15 x16 x17 x18 x19 x20 x21 x22 x23 x24 x25 x26 x27 x28 x29 x30 x31).gg (Cert.KSpec.kparams x2 x3 x4 x5 x6 x7 x8 x9 x10 x11 x12 x13 x14 x15 x16 x17 x18 x19 x20 x21 x22 x23 x24 x25 x26 x27 x28 x29 x30 x31).gb (Cert.KSpec.kparams x2 x3 x4 x5 x6 x7 x8 x9 x10 x11 x12 x13 x14 x15 x16 x17 x18 x19 x20 x21 x22 x23 x24 x25 x26 x27 x28 x29 x30 x31).gw2 (Cert.KSpec.kparams x2 x3 x4 x5 x6 x7 x8 x9 x10 x11 x12 x13 x14 x15 x16 x17 x18 x19 x20 x21 x22 x23 x24 x25 x26 x27 x28 x29 x30 x31).gb2
    hs (pay24_row _ _ _ _ _ _ _ _ _ _ _ 0 _ hs) (pay25_row _ _ _ _ _ _ _ _ _ _ _ 0 _ hs)
    (fun i => congrFun (ld1_eq x16 inb_S16_S16_0) (ix1 i)) (fun i => congrFun (ld1_eq x17 inb_S16_S16_0) (ix1 i))
    (fun i => congrFun (ld2_eq x30 inb_S16x1_S16x1_0_0) (ix2 i (0 : Fin 1))) (congrFun (ld1_eq x31 inb_S1_S1_0) (ix1 (0 : Fin 1)))

end Cert.KernelIdeal.KValue

end
-- ==== Proof.KPayFinal.lean ====
/-
  The stored block of one grid point as the kernel's score of its rows.

  Entry (a, b) of the block a grid point stores is the kernel's score of row 128 a + b of the point's two input blocks:
  the first four stretches of the body give the key, the query, the value and the residuals of that row, and the last
  two turn them into the score and lay the 4096 scores out as 32 rows of 128.
-/
import proofs.«104010_j23570780520494_2_alg».proof.Proof.KPayStages14
import proofs.«104010_j23570780520494_2_alg».proof.Proof.KPayG

set_option maxRecDepth 16384

noncomputable section

namespace Cert.KernelIdeal.KValue

open Cert.KernelIdeal Cert.KernelIdeal.Gen Idealize.ShloMosaic Idealize.ShloMosaic.ValueIdx
open Cert.Spec

open Cert.KernelIdeal.Frame

/-- The stored block at (a, b): the kernel's score of row 128 a + b. -/
theorem payload_apply (x0 : Vec Ideal S4096x128 .f32) (x1 : Vec Ideal S4096x8 .f32) (x2 : Vec Ideal S128x128 .bf16) (x3 : Vec Ideal S8x160 .bf16)
    (x4 : Vec Ideal S64 .f32) (x5 : Vec Ideal S64 .f32) (x6 : Vec Ideal S32 .f32) (x7 : Vec Ideal S32 .f32) (x8 : Vec Ideal S64 .f32)
    (x9 : Vec Ideal S64 .f32) (x10 : Vec Ideal S16 .f32) (x11 : Vec Ideal S16 .f32) (x12 : Vec Ideal S16 .f32) (x13 : Vec Ideal S16 .f32)
    (x14 : Vec Ideal S32 .f32) (x15 : Vec Ideal S32 .f32) (x16 : Vec Ideal S16 .f32) (x17 : Vec Ideal S16 .f32)
    (x18 : Vec Ideal S128x64 .bf16) (x19 : Vec Ideal S32x64 .bf16) (x20 : Vec Ideal S32x16 .bf16) (x21 : Vec Ideal S16 .f32)
    (x22 : Vec Ideal S32 .f32) (x23 : Vec Ideal S32 .f32) (x24 : Vec Ideal S32 .f32) (x25 : Vec Ideal S32x32 .bf16)
    (x26 : Vec Ideal S32x16 .bf16) (x27 : Vec Ideal S16 .f32) (x28 : Vec Ideal S16x16 .bf16) (x29 : Vec Ideal S16x16 .bf16)
    (x30 : Vec Ideal S16x1 .bf16) (x31 : Vec Ideal S1 .f32)
    (a : Fin 32) (b : Fin 128) :
    Cert.KernelIdeal.Frame.payload (F := Ideal) x0 x1 x2 x3 x4 x5 x6 x7 x8 x9 x10 x11 x12 x13 x14 x15 x16 x17 x18 x19 x20 x21 x22 x23 x24 x25 x26 x27 x28 x29 x30 x31 (ix2 a b)
      = Cert.KSpec.kscore (Cert.KSpec.kparams x2 x3 x4 x5 x6 x7 x8 x9 x10 x11 x12 x13 x14 x15 x16 x17 x18 x19 x20 x21 x22 x23 x24 x25 x26 x27 x28 x29 x30 x31)
          (fun k => x0 (ix2 (⟨128 * a.val + b.val, by omega⟩ : Fin 4096) k))
          (fun k => x1 (ix2 (⟨128 * a.val + b.val, by omega⟩ : Fin 4096) k)) 0 :=
  payload_of_stages x0 x1 x2 x3 x4 x5 x6 x7 x8 x9 x10 x11 x12 x13 x14 x15 x16 x17 x18 x19 x20 x21 x22 x23 x24 x25 x26 x27 x28 x29 x30 x31 a b (by omega) _ _
    (fun k => s_v85_row x0 x1 x2 x3 x4 x5 x6 x7 x8 x9 x10 x11 x12 x13 x14 x15 x16 x17 x18 x19 x20 x21 x22 x23 x24 x25 x26 x27 x28 x29 x30 x31 _ k) (fun k => s_v151_row x0 x1 x2 x3 x4 x5 x6 x7 x8 x9 x10 x11 x12 x13 x14 x15 x16 x17 x18 x19 x20 x21 x22 x23 x24 x25 x26 x27 x28 x29 x30 x31 _ k)
    (fun k => s_v156_row x0 x1 x2 x3 x4 x5 x6 x7 x8 x9 x10 x11 x12 x13 x14 x15 x16 x17 x18 x19 x20 x21 x22 x23 x24 x25 x26 x27 x28 x29 x30 x31 _ k) (fun k => s_v192_row x0 x1 x2 x3 x4 x5 x6 x7 x8 x9 x10 x11 x12 x13 x14 x15 x16 x17 x18 x19 x20 x21 x22 x23 x24 x25 x26 x27 x28 x29 x30 x31 _ k)

end Cert.KernelIdeal.KValue

end
-- ==== Proof.KWinResA.lean ====
/-
  The resident windows 2 to 11. A weight array's window has the whole array as its block and the constant index map 0:
  at every grid point the block's entry at a coordinate is the array's entry at the same coordinate. For an
  argument array that is the argument itself, since no operation before the launch writes an argument.
-/
import proofs.«104010_j23570780520494_2_alg».proof.Proof.KiHost
import proofs.«104010_j23570780520494_2_alg».proof.Proof.Fused
import proofs.«104010_j23570780520494_2_alg».proof.Proof.KWinLib

import Idealize.ShloMosaic.Lib.ValueIdx
import Idealize.ShloMosaic.Lib.Pipeline.Value

set_option maxRecDepth 16384

noncomputable section

namespace Cert.KernelIdeal.KWin

open Cert.KernelIdeal Cert.KernelIdeal.Gen Cert.KernelIdeal.Frame
open Idealize.ShloMosaic Idealize.ShloMosaic.TcCoe Idealize.ShloMosaic.ValueIdx

attribute [local congr] cat2_congr cat3_congr

variable (m : (ℓ : Loc nD τ sig) → Buf (Elt Ideal) ℓ) (c : Dev nD) (t : Fin cfg0.N)

/-- Window 2 is resident: its block index is (0, 0) at every point. -/
theorem idx_2 : ∀ t : Fin cfg0.N, win0_2.index t (0 : Fin 2) = 0 ∧ win0_2.index t (1 : Fin 2) = 0 :=
  (by decide +kernel : ∀ t : Fin grid0.N, _)
/-- Its block is its whole array. -/
theorem blk_2 (k : Fin 128) (j : Fin 128) : iblk m c 2 t (ix2 k j) = V m c main_v4 (ix2 k j) := by
  obtain ⟨e0, e1⟩ := idx_2 t
  show V m c main_v4 (((cfg0.win 2).blk t).view.emb (ix2 k j)) = _
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * j.val = j.val; omega

/-- Window 3 is resident: its block index is (0, 0) at every point. -/
theorem idx_3 : ∀ t : Fin cfg0.N, win0_3.index t (0 : Fin 2) = 0 ∧ win0_3.index t (1 : Fin 2) = 0 :=
  (by decide +kernel : ∀ t : Fin grid0.N, _)
/-- Its block is its whole array. -/
theorem blk_3 (k : Fin 8) (j : Fin 160) : iblk m c 3 t (ix2 k j) = V m c main_v13 (ix2 k j) := by
  obtain ⟨e0, e1⟩ := idx_3 t
  show V m c main_v13 (((cfg0.win 3).blk t).view.emb (ix2 k j)) = _
  refine congrArg _ (funext fun a => Fin.ext ?_)
  match a with
  | ⟨0, _⟩ => show win0_3.index t (0 : Fin 2) * 8 + 1 * k.val = k.val; omega
  | ⟨1, _⟩ => show win0_3.index t (1 : Fin 2) * 160 + 1 * j.val = j.val; omega

/-- Window 4 is resident: its block index is 0 at every point. -/
theorem idx_4 : ∀ t : Fin cfg0.N, win0_4.index t (0 : Fin 1) = 0 :=
  (by decide +kernel : ∀ t : Fin grid0.N, _)
/-- Its block is its whole array, which no operation before the launch writes. -/
theorem blk_4 (j : Fin 64) : iblk m c 4 t (ix1 j) = m ((c : Thread nD τ).loc main_arg24) (ix1 j) := by
  have e0 := idx_4 t
  show V m c main_arg24 (((cfg0.win 4).blk t).view.emb (ix1 j)) = _
  rw [V_main_arg24]
  refine congrArg _ (funext fun a => Fin.ext ?_)
  match a with
  | ⟨0, _⟩ => show win0_4.index t (0 : Fin 1) * 64 + 1 * j.val = j.val; omega

/-- Window 5 is resident: its block index is 0 at every point. -/
theorem idx_5 : ∀ t : Fin cfg0.N, win0_5.index t (0 : Fin 1) = 0 :=
  (by decide +kernel : ∀ t : Fin grid0.N, _)
/-- Its block is its whole array, which no operation before the launch writes. -/
theorem blk_5 (j : Fin 64) : iblk m c 5 t (ix1 j) = m ((c : Thread nD τ).loc main_arg25) (ix1 j) := by
  have e0 := idx_5 t
  show V m c main_arg25 (((cfg0.win 5).blk t).view.emb (ix1 j)) = _
  rw [V_main_arg25]
  refine congrArg _ (funext fun a => Fin.ext ?_)
  match a with
  | ⟨0, _⟩ => show win0_5.index t (0 : Fin 1) * 64 + 1 * j.val = j.val; omega

/-- Window 6 is resident: its block index is 0 at every point. -/
theorem idx_6 : ∀ t : Fin cfg0.N, win0_6.index t (0 : Fin 1) = 0 :=
  (by decide +kernel : ∀ t : Fin grid0.N, _)
/-- Its block is its whole array, which no operation before the launch writes. -/
theorem blk_6 (j : Fin 32) : iblk m c 6 t (ix1 j) = m ((c : Thread nD τ).loc main_arg27) (ix1 j) := by
  have e0 := idx_6 t
  show V m c main_arg27 (((cfg0.win 6).blk t).view.emb (ix1 j)) = _
  rw [V_main_arg27]
  refine congrArg _ (funext fun a => Fin.ext ?_)
  match a with
  | ⟨0, _⟩ => show win0_6.index t (0 : Fin 1) * 32 + 1 * j.val = j.val; omega

/-- Window 7 is resident: its block index is 0 at every point. -/
theorem idx_7 : ∀ t : Fin cfg0.N, win0_7.index t (0 : Fin 1) = 0 :=
  (by decide +kernel : ∀ t : Fin grid0.N, _)
/-- Its block is its whole array, which no operation before the launch writes. -/
theorem blk_7 (j : Fin 32) : iblk m c 7 t (ix1 j) = m ((c : Thread nD τ).loc main_arg28) (ix1 j) := by
  have e0 := idx_7 t
  show V m c main_arg28 (((cfg0.win 7).blk t).view.emb (ix1 j)) = _
  rw [V_main_arg28]
  refine congrArg _ (funext fun a => Fin.ext ?_)
  match a with
  | ⟨0, _⟩ => show win0_7.index t (0 : Fin 1) * 32 + 1 * j.val = j.val; omega

/-- Window 8 is resident: its block index is 0 at every point. -/
theorem idx_8 : ∀ t : Fin cfg0.N, win0_8.index t (0 : Fin 1) = 0 :=
  (by decide +kernel : ∀ t : Fin grid0.N, _)
/-- Its block is its whole array, which no operation before the launch writes. -/
theorem blk_8 (j : Fin 64) : iblk m c 8 t (ix1 j) = m ((c : Thread nD τ).loc main_arg4) (ix1 j) := by
  have e0 := idx_8 t
  show V m c main_arg4 (((cfg0.win 8).blk t).view.emb (ix1 j)) = _
  rw [V_main_arg4]
  refine congrArg _ (funext fun a => Fin.ext ?_)
  match a with
  | ⟨0, _⟩ => show win0_8.index t (0 : Fin 1) * 64 + 1 * j.val = j.val; omega

/-- Window 9 is resident: its block index is 0 at every point. -/
theorem idx_9 : ∀ t : Fin cfg0.N, win0_9.index t (0 : Fin 1) = 0 :=
  (by decide +kernel : ∀ t : Fin grid0.N, _)
/-- Its block is its whole array, which no operation before the launch writes. -/
theorem blk_9 (j : Fin 64) : iblk m c 9 t (ix1 j) = m ((c : Thread nD τ).loc main_arg5) (ix1 j) := by
  have e0 := idx_9 t
  show V m c main_arg5 (((cfg0.win 9).blk t).view.emb (ix1 j)) = _
  rw [V_main_arg5]
  refine congrArg _ (funext fun a => Fin.ext ?_)
  match a with
  | ⟨0, _⟩ => show win0_9.index t (0 : Fin 1) * 64 + 1 * j.val = j.val; omega

/-- Window 10 is resident: its block index is 0 at every point. -/
theorem idx_10 : ∀ t : Fin cfg0.N, win0_10.index t (0 : Fin 1) = 0 :=
  (by decide +kernel : ∀ t : Fin grid0.N, _)
/-- Its block is its whole array, which no operation before the launch writes. -/
theorem blk_10 (j : Fin 16) : iblk m c 10 t (ix1 j) = m ((c : Thread nD τ).loc main_arg9) (ix1 j) := by
  have e0 := idx_10 t
  show V m c main_arg9 (((cfg0.win 10).blk t).view.emb (ix1 j)) = _
  rw [V_main_arg9]
  refine congrArg _ (funext fun a => Fin.ext ?_)
  match a with
  | ⟨0, _⟩ => show win0_10.index t (0 : Fin 1) * 16 + 1 * j.val = j.val; omega

/-- Window 11 is resident: its block index is 0 at every point. -/
theorem idx_11 : ∀ t : Fin cfg0.N, win0_11.index t (0 : Fin 1) = 0 :=
  (by decide +kernel : ∀ t : Fin grid0.N, _)
/-- Its block is its whole array, which no operation before the launch writes. -/
theorem blk_11 (j : Fin 16) : iblk m c 11 t (ix1 j) = m ((c : Thread nD τ).loc main_arg10) (ix1 j) := by
  have e0 := idx_11 t
  show V m c main_arg10 (((cfg0.win 11).blk t).view.emb (ix1 j)) = _
  rw [V_main_arg10]
  refine congrArg _ (funext fun a => Fin.ext ?_)
  match a with
  | ⟨0, _⟩ => show win0_11.index t (0 : Fin 1) * 16 + 1 * j.val = j.val; omega

end Cert.KernelIdeal.KWin

end
-- ==== Proof.KWinResB.lean ====
/-
  The resident windows 12 to 21. A weight array's window has the whole array as its block and the constant index map 0:
  at every grid point the block's entry at a coordinate is the array's entry at the same coordinate. For an
  argument array that is the argument itself, since no operation before the launch writes an argument.
-/
import proofs.«104010_j23570780520494_2_alg».proof.Proof.KiHost
import proofs.«104010_j23570780520494_2_alg».proof.Proof.Fused
import proofs.«104010_j23570780520494_2_alg».proof.Proof.KWinLib

import Idealize.ShloMosaic.Lib.ValueIdx
import Idealize.ShloMosaic.Lib.Pipeline.Value

set_option maxRecDepth 16384

noncomputable section

namespace Cert.KernelIdeal.KWin

open Cert.KernelIdeal Cert.KernelIdeal.Gen Cert.KernelIdeal.Frame
open Idealize.ShloMosaic Idealize.ShloMosaic.TcCoe Idealize.ShloMosaic.ValueIdx

attribute [local congr] cat2_congr cat3_congr

variable (m : (ℓ : Loc nD τ sig) → Buf (Elt Ideal) ℓ) (c : Dev nD) (t : Fin cfg0.N)

/-- Window 12 is resident: its block index is 0 at every point. -/
theorem idx_12 : ∀ t : Fin cfg0.N, win0_12.index t (0 : Fin 1) = 0 :=
  (by decide +kernel : ∀ t : Fin grid0.N, _)
/-- Its block is its whole array, which no operation before the launch writes. -/
theorem blk_12 (j : Fin 16) : iblk m c 12 t (ix1 j) = m ((c : Thread nD τ).loc main_arg14) (ix1 j) := by
  have e0 := idx_12 t
  show V m c main_arg14 (((cfg0.win 12).blk t).view.emb (ix1 j)) = _
  rw [V_main_arg14]
  refine congrArg _ (funext fun a => Fin.ext ?_)
  match a with
  | ⟨0, _⟩ => show win0_12.index t (0 : Fin 1) * 16 + 1 * j.val = j.val; omega

/-- Window 13 is resident: its block index is 0 at every point. -/
theorem idx_13 : ∀ t : Fin cfg0.N, win0_13.index t (0 : Fin 1) = 0 :=
  (by decide +kernel : ∀ t : Fin grid0.N, _)
/-- Its block is its whole array, which no operation before the launch writes. -/
theorem blk_13 (j : Fin 16) : iblk m c 13 t (ix1 j) = m ((c : Thread nD τ).loc main_arg15) (ix1 j) := by
  have e0 := idx_13 t
  show V m c main_arg15 (((cfg0.win 13).blk t).view.emb (ix1 j)) = _
  rw [V_main_arg15]
  refine congrArg _ (funext fun a => Fin.ext ?_)
  match a with
  | ⟨0, _⟩ => show win0_13.index t (0 : Fin 1) * 16 + 1 * j.val = j.val; omega

/-- Window 14 is resident: its block index is 0 at every point. -/
theorem idx_14 : ∀ t : Fin cfg0.N, win0_14.index t (0 : Fin 1) = 0 :=
  (by decide +kernel : ∀ t : Fin grid0.N, _)
/-- Its block is its whole array, which no operation before the launch writes. -/
theorem blk_14 (j : Fin 32) : iblk m c 14 t (ix1 j) = m ((c : Thread nD τ).loc main_arg19) (ix1 j) := by
  have e0 := idx_14 t
  show V m c main_arg19 (((cfg0.win 14).blk t).view.emb (ix1 j)) = _
  rw [V_main_arg19]
  refine congrArg _ (funext fun a => Fin.ext ?_)
  match a with
  | ⟨0, _⟩ => show win0_14.index t (0 : Fin 1) * 32 + 1 * j.val = j.val; omega

/-- Window 15 is resident: its block index is 0 at every point. -/
theorem idx_15 : ∀ t : Fin cfg0.N, win0_15.index t (0 : Fin 1) = 0 :=
  (by decide +kernel : ∀ t : Fin grid0.N, _)
/-- Its block is its whole array, which no operation before the launch writes. -/
theorem blk_15 (j : Fin 32) : iblk m c 15 t (ix1 j) = m ((c : Thread nD τ).loc main_arg20) (ix1 j) := by
  have e0 := idx_15 t
  show V m c main_arg20 (((cfg0.win 15).blk t).view.emb (ix1 j)) = _
  rw [V_main_arg20]
  refine congrArg _ (funext fun a => Fin.ext ?_)
  match a with
  | ⟨0, _⟩ => show win0_15.index t (0 : Fin 1) * 32 + 1 * j.val = j.val; omega

/-- Window 16 is resident: its block index is 0 at every point. -/
theorem idx_16 : ∀ t : Fin cfg0.N, win0_16.index t (0 : Fin 1) = 0 :=
  (by decide +kernel : ∀ t : Fin grid0.N, _)
/-- Its block is its whole array, which no operation before the launch writes. -/
theorem blk_16 (j : Fin 16) : iblk m c 16 t (ix1 j) = m ((c : Thread nD τ).loc main_arg32) (ix1 j) := by
  have e0 := idx_16 t
  show V m c main_arg32 (((cfg0.win 16).blk t).view.emb (ix1 j)) = _
  rw [V_main_arg32]
  refine congrArg _ (funext fun a => Fin.ext ?_)
  match a with
  | ⟨0, _⟩ => show win0_16.index t (0 : Fin 1) * 16 + 1 * j.val = j.val; omega

/-- Window 17 is resident: its block index is 0 at every point. -/
theorem idx_17 : ∀ t : Fin cfg0.N, win0_17.index t (0 : Fin 1) = 0 :=
  (by decide +kernel : ∀ t : Fin grid0.N, _)
/-- Its block is its whole array, which no operation before the launch writes. -/
theorem blk_17 (j : Fin 16) : iblk m c 17 t (ix1 j) = m ((c : Thread nD τ).loc main_arg33) (ix1 j) := by
  have e0 := idx_17 t
  show V m c main_arg33 (((cfg0.win 17).blk t).view.emb (ix1 j)) = _
  rw [V_main_arg33]
  refine congrArg _ (funext fun a => Fin.ext ?_)
  match a with
  | ⟨0, _⟩ => show win0_17.index t (0 : Fin 1) * 16 + 1 * j.val = j.val; omega

/-- Window 18 is resident: its block index is (0, 0) at every point. -/
theorem idx_18 : ∀ t : Fin cfg0.N, win0_18.index t (0 : Fin 2) = 0 ∧ win0_18.index t (1 : Fin 2) = 0 :=
  (by decide +kernel : ∀ t : Fin grid0.N, _)
/-- Its block is its whole array. -/
theorem blk_18 (k : Fin 128) (j : Fin 64) : iblk m c 18 t (ix2 k j) = V m c main_v21 (ix2 k j) := by
  obtain ⟨e0, e1⟩ := idx_18 t
  show V m c main_v21 (((cfg0.win 18).blk t).view.emb (ix2 k j)) = _
  refine congrArg _ (funext fun a => Fin.ext ?_)
  match a with
  | ⟨0, _⟩ => show win0_18.index t (0 : Fin 2) * 128 + 1 * k.val = k.val; omega
  | ⟨1, _⟩ => show win0_18.index t (1 : Fin 2) * 64 + 1 * j.val = j.val; omega

/-- Window 19 is resident: its block index is (0, 0) at every point. -/
theorem idx_19 : ∀ t : Fin cfg0.N, win0_19.index t (0 : Fin 2) = 0 ∧ win0_19.index t (1 : Fin 2) = 0 :=
  (by decide +kernel : ∀ t : Fin grid0.N, _)
/-- Its block is its whole array. -/
theorem blk_19 (k : Fin 32) (j : Fin 64) : iblk m c 19 t (ix2 k j) = V m c main_v27 (ix2 k j) := by
  obtain ⟨e0, e1⟩ := idx_19 t
  show V m c main_v27 (((cfg0.win 19).blk t).view.emb (ix2 k j)) = _
  refine congrArg _ (funext fun a => Fin.ext ?_)
  match a with
  | ⟨0, _⟩ => show win0_19.index t (0 : Fin 2) * 32 + 1 * k.val = k.val; omega
  | ⟨1, _⟩ => show win0_19.index t (1 : Fin 2) * 64 + 1 * j.val = j.val; omega

/-- Window 20 is resident: its block index is (0, 0) at every point. -/
theorem idx_20 : ∀ t : Fin cfg0.N, win0_20.index t (0 : Fin 2) = 0 ∧ win0_20.index t (1 : Fin 2) = 0 :=
  (by decide +kernel : ∀ t : Fin grid0.N, _)
/-- Its block is its whole array. -/
theorem blk_20 (k : Fin 32) (j : Fin 16) : iblk m c 20 t (ix2 k j) = V m c main_v28 (ix2 k j) := by
  obtain ⟨e0, e1⟩ := idx_20 t
  show V m c main_v28 (((cfg0.win 20).blk t).view.emb (ix2 k j)) = _
  refine congrArg _ (funext fun a => Fin.ext ?_)
  match a with
  | ⟨0, _⟩ => show win0_20.index t (0 : Fin 2) * 32 + 1 * k.val = k.val; omega
  | ⟨1, _⟩ => show win0_20.index t (1 : Fin 2) * 16 + 1 * j.val = j.val; omega

/-- Window 21 is resident: its block index is 0 at every point. -/
theorem idx_21 : ∀ t : Fin cfg0.N, win0_21.index t (0 : Fin 1) = 0 :=
  (by decide +kernel : ∀ t : Fin grid0.N, _)
/-- Its block is its whole array, which no operation before the launch writes. -/
theorem blk_21 (j : Fin 16) : iblk m c 21 t (ix1 j) = m ((c : Thread nD τ).loc main_arg30) (ix1 j) := by
  have e0 := idx_21 t
  show V m c main_arg30 (((cfg0.win 21).blk t).view.emb (ix1 j)) = _
  rw [V_main_arg30]
  refine congrArg _ (funext fun a => Fin.ext ?_)
  match a with
  | ⟨0, _⟩ => show win0_21.index t (0 : Fin 1) * 16 + 1 * j.val = j.val; omega

end Cert.KernelIdeal.KWin

end
-- ==== Proof.KWinResC.lean ====
/-
  The resident windows 22 to 31. A weight array's window has the whole array as its block and the constant index map 0:
  at every grid point the block's entry at a coordinate is the array's entry at the same coordinate. For an
  argument array that is the argument itself, since no operation before the launch writes an argument.
-/
import proofs.«104010_j23570780520494_2_alg».proof.Proof.KiHost
import proofs.«104010_j23570780520494_2_alg».proof.Proof.Fused
import proofs.«104010_j23570780520494_2_alg».proof.Proof.KWinLib

import Idealize.ShloMosaic.Lib.ValueIdx
import Idealize.ShloMosaic.Lib.Pipeline.Value

set_option maxRecDepth 16384

noncomputable section

namespace Cert.KernelIdeal.KWin

open Cert.KernelIdeal Cert.KernelIdeal.Gen Cert.KernelIdeal.Frame
open Idealize.ShloMosaic Idealize.ShloMosaic.TcCoe Idealize.ShloMosaic.ValueIdx

attribute [local congr] cat2_congr cat3_congr

variable (m : (ℓ : Loc nD τ sig) → Buf (Elt Ideal) ℓ) (c : Dev nD) (t : Fin cfg0.N)

/-- Window 22 is resident: its block index is 0 at every point. -/
theorem idx_22 : ∀ t : Fin cfg0.N, win0_22.index t (0 : Fin 1) = 0 :=
  (by decide +kernel : ∀ t : Fin grid0.N, _)
/-- Its block is its whole array, which no operation before the launch writes. -/
theorem blk_22 (j : Fin 32) : iblk m c 22 t (ix1 j) = m ((c : Thread nD τ).loc main_arg7) (ix1 j) := by
  have e0 := idx_22 t
  show V m c main_arg7 (((cfg0.win 22).blk t).view.emb (ix1 j)) = _
  rw [V_main_arg7]
  refine congrArg _ (funext fun a => Fin.ext ?_)
  match a with
  | ⟨0, _⟩ => show win0_22.index t (0 : Fin 1) * 32 + 1 * j.val = j.val; omega

/-- Window 23 is resident: its block index is 0 at every point. -/
theorem idx_23 : ∀ t : Fin cfg0.N, win0_23.index t (0 : Fin 1) = 0 :=
  (by decide +kernel : ∀ t : Fin grid0.N, _)
/-- Its block is its whole array, which no operation before the launch writes. -/
theorem blk_23 (j : Fin 32) : iblk m c 23 t (ix1 j) = m ((c : Thread nD τ).loc main_arg12) (ix1 j) := by
  have e0 := idx_23 t
  show V m c main_arg12 (((cfg0.win 23).blk t).view.emb (ix1 j)) = _
  rw [V_main_arg12]
  refine congrArg _ (funext fun a => Fin.ext ?_)
  match a with
  | ⟨0, _⟩ => show win0_23.index t (0 : Fin 1) * 32 + 1 * j.val = j.val; omega

/-- Window 24 is resident: its block index is 0 at every point. -/
theorem idx_24 : ∀ t : Fin cfg0.N, win0_24.index t (0 : Fin 1) = 0 :=
  (by decide +kernel : ∀ t : Fin grid0.N, _)
/-- Its block is its whole array, which no operation before the launch writes. -/
theorem blk_24 (j : Fin 32) : iblk m c 24 t (ix1 j) = m ((c : Thread nD τ).loc main_arg17) (ix1 j) := by
  have e0 := idx_24 t
  show V m c main_arg17 (((cfg0.win 24).blk t).view.emb (ix1 j)) = _
  rw [V_main_arg17]
  refine congrArg _ (funext fun a => Fin.ext ?_)
  match a with
  | ⟨0, _⟩ => show win0_24.index t (0 : Fin 1) * 32 + 1 * j.val = j.val; omega

/-- Window 25 is resident: its block index is (0, 0) at every point. -/
theorem idx_25 : ∀ t : Fin cfg0.N, win0_25.index t (0 : Fin 2) = 0 ∧ win0_25.index t (1 : Fin 2) = 0 :=
  (by decide +kernel : ∀ t : Fin grid0.N, _)
/-- Its block is its whole array. -/
theorem blk_25 (k : Fin 32) (j : Fin 32) : iblk m c 25 t (ix2 k j) = V m c main_v29 (ix2 k j) := by
  obtain ⟨e0, e1⟩ := idx_25 t
  show V m c main_v29 (((cfg0.win 25).blk t).view.emb (ix2 k j)) = _
  refine congrArg _ (funext fun a => Fin.ext ?_)
  match a with
  | ⟨0, _⟩ => show win0_25.index t (0 : Fin 2) * 32 + 1 * k.val = k.val; omega
  | ⟨1, _⟩ => show win0_25.index t (1 : Fin 2) * 32 + 1 * j.val = j.val; omega

/-- Window 26 is resident: its block index is (0, 0) at every point. -/
theorem idx_26 : ∀ t : Fin cfg0.N, win0_26.index t (0 : Fin 2) = 0 ∧ win0_26.index t (1 : Fin 2) = 0 :=
  (by decide +kernel : ∀ t : Fin grid0.N, _)
/-- Its block is its whole array. -/
theorem blk_26 (k : Fin 32) (j : Fin 16) : iblk m c 26 t (ix2 k j) = V m c main_v30 (ix2 k j) := by
  obtain ⟨e0, e1⟩ := idx_26 t
  show V m c main_v30 (((cfg0.win 26).blk t).view.emb (ix2 k j)) = _
  refine congrArg _ (funext fun a => Fin.ext ?_)
  match a with
  | ⟨0, _⟩ => show win0_26.index t (0 : Fin 2) * 32 + 1 * k.val = k.val; omega
  | ⟨1, _⟩ => show win0_26.index t (1 : Fin 2) * 16 + 1 * j.val = j.val; omega

/-- Window 27 is resident: its block index is 0 at every point. -/
theorem idx_27 : ∀ t : Fin cfg0.N, win0_27.index t (0 : Fin 1) = 0 :=
  (by decide +kernel : ∀ t : Fin grid0.N, _)
/-- Its block is its whole array, which no operation before the launch writes. -/
theorem blk_27 (j : Fin 16) : iblk m c 27 t (ix1 j) = m ((c : Thread nD τ).loc main_arg22) (ix1 j) := by
  have e0 := idx_27 t
  show V m c main_arg22 (((cfg0.win 27).blk t).view.emb (ix1 j)) = _
  rw [V_main_arg22]
  refine congrArg _ (funext fun a => Fin.ext ?_)
  match a with
  | ⟨0, _⟩ => show win0_27.index t (0 : Fin 1) * 16 + 1 * j.val = j.val; omega

/-- Window 28 is resident: its block index is (0, 0) at every point. -/
theorem idx_28 : ∀ t : Fin cfg0.N, win0_28.index t (0 : Fin 2) = 0 ∧ win0_28.index t (1 : Fin 2) = 0 :=
  (by decide +kernel : ∀ t : Fin grid0.N, _)
/-- Its block is its whole array. -/
theorem blk_28 (k : Fin 16) (j : Fin 16) : iblk m c 28 t (ix2 k j) = V m c main_v32 (ix2 k j) := by
  obtain ⟨e0, e1⟩ := idx_28 t
  show V m c main_v32 (((cfg0.win 28).blk t).view.emb (ix2 k j)) = _
  refine congrArg _ (funext fun a => Fin.ext ?_)
  match a with
  | ⟨0, _⟩ => show win0_28.index t (0 : Fin 2) * 16 + 1 * k.val = k.val; omega
  | ⟨1, _⟩ => show win0_28.index t (1 : Fin 2) * 16 + 1 * j.val = j.val; omega

/-- Window 29 is resident: its block index is (0, 0) at every point. -/
theorem idx_29 : ∀ t : Fin cfg0.N, win0_29.index t (0 : Fin 2) = 0 ∧ win0_29.index t (1 : Fin 2) = 0 :=
  (by decide +kernel : ∀ t : Fin grid0.N, _)
/-- Its block is its whole array. -/
theorem blk_29 (k : Fin 16) (j : Fin 16) : iblk m c 29 t (ix2 k j) = V m c main_v34 (ix2 k j) := by
  obtain ⟨e0, e1⟩ := idx_29 t
  show V m c main_v34 (((cfg0.win 29).blk t).view.emb (ix2 k j)) = _
  refine congrArg _ (funext fun a => Fin.ext ?_)
  match a with
  | ⟨0, _⟩ => show win0_29.index t (0 : Fin 2) * 16 + 1 * k.val = k.val; omega
  | ⟨1, _⟩ => show win0_29.index t (1 : Fin 2) * 16 + 1 * j.val = j.val; omega

/-- Window 30 is resident: its block index is (0, 0) at every point. -/
theorem idx_30 : ∀ t : Fin cfg0.N, win0_30.index t (0 : Fin 2) = 0 ∧ win0_30.index t (1 : Fin 2) = 0 :=
  (by decide +kernel : ∀ t : Fin grid0.N, _)
/-- Its block is its whole array. -/
theorem blk_30 (k : Fin 16) (j : Fin 1) : iblk m c 30 t (ix2 k j) = V m c main_v35 (ix2 k j) := by
  obtain ⟨e0, e1⟩ := idx_30 t
  show V m c main_v35 (((cfg0.win 30).blk t).view.emb (ix2 k j)) = _
  refine congrArg _ (funext fun a => Fin.ext ?_)
  match a with
  | ⟨0, _⟩ => show win0_30.index t (0 : Fin 2) * 16 + 1 * k.val = k.val; omega
  | ⟨1, _⟩ => show win0_30.index t (1 : Fin 2) * 1 + 1 * j.val = j.val; omega

/-- Window 31 is resident: its block index is 0 at every point. -/
theorem idx_31 : ∀ t : Fin cfg0.N, win0_31.index t (0 : Fin 1) = 0 :=
  (by decide +kernel : ∀ t : Fin grid0.N, _)
/-- Its block is its whole array, which no operation before the launch writes. -/
theorem blk_31 (j : Fin 1) : iblk m c 31 t (ix1 j) = m ((c : Thread nD τ).loc main_arg35) (ix1 j) := by
  have e0 := idx_31 t
  show V m c main_arg35 (((cfg0.win 31).blk t).view.emb (ix1 j)) = _
  rw [V_main_arg35]
  refine congrArg _ (funext fun a => Fin.ext ?_)
  match a with
  | ⟨0, _⟩ => show win0_31.index t (0 : Fin 1) * 1 + 1 * j.val = j.val; omega

end Cert.KernelIdeal.KWin

end
-- ==== Proof.KWinP.lean ====
/-
  The network's weights as the program's arguments hold them: the thirty-three weight arrays read off core c's
  memory at the start, as plain functions of their coordinates.
-/
import proofs.«104010_j23570780520494_2_alg».proof.Proof.KiHost
import proofs.«104010_j23570780520494_2_alg».proof.Proof.Fused
import proofs.«104010_j23570780520494_2_alg».proof.Proof.KWinLib

import Idealize.ShloMosaic.Lib.ValueIdx
import Idealize.ShloMosaic.Lib.Pipeline.Value

set_option maxRecDepth 16384

noncomputable section

namespace Cert.KernelIdeal.KWin

open Cert.KernelIdeal Cert.KernelIdeal.Gen Cert.KernelIdeal.Frame
open Idealize.ShloMosaic Idealize.ShloMosaic.TcCoe Idealize.ShloMosaic.ValueIdx

attribute [local congr] cat2_congr cat3_congr

variable (m : (ℓ : Loc nD τ sig) → Buf (Elt Ideal) ℓ) (c : Dev nD) (t : Fin cfg0.N)

/-- The network's weights, read off the argument arrays as core c holds them at the start. -/
abbrev P : Cert.Spec.Params :=
  Cert.Spec.params (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))

end Cert.KernelIdeal.KWin

end
-- ==== Proof.KWinApply.lean ====
/-
  Entries of the kernel's fused weight arrays, over any argument arrays.

  The wrapper builds each fused array by slicing the first-layer matrix, joining pieces side by side or one above
  the other with blocks of zeros, and changing the float format. On the extended reals the format change is the
  identity and the zero word is 0, so an entry of a fused array is an entry of one of the network's matrices or 0,
  according to which piece the coordinates fall in.
-/
import proofs.«104010_j23570780520494_2_alg».proof.Proof.KiHost
import proofs.«104010_j23570780520494_2_alg».proof.Proof.Fused
import proofs.«104010_j23570780520494_2_alg».proof.Proof.KWinLib

import Idealize.ShloMosaic.Lib.ValueIdx
import Idealize.ShloMosaic.Lib.Pipeline.Value

set_option maxRecDepth 16384

noncomputable section

namespace Cert.KernelIdeal.KWin

open Cert.KernelIdeal Cert.KernelIdeal.Gen Cert.KernelIdeal.Frame
open Idealize.ShloMosaic Idealize.ShloMosaic.TcCoe Idealize.ShloMosaic.ValueIdx

/-! ## Entries of the fused arrays, over any argument arrays -/

/-- A broadcast of the zero word is zero everywhere. -/
theorem bcast0_apply {t : Shape} (hb : S_.BroadcastsInDim t (![] : Fin 0 → Fin t.rank)) (i : t.Idx) :
    broadcastInDim t ![] hb (constant (F := Ideal) S_ .f32 0x00000000#32) i = (0 : EReal) :=
  Ideal.ofBits_zero_f32

/-- On the extended reals a change of float format changes nothing. -/
theorem truncf_apply {s : Shape} (x : FVec Ideal s .f32) (hb : FTy.bits .bf16 < FTy.bits .f32) (i : s.Idx) :
    truncf .bf16 x hb i = x i := rfl

/-- The representation's first-layer weights [ rows 0..127 of rw1 | kw1 ] at an entry. -/
theorem wrep_apply (x23 : FVec Ideal S135x64 .f32) (x3 : FVec Ideal S128x64 .f32)
    (hs : S135x64.Slices ![0, 0] S128x64) (hc : Shape.Concatenates [S128x64, S128x64] S128x128 1)
    (hb : FTy.bits .bf16 < FTy.bits .f32) (k j : Fin 128) :
    truncf .bf16 (concatenate S128x128 1 [⟨S128x64, extractStridedSlice S128x64 ![0, 0] x23 hs⟩, ⟨S128x64, x3⟩] hc) hb (ix2 k j)
      = if h : j.val < 64 then x23 (ix2 (⟨k.val, by omega⟩ : Fin 135) (⟨j.val, h⟩ : Fin 64))
        else x3 (ix2 k (⟨j.val - 64, by omega⟩ : Fin 64)) := by
  show concatenate S128x128 1 [⟨S128x64, extractStridedSlice S128x64 ![0, 0] x23 hs⟩, ⟨S128x64, x3⟩] hc (ix2 k j) = _
  by_cases h : j.val < 64
  · rw [dif_pos h]
    refine (cat2_cols_left (extractStridedSlice S128x64 ![0, 0] x23 hs) x3 hc k j h).trans ?_
    exact extractStridedSlice_apply ![0, 0] x23 hs (ix2 k (⟨j.val, h⟩ : Fin 64)) (ix2 (⟨k.val, by omega⟩ : Fin 135) (⟨j.val, h⟩ : Fin 64))
      (fun a => match a with | ⟨0, _⟩ => by show k.val = 0 + k.val; omega | ⟨1, _⟩ => by show j.val = 0 + j.val; omega)
  · rw [dif_neg h]
    exact cat2_cols_right (extractStridedSlice S128x64 ![0, 0] x23 hs) x3 hc k j (by omega) (by omega)

/-- Rows 0..15 of the last block's first-layer weights. -/
theorem gw1a_apply (x31 : FVec Ideal S32x16 .f32) (hs : S32x16.Slices ![0, 0] S16x16) (hb : FTy.bits .bf16 < FTy.bits .f32)
    (k j : Fin 16) :
    truncf .bf16 (extractStridedSlice S16x16 ![0, 0] x31 hs) hb (ix2 k j) = x31 (ix2 (⟨k.val, by omega⟩ : Fin 32) j) :=
  extractStridedSlice_apply ![0, 0] x31 hs (ix2 k j) (ix2 (⟨k.val, by omega⟩ : Fin 32) j)
    (fun a => match a with | ⟨0, _⟩ => by show k.val = 0 + k.val; omega | ⟨1, _⟩ => by show j.val = 0 + j.val; omega)

/-- Rows 16..31 of the last block's first-layer weights. -/
theorem gw1b_apply (x31 : FVec Ideal S32x16 .f32) (hs : S32x16.Slices ![16, 0] S16x16) (hb : FTy.bits .bf16 < FTy.bits .f32)
    (k j : Fin 16) :
    truncf .bf16 (extractStridedSlice S16x16 ![16, 0] x31 hs) hb (ix2 k j) = x31 (ix2 (⟨16 + k.val, by omega⟩ : Fin 32) j) :=
  extractStridedSlice_apply ![16, 0] x31 hs (ix2 k j) (ix2 (⟨16 + k.val, by omega⟩ : Fin 32) j)
    (fun a => match a with | ⟨0, _⟩ => by show 16 + k.val = 16 + k.val; omega | ⟨1, _⟩ => by show j.val = 0 + j.val; omega)

/-- A block matrix [ X 0 ; 0 Y ] of two matrices, joined from four pieces, at an entry. -/
theorem blockdiag_apply {p q r s : Nat} (X : FVec Ideal ⟨2, ![p, r]⟩ .f32) (Y : FVec Ideal ⟨2, ![q, s]⟩ .f32)
    (hzt : S_.BroadcastsInDim (⟨2, ![p, s]⟩ : Shape) (![] : Fin 0 → Fin 2))
    (hzb : S_.BroadcastsInDim (⟨2, ![q, r]⟩ : Shape) (![] : Fin 0 → Fin 2))
    {P' Q' : Nat}
    (ht : Shape.Concatenates [⟨2, ![p, r]⟩, ⟨2, ![p, s]⟩] ⟨2, ![p, Q']⟩ 1)
    (hbt : Shape.Concatenates [⟨2, ![q, r]⟩, ⟨2, ![q, s]⟩] ⟨2, ![q, Q']⟩ 1)
    (hv : Shape.Concatenates [⟨2, ![p, Q']⟩, ⟨2, ![q, Q']⟩] ⟨2, ![P', Q']⟩ 0)
    (hb : FTy.bits .bf16 < FTy.bits .f32) (k : Fin P') (j : Fin Q') (hP : P' = p + q) (hQ : Q' = r + s) :
    truncf .bf16 (concatenate (⟨2, ![P', Q']⟩ : Shape) 0
        [⟨⟨2, ![p, Q']⟩, concatenate (⟨2, ![p, Q']⟩ : Shape) 1
            [⟨⟨2, ![p, r]⟩, X⟩, ⟨⟨2, ![p, s]⟩, broadcastInDim (⟨2, ![p, s]⟩ : Shape) ![] hzt (constant (F := Ideal) S_ .f32 0x00000000#32)⟩] ht⟩,
         ⟨⟨2, ![q, Q']⟩, concatenate (⟨2, ![q, Q']⟩ : Shape) 1
            [⟨⟨2, ![q, r]⟩, broadcastInDim (⟨2, ![q, r]⟩ : Shape) ![] hzb (constant (F := Ideal) S_ .f32 0x00000000#32)⟩, ⟨⟨2, ![q, s]⟩, Y⟩] hbt⟩] hv) hb (ix2 k j)
      = if hk : k.val < p then (if h : j.val < r then X (ix2 ⟨k.val, hk⟩ ⟨j.val, h⟩) else 0)
        else (if h : j.val < r then 0 else Y (ix2 ⟨k.val - p, by omega⟩ ⟨j.val - r, by omega⟩)) := by
  refine (truncf_apply _ hb _).trans ?_
  by_cases hk : k.val < p
  · rw [dif_pos hk]
    refine (cat2_rows_top _ _ hv k j hk).trans ?_
    by_cases h : j.val < r
    · rw [dif_pos h]; exact cat2_cols_left X _ ht ⟨k.val, hk⟩ j h
    · rw [dif_neg h]
      refine (cat2_cols_right X _ ht ⟨k.val, hk⟩ j (by omega) (by omega)).trans ?_
      exact bcast0_apply hzt _
  · rw [dif_neg hk]
    refine (cat2_rows_bottom _ _ hv k j (by omega) (by omega)).trans ?_
    by_cases h : j.val < r
    · rw [dif_pos h]
      refine (cat2_cols_left _ Y hbt ⟨k.val - p, by omega⟩ j h).trans ?_
      exact bcast0_apply hzb _
    · rw [dif_neg h]; exact cat2_cols_right _ Y hbt ⟨k.val - p, by omega⟩ j (by omega) (by omega)

/-- The pose-and-opening first-layer weights at an entry: rows 0..5 are [ rows 128..133 of rw1 | qw1 | 0 ], row 6 is
    [ 0 | row 134 of rw1 | vw1 ], row 7 is zero. -/
theorem wcomb_apply (x23 : FVec Ideal S135x64 .f32) (x8 : FVec Ideal S6x16 .f32) (x13 : FVec Ideal S1x16 .f32)
    (hs1 : S135x64.Slices ![128, 0] S6x64) (hs2 : S135x64.Slices ![134, 0] S1x64)
    (h5 : Shape.Concatenates [S6x64, S6x16] S6x80 1) (h6 : Shape.Concatenates [S1x64, S1x16] S1x80 1)
    (hz7 : S_.BroadcastsInDim S6x80 (![] : Fin 0 → Fin S6x80.rank)) (h8 : Shape.Concatenates [S6x80, S6x80] S6x160 1)
    (hz9 : S_.BroadcastsInDim S1x80 (![] : Fin 0 → Fin S1x80.rank)) (h10 : Shape.Concatenates [S1x80, S1x80] S1x160 1)
    (hz11 : S_.BroadcastsInDim S1x160 (![] : Fin 0 → Fin S1x160.rank))
    (h12 : Shape.Concatenates [S6x160, S1x160, S1x160] S8x160 0) (hb : FTy.bits .bf16 < FTy.bits .f32)
    (k : Fin 8) (j : Fin 160) :
    truncf .bf16 (concatenate S8x160 0
        [⟨S6x160, concatenate S6x160 1
            [⟨S6x80, concatenate S6x80 1 [⟨S6x64, extractStridedSlice S6x64 ![128, 0] x23 hs1⟩, ⟨S6x16, x8⟩] h5⟩,
             ⟨S6x80, broadcastInDim S6x80 ![] hz7 (constant (F := Ideal) S_ .f32 0x00000000#32)⟩] h8⟩,
         ⟨S1x160, concatenate S1x160 1
            [⟨S1x80, broadcastInDim S1x80 ![] hz9 (constant (F := Ideal) S_ .f32 0x00000000#32)⟩,
             ⟨S1x80, concatenate S1x80 1 [⟨S1x64, extractStridedSlice S1x64 ![134, 0] x23 hs2⟩, ⟨S1x16, x13⟩] h6⟩] h10⟩,
         ⟨S1x160, broadcastInDim S1x160 ![] hz11 (constant (F := Ideal) S_ .f32 0x00000000#32)⟩] h12) hb (ix2 k j)
      = if hk : k.val < 6 then
          (if h : j.val < 64 then x23 (ix2 (⟨128 + k.val, by omega⟩ : Fin 135) (⟨j.val, h⟩ : Fin 64))
           else if h' : j.val < 80 then x8 (ix2 (⟨k.val, hk⟩ : Fin 6) (⟨j.val - 64, by omega⟩ : Fin 16)) else 0)
        else if k.val < 7 then
          (if j.val < 80 then 0
           else if h' : j.val < 144 then x23 (ix2 (⟨134, by omega⟩ : Fin 135) (⟨j.val - 80, by omega⟩ : Fin 64))
           else x13 (ix2 (0 : Fin 1) (⟨j.val - 144, by have := j.isLt; omega⟩ : Fin 16)))
        else 0 := by
  have hj := j.isLt
  have hk8 := k.isLt
  refine (truncf_apply _ hb _).trans ?_
  by_cases hk : k.val < 6
  · rw [dif_pos hk]
    refine (cat3_rows_fst _ _ _ h12 k j hk).trans ?_
    by_cases h : j.val < 64
    · rw [dif_pos h]
      refine (cat2_cols_left _ _ h8 ⟨k.val, hk⟩ j (by omega)).trans ?_
      refine (cat2_cols_left _ x8 h5 ⟨k.val, hk⟩ ⟨j.val, by omega⟩ h).trans ?_
      exact extractStridedSlice_apply ![128, 0] x23 hs1 (ix2 (⟨k.val, hk⟩ : Fin 6) (⟨j.val, h⟩ : Fin 64))
        (ix2 (⟨128 + k.val, by omega⟩ : Fin 135) (⟨j.val, h⟩ : Fin 64))
        (fun a => match a with | ⟨0, _⟩ => by show 128 + k.val = 128 + k.val; omega | ⟨1, _⟩ => by show j.val = 0 + j.val; omega)
    · rw [dif_neg h]
      by_cases h' : j.val < 80
      · rw [dif_pos h']
        refine (cat2_cols_left _ _ h8 ⟨k.val, hk⟩ j h').trans ?_
        exact cat2_cols_right _ x8 h5 ⟨k.val, hk⟩ ⟨j.val, h'⟩ (by show 64 ≤ j.val; omega) (by show j.val - 64 < 16; omega)
      · rw [dif_neg h']
        refine (cat2_cols_right _ _ h8 ⟨k.val, hk⟩ j (by omega) (by omega)).trans ?_
        exact bcast0_apply hz7 _
  · rw [dif_neg hk]
    by_cases h7 : k.val < 7
    · rw [if_pos h7]
      refine (cat3_rows_snd _ _ _ h12 k j (by omega) (by omega)).trans ?_
      by_cases h : j.val < 80
      · rw [if_pos h]
        refine (cat2_cols_left _ _ h10 _ j h).trans ?_
        exact bcast0_apply hz9 _
      · rw [if_neg h]
        refine (cat2_cols_right _ _ h10 _ j (by omega) (by omega)).trans ?_
        by_cases h' : j.val < 144
        · rw [dif_pos h']
          refine (cat2_cols_left _ x13 h6 _ ⟨j.val - 80, by omega⟩ (by show j.val - 80 < 64; omega)).trans ?_
          exact extractStridedSlice_apply ![134, 0] x23 hs2 _
            (ix2 (⟨134, by omega⟩ : Fin 135) (⟨j.val - 80, by omega⟩ : Fin 64))
            (fun a => match a with
              | ⟨0, _⟩ => by show 134 = 134 + (k.val - 6); omega
              | ⟨1, _⟩ => by show j.val - 80 = 0 + (j.val - 80); omega)
        · rw [dif_neg h']
          refine (cat2_cols_right _ x13 h6 _ ⟨j.val - 80, by omega⟩ (by show 64 ≤ j.val - 80; omega)
            (by show j.val - 80 - 64 < 16; omega)).trans ?_
          exact congrArg x13 (funext fun d => match d with
            | ⟨0, _⟩ => Fin.ext (by show k.val - 6 = 0; omega)
            | ⟨1, _⟩ => Fin.ext (by show j.val - 80 - 64 = j.val - 144; omega))
    · rw [if_neg h7]
      refine (cat3_rows_trd _ _ _ h12 k j (by omega) (by omega)).trans ?_
      exact bcast0_apply hz11 _

end Cert.KernelIdeal.KWin

end
-- ==== Proof.KWinRdA.lean ====
/-
  The four fused weight arrays as the launch finds them. Each is what the operations before the launch leave in its
  buffer: slices of the first-layer matrix, joins with blocks of zeros, a change of float format. Read at an entry it
  is the fused weight built from the network's weights.
-/
import proofs.«104010_j23570780520494_2_alg».proof.Proof.KiHost
import proofs.«104010_j23570780520494_2_alg».proof.Proof.Fused
import proofs.«104010_j23570780520494_2_alg».proof.Proof.KWinLib
import proofs.«104010_j23570780520494_2_alg».proof.Proof.KWinP
import proofs.«104010_j23570780520494_2_alg».proof.Proof.KWinApply
import Idealize.ShloMosaic.Lib.ValueIdx
import Idealize.ShloMosaic.Lib.Pipeline.Value

set_option maxRecDepth 16384

noncomputable section

namespace Cert.KernelIdeal.KWin

open Cert.KernelIdeal Cert.KernelIdeal.Gen Cert.KernelIdeal.Frame
open Idealize.ShloMosaic Idealize.ShloMosaic.TcCoe Idealize.ShloMosaic.ValueIdx

attribute [local congr] cat2_congr cat3_congr

variable (m : (ℓ : Loc nD τ sig) → Buf (Elt Ideal) ℓ) (c : Dev nD) (t : Fin cfg0.N)

/-- The representation's fused first-layer weights, as the launch finds them. -/
theorem read_wrep (k : Fin 128) (j : Fin 128) :
    V m c main_v4 (ix2 k j) = (Cert.Fused.fuse (P m c)).wrep k j := by
  dsimp only [V, V0]
  simp only [hostOps0, List.flatten_cons, List.flatten_nil, List.append_nil, List.cons_append, List.nil_append]
  host_read
  exact wrep_apply _ _ _ _ _ k j

/-- The pose-and-opening fused first-layer weights, as the launch finds them. -/
theorem read_wcomb (k : Fin 8) (j : Fin 160) :
    V m c main_v13 (ix2 k j) = (Cert.Fused.fuse (P m c)).wcomb k j := by
  dsimp only [V, V0]
  simp only [hostOps0, List.flatten_cons, List.flatten_nil, List.append_nil, List.cons_append, List.nil_append]
  host_read
  exact wcomb_apply _ _ _ _ _ _ _ _ _ _ _ _ _ _ k j

/-- The block matrix of the residual branch's and the key's second layers, as the launch finds it. -/
theorem read_rw2kw2 (k : Fin 128) (j : Fin 64) :
    V m c main_v21 (ix2 k j) = (Cert.Fused.fuse (P m c)).rw2kw2 k j := by
  dsimp only [V, V0]
  simp only [hostOps0, List.flatten_cons, List.flatten_nil, List.append_nil, List.cons_append, List.nil_append]
  host_read
  exact blockdiag_apply _ _ _ _ _ _ _ _ k j rfl rfl

/-- The block matrix of the query's and the value's second layers, as the launch finds it. -/
theorem read_qw2vw2 (k : Fin 32) (j : Fin 64) :
    V m c main_v27 (ix2 k j) = (Cert.Fused.fuse (P m c)).qw2vw2 k j := by
  dsimp only [V, V0]
  simp only [hostOps0, List.flatten_cons, List.flatten_nil, List.append_nil, List.cons_append, List.nil_append]
  host_read
  exact blockdiag_apply _ _ _ _ _ _ _ _ k j rfl rfl

end Cert.KernelIdeal.KWin

end
-- ==== Proof.KWinRdB.lean ====
/-
  The six re-formatted weight arrays as the launch finds them: four weight matrices whose float format the wrapper
  changes, and the two halves of the last block's first-layer matrix. Read at an entry each is the network's weight.
-/
import proofs.«104010_j23570780520494_2_alg».proof.Proof.KiHost
import proofs.«104010_j23570780520494_2_alg».proof.Proof.Fused
import proofs.«104010_j23570780520494_2_alg».proof.Proof.KWinLib
import proofs.«104010_j23570780520494_2_alg».proof.Proof.KWinP
import proofs.«104010_j23570780520494_2_alg».proof.Proof.KWinApply
import Idealize.ShloMosaic.Lib.ValueIdx
import Idealize.ShloMosaic.Lib.Pipeline.Value

set_option maxRecDepth 16384

noncomputable section

namespace Cert.KernelIdeal.KWin

open Cert.KernelIdeal Cert.KernelIdeal.Gen Cert.KernelIdeal.Frame
open Idealize.ShloMosaic Idealize.ShloMosaic.TcCoe Idealize.ShloMosaic.ValueIdx

attribute [local congr] cat2_congr cat3_congr

variable (m : (ℓ : Loc nD τ sig) → Buf (Elt Ideal) ℓ) (c : Dev nD) (t : Fin cfg0.N)

/-- The residual branch's third-layer weights, as the launch finds them. -/
theorem read_rw3 (k : Fin 32) (j : Fin 16) :
    V m c main_v28 (ix2 k j) = (Cert.Fused.fuse (P m c)).rw3 k j := by
  dsimp only [V, V0]
  simp only [hostOps0, List.flatten_cons, List.flatten_nil, List.append_nil, List.cons_append, List.nil_append]
  host_read
  exact truncf_apply _ _ _

/-- The attention head's first-layer weights, as the launch finds them. -/
theorem read_aw1 (k : Fin 32) (j : Fin 32) :
    V m c main_v29 (ix2 k j) = (Cert.Fused.fuse (P m c)).aw1 k j := by
  dsimp only [V, V0]
  simp only [hostOps0, List.flatten_cons, List.flatten_nil, List.append_nil, List.cons_append, List.nil_append]
  host_read
  exact truncf_apply _ _ _

/-- The attention head's second-layer weights, as the launch finds them. -/
theorem read_aw2 (k : Fin 32) (j : Fin 16) :
    V m c main_v30 (ix2 k j) = (Cert.Fused.fuse (P m c)).aw2 k j := by
  dsimp only [V, V0]
  simp only [hostOps0, List.flatten_cons, List.flatten_nil, List.append_nil, List.cons_append, List.nil_append]
  host_read
  exact truncf_apply _ _ _

/-- Rows 0..15 of the last block's first-layer weights, as the launch finds them. -/
theorem read_gw1a (k : Fin 16) (j : Fin 16) :
    V m c main_v32 (ix2 k j) = (Cert.Fused.fuse (P m c)).gw1a k j := by
  dsimp only [V, V0]
  simp only [hostOps0, List.flatten_cons, List.flatten_nil, List.append_nil, List.cons_append, List.nil_append]
  host_read
  exact gw1a_apply _ _ _ k j

/-- Rows 16..31 of the last block's first-layer weights, as the launch finds them. -/
theorem read_gw1b (k : Fin 16) (j : Fin 16) :
    V m c main_v34 (ix2 k j) = (Cert.Fused.fuse (P m c)).gw1b k j := by
  dsimp only [V, V0]
  simp only [hostOps0, List.flatten_cons, List.flatten_nil, List.append_nil, List.cons_append, List.nil_append]
  host_read
  exact gw1b_apply _ _ _ k j

/-- The last block's second-layer weights, as the launch finds them. -/
theorem read_gw2 (k : Fin 16) (j : Fin 1) :
    V m c main_v35 (ix2 k j) = (Cert.Fused.fuse (P m c)).gw2 k j := by
  dsimp only [V, V0]
  simp only [hostOps0, List.flatten_cons, List.flatten_nil, List.append_nil, List.cons_append, List.nil_append]
  host_read
  exact truncf_apply _ _ _

end Cert.KernelIdeal.KWin

end
-- ==== Proof.KWinAll.lean ====
/-
  The kernel's weight blocks are the fused weights. Every weight window is resident, so at any grid point its block
  is its whole array; an argument array is as it was at the start, and a fused or re-formatted array is what the
  operations before the launch built from the arguments. Field by field the kernel's thirty weight blocks are
  therefore the fused weights of the network's weights.
-/
import proofs.«104010_j23570780520494_2_alg».proof.Proof.KiHost
import proofs.«104010_j23570780520494_2_alg».proof.Proof.Fused
import proofs.«104010_j23570780520494_2_alg».proof.Proof.KWinLib
import proofs.«104010_j23570780520494_2_alg».proof.Proof.KWinResA
import proofs.«104010_j23570780520494_2_alg».proof.Proof.KWinResB
import proofs.«104010_j23570780520494_2_alg».proof.Proof.KWinResC
import proofs.«104010_j23570780520494_2_alg».proof.Proof.KWinRdA
import proofs.«104010_j23570780520494_2_alg».proof.Proof.KWinRdB
import Idealize.ShloMosaic.Lib.ValueIdx
import Idealize.ShloMosaic.Lib.Pipeline.Value

set_option maxRecDepth 16384

noncomputable section

namespace Cert.KernelIdeal.KWin

open Cert.KernelIdeal Cert.KernelIdeal.Gen Cert.KernelIdeal.Frame
open Idealize.ShloMosaic Idealize.ShloMosaic.TcCoe Idealize.ShloMosaic.ValueIdx

attribute [local congr] cat2_congr cat3_congr

variable (m : (ℓ : Loc nD τ sig) → Buf (Elt Ideal) ℓ) (c : Dev nD) (t : Fin cfg0.N)

/-- The kernel's thirty weight blocks at any grid point are the fused weights built from the network's. -/
theorem kparams_blocks :
    Cert.KSpec.kparams (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t)
      = Cert.Fused.fuse (Cert.Spec.params (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))) := by
  show _ = Cert.Fused.fuse (P m c)
  unfold Cert.KSpec.kparams Cert.Fused.fuse
  simp only [Cert.KSpec.KParams.mk.injEq]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩
  · funext k j; exact (blk_2 m c t k j).trans (read_wrep m c k j)
  · funext k j; exact (blk_3 m c t k j).trans (read_wcomb m c k j)
  · funext j; exact blk_4 m c t j
  · funext j; exact blk_5 m c t j
  · funext j; exact blk_6 m c t j
  · funext j; exact blk_7 m c t j
  · funext j; exact blk_8 m c t j
  · funext j; exact blk_9 m c t j
  · funext j; exact blk_10 m c t j
  · funext j; exact blk_11 m c t j
  · funext j; exact blk_12 m c t j
  · funext j; exact blk_13 m c t j
  · funext j; exact blk_14 m c t j
  · funext j; exact blk_15 m c t j
  · funext j; exact blk_16 m c t j
  · funext j; exact blk_17 m c t j
  · funext k j; exact (blk_18 m c t k j).trans (read_rw2kw2 m c k j)
  · funext k j; exact (blk_19 m c t k j).trans (read_qw2vw2 m c k j)
  · funext k j; exact (blk_20 m c t k j).trans (read_rw3 m c k j)
  · funext j; exact blk_21 m c t j
  · funext j; exact blk_22 m c t j
  · funext j; exact blk_23 m c t j
  · funext j; exact blk_24 m c t j
  · funext k j; exact (blk_25 m c t k j).trans (read_aw1 m c k j)
  · funext k j; exact (blk_26 m c t k j).trans (read_aw2 m c k j)
  · funext j; exact blk_27 m c t j
  · funext k j; exact (blk_28 m c t k j).trans (read_gw1a m c k j)
  · funext k j; exact (blk_29 m c t k j).trans (read_gw1b m c k j)
  · funext k j; exact (blk_30 m c t k j).trans (read_gw2 m c k j)
  · funext j; exact blk_31 m c t j

end Cert.KernelIdeal.KWin

end
-- ==== Proof.KWinRep.lean ====
/-
  The representation window's block. Window 0 tiles the 524288 x 128 representation array by rows, 4096 rows to a
  grid point: at point t its block's row r is the array's row 4096 t + r, and no operation before the launch writes
  that array.
-/
import proofs.«104010_j23570780520494_2_alg».proof.Proof.KiHost
import proofs.«104010_j23570780520494_2_alg».proof.Proof.Fused
import proofs.«104010_j23570780520494_2_alg».proof.Proof.KWinLib

import Idealize.ShloMosaic.Lib.ValueIdx
import Idealize.ShloMosaic.Lib.Pipeline.Value

set_option maxRecDepth 16384

noncomputable section

namespace Cert.KernelIdeal.KWin

open Cert.KernelIdeal Cert.KernelIdeal.Gen Cert.KernelIdeal.Frame
open Idealize.ShloMosaic Idealize.ShloMosaic.TcCoe Idealize.ShloMosaic.ValueIdx

attribute [local congr] cat2_congr cat3_congr

variable (m : (ℓ : Loc nD τ sig) → Buf (Elt Ideal) ℓ) (c : Dev nD) (t : Fin cfg0.N)

/-- The representation window's block index at point t is (t, 0). -/
theorem idx_rep : ∀ t : Fin cfg0.N, win0_0.index t (0 : Fin 2) = t.val ∧ win0_0.index t (1 : Fin 2) = 0 :=
  (by decide +kernel : ∀ t : Fin grid0.N, _)

/-- Row r of the representation block at point t is row 4096 t + r of the representation. -/
theorem rep_block (r : Fin 4096) (k : Fin 128) :
    iblk m c 0 t (ValueIdx.ix2 r k)
      = Cert.Spec.repRow (m ((c : Thread nD τ).loc main_arg0))
          ⟨4096 * t.val + r.val, by have := t.isLt; have h : cfg0.N = 128 := N_0; omega⟩ k := by
  obtain ⟨e0, e1⟩ := idx_rep t
  show V m c main_arg0 (((cfg0.win 0).blk t).view.emb (ix2 r k)) = _
  rw [V_main_arg0]
  unfold Cert.Spec.repRow
  refine congrArg _ (funext fun a => Fin.ext ?_)
  match a with
  | ⟨0, _⟩ => show win0_0.index t (0 : Fin 2) * 4096 + 1 * r.val = 4096 * t.val + r.val; omega
  | ⟨1, _⟩ => show win0_0.index t (1 : Fin 2) * 128 + 1 * k.val = k.val; omega

end Cert.KernelIdeal.KWin

end
-- ==== Proof.KWinPo.lean ====
/-
  The pose-and-opening window's block. Before the launch the six pose columns, the opening column and a column of
  zeros are joined into one 524288 x 8 array; window 1 tiles it by rows, 4096 rows to a grid point. So at point t its
  block's row r holds the pose of row 4096 t + r, that row's opening, and a zero.
-/
import proofs.«104010_j23570780520494_2_alg».proof.Proof.KiHost
import proofs.«104010_j23570780520494_2_alg».proof.Proof.Fused
import proofs.«104010_j23570780520494_2_alg».proof.Proof.KWinLib

import Idealize.ShloMosaic.Lib.ValueIdx
import Idealize.ShloMosaic.Lib.Pipeline.Value

set_option maxRecDepth 16384

noncomputable section

namespace Cert.KernelIdeal.KWin

open Cert.KernelIdeal Cert.KernelIdeal.Gen Cert.KernelIdeal.Frame
open Idealize.ShloMosaic Idealize.ShloMosaic.TcCoe Idealize.ShloMosaic.ValueIdx

attribute [local congr] cat2_congr cat3_congr

variable (m : (ℓ : Loc nD τ sig) → Buf (Elt Ideal) ℓ) (c : Dev nD) (t : Fin cfg0.N)

/-- The joined array: pose, opening and a zero column side by side. -/
theorem V_po : (V m c main_v15 : S524288x8.Idx → EReal)
    = concatenate S524288x8 1
        [⟨S524288x6, m ((c : Thread nD τ).loc main_arg1)⟩, ⟨S524288x1, m ((c : Thread nD τ).loc main_arg2)⟩,
          ⟨S524288x1, broadcastInDim S524288x1 ![] bcast_S_S524288x1 (constant (F := Ideal) S_ .f32 0x00000000#32)⟩]
        concatenates_S524288x6_S524288x1_S524288x1_S524288x8_d1 := by
  dsimp only [V, V0]
  simp only [hostOps0, List.flatten_cons, List.flatten_nil, List.append_nil, List.cons_append, List.nil_append]
  host_read

/-- The joined array at an entry. -/
theorem po_apply (x1 : FVec Ideal S524288x6 .f32) (x2 : FVec Ideal S524288x1 .f32)
    (h : Shape.Concatenates [S524288x6, S524288x1, S524288x1] S524288x8 1) (hb : S_.BroadcastsInDim S524288x1 ![])
    (n : Fin 524288) (k : Fin 8) :
    concatenate S524288x8 1
        [⟨S524288x6, x1⟩, ⟨S524288x1, x2⟩,
          ⟨S524288x1, broadcastInDim S524288x1 ![] hb (constant (F := Ideal) S_ .f32 0x00000000#32)⟩] h (ix2 n k)
      = Cert.Fused.poRow (Cert.Spec.poseRow x1 n) (Cert.Spec.openingRow x2 n) k := by
  unfold Cert.Fused.poRow Cert.Spec.poseRow Cert.Spec.openingRow
  by_cases h6 : k.val < 6
  · rw [dif_pos h6]
    exact cat3_cols_fst x1 x2 _ h n k h6
  · rw [dif_neg h6]
    by_cases h7 : k.val < 7
    · rw [if_pos h7]
      refine (cat3_cols_snd x1 x2 _ h n k (by omega) (by omega)).trans ?_
      exact congrArg x2 (funext fun d => match d with | ⟨0, _⟩ => rfl | ⟨1, _⟩ => Fin.ext (by show k.val - 6 = 0; omega))
    · rw [if_neg h7]
      refine (cat3_cols_trd x1 x2 _ h n k (by omega) (by have := k.isLt; omega)).trans ?_
      exact Ideal.ofBits_zero_f32

/-- The pose-and-opening window's block index at point t is (t, 0). -/
theorem idx_po : ∀ t : Fin cfg0.N, win0_1.index t (0 : Fin 2) = t.val ∧ win0_1.index t (1 : Fin 2) = 0 :=
  (by decide +kernel : ∀ t : Fin grid0.N, _)

/-- Row r of the pose-and-opening block at point t: the pose of row 4096 t + r, its opening, a zero. -/
theorem po_block (r : Fin 4096) (k : Fin 8) :
    iblk m c 1 t (ValueIdx.ix2 r k)
      = Cert.Fused.poRow
          (Cert.Spec.poseRow (m ((c : Thread nD τ).loc main_arg1))
            ⟨4096 * t.val + r.val, by have := t.isLt; have h : cfg0.N = 128 := N_0; omega⟩)
          (Cert.Spec.openingRow (m ((c : Thread nD τ).loc main_arg2))
            ⟨4096 * t.val + r.val, by have := t.isLt; have h : cfg0.N = 128 := N_0; omega⟩) k := by
  obtain ⟨e0, e1⟩ := idx_po t
  have hN : cfg0.N = 128 := N_0
  have ht := t.isLt
  have hemb : ((cfg0.win 1).blk t).view.emb (ix2 r k) = ix2 (⟨4096 * t.val + r.val, by omega⟩ : Fin 524288) k := by
    funext a; apply Fin.ext
    match a with
    | ⟨0, _⟩ => show win0_1.index t (0 : Fin 2) * 4096 + 1 * r.val = 4096 * t.val + r.val; omega
    | ⟨1, _⟩ => show win0_1.index t (1 : Fin 2) * 8 + 1 * k.val = k.val; omega
  show V m c main_v15 (((cfg0.win 1).blk t).view.emb (ix2 r k)) = _
  rw [hemb, V_po]
  exact po_apply _ _ _ _ _ k

end Cert.KernelIdeal.KWin

end
-- ==== Proof.RefAttr.lean ====
/-
  Two named sets of rewriting rules for reading the reference: the index functions evaluated at coordinates, and
  the reading lemmas of the operations inside a stage.
-/
import Mathlib.Tactic.Attr.Register

/-- An index function of the reference evaluated at an index given by coordinates. -/
register_simp_attr ref_idx

/-- An operation inside a stage read from its operands. -/
register_simp_attr ref_read
-- ==== Proof.RefIdx.lean ====
/-
  The index functions of the reference's operations, evaluated: each layout operation reads its operand at an index
  computed from the result's index, and at a result index given by its coordinates that index is again one given by
  coordinates (the row stays the row; a broadcast axis reads coordinate 0; a contraction or a sum reads its running
  coordinate). One equation per index function, all by cases on the axis. Then the list of the reading lemmas of the
  operations that lie inside a stage of the network.
-/
import proofs.«104010_j23570780520494_2_alg».proof.Proof.RefReadP
import proofs.«104010_j23570780520494_2_alg».proof.Proof.RefAttr

namespace Cert.RefValue

open Cert.ReferenceIdeal Cert.ReferenceIdeal.Read Idealize.ShloMosaic Idealize.ShloMosaic.ValueIdx

@[ref_idx] theorem lidx_main_v1_ix (c0 : Fin 524288) (c1 : Fin 64) (k : Fin 135) :
    lidx_main_v1 (ix2 c0 c1) k = (ix2 c0 k : (⟨2, ![524288, 135]⟩ : Shape).Idx) := funext fun a => Fin.ext (by match a with | ⟨0, _⟩ => rfl | ⟨1, _⟩ => rfl)
@[ref_idx] theorem ridx_main_v1_ix (c0 : Fin 524288) (c1 : Fin 64) (k : Fin 135) :
    ridx_main_v1 (ix2 c0 c1) k = (ix2 k c1 : (⟨2, ![135, 64]⟩ : Shape).Idx) := funext fun a => Fin.ext (by match a with | ⟨0, _⟩ => rfl | ⟨1, _⟩ => rfl)
@[ref_idx] theorem idx_main_v2_ix (c0 : Fin 524288) (k : Fin 64) :
    idx_main_v2 (ix1 c0) k = (ix2 c0 k : (⟨2, ![524288, 64]⟩ : Shape).Idx) := funext fun a => Fin.ext (by match a with | ⟨0, _⟩ => rfl | ⟨1, _⟩ => rfl)
@[ref_idx] theorem idx_main_v3_ix (c0 : Fin 524288) (c1 : Fin 1) :
    idx_main_v3 (ix2 c0 c1) = (ix1 c0 : (⟨1, ![524288]⟩ : Shape).Idx) := funext fun a => Fin.ext (by match a with | ⟨0, _⟩ => rfl)
@[ref_idx] theorem idx_main_v4_ix (c0 : Fin 524288) (c1 : Fin 1) :
    idx_main_v4 (ix2 c0 c1) = (ix0 : (⟨0, ![]⟩ : Shape).Idx) := funext fun a => a.elim0
@[ref_idx] theorem idx_main_v6_ix (c0 : Fin 524288) (c1 : Fin 64) :
    idx_main_v6 (ix2 c0 c1) = (ix2 c0 (0 : Fin 1) : (⟨2, ![524288, 1]⟩ : Shape).Idx) := funext fun a => Fin.ext (by match a with | ⟨0, _⟩ => rfl | ⟨1, _⟩ => rfl)
@[ref_idx] theorem idx_main_v9_ix (c0 : Fin 524288) (k : Fin 64) :
    idx_main_v9 (ix1 c0) k = (ix2 c0 k : (⟨2, ![524288, 64]⟩ : Shape).Idx) := funext fun a => Fin.ext (by match a with | ⟨0, _⟩ => rfl | ⟨1, _⟩ => rfl)
@[ref_idx] theorem idx_main_v10_ix (c0 : Fin 524288) (c1 : Fin 1) :
    idx_main_v10 (ix2 c0 c1) = (ix1 c0 : (⟨1, ![524288]⟩ : Shape).Idx) := funext fun a => Fin.ext (by match a with | ⟨0, _⟩ => rfl)
@[ref_idx] theorem idx_main_v11_ix (c0 : Fin 524288) (c1 : Fin 1) :
    idx_main_v11 (ix2 c0 c1) = (ix0 : (⟨0, ![]⟩ : Shape).Idx) := funext fun a => a.elim0
@[ref_idx] theorem idx_main_v13_ix (c0 : Fin 524288) (c1 : Fin 64) :
    idx_main_v13 (ix2 c0 c1) = (ix2 c0 (0 : Fin 1) : (⟨2, ![524288, 1]⟩ : Shape).Idx) := funext fun a => Fin.ext (by match a with | ⟨0, _⟩ => rfl | ⟨1, _⟩ => rfl)
@[ref_idx] theorem idx_main_v15_ix (c0 : Fin 524288) (c1 : Fin 1) :
    idx_main_v15 (ix2 c0 c1) = (ix0 : (⟨0, ![]⟩ : Shape).Idx) := funext fun a => a.elim0
@[ref_idx] theorem idx_main_v18_ix (c0 : Fin 524288) (c1 : Fin 64) :
    idx_main_v18 (ix2 c0 c1) = (ix2 c0 (0 : Fin 1) : (⟨2, ![524288, 1]⟩ : Shape).Idx) := funext fun a => Fin.ext (by match a with | ⟨0, _⟩ => rfl | ⟨1, _⟩ => rfl)
@[ref_idx] theorem idx_main_v20_ix (c0 : Fin 1) (c1 : Fin 64) :
    idx_main_v20 (ix2 c0 c1) = (ix1 c1 : (⟨1, ![64]⟩ : Shape).Idx) := funext fun a => Fin.ext (by match a with | ⟨0, _⟩ => rfl)
@[ref_idx] theorem idx_main_v21_ix (c0 : Fin 524288) (c1 : Fin 64) :
    idx_main_v21 (ix2 c0 c1) = (ix2 (0 : Fin 1) c1 : (⟨2, ![1, 64]⟩ : Shape).Idx) := funext fun a => Fin.ext (by match a with | ⟨0, _⟩ => rfl | ⟨1, _⟩ => rfl)
@[ref_idx] theorem idx_main_v23_ix (c0 : Fin 1) (c1 : Fin 64) :
    idx_main_v23 (ix2 c0 c1) = (ix1 c1 : (⟨1, ![64]⟩ : Shape).Idx) := funext fun a => Fin.ext (by match a with | ⟨0, _⟩ => rfl)
@[ref_idx] theorem idx_main_v24_ix (c0 : Fin 524288) (c1 : Fin 64) :
    idx_main_v24 (ix2 c0 c1) = (ix2 (0 : Fin 1) c1 : (⟨2, ![1, 64]⟩ : Shape).Idx) := funext fun a => Fin.ext (by match a with | ⟨0, _⟩ => rfl | ⟨1, _⟩ => rfl)
@[ref_idx] theorem idx_main_call0_v0_ix (c0 : Fin 524288) (c1 : Fin 64) :
    idx_main_call0_v0 (ix2 c0 c1) = (ix0 : (⟨0, ![]⟩ : Shape).Idx) := funext fun a => a.elim0
@[ref_idx] theorem lidx_main_v27_ix (c0 : Fin 524288) (c1 : Fin 32) (k : Fin 64) :
    lidx_main_v27 (ix2 c0 c1) k = (ix2 c0 k : (⟨2, ![524288, 64]⟩ : Shape).Idx) := funext fun a => Fin.ext (by match a with | ⟨0, _⟩ => rfl | ⟨1, _⟩ => rfl)
@[ref_idx] theorem ridx_main_v27_ix (c0 : Fin 524288) (c1 : Fin 32) (k : Fin 64) :
    ridx_main_v27 (ix2 c0 c1) k = (ix2 k c1 : (⟨2, ![64, 32]⟩ : Shape).Idx) := funext fun a => Fin.ext (by match a with | ⟨0, _⟩ => rfl | ⟨1, _⟩ => rfl)
@[ref_idx] theorem idx_main_v28_ix (c0 : Fin 524288) (k : Fin 32) :
    idx_main_v28 (ix1 c0) k = (ix2 c0 k : (⟨2, ![524288, 32]⟩ : Shape).Idx) := funext fun a => Fin.ext (by match a with | ⟨0, _⟩ => rfl | ⟨1, _⟩ => rfl)
@[ref_idx] theorem idx_main_v29_ix (c0 : Fin 524288) (c1 : Fin 1) :
    idx_main_v29 (ix2 c0 c1) = (ix1 c0 : (⟨1, ![524288]⟩ : Shape).Idx) := funext fun a => Fin.ext (by match a with | ⟨0, _⟩ => rfl)
@[ref_idx] theorem idx_main_v30_ix (c0 : Fin 524288) (c1 : Fin 1) :
    idx_main_v30 (ix2 c0 c1) = (ix0 : (⟨0, ![]⟩ : Shape).Idx) := funext fun a => a.elim0
@[ref_idx] theorem idx_main_v32_ix (c0 : Fin 524288) (c1 : Fin 32) :
    idx_main_v32 (ix2 c0 c1) = (ix2 c0 (0 : Fin 1) : (⟨2, ![524288, 1]⟩ : Shape).Idx) := funext fun a => Fin.ext (by match a with | ⟨0, _⟩ => rfl | ⟨1, _⟩ => rfl)
@[ref_idx] theorem idx_main_v35_ix (c0 : Fin 524288) (k : Fin 32) :
    idx_main_v35 (ix1 c0) k = (ix2 c0 k : (⟨2, ![524288, 32]⟩ : Shape).Idx) := funext fun a => Fin.ext (by match a with | ⟨0, _⟩ => rfl | ⟨1, _⟩ => rfl)
@[ref_idx] theorem idx_main_v36_ix (c0 : Fin 524288) (c1 : Fin 1) :
    idx_main_v36 (ix2 c0 c1) = (ix1 c0 : (⟨1, ![524288]⟩ : Shape).Idx) := funext fun a => Fin.ext (by match a with | ⟨0, _⟩ => rfl)
@[ref_idx] theorem idx_main_v37_ix (c0 : Fin 524288) (c1 : Fin 1) :
    idx_main_v37 (ix2 c0 c1) = (ix0 : (⟨0, ![]⟩ : Shape).Idx) := funext fun a => a.elim0
@[ref_idx] theorem idx_main_v39_ix (c0 : Fin 524288) (c1 : Fin 32) :
    idx_main_v39 (ix2 c0 c1) = (ix2 c0 (0 : Fin 1) : (⟨2, ![524288, 1]⟩ : Shape).Idx) := funext fun a => Fin.ext (by match a with | ⟨0, _⟩ => rfl | ⟨1, _⟩ => rfl)
@[ref_idx] theorem idx_main_v41_ix (c0 : Fin 524288) (c1 : Fin 1) :
    idx_main_v41 (ix2 c0 c1) = (ix0 : (⟨0, ![]⟩ : Shape).Idx) := funext fun a => a.elim0
@[ref_idx] theorem idx_main_v44_ix (c0 : Fin 524288) (c1 : Fin 32) :
    idx_main_v44 (ix2 c0 c1) = (ix2 c0 (0 : Fin 1) : (⟨2, ![524288, 1]⟩ : Shape).Idx) := funext fun a => Fin.ext (by match a with | ⟨0, _⟩ => rfl | ⟨1, _⟩ => rfl)
@[ref_idx] theorem idx_main_v46_ix (c0 : Fin 1) (c1 : Fin 32) :
    idx_main_v46 (ix2 c0 c1) = (ix1 c1 : (⟨1, ![32]⟩ : Shape).Idx) := funext fun a => Fin.ext (by match a with | ⟨0, _⟩ => rfl)
@[ref_idx] theorem idx_main_v47_ix (c0 : Fin 524288) (c1 : Fin 32) :
    idx_main_v47 (ix2 c0 c1) = (ix2 (0 : Fin 1) c1 : (⟨2, ![1, 32]⟩ : Shape).Idx) := funext fun a => Fin.ext (by match a with | ⟨0, _⟩ => rfl | ⟨1, _⟩ => rfl)
@[ref_idx] theorem idx_main_v49_ix (c0 : Fin 1) (c1 : Fin 32) :
    idx_main_v49 (ix2 c0 c1) = (ix1 c1 : (⟨1, ![32]⟩ : Shape).Idx) := funext fun a => Fin.ext (by match a with | ⟨0, _⟩ => rfl)
@[ref_idx] theorem idx_main_v50_ix (c0 : Fin 524288) (c1 : Fin 32) :
    idx_main_v50 (ix2 c0 c1) = (ix2 (0 : Fin 1) c1 : (⟨2, ![1, 32]⟩ : Shape).Idx) := funext fun a => Fin.ext (by match a with | ⟨0, _⟩ => rfl | ⟨1, _⟩ => rfl)
@[ref_idx] theorem idx_main_call1_v0_ix (c0 : Fin 524288) (c1 : Fin 32) :
    idx_main_call1_v0 (ix2 c0 c1) = (ix0 : (⟨0, ![]⟩ : Shape).Idx) := funext fun a => a.elim0
@[ref_idx] theorem lidx_main_v53_ix (c0 : Fin 524288) (c1 : Fin 16) (k : Fin 32) :
    lidx_main_v53 (ix2 c0 c1) k = (ix2 c0 k : (⟨2, ![524288, 32]⟩ : Shape).Idx) := funext fun a => Fin.ext (by match a with | ⟨0, _⟩ => rfl | ⟨1, _⟩ => rfl)
@[ref_idx] theorem ridx_main_v53_ix (c0 : Fin 524288) (c1 : Fin 16) (k : Fin 32) :
    ridx_main_v53 (ix2 c0 c1) k = (ix2 k c1 : (⟨2, ![32, 16]⟩ : Shape).Idx) := funext fun a => Fin.ext (by match a with | ⟨0, _⟩ => rfl | ⟨1, _⟩ => rfl)
@[ref_idx] theorem idx_main_v54_ix (c0 : Fin 1) (c1 : Fin 16) :
    idx_main_v54 (ix2 c0 c1) = (ix1 c1 : (⟨1, ![16]⟩ : Shape).Idx) := funext fun a => Fin.ext (by match a with | ⟨0, _⟩ => rfl)
@[ref_idx] theorem idx_main_v55_ix (c0 : Fin 524288) (c1 : Fin 16) :
    idx_main_v55 (ix2 c0 c1) = (ix2 (0 : Fin 1) c1 : (⟨2, ![1, 16]⟩ : Shape).Idx) := funext fun a => Fin.ext (by match a with | ⟨0, _⟩ => rfl | ⟨1, _⟩ => rfl)
@[ref_idx] theorem lidx_main_v57_ix (c0 : Fin 524288) (c1 : Fin 64) (k : Fin 128) :
    lidx_main_v57 (ix2 c0 c1) k = (ix2 c0 k : (⟨2, ![524288, 128]⟩ : Shape).Idx) := funext fun a => Fin.ext (by match a with | ⟨0, _⟩ => rfl | ⟨1, _⟩ => rfl)
@[ref_idx] theorem ridx_main_v57_ix (c0 : Fin 524288) (c1 : Fin 64) (k : Fin 128) :
    ridx_main_v57 (ix2 c0 c1) k = (ix2 k c1 : (⟨2, ![128, 64]⟩ : Shape).Idx) := funext fun a => Fin.ext (by match a with | ⟨0, _⟩ => rfl | ⟨1, _⟩ => rfl)
@[ref_idx] theorem idx_main_v58_ix (c0 : Fin 524288) (k : Fin 64) :
    idx_main_v58 (ix1 c0) k = (ix2 c0 k : (⟨2, ![524288, 64]⟩ : Shape).Idx) := funext fun a => Fin.ext (by match a with | ⟨0, _⟩ => rfl | ⟨1, _⟩ => rfl)
@[ref_idx] theorem idx_main_v59_ix (c0 : Fin 524288) (c1 : Fin 1) :
    idx_main_v59 (ix2 c0 c1) = (ix1 c0 : (⟨1, ![524288]⟩ : Shape).Idx) := funext fun a => Fin.ext (by match a with | ⟨0, _⟩ => rfl)
@[ref_idx] theorem idx_main_v60_ix (c0 : Fin 524288) (c1 : Fin 1) :
    idx_main_v60 (ix2 c0 c1) = (ix0 : (⟨0, ![]⟩ : Shape).Idx) := funext fun a => a.elim0
@[ref_idx] theorem idx_main_v62_ix (c0 : Fin 524288) (c1 : Fin 64) :
    idx_main_v62 (ix2 c0 c1) = (ix2 c0 (0 : Fin 1) : (⟨2, ![524288, 1]⟩ : Shape).Idx) := funext fun a => Fin.ext (by match a with | ⟨0, _⟩ => rfl | ⟨1, _⟩ => rfl)
@[ref_idx] theorem idx_main_v65_ix (c0 : Fin 524288) (k : Fin 64) :
    idx_main_v65 (ix1 c0) k = (ix2 c0 k : (⟨2, ![524288, 64]⟩ : Shape).Idx) := funext fun a => Fin.ext (by match a with | ⟨0, _⟩ => rfl | ⟨1, _⟩ => rfl)
@[ref_idx] theorem idx_main_v66_ix (c0 : Fin 524288) (c1 : Fin 1) :
    idx_main_v66 (ix2 c0 c1) = (ix1 c0 : (⟨1, ![524288]⟩ : Shape).Idx) := funext fun a => Fin.ext (by match a with | ⟨0, _⟩ => rfl)
@[ref_idx] theorem idx_main_v67_ix (c0 : Fin 524288) (c1 : Fin 1) :
    idx_main_v67 (ix2 c0 c1) = (ix0 : (⟨0, ![]⟩ : Shape).Idx) := funext fun a => a.elim0
@[ref_idx] theorem idx_main_v69_ix (c0 : Fin 524288) (c1 : Fin 64) :
    idx_main_v69 (ix2 c0 c1) = (ix2 c0 (0 : Fin 1) : (⟨2, ![524288, 1]⟩ : Shape).Idx) := funext fun a => Fin.ext (by match a with | ⟨0, _⟩ => rfl | ⟨1, _⟩ => rfl)
@[ref_idx] theorem idx_main_v71_ix (c0 : Fin 524288) (c1 : Fin 1) :
    idx_main_v71 (ix2 c0 c1) = (ix0 : (⟨0, ![]⟩ : Shape).Idx) := funext fun a => a.elim0
@[ref_idx] theorem idx_main_v74_ix (c0 : Fin 524288) (c1 : Fin 64) :
    idx_main_v74 (ix2 c0 c1) = (ix2 c0 (0 : Fin 1) : (⟨2, ![524288, 1]⟩ : Shape).Idx) := funext fun a => Fin.ext (by match a with | ⟨0, _⟩ => rfl | ⟨1, _⟩ => rfl)
@[ref_idx] theorem idx_main_v76_ix (c0 : Fin 1) (c1 : Fin 64) :
    idx_main_v76 (ix2 c0 c1) = (ix1 c1 : (⟨1, ![64]⟩ : Shape).Idx) := funext fun a => Fin.ext (by match a with | ⟨0, _⟩ => rfl)
@[ref_idx] theorem idx_main_v77_ix (c0 : Fin 524288) (c1 : Fin 64) :
    idx_main_v77 (ix2 c0 c1) = (ix2 (0 : Fin 1) c1 : (⟨2, ![1, 64]⟩ : Shape).Idx) := funext fun a => Fin.ext (by match a with | ⟨0, _⟩ => rfl | ⟨1, _⟩ => rfl)
@[ref_idx] theorem idx_main_v79_ix (c0 : Fin 1) (c1 : Fin 64) :
    idx_main_v79 (ix2 c0 c1) = (ix1 c1 : (⟨1, ![64]⟩ : Shape).Idx) := funext fun a => Fin.ext (by match a with | ⟨0, _⟩ => rfl)
@[ref_idx] theorem idx_main_v80_ix (c0 : Fin 524288) (c1 : Fin 64) :
    idx_main_v80 (ix2 c0 c1) = (ix2 (0 : Fin 1) c1 : (⟨2, ![1, 64]⟩ : Shape).Idx) := funext fun a => Fin.ext (by match a with | ⟨0, _⟩ => rfl | ⟨1, _⟩ => rfl)
@[ref_idx] theorem idx_main_call2_v0_ix (c0 : Fin 524288) (c1 : Fin 64) :
    idx_main_call2_v0 (ix2 c0 c1) = (ix0 : (⟨0, ![]⟩ : Shape).Idx) := funext fun a => a.elim0
@[ref_idx] theorem lidx_main_v83_ix (c0 : Fin 524288) (c1 : Fin 32) (k : Fin 64) :
    lidx_main_v83 (ix2 c0 c1) k = (ix2 c0 k : (⟨2, ![524288, 64]⟩ : Shape).Idx) := funext fun a => Fin.ext (by match a with | ⟨0, _⟩ => rfl | ⟨1, _⟩ => rfl)
@[ref_idx] theorem ridx_main_v83_ix (c0 : Fin 524288) (c1 : Fin 32) (k : Fin 64) :
    ridx_main_v83 (ix2 c0 c1) k = (ix2 k c1 : (⟨2, ![64, 32]⟩ : Shape).Idx) := funext fun a => Fin.ext (by match a with | ⟨0, _⟩ => rfl | ⟨1, _⟩ => rfl)
@[ref_idx] theorem idx_main_v84_ix (c0 : Fin 1) (c1 : Fin 32) :
    idx_main_v84 (ix2 c0 c1) = (ix1 c1 : (⟨1, ![32]⟩ : Shape).Idx) := funext fun a => Fin.ext (by match a with | ⟨0, _⟩ => rfl)
@[ref_idx] theorem idx_main_v85_ix (c0 : Fin 524288) (c1 : Fin 32) :
    idx_main_v85 (ix2 c0 c1) = (ix2 (0 : Fin 1) c1 : (⟨2, ![1, 32]⟩ : Shape).Idx) := funext fun a => Fin.ext (by match a with | ⟨0, _⟩ => rfl | ⟨1, _⟩ => rfl)
@[ref_idx] theorem lidx_main_v87_ix (c0 : Fin 524288) (c1 : Fin 16) (k : Fin 6) :
    lidx_main_v87 (ix2 c0 c1) k = (ix2 c0 k : (⟨2, ![524288, 6]⟩ : Shape).Idx) := funext fun a => Fin.ext (by match a with | ⟨0, _⟩ => rfl | ⟨1, _⟩ => rfl)
@[ref_idx] theorem ridx_main_v87_ix (c0 : Fin 524288) (c1 : Fin 16) (k : Fin 6) :
    ridx_main_v87 (ix2 c0 c1) k = (ix2 k c1 : (⟨2, ![6, 16]⟩ : Shape).Idx) := funext fun a => Fin.ext (by match a with | ⟨0, _⟩ => rfl | ⟨1, _⟩ => rfl)
@[ref_idx] theorem idx_main_v88_ix (c0 : Fin 524288) (k : Fin 16) :
    idx_main_v88 (ix1 c0) k = (ix2 c0 k : (⟨2, ![524288, 16]⟩ : Shape).Idx) := funext fun a => Fin.ext (by match a with | ⟨0, _⟩ => rfl | ⟨1, _⟩ => rfl)
@[ref_idx] theorem idx_main_v89_ix (c0 : Fin 524288) (c1 : Fin 1) :
    idx_main_v89 (ix2 c0 c1) = (ix1 c0 : (⟨1, ![524288]⟩ : Shape).Idx) := funext fun a => Fin.ext (by match a with | ⟨0, _⟩ => rfl)
@[ref_idx] theorem idx_main_v90_ix (c0 : Fin 524288) (c1 : Fin 1) :
    idx_main_v90 (ix2 c0 c1) = (ix0 : (⟨0, ![]⟩ : Shape).Idx) := funext fun a => a.elim0
@[ref_idx] theorem idx_main_v92_ix (c0 : Fin 524288) (c1 : Fin 16) :
    idx_main_v92 (ix2 c0 c1) = (ix2 c0 (0 : Fin 1) : (⟨2, ![524288, 1]⟩ : Shape).Idx) := funext fun a => Fin.ext (by match a with | ⟨0, _⟩ => rfl | ⟨1, _⟩ => rfl)
@[ref_idx] theorem idx_main_v95_ix (c0 : Fin 524288) (k : Fin 16) :
    idx_main_v95 (ix1 c0) k = (ix2 c0 k : (⟨2, ![524288, 16]⟩ : Shape).Idx) := funext fun a => Fin.ext (by match a with | ⟨0, _⟩ => rfl | ⟨1, _⟩ => rfl)
@[ref_idx] theorem idx_main_v96_ix (c0 : Fin 524288) (c1 : Fin 1) :
    idx_main_v96 (ix2 c0 c1) = (ix1 c0 : (⟨1, ![524288]⟩ : Shape).Idx) := funext fun a => Fin.ext (by match a with | ⟨0, _⟩ => rfl)
@[ref_idx] theorem idx_main_v97_ix (c0 : Fin 524288) (c1 : Fin 1) :
    idx_main_v97 (ix2 c0 c1) = (ix0 : (⟨0, ![]⟩ : Shape).Idx) := funext fun a => a.elim0
@[ref_idx] theorem idx_main_v99_ix (c0 : Fin 524288) (c1 : Fin 16) :
    idx_main_v99 (ix2 c0 c1) = (ix2 c0 (0 : Fin 1) : (⟨2, ![524288, 1]⟩ : Shape).Idx) := funext fun a => Fin.ext (by match a with | ⟨0, _⟩ => rfl | ⟨1, _⟩ => rfl)
@[ref_idx] theorem idx_main_v101_ix (c0 : Fin 524288) (c1 : Fin 1) :
    idx_main_v101 (ix2 c0 c1) = (ix0 : (⟨0, ![]⟩ : Shape).Idx) := funext fun a => a.elim0
@[ref_idx] theorem idx_main_v104_ix (c0 : Fin 524288) (c1 : Fin 16) :
    idx_main_v104 (ix2 c0 c1) = (ix2 c0 (0 : Fin 1) : (⟨2, ![524288, 1]⟩ : Shape).Idx) := funext fun a => Fin.ext (by match a with | ⟨0, _⟩ => rfl | ⟨1, _⟩ => rfl)
@[ref_idx] theorem idx_main_v106_ix (c0 : Fin 1) (c1 : Fin 16) :
    idx_main_v106 (ix2 c0 c1) = (ix1 c1 : (⟨1, ![16]⟩ : Shape).Idx) := funext fun a => Fin.ext (by match a with | ⟨0, _⟩ => rfl)
@[ref_idx] theorem idx_main_v107_ix (c0 : Fin 524288) (c1 : Fin 16) :
    idx_main_v107 (ix2 c0 c1) = (ix2 (0 : Fin 1) c1 : (⟨2, ![1, 16]⟩ : Shape).Idx) := funext fun a => Fin.ext (by match a with | ⟨0, _⟩ => rfl | ⟨1, _⟩ => rfl)
@[ref_idx] theorem idx_main_v109_ix (c0 : Fin 1) (c1 : Fin 16) :
    idx_main_v109 (ix2 c0 c1) = (ix1 c1 : (⟨1, ![16]⟩ : Shape).Idx) := funext fun a => Fin.ext (by match a with | ⟨0, _⟩ => rfl)
@[ref_idx] theorem idx_main_v110_ix (c0 : Fin 524288) (c1 : Fin 16) :
    idx_main_v110 (ix2 c0 c1) = (ix2 (0 : Fin 1) c1 : (⟨2, ![1, 16]⟩ : Shape).Idx) := funext fun a => Fin.ext (by match a with | ⟨0, _⟩ => rfl | ⟨1, _⟩ => rfl)
@[ref_idx] theorem idx_main_call3_v0_ix (c0 : Fin 524288) (c1 : Fin 16) :
    idx_main_call3_v0 (ix2 c0 c1) = (ix0 : (⟨0, ![]⟩ : Shape).Idx) := funext fun a => a.elim0
@[ref_idx] theorem lidx_main_v113_ix (c0 : Fin 524288) (c1 : Fin 32) (k : Fin 16) :
    lidx_main_v113 (ix2 c0 c1) k = (ix2 c0 k : (⟨2, ![524288, 16]⟩ : Shape).Idx) := funext fun a => Fin.ext (by match a with | ⟨0, _⟩ => rfl | ⟨1, _⟩ => rfl)
@[ref_idx] theorem ridx_main_v113_ix (c0 : Fin 524288) (c1 : Fin 32) (k : Fin 16) :
    ridx_main_v113 (ix2 c0 c1) k = (ix2 k c1 : (⟨2, ![16, 32]⟩ : Shape).Idx) := funext fun a => Fin.ext (by match a with | ⟨0, _⟩ => rfl | ⟨1, _⟩ => rfl)
@[ref_idx] theorem idx_main_v114_ix (c0 : Fin 1) (c1 : Fin 32) :
    idx_main_v114 (ix2 c0 c1) = (ix1 c1 : (⟨1, ![32]⟩ : Shape).Idx) := funext fun a => Fin.ext (by match a with | ⟨0, _⟩ => rfl)
@[ref_idx] theorem idx_main_v115_ix (c0 : Fin 524288) (c1 : Fin 32) :
    idx_main_v115 (ix2 c0 c1) = (ix2 (0 : Fin 1) c1 : (⟨2, ![1, 32]⟩ : Shape).Idx) := funext fun a => Fin.ext (by match a with | ⟨0, _⟩ => rfl | ⟨1, _⟩ => rfl)
@[ref_idx] theorem lidx_main_v117_ix (c0 : Fin 524288) (c1 : Fin 16) (k : Fin 1) :
    lidx_main_v117 (ix2 c0 c1) k = (ix2 c0 k : (⟨2, ![524288, 1]⟩ : Shape).Idx) := funext fun a => Fin.ext (by match a with | ⟨0, _⟩ => rfl | ⟨1, _⟩ => rfl)
@[ref_idx] theorem ridx_main_v117_ix (c0 : Fin 524288) (c1 : Fin 16) (k : Fin 1) :
    ridx_main_v117 (ix2 c0 c1) k = (ix2 k c1 : (⟨2, ![1, 16]⟩ : Shape).Idx) := funext fun a => Fin.ext (by match a with | ⟨0, _⟩ => rfl | ⟨1, _⟩ => rfl)
@[ref_idx] theorem idx_main_v118_ix (c0 : Fin 524288) (k : Fin 16) :
    idx_main_v118 (ix1 c0) k = (ix2 c0 k : (⟨2, ![524288, 16]⟩ : Shape).Idx) := funext fun a => Fin.ext (by match a with | ⟨0, _⟩ => rfl | ⟨1, _⟩ => rfl)
@[ref_idx] theorem idx_main_v119_ix (c0 : Fin 524288) (c1 : Fin 1) :
    idx_main_v119 (ix2 c0 c1) = (ix1 c0 : (⟨1, ![524288]⟩ : Shape).Idx) := funext fun a => Fin.ext (by match a with | ⟨0, _⟩ => rfl)
@[ref_idx] theorem idx_main_v120_ix (c0 : Fin 524288) (c1 : Fin 1) :
    idx_main_v120 (ix2 c0 c1) = (ix0 : (⟨0, ![]⟩ : Shape).Idx) := funext fun a => a.elim0
@[ref_idx] theorem idx_main_v122_ix (c0 : Fin 524288) (c1 : Fin 16) :
    idx_main_v122 (ix2 c0 c1) = (ix2 c0 (0 : Fin 1) : (⟨2, ![524288, 1]⟩ : Shape).Idx) := funext fun a => Fin.ext (by match a with | ⟨0, _⟩ => rfl | ⟨1, _⟩ => rfl)
@[ref_idx] theorem idx_main_v125_ix (c0 : Fin 524288) (k : Fin 16) :
    idx_main_v125 (ix1 c0) k = (ix2 c0 k : (⟨2, ![524288, 16]⟩ : Shape).Idx) := funext fun a => Fin.ext (by match a with | ⟨0, _⟩ => rfl | ⟨1, _⟩ => rfl)
@[ref_idx] theorem idx_main_v126_ix (c0 : Fin 524288) (c1 : Fin 1) :
    idx_main_v126 (ix2 c0 c1) = (ix1 c0 : (⟨1, ![524288]⟩ : Shape).Idx) := funext fun a => Fin.ext (by match a with | ⟨0, _⟩ => rfl)
@[ref_idx] theorem idx_main_v127_ix (c0 : Fin 524288) (c1 : Fin 1) :
    idx_main_v127 (ix2 c0 c1) = (ix0 : (⟨0, ![]⟩ : Shape).Idx) := funext fun a => a.elim0
@[ref_idx] theorem idx_main_v129_ix (c0 : Fin 524288) (c1 : Fin 16) :
    idx_main_v129 (ix2 c0 c1) = (ix2 c0 (0 : Fin 1) : (⟨2, ![524288, 1]⟩ : Shape).Idx) := funext fun a => Fin.ext (by match a with | ⟨0, _⟩ => rfl | ⟨1, _⟩ => rfl)
@[ref_idx] theorem idx_main_v131_ix (c0 : Fin 524288) (c1 : Fin 1) :
    idx_main_v131 (ix2 c0 c1) = (ix0 : (⟨0, ![]⟩ : Shape).Idx) := funext fun a => a.elim0
@[ref_idx] theorem idx_main_v134_ix (c0 : Fin 524288) (c1 : Fin 16) :
    idx_main_v134 (ix2 c0 c1) = (ix2 c0 (0 : Fin 1) : (⟨2, ![524288, 1]⟩ : Shape).Idx) := funext fun a => Fin.ext (by match a with | ⟨0, _⟩ => rfl | ⟨1, _⟩ => rfl)
@[ref_idx] theorem idx_main_v136_ix (c0 : Fin 1) (c1 : Fin 16) :
    idx_main_v136 (ix2 c0 c1) = (ix1 c1 : (⟨1, ![16]⟩ : Shape).Idx) := funext fun a => Fin.ext (by match a with | ⟨0, _⟩ => rfl)
@[ref_idx] theorem idx_main_v137_ix (c0 : Fin 524288) (c1 : Fin 16) :
    idx_main_v137 (ix2 c0 c1) = (ix2 (0 : Fin 1) c1 : (⟨2, ![1, 16]⟩ : Shape).Idx) := funext fun a => Fin.ext (by match a with | ⟨0, _⟩ => rfl | ⟨1, _⟩ => rfl)
@[ref_idx] theorem idx_main_v139_ix (c0 : Fin 1) (c1 : Fin 16) :
    idx_main_v139 (ix2 c0 c1) = (ix1 c1 : (⟨1, ![16]⟩ : Shape).Idx) := funext fun a => Fin.ext (by match a with | ⟨0, _⟩ => rfl)
@[ref_idx] theorem idx_main_v140_ix (c0 : Fin 524288) (c1 : Fin 16) :
    idx_main_v140 (ix2 c0 c1) = (ix2 (0 : Fin 1) c1 : (⟨2, ![1, 16]⟩ : Shape).Idx) := funext fun a => Fin.ext (by match a with | ⟨0, _⟩ => rfl | ⟨1, _⟩ => rfl)
@[ref_idx] theorem idx_main_call4_v0_ix (c0 : Fin 524288) (c1 : Fin 16) :
    idx_main_call4_v0 (ix2 c0 c1) = (ix0 : (⟨0, ![]⟩ : Shape).Idx) := funext fun a => a.elim0
@[ref_idx] theorem lidx_main_v143_ix (c0 : Fin 524288) (c1 : Fin 32) (k : Fin 16) :
    lidx_main_v143 (ix2 c0 c1) k = (ix2 c0 k : (⟨2, ![524288, 16]⟩ : Shape).Idx) := funext fun a => Fin.ext (by match a with | ⟨0, _⟩ => rfl | ⟨1, _⟩ => rfl)
@[ref_idx] theorem ridx_main_v143_ix (c0 : Fin 524288) (c1 : Fin 32) (k : Fin 16) :
    ridx_main_v143 (ix2 c0 c1) k = (ix2 k c1 : (⟨2, ![16, 32]⟩ : Shape).Idx) := funext fun a => Fin.ext (by match a with | ⟨0, _⟩ => rfl | ⟨1, _⟩ => rfl)
@[ref_idx] theorem idx_main_v144_ix (c0 : Fin 1) (c1 : Fin 32) :
    idx_main_v144 (ix2 c0 c1) = (ix1 c1 : (⟨1, ![32]⟩ : Shape).Idx) := funext fun a => Fin.ext (by match a with | ⟨0, _⟩ => rfl)
@[ref_idx] theorem idx_main_v145_ix (c0 : Fin 524288) (c1 : Fin 32) :
    idx_main_v145 (ix2 c0 c1) = (ix2 (0 : Fin 1) c1 : (⟨2, ![1, 32]⟩ : Shape).Idx) := funext fun a => Fin.ext (by match a with | ⟨0, _⟩ => rfl | ⟨1, _⟩ => rfl)
@[ref_idx] theorem idx_main_v149_ix (c0 : Fin 524288) :
    idx_main_v149 (ix1 c0) = (ix0 : (⟨0, ![]⟩ : Shape).Idx) := funext fun a => a.elim0
@[ref_idx] theorem idx_main_v151_ix (c0 : Fin 524288) (c1 : Fin 1) :
    idx_main_v151 (ix2 c0 c1) = (ix1 c0 : (⟨1, ![524288]⟩ : Shape).Idx) := funext fun a => Fin.ext (by match a with | ⟨0, _⟩ => rfl)
@[ref_idx] theorem idx_main_v152_ix (c0 : Fin 524288) (c1 : Fin 32) :
    idx_main_v152 (ix2 c0 c1) = (ix2 c0 (0 : Fin 1) : (⟨2, ![524288, 1]⟩ : Shape).Idx) := funext fun a => Fin.ext (by match a with | ⟨0, _⟩ => rfl | ⟨1, _⟩ => rfl)
@[ref_idx] theorem idx_main_v155_ix (c0 : Fin 524288) (k : Fin 32) :
    idx_main_v155 (ix1 c0) k = (ix2 c0 k : (⟨2, ![524288, 32]⟩ : Shape).Idx) := funext fun a => Fin.ext (by match a with | ⟨0, _⟩ => rfl | ⟨1, _⟩ => rfl)
@[ref_idx] theorem idx_main_v156_ix (c0 : Fin 524288) (c1 : Fin 1) :
    idx_main_v156 (ix2 c0 c1) = (ix1 c0 : (⟨1, ![524288]⟩ : Shape).Idx) := funext fun a => Fin.ext (by match a with | ⟨0, _⟩ => rfl)
@[ref_idx] theorem idx_main_v157_ix (c0 : Fin 524288) (c1 : Fin 32) :
    idx_main_v157 (ix2 c0 c1) = (ix2 c0 (0 : Fin 1) : (⟨2, ![524288, 1]⟩ : Shape).Idx) := funext fun a => Fin.ext (by match a with | ⟨0, _⟩ => rfl | ⟨1, _⟩ => rfl)
@[ref_idx] theorem lidx_main_v160_ix (c0 : Fin 524288) (c1 : Fin 32) (k : Fin 32) :
    lidx_main_v160 (ix2 c0 c1) k = (ix2 c0 k : (⟨2, ![524288, 32]⟩ : Shape).Idx) := funext fun a => Fin.ext (by match a with | ⟨0, _⟩ => rfl | ⟨1, _⟩ => rfl)
@[ref_idx] theorem ridx_main_v160_ix (c0 : Fin 524288) (c1 : Fin 32) (k : Fin 32) :
    ridx_main_v160 (ix2 c0 c1) k = (ix2 k c1 : (⟨2, ![32, 32]⟩ : Shape).Idx) := funext fun a => Fin.ext (by match a with | ⟨0, _⟩ => rfl | ⟨1, _⟩ => rfl)
@[ref_idx] theorem idx_main_v161_ix (c0 : Fin 524288) (k : Fin 32) :
    idx_main_v161 (ix1 c0) k = (ix2 c0 k : (⟨2, ![524288, 32]⟩ : Shape).Idx) := funext fun a => Fin.ext (by match a with | ⟨0, _⟩ => rfl | ⟨1, _⟩ => rfl)
@[ref_idx] theorem idx_main_v162_ix (c0 : Fin 524288) (c1 : Fin 1) :
    idx_main_v162 (ix2 c0 c1) = (ix1 c0 : (⟨1, ![524288]⟩ : Shape).Idx) := funext fun a => Fin.ext (by match a with | ⟨0, _⟩ => rfl)
@[ref_idx] theorem idx_main_v163_ix (c0 : Fin 524288) (c1 : Fin 1) :
    idx_main_v163 (ix2 c0 c1) = (ix0 : (⟨0, ![]⟩ : Shape).Idx) := funext fun a => a.elim0
@[ref_idx] theorem idx_main_v165_ix (c0 : Fin 524288) (c1 : Fin 32) :
    idx_main_v165 (ix2 c0 c1) = (ix2 c0 (0 : Fin 1) : (⟨2, ![524288, 1]⟩ : Shape).Idx) := funext fun a => Fin.ext (by match a with | ⟨0, _⟩ => rfl | ⟨1, _⟩ => rfl)
@[ref_idx] theorem idx_main_v168_ix (c0 : Fin 524288) (k : Fin 32) :
    idx_main_v168 (ix1 c0) k = (ix2 c0 k : (⟨2, ![524288, 32]⟩ : Shape).Idx) := funext fun a => Fin.ext (by match a with | ⟨0, _⟩ => rfl | ⟨1, _⟩ => rfl)
@[ref_idx] theorem idx_main_v169_ix (c0 : Fin 524288) (c1 : Fin 1) :
    idx_main_v169 (ix2 c0 c1) = (ix1 c0 : (⟨1, ![524288]⟩ : Shape).Idx) := funext fun a => Fin.ext (by match a with | ⟨0, _⟩ => rfl)
@[ref_idx] theorem idx_main_v170_ix (c0 : Fin 524288) (c1 : Fin 1) :
    idx_main_v170 (ix2 c0 c1) = (ix0 : (⟨0, ![]⟩ : Shape).Idx) := funext fun a => a.elim0
@[ref_idx] theorem idx_main_v172_ix (c0 : Fin 524288) (c1 : Fin 32) :
    idx_main_v172 (ix2 c0 c1) = (ix2 c0 (0 : Fin 1) : (⟨2, ![524288, 1]⟩ : Shape).Idx) := funext fun a => Fin.ext (by match a with | ⟨0, _⟩ => rfl | ⟨1, _⟩ => rfl)
@[ref_idx] theorem idx_main_v174_ix (c0 : Fin 524288) (c1 : Fin 1) :
    idx_main_v174 (ix2 c0 c1) = (ix0 : (⟨0, ![]⟩ : Shape).Idx) := funext fun a => a.elim0
@[ref_idx] theorem idx_main_v177_ix (c0 : Fin 524288) (c1 : Fin 32) :
    idx_main_v177 (ix2 c0 c1) = (ix2 c0 (0 : Fin 1) : (⟨2, ![524288, 1]⟩ : Shape).Idx) := funext fun a => Fin.ext (by match a with | ⟨0, _⟩ => rfl | ⟨1, _⟩ => rfl)
@[ref_idx] theorem idx_main_v179_ix (c0 : Fin 1) (c1 : Fin 32) :
    idx_main_v179 (ix2 c0 c1) = (ix1 c1 : (⟨1, ![32]⟩ : Shape).Idx) := funext fun a => Fin.ext (by match a with | ⟨0, _⟩ => rfl)
@[ref_idx] theorem idx_main_v180_ix (c0 : Fin 524288) (c1 : Fin 32) :
    idx_main_v180 (ix2 c0 c1) = (ix2 (0 : Fin 1) c1 : (⟨2, ![1, 32]⟩ : Shape).Idx) := funext fun a => Fin.ext (by match a with | ⟨0, _⟩ => rfl | ⟨1, _⟩ => rfl)
@[ref_idx] theorem idx_main_v182_ix (c0 : Fin 1) (c1 : Fin 32) :
    idx_main_v182 (ix2 c0 c1) = (ix1 c1 : (⟨1, ![32]⟩ : Shape).Idx) := funext fun a => Fin.ext (by match a with | ⟨0, _⟩ => rfl)
@[ref_idx] theorem idx_main_v183_ix (c0 : Fin 524288) (c1 : Fin 32) :
    idx_main_v183 (ix2 c0 c1) = (ix2 (0 : Fin 1) c1 : (⟨2, ![1, 32]⟩ : Shape).Idx) := funext fun a => Fin.ext (by match a with | ⟨0, _⟩ => rfl | ⟨1, _⟩ => rfl)
@[ref_idx] theorem idx_main_call5_v0_ix (c0 : Fin 524288) (c1 : Fin 32) :
    idx_main_call5_v0 (ix2 c0 c1) = (ix0 : (⟨0, ![]⟩ : Shape).Idx) := funext fun a => a.elim0
@[ref_idx] theorem lidx_main_v186_ix (c0 : Fin 524288) (c1 : Fin 16) (k : Fin 32) :
    lidx_main_v186 (ix2 c0 c1) k = (ix2 c0 k : (⟨2, ![524288, 32]⟩ : Shape).Idx) := funext fun a => Fin.ext (by match a with | ⟨0, _⟩ => rfl | ⟨1, _⟩ => rfl)
@[ref_idx] theorem ridx_main_v186_ix (c0 : Fin 524288) (c1 : Fin 16) (k : Fin 32) :
    ridx_main_v186 (ix2 c0 c1) k = (ix2 k c1 : (⟨2, ![32, 16]⟩ : Shape).Idx) := funext fun a => Fin.ext (by match a with | ⟨0, _⟩ => rfl | ⟨1, _⟩ => rfl)
@[ref_idx] theorem idx_main_v187_ix (c0 : Fin 1) (c1 : Fin 16) :
    idx_main_v187 (ix2 c0 c1) = (ix1 c1 : (⟨1, ![16]⟩ : Shape).Idx) := funext fun a => Fin.ext (by match a with | ⟨0, _⟩ => rfl)
@[ref_idx] theorem idx_main_v188_ix (c0 : Fin 524288) (c1 : Fin 16) :
    idx_main_v188 (ix2 c0 c1) = (ix2 (0 : Fin 1) c1 : (⟨2, ![1, 16]⟩ : Shape).Idx) := funext fun a => Fin.ext (by match a with | ⟨0, _⟩ => rfl | ⟨1, _⟩ => rfl)
@[ref_idx] theorem lidx_main_v191_ix (c0 : Fin 524288) (c1 : Fin 16) (k : Fin 32) :
    lidx_main_v191 (ix2 c0 c1) k = (ix2 c0 k : (⟨2, ![524288, 32]⟩ : Shape).Idx) := funext fun a => Fin.ext (by match a with | ⟨0, _⟩ => rfl | ⟨1, _⟩ => rfl)
@[ref_idx] theorem ridx_main_v191_ix (c0 : Fin 524288) (c1 : Fin 16) (k : Fin 32) :
    ridx_main_v191 (ix2 c0 c1) k = (ix2 k c1 : (⟨2, ![32, 16]⟩ : Shape).Idx) := funext fun a => Fin.ext (by match a with | ⟨0, _⟩ => rfl | ⟨1, _⟩ => rfl)
@[ref_idx] theorem idx_main_v192_ix (c0 : Fin 524288) (k : Fin 16) :
    idx_main_v192 (ix1 c0) k = (ix2 c0 k : (⟨2, ![524288, 16]⟩ : Shape).Idx) := funext fun a => Fin.ext (by match a with | ⟨0, _⟩ => rfl | ⟨1, _⟩ => rfl)
@[ref_idx] theorem idx_main_v193_ix (c0 : Fin 524288) (c1 : Fin 1) :
    idx_main_v193 (ix2 c0 c1) = (ix1 c0 : (⟨1, ![524288]⟩ : Shape).Idx) := funext fun a => Fin.ext (by match a with | ⟨0, _⟩ => rfl)
@[ref_idx] theorem idx_main_v194_ix (c0 : Fin 524288) (c1 : Fin 1) :
    idx_main_v194 (ix2 c0 c1) = (ix0 : (⟨0, ![]⟩ : Shape).Idx) := funext fun a => a.elim0
@[ref_idx] theorem idx_main_v196_ix (c0 : Fin 524288) (c1 : Fin 16) :
    idx_main_v196 (ix2 c0 c1) = (ix2 c0 (0 : Fin 1) : (⟨2, ![524288, 1]⟩ : Shape).Idx) := funext fun a => Fin.ext (by match a with | ⟨0, _⟩ => rfl | ⟨1, _⟩ => rfl)
@[ref_idx] theorem idx_main_v199_ix (c0 : Fin 524288) (k : Fin 16) :
    idx_main_v199 (ix1 c0) k = (ix2 c0 k : (⟨2, ![524288, 16]⟩ : Shape).Idx) := funext fun a => Fin.ext (by match a with | ⟨0, _⟩ => rfl | ⟨1, _⟩ => rfl)
@[ref_idx] theorem idx_main_v200_ix (c0 : Fin 524288) (c1 : Fin 1) :
    idx_main_v200 (ix2 c0 c1) = (ix1 c0 : (⟨1, ![524288]⟩ : Shape).Idx) := funext fun a => Fin.ext (by match a with | ⟨0, _⟩ => rfl)
@[ref_idx] theorem idx_main_v201_ix (c0 : Fin 524288) (c1 : Fin 1) :
    idx_main_v201 (ix2 c0 c1) = (ix0 : (⟨0, ![]⟩ : Shape).Idx) := funext fun a => a.elim0
@[ref_idx] theorem idx_main_v203_ix (c0 : Fin 524288) (c1 : Fin 16) :
    idx_main_v203 (ix2 c0 c1) = (ix2 c0 (0 : Fin 1) : (⟨2, ![524288, 1]⟩ : Shape).Idx) := funext fun a => Fin.ext (by match a with | ⟨0, _⟩ => rfl | ⟨1, _⟩ => rfl)
@[ref_idx] theorem idx_main_v205_ix (c0 : Fin 524288) (c1 : Fin 1) :
    idx_main_v205 (ix2 c0 c1) = (ix0 : (⟨0, ![]⟩ : Shape).Idx) := funext fun a => a.elim0
@[ref_idx] theorem idx_main_v208_ix (c0 : Fin 524288) (c1 : Fin 16) :
    idx_main_v208 (ix2 c0 c1) = (ix2 c0 (0 : Fin 1) : (⟨2, ![524288, 1]⟩ : Shape).Idx) := funext fun a => Fin.ext (by match a with | ⟨0, _⟩ => rfl | ⟨1, _⟩ => rfl)
@[ref_idx] theorem idx_main_v210_ix (c0 : Fin 1) (c1 : Fin 16) :
    idx_main_v210 (ix2 c0 c1) = (ix1 c1 : (⟨1, ![16]⟩ : Shape).Idx) := funext fun a => Fin.ext (by match a with | ⟨0, _⟩ => rfl)
@[ref_idx] theorem idx_main_v211_ix (c0 : Fin 524288) (c1 : Fin 16) :
    idx_main_v211 (ix2 c0 c1) = (ix2 (0 : Fin 1) c1 : (⟨2, ![1, 16]⟩ : Shape).Idx) := funext fun a => Fin.ext (by match a with | ⟨0, _⟩ => rfl | ⟨1, _⟩ => rfl)
@[ref_idx] theorem idx_main_v213_ix (c0 : Fin 1) (c1 : Fin 16) :
    idx_main_v213 (ix2 c0 c1) = (ix1 c1 : (⟨1, ![16]⟩ : Shape).Idx) := funext fun a => Fin.ext (by match a with | ⟨0, _⟩ => rfl)
@[ref_idx] theorem idx_main_v214_ix (c0 : Fin 524288) (c1 : Fin 16) :
    idx_main_v214 (ix2 c0 c1) = (ix2 (0 : Fin 1) c1 : (⟨2, ![1, 16]⟩ : Shape).Idx) := funext fun a => Fin.ext (by match a with | ⟨0, _⟩ => rfl | ⟨1, _⟩ => rfl)
@[ref_idx] theorem idx_main_call6_v0_ix (c0 : Fin 524288) (c1 : Fin 16) :
    idx_main_call6_v0 (ix2 c0 c1) = (ix0 : (⟨0, ![]⟩ : Shape).Idx) := funext fun a => a.elim0
@[ref_idx] theorem lidx_main_v217_ix (c0 : Fin 524288) (c1 : Fin 1) (k : Fin 16) :
    lidx_main_v217 (ix2 c0 c1) k = (ix2 c0 k : (⟨2, ![524288, 16]⟩ : Shape).Idx) := funext fun a => Fin.ext (by match a with | ⟨0, _⟩ => rfl | ⟨1, _⟩ => rfl)
@[ref_idx] theorem ridx_main_v217_ix (c0 : Fin 524288) (c1 : Fin 1) (k : Fin 16) :
    ridx_main_v217 (ix2 c0 c1) k = (ix2 k c1 : (⟨2, ![16, 1]⟩ : Shape).Idx) := funext fun a => Fin.ext (by match a with | ⟨0, _⟩ => rfl | ⟨1, _⟩ => rfl)
@[ref_idx] theorem idx_main_v218_ix (c0 : Fin 1) (c1 : Fin 1) :
    idx_main_v218 (ix2 c0 c1) = (ix1 (0 : Fin 1) : (⟨1, ![1]⟩ : Shape).Idx) := funext fun a => Fin.ext (by match a with | ⟨0, _⟩ => rfl)
@[ref_idx] theorem idx_main_v219_ix (c0 : Fin 524288) (c1 : Fin 1) :
    idx_main_v219 (ix2 c0 c1) = (ix2 (0 : Fin 1) (0 : Fin 1) : (⟨2, ![1, 1]⟩ : Shape).Idx) := funext fun a => Fin.ext (by match a with | ⟨0, _⟩ => rfl | ⟨1, _⟩ => rfl)

-- the operations inside the stages, each read from its operands
attribute [ref_read] val_main_cst_apply val_main_v2_apply val_main_v3_apply val_main_cst_0_apply val_main_v4_apply val_main_v5_apply
attribute [ref_read] val_main_v6_apply val_main_v7_apply val_main_v8_apply val_main_cst_1_apply val_main_v9_apply val_main_v10_apply
attribute [ref_read] val_main_cst_2_apply val_main_v11_apply val_main_v12_apply val_main_v13_apply val_main_v14_apply val_main_cst_3_apply
attribute [ref_read] val_main_v15_apply val_main_v16_apply val_main_v17_apply val_main_v18_apply val_main_v19_apply val_main_v20_apply
attribute [ref_read] val_main_v21_apply val_main_v22_apply val_main_v23_apply val_main_v24_apply val_main_v25_apply val_main_call0_cst_apply
attribute [ref_read] val_main_call0_v0_apply val_main_cst_4_apply val_main_v28_apply val_main_v29_apply val_main_cst_5_apply val_main_v30_apply
attribute [ref_read] val_main_v31_apply val_main_v32_apply val_main_v33_apply val_main_v34_apply val_main_cst_6_apply val_main_v35_apply
attribute [ref_read] val_main_v36_apply val_main_cst_7_apply val_main_v37_apply val_main_v38_apply val_main_v39_apply val_main_v40_apply
attribute [ref_read] val_main_cst_8_apply val_main_v41_apply val_main_v42_apply val_main_v43_apply val_main_v44_apply val_main_v45_apply
attribute [ref_read] val_main_v46_apply val_main_v47_apply val_main_v48_apply val_main_v49_apply val_main_v50_apply val_main_v51_apply
attribute [ref_read] val_main_call1_cst_apply val_main_call1_v0_apply val_main_v53_apply val_main_v54_apply val_main_v55_apply val_main_cst_9_apply
attribute [ref_read] val_main_v58_apply val_main_v59_apply val_main_cst_10_apply val_main_v60_apply val_main_v61_apply val_main_v62_apply
attribute [ref_read] val_main_v63_apply val_main_v64_apply val_main_cst_11_apply val_main_v65_apply val_main_v66_apply val_main_cst_12_apply
attribute [ref_read] val_main_v67_apply val_main_v68_apply val_main_v69_apply val_main_v70_apply val_main_cst_13_apply val_main_v71_apply
attribute [ref_read] val_main_v72_apply val_main_v73_apply val_main_v74_apply val_main_v75_apply val_main_v76_apply val_main_v77_apply
attribute [ref_read] val_main_v78_apply val_main_v79_apply val_main_v80_apply val_main_v81_apply val_main_call2_cst_apply val_main_call2_v0_apply
attribute [ref_read] val_main_v83_apply val_main_v84_apply val_main_v85_apply val_main_cst_14_apply val_main_v88_apply val_main_v89_apply
attribute [ref_read] val_main_cst_15_apply val_main_v90_apply val_main_v91_apply val_main_v92_apply val_main_v93_apply val_main_v94_apply
attribute [ref_read] val_main_cst_16_apply val_main_v95_apply val_main_v96_apply val_main_cst_17_apply val_main_v97_apply val_main_v98_apply
attribute [ref_read] val_main_v99_apply val_main_v100_apply val_main_cst_18_apply val_main_v101_apply val_main_v102_apply val_main_v103_apply
attribute [ref_read] val_main_v104_apply val_main_v105_apply val_main_v106_apply val_main_v107_apply val_main_v108_apply val_main_v109_apply
attribute [ref_read] val_main_v110_apply val_main_v111_apply val_main_call3_cst_apply val_main_call3_v0_apply val_main_v113_apply val_main_v114_apply
attribute [ref_read] val_main_v115_apply val_main_cst_19_apply val_main_v118_apply val_main_v119_apply val_main_cst_20_apply val_main_v120_apply
attribute [ref_read] val_main_v121_apply val_main_v122_apply val_main_v123_apply val_main_v124_apply val_main_cst_21_apply val_main_v125_apply
attribute [ref_read] val_main_v126_apply val_main_cst_22_apply val_main_v127_apply val_main_v128_apply val_main_v129_apply val_main_v130_apply
attribute [ref_read] val_main_cst_23_apply val_main_v131_apply val_main_v132_apply val_main_v133_apply val_main_v134_apply val_main_v135_apply
attribute [ref_read] val_main_v136_apply val_main_v137_apply val_main_v138_apply val_main_v139_apply val_main_v140_apply val_main_v141_apply
attribute [ref_read] val_main_call4_cst_apply val_main_call4_v0_apply val_main_v143_apply val_main_v144_apply val_main_v145_apply val_main_cst_24_apply
attribute [ref_read] val_main_cst_25_apply val_main_v149_apply val_main_v151_apply val_main_v152_apply val_main_v153_apply val_main_cst_26_apply
attribute [ref_read] val_main_v155_apply val_main_v156_apply val_main_v157_apply val_main_cst_27_apply val_main_v161_apply val_main_v162_apply
attribute [ref_read] val_main_cst_28_apply val_main_v163_apply val_main_v164_apply val_main_v165_apply val_main_v166_apply val_main_v167_apply
attribute [ref_read] val_main_cst_29_apply val_main_v168_apply val_main_v169_apply val_main_cst_30_apply val_main_v170_apply val_main_v171_apply
attribute [ref_read] val_main_v172_apply val_main_v173_apply val_main_cst_31_apply val_main_v174_apply val_main_v175_apply val_main_v176_apply
attribute [ref_read] val_main_v177_apply val_main_v178_apply val_main_v179_apply val_main_v180_apply val_main_v181_apply val_main_v182_apply
attribute [ref_read] val_main_v183_apply val_main_v184_apply val_main_call5_cst_apply val_main_call5_v0_apply val_main_v186_apply val_main_v187_apply
attribute [ref_read] val_main_v188_apply val_main_cst_32_apply val_main_v192_apply val_main_v193_apply val_main_cst_33_apply val_main_v194_apply
attribute [ref_read] val_main_v195_apply val_main_v196_apply val_main_v197_apply val_main_v198_apply val_main_cst_34_apply val_main_v199_apply
attribute [ref_read] val_main_v200_apply val_main_cst_35_apply val_main_v201_apply val_main_v202_apply val_main_v203_apply val_main_v204_apply
attribute [ref_read] val_main_cst_36_apply val_main_v205_apply val_main_v206_apply val_main_v207_apply val_main_v208_apply val_main_v209_apply
attribute [ref_read] val_main_v210_apply val_main_v211_apply val_main_v212_apply val_main_v213_apply val_main_v214_apply val_main_v215_apply
attribute [ref_read] val_main_call6_cst_apply val_main_call6_v0_apply val_main_v217_apply val_main_v218_apply val_main_v219_apply

end Cert.RefValue
-- ==== Proof.RefStagesA.lean ====
/-
  The residual path of the reference, read row by row.

  Every operation of the reference acts on all 524288 rows at once; read at an index (n, j) it only ever touches row n:
  a contraction reads row n of its left operand, a sum over the last axis adds up row n, a broadcast of a per-row
  number reads the number of row n, and a broadcast of a weight vector reads its entry j. So each array of the
  reference, at (n, j), is the corresponding stage of the one-row network applied to row n of the inputs. This file does
  the residual path: the joined input [rep | pose | opening], the first and second layers (each a contraction, a layer
  normalisation over the row, a rectifier) and the third linear layer with its bias. A stage is read by rewriting the
  operations inside it with their reading lemmas and their index functions at coordinates; what remains is the
  stage's definition, term for term.
-/
import proofs.«104010_j23570780520494_2_alg».proof.Proof.RefReadP
import proofs.«104010_j23570780520494_2_alg».proof.Proof.RefIdx
import proofs.«104010_j23570780520494_2_alg».proof.Proof.Spec

noncomputable section

namespace Cert.RefValue

open Cert.ReferenceIdeal Cert.ReferenceIdeal.Read Idealize.ShloMosaic Idealize.ShloMosaic.ValueIdx

variable (x0 : FVec Ideal ⟨2, ![524288, 128]⟩ .f32) (x1 : FVec Ideal ⟨2, ![524288, 6]⟩ .f32)
  (x2 : FVec Ideal ⟨2, ![524288, 1]⟩ .f32)
  (x3 : FVec Ideal ⟨2, ![128, 64]⟩ .f32) (x4 x5 : FVec Ideal ⟨1, ![64]⟩ .f32) (x6 : FVec Ideal ⟨2, ![64, 32]⟩ .f32)
  (x7 : FVec Ideal ⟨1, ![32]⟩ .f32) (x8 : FVec Ideal ⟨2, ![6, 16]⟩ .f32) (x9 x10 : FVec Ideal ⟨1, ![16]⟩ .f32)
  (x11 : FVec Ideal ⟨2, ![16, 32]⟩ .f32) (x12 : FVec Ideal ⟨1, ![32]⟩ .f32) (x13 : FVec Ideal ⟨2, ![1, 16]⟩ .f32)
  (x14 x15 : FVec Ideal ⟨1, ![16]⟩ .f32) (x16 : FVec Ideal ⟨2, ![16, 32]⟩ .f32) (x17 : FVec Ideal ⟨1, ![32]⟩ .f32)
  (x18 : FVec Ideal ⟨2, ![32, 32]⟩ .f32) (x19 x20 : FVec Ideal ⟨1, ![32]⟩ .f32) (x21 : FVec Ideal ⟨2, ![32, 16]⟩ .f32)
  (x22 : FVec Ideal ⟨1, ![16]⟩ .f32) (x23 : FVec Ideal ⟨2, ![135, 64]⟩ .f32) (x24 x25 : FVec Ideal ⟨1, ![64]⟩ .f32)
  (x26 : FVec Ideal ⟨2, ![64, 32]⟩ .f32) (x27 x28 : FVec Ideal ⟨1, ![32]⟩ .f32) (x29 : FVec Ideal ⟨2, ![32, 16]⟩ .f32)
  (x30 : FVec Ideal ⟨1, ![16]⟩ .f32) (x31 : FVec Ideal ⟨2, ![32, 16]⟩ .f32) (x32 x33 : FVec Ideal ⟨1, ![16]⟩ .f32)
  (x34 : FVec Ideal ⟨2, ![16, 1]⟩ .f32) (x35 : FVec Ideal ⟨1, ![1]⟩ .f32)

local notation "PP" => Cert.Spec.params x3 x4 x5 x6 x7 x8 x9 x10 x11 x12 x13 x14 x15 x16 x17 x18 x19 x20 x21 x22 x23 x24 x25 x26 x27
  x28 x29 x30 x31 x32 x33 x34 x35

/-- The joined input of the residual path at (n, k): the representation's, the pose's or the opening's entry. -/
theorem v0_row (n : Fin 524288) (k : Fin 135) :
    val_main_v0 (F := Ideal) x0 x1 x2 (ix2 n k)
      = Cert.Spec.resIn (Cert.Spec.repRow x0 n) (Cert.Spec.poseRow x1 n) (Cert.Spec.openingRow x2 n) k := by
  unfold val_main_v0 Cert.Spec.resIn
  by_cases h : k.val < 128
  · rw [dif_pos h]
    refine concatenate_apply_piece (1 : Fin 2) [⟨S524288x128, x0⟩, ⟨S524288x6, x1⟩, ⟨S524288x1, x2⟩] _ (ix2 n k) 0 ?_ S524288x128 x0 rfl rfl 0 rfl
      (ix2 n ⟨k.val, h⟩) (fun b hb => ?_) (Nat.zero_add _)
    · show 0 < 3; omega
    · match b with
      | ⟨0, _⟩ => rfl
      | ⟨1, _⟩ => exact absurd rfl hb
  · rw [dif_neg h]
    by_cases h' : k.val < 134
    · rw [dif_pos h']
      refine concatenate_apply_piece (1 : Fin 2) [⟨S524288x128, x0⟩, ⟨S524288x6, x1⟩, ⟨S524288x1, x2⟩] _ (ix2 n k) 1 ?_ S524288x6 x1 rfl rfl 128 rfl
        (ix2 n ⟨k.val - 128, by omega⟩) (fun b hb => ?_) ?_
      · show 1 < 3; omega
      · match b with
        | ⟨0, _⟩ => rfl
        | ⟨1, _⟩ => exact absurd rfl hb
      · show 128 + (k.val - 128) = k.val; omega
    · rw [dif_neg h']
      refine concatenate_apply_piece (1 : Fin 2) [⟨S524288x128, x0⟩, ⟨S524288x6, x1⟩, ⟨S524288x1, x2⟩] _ (ix2 n k) 2 ?_ S524288x1 x2 rfl rfl 134 rfl
        (ix2 n (0 : Fin 1)) (fun b hb => ?_) ?_
      · show 2 < 3; omega
      · match b with
        | ⟨0, _⟩ => rfl
        | ⟨1, _⟩ => exact absurd rfl hb
      · show 134 + 0 = k.val; have := k.isLt; omega

/-- The first residual layer before its normalisation: the contraction of the joined input with the first weight. -/
theorem v1_row (n : Fin 524288) (j : Fin 64) :
    val_main_v1 (F := Ideal) x0 x1 x2 x23 (ix2 n j) = Cert.Spec.h1pre PP (Cert.Spec.repRow x0 n) (Cert.Spec.poseRow x1 n) (Cert.Spec.openingRow x2 n) j := by
  simp only [val_main_v1_apply, ref_read, ref_idx, v0_row x0 x1 x2]
  rfl

/-- The first residual layer: normalised over its 64 entries, then rectified. -/
theorem v26_row (n : Fin 524288) (j : Fin 64) :
    val_main_v26 (F := Ideal) x0 x1 x2 x23 x24 x25 (ix2 n j) = Cert.Spec.h1 PP (Cert.Spec.repRow x0 n) (Cert.Spec.poseRow x1 n) (Cert.Spec.openingRow x2 n) j := by
  simp only [val_main_v26_apply, ref_read, ref_idx, v1_row x0 x1 x2 x3 x4 x5 x6 x7 x8 x9 x10 x11 x12 x13 x14 x15 x16 x17 x18 x19 x20 x21 x22 x23 x24 x25 x26 x27 x28 x29 x30 x31 x32 x33 x34 x35]
  rfl

/-- The second residual layer before its normalisation. -/
theorem v27_row (n : Fin 524288) (j : Fin 32) :
    val_main_v27 (F := Ideal) x0 x1 x2 x23 x24 x25 x26 (ix2 n j) = Cert.Spec.h2pre PP (Cert.Spec.repRow x0 n) (Cert.Spec.poseRow x1 n) (Cert.Spec.openingRow x2 n) j := by
  simp only [val_main_v27_apply, ref_read, ref_idx, v26_row x0 x1 x2 x3 x4 x5 x6 x7 x8 x9 x10 x11 x12 x13 x14 x15 x16 x17 x18 x19 x20 x21 x22 x23 x24 x25 x26 x27 x28 x29 x30 x31 x32 x33 x34 x35]
  rfl

/-- The second residual layer: normalised over its 32 entries, then rectified. -/
theorem v52_row (n : Fin 524288) (j : Fin 32) :
    val_main_v52 (F := Ideal) x0 x1 x2 x23 x24 x25 x26 x27 x28 (ix2 n j) = Cert.Spec.h2 PP (Cert.Spec.repRow x0 n) (Cert.Spec.poseRow x1 n) (Cert.Spec.openingRow x2 n) j := by
  simp only [val_main_v52_apply, ref_read, ref_idx, v27_row x0 x1 x2 x3 x4 x5 x6 x7 x8 x9 x10 x11 x12 x13 x14 x15 x16 x17 x18 x19 x20 x21 x22 x23 x24 x25 x26 x27 x28 x29 x30 x31 x32 x33 x34 x35]
  rfl

/-- The residuals: the third linear layer with its bias. -/
theorem v56_row (n : Fin 524288) (j : Fin 16) :
    val_main_v56 (F := Ideal) x0 x1 x2 x23 x24 x25 x26 x27 x28 x29 x30 (ix2 n j) = Cert.Spec.residuals PP (Cert.Spec.repRow x0 n) (Cert.Spec.poseRow x1 n) (Cert.Spec.openingRow x2 n) j := by
  simp only [val_main_v56_apply, ref_read, ref_idx, v52_row x0 x1 x2 x3 x4 x5 x6 x7 x8 x9 x10 x11 x12 x13 x14 x15 x16 x17 x18 x19 x20 x21 x22 x23 x24 x25 x26 x27 x28 x29 x30 x31 x32 x33 x34 x35]
  rfl

end Cert.RefValue

end
-- ==== Proof.RefStagesB.lean ====
/-
  The key, query and value branches of the reference, read row by row.

  Each branch is a contraction of one of the row's inputs (the representation, the pose, the opening), a layer
  normalisation over the row, a rectifier, and a linear layer with bias. At (n, j) each array is the branch's stage of
  the one-row network at row n of that input, by the same reading as for the residual path.
-/
import proofs.«104010_j23570780520494_2_alg».proof.Proof.RefReadP
import proofs.«104010_j23570780520494_2_alg».proof.Proof.RefIdx
import proofs.«104010_j23570780520494_2_alg».proof.Proof.Spec

noncomputable section

namespace Cert.RefValue

open Cert.ReferenceIdeal Cert.ReferenceIdeal.Read Idealize.ShloMosaic Idealize.ShloMosaic.ValueIdx

variable (x0 : FVec Ideal ⟨2, ![524288, 128]⟩ .f32) (x1 : FVec Ideal ⟨2, ![524288, 6]⟩ .f32)
  (x2 : FVec Ideal ⟨2, ![524288, 1]⟩ .f32)
  (x3 : FVec Ideal ⟨2, ![128, 64]⟩ .f32) (x4 x5 : FVec Ideal ⟨1, ![64]⟩ .f32) (x6 : FVec Ideal ⟨2, ![64, 32]⟩ .f32)
  (x7 : FVec Ideal ⟨1, ![32]⟩ .f32) (x8 : FVec Ideal ⟨2, ![6, 16]⟩ .f32) (x9 x10 : FVec Ideal ⟨1, ![16]⟩ .f32)
  (x11 : FVec Ideal ⟨2, ![16, 32]⟩ .f32) (x12 : FVec Ideal ⟨1, ![32]⟩ .f32) (x13 : FVec Ideal ⟨2, ![1, 16]⟩ .f32)
  (x14 x15 : FVec Ideal ⟨1, ![16]⟩ .f32) (x16 : FVec Ideal ⟨2, ![16, 32]⟩ .f32) (x17 : FVec Ideal ⟨1, ![32]⟩ .f32)
  (x18 : FVec Ideal ⟨2, ![32, 32]⟩ .f32) (x19 x20 : FVec Ideal ⟨1, ![32]⟩ .f32) (x21 : FVec Ideal ⟨2, ![32, 16]⟩ .f32)
  (x22 : FVec Ideal ⟨1, ![16]⟩ .f32) (x23 : FVec Ideal ⟨2, ![135, 64]⟩ .f32) (x24 x25 : FVec Ideal ⟨1, ![64]⟩ .f32)
  (x26 : FVec Ideal ⟨2, ![64, 32]⟩ .f32) (x27 x28 : FVec Ideal ⟨1, ![32]⟩ .f32) (x29 : FVec Ideal ⟨2, ![32, 16]⟩ .f32)
  (x30 : FVec Ideal ⟨1, ![16]⟩ .f32) (x31 : FVec Ideal ⟨2, ![32, 16]⟩ .f32) (x32 x33 : FVec Ideal ⟨1, ![16]⟩ .f32)
  (x34 : FVec Ideal ⟨2, ![16, 1]⟩ .f32) (x35 : FVec Ideal ⟨1, ![1]⟩ .f32)

local notation "PP" => Cert.Spec.params x3 x4 x5 x6 x7 x8 x9 x10 x11 x12 x13 x14 x15 x16 x17 x18 x19 x20 x21 x22 x23 x24 x25 x26 x27
  x28 x29 x30 x31 x32 x33 x34 x35

/-- The key branch's first layer, of the representation. -/
theorem v57_row (n : Fin 524288) (j : Fin 64) :
    val_main_v57 (F := Ideal) x0 x3 (ix2 n j) = Cert.Spec.keypre PP (Cert.Spec.repRow x0 n) j := by
  simp only [val_main_v57_apply, ref_read, ref_idx]
  rfl

/-- The key branch's hidden layer: normalised, rectified. -/
theorem v82_row (n : Fin 524288) (j : Fin 64) :
    val_main_v82 (F := Ideal) x0 x3 x4 x5 (ix2 n j) = Cert.Spec.keyh PP (Cert.Spec.repRow x0 n) j := by
  simp only [val_main_v82_apply, ref_read, ref_idx, v57_row x0 x3 x4 x5 x6 x7 x8 x9 x10 x11 x12 x13 x14 x15 x16 x17 x18 x19 x20 x21 x22 x23 x24 x25 x26 x27 x28 x29 x30 x31 x32 x33 x34 x35]
  rfl

/-- The key. -/
theorem v86_row (n : Fin 524288) (j : Fin 32) :
    val_main_v86 (F := Ideal) x0 x3 x4 x5 x6 x7 (ix2 n j) = Cert.Spec.key PP (Cert.Spec.repRow x0 n) j := by
  simp only [val_main_v86_apply, ref_read, ref_idx, v82_row x0 x3 x4 x5 x6 x7 x8 x9 x10 x11 x12 x13 x14 x15 x16 x17 x18 x19 x20 x21 x22 x23 x24 x25 x26 x27 x28 x29 x30 x31 x32 x33 x34 x35]
  rfl

/-- The query branch's first layer, of the pose. -/
theorem v87_row (n : Fin 524288) (j : Fin 16) :
    val_main_v87 (F := Ideal) x1 x8 (ix2 n j) = Cert.Spec.querypre PP (Cert.Spec.poseRow x1 n) j := by
  simp only [val_main_v87_apply, ref_read, ref_idx]
  rfl

/-- The query branch's hidden layer: normalised, rectified. -/
theorem v112_row (n : Fin 524288) (j : Fin 16) :
    val_main_v112 (F := Ideal) x1 x8 x9 x10 (ix2 n j) = Cert.Spec.queryh PP (Cert.Spec.poseRow x1 n) j := by
  simp only [val_main_v112_apply, ref_read, ref_idx, v87_row x1 x3 x4 x5 x6 x7 x8 x9 x10 x11 x12 x13 x14 x15 x16 x17 x18 x19 x20 x21 x22 x23 x24 x25 x26 x27 x28 x29 x30 x31 x32 x33 x34 x35]
  rfl

/-- The query. -/
theorem v116_row (n : Fin 524288) (j : Fin 32) :
    val_main_v116 (F := Ideal) x1 x8 x9 x10 x11 x12 (ix2 n j) = Cert.Spec.query PP (Cert.Spec.poseRow x1 n) j := by
  simp only [val_main_v116_apply, ref_read, ref_idx, v112_row x1 x3 x4 x5 x6 x7 x8 x9 x10 x11 x12 x13 x14 x15 x16 x17 x18 x19 x20 x21 x22 x23 x24 x25 x26 x27 x28 x29 x30 x31 x32 x33 x34 x35]
  rfl

/-- The value branch's first layer, of the opening: a contraction over one coordinate. -/
theorem v117_row (n : Fin 524288) (j : Fin 16) :
    val_main_v117 (F := Ideal) x2 x13 (ix2 n j) = Cert.Spec.valuepre PP (Cert.Spec.openingRow x2 n) j := by
  simp only [val_main_v117_apply, ref_idx]
  unfold Cert.Spec.valuepre Cert.Spec.lin
  refine Finset.sum_congr rfl fun k _ => ?_
  obtain rfl : k = (0 : Fin 1) := Subsingleton.elim _ _
  rfl

/-- The value branch's hidden layer: normalised, rectified. -/
theorem v142_row (n : Fin 524288) (j : Fin 16) :
    val_main_v142 (F := Ideal) x2 x13 x14 x15 (ix2 n j) = Cert.Spec.valueh PP (Cert.Spec.openingRow x2 n) j := by
  simp only [val_main_v142_apply, ref_read, ref_idx, v117_row x2 x3 x4 x5 x6 x7 x8 x9 x10 x11 x12 x13 x14 x15 x16 x17 x18 x19 x20 x21 x22 x23 x24 x25 x26 x27 x28 x29 x30 x31 x32 x33 x34 x35]
  rfl

/-- The value. -/
theorem v146_row (n : Fin 524288) (j : Fin 32) :
    val_main_v146 (F := Ideal) x2 x13 x14 x15 x16 x17 (ix2 n j) = Cert.Spec.value PP (Cert.Spec.openingRow x2 n) j := by
  simp only [val_main_v146_apply, ref_read, ref_idx, v142_row x2 x3 x4 x5 x6 x7 x8 x9 x10 x11 x12 x13 x14 x15 x16 x17 x18 x19 x20 x21 x22 x23 x24 x25 x26 x27 x28 x29 x30 x31 x32 x33 x34 x35]
  rfl

end Cert.RefValue

end
-- ==== Proof.RefStagesC.lean ====
/-
  The attention and the attention head of the reference, read row by row.

  The products query * key are reduced along the row by the maximum: a fold of max over the row's 32 coordinates from
  the minus-infinity word (the maximum commutes and associates, so the fold does not depend on an order), joined with
  that word once more. The exponentials of the products less that maximum are summed along the row and each is divided
  by the sum; the result weighs the value. The attention head is a block like the branches: a contraction, a layer
  normalisation, a rectifier, a linear layer with bias.
-/
import proofs.«104010_j23570780520494_2_alg».proof.Proof.RefStagesB

noncomputable section

namespace Cert.RefValue

open Cert.ReferenceIdeal Cert.ReferenceIdeal.Gen Cert.ReferenceIdeal.Read Idealize.ShloMosaic Idealize.ShloMosaic.ValueIdx

variable (x0 : FVec Ideal ⟨2, ![524288, 128]⟩ .f32) (x1 : FVec Ideal ⟨2, ![524288, 6]⟩ .f32)
  (x2 : FVec Ideal ⟨2, ![524288, 1]⟩ .f32)
  (x3 : FVec Ideal ⟨2, ![128, 64]⟩ .f32) (x4 x5 : FVec Ideal ⟨1, ![64]⟩ .f32) (x6 : FVec Ideal ⟨2, ![64, 32]⟩ .f32)
  (x7 : FVec Ideal ⟨1, ![32]⟩ .f32) (x8 : FVec Ideal ⟨2, ![6, 16]⟩ .f32) (x9 x10 : FVec Ideal ⟨1, ![16]⟩ .f32)
  (x11 : FVec Ideal ⟨2, ![16, 32]⟩ .f32) (x12 : FVec Ideal ⟨1, ![32]⟩ .f32) (x13 : FVec Ideal ⟨2, ![1, 16]⟩ .f32)
  (x14 x15 : FVec Ideal ⟨1, ![16]⟩ .f32) (x16 : FVec Ideal ⟨2, ![16, 32]⟩ .f32) (x17 : FVec Ideal ⟨1, ![32]⟩ .f32)
  (x18 : FVec Ideal ⟨2, ![32, 32]⟩ .f32) (x19 x20 : FVec Ideal ⟨1, ![32]⟩ .f32) (x21 : FVec Ideal ⟨2, ![32, 16]⟩ .f32)
  (x22 : FVec Ideal ⟨1, ![16]⟩ .f32) (x23 : FVec Ideal ⟨2, ![135, 64]⟩ .f32) (x24 x25 : FVec Ideal ⟨1, ![64]⟩ .f32)
  (x26 : FVec Ideal ⟨2, ![64, 32]⟩ .f32) (x27 x28 : FVec Ideal ⟨1, ![32]⟩ .f32) (x29 : FVec Ideal ⟨2, ![32, 16]⟩ .f32)
  (x30 : FVec Ideal ⟨1, ![16]⟩ .f32) (x31 : FVec Ideal ⟨2, ![32, 16]⟩ .f32) (x32 x33 : FVec Ideal ⟨1, ![16]⟩ .f32)
  (x34 : FVec Ideal ⟨2, ![16, 1]⟩ .f32) (x35 : FVec Ideal ⟨1, ![1]⟩ .f32)

local notation "PP" => Cert.Spec.params x3 x4 x5 x6 x7 x8 x9 x10 x11 x12 x13 x14 x15 x16 x17 x18 x19 x20 x21 x22 x23 x24 x25 x26 x27
  x28 x29 x30 x31 x32 x33 x34 x35

/-- The products query * key. -/
theorem v147_row (n : Fin 524288) (j : Fin 32) :
    val_main_v147 (F := Ideal) x0 x1 x3 x4 x5 x6 x7 x8 x9 x10 x11 x12 (ix2 n j) = Cert.Spec.logits PP (Cert.Spec.repRow x0 n) (Cert.Spec.poseRow x1 n) j := by
  simp only [val_main_v147_apply, ref_read, ref_idx, v116_row x1 x3 x4 x5 x6 x7 x8 x9 x10 x11 x12 x13 x14 x15 x16 x17 x18 x19 x20 x21 x22 x23 x24 x25 x26 x27 x28 x29 x30 x31 x32 x33 x34 x35, v86_row x0 x3 x4 x5 x6 x7 x8 x9 x10 x11 x12 x13 x14 x15 x16 x17 x18 x19 x20 x21 x22 x23 x24 x25 x26 x27 x28 x29 x30 x31 x32 x33 x34 x35]
  rfl

/-- The reduction of a row of products by the maximum, from the minus-infinity word: the fold of max over the row's
    32 coordinates (the maximum commutes and associates, so the order of the fold does not matter). -/
theorem v148_row (n : Fin 524288) :
    val_main_v148 (F := Ideal) x0 x1 x3 x4 x5 x6 x7 x8 x9 x10 x11 x12 (ix1 n)
      = (Finset.univ : Finset (Fin 32)).fold max (Ideal.ofBits .f32 0xFF800000#32) (Cert.Spec.logits PP (Cert.Spec.repRow x0 n) (Cert.Spec.poseRow x1 n)) := by
  unfold val_main_v148
  have hR : S524288x32.Reduces [1] S524288 := by decide
  refine (Host.reduce_eq_fold_single FloatOps.maximumf _ _ reducesTo_S524288x32_S524288_d1 hR h_S_ (ix1 n)).trans ?_
  refine congrArg (fun f : Fin 32 → EReal => (Finset.univ : Finset (Fin 32)).fold max (Ideal.ofBits .f32 0xFF800000#32) f)
    (funext fun k => ?_)
  have e : hR.lift (ix1 n) k = ix2 n k :=
    funext fun a => Fin.ext (by match a with | ⟨0, _⟩ => rfl | ⟨1, _⟩ => rfl)
  show val_main_v147 (F := Ideal) x0 x1 x3 x4 x5 x6 x7 x8 x9 x10 x11 x12 (hR.lift (ix1 n) k) = _
  rw [e]
  exact v147_row x0 x1 x3 x4 x5 x6 x7 x8 x9 x10 x11 x12 x13 x14 x15 x16 x17 x18 x19 x20 x21 x22 x23 x24 x25 x26 x27 x28 x29 x30 x31 x32 x33 x34 x35 n k

/-- The row's maximum as the reference takes it. -/
theorem v150_row (n : Fin 524288) :
    val_main_v150 (F := Ideal) x0 x1 x3 x4 x5 x6 x7 x8 x9 x10 x11 x12 (ix1 n) = Cert.Spec.rowmax (Cert.Spec.logits PP (Cert.Spec.repRow x0 n) (Cert.Spec.poseRow x1 n)) := by
  rw [val_main_v150_apply, val_main_v149_apply, val_main_cst_25_apply, v148_row x0 x1 x3 x4 x5 x6 x7 x8 x9 x10 x11 x12 x13 x14 x15 x16 x17 x18 x19 x20 x21 x22 x23 x24 x25 x26 x27 x28 x29 x30 x31 x32 x33 x34 x35 n]
  rfl

/-- The exponentials of the products less their maximum. -/
theorem v154_row (n : Fin 524288) (j : Fin 32) :
    val_main_v154 (F := Ideal) x0 x1 x3 x4 x5 x6 x7 x8 x9 x10 x11 x12 (ix2 n j) = Cert.Spec.expm (Cert.Spec.logits PP (Cert.Spec.repRow x0 n) (Cert.Spec.poseRow x1 n)) j := by
  simp only [val_main_v154_apply, ref_read, ref_idx, v147_row x0 x1 x3 x4 x5 x6 x7 x8 x9 x10 x11 x12 x13 x14 x15 x16 x17 x18 x19 x20 x21 x22 x23 x24 x25 x26 x27 x28 x29 x30 x31 x32 x33 x34 x35, v150_row x0 x1 x3 x4 x5 x6 x7 x8 x9 x10 x11 x12 x13 x14 x15 x16 x17 x18 x19 x20 x21 x22 x23 x24 x25 x26 x27 x28 x29 x30 x31 x32 x33 x34 x35]
  rfl

/-- The softmax of the products. -/
theorem v158_row (n : Fin 524288) (j : Fin 32) :
    val_main_v158 (F := Ideal) x0 x1 x3 x4 x5 x6 x7 x8 x9 x10 x11 x12 (ix2 n j) = Cert.Spec.softmax (Cert.Spec.logits PP (Cert.Spec.repRow x0 n) (Cert.Spec.poseRow x1 n)) j := by
  simp only [val_main_v158_apply, ref_read, ref_idx, v154_row x0 x1 x3 x4 x5 x6 x7 x8 x9 x10 x11 x12 x13 x14 x15 x16 x17 x18 x19 x20 x21 x22 x23 x24 x25 x26 x27 x28 x29 x30 x31 x32 x33 x34 x35]
  rfl

/-- The attention: the softmax weighing the value. -/
theorem v159_row (n : Fin 524288) (j : Fin 32) :
    val_main_v159 (F := Ideal) x0 x1 x2 x3 x4 x5 x6 x7 x8 x9 x10 x11 x12 x13 x14 x15 x16 x17 (ix2 n j) = Cert.Spec.att PP (Cert.Spec.repRow x0 n) (Cert.Spec.poseRow x1 n) (Cert.Spec.openingRow x2 n) j := by
  simp only [val_main_v159_apply, ref_read, ref_idx, v158_row x0 x1 x3 x4 x5 x6 x7 x8 x9 x10 x11 x12 x13 x14 x15 x16 x17 x18 x19 x20 x21 x22 x23 x24 x25 x26 x27 x28 x29 x30 x31 x32 x33 x34 x35, v146_row x2 x3 x4 x5 x6 x7 x8 x9 x10 x11 x12 x13 x14 x15 x16 x17 x18 x19 x20 x21 x22 x23 x24 x25 x26 x27 x28 x29 x30 x31 x32 x33 x34 x35]
  rfl

/-- The attention head's first layer before its normalisation. -/
theorem v160_row (n : Fin 524288) (j : Fin 32) :
    val_main_v160 (F := Ideal) x0 x1 x2 x3 x4 x5 x6 x7 x8 x9 x10 x11 x12 x13 x14 x15 x16 x17 x18 (ix2 n j) = Cert.Spec.a1pre PP (Cert.Spec.repRow x0 n) (Cert.Spec.poseRow x1 n) (Cert.Spec.openingRow x2 n) j := by
  simp only [val_main_v160_apply, ref_read, ref_idx, v159_row x0 x1 x2 x3 x4 x5 x6 x7 x8 x9 x10 x11 x12 x13 x14 x15 x16 x17 x18 x19 x20 x21 x22 x23 x24 x25 x26 x27 x28 x29 x30 x31 x32 x33 x34 x35]
  rfl

/-- The attention head's hidden layer: normalised, rectified. -/
theorem v185_row (n : Fin 524288) (j : Fin 32) :
    val_main_v185 (F := Ideal) x0 x1 x2 x3 x4 x5 x6 x7 x8 x9 x10 x11 x12 x13 x14 x15 x16 x17 x18 x19 x20 (ix2 n j) = Cert.Spec.a1 PP (Cert.Spec.repRow x0 n) (Cert.Spec.poseRow x1 n) (Cert.Spec.openingRow x2 n) j := by
  simp only [val_main_v185_apply, ref_read, ref_idx, v160_row x0 x1 x2 x3 x4 x5 x6 x7 x8 x9 x10 x11 x12 x13 x14 x15 x16 x17 x18 x19 x20 x21 x22 x23 x24 x25 x26 x27 x28 x29 x30 x31 x32 x33 x34 x35]
  rfl

/-- The attention head's output. -/
theorem v189_row (n : Fin 524288) (j : Fin 16) :
    val_main_v189 (F := Ideal) x0 x1 x2 x3 x4 x5 x6 x7 x8 x9 x10 x11 x12 x13 x14 x15 x16 x17 x18 x19 x20 x21 x22 (ix2 n j) = Cert.Spec.attout PP (Cert.Spec.repRow x0 n) (Cert.Spec.poseRow x1 n) (Cert.Spec.openingRow x2 n) j := by
  simp only [val_main_v189_apply, ref_read, ref_idx, v185_row x0 x1 x2 x3 x4 x5 x6 x7 x8 x9 x10 x11 x12 x13 x14 x15 x16 x17 x18 x19 x20 x21 x22 x23 x24 x25 x26 x27 x28 x29 x30 x31 x32 x33 x34 x35]
  rfl

end Cert.RefValue

end
-- ==== Proof.RefStages.lean ====
/-
  The last block of the reference, and the whole reference as the specification.

  The last block's input joins, side by side, the attention head's output and the residuals; the block is a contraction,
  a layer normalisation, a rectifier and a linear layer with bias onto one number. At (n, 0) the reference's result is the
  score of row n of the one-row network: the reference IS the specification G.
-/
import proofs.«104010_j23570780520494_2_alg».proof.Proof.RefStagesA
import proofs.«104010_j23570780520494_2_alg».proof.Proof.RefStagesC

noncomputable section

namespace Cert.RefValue

open Cert.ReferenceIdeal Cert.ReferenceIdeal.Gen Cert.ReferenceIdeal.Read Idealize.ShloMosaic Idealize.ShloMosaic.ValueIdx

variable (x0 : FVec Ideal ⟨2, ![524288, 128]⟩ .f32) (x1 : FVec Ideal ⟨2, ![524288, 6]⟩ .f32)
  (x2 : FVec Ideal ⟨2, ![524288, 1]⟩ .f32)
  (x3 : FVec Ideal ⟨2, ![128, 64]⟩ .f32) (x4 x5 : FVec Ideal ⟨1, ![64]⟩ .f32) (x6 : FVec Ideal ⟨2, ![64, 32]⟩ .f32)
  (x7 : FVec Ideal ⟨1, ![32]⟩ .f32) (x8 : FVec Ideal ⟨2, ![6, 16]⟩ .f32) (x9 x10 : FVec Ideal ⟨1, ![16]⟩ .f32)
  (x11 : FVec Ideal ⟨2, ![16, 32]⟩ .f32) (x12 : FVec Ideal ⟨1, ![32]⟩ .f32) (x13 : FVec Ideal ⟨2, ![1, 16]⟩ .f32)
  (x14 x15 : FVec Ideal ⟨1, ![16]⟩ .f32) (x16 : FVec Ideal ⟨2, ![16, 32]⟩ .f32) (x17 : FVec Ideal ⟨1, ![32]⟩ .f32)
  (x18 : FVec Ideal ⟨2, ![32, 32]⟩ .f32) (x19 x20 : FVec Ideal ⟨1, ![32]⟩ .f32) (x21 : FVec Ideal ⟨2, ![32, 16]⟩ .f32)
  (x22 : FVec Ideal ⟨1, ![16]⟩ .f32) (x23 : FVec Ideal ⟨2, ![135, 64]⟩ .f32) (x24 x25 : FVec Ideal ⟨1, ![64]⟩ .f32)
  (x26 : FVec Ideal ⟨2, ![64, 32]⟩ .f32) (x27 x28 : FVec Ideal ⟨1, ![32]⟩ .f32) (x29 : FVec Ideal ⟨2, ![32, 16]⟩ .f32)
  (x30 : FVec Ideal ⟨1, ![16]⟩ .f32) (x31 : FVec Ideal ⟨2, ![32, 16]⟩ .f32) (x32 x33 : FVec Ideal ⟨1, ![16]⟩ .f32)
  (x34 : FVec Ideal ⟨2, ![16, 1]⟩ .f32) (x35 : FVec Ideal ⟨1, ![1]⟩ .f32)

local notation "PP" => Cert.Spec.params x3 x4 x5 x6 x7 x8 x9 x10 x11 x12 x13 x14 x15 x16 x17 x18 x19 x20 x21 x22 x23 x24 x25 x26 x27
  x28 x29 x30 x31 x32 x33 x34 x35

/-- The joined input of the last block at (n, k): the attention head's output, then the residuals. -/
theorem v190_row (n : Fin 524288) (k : Fin 32) :
    val_main_v190 (F := Ideal) x0 x1 x2 x3 x4 x5 x6 x7 x8 x9 x10 x11 x12 x13 x14 x15 x16 x17 x18 x19 x20 x21 x22 x23 x24 x25 x26 x27 x28 x29 x30 (ix2 n k) = Cert.Spec.features PP (Cert.Spec.repRow x0 n) (Cert.Spec.poseRow x1 n) (Cert.Spec.openingRow x2 n) k := by
  unfold val_main_v190 Cert.Spec.features
  by_cases h : k.val < 16
  · rw [dif_pos h]
    refine (concatenate_apply_piece (1 : Fin 2)
      [⟨S524288x16, val_main_v189 (F := Ideal) x0 x1 x2 x3 x4 x5 x6 x7 x8 x9 x10 x11 x12 x13 x14 x15 x16 x17 x18 x19 x20 x21 x22⟩, ⟨S524288x16, val_main_v56 (F := Ideal) x0 x1 x2 x23 x24 x25 x26 x27 x28 x29 x30⟩] _ (ix2 n k) 0 ?_
      S524288x16 _ rfl rfl 0 rfl (ix2 n ⟨k.val, h⟩) (fun b hb => ?_) (Nat.zero_add _)).trans (v189_row x0 x1 x2 x3 x4 x5 x6 x7 x8 x9 x10 x11 x12 x13 x14 x15 x16 x17 x18 x19 x20 x21 x22 x23 x24 x25 x26 x27 x28 x29 x30 x31 x32 x33 x34 x35 n ⟨k.val, h⟩)
    · show 0 < 2; omega
    · match b with
      | ⟨0, _⟩ => rfl
      | ⟨1, _⟩ => exact absurd rfl hb
  · rw [dif_neg h]
    refine (concatenate_apply_piece (1 : Fin 2)
      [⟨S524288x16, val_main_v189 (F := Ideal) x0 x1 x2 x3 x4 x5 x6 x7 x8 x9 x10 x11 x12 x13 x14 x15 x16 x17 x18 x19 x20 x21 x22⟩, ⟨S524288x16, val_main_v56 (F := Ideal) x0 x1 x2 x23 x24 x25 x26 x27 x28 x29 x30⟩] _ (ix2 n k) 1 ?_
      S524288x16 _ rfl rfl 16 rfl (ix2 n ⟨k.val - 16, by have := k.isLt; omega⟩) (fun b hb => ?_) ?_).trans
      (v56_row x0 x1 x2 x3 x4 x5 x6 x7 x8 x9 x10 x11 x12 x13 x14 x15 x16 x17 x18 x19 x20 x21 x22 x23 x24 x25 x26 x27 x28 x29 x30 x31 x32 x33 x34 x35 n ⟨k.val - 16, by have := k.isLt; omega⟩)
    · show 1 < 2; omega
    · match b with
      | ⟨0, _⟩ => rfl
      | ⟨1, _⟩ => exact absurd rfl hb
    · show 16 + (k.val - 16) = k.val; omega

/-- The last block's first layer before its normalisation. -/
theorem v191_row (n : Fin 524288) (j : Fin 16) :
    val_main_v191 (F := Ideal) x0 x1 x2 x3 x4 x5 x6 x7 x8 x9 x10 x11 x12 x13 x14 x15 x16 x17 x18 x19 x20 x21 x22 x23 x24 x25 x26 x27 x28 x29 x30 x31 (ix2 n j) = Cert.Spec.scorepre PP (Cert.Spec.repRow x0 n) (Cert.Spec.poseRow x1 n) (Cert.Spec.openingRow x2 n) j := by
  simp only [val_main_v191_apply, ref_read, ref_idx, v190_row x0 x1 x2 x3 x4 x5 x6 x7 x8 x9 x10 x11 x12 x13 x14 x15 x16 x17 x18 x19 x20 x21 x22 x23 x24 x25 x26 x27 x28 x29 x30 x31 x32 x33 x34 x35]
  rfl

/-- The last block's hidden layer: normalised, rectified. -/
theorem v216_row (n : Fin 524288) (j : Fin 16) :
    val_main_v216 (F := Ideal) x0 x1 x2 x3 x4 x5 x6 x7 x8 x9 x10 x11 x12 x13 x14 x15 x16 x17 x18 x19 x20 x21 x22 x23 x24 x25 x26 x27 x28 x29 x30 x31 x32 x33 (ix2 n j) = Cert.Spec.scoreh PP (Cert.Spec.repRow x0 n) (Cert.Spec.poseRow x1 n) (Cert.Spec.openingRow x2 n) j := by
  simp only [val_main_v216_apply, ref_read, ref_idx, v191_row x0 x1 x2 x3 x4 x5 x6 x7 x8 x9 x10 x11 x12 x13 x14 x15 x16 x17 x18 x19 x20 x21 x22 x23 x24 x25 x26 x27 x28 x29 x30 x31 x32 x33 x34 x35]
  rfl

/-- The score: the last linear layer with its bias; its one entry. -/
theorem v220_row (n : Fin 524288) (j : Fin 1) :
    val_main_v220 (F := Ideal) x0 x1 x2 x3 x4 x5 x6 x7 x8 x9 x10 x11 x12 x13 x14 x15 x16 x17 x18 x19 x20 x21 x22 x23 x24 x25 x26 x27 x28 x29 x30 x31 x32 x33 x34 x35 (ix2 n j) = Cert.Spec.score PP (Cert.Spec.repRow x0 n) (Cert.Spec.poseRow x1 n) (Cert.Spec.openingRow x2 n) j := by
  obtain rfl : j = (0 : Fin 1) := Subsingleton.elim _ _
  simp only [val_main_v220_apply, ref_read, ref_idx, v216_row x0 x1 x2 x3 x4 x5 x6 x7 x8 x9 x10 x11 x12 x13 x14 x15 x16 x17 x18 x19 x20 x21 x22 x23 x24 x25 x26 x27 x28 x29 x30 x31 x32 x33 x34 x35]
  rfl

/-- The reference's result is the specification: entry (n, 0) is the score of row n. -/
theorem ref_is_G :
    val_main_v220 (F := Ideal) x0 x1 x2 x3 x4 x5 x6 x7 x8 x9 x10 x11 x12 x13 x14 x15 x16 x17 x18 x19 x20 x21 x22 x23 x24 x25 x26 x27 x28 x29 x30 x31 x32 x33 x34 x35 = Cert.Spec.G x0 x1 x2 x3 x4 x5 x6 x7 x8 x9 x10 x11 x12 x13 x14 x15 x16 x17 x18 x19 x20 x21 x22 x23 x24 x25 x26 x27 x28 x29 x30 x31 x32 x33 x34 x35 := by
  funext i
  obtain ⟨n, z, rfl⟩ : ∃ (n : Fin 524288) (z : Fin 1), i = ix2 n z := ⟨i 0, i 1, eq_ix2 i⟩
  obtain rfl : z = (0 : Fin 1) := Subsingleton.elim _ _
  exact v220_row x0 x1 x2 x3 x4 x5 x6 x7 x8 x9 x10 x11 x12 x13 x14 x15 x16 x17 x18 x19 x20 x21 x22 x23 x24 x25 x26 x27 x28 x29 x30 x31 x32 x33 x34 x35 n 0

end Cert.RefValue

end
-- ==== Proof.Algebraic.lean ====
/-
  The two idealized programs, run from memories that agree on the arguments, end with equal results.

  Both results are the specification's array of the arguments: the kernel's by its run read block by block
  (each stored block is the kernel's row function of the point's rows and the fused weights, which on those is the
  network's row function), the reference's by its operations read one stage at a time. The arguments agree, so
  the two arrays are one.
-/
import proofs.«104010_j23570780520494_2_alg».proof.Defs
import proofs.«104010_j23570780520494_2_alg».proof.Proof.Gen.Pre_finite_inputs
import proofs.«104010_j23570780520494_2_alg».proof.Proof.Gen.ReferenceIdeal
import proofs.«104010_j23570780520494_2_alg».proof.Proof.KiFinalB
import proofs.«104010_j23570780520494_2_alg».proof.Proof.KPayFinal
import proofs.«104010_j23570780520494_2_alg».proof.Proof.KWinAll
import proofs.«104010_j23570780520494_2_alg».proof.Proof.KWinRep
import proofs.«104010_j23570780520494_2_alg».proof.Proof.KWinPo
import proofs.«104010_j23570780520494_2_alg».proof.Proof.RefFrame
import proofs.«104010_j23570780520494_2_alg».proof.Proof.RefStages

set_option maxRecDepth 16384

noncomputable section

open Idealize.ShloMosaic Idealize.SL.Sem

namespace Cert.Proof.AlgClaims

set_option maxHeartbeats 4000000 in
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)),
    Cert.KernelIdeal.KFinal.run m ρ Cert.KernelIdeal.KValue.payload_apply (fun c t => Cert.KernelIdeal.KWin.kparams_blocks m c t)
      (fun c t r k => Cert.KernelIdeal.KWin.rep_block m c t r k) (fun c t r k => Cert.KernelIdeal.KWin.po_block m c t r k), ?_⟩
  refine (θ_run Cert.ReferenceIdeal.defs _ _).mono (fun _ h c => ⟨(h c).1.trans ?_, (h c).2⟩) (Cert.Proof.RefClaims.ref_run m' ρ')
  rw [Cert.RefValue.ref_is_G]
  obtain ⟨h0, h1, h2, h3, h4, h5, h6, h7, h8, h9, h10, h11, h12, h13, h14, h15, h16, h17, h18, h19, h20, h21, h22, h23, h24, h25, h26, h27, h28, h29, h30, h31, h32, h33, h34, h35⟩ := hagree c
  rw [h0, h1, h2, h3, h4, h5, h6, h7, h8, h9, h10, h11, h12, h13, h14, h15, h16, h17, h18, h19, h20, h21, h22, h23, h24, h25, h26, h27, h28, h29, h30, h31, h32, h33, h34, h35]

end Cert.Proof.AlgClaims

end
-- ==== Proof.lean ====
/-
  The certificate: the kernel and its idealization run to the end with their arguments unchanged, so does the
  reference, the idealization rewrote nothing, and at the ideal instance the idealized kernel and the reference,
  run from memories that agree on the arguments, end with equal results.

  The kernel scores 524288 rows independently with a small network (three first layers fused into two wide
  products, two pairs of second layers fused into block-diagonal products, seven layer normalisations, one
  softmax); the reference computes the same network one array operation at a time. On the extended reals the two
  differ only by re-bracketed finite sums, terms with a zero factor, changes of float format and a row-major
  relayout, so no finiteness of the inputs is used anywhere.
-/
import proofs.«104010_j23570780520494_2_alg».proof.Defs
import proofs.«104010_j23570780520494_2_alg».proof.Proof.Gen.Kernel
import proofs.«104010_j23570780520494_2_alg».proof.Proof.Gen.KernelIdeal
import proofs.«104010_j23570780520494_2_alg».proof.Proof.Gen.ReferenceIdeal
import proofs.«104010_j23570780520494_2_alg».proof.Proof.Gen.Pre_finite_inputs
import proofs.«104010_j23570780520494_2_alg».proof.Proof.KbRun
import proofs.«104010_j23570780520494_2_alg».proof.Proof.KiRun
import proofs.«104010_j23570780520494_2_alg».proof.Proof.RefFrame
import proofs.«104010_j23570780520494_2_alg».proof.Proof.Algebraic
import Idealize.ShloMosaic.Adequacy
import Idealize.ShloMosaic.Init

noncomputable section

namespace Cert.Proof

open Idealize.ShloMosaic Idealize.SL.Sem

/-- The kernel as printed, at the bit-exact instance. -/
theorem frame_k : Cert.frame_Kernel := fun m ρ _ => Cert.Kernel.Frame.frame (F := Bits) m ρ
/-- The idealized kernel, at the ideal instance. -/
theorem frame_ki : Cert.frame_KernelIdeal := fun m ρ _ => Cert.KernelIdeal.Frame.frame (F := Ideal) m ρ

theorem claim : Cert.Claim := ⟨Cert.Kernel.Gen.facts, Cert.KernelIdeal.Gen.facts, Cert.ReferenceIdeal.Gen.facts, Cert.Pre_finite_inputs.Gen.facts,
  frame_k, frame_ki, Cert.Proof.RefClaims.frame_ri, trivial, Cert.Proof.AlgClaims.algebraic⟩

end Cert.Proof

end
